-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S50x16384 : Shape := ⟨2, ![50, 16384]⟩
abbrev S819200 : Shape := ⟨1, ![819200]⟩
abbrev S_ : Shape := ⟨0, ![]⟩
abbrev S1000000x128 : Shape := ⟨2, ![1000000, 128]⟩
abbrev S50x64x16384 : Shape := ⟨3, ![50, 64, 16384]⟩
abbrev S256 : Shape := ⟨1, ![256]⟩
abbrev S256x128 : Shape := ⟨2, ![256, 128]⟩
abbrev S128x128 : Shape := ⟨2, ![128, 128]⟩
abbrev S16 : Shape := ⟨1, ![16]⟩
abbrev S8x128 : Shape := ⟨2, ![8, 128]⟩
abbrev S1x8x128 : Shape := ⟨3, ![1, 8, 128]⟩
abbrev S16384x50x64 : Shape := ⟨3, ![16384, 50, 64]⟩

abbrev nBuf : Table → Nat
  | .hbm => 9
  | .local .scVector .vmem => 5
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S50x16384, .i32⟩
  | .hbm, ⟨3, _⟩ => ⟨S819200, .i32⟩
  | .hbm, ⟨4, _⟩ => ⟨S_, .i32⟩
  | .hbm, ⟨5, _⟩ => ⟨S_, .f32⟩
  | .hbm, ⟨6, _⟩ => ⟨S1000000x128, .f32⟩
  | .hbm, ⟨7, _⟩ => ⟨S50x64x16384, .f32⟩
  | .hbm, ⟨8, _⟩ => ⟨S16384x50x64, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S128x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 3, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_34 : BitVec 32) : Fin 1 → Nat :=
  let c0_i32_33 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v116 : BitVec 32 := Scalar.addi c0_i32_33 v2
  let v117 : BitVec 32 := Scalar.addi v116 c0_i32_34
  ![v117.toNat]
@[reducible] def k0_t1_loop : Scf.Loop 32 :=
  let c0_i32_40 : BitVec 32 := 0#32
  let c50_i32 : BitVec 32 := 50#32
  let v129 : BitVec 32 := Scalar.addi c0_i32_40 c50_i32
  let c1_i32_41 : BitVec 32 := 1#32
  ⟨c0_i32_40, v129, c1_i32_41⟩
def k0_cond1 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c1_i32_159 : BitVec 32 := 1#32
  let v246 : BitVec 32 := Scalar.addi v245 c1_i32_159
  let c100_i32 : BitVec 32 := 100#32
  let v276 : BitVec 1 := Scalar.cmpi .slt v246 c100_i32
  let v277 : BitVec 32 := Scalar.extui v276
  let c0_i32_174 : BitVec 32 := 0#32
  let v278 : BitVec 1 := Scalar.cmpi .ne v277 c0_i32_174
  v278

def k0_off2 (i : grid0.Coords) (k0_t1 : Fin k0_t1_loop.trips) : Fin 1 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c1_i32_159 : BitVec 32 := 1#32
  let v246 : BitVec 32 := Scalar.addi v245 c1_i32_159
  let c0_i32_440 : BitVec 32 := 0#32
  let v556 : BitVec 1 := Scalar.cmpi .sgt v246 c0_i32_440
  let v557 : BitVec 32 := Scalar.extui v556
  let c0_i32_441 : BitVec 32 := 0#32
  let v558 : BitVec 1 := Scalar.cmpi .slt v246 c0_i32_441
  let v559 : BitVec 32 := Scalar.extui v558
  let v560 : BitVec 32 := Scalar.subi v557 v559
  let c2_i32_439 : BitVec 32 := 2#32
  let c0_i32_442 : BitVec 32 := 0#32
  let v561 : BitVec 1 := Scalar.cmpi .sgt c2_i32_439 c0_i32_442
  let v562 : BitVec 32 := Scalar.extui v561
  let c0_i32_443 : BitVec 32 := 0#32
  let v563 : BitVec 1 := Scalar.cmpi .slt c2_i32_439 c0_i32_443
  let v564 : BitVec 32 := Scalar.extui v563
  let v565 : BitVec 32 := Scalar.subi v562 v564
  let v566 : BitVec 1 := Scalar.cmpi .ne v560 v565
  let v567 : BitVec 32 := Scalar.remsi v246 c2_i32_439
  let c0_i32_444 : BitVec 32 := 0#32
  let v568 : BitVec 1 := Scalar.cmpi .ne v567 c0_i32_444
  let v569 : BitVec 1 := Scalar.andi v566 v568
  let v555 : BitVec 32 := Scalar.divsi v246 c2_i32_439
  let c1_i32_445 : BitVec 32 := 1#32
  let v570 : BitVec 32 := Scalar.subi v555 c1_i32_445
  let v571 : BitVec 32 := Scalar.select v569 v570 v555
  let c16384_i32 : BitVec 32 := 16384#32
  let v572 : BitVec 32 := Scalar.muli v571 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v573 : BitVec 32 := Scalar.addi v572 v2
  let c2_i32_446 : BitVec 32 := 2#32
  let c0_i32_447 : BitVec 32 := 0#32
  let v574 : BitVec 1 := Scalar.cmpi .eq c2_i32_446 c0_i32_447
  let c1_i32_448 : BitVec 32 := 1#32
  let v575 : BitVec 32 := Scalar.select v574 c1_i32_448 c2_i32_446
  let v576 : BitVec 32 := Scalar.remsi v246 v575
  let c0_i32_450 : BitVec 32 := 0#32
  let v578 : BitVec 1 := Scalar.cmpi .slt v576 c0_i32_450
  let c0_i32_451 : BitVec 32 := 0#32
  let v579 : BitVec 1 := Scalar.cmpi .slt v575 c0_i32_451
  let v580 : BitVec 1 := Scalar.xori v578 v579
  let c0_i32_449 : BitVec 32 := 0#32
  let v577 : BitVec 1 := Scalar.cmpi .ne v576 c0_i32_449
  let v581 : BitVec 1 := Scalar.andi v580 v577
  let v582 : BitVec 32 := Scalar.addi v576 v575
  let v583 : BitVec 32 := Scalar.select v581 v582 v576
  let c256_i32_452 : BitVec 32 := 256#32
  let v584 : BitVec 32 := Scalar.muli v583 c256_i32_452
  let v585 : BitVec 32 := Scalar.addi v573 v584
  ![v585.toNat]
def k0_cond2 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c2_i32_177 : BitVec 32 := 2#32
  let v280 : BitVec 32 := Scalar.addi v245 c2_i32_177
  let c100_i32_178 : BitVec 32 := 100#32
  let v281 : BitVec 1 := Scalar.cmpi .slt v280 c100_i32_178
  let v282 : BitVec 32 := Scalar.extui v281
  let c0_i32_179 : BitVec 32 := 0#32
  let v283 : BitVec 1 := Scalar.cmpi .ne v282 c0_i32_179
  v283

def k0_off3 (i : grid0.Coords) (k0_t1 : Fin k0_t1_loop.trips) : Fin 1 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c2_i32_439 : BitVec 32 := 2#32
  let v555 : BitVec 32 := Scalar.addi v245 c2_i32_439
  let c0_i32_441 : BitVec 32 := 0#32
  let v557 : BitVec 1 := Scalar.cmpi .sgt v555 c0_i32_441
  let v558 : BitVec 32 := Scalar.extui v557
  let c0_i32_442 : BitVec 32 := 0#32
  let v559 : BitVec 1 := Scalar.cmpi .slt v555 c0_i32_442
  let v560 : BitVec 32 := Scalar.extui v559
  let v561 : BitVec 32 := Scalar.subi v558 v560
  let c2_i32_440 : BitVec 32 := 2#32
  let c0_i32_443 : BitVec 32 := 0#32
  let v562 : BitVec 1 := Scalar.cmpi .sgt c2_i32_440 c0_i32_443
  let v563 : BitVec 32 := Scalar.extui v562
  let c0_i32_444 : BitVec 32 := 0#32
  let v564 : BitVec 1 := Scalar.cmpi .slt c2_i32_440 c0_i32_444
  let v565 : BitVec 32 := Scalar.extui v564
  let v566 : BitVec 32 := Scalar.subi v563 v565
  let v567 : BitVec 1 := Scalar.cmpi .ne v561 v566
  let v568 : BitVec 32 := Scalar.remsi v555 c2_i32_440
  let c0_i32_445 : BitVec 32 := 0#32
  let v569 : BitVec 1 := Scalar.cmpi .ne v568 c0_i32_445
  let v570 : BitVec 1 := Scalar.andi v567 v569
  let v556 : BitVec 32 := Scalar.divsi v555 c2_i32_440
  let c1_i32_446 : BitVec 32 := 1#32
  let v571 : BitVec 32 := Scalar.subi v556 c1_i32_446
  let v572 : BitVec 32 := Scalar.select v570 v571 v556
  let c16384_i32 : BitVec 32 := 16384#32
  let v573 : BitVec 32 := Scalar.muli v572 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v574 : BitVec 32 := Scalar.addi v573 v2
  let c2_i32_447 : BitVec 32 := 2#32
  let c0_i32_448 : BitVec 32 := 0#32
  let v575 : BitVec 1 := Scalar.cmpi .eq c2_i32_447 c0_i32_448
  let c1_i32_449 : BitVec 32 := 1#32
  let v576 : BitVec 32 := Scalar.select v575 c1_i32_449 c2_i32_447
  let v577 : BitVec 32 := Scalar.remsi v555 v576
  let c0_i32_451 : BitVec 32 := 0#32
  let v579 : BitVec 1 := Scalar.cmpi .slt v577 c0_i32_451
  let c0_i32_452 : BitVec 32 := 0#32
  let v580 : BitVec 1 := Scalar.cmpi .slt v576 c0_i32_452
  let v581 : BitVec 1 := Scalar.xori v579 v580
  let c0_i32_450 : BitVec 32 := 0#32
  let v578 : BitVec 1 := Scalar.cmpi .ne v577 c0_i32_450
  let v582 : BitVec 1 := Scalar.andi v581 v578
  let v583 : BitVec 32 := Scalar.addi v577 v576
  let v584 : BitVec 32 := Scalar.select v582 v583 v577
  let c256_i32_453 : BitVec 32 := 256#32
  let v585 : BitVec 32 := Scalar.muli v584 c256_i32_453
  let v586 : BitVec 32 := Scalar.addi v574 v585
  ![v586.toNat]
def k0_cond3 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_180 : BitVec 32 := 0#32
  let v284 : BitVec 1 := Scalar.cmpi .sgt v245 c0_i32_180
  let v285 : BitVec 32 := Scalar.extui v284
  let c0_i32_181 : BitVec 32 := 0#32
  let v286 : BitVec 1 := Scalar.cmpi .ne v285 c0_i32_181
  v286

def k0_off4 (i : grid0.Coords) (k0_t1 : Fin k0_t1_loop.trips) (c0_i32_439 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v555 : BitVec 32 := Scalar.addi v275 c0_i32_439
  ![v263.toNat, 0, v555.toNat]
def k0_off5 (i : grid0.Coords) (k0_t1 : Fin k0_t1_loop.trips) (c0_i32_453 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c8_i32_456 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v569 : BitVec 32 := Scalar.addi v275 c0_i32_453
  ![v263.toNat, 8, v569.toNat]
def k0_off6 (i : grid0.Coords) (k0_t1 : Fin k0_t1_loop.trips) (c0_i32_467 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c16_i32_470 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v583 : BitVec 32 := Scalar.addi v275 c0_i32_467
  ![v263.toNat, 16, v583.toNat]
def k0_off7 (i : grid0.Coords) (k0_t1 : Fin k0_t1_loop.trips) (c0_i32_481 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c24_i32_484 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v597 : BitVec 32 := Scalar.addi v275 c0_i32_481
  ![v263.toNat, 24, v597.toNat]
def k0_off8 (i : grid0.Coords) (k0_t1 : Fin k0_t1_loop.trips) (c0_i32_495 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c32_i32_498 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v611 : BitVec 32 := Scalar.addi v275 c0_i32_495
  ![v263.toNat, 32, v611.toNat]
def k0_off9 (i : grid0.Coords) (k0_t1 : Fin k0_t1_loop.trips) (c0_i32_509 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c40_i32_512 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v625 : BitVec 32 := Scalar.addi v275 c0_i32_509
  ![v263.toNat, 40, v625.toNat]
def k0_off10 (i : grid0.Coords) (k0_t1 : Fin k0_t1_loop.trips) (c0_i32_523 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c48_i32_526 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v639 : BitVec 32 := Scalar.addi v275 c0_i32_523
  ![v263.toNat, 48, v639.toNat]
def k0_off11 (i : grid0.Coords) (k0_t1 : Fin k0_t1_loop.trips) (c0_i32_537 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c0_i32_158 : BitVec 32 := 0#32
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c56_i32_540 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v653 : BitVec 32 := Scalar.addi v275 c0_i32_537
  ![v263.toNat, 56, v653.toNat]
@[reducible] def k0_t2_loop : Scf.Loop 32 :=
  let c0_i32_182 : BitVec 32 := 0#32
  let c16_i32_183 : BitVec 32 := 16#32
  let v287 : BitVec 32 := Scalar.addi c0_i32_182 c16_i32_183
  let c1_i32_184 : BitVec 32 := 1#32
  ⟨c0_i32_182, v287, c1_i32_184⟩

def k0_chk1 (v576 : IVec S16 32) (v582 : IVec S16 32) : Prop :=
  (∀ a x, ((![v576, v582] : Fin 2 → IVec S16 32) a x).toNat < S256x128.size a)
instance k0_chk1.dec : ∀ (v576 : IVec S16 32) (v582 : IVec S16 32), Decidable (k0_chk1 v576 v582) := fun v576 v582 => decidable_of_iff' _ (Iff.of_eq (k0_chk1.eq_1 v576 v582))
theorem k0_idx1_inb : ∀ (v576 : IVec S16 32) (v582 : IVec S16 32) (k0_hw1 : k0_chk1 v576 v582), ∀ a x, ((![v576, v582] : Fin 2 → IVec S16 32) a x).toNat < S256x128.size a := fun v576 v582 k0_hw1 => k0_hw1

def k0_chk2 (v580 : IVec S16 32) (v587 : IVec S16 32) : Prop :=
  (∀ a x, ((![v587, v580] : Fin 2 → IVec S16 32) a x).toNat < S128x128.size a)
instance k0_chk2.dec : ∀ (v580 : IVec S16 32) (v587 : IVec S16 32), Decidable (k0_chk2 v580 v587) := fun v580 v587 => decidable_of_iff' _ (Iff.of_eq (k0_chk2.eq_1 v580 v587))
theorem k0_idx2_inb : ∀ (v580 : IVec S16 32) (v587 : IVec S16 32) (k0_hw2 : k0_chk2 v580 v587), ∀ a x, ((![v587, v580] : Fin 2 → IVec S16 32) a x).toNat < S128x128.size a := fun v580 v587 k0_hw2 => k0_hw2

def k0_chk3 (v576 : IVec S16 32) (v591 : IVec S16 32) : Prop :=
  (∀ a x, ((![v576, v591] : Fin 2 → IVec S16 32) a x).toNat < S256x128.size a)
instance k0_chk3.dec : ∀ (v576 : IVec S16 32) (v591 : IVec S16 32), Decidable (k0_chk3 v576 v591) := fun v576 v591 => decidable_of_iff' _ (Iff.of_eq (k0_chk3.eq_1 v576 v591))
theorem k0_idx3_inb : ∀ (v576 : IVec S16 32) (v591 : IVec S16 32) (k0_hw3 : k0_chk3 v576 v591), ∀ a x, ((![v576, v591] : Fin 2 → IVec S16 32) a x).toNat < S256x128.size a := fun v576 v591 k0_hw3 => k0_hw3

def k0_chk4 (v580 : IVec S16 32) (v596 : IVec S16 32) : Prop :=
  (∀ a x, ((![v596, v580] : Fin 2 → IVec S16 32) a x).toNat < S128x128.size a)
instance k0_chk4.dec : ∀ (v580 : IVec S16 32) (v596 : IVec S16 32), Decidable (k0_chk4 v580 v596) := fun v580 v596 => decidable_of_iff' _ (Iff.of_eq (k0_chk4.eq_1 v580 v596))
theorem k0_idx4_inb : ∀ (v580 : IVec S16 32) (v596 : IVec S16 32) (k0_hw4 : k0_chk4 v580 v596), ∀ a x, ((![v596, v580] : Fin 2 → IVec S16 32) a x).toNat < S128x128.size a := fun v580 v596 k0_hw4 => k0_hw4

def k0_chk5 (v576 : IVec S16 32) (v600 : IVec S16 32) : Prop :=
  (∀ a x, ((![v576, v600] : Fin 2 → IVec S16 32) a x).toNat < S256x128.size a)
instance k0_chk5.dec : ∀ (v576 : IVec S16 32) (v600 : IVec S16 32), Decidable (k0_chk5 v576 v600) := fun v576 v600 => decidable_of_iff' _ (Iff.of_eq (k0_chk5.eq_1 v576 v600))
theorem k0_idx5_inb : ∀ (v576 : IVec S16 32) (v600 : IVec S16 32) (k0_hw5 : k0_chk5 v576 v600), ∀ a x, ((![v576, v600] : Fin 2 → IVec S16 32) a x).toNat < S256x128.size a := fun v576 v600 k0_hw5 => k0_hw5

def k0_chk6 (v580 : IVec S16 32) (v605 : IVec S16 32) : Prop :=
  (∀ a x, ((![v605, v580] : Fin 2 → IVec S16 32) a x).toNat < S128x128.size a)
instance k0_chk6.dec : ∀ (v580 : IVec S16 32) (v605 : IVec S16 32), Decidable (k0_chk6 v580 v605) := fun v580 v605 => decidable_of_iff' _ (Iff.of_eq (k0_chk6.eq_1 v580 v605))
theorem k0_idx6_inb : ∀ (v580 : IVec S16 32) (v605 : IVec S16 32) (k0_hw6 : k0_chk6 v580 v605), ∀ a x, ((![v605, v580] : Fin 2 → IVec S16 32) a x).toNat < S128x128.size a := fun v580 v605 k0_hw6 => k0_hw6

def k0_chk7 (v576 : IVec S16 32) (v609 : IVec S16 32) : Prop :=
  (∀ a x, ((![v576, v609] : Fin 2 → IVec S16 32) a x).toNat < S256x128.size a)
instance k0_chk7.dec : ∀ (v576 : IVec S16 32) (v609 : IVec S16 32), Decidable (k0_chk7 v576 v609) := fun v576 v609 => decidable_of_iff' _ (Iff.of_eq (k0_chk7.eq_1 v576 v609))
theorem k0_idx7_inb : ∀ (v576 : IVec S16 32) (v609 : IVec S16 32) (k0_hw7 : k0_chk7 v576 v609), ∀ a x, ((![v576, v609] : Fin 2 → IVec S16 32) a x).toNat < S256x128.size a := fun v576 v609 k0_hw7 => k0_hw7

def k0_chk8 (v580 : IVec S16 32) (v614 : IVec S16 32) : Prop :=
  (∀ a x, ((![v614, v580] : Fin 2 → IVec S16 32) a x).toNat < S128x128.size a)
instance k0_chk8.dec : ∀ (v580 : IVec S16 32) (v614 : IVec S16 32), Decidable (k0_chk8 v580 v614) := fun v580 v614 => decidable_of_iff' _ (Iff.of_eq (k0_chk8.eq_1 v580 v614))
theorem k0_idx8_inb : ∀ (v580 : IVec S16 32) (v614 : IVec S16 32) (k0_hw8 : k0_chk8 v580 v614), ∀ a x, ((![v614, v580] : Fin 2 → IVec S16 32) a x).toNat < S128x128.size a := fun v580 v614 k0_hw8 => k0_hw8

def k0_chk9 (v576 : IVec S16 32) (v618 : IVec S16 32) : Prop :=
  (∀ a x, ((![v576, v618] : Fin 2 → IVec S16 32) a x).toNat < S256x128.size a)
instance k0_chk9.dec : ∀ (v576 : IVec S16 32) (v618 : IVec S16 32), Decidable (k0_chk9 v576 v618) := fun v576 v618 => decidable_of_iff' _ (Iff.of_eq (k0_chk9.eq_1 v576 v618))
theorem k0_idx9_inb : ∀ (v576 : IVec S16 32) (v618 : IVec S16 32) (k0_hw9 : k0_chk9 v576 v618), ∀ a x, ((![v576, v618] : Fin 2 → IVec S16 32) a x).toNat < S256x128.size a := fun v576 v618 k0_hw9 => k0_hw9

def k0_chk10 (v580 : IVec S16 32) (v623 : IVec S16 32) : Prop :=
  (∀ a x, ((![v623, v580] : Fin 2 → IVec S16 32) a x).toNat < S128x128.size a)
instance k0_chk10.dec : ∀ (v580 : IVec S16 32) (v623 : IVec S16 32), Decidable (k0_chk10 v580 v623) := fun v580 v623 => decidable_of_iff' _ (Iff.of_eq (k0_chk10.eq_1 v580 v623))
theorem k0_idx10_inb : ∀ (v580 : IVec S16 32) (v623 : IVec S16 32) (k0_hw10 : k0_chk10 v580 v623), ∀ a x, ((![v623, v580] : Fin 2 → IVec S16 32) a x).toNat < S128x128.size a := fun v580 v623 k0_hw10 => k0_hw10

def k0_chk11 (v576 : IVec S16 32) (v627 : IVec S16 32) : Prop :=
  (∀ a x, ((![v576, v627] : Fin 2 → IVec S16 32) a x).toNat < S256x128.size a)
instance k0_chk11.dec : ∀ (v576 : IVec S16 32) (v627 : IVec S16 32), Decidable (k0_chk11 v576 v627) := fun v576 v627 => decidable_of_iff' _ (Iff.of_eq (k0_chk11.eq_1 v576 v627))
theorem k0_idx11_inb : ∀ (v576 : IVec S16 32) (v627 : IVec S16 32) (k0_hw11 : k0_chk11 v576 v627), ∀ a x, ((![v576, v627] : Fin 2 → IVec S16 32) a x).toNat < S256x128.size a := fun v576 v627 k0_hw11 => k0_hw11

def k0_chk12 (v580 : IVec S16 32) (v632 : IVec S16 32) : Prop :=
  (∀ a x, ((![v632, v580] : Fin 2 → IVec S16 32) a x).toNat < S128x128.size a)
instance k0_chk12.dec : ∀ (v580 : IVec S16 32) (v632 : IVec S16 32), Decidable (k0_chk12 v580 v632) := fun v580 v632 => decidable_of_iff' _ (Iff.of_eq (k0_chk12.eq_1 v580 v632))
theorem k0_idx12_inb : ∀ (v580 : IVec S16 32) (v632 : IVec S16 32) (k0_hw12 : k0_chk12 v580 v632), ∀ a x, ((![v632, v580] : Fin 2 → IVec S16 32) a x).toNat < S128x128.size a := fun v580 v632 k0_hw12 => k0_hw12

def k0_chk13 (v576 : IVec S16 32) (v636 : IVec S16 32) : Prop :=
  (∀ a x, ((![v576, v636] : Fin 2 → IVec S16 32) a x).toNat < S256x128.size a)
instance k0_chk13.dec : ∀ (v576 : IVec S16 32) (v636 : IVec S16 32), Decidable (k0_chk13 v576 v636) := fun v576 v636 => decidable_of_iff' _ (Iff.of_eq (k0_chk13.eq_1 v576 v636))
theorem k0_idx13_inb : ∀ (v576 : IVec S16 32) (v636 : IVec S16 32) (k0_hw13 : k0_chk13 v576 v636), ∀ a x, ((![v576, v636] : Fin 2 → IVec S16 32) a x).toNat < S256x128.size a := fun v576 v636 k0_hw13 => k0_hw13

def k0_chk14 (v580 : IVec S16 32) (v641 : IVec S16 32) : Prop :=
  (∀ a x, ((![v641, v580] : Fin 2 → IVec S16 32) a x).toNat < S128x128.size a)
instance k0_chk14.dec : ∀ (v580 : IVec S16 32) (v641 : IVec S16 32), Decidable (k0_chk14 v580 v641) := fun v580 v641 => decidable_of_iff' _ (Iff.of_eq (k0_chk14.eq_1 v580 v641))
theorem k0_idx14_inb : ∀ (v580 : IVec S16 32) (v641 : IVec S16 32) (k0_hw14 : k0_chk14 v580 v641), ∀ a x, ((![v641, v580] : Fin 2 → IVec S16 32) a x).toNat < S128x128.size a := fun v580 v641 k0_hw14 => k0_hw14

def k0_chk15 (v576 : IVec S16 32) (v645 : IVec S16 32) : Prop :=
  (∀ a x, ((![v576, v645] : Fin 2 → IVec S16 32) a x).toNat < S256x128.size a)
instance k0_chk15.dec : ∀ (v576 : IVec S16 32) (v645 : IVec S16 32), Decidable (k0_chk15 v576 v645) := fun v576 v645 => decidable_of_iff' _ (Iff.of_eq (k0_chk15.eq_1 v576 v645))
theorem k0_idx15_inb : ∀ (v576 : IVec S16 32) (v645 : IVec S16 32) (k0_hw15 : k0_chk15 v576 v645), ∀ a x, ((![v576, v645] : Fin 2 → IVec S16 32) a x).toNat < S256x128.size a := fun v576 v645 k0_hw15 => k0_hw15

def k0_chk16 (v580 : IVec S16 32) (v650 : IVec S16 32) : Prop :=
  (∀ a x, ((![v650, v580] : Fin 2 → IVec S16 32) a x).toNat < S128x128.size a)
instance k0_chk16.dec : ∀ (v580 : IVec S16 32) (v650 : IVec S16 32), Decidable (k0_chk16 v580 v650) := fun v580 v650 => decidable_of_iff' _ (Iff.of_eq (k0_chk16.eq_1 v580 v650))
theorem k0_idx16_inb : ∀ (v580 : IVec S16 32) (v650 : IVec S16 32) (k0_hw16 : k0_chk16 v580 v650), ∀ a x, ((![v650, v580] : Fin 2 → IVec S16 32) a x).toNat < S128x128.size a := fun v580 v650 k0_hw16 => k0_hw16

def k0_chk17 (v576 : IVec S16 32) (v654 : IVec S16 32) : Prop :=
  (∀ a x, ((![v576, v654] : Fin 2 → IVec S16 32) a x).toNat < S256x128.size a)
instance k0_chk17.dec : ∀ (v576 : IVec S16 32) (v654 : IVec S16 32), Decidable (k0_chk17 v576 v654) := fun v576 v654 => decidable_of_iff' _ (Iff.of_eq (k0_chk17.eq_1 v576 v654))
theorem k0_idx17_inb : ∀ (v576 : IVec S16 32) (v654 : IVec S16 32) (k0_hw17 : k0_chk17 v576 v654), ∀ a x, ((![v576, v654] : Fin 2 → IVec S16 32) a x).toNat < S256x128.size a := fun v576 v654 k0_hw17 => k0_hw17

def k0_chk18 (v580 : IVec S16 32) (v659 : IVec S16 32) : Prop :=
  (∀ a x, ((![v659, v580] : Fin 2 → IVec S16 32) a x).toNat < S128x128.size a)
instance k0_chk18.dec : ∀ (v580 : IVec S16 32) (v659 : IVec S16 32), Decidable (k0_chk18 v580 v659) := fun v580 v659 => decidable_of_iff' _ (Iff.of_eq (k0_chk18.eq_1 v580 v659))
theorem k0_idx18_inb : ∀ (v580 : IVec S16 32) (v659 : IVec S16 32) (k0_hw18 : k0_chk18 v580 v659), ∀ a x, ((![v659, v580] : Fin 2 → IVec S16 32) a x).toNat < S128x128.size a := fun v580 v659 k0_hw18 => k0_hw18

def k0_chk19 (v576 : IVec S16 32) (v663 : IVec S16 32) : Prop :=
  (∀ a x, ((![v576, v663] : Fin 2 → IVec S16 32) a x).toNat < S256x128.size a)
instance k0_chk19.dec : ∀ (v576 : IVec S16 32) (v663 : IVec S16 32), Decidable (k0_chk19 v576 v663) := fun v576 v663 => decidable_of_iff' _ (Iff.of_eq (k0_chk19.eq_1 v576 v663))
theorem k0_idx19_inb : ∀ (v576 : IVec S16 32) (v663 : IVec S16 32) (k0_hw19 : k0_chk19 v576 v663), ∀ a x, ((![v576, v663] : Fin 2 → IVec S16 32) a x).toNat < S256x128.size a := fun v576 v663 k0_hw19 => k0_hw19

def k0_chk20 (v580 : IVec S16 32) (v668 : IVec S16 32) : Prop :=
  (∀ a x, ((![v668, v580] : Fin 2 → IVec S16 32) a x).toNat < S128x128.size a)
instance k0_chk20.dec : ∀ (v580 : IVec S16 32) (v668 : IVec S16 32), Decidable (k0_chk20 v580 v668) := fun v580 v668 => decidable_of_iff' _ (Iff.of_eq (k0_chk20.eq_1 v580 v668))
theorem k0_idx20_inb : ∀ (v580 : IVec S16 32) (v668 : IVec S16 32) (k0_hw20 : k0_chk20 v580 v668), ∀ a x, ((![v668, v580] : Fin 2 → IVec S16 32) a x).toNat < S128x128.size a := fun v580 v668 k0_hw20 => k0_hw20

def k0_chk21 (v576 : IVec S16 32) (v672 : IVec S16 32) : Prop :=
  (∀ a x, ((![v576, v672] : Fin 2 → IVec S16 32) a x).toNat < S256x128.size a)
instance k0_chk21.dec : ∀ (v576 : IVec S16 32) (v672 : IVec S16 32), Decidable (k0_chk21 v576 v672) := fun v576 v672 => decidable_of_iff' _ (Iff.of_eq (k0_chk21.eq_1 v576 v672))
theorem k0_idx21_inb : ∀ (v576 : IVec S16 32) (v672 : IVec S16 32) (k0_hw21 : k0_chk21 v576 v672), ∀ a x, ((![v576, v672] : Fin 2 → IVec S16 32) a x).toNat < S256x128.size a := fun v576 v672 k0_hw21 => k0_hw21

def k0_chk22 (v580 : IVec S16 32) (v677 : IVec S16 32) : Prop :=
  (∀ a x, ((![v677, v580] : Fin 2 → IVec S16 32) a x).toNat < S128x128.size a)
instance k0_chk22.dec : ∀ (v580 : IVec S16 32) (v677 : IVec S16 32), Decidable (k0_chk22 v580 v677) := fun v580 v677 => decidable_of_iff' _ (Iff.of_eq (k0_chk22.eq_1 v580 v677))
theorem k0_idx22_inb : ∀ (v580 : IVec S16 32) (v677 : IVec S16 32) (k0_hw22 : k0_chk22 v580 v677), ∀ a x, ((![v677, v580] : Fin 2 → IVec S16 32) a x).toNat < S128x128.size a := fun v580 v677 k0_hw22 => k0_hw22

def k0_chk23 (v576 : IVec S16 32) (v681 : IVec S16 32) : Prop :=
  (∀ a x, ((![v576, v681] : Fin 2 → IVec S16 32) a x).toNat < S256x128.size a)
instance k0_chk23.dec : ∀ (v576 : IVec S16 32) (v681 : IVec S16 32), Decidable (k0_chk23 v576 v681) := fun v576 v681 => decidable_of_iff' _ (Iff.of_eq (k0_chk23.eq_1 v576 v681))
theorem k0_idx23_inb : ∀ (v576 : IVec S16 32) (v681 : IVec S16 32) (k0_hw23 : k0_chk23 v576 v681), ∀ a x, ((![v576, v681] : Fin 2 → IVec S16 32) a x).toNat < S256x128.size a := fun v576 v681 k0_hw23 => k0_hw23

def k0_chk24 (v580 : IVec S16 32) (v686 : IVec S16 32) : Prop :=
  (∀ a x, ((![v686, v580] : Fin 2 → IVec S16 32) a x).toNat < S128x128.size a)
instance k0_chk24.dec : ∀ (v580 : IVec S16 32) (v686 : IVec S16 32), Decidable (k0_chk24 v580 v686) := fun v580 v686 => decidable_of_iff' _ (Iff.of_eq (k0_chk24.eq_1 v580 v686))
theorem k0_idx24_inb : ∀ (v580 : IVec S16 32) (v686 : IVec S16 32) (k0_hw24 : k0_chk24 v580 v686), ∀ a x, ((![v686, v580] : Fin 2 → IVec S16 32) a x).toNat < S128x128.size a := fun v580 v686 k0_hw24 => k0_hw24

def k0_chk25 (v576 : IVec S16 32) (v690 : IVec S16 32) : Prop :=
  (∀ a x, ((![v576, v690] : Fin 2 → IVec S16 32) a x).toNat < S256x128.size a)
instance k0_chk25.dec : ∀ (v576 : IVec S16 32) (v690 : IVec S16 32), Decidable (k0_chk25 v576 v690) := fun v576 v690 => decidable_of_iff' _ (Iff.of_eq (k0_chk25.eq_1 v576 v690))
theorem k0_idx25_inb : ∀ (v576 : IVec S16 32) (v690 : IVec S16 32) (k0_hw25 : k0_chk25 v576 v690), ∀ a x, ((![v576, v690] : Fin 2 → IVec S16 32) a x).toNat < S256x128.size a := fun v576 v690 k0_hw25 => k0_hw25

def k0_chk26 (v580 : IVec S16 32) (v695 : IVec S16 32) : Prop :=
  (∀ a x, ((![v695, v580] : Fin 2 → IVec S16 32) a x).toNat < S128x128.size a)
instance k0_chk26.dec : ∀ (v580 : IVec S16 32) (v695 : IVec S16 32), Decidable (k0_chk26 v580 v695) := fun v580 v695 => decidable_of_iff' _ (Iff.of_eq (k0_chk26.eq_1 v580 v695))
theorem k0_idx26_inb : ∀ (v580 : IVec S16 32) (v695 : IVec S16 32) (k0_hw26 : k0_chk26 v580 v695), ∀ a x, ((![v695, v580] : Fin 2 → IVec S16 32) a x).toNat < S128x128.size a := fun v580 v695 k0_hw26 => k0_hw26

def k0_chk27 (v576 : IVec S16 32) (v699 : IVec S16 32) : Prop :=
  (∀ a x, ((![v576, v699] : Fin 2 → IVec S16 32) a x).toNat < S256x128.size a)
instance k0_chk27.dec : ∀ (v576 : IVec S16 32) (v699 : IVec S16 32), Decidable (k0_chk27 v576 v699) := fun v576 v699 => decidable_of_iff' _ (Iff.of_eq (k0_chk27.eq_1 v576 v699))
theorem k0_idx27_inb : ∀ (v576 : IVec S16 32) (v699 : IVec S16 32) (k0_hw27 : k0_chk27 v576 v699), ∀ a x, ((![v576, v699] : Fin 2 → IVec S16 32) a x).toNat < S256x128.size a := fun v576 v699 k0_hw27 => k0_hw27

def k0_chk28 (v580 : IVec S16 32) (v704 : IVec S16 32) : Prop :=
  (∀ a x, ((![v704, v580] : Fin 2 → IVec S16 32) a x).toNat < S128x128.size a)
instance k0_chk28.dec : ∀ (v580 : IVec S16 32) (v704 : IVec S16 32), Decidable (k0_chk28 v580 v704) := fun v580 v704 => decidable_of_iff' _ (Iff.of_eq (k0_chk28.eq_1 v580 v704))
theorem k0_idx28_inb : ∀ (v580 : IVec S16 32) (v704 : IVec S16 32) (k0_hw28 : k0_chk28 v580 v704), ∀ a x, ((![v704, v580] : Fin 2 → IVec S16 32) a x).toNat < S128x128.size a := fun v580 v704 k0_hw28 => k0_hw28

def k0_chk29 (v576 : IVec S16 32) (v708 : IVec S16 32) : Prop :=
  (∀ a x, ((![v576, v708] : Fin 2 → IVec S16 32) a x).toNat < S256x128.size a)
instance k0_chk29.dec : ∀ (v576 : IVec S16 32) (v708 : IVec S16 32), Decidable (k0_chk29 v576 v708) := fun v576 v708 => decidable_of_iff' _ (Iff.of_eq (k0_chk29.eq_1 v576 v708))
theorem k0_idx29_inb : ∀ (v576 : IVec S16 32) (v708 : IVec S16 32) (k0_hw29 : k0_chk29 v576 v708), ∀ a x, ((![v576, v708] : Fin 2 → IVec S16 32) a x).toNat < S256x128.size a := fun v576 v708 k0_hw29 => k0_hw29

def k0_chk30 (v580 : IVec S16 32) (v713 : IVec S16 32) : Prop :=
  (∀ a x, ((![v713, v580] : Fin 2 → IVec S16 32) a x).toNat < S128x128.size a)
instance k0_chk30.dec : ∀ (v580 : IVec S16 32) (v713 : IVec S16 32), Decidable (k0_chk30 v580 v713) := fun v580 v713 => decidable_of_iff' _ (Iff.of_eq (k0_chk30.eq_1 v580 v713))
theorem k0_idx30_inb : ∀ (v580 : IVec S16 32) (v713 : IVec S16 32) (k0_hw30 : k0_chk30 v580 v713), ∀ a x, ((![v713, v580] : Fin 2 → IVec S16 32) a x).toNat < S128x128.size a := fun v580 v713 k0_hw30 => k0_hw30

def k0_chk31 (v576 : IVec S16 32) (v717 : IVec S16 32) : Prop :=
  (∀ a x, ((![v576, v717] : Fin 2 → IVec S16 32) a x).toNat < S256x128.size a)
instance k0_chk31.dec : ∀ (v576 : IVec S16 32) (v717 : IVec S16 32), Decidable (k0_chk31 v576 v717) := fun v576 v717 => decidable_of_iff' _ (Iff.of_eq (k0_chk31.eq_1 v576 v717))
theorem k0_idx31_inb : ∀ (v576 : IVec S16 32) (v717 : IVec S16 32) (k0_hw31 : k0_chk31 v576 v717), ∀ a x, ((![v576, v717] : Fin 2 → IVec S16 32) a x).toNat < S256x128.size a := fun v576 v717 k0_hw31 => k0_hw31

def k0_chk32 (v580 : IVec S16 32) (v722 : IVec S16 32) : Prop :=
  (∀ a x, ((![v722, v580] : Fin 2 → IVec S16 32) a x).toNat < S128x128.size a)
instance k0_chk32.dec : ∀ (v580 : IVec S16 32) (v722 : IVec S16 32), Decidable (k0_chk32 v580 v722) := fun v580 v722 => decidable_of_iff' _ (Iff.of_eq (k0_chk32.eq_1 v580 v722))
theorem k0_idx32_inb : ∀ (v580 : IVec S16 32) (v722 : IVec S16 32) (k0_hw32 : k0_chk32 v580 v722), ∀ a x, ((![v722, v580] : Fin 2 → IVec S16 32) a x).toNat < S128x128.size a := fun v580 v722 k0_hw32 => k0_hw32

def k0_chk33 (v576 : IVec S16 32) (v726 : IVec S16 32) : Prop :=
  (∀ a x, ((![v576, v726] : Fin 2 → IVec S16 32) a x).toNat < S256x128.size a)
instance k0_chk33.dec : ∀ (v576 : IVec S16 32) (v726 : IVec S16 32), Decidable (k0_chk33 v576 v726) := fun v576 v726 => decidable_of_iff' _ (Iff.of_eq (k0_chk33.eq_1 v576 v726))
theorem k0_idx33_inb : ∀ (v576 : IVec S16 32) (v726 : IVec S16 32) (k0_hw33 : k0_chk33 v576 v726), ∀ a x, ((![v576, v726] : Fin 2 → IVec S16 32) a x).toNat < S256x128.size a := fun v576 v726 k0_hw33 => k0_hw33

def k0_chk34 (v580 : IVec S16 32) (v731 : IVec S16 32) : Prop :=
  (∀ a x, ((![v731, v580] : Fin 2 → IVec S16 32) a x).toNat < S128x128.size a)
instance k0_chk34.dec : ∀ (v580 : IVec S16 32) (v731 : IVec S16 32), Decidable (k0_chk34 v580 v731) := fun v580 v731 => decidable_of_iff' _ (Iff.of_eq (k0_chk34.eq_1 v580 v731))
theorem k0_idx34_inb : ∀ (v580 : IVec S16 32) (v731 : IVec S16 32) (k0_hw34 : k0_chk34 v580 v731), ∀ a x, ((![v731, v580] : Fin 2 → IVec S16 32) a x).toNat < S128x128.size a := fun v580 v731 k0_hw34 => k0_hw34

def k0_chk35 (v576 : IVec S16 32) (v735 : IVec S16 32) : Prop :=
  (∀ a x, ((![v576, v735] : Fin 2 → IVec S16 32) a x).toNat < S256x128.size a)
instance k0_chk35.dec : ∀ (v576 : IVec S16 32) (v735 : IVec S16 32), Decidable (k0_chk35 v576 v735) := fun v576 v735 => decidable_of_iff' _ (Iff.of_eq (k0_chk35.eq_1 v576 v735))
theorem k0_idx35_inb : ∀ (v576 : IVec S16 32) (v735 : IVec S16 32) (k0_hw35 : k0_chk35 v576 v735), ∀ a x, ((![v576, v735] : Fin 2 → IVec S16 32) a x).toNat < S256x128.size a := fun v576 v735 k0_hw35 => k0_hw35

def k0_chk36 (v580 : IVec S16 32) (v740 : IVec S16 32) : Prop :=
  (∀ a x, ((![v740, v580] : Fin 2 → IVec S16 32) a x).toNat < S128x128.size a)
instance k0_chk36.dec : ∀ (v580 : IVec S16 32) (v740 : IVec S16 32), Decidable (k0_chk36 v580 v740) := fun v580 v740 => decidable_of_iff' _ (Iff.of_eq (k0_chk36.eq_1 v580 v740))
theorem k0_idx36_inb : ∀ (v580 : IVec S16 32) (v740 : IVec S16 32) (k0_hw36 : k0_chk36 v580 v740), ∀ a x, ((![v740, v580] : Fin 2 → IVec S16 32) a x).toNat < S128x128.size a := fun v580 v740 k0_hw36 => k0_hw36

def k0_chk37 (v576 : IVec S16 32) (v744 : IVec S16 32) : Prop :=
  (∀ a x, ((![v576, v744] : Fin 2 → IVec S16 32) a x).toNat < S256x128.size a)
instance k0_chk37.dec : ∀ (v576 : IVec S16 32) (v744 : IVec S16 32), Decidable (k0_chk37 v576 v744) := fun v576 v744 => decidable_of_iff' _ (Iff.of_eq (k0_chk37.eq_1 v576 v744))
theorem k0_idx37_inb : ∀ (v576 : IVec S16 32) (v744 : IVec S16 32) (k0_hw37 : k0_chk37 v576 v744), ∀ a x, ((![v576, v744] : Fin 2 → IVec S16 32) a x).toNat < S256x128.size a := fun v576 v744 k0_hw37 => k0_hw37

def k0_chk38 (v580 : IVec S16 32) (v749 : IVec S16 32) : Prop :=
  (∀ a x, ((![v749, v580] : Fin 2 → IVec S16 32) a x).toNat < S128x128.size a)
instance k0_chk38.dec : ∀ (v580 : IVec S16 32) (v749 : IVec S16 32), Decidable (k0_chk38 v580 v749) := fun v580 v749 => decidable_of_iff' _ (Iff.of_eq (k0_chk38.eq_1 v580 v749))
theorem k0_idx38_inb : ∀ (v580 : IVec S16 32) (v749 : IVec S16 32) (k0_hw38 : k0_chk38 v580 v749), ∀ a x, ((![v749, v580] : Fin 2 → IVec S16 32) a x).toNat < S128x128.size a := fun v580 v749 k0_hw38 => k0_hw38

def k0_chk39 (v576 : IVec S16 32) (v753 : IVec S16 32) : Prop :=
  (∀ a x, ((![v576, v753] : Fin 2 → IVec S16 32) a x).toNat < S256x128.size a)
instance k0_chk39.dec : ∀ (v576 : IVec S16 32) (v753 : IVec S16 32), Decidable (k0_chk39 v576 v753) := fun v576 v753 => decidable_of_iff' _ (Iff.of_eq (k0_chk39.eq_1 v576 v753))
theorem k0_idx39_inb : ∀ (v576 : IVec S16 32) (v753 : IVec S16 32) (k0_hw39 : k0_chk39 v576 v753), ∀ a x, ((![v576, v753] : Fin 2 → IVec S16 32) a x).toNat < S256x128.size a := fun v576 v753 k0_hw39 => k0_hw39

def k0_chk40 (v580 : IVec S16 32) (v758 : IVec S16 32) : Prop :=
  (∀ a x, ((![v758, v580] : Fin 2 → IVec S16 32) a x).toNat < S128x128.size a)
instance k0_chk40.dec : ∀ (v580 : IVec S16 32) (v758 : IVec S16 32), Decidable (k0_chk40 v580 v758) := fun v580 v758 => decidable_of_iff' _ (Iff.of_eq (k0_chk40.eq_1 v580 v758))
theorem k0_idx40_inb : ∀ (v580 : IVec S16 32) (v758 : IVec S16 32) (k0_hw40 : k0_chk40 v580 v758), ∀ a x, ((![v758, v580] : Fin 2 → IVec S16 32) a x).toNat < S128x128.size a := fun v580 v758 k0_hw40 => k0_hw40

def k0_chk41 (v576 : IVec S16 32) (v762 : IVec S16 32) : Prop :=
  (∀ a x, ((![v576, v762] : Fin 2 → IVec S16 32) a x).toNat < S256x128.size a)
instance k0_chk41.dec : ∀ (v576 : IVec S16 32) (v762 : IVec S16 32), Decidable (k0_chk41 v576 v762) := fun v576 v762 => decidable_of_iff' _ (Iff.of_eq (k0_chk41.eq_1 v576 v762))
theorem k0_idx41_inb : ∀ (v576 : IVec S16 32) (v762 : IVec S16 32) (k0_hw41 : k0_chk41 v576 v762), ∀ a x, ((![v576, v762] : Fin 2 → IVec S16 32) a x).toNat < S256x128.size a := fun v576 v762 k0_hw41 => k0_hw41

def k0_chk42 (v580 : IVec S16 32) (v767 : IVec S16 32) : Prop :=
  (∀ a x, ((![v767, v580] : Fin 2 → IVec S16 32) a x).toNat < S128x128.size a)
instance k0_chk42.dec : ∀ (v580 : IVec S16 32) (v767 : IVec S16 32), Decidable (k0_chk42 v580 v767) := fun v580 v767 => decidable_of_iff' _ (Iff.of_eq (k0_chk42.eq_1 v580 v767))
theorem k0_idx42_inb : ∀ (v580 : IVec S16 32) (v767 : IVec S16 32) (k0_hw42 : k0_chk42 v580 v767), ∀ a x, ((![v767, v580] : Fin 2 → IVec S16 32) a x).toNat < S128x128.size a := fun v580 v767 k0_hw42 => k0_hw42

def k0_chk43 (v576 : IVec S16 32) (v771 : IVec S16 32) : Prop :=
  (∀ a x, ((![v576, v771] : Fin 2 → IVec S16 32) a x).toNat < S256x128.size a)
instance k0_chk43.dec : ∀ (v576 : IVec S16 32) (v771 : IVec S16 32), Decidable (k0_chk43 v576 v771) := fun v576 v771 => decidable_of_iff' _ (Iff.of_eq (k0_chk43.eq_1 v576 v771))
theorem k0_idx43_inb : ∀ (v576 : IVec S16 32) (v771 : IVec S16 32) (k0_hw43 : k0_chk43 v576 v771), ∀ a x, ((![v576, v771] : Fin 2 → IVec S16 32) a x).toNat < S256x128.size a := fun v576 v771 k0_hw43 => k0_hw43

def k0_chk44 (v580 : IVec S16 32) (v776 : IVec S16 32) : Prop :=
  (∀ a x, ((![v776, v580] : Fin 2 → IVec S16 32) a x).toNat < S128x128.size a)
instance k0_chk44.dec : ∀ (v580 : IVec S16 32) (v776 : IVec S16 32), Decidable (k0_chk44 v580 v776) := fun v580 v776 => decidable_of_iff' _ (Iff.of_eq (k0_chk44.eq_1 v580 v776))
theorem k0_idx44_inb : ∀ (v580 : IVec S16 32) (v776 : IVec S16 32) (k0_hw44 : k0_chk44 v580 v776), ∀ a x, ((![v776, v580] : Fin 2 → IVec S16 32) a x).toNat < S128x128.size a := fun v580 v776 k0_hw44 => k0_hw44

def k0_chk45 (v576 : IVec S16 32) (v780 : IVec S16 32) : Prop :=
  (∀ a x, ((![v576, v780] : Fin 2 → IVec S16 32) a x).toNat < S256x128.size a)
instance k0_chk45.dec : ∀ (v576 : IVec S16 32) (v780 : IVec S16 32), Decidable (k0_chk45 v576 v780) := fun v576 v780 => decidable_of_iff' _ (Iff.of_eq (k0_chk45.eq_1 v576 v780))
theorem k0_idx45_inb : ∀ (v576 : IVec S16 32) (v780 : IVec S16 32) (k0_hw45 : k0_chk45 v576 v780), ∀ a x, ((![v576, v780] : Fin 2 → IVec S16 32) a x).toNat < S256x128.size a := fun v576 v780 k0_hw45 => k0_hw45

def k0_chk46 (v580 : IVec S16 32) (v785 : IVec S16 32) : Prop :=
  (∀ a x, ((![v785, v580] : Fin 2 → IVec S16 32) a x).toNat < S128x128.size a)
instance k0_chk46.dec : ∀ (v580 : IVec S16 32) (v785 : IVec S16 32), Decidable (k0_chk46 v580 v785) := fun v580 v785 => decidable_of_iff' _ (Iff.of_eq (k0_chk46.eq_1 v580 v785))
theorem k0_idx46_inb : ∀ (v580 : IVec S16 32) (v785 : IVec S16 32) (k0_hw46 : k0_chk46 v580 v785), ∀ a x, ((![v785, v580] : Fin 2 → IVec S16 32) a x).toNat < S128x128.size a := fun v580 v785 k0_hw46 => k0_hw46

def k0_chk47 (v576 : IVec S16 32) (v789 : IVec S16 32) : Prop :=
  (∀ a x, ((![v576, v789] : Fin 2 → IVec S16 32) a x).toNat < S256x128.size a)
instance k0_chk47.dec : ∀ (v576 : IVec S16 32) (v789 : IVec S16 32), Decidable (k0_chk47 v576 v789) := fun v576 v789 => decidable_of_iff' _ (Iff.of_eq (k0_chk47.eq_1 v576 v789))
theorem k0_idx47_inb : ∀ (v576 : IVec S16 32) (v789 : IVec S16 32) (k0_hw47 : k0_chk47 v576 v789), ∀ a x, ((![v576, v789] : Fin 2 → IVec S16 32) a x).toNat < S256x128.size a := fun v576 v789 k0_hw47 => k0_hw47

def k0_chk48 (v580 : IVec S16 32) (v794 : IVec S16 32) : Prop :=
  (∀ a x, ((![v794, v580] : Fin 2 → IVec S16 32) a x).toNat < S128x128.size a)
instance k0_chk48.dec : ∀ (v580 : IVec S16 32) (v794 : IVec S16 32), Decidable (k0_chk48 v580 v794) := fun v580 v794 => decidable_of_iff' _ (Iff.of_eq (k0_chk48.eq_1 v580 v794))
theorem k0_idx48_inb : ∀ (v580 : IVec S16 32) (v794 : IVec S16 32) (k0_hw48 : k0_chk48 v580 v794), ∀ a x, ((![v794, v580] : Fin 2 → IVec S16 32) a x).toNat < S128x128.size a := fun v580 v794 k0_hw48 => k0_hw48

def k0_chk49 (v576 : IVec S16 32) (v798 : IVec S16 32) : Prop :=
  (∀ a x, ((![v576, v798] : Fin 2 → IVec S16 32) a x).toNat < S256x128.size a)
instance k0_chk49.dec : ∀ (v576 : IVec S16 32) (v798 : IVec S16 32), Decidable (k0_chk49 v576 v798) := fun v576 v798 => decidable_of_iff' _ (Iff.of_eq (k0_chk49.eq_1 v576 v798))
theorem k0_idx49_inb : ∀ (v576 : IVec S16 32) (v798 : IVec S16 32) (k0_hw49 : k0_chk49 v576 v798), ∀ a x, ((![v576, v798] : Fin 2 → IVec S16 32) a x).toNat < S256x128.size a := fun v576 v798 k0_hw49 => k0_hw49

def k0_chk50 (v580 : IVec S16 32) (v803 : IVec S16 32) : Prop :=
  (∀ a x, ((![v803, v580] : Fin 2 → IVec S16 32) a x).toNat < S128x128.size a)
instance k0_chk50.dec : ∀ (v580 : IVec S16 32) (v803 : IVec S16 32), Decidable (k0_chk50 v580 v803) := fun v580 v803 => decidable_of_iff' _ (Iff.of_eq (k0_chk50.eq_1 v580 v803))
theorem k0_idx50_inb : ∀ (v580 : IVec S16 32) (v803 : IVec S16 32) (k0_hw50 : k0_chk50 v580 v803), ∀ a x, ((![v803, v580] : Fin 2 → IVec S16 32) a x).toNat < S128x128.size a := fun v580 v803 k0_hw50 => k0_hw50

def k0_chk51 (v576 : IVec S16 32) (v807 : IVec S16 32) : Prop :=
  (∀ a x, ((![v576, v807] : Fin 2 → IVec S16 32) a x).toNat < S256x128.size a)
instance k0_chk51.dec : ∀ (v576 : IVec S16 32) (v807 : IVec S16 32), Decidable (k0_chk51 v576 v807) := fun v576 v807 => decidable_of_iff' _ (Iff.of_eq (k0_chk51.eq_1 v576 v807))
theorem k0_idx51_inb : ∀ (v576 : IVec S16 32) (v807 : IVec S16 32) (k0_hw51 : k0_chk51 v576 v807), ∀ a x, ((![v576, v807] : Fin 2 → IVec S16 32) a x).toNat < S256x128.size a := fun v576 v807 k0_hw51 => k0_hw51

def k0_chk52 (v580 : IVec S16 32) (v812 : IVec S16 32) : Prop :=
  (∀ a x, ((![v812, v580] : Fin 2 → IVec S16 32) a x).toNat < S128x128.size a)
instance k0_chk52.dec : ∀ (v580 : IVec S16 32) (v812 : IVec S16 32), Decidable (k0_chk52 v580 v812) := fun v580 v812 => decidable_of_iff' _ (Iff.of_eq (k0_chk52.eq_1 v580 v812))
theorem k0_idx52_inb : ∀ (v580 : IVec S16 32) (v812 : IVec S16 32) (k0_hw52 : k0_chk52 v580 v812), ∀ a x, ((![v812, v580] : Fin 2 → IVec S16 32) a x).toNat < S128x128.size a := fun v580 v812 k0_hw52 => k0_hw52

def k0_chk53 (v576 : IVec S16 32) (v816 : IVec S16 32) : Prop :=
  (∀ a x, ((![v576, v816] : Fin 2 → IVec S16 32) a x).toNat < S256x128.size a)
instance k0_chk53.dec : ∀ (v576 : IVec S16 32) (v816 : IVec S16 32), Decidable (k0_chk53 v576 v816) := fun v576 v816 => decidable_of_iff' _ (Iff.of_eq (k0_chk53.eq_1 v576 v816))
theorem k0_idx53_inb : ∀ (v576 : IVec S16 32) (v816 : IVec S16 32) (k0_hw53 : k0_chk53 v576 v816), ∀ a x, ((![v576, v816] : Fin 2 → IVec S16 32) a x).toNat < S256x128.size a := fun v576 v816 k0_hw53 => k0_hw53

def k0_chk54 (v580 : IVec S16 32) (v821 : IVec S16 32) : Prop :=
  (∀ a x, ((![v821, v580] : Fin 2 → IVec S16 32) a x).toNat < S128x128.size a)
instance k0_chk54.dec : ∀ (v580 : IVec S16 32) (v821 : IVec S16 32), Decidable (k0_chk54 v580 v821) := fun v580 v821 => decidable_of_iff' _ (Iff.of_eq (k0_chk54.eq_1 v580 v821))
theorem k0_idx54_inb : ∀ (v580 : IVec S16 32) (v821 : IVec S16 32) (k0_hw54 : k0_chk54 v580 v821), ∀ a x, ((![v821, v580] : Fin 2 → IVec S16 32) a x).toNat < S128x128.size a := fun v580 v821 k0_hw54 => k0_hw54

def k0_chk55 (v576 : IVec S16 32) (v825 : IVec S16 32) : Prop :=
  (∀ a x, ((![v576, v825] : Fin 2 → IVec S16 32) a x).toNat < S256x128.size a)
instance k0_chk55.dec : ∀ (v576 : IVec S16 32) (v825 : IVec S16 32), Decidable (k0_chk55 v576 v825) := fun v576 v825 => decidable_of_iff' _ (Iff.of_eq (k0_chk55.eq_1 v576 v825))
theorem k0_idx55_inb : ∀ (v576 : IVec S16 32) (v825 : IVec S16 32) (k0_hw55 : k0_chk55 v576 v825), ∀ a x, ((![v576, v825] : Fin 2 → IVec S16 32) a x).toNat < S256x128.size a := fun v576 v825 k0_hw55 => k0_hw55

def k0_chk56 (v580 : IVec S16 32) (v830 : IVec S16 32) : Prop :=
  (∀ a x, ((![v830, v580] : Fin 2 → IVec S16 32) a x).toNat < S128x128.size a)
instance k0_chk56.dec : ∀ (v580 : IVec S16 32) (v830 : IVec S16 32), Decidable (k0_chk56 v580 v830) := fun v580 v830 => decidable_of_iff' _ (Iff.of_eq (k0_chk56.eq_1 v580 v830))
theorem k0_idx56_inb : ∀ (v580 : IVec S16 32) (v830 : IVec S16 32) (k0_hw56 : k0_chk56 v580 v830), ∀ a x, ((![v830, v580] : Fin 2 → IVec S16 32) a x).toNat < S128x128.size a := fun v580 v830 k0_hw56 => k0_hw56

def k0_chk57 (v576 : IVec S16 32) (v834 : IVec S16 32) : Prop :=
  (∀ a x, ((![v576, v834] : Fin 2 → IVec S16 32) a x).toNat < S256x128.size a)
instance k0_chk57.dec : ∀ (v576 : IVec S16 32) (v834 : IVec S16 32), Decidable (k0_chk57 v576 v834) := fun v576 v834 => decidable_of_iff' _ (Iff.of_eq (k0_chk57.eq_1 v576 v834))
theorem k0_idx57_inb : ∀ (v576 : IVec S16 32) (v834 : IVec S16 32) (k0_hw57 : k0_chk57 v576 v834), ∀ a x, ((![v576, v834] : Fin 2 → IVec S16 32) a x).toNat < S256x128.size a := fun v576 v834 k0_hw57 => k0_hw57

def k0_chk58 (v580 : IVec S16 32) (v839 : IVec S16 32) : Prop :=
  (∀ a x, ((![v839, v580] : Fin 2 → IVec S16 32) a x).toNat < S128x128.size a)
instance k0_chk58.dec : ∀ (v580 : IVec S16 32) (v839 : IVec S16 32), Decidable (k0_chk58 v580 v839) := fun v580 v839 => decidable_of_iff' _ (Iff.of_eq (k0_chk58.eq_1 v580 v839))
theorem k0_idx58_inb : ∀ (v580 : IVec S16 32) (v839 : IVec S16 32) (k0_hw58 : k0_chk58 v580 v839), ∀ a x, ((![v839, v580] : Fin 2 → IVec S16 32) a x).toNat < S128x128.size a := fun v580 v839 k0_hw58 => k0_hw58

def k0_chk59 (v576 : IVec S16 32) (v843 : IVec S16 32) : Prop :=
  (∀ a x, ((![v576, v843] : Fin 2 → IVec S16 32) a x).toNat < S256x128.size a)
instance k0_chk59.dec : ∀ (v576 : IVec S16 32) (v843 : IVec S16 32), Decidable (k0_chk59 v576 v843) := fun v576 v843 => decidable_of_iff' _ (Iff.of_eq (k0_chk59.eq_1 v576 v843))
theorem k0_idx59_inb : ∀ (v576 : IVec S16 32) (v843 : IVec S16 32) (k0_hw59 : k0_chk59 v576 v843), ∀ a x, ((![v576, v843] : Fin 2 → IVec S16 32) a x).toNat < S256x128.size a := fun v576 v843 k0_hw59 => k0_hw59

def k0_chk60 (v580 : IVec S16 32) (v848 : IVec S16 32) : Prop :=
  (∀ a x, ((![v848, v580] : Fin 2 → IVec S16 32) a x).toNat < S128x128.size a)
instance k0_chk60.dec : ∀ (v580 : IVec S16 32) (v848 : IVec S16 32), Decidable (k0_chk60 v580 v848) := fun v580 v848 => decidable_of_iff' _ (Iff.of_eq (k0_chk60.eq_1 v580 v848))
theorem k0_idx60_inb : ∀ (v580 : IVec S16 32) (v848 : IVec S16 32) (k0_hw60 : k0_chk60 v580 v848), ∀ a x, ((![v848, v580] : Fin 2 → IVec S16 32) a x).toNat < S128x128.size a := fun v580 v848 k0_hw60 => k0_hw60

def k0_chk61 (v576 : IVec S16 32) (v852 : IVec S16 32) : Prop :=
  (∀ a x, ((![v576, v852] : Fin 2 → IVec S16 32) a x).toNat < S256x128.size a)
instance k0_chk61.dec : ∀ (v576 : IVec S16 32) (v852 : IVec S16 32), Decidable (k0_chk61 v576 v852) := fun v576 v852 => decidable_of_iff' _ (Iff.of_eq (k0_chk61.eq_1 v576 v852))
theorem k0_idx61_inb : ∀ (v576 : IVec S16 32) (v852 : IVec S16 32) (k0_hw61 : k0_chk61 v576 v852), ∀ a x, ((![v576, v852] : Fin 2 → IVec S16 32) a x).toNat < S256x128.size a := fun v576 v852 k0_hw61 => k0_hw61

def k0_chk62 (v580 : IVec S16 32) (v857 : IVec S16 32) : Prop :=
  (∀ a x, ((![v857, v580] : Fin 2 → IVec S16 32) a x).toNat < S128x128.size a)
instance k0_chk62.dec : ∀ (v580 : IVec S16 32) (v857 : IVec S16 32), Decidable (k0_chk62 v580 v857) := fun v580 v857 => decidable_of_iff' _ (Iff.of_eq (k0_chk62.eq_1 v580 v857))
theorem k0_idx62_inb : ∀ (v580 : IVec S16 32) (v857 : IVec S16 32) (k0_hw62 : k0_chk62 v580 v857), ∀ a x, ((![v857, v580] : Fin 2 → IVec S16 32) a x).toNat < S128x128.size a := fun v580 v857 k0_hw62 => k0_hw62

def k0_chk63 (v576 : IVec S16 32) (v861 : IVec S16 32) : Prop :=
  (∀ a x, ((![v576, v861] : Fin 2 → IVec S16 32) a x).toNat < S256x128.size a)
instance k0_chk63.dec : ∀ (v576 : IVec S16 32) (v861 : IVec S16 32), Decidable (k0_chk63 v576 v861) := fun v576 v861 => decidable_of_iff' _ (Iff.of_eq (k0_chk63.eq_1 v576 v861))
theorem k0_idx63_inb : ∀ (v576 : IVec S16 32) (v861 : IVec S16 32) (k0_hw63 : k0_chk63 v576 v861), ∀ a x, ((![v576, v861] : Fin 2 → IVec S16 32) a x).toNat < S256x128.size a := fun v576 v861 k0_hw63 => k0_hw63

def k0_chk64 (v580 : IVec S16 32) (v866 : IVec S16 32) : Prop :=
  (∀ a x, ((![v866, v580] : Fin 2 → IVec S16 32) a x).toNat < S128x128.size a)
instance k0_chk64.dec : ∀ (v580 : IVec S16 32) (v866 : IVec S16 32), Decidable (k0_chk64 v580 v866) := fun v580 v866 => decidable_of_iff' _ (Iff.of_eq (k0_chk64.eq_1 v580 v866))
theorem k0_idx64_inb : ∀ (v580 : IVec S16 32) (v866 : IVec S16 32) (k0_hw64 : k0_chk64 v580 v866), ∀ a x, ((![v866, v580] : Fin 2 → IVec S16 32) a x).toNat < S128x128.size a := fun v580 v866 k0_hw64 => k0_hw64

def k0_chk65 (v576 : IVec S16 32) (v870 : IVec S16 32) : Prop :=
  (∀ a x, ((![v576, v870] : Fin 2 → IVec S16 32) a x).toNat < S256x128.size a)
instance k0_chk65.dec : ∀ (v576 : IVec S16 32) (v870 : IVec S16 32), Decidable (k0_chk65 v576 v870) := fun v576 v870 => decidable_of_iff' _ (Iff.of_eq (k0_chk65.eq_1 v576 v870))
theorem k0_idx65_inb : ∀ (v576 : IVec S16 32) (v870 : IVec S16 32) (k0_hw65 : k0_chk65 v576 v870), ∀ a x, ((![v576, v870] : Fin 2 → IVec S16 32) a x).toNat < S256x128.size a := fun v576 v870 k0_hw65 => k0_hw65

def k0_chk66 (v580 : IVec S16 32) (v875 : IVec S16 32) : Prop :=
  (∀ a x, ((![v875, v580] : Fin 2 → IVec S16 32) a x).toNat < S128x128.size a)
instance k0_chk66.dec : ∀ (v580 : IVec S16 32) (v875 : IVec S16 32), Decidable (k0_chk66 v580 v875) := fun v580 v875 => decidable_of_iff' _ (Iff.of_eq (k0_chk66.eq_1 v580 v875))
theorem k0_idx66_inb : ∀ (v580 : IVec S16 32) (v875 : IVec S16 32) (k0_hw66 : k0_chk66 v580 v875), ∀ a x, ((![v875, v580] : Fin 2 → IVec S16 32) a x).toNat < S128x128.size a := fun v580 v875 k0_hw66 => k0_hw66

def k0_chk67 (v576 : IVec S16 32) (v879 : IVec S16 32) : Prop :=
  (∀ a x, ((![v576, v879] : Fin 2 → IVec S16 32) a x).toNat < S256x128.size a)
instance k0_chk67.dec : ∀ (v576 : IVec S16 32) (v879 : IVec S16 32), Decidable (k0_chk67 v576 v879) := fun v576 v879 => decidable_of_iff' _ (Iff.of_eq (k0_chk67.eq_1 v576 v879))
theorem k0_idx67_inb : ∀ (v576 : IVec S16 32) (v879 : IVec S16 32) (k0_hw67 : k0_chk67 v576 v879), ∀ a x, ((![v576, v879] : Fin 2 → IVec S16 32) a x).toNat < S256x128.size a := fun v576 v879 k0_hw67 => k0_hw67

def k0_chk68 (v580 : IVec S16 32) (v884 : IVec S16 32) : Prop :=
  (∀ a x, ((![v884, v580] : Fin 2 → IVec S16 32) a x).toNat < S128x128.size a)
instance k0_chk68.dec : ∀ (v580 : IVec S16 32) (v884 : IVec S16 32), Decidable (k0_chk68 v580 v884) := fun v580 v884 => decidable_of_iff' _ (Iff.of_eq (k0_chk68.eq_1 v580 v884))
theorem k0_idx68_inb : ∀ (v580 : IVec S16 32) (v884 : IVec S16 32) (k0_hw68 : k0_chk68 v580 v884), ∀ a x, ((![v884, v580] : Fin 2 → IVec S16 32) a x).toNat < S128x128.size a := fun v580 v884 k0_hw68 => k0_hw68

def k0_chk69 (v576 : IVec S16 32) (v888 : IVec S16 32) : Prop :=
  (∀ a x, ((![v576, v888] : Fin 2 → IVec S16 32) a x).toNat < S256x128.size a)
instance k0_chk69.dec : ∀ (v576 : IVec S16 32) (v888 : IVec S16 32), Decidable (k0_chk69 v576 v888) := fun v576 v888 => decidable_of_iff' _ (Iff.of_eq (k0_chk69.eq_1 v576 v888))
theorem k0_idx69_inb : ∀ (v576 : IVec S16 32) (v888 : IVec S16 32) (k0_hw69 : k0_chk69 v576 v888), ∀ a x, ((![v576, v888] : Fin 2 → IVec S16 32) a x).toNat < S256x128.size a := fun v576 v888 k0_hw69 => k0_hw69

def k0_chk70 (v580 : IVec S16 32) (v893 : IVec S16 32) : Prop :=
  (∀ a x, ((![v893, v580] : Fin 2 → IVec S16 32) a x).toNat < S128x128.size a)
instance k0_chk70.dec : ∀ (v580 : IVec S16 32) (v893 : IVec S16 32), Decidable (k0_chk70 v580 v893) := fun v580 v893 => decidable_of_iff' _ (Iff.of_eq (k0_chk70.eq_1 v580 v893))
theorem k0_idx70_inb : ∀ (v580 : IVec S16 32) (v893 : IVec S16 32) (k0_hw70 : k0_chk70 v580 v893), ∀ a x, ((![v893, v580] : Fin 2 → IVec S16 32) a x).toNat < S128x128.size a := fun v580 v893 k0_hw70 => k0_hw70

def k0_chk71 (v576 : IVec S16 32) (v897 : IVec S16 32) : Prop :=
  (∀ a x, ((![v576, v897] : Fin 2 → IVec S16 32) a x).toNat < S256x128.size a)
instance k0_chk71.dec : ∀ (v576 : IVec S16 32) (v897 : IVec S16 32), Decidable (k0_chk71 v576 v897) := fun v576 v897 => decidable_of_iff' _ (Iff.of_eq (k0_chk71.eq_1 v576 v897))
theorem k0_idx71_inb : ∀ (v576 : IVec S16 32) (v897 : IVec S16 32) (k0_hw71 : k0_chk71 v576 v897), ∀ a x, ((![v576, v897] : Fin 2 → IVec S16 32) a x).toNat < S256x128.size a := fun v576 v897 k0_hw71 => k0_hw71

def k0_chk72 (v580 : IVec S16 32) (v902 : IVec S16 32) : Prop :=
  (∀ a x, ((![v902, v580] : Fin 2 → IVec S16 32) a x).toNat < S128x128.size a)
instance k0_chk72.dec : ∀ (v580 : IVec S16 32) (v902 : IVec S16 32), Decidable (k0_chk72 v580 v902) := fun v580 v902 => decidable_of_iff' _ (Iff.of_eq (k0_chk72.eq_1 v580 v902))
theorem k0_idx72_inb : ∀ (v580 : IVec S16 32) (v902 : IVec S16 32) (k0_hw72 : k0_chk72 v580 v902), ∀ a x, ((![v902, v580] : Fin 2 → IVec S16 32) a x).toNat < S128x128.size a := fun v580 v902 k0_hw72 => k0_hw72

def k0_chk73 (v576 : IVec S16 32) (v906 : IVec S16 32) : Prop :=
  (∀ a x, ((![v576, v906] : Fin 2 → IVec S16 32) a x).toNat < S256x128.size a)
instance k0_chk73.dec : ∀ (v576 : IVec S16 32) (v906 : IVec S16 32), Decidable (k0_chk73 v576 v906) := fun v576 v906 => decidable_of_iff' _ (Iff.of_eq (k0_chk73.eq_1 v576 v906))
theorem k0_idx73_inb : ∀ (v576 : IVec S16 32) (v906 : IVec S16 32) (k0_hw73 : k0_chk73 v576 v906), ∀ a x, ((![v576, v906] : Fin 2 → IVec S16 32) a x).toNat < S256x128.size a := fun v576 v906 k0_hw73 => k0_hw73

def k0_chk74 (v580 : IVec S16 32) (v911 : IVec S16 32) : Prop :=
  (∀ a x, ((![v911, v580] : Fin 2 → IVec S16 32) a x).toNat < S128x128.size a)
instance k0_chk74.dec : ∀ (v580 : IVec S16 32) (v911 : IVec S16 32), Decidable (k0_chk74 v580 v911) := fun v580 v911 => decidable_of_iff' _ (Iff.of_eq (k0_chk74.eq_1 v580 v911))
theorem k0_idx74_inb : ∀ (v580 : IVec S16 32) (v911 : IVec S16 32) (k0_hw74 : k0_chk74 v580 v911), ∀ a x, ((![v911, v580] : Fin 2 → IVec S16 32) a x).toNat < S128x128.size a := fun v580 v911 k0_hw74 => k0_hw74

def k0_chk75 (v576 : IVec S16 32) (v915 : IVec S16 32) : Prop :=
  (∀ a x, ((![v576, v915] : Fin 2 → IVec S16 32) a x).toNat < S256x128.size a)
instance k0_chk75.dec : ∀ (v576 : IVec S16 32) (v915 : IVec S16 32), Decidable (k0_chk75 v576 v915) := fun v576 v915 => decidable_of_iff' _ (Iff.of_eq (k0_chk75.eq_1 v576 v915))
theorem k0_idx75_inb : ∀ (v576 : IVec S16 32) (v915 : IVec S16 32) (k0_hw75 : k0_chk75 v576 v915), ∀ a x, ((![v576, v915] : Fin 2 → IVec S16 32) a x).toNat < S256x128.size a := fun v576 v915 k0_hw75 => k0_hw75

def k0_chk76 (v580 : IVec S16 32) (v920 : IVec S16 32) : Prop :=
  (∀ a x, ((![v920, v580] : Fin 2 → IVec S16 32) a x).toNat < S128x128.size a)
instance k0_chk76.dec : ∀ (v580 : IVec S16 32) (v920 : IVec S16 32), Decidable (k0_chk76 v580 v920) := fun v580 v920 => decidable_of_iff' _ (Iff.of_eq (k0_chk76.eq_1 v580 v920))
theorem k0_idx76_inb : ∀ (v580 : IVec S16 32) (v920 : IVec S16 32) (k0_hw76 : k0_chk76 v580 v920), ∀ a x, ((![v920, v580] : Fin 2 → IVec S16 32) a x).toNat < S128x128.size a := fun v580 v920 k0_hw76 => k0_hw76

def k0_chk77 (v576 : IVec S16 32) (v924 : IVec S16 32) : Prop :=
  (∀ a x, ((![v576, v924] : Fin 2 → IVec S16 32) a x).toNat < S256x128.size a)
instance k0_chk77.dec : ∀ (v576 : IVec S16 32) (v924 : IVec S16 32), Decidable (k0_chk77 v576 v924) := fun v576 v924 => decidable_of_iff' _ (Iff.of_eq (k0_chk77.eq_1 v576 v924))
theorem k0_idx77_inb : ∀ (v576 : IVec S16 32) (v924 : IVec S16 32) (k0_hw77 : k0_chk77 v576 v924), ∀ a x, ((![v576, v924] : Fin 2 → IVec S16 32) a x).toNat < S256x128.size a := fun v576 v924 k0_hw77 => k0_hw77

def k0_chk78 (v580 : IVec S16 32) (v929 : IVec S16 32) : Prop :=
  (∀ a x, ((![v929, v580] : Fin 2 → IVec S16 32) a x).toNat < S128x128.size a)
instance k0_chk78.dec : ∀ (v580 : IVec S16 32) (v929 : IVec S16 32), Decidable (k0_chk78 v580 v929) := fun v580 v929 => decidable_of_iff' _ (Iff.of_eq (k0_chk78.eq_1 v580 v929))
theorem k0_idx78_inb : ∀ (v580 : IVec S16 32) (v929 : IVec S16 32) (k0_hw78 : k0_chk78 v580 v929), ∀ a x, ((![v929, v580] : Fin 2 → IVec S16 32) a x).toNat < S128x128.size a := fun v580 v929 k0_hw78 => k0_hw78

def k0_chk79 (v576 : IVec S16 32) (v933 : IVec S16 32) : Prop :=
  (∀ a x, ((![v576, v933] : Fin 2 → IVec S16 32) a x).toNat < S256x128.size a)
instance k0_chk79.dec : ∀ (v576 : IVec S16 32) (v933 : IVec S16 32), Decidable (k0_chk79 v576 v933) := fun v576 v933 => decidable_of_iff' _ (Iff.of_eq (k0_chk79.eq_1 v576 v933))
theorem k0_idx79_inb : ∀ (v576 : IVec S16 32) (v933 : IVec S16 32) (k0_hw79 : k0_chk79 v576 v933), ∀ a x, ((![v576, v933] : Fin 2 → IVec S16 32) a x).toNat < S256x128.size a := fun v576 v933 k0_hw79 => k0_hw79

def k0_chk80 (v580 : IVec S16 32) (v938 : IVec S16 32) : Prop :=
  (∀ a x, ((![v938, v580] : Fin 2 → IVec S16 32) a x).toNat < S128x128.size a)
instance k0_chk80.dec : ∀ (v580 : IVec S16 32) (v938 : IVec S16 32), Decidable (k0_chk80 v580 v938) := fun v580 v938 => decidable_of_iff' _ (Iff.of_eq (k0_chk80.eq_1 v580 v938))
theorem k0_idx80_inb : ∀ (v580 : IVec S16 32) (v938 : IVec S16 32) (k0_hw80 : k0_chk80 v580 v938), ∀ a x, ((![v938, v580] : Fin 2 → IVec S16 32) a x).toNat < S128x128.size a := fun v580 v938 k0_hw80 => k0_hw80

def k0_chk81 (v576 : IVec S16 32) (v942 : IVec S16 32) : Prop :=
  (∀ a x, ((![v576, v942] : Fin 2 → IVec S16 32) a x).toNat < S256x128.size a)
instance k0_chk81.dec : ∀ (v576 : IVec S16 32) (v942 : IVec S16 32), Decidable (k0_chk81 v576 v942) := fun v576 v942 => decidable_of_iff' _ (Iff.of_eq (k0_chk81.eq_1 v576 v942))
theorem k0_idx81_inb : ∀ (v576 : IVec S16 32) (v942 : IVec S16 32) (k0_hw81 : k0_chk81 v576 v942), ∀ a x, ((![v576, v942] : Fin 2 → IVec S16 32) a x).toNat < S256x128.size a := fun v576 v942 k0_hw81 => k0_hw81

def k0_chk82 (v580 : IVec S16 32) (v947 : IVec S16 32) : Prop :=
  (∀ a x, ((![v947, v580] : Fin 2 → IVec S16 32) a x).toNat < S128x128.size a)
instance k0_chk82.dec : ∀ (v580 : IVec S16 32) (v947 : IVec S16 32), Decidable (k0_chk82 v580 v947) := fun v580 v947 => decidable_of_iff' _ (Iff.of_eq (k0_chk82.eq_1 v580 v947))
theorem k0_idx82_inb : ∀ (v580 : IVec S16 32) (v947 : IVec S16 32) (k0_hw82 : k0_chk82 v580 v947), ∀ a x, ((![v947, v580] : Fin 2 → IVec S16 32) a x).toNat < S128x128.size a := fun v580 v947 k0_hw82 => k0_hw82

def k0_chk83 (v576 : IVec S16 32) (v951 : IVec S16 32) : Prop :=
  (∀ a x, ((![v576, v951] : Fin 2 → IVec S16 32) a x).toNat < S256x128.size a)
instance k0_chk83.dec : ∀ (v576 : IVec S16 32) (v951 : IVec S16 32), Decidable (k0_chk83 v576 v951) := fun v576 v951 => decidable_of_iff' _ (Iff.of_eq (k0_chk83.eq_1 v576 v951))
theorem k0_idx83_inb : ∀ (v576 : IVec S16 32) (v951 : IVec S16 32) (k0_hw83 : k0_chk83 v576 v951), ∀ a x, ((![v576, v951] : Fin 2 → IVec S16 32) a x).toNat < S256x128.size a := fun v576 v951 k0_hw83 => k0_hw83

def k0_chk84 (v580 : IVec S16 32) (v956 : IVec S16 32) : Prop :=
  (∀ a x, ((![v956, v580] : Fin 2 → IVec S16 32) a x).toNat < S128x128.size a)
instance k0_chk84.dec : ∀ (v580 : IVec S16 32) (v956 : IVec S16 32), Decidable (k0_chk84 v580 v956) := fun v580 v956 => decidable_of_iff' _ (Iff.of_eq (k0_chk84.eq_1 v580 v956))
theorem k0_idx84_inb : ∀ (v580 : IVec S16 32) (v956 : IVec S16 32) (k0_hw84 : k0_chk84 v580 v956), ∀ a x, ((![v956, v580] : Fin 2 → IVec S16 32) a x).toNat < S128x128.size a := fun v580 v956 k0_hw84 => k0_hw84

def k0_chk85 (v576 : IVec S16 32) (v960 : IVec S16 32) : Prop :=
  (∀ a x, ((![v576, v960] : Fin 2 → IVec S16 32) a x).toNat < S256x128.size a)
instance k0_chk85.dec : ∀ (v576 : IVec S16 32) (v960 : IVec S16 32), Decidable (k0_chk85 v576 v960) := fun v576 v960 => decidable_of_iff' _ (Iff.of_eq (k0_chk85.eq_1 v576 v960))
theorem k0_idx85_inb : ∀ (v576 : IVec S16 32) (v960 : IVec S16 32) (k0_hw85 : k0_chk85 v576 v960), ∀ a x, ((![v576, v960] : Fin 2 → IVec S16 32) a x).toNat < S256x128.size a := fun v576 v960 k0_hw85 => k0_hw85

def k0_chk86 (v580 : IVec S16 32) (v965 : IVec S16 32) : Prop :=
  (∀ a x, ((![v965, v580] : Fin 2 → IVec S16 32) a x).toNat < S128x128.size a)
instance k0_chk86.dec : ∀ (v580 : IVec S16 32) (v965 : IVec S16 32), Decidable (k0_chk86 v580 v965) := fun v580 v965 => decidable_of_iff' _ (Iff.of_eq (k0_chk86.eq_1 v580 v965))
theorem k0_idx86_inb : ∀ (v580 : IVec S16 32) (v965 : IVec S16 32) (k0_hw86 : k0_chk86 v580 v965), ∀ a x, ((![v965, v580] : Fin 2 → IVec S16 32) a x).toNat < S128x128.size a := fun v580 v965 k0_hw86 => k0_hw86

def k0_chk87 (v576 : IVec S16 32) (v969 : IVec S16 32) : Prop :=
  (∀ a x, ((![v576, v969] : Fin 2 → IVec S16 32) a x).toNat < S256x128.size a)
instance k0_chk87.dec : ∀ (v576 : IVec S16 32) (v969 : IVec S16 32), Decidable (k0_chk87 v576 v969) := fun v576 v969 => decidable_of_iff' _ (Iff.of_eq (k0_chk87.eq_1 v576 v969))
theorem k0_idx87_inb : ∀ (v576 : IVec S16 32) (v969 : IVec S16 32) (k0_hw87 : k0_chk87 v576 v969), ∀ a x, ((![v576, v969] : Fin 2 → IVec S16 32) a x).toNat < S256x128.size a := fun v576 v969 k0_hw87 => k0_hw87

def k0_chk88 (v580 : IVec S16 32) (v974 : IVec S16 32) : Prop :=
  (∀ a x, ((![v974, v580] : Fin 2 → IVec S16 32) a x).toNat < S128x128.size a)
instance k0_chk88.dec : ∀ (v580 : IVec S16 32) (v974 : IVec S16 32), Decidable (k0_chk88 v580 v974) := fun v580 v974 => decidable_of_iff' _ (Iff.of_eq (k0_chk88.eq_1 v580 v974))
theorem k0_idx88_inb : ∀ (v580 : IVec S16 32) (v974 : IVec S16 32) (k0_hw88 : k0_chk88 v580 v974), ∀ a x, ((![v974, v580] : Fin 2 → IVec S16 32) a x).toNat < S128x128.size a := fun v580 v974 k0_hw88 => k0_hw88

def k0_chk89 (v576 : IVec S16 32) (v978 : IVec S16 32) : Prop :=
  (∀ a x, ((![v576, v978] : Fin 2 → IVec S16 32) a x).toNat < S256x128.size a)
instance k0_chk89.dec : ∀ (v576 : IVec S16 32) (v978 : IVec S16 32), Decidable (k0_chk89 v576 v978) := fun v576 v978 => decidable_of_iff' _ (Iff.of_eq (k0_chk89.eq_1 v576 v978))
theorem k0_idx89_inb : ∀ (v576 : IVec S16 32) (v978 : IVec S16 32) (k0_hw89 : k0_chk89 v576 v978), ∀ a x, ((![v576, v978] : Fin 2 → IVec S16 32) a x).toNat < S256x128.size a := fun v576 v978 k0_hw89 => k0_hw89

def k0_chk90 (v580 : IVec S16 32) (v983 : IVec S16 32) : Prop :=
  (∀ a x, ((![v983, v580] : Fin 2 → IVec S16 32) a x).toNat < S128x128.size a)
instance k0_chk90.dec : ∀ (v580 : IVec S16 32) (v983 : IVec S16 32), Decidable (k0_chk90 v580 v983) := fun v580 v983 => decidable_of_iff' _ (Iff.of_eq (k0_chk90.eq_1 v580 v983))
theorem k0_idx90_inb : ∀ (v580 : IVec S16 32) (v983 : IVec S16 32) (k0_hw90 : k0_chk90 v580 v983), ∀ a x, ((![v983, v580] : Fin 2 → IVec S16 32) a x).toNat < S128x128.size a := fun v580 v983 k0_hw90 => k0_hw90

def k0_chk91 (v576 : IVec S16 32) (v987 : IVec S16 32) : Prop :=
  (∀ a x, ((![v576, v987] : Fin 2 → IVec S16 32) a x).toNat < S256x128.size a)
instance k0_chk91.dec : ∀ (v576 : IVec S16 32) (v987 : IVec S16 32), Decidable (k0_chk91 v576 v987) := fun v576 v987 => decidable_of_iff' _ (Iff.of_eq (k0_chk91.eq_1 v576 v987))
theorem k0_idx91_inb : ∀ (v576 : IVec S16 32) (v987 : IVec S16 32) (k0_hw91 : k0_chk91 v576 v987), ∀ a x, ((![v576, v987] : Fin 2 → IVec S16 32) a x).toNat < S256x128.size a := fun v576 v987 k0_hw91 => k0_hw91

def k0_chk92 (v580 : IVec S16 32) (v992 : IVec S16 32) : Prop :=
  (∀ a x, ((![v992, v580] : Fin 2 → IVec S16 32) a x).toNat < S128x128.size a)
instance k0_chk92.dec : ∀ (v580 : IVec S16 32) (v992 : IVec S16 32), Decidable (k0_chk92 v580 v992) := fun v580 v992 => decidable_of_iff' _ (Iff.of_eq (k0_chk92.eq_1 v580 v992))
theorem k0_idx92_inb : ∀ (v580 : IVec S16 32) (v992 : IVec S16 32) (k0_hw92 : k0_chk92 v580 v992), ∀ a x, ((![v992, v580] : Fin 2 → IVec S16 32) a x).toNat < S128x128.size a := fun v580 v992 k0_hw92 => k0_hw92

def k0_chk93 (v576 : IVec S16 32) (v996 : IVec S16 32) : Prop :=
  (∀ a x, ((![v576, v996] : Fin 2 → IVec S16 32) a x).toNat < S256x128.size a)
instance k0_chk93.dec : ∀ (v576 : IVec S16 32) (v996 : IVec S16 32), Decidable (k0_chk93 v576 v996) := fun v576 v996 => decidable_of_iff' _ (Iff.of_eq (k0_chk93.eq_1 v576 v996))
theorem k0_idx93_inb : ∀ (v576 : IVec S16 32) (v996 : IVec S16 32) (k0_hw93 : k0_chk93 v576 v996), ∀ a x, ((![v576, v996] : Fin 2 → IVec S16 32) a x).toNat < S256x128.size a := fun v576 v996 k0_hw93 => k0_hw93

def k0_chk94 (v580 : IVec S16 32) (v1001 : IVec S16 32) : Prop :=
  (∀ a x, ((![v1001, v580] : Fin 2 → IVec S16 32) a x).toNat < S128x128.size a)
instance k0_chk94.dec : ∀ (v580 : IVec S16 32) (v1001 : IVec S16 32), Decidable (k0_chk94 v580 v1001) := fun v580 v1001 => decidable_of_iff' _ (Iff.of_eq (k0_chk94.eq_1 v580 v1001))
theorem k0_idx94_inb : ∀ (v580 : IVec S16 32) (v1001 : IVec S16 32) (k0_hw94 : k0_chk94 v580 v1001), ∀ a x, ((![v1001, v580] : Fin 2 → IVec S16 32) a x).toNat < S128x128.size a := fun v580 v1001 k0_hw94 => k0_hw94

def k0_chk95 (v576 : IVec S16 32) (v1005 : IVec S16 32) : Prop :=
  (∀ a x, ((![v576, v1005] : Fin 2 → IVec S16 32) a x).toNat < S256x128.size a)
instance k0_chk95.dec : ∀ (v576 : IVec S16 32) (v1005 : IVec S16 32), Decidable (k0_chk95 v576 v1005) := fun v576 v1005 => decidable_of_iff' _ (Iff.of_eq (k0_chk95.eq_1 v576 v1005))
theorem k0_idx95_inb : ∀ (v576 : IVec S16 32) (v1005 : IVec S16 32) (k0_hw95 : k0_chk95 v576 v1005), ∀ a x, ((![v576, v1005] : Fin 2 → IVec S16 32) a x).toNat < S256x128.size a := fun v576 v1005 k0_hw95 => k0_hw95

def k0_chk96 (v580 : IVec S16 32) (v1010 : IVec S16 32) : Prop :=
  (∀ a x, ((![v1010, v580] : Fin 2 → IVec S16 32) a x).toNat < S128x128.size a)
instance k0_chk96.dec : ∀ (v580 : IVec S16 32) (v1010 : IVec S16 32), Decidable (k0_chk96 v580 v1010) := fun v580 v1010 => decidable_of_iff' _ (Iff.of_eq (k0_chk96.eq_1 v580 v1010))
theorem k0_idx96_inb : ∀ (v580 : IVec S16 32) (v1010 : IVec S16 32) (k0_hw96 : k0_chk96 v580 v1010), ∀ a x, ((![v1010, v580] : Fin 2 → IVec S16 32) a x).toNat < S128x128.size a := fun v580 v1010 k0_hw96 => k0_hw96

def k0_chk97 (v576 : IVec S16 32) (v1014 : IVec S16 32) : Prop :=
  (∀ a x, ((![v576, v1014] : Fin 2 → IVec S16 32) a x).toNat < S256x128.size a)
instance k0_chk97.dec : ∀ (v576 : IVec S16 32) (v1014 : IVec S16 32), Decidable (k0_chk97 v576 v1014) := fun v576 v1014 => decidable_of_iff' _ (Iff.of_eq (k0_chk97.eq_1 v576 v1014))
theorem k0_idx97_inb : ∀ (v576 : IVec S16 32) (v1014 : IVec S16 32) (k0_hw97 : k0_chk97 v576 v1014), ∀ a x, ((![v576, v1014] : Fin 2 → IVec S16 32) a x).toNat < S256x128.size a := fun v576 v1014 k0_hw97 => k0_hw97

def k0_chk98 (v580 : IVec S16 32) (v1019 : IVec S16 32) : Prop :=
  (∀ a x, ((![v1019, v580] : Fin 2 → IVec S16 32) a x).toNat < S128x128.size a)
instance k0_chk98.dec : ∀ (v580 : IVec S16 32) (v1019 : IVec S16 32), Decidable (k0_chk98 v580 v1019) := fun v580 v1019 => decidable_of_iff' _ (Iff.of_eq (k0_chk98.eq_1 v580 v1019))
theorem k0_idx98_inb : ∀ (v580 : IVec S16 32) (v1019 : IVec S16 32) (k0_hw98 : k0_chk98 v580 v1019), ∀ a x, ((![v1019, v580] : Fin 2 → IVec S16 32) a x).toNat < S128x128.size a := fun v580 v1019 k0_hw98 => k0_hw98

def k0_chk99 (v576 : IVec S16 32) (v1023 : IVec S16 32) : Prop :=
  (∀ a x, ((![v576, v1023] : Fin 2 → IVec S16 32) a x).toNat < S256x128.size a)
instance k0_chk99.dec : ∀ (v576 : IVec S16 32) (v1023 : IVec S16 32), Decidable (k0_chk99 v576 v1023) := fun v576 v1023 => decidable_of_iff' _ (Iff.of_eq (k0_chk99.eq_1 v576 v1023))
theorem k0_idx99_inb : ∀ (v576 : IVec S16 32) (v1023 : IVec S16 32) (k0_hw99 : k0_chk99 v576 v1023), ∀ a x, ((![v576, v1023] : Fin 2 → IVec S16 32) a x).toNat < S256x128.size a := fun v576 v1023 k0_hw99 => k0_hw99

def k0_chk100 (v580 : IVec S16 32) (v1028 : IVec S16 32) : Prop :=
  (∀ a x, ((![v1028, v580] : Fin 2 → IVec S16 32) a x).toNat < S128x128.size a)
instance k0_chk100.dec : ∀ (v580 : IVec S16 32) (v1028 : IVec S16 32), Decidable (k0_chk100 v580 v1028) := fun v580 v1028 => decidable_of_iff' _ (Iff.of_eq (k0_chk100.eq_1 v580 v1028))
theorem k0_idx100_inb : ∀ (v580 : IVec S16 32) (v1028 : IVec S16 32) (k0_hw100 : k0_chk100 v580 v1028), ∀ a x, ((![v1028, v580] : Fin 2 → IVec S16 32) a x).toNat < S128x128.size a := fun v580 v1028 k0_hw100 => k0_hw100

def k0_chk101 (v576 : IVec S16 32) (v1032 : IVec S16 32) : Prop :=
  (∀ a x, ((![v576, v1032] : Fin 2 → IVec S16 32) a x).toNat < S256x128.size a)
instance k0_chk101.dec : ∀ (v576 : IVec S16 32) (v1032 : IVec S16 32), Decidable (k0_chk101 v576 v1032) := fun v576 v1032 => decidable_of_iff' _ (Iff.of_eq (k0_chk101.eq_1 v576 v1032))
theorem k0_idx101_inb : ∀ (v576 : IVec S16 32) (v1032 : IVec S16 32) (k0_hw101 : k0_chk101 v576 v1032), ∀ a x, ((![v576, v1032] : Fin 2 → IVec S16 32) a x).toNat < S256x128.size a := fun v576 v1032 k0_hw101 => k0_hw101

def k0_chk102 (v580 : IVec S16 32) (v1037 : IVec S16 32) : Prop :=
  (∀ a x, ((![v1037, v580] : Fin 2 → IVec S16 32) a x).toNat < S128x128.size a)
instance k0_chk102.dec : ∀ (v580 : IVec S16 32) (v1037 : IVec S16 32), Decidable (k0_chk102 v580 v1037) := fun v580 v1037 => decidable_of_iff' _ (Iff.of_eq (k0_chk102.eq_1 v580 v1037))
theorem k0_idx102_inb : ∀ (v580 : IVec S16 32) (v1037 : IVec S16 32) (k0_hw102 : k0_chk102 v580 v1037), ∀ a x, ((![v1037, v580] : Fin 2 → IVec S16 32) a x).toNat < S128x128.size a := fun v580 v1037 k0_hw102 => k0_hw102

def k0_chk103 (v576 : IVec S16 32) (v1041 : IVec S16 32) : Prop :=
  (∀ a x, ((![v576, v1041] : Fin 2 → IVec S16 32) a x).toNat < S256x128.size a)
instance k0_chk103.dec : ∀ (v576 : IVec S16 32) (v1041 : IVec S16 32), Decidable (k0_chk103 v576 v1041) := fun v576 v1041 => decidable_of_iff' _ (Iff.of_eq (k0_chk103.eq_1 v576 v1041))
theorem k0_idx103_inb : ∀ (v576 : IVec S16 32) (v1041 : IVec S16 32) (k0_hw103 : k0_chk103 v576 v1041), ∀ a x, ((![v576, v1041] : Fin 2 → IVec S16 32) a x).toNat < S256x128.size a := fun v576 v1041 k0_hw103 => k0_hw103

def k0_chk104 (v580 : IVec S16 32) (v1046 : IVec S16 32) : Prop :=
  (∀ a x, ((![v1046, v580] : Fin 2 → IVec S16 32) a x).toNat < S128x128.size a)
instance k0_chk104.dec : ∀ (v580 : IVec S16 32) (v1046 : IVec S16 32), Decidable (k0_chk104 v580 v1046) := fun v580 v1046 => decidable_of_iff' _ (Iff.of_eq (k0_chk104.eq_1 v580 v1046))
theorem k0_idx104_inb : ∀ (v580 : IVec S16 32) (v1046 : IVec S16 32) (k0_hw104 : k0_chk104 v580 v1046), ∀ a x, ((![v1046, v580] : Fin 2 → IVec S16 32) a x).toNat < S128x128.size a := fun v580 v1046 k0_hw104 => k0_hw104

def k0_chk105 (v576 : IVec S16 32) (v1050 : IVec S16 32) : Prop :=
  (∀ a x, ((![v576, v1050] : Fin 2 → IVec S16 32) a x).toNat < S256x128.size a)
instance k0_chk105.dec : ∀ (v576 : IVec S16 32) (v1050 : IVec S16 32), Decidable (k0_chk105 v576 v1050) := fun v576 v1050 => decidable_of_iff' _ (Iff.of_eq (k0_chk105.eq_1 v576 v1050))
theorem k0_idx105_inb : ∀ (v576 : IVec S16 32) (v1050 : IVec S16 32) (k0_hw105 : k0_chk105 v576 v1050), ∀ a x, ((![v576, v1050] : Fin 2 → IVec S16 32) a x).toNat < S256x128.size a := fun v576 v1050 k0_hw105 => k0_hw105

def k0_chk106 (v580 : IVec S16 32) (v1055 : IVec S16 32) : Prop :=
  (∀ a x, ((![v1055, v580] : Fin 2 → IVec S16 32) a x).toNat < S128x128.size a)
instance k0_chk106.dec : ∀ (v580 : IVec S16 32) (v1055 : IVec S16 32), Decidable (k0_chk106 v580 v1055) := fun v580 v1055 => decidable_of_iff' _ (Iff.of_eq (k0_chk106.eq_1 v580 v1055))
theorem k0_idx106_inb : ∀ (v580 : IVec S16 32) (v1055 : IVec S16 32) (k0_hw106 : k0_chk106 v580 v1055), ∀ a x, ((![v1055, v580] : Fin 2 → IVec S16 32) a x).toNat < S128x128.size a := fun v580 v1055 k0_hw106 => k0_hw106

def k0_chk107 (v576 : IVec S16 32) (v1059 : IVec S16 32) : Prop :=
  (∀ a x, ((![v576, v1059] : Fin 2 → IVec S16 32) a x).toNat < S256x128.size a)
instance k0_chk107.dec : ∀ (v576 : IVec S16 32) (v1059 : IVec S16 32), Decidable (k0_chk107 v576 v1059) := fun v576 v1059 => decidable_of_iff' _ (Iff.of_eq (k0_chk107.eq_1 v576 v1059))
theorem k0_idx107_inb : ∀ (v576 : IVec S16 32) (v1059 : IVec S16 32) (k0_hw107 : k0_chk107 v576 v1059), ∀ a x, ((![v576, v1059] : Fin 2 → IVec S16 32) a x).toNat < S256x128.size a := fun v576 v1059 k0_hw107 => k0_hw107

def k0_chk108 (v580 : IVec S16 32) (v1064 : IVec S16 32) : Prop :=
  (∀ a x, ((![v1064, v580] : Fin 2 → IVec S16 32) a x).toNat < S128x128.size a)
instance k0_chk108.dec : ∀ (v580 : IVec S16 32) (v1064 : IVec S16 32), Decidable (k0_chk108 v580 v1064) := fun v580 v1064 => decidable_of_iff' _ (Iff.of_eq (k0_chk108.eq_1 v580 v1064))
theorem k0_idx108_inb : ∀ (v580 : IVec S16 32) (v1064 : IVec S16 32) (k0_hw108 : k0_chk108 v580 v1064), ∀ a x, ((![v1064, v580] : Fin 2 → IVec S16 32) a x).toNat < S128x128.size a := fun v580 v1064 k0_hw108 => k0_hw108

def k0_chk109 (v576 : IVec S16 32) (v1068 : IVec S16 32) : Prop :=
  (∀ a x, ((![v576, v1068] : Fin 2 → IVec S16 32) a x).toNat < S256x128.size a)
instance k0_chk109.dec : ∀ (v576 : IVec S16 32) (v1068 : IVec S16 32), Decidable (k0_chk109 v576 v1068) := fun v576 v1068 => decidable_of_iff' _ (Iff.of_eq (k0_chk109.eq_1 v576 v1068))
theorem k0_idx109_inb : ∀ (v576 : IVec S16 32) (v1068 : IVec S16 32) (k0_hw109 : k0_chk109 v576 v1068), ∀ a x, ((![v576, v1068] : Fin 2 → IVec S16 32) a x).toNat < S256x128.size a := fun v576 v1068 k0_hw109 => k0_hw109

def k0_chk110 (v580 : IVec S16 32) (v1073 : IVec S16 32) : Prop :=
  (∀ a x, ((![v1073, v580] : Fin 2 → IVec S16 32) a x).toNat < S128x128.size a)
instance k0_chk110.dec : ∀ (v580 : IVec S16 32) (v1073 : IVec S16 32), Decidable (k0_chk110 v580 v1073) := fun v580 v1073 => decidable_of_iff' _ (Iff.of_eq (k0_chk110.eq_1 v580 v1073))
theorem k0_idx110_inb : ∀ (v580 : IVec S16 32) (v1073 : IVec S16 32) (k0_hw110 : k0_chk110 v580 v1073), ∀ a x, ((![v1073, v580] : Fin 2 → IVec S16 32) a x).toNat < S128x128.size a := fun v580 v1073 k0_hw110 => k0_hw110

def k0_chk111 (v576 : IVec S16 32) (v1077 : IVec S16 32) : Prop :=
  (∀ a x, ((![v576, v1077] : Fin 2 → IVec S16 32) a x).toNat < S256x128.size a)
instance k0_chk111.dec : ∀ (v576 : IVec S16 32) (v1077 : IVec S16 32), Decidable (k0_chk111 v576 v1077) := fun v576 v1077 => decidable_of_iff' _ (Iff.of_eq (k0_chk111.eq_1 v576 v1077))
theorem k0_idx111_inb : ∀ (v576 : IVec S16 32) (v1077 : IVec S16 32) (k0_hw111 : k0_chk111 v576 v1077), ∀ a x, ((![v576, v1077] : Fin 2 → IVec S16 32) a x).toNat < S256x128.size a := fun v576 v1077 k0_hw111 => k0_hw111

def k0_chk112 (v580 : IVec S16 32) (v1082 : IVec S16 32) : Prop :=
  (∀ a x, ((![v1082, v580] : Fin 2 → IVec S16 32) a x).toNat < S128x128.size a)
instance k0_chk112.dec : ∀ (v580 : IVec S16 32) (v1082 : IVec S16 32), Decidable (k0_chk112 v580 v1082) := fun v580 v1082 => decidable_of_iff' _ (Iff.of_eq (k0_chk112.eq_1 v580 v1082))
theorem k0_idx112_inb : ∀ (v580 : IVec S16 32) (v1082 : IVec S16 32) (k0_hw112 : k0_chk112 v580 v1082), ∀ a x, ((![v1082, v580] : Fin 2 → IVec S16 32) a x).toNat < S128x128.size a := fun v580 v1082 k0_hw112 => k0_hw112

def k0_chk113 (v576 : IVec S16 32) (v1086 : IVec S16 32) : Prop :=
  (∀ a x, ((![v576, v1086] : Fin 2 → IVec S16 32) a x).toNat < S256x128.size a)
instance k0_chk113.dec : ∀ (v576 : IVec S16 32) (v1086 : IVec S16 32), Decidable (k0_chk113 v576 v1086) := fun v576 v1086 => decidable_of_iff' _ (Iff.of_eq (k0_chk113.eq_1 v576 v1086))
theorem k0_idx113_inb : ∀ (v576 : IVec S16 32) (v1086 : IVec S16 32) (k0_hw113 : k0_chk113 v576 v1086), ∀ a x, ((![v576, v1086] : Fin 2 → IVec S16 32) a x).toNat < S256x128.size a := fun v576 v1086 k0_hw113 => k0_hw113

def k0_chk114 (v580 : IVec S16 32) (v1091 : IVec S16 32) : Prop :=
  (∀ a x, ((![v1091, v580] : Fin 2 → IVec S16 32) a x).toNat < S128x128.size a)
instance k0_chk114.dec : ∀ (v580 : IVec S16 32) (v1091 : IVec S16 32), Decidable (k0_chk114 v580 v1091) := fun v580 v1091 => decidable_of_iff' _ (Iff.of_eq (k0_chk114.eq_1 v580 v1091))
theorem k0_idx114_inb : ∀ (v580 : IVec S16 32) (v1091 : IVec S16 32) (k0_hw114 : k0_chk114 v580 v1091), ∀ a x, ((![v1091, v580] : Fin 2 → IVec S16 32) a x).toNat < S128x128.size a := fun v580 v1091 k0_hw114 => k0_hw114

def k0_chk115 (v576 : IVec S16 32) (v1095 : IVec S16 32) : Prop :=
  (∀ a x, ((![v576, v1095] : Fin 2 → IVec S16 32) a x).toNat < S256x128.size a)
instance k0_chk115.dec : ∀ (v576 : IVec S16 32) (v1095 : IVec S16 32), Decidable (k0_chk115 v576 v1095) := fun v576 v1095 => decidable_of_iff' _ (Iff.of_eq (k0_chk115.eq_1 v576 v1095))
theorem k0_idx115_inb : ∀ (v576 : IVec S16 32) (v1095 : IVec S16 32) (k0_hw115 : k0_chk115 v576 v1095), ∀ a x, ((![v576, v1095] : Fin 2 → IVec S16 32) a x).toNat < S256x128.size a := fun v576 v1095 k0_hw115 => k0_hw115

def k0_chk116 (v580 : IVec S16 32) (v1100 : IVec S16 32) : Prop :=
  (∀ a x, ((![v1100, v580] : Fin 2 → IVec S16 32) a x).toNat < S128x128.size a)
instance k0_chk116.dec : ∀ (v580 : IVec S16 32) (v1100 : IVec S16 32), Decidable (k0_chk116 v580 v1100) := fun v580 v1100 => decidable_of_iff' _ (Iff.of_eq (k0_chk116.eq_1 v580 v1100))
theorem k0_idx116_inb : ∀ (v580 : IVec S16 32) (v1100 : IVec S16 32) (k0_hw116 : k0_chk116 v580 v1100), ∀ a x, ((![v1100, v580] : Fin 2 → IVec S16 32) a x).toNat < S128x128.size a := fun v580 v1100 k0_hw116 => k0_hw116

def k0_chk117 (v576 : IVec S16 32) (v1104 : IVec S16 32) : Prop :=
  (∀ a x, ((![v576, v1104] : Fin 2 → IVec S16 32) a x).toNat < S256x128.size a)
instance k0_chk117.dec : ∀ (v576 : IVec S16 32) (v1104 : IVec S16 32), Decidable (k0_chk117 v576 v1104) := fun v576 v1104 => decidable_of_iff' _ (Iff.of_eq (k0_chk117.eq_1 v576 v1104))
theorem k0_idx117_inb : ∀ (v576 : IVec S16 32) (v1104 : IVec S16 32) (k0_hw117 : k0_chk117 v576 v1104), ∀ a x, ((![v576, v1104] : Fin 2 → IVec S16 32) a x).toNat < S256x128.size a := fun v576 v1104 k0_hw117 => k0_hw117

def k0_chk118 (v580 : IVec S16 32) (v1109 : IVec S16 32) : Prop :=
  (∀ a x, ((![v1109, v580] : Fin 2 → IVec S16 32) a x).toNat < S128x128.size a)
instance k0_chk118.dec : ∀ (v580 : IVec S16 32) (v1109 : IVec S16 32), Decidable (k0_chk118 v580 v1109) := fun v580 v1109 => decidable_of_iff' _ (Iff.of_eq (k0_chk118.eq_1 v580 v1109))
theorem k0_idx118_inb : ∀ (v580 : IVec S16 32) (v1109 : IVec S16 32) (k0_hw118 : k0_chk118 v580 v1109), ∀ a x, ((![v1109, v580] : Fin 2 → IVec S16 32) a x).toNat < S128x128.size a := fun v580 v1109 k0_hw118 => k0_hw118

def k0_chk119 (v576 : IVec S16 32) (v1113 : IVec S16 32) : Prop :=
  (∀ a x, ((![v576, v1113] : Fin 2 → IVec S16 32) a x).toNat < S256x128.size a)
instance k0_chk119.dec : ∀ (v576 : IVec S16 32) (v1113 : IVec S16 32), Decidable (k0_chk119 v576 v1113) := fun v576 v1113 => decidable_of_iff' _ (Iff.of_eq (k0_chk119.eq_1 v576 v1113))
theorem k0_idx119_inb : ∀ (v576 : IVec S16 32) (v1113 : IVec S16 32) (k0_hw119 : k0_chk119 v576 v1113), ∀ a x, ((![v576, v1113] : Fin 2 → IVec S16 32) a x).toNat < S256x128.size a := fun v576 v1113 k0_hw119 => k0_hw119

def k0_chk120 (v580 : IVec S16 32) (v1118 : IVec S16 32) : Prop :=
  (∀ a x, ((![v1118, v580] : Fin 2 → IVec S16 32) a x).toNat < S128x128.size a)
instance k0_chk120.dec : ∀ (v580 : IVec S16 32) (v1118 : IVec S16 32), Decidable (k0_chk120 v580 v1118) := fun v580 v1118 => decidable_of_iff' _ (Iff.of_eq (k0_chk120.eq_1 v580 v1118))
theorem k0_idx120_inb : ∀ (v580 : IVec S16 32) (v1118 : IVec S16 32) (k0_hw120 : k0_chk120 v580 v1118), ∀ a x, ((![v1118, v580] : Fin 2 → IVec S16 32) a x).toNat < S128x128.size a := fun v580 v1118 k0_hw120 => k0_hw120

def k0_chk121 (v576 : IVec S16 32) (v1122 : IVec S16 32) : Prop :=
  (∀ a x, ((![v576, v1122] : Fin 2 → IVec S16 32) a x).toNat < S256x128.size a)
instance k0_chk121.dec : ∀ (v576 : IVec S16 32) (v1122 : IVec S16 32), Decidable (k0_chk121 v576 v1122) := fun v576 v1122 => decidable_of_iff' _ (Iff.of_eq (k0_chk121.eq_1 v576 v1122))
theorem k0_idx121_inb : ∀ (v576 : IVec S16 32) (v1122 : IVec S16 32) (k0_hw121 : k0_chk121 v576 v1122), ∀ a x, ((![v576, v1122] : Fin 2 → IVec S16 32) a x).toNat < S256x128.size a := fun v576 v1122 k0_hw121 => k0_hw121

def k0_chk122 (v580 : IVec S16 32) (v1127 : IVec S16 32) : Prop :=
  (∀ a x, ((![v1127, v580] : Fin 2 → IVec S16 32) a x).toNat < S128x128.size a)
instance k0_chk122.dec : ∀ (v580 : IVec S16 32) (v1127 : IVec S16 32), Decidable (k0_chk122 v580 v1127) := fun v580 v1127 => decidable_of_iff' _ (Iff.of_eq (k0_chk122.eq_1 v580 v1127))
theorem k0_idx122_inb : ∀ (v580 : IVec S16 32) (v1127 : IVec S16 32) (k0_hw122 : k0_chk122 v580 v1127), ∀ a x, ((![v1127, v580] : Fin 2 → IVec S16 32) a x).toNat < S128x128.size a := fun v580 v1127 k0_hw122 => k0_hw122

def k0_chk123 (v576 : IVec S16 32) (v1131 : IVec S16 32) : Prop :=
  (∀ a x, ((![v576, v1131] : Fin 2 → IVec S16 32) a x).toNat < S256x128.size a)
instance k0_chk123.dec : ∀ (v576 : IVec S16 32) (v1131 : IVec S16 32), Decidable (k0_chk123 v576 v1131) := fun v576 v1131 => decidable_of_iff' _ (Iff.of_eq (k0_chk123.eq_1 v576 v1131))
theorem k0_idx123_inb : ∀ (v576 : IVec S16 32) (v1131 : IVec S16 32) (k0_hw123 : k0_chk123 v576 v1131), ∀ a x, ((![v576, v1131] : Fin 2 → IVec S16 32) a x).toNat < S256x128.size a := fun v576 v1131 k0_hw123 => k0_hw123

def k0_chk124 (v580 : IVec S16 32) (v1136 : IVec S16 32) : Prop :=
  (∀ a x, ((![v1136, v580] : Fin 2 → IVec S16 32) a x).toNat < S128x128.size a)
instance k0_chk124.dec : ∀ (v580 : IVec S16 32) (v1136 : IVec S16 32), Decidable (k0_chk124 v580 v1136) := fun v580 v1136 => decidable_of_iff' _ (Iff.of_eq (k0_chk124.eq_1 v580 v1136))
theorem k0_idx124_inb : ∀ (v580 : IVec S16 32) (v1136 : IVec S16 32) (k0_hw124 : k0_chk124 v580 v1136), ∀ a x, ((![v1136, v580] : Fin 2 → IVec S16 32) a x).toNat < S128x128.size a := fun v580 v1136 k0_hw124 => k0_hw124

def k0_chk125 (v576 : IVec S16 32) (v1140 : IVec S16 32) : Prop :=
  (∀ a x, ((![v576, v1140] : Fin 2 → IVec S16 32) a x).toNat < S256x128.size a)
instance k0_chk125.dec : ∀ (v576 : IVec S16 32) (v1140 : IVec S16 32), Decidable (k0_chk125 v576 v1140) := fun v576 v1140 => decidable_of_iff' _ (Iff.of_eq (k0_chk125.eq_1 v576 v1140))
theorem k0_idx125_inb : ∀ (v576 : IVec S16 32) (v1140 : IVec S16 32) (k0_hw125 : k0_chk125 v576 v1140), ∀ a x, ((![v576, v1140] : Fin 2 → IVec S16 32) a x).toNat < S256x128.size a := fun v576 v1140 k0_hw125 => k0_hw125

def k0_chk126 (v580 : IVec S16 32) (v1145 : IVec S16 32) : Prop :=
  (∀ a x, ((![v1145, v580] : Fin 2 → IVec S16 32) a x).toNat < S128x128.size a)
instance k0_chk126.dec : ∀ (v580 : IVec S16 32) (v1145 : IVec S16 32), Decidable (k0_chk126 v580 v1145) := fun v580 v1145 => decidable_of_iff' _ (Iff.of_eq (k0_chk126.eq_1 v580 v1145))
theorem k0_idx126_inb : ∀ (v580 : IVec S16 32) (v1145 : IVec S16 32) (k0_hw126 : k0_chk126 v580 v1145), ∀ a x, ((![v1145, v580] : Fin 2 → IVec S16 32) a x).toNat < S128x128.size a := fun v580 v1145 k0_hw126 => k0_hw126

def k0_chk127 (v576 : IVec S16 32) (v1149 : IVec S16 32) : Prop :=
  (∀ a x, ((![v576, v1149] : Fin 2 → IVec S16 32) a x).toNat < S256x128.size a)
instance k0_chk127.dec : ∀ (v576 : IVec S16 32) (v1149 : IVec S16 32), Decidable (k0_chk127 v576 v1149) := fun v576 v1149 => decidable_of_iff' _ (Iff.of_eq (k0_chk127.eq_1 v576 v1149))
theorem k0_idx127_inb : ∀ (v576 : IVec S16 32) (v1149 : IVec S16 32) (k0_hw127 : k0_chk127 v576 v1149), ∀ a x, ((![v576, v1149] : Fin 2 → IVec S16 32) a x).toNat < S256x128.size a := fun v576 v1149 k0_hw127 => k0_hw127

def k0_chk128 (v580 : IVec S16 32) (v1154 : IVec S16 32) : Prop :=
  (∀ a x, ((![v1154, v580] : Fin 2 → IVec S16 32) a x).toNat < S128x128.size a)
instance k0_chk128.dec : ∀ (v580 : IVec S16 32) (v1154 : IVec S16 32), Decidable (k0_chk128 v580 v1154) := fun v580 v1154 => decidable_of_iff' _ (Iff.of_eq (k0_chk128.eq_1 v580 v1154))
theorem k0_idx128_inb : ∀ (v580 : IVec S16 32) (v1154 : IVec S16 32) (k0_hw128 : k0_chk128 v580 v1154), ∀ a x, ((![v1154, v580] : Fin 2 → IVec S16 32) a x).toNat < S128x128.size a := fun v580 v1154 k0_hw128 => k0_hw128
def k0_off12 (i : grid0.Coords) (k0_t1 : Fin k0_t1_loop.trips) (c0_i32_158 : BitVec 32) (c0_i32_186 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c0_i32_189 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v288 : BitVec 32 := Scalar.addi v275 c0_i32_186
  ![v263.toNat, 0, v288.toNat]
def k0_off13 (i : grid0.Coords) (k0_t1 : Fin k0_t1_loop.trips) (c0_i32_158 : BitVec 32) (c0_i32_200 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c8_i32_203 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v302 : BitVec 32 := Scalar.addi v275 c0_i32_200
  ![v263.toNat, 8, v302.toNat]
def k0_off14 (i : grid0.Coords) (k0_t1 : Fin k0_t1_loop.trips) (c0_i32_158 : BitVec 32) (c0_i32_214 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c16_i32_217 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v316 : BitVec 32 := Scalar.addi v275 c0_i32_214
  ![v263.toNat, 16, v316.toNat]
def k0_off15 (i : grid0.Coords) (k0_t1 : Fin k0_t1_loop.trips) (c0_i32_158 : BitVec 32) (c0_i32_228 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c24_i32_231 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v330 : BitVec 32 := Scalar.addi v275 c0_i32_228
  ![v263.toNat, 24, v330.toNat]
def k0_off16 (i : grid0.Coords) (k0_t1 : Fin k0_t1_loop.trips) (c0_i32_158 : BitVec 32) (c0_i32_242 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c32_i32_245 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v344 : BitVec 32 := Scalar.addi v275 c0_i32_242
  ![v263.toNat, 32, v344.toNat]
def k0_off17 (i : grid0.Coords) (k0_t1 : Fin k0_t1_loop.trips) (c0_i32_158 : BitVec 32) (c0_i32_256 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c40_i32_259 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v358 : BitVec 32 := Scalar.addi v275 c0_i32_256
  ![v263.toNat, 40, v358.toNat]
def k0_off18 (i : grid0.Coords) (k0_t1 : Fin k0_t1_loop.trips) (c0_i32_158 : BitVec 32) (c0_i32_270 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c48_i32_273 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v372 : BitVec 32 := Scalar.addi v275 c0_i32_270
  ![v263.toNat, 48, v372.toNat]
def k0_off19 (i : grid0.Coords) (k0_t1 : Fin k0_t1_loop.trips) (c0_i32_158 : BitVec 32) (c0_i32_284 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let v245 : BitVec 32 := Scalar.addi v244 c0_i32_158
  let c0_i32_161 : BitVec 32 := 0#32
  let v248 : BitVec 1 := Scalar.cmpi .sgt v245 c0_i32_161
  let v249 : BitVec 32 := Scalar.extui v248
  let c0_i32_162 : BitVec 32 := 0#32
  let v250 : BitVec 1 := Scalar.cmpi .slt v245 c0_i32_162
  let v251 : BitVec 32 := Scalar.extui v250
  let v252 : BitVec 32 := Scalar.subi v249 v251
  let c2_i32_160 : BitVec 32 := 2#32
  let c0_i32_163 : BitVec 32 := 0#32
  let v253 : BitVec 1 := Scalar.cmpi .sgt c2_i32_160 c0_i32_163
  let v254 : BitVec 32 := Scalar.extui v253
  let c0_i32_164 : BitVec 32 := 0#32
  let v255 : BitVec 1 := Scalar.cmpi .slt c2_i32_160 c0_i32_164
  let v256 : BitVec 32 := Scalar.extui v255
  let v257 : BitVec 32 := Scalar.subi v254 v256
  let v258 : BitVec 1 := Scalar.cmpi .ne v252 v257
  let v259 : BitVec 32 := Scalar.remsi v245 c2_i32_160
  let c0_i32_165 : BitVec 32 := 0#32
  let v260 : BitVec 1 := Scalar.cmpi .ne v259 c0_i32_165
  let v261 : BitVec 1 := Scalar.andi v258 v260
  let v247 : BitVec 32 := Scalar.divsi v245 c2_i32_160
  let c1_i32_166 : BitVec 32 := 1#32
  let v262 : BitVec 32 := Scalar.subi v247 c1_i32_166
  let v263 : BitVec 32 := Scalar.select v261 v262 v247
  let c56_i32_287 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_167 : BitVec 32 := 2#32
  let c0_i32_168 : BitVec 32 := 0#32
  let v264 : BitVec 1 := Scalar.cmpi .eq c2_i32_167 c0_i32_168
  let c1_i32_169 : BitVec 32 := 1#32
  let v265 : BitVec 32 := Scalar.select v264 c1_i32_169 c2_i32_167
  let v266 : BitVec 32 := Scalar.remsi v245 v265
  let c0_i32_171 : BitVec 32 := 0#32
  let v268 : BitVec 1 := Scalar.cmpi .slt v266 c0_i32_171
  let c0_i32_172 : BitVec 32 := 0#32
  let v269 : BitVec 1 := Scalar.cmpi .slt v265 c0_i32_172
  let v270 : BitVec 1 := Scalar.xori v268 v269
  let c0_i32_170 : BitVec 32 := 0#32
  let v267 : BitVec 1 := Scalar.cmpi .ne v266 c0_i32_170
  let v271 : BitVec 1 := Scalar.andi v270 v267
  let v272 : BitVec 32 := Scalar.addi v266 v265
  let v273 : BitVec 32 := Scalar.select v271 v272 v266
  let c256_i32_173 : BitVec 32 := 256#32
  let v274 : BitVec 32 := Scalar.muli v273 c256_i32_173
  let v275 : BitVec 32 := Scalar.addi v2 v274
  let v386 : BitVec 32 := Scalar.addi v275 c0_i32_284
  ![v263.toNat, 56, v386.toNat]
def k0_cond4 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c1_i32_299 : BitVec 32 := 1#32
  let v401 : BitVec 32 := Scalar.addi v400 c1_i32_299
  let c100_i32_314 : BitVec 32 := 100#32
  let v431 : BitVec 1 := Scalar.cmpi .slt v401 c100_i32_314
  let v432 : BitVec 32 := Scalar.extui v431
  let c0_i32_315 : BitVec 32 := 0#32
  let v433 : BitVec 1 := Scalar.cmpi .ne v432 c0_i32_315
  v433

def k0_off20 (i : grid0.Coords) (k0_t1 : Fin k0_t1_loop.trips) : Fin 1 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c1_i32_299 : BitVec 32 := 1#32
  let v401 : BitVec 32 := Scalar.addi v400 c1_i32_299
  let c0_i32_440 : BitVec 32 := 0#32
  let v556 : BitVec 1 := Scalar.cmpi .sgt v401 c0_i32_440
  let v557 : BitVec 32 := Scalar.extui v556
  let c0_i32_441 : BitVec 32 := 0#32
  let v558 : BitVec 1 := Scalar.cmpi .slt v401 c0_i32_441
  let v559 : BitVec 32 := Scalar.extui v558
  let v560 : BitVec 32 := Scalar.subi v557 v559
  let c2_i32_439 : BitVec 32 := 2#32
  let c0_i32_442 : BitVec 32 := 0#32
  let v561 : BitVec 1 := Scalar.cmpi .sgt c2_i32_439 c0_i32_442
  let v562 : BitVec 32 := Scalar.extui v561
  let c0_i32_443 : BitVec 32 := 0#32
  let v563 : BitVec 1 := Scalar.cmpi .slt c2_i32_439 c0_i32_443
  let v564 : BitVec 32 := Scalar.extui v563
  let v565 : BitVec 32 := Scalar.subi v562 v564
  let v566 : BitVec 1 := Scalar.cmpi .ne v560 v565
  let v567 : BitVec 32 := Scalar.remsi v401 c2_i32_439
  let c0_i32_444 : BitVec 32 := 0#32
  let v568 : BitVec 1 := Scalar.cmpi .ne v567 c0_i32_444
  let v569 : BitVec 1 := Scalar.andi v566 v568
  let v555 : BitVec 32 := Scalar.divsi v401 c2_i32_439
  let c1_i32_445 : BitVec 32 := 1#32
  let v570 : BitVec 32 := Scalar.subi v555 c1_i32_445
  let v571 : BitVec 32 := Scalar.select v569 v570 v555
  let c16384_i32 : BitVec 32 := 16384#32
  let v572 : BitVec 32 := Scalar.muli v571 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v573 : BitVec 32 := Scalar.addi v572 v2
  let c2_i32_446 : BitVec 32 := 2#32
  let c0_i32_447 : BitVec 32 := 0#32
  let v574 : BitVec 1 := Scalar.cmpi .eq c2_i32_446 c0_i32_447
  let c1_i32_448 : BitVec 32 := 1#32
  let v575 : BitVec 32 := Scalar.select v574 c1_i32_448 c2_i32_446
  let v576 : BitVec 32 := Scalar.remsi v401 v575
  let c0_i32_450 : BitVec 32 := 0#32
  let v578 : BitVec 1 := Scalar.cmpi .slt v576 c0_i32_450
  let c0_i32_451 : BitVec 32 := 0#32
  let v579 : BitVec 1 := Scalar.cmpi .slt v575 c0_i32_451
  let v580 : BitVec 1 := Scalar.xori v578 v579
  let c0_i32_449 : BitVec 32 := 0#32
  let v577 : BitVec 1 := Scalar.cmpi .ne v576 c0_i32_449
  let v581 : BitVec 1 := Scalar.andi v580 v577
  let v582 : BitVec 32 := Scalar.addi v576 v575
  let v583 : BitVec 32 := Scalar.select v581 v582 v576
  let c256_i32_452 : BitVec 32 := 256#32
  let v584 : BitVec 32 := Scalar.muli v583 c256_i32_452
  let v585 : BitVec 32 := Scalar.addi v573 v584
  ![v585.toNat]
def k0_cond5 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c2_i32_318 : BitVec 32 := 2#32
  let v435 : BitVec 32 := Scalar.addi v400 c2_i32_318
  let c100_i32_319 : BitVec 32 := 100#32
  let v436 : BitVec 1 := Scalar.cmpi .slt v435 c100_i32_319
  let v437 : BitVec 32 := Scalar.extui v436
  let c0_i32_320 : BitVec 32 := 0#32
  let v438 : BitVec 1 := Scalar.cmpi .ne v437 c0_i32_320
  v438

def k0_off21 (i : grid0.Coords) (k0_t1 : Fin k0_t1_loop.trips) : Fin 1 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c2_i32_439 : BitVec 32 := 2#32
  let v555 : BitVec 32 := Scalar.addi v400 c2_i32_439
  let c0_i32_441 : BitVec 32 := 0#32
  let v557 : BitVec 1 := Scalar.cmpi .sgt v555 c0_i32_441
  let v558 : BitVec 32 := Scalar.extui v557
  let c0_i32_442 : BitVec 32 := 0#32
  let v559 : BitVec 1 := Scalar.cmpi .slt v555 c0_i32_442
  let v560 : BitVec 32 := Scalar.extui v559
  let v561 : BitVec 32 := Scalar.subi v558 v560
  let c2_i32_440 : BitVec 32 := 2#32
  let c0_i32_443 : BitVec 32 := 0#32
  let v562 : BitVec 1 := Scalar.cmpi .sgt c2_i32_440 c0_i32_443
  let v563 : BitVec 32 := Scalar.extui v562
  let c0_i32_444 : BitVec 32 := 0#32
  let v564 : BitVec 1 := Scalar.cmpi .slt c2_i32_440 c0_i32_444
  let v565 : BitVec 32 := Scalar.extui v564
  let v566 : BitVec 32 := Scalar.subi v563 v565
  let v567 : BitVec 1 := Scalar.cmpi .ne v561 v566
  let v568 : BitVec 32 := Scalar.remsi v555 c2_i32_440
  let c0_i32_445 : BitVec 32 := 0#32
  let v569 : BitVec 1 := Scalar.cmpi .ne v568 c0_i32_445
  let v570 : BitVec 1 := Scalar.andi v567 v569
  let v556 : BitVec 32 := Scalar.divsi v555 c2_i32_440
  let c1_i32_446 : BitVec 32 := 1#32
  let v571 : BitVec 32 := Scalar.subi v556 c1_i32_446
  let v572 : BitVec 32 := Scalar.select v570 v571 v556
  let c16384_i32 : BitVec 32 := 16384#32
  let v573 : BitVec 32 := Scalar.muli v572 c16384_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v574 : BitVec 32 := Scalar.addi v573 v2
  let c2_i32_447 : BitVec 32 := 2#32
  let c0_i32_448 : BitVec 32 := 0#32
  let v575 : BitVec 1 := Scalar.cmpi .eq c2_i32_447 c0_i32_448
  let c1_i32_449 : BitVec 32 := 1#32
  let v576 : BitVec 32 := Scalar.select v575 c1_i32_449 c2_i32_447
  let v577 : BitVec 32 := Scalar.remsi v555 v576
  let c0_i32_451 : BitVec 32 := 0#32
  let v579 : BitVec 1 := Scalar.cmpi .slt v577 c0_i32_451
  let c0_i32_452 : BitVec 32 := 0#32
  let v580 : BitVec 1 := Scalar.cmpi .slt v576 c0_i32_452
  let v581 : BitVec 1 := Scalar.xori v579 v580
  let c0_i32_450 : BitVec 32 := 0#32
  let v578 : BitVec 1 := Scalar.cmpi .ne v577 c0_i32_450
  let v582 : BitVec 1 := Scalar.andi v581 v578
  let v583 : BitVec 32 := Scalar.addi v577 v576
  let v584 : BitVec 32 := Scalar.select v582 v583 v577
  let c256_i32_453 : BitVec 32 := 256#32
  let v585 : BitVec 32 := Scalar.muli v584 c256_i32_453
  let v586 : BitVec 32 := Scalar.addi v574 v585
  ![v586.toNat]
def k0_cond6 (k0_t1 : Fin k0_t1_loop.trips) : BitVec 1 :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_321 : BitVec 32 := 0#32
  let v439 : BitVec 1 := Scalar.cmpi .sgt v400 c0_i32_321
  let v440 : BitVec 32 := Scalar.extui v439
  let c0_i32_322 : BitVec 32 := 0#32
  let v441 : BitVec 1 := Scalar.cmpi .ne v440 c0_i32_322
  v441

def k0_off22 (i : grid0.Coords) (k0_t1 : Fin k0_t1_loop.trips) (c0_i32_439 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c0_i32_442 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v555 : BitVec 32 := Scalar.addi v430 c0_i32_439
  ![v418.toNat, 0, v555.toNat]
def k0_off23 (i : grid0.Coords) (k0_t1 : Fin k0_t1_loop.trips) (c0_i32_453 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c8_i32_456 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v569 : BitVec 32 := Scalar.addi v430 c0_i32_453
  ![v418.toNat, 8, v569.toNat]
def k0_off24 (i : grid0.Coords) (k0_t1 : Fin k0_t1_loop.trips) (c0_i32_467 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c16_i32_470 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v583 : BitVec 32 := Scalar.addi v430 c0_i32_467
  ![v418.toNat, 16, v583.toNat]
def k0_off25 (i : grid0.Coords) (k0_t1 : Fin k0_t1_loop.trips) (c0_i32_481 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c24_i32_484 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v597 : BitVec 32 := Scalar.addi v430 c0_i32_481
  ![v418.toNat, 24, v597.toNat]
def k0_off26 (i : grid0.Coords) (k0_t1 : Fin k0_t1_loop.trips) (c0_i32_495 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c32_i32_498 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v611 : BitVec 32 := Scalar.addi v430 c0_i32_495
  ![v418.toNat, 32, v611.toNat]
def k0_off27 (i : grid0.Coords) (k0_t1 : Fin k0_t1_loop.trips) (c0_i32_509 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c40_i32_512 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v625 : BitVec 32 := Scalar.addi v430 c0_i32_509
  ![v418.toNat, 40, v625.toNat]
def k0_off28 (i : grid0.Coords) (k0_t1 : Fin k0_t1_loop.trips) (c0_i32_523 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c48_i32_526 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v639 : BitVec 32 := Scalar.addi v430 c0_i32_523
  ![v418.toNat, 48, v639.toNat]
def k0_off29 (i : grid0.Coords) (k0_t1 : Fin k0_t1_loop.trips) (c0_i32_537 : BitVec 32) : Fin 3 → Nat :=
  let c0_i32_157 : BitVec 32 := 0#32
  let c0_i32_40 : BitVec 32 := 0#32
  let c1_i32_41 : BitVec 32 := 1#32
  let arg15 : BitVec 32 := Scf.iv c0_i32_40 c1_i32_41 k0_t1
  let c2_i32_156 : BitVec 32 := 2#32
  let v243 : BitVec 32 := Scalar.muli arg15 c2_i32_156
  let v244 : BitVec 32 := Scalar.addi c0_i32_157 v243
  let c1_i32_298 : BitVec 32 := 1#32
  let v400 : BitVec 32 := Scalar.addi v244 c1_i32_298
  let c0_i32_301 : BitVec 32 := 0#32
  let v403 : BitVec 1 := Scalar.cmpi .sgt v400 c0_i32_301
  let v404 : BitVec 32 := Scalar.extui v403
  let c0_i32_302 : BitVec 32 := 0#32
  let v405 : BitVec 1 := Scalar.cmpi .slt v400 c0_i32_302
  let v406 : BitVec 32 := Scalar.extui v405
  let v407 : BitVec 32 := Scalar.subi v404 v406
  let c2_i32_300 : BitVec 32 := 2#32
  let c0_i32_303 : BitVec 32 := 0#32
  let v408 : BitVec 1 := Scalar.cmpi .sgt c2_i32_300 c0_i32_303
  let v409 : BitVec 32 := Scalar.extui v408
  let c0_i32_304 : BitVec 32 := 0#32
  let v410 : BitVec 1 := Scalar.cmpi .slt c2_i32_300 c0_i32_304
  let v411 : BitVec 32 := Scalar.extui v410
  let v412 : BitVec 32 := Scalar.subi v409 v411
  let v413 : BitVec 1 := Scalar.cmpi .ne v407 v412
  let v414 : BitVec 32 := Scalar.remsi v400 c2_i32_300
  let c0_i32_305 : BitVec 32 := 0#32
  let v415 : BitVec 1 := Scalar.cmpi .ne v414 c0_i32_305
  let v416 : BitVec 1 := Scalar.andi v413 v415
  let v402 : BitVec 32 := Scalar.divsi v400 c2_i32_300
  let c1_i32_306 : BitVec 32 := 1#32
  let v417 : BitVec 32 := Scalar.subi v402 c1_i32_306
  let v418 : BitVec 32 := Scalar.select v416 v417 v402
  let c56_i32_540 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_307 : BitVec 32 := 2#32
  let c0_i32_308 : BitVec 32 := 0#32
  let v419 : BitVec 1 := Scalar.cmpi .eq c2_i32_307 c0_i32_308
  let c1_i32_309 : BitVec 32 := 1#32
  let v420 : BitVec 32 := Scalar.select v419 c1_i32_309 c2_i32_307
  let v421 : BitVec 32 := Scalar.remsi v400 v420
  let c0_i32_311 : BitVec 32 := 0#32
  let v423 : BitVec 1 := Scalar.cmpi .slt v421 c0_i32_311
  let c0_i32_312 : BitVec 32 := 0#32
  let v424 : BitVec 1 := Scalar.cmpi .slt v420 c0_i32_312
  let v425 : BitVec 1 := Scalar.xori v423 v424
  let c0_i32_310 : BitVec 32 := 0#32
  let v422 : BitVec 1 := Scalar.cmpi .ne v421 c0_i32_310
  let v426 : BitVec 1 := Scalar.andi v425 v422
  let v427 : BitVec 32 := Scalar.addi v421 v420
  let v428 : BitVec 32 := Scalar.select v426 v427 v421
  let c256_i32_313 : BitVec 32 := 256#32
  let v429 : BitVec 32 := Scalar.muli v428 c256_i32_313
  let v430 : BitVec 32 := Scalar.addi v2 v429
  let v653 : BitVec 32 := Scalar.addi v430 c0_i32_537
  ![v418.toNat, 56, v653.toNat]
@[reducible] def k0_t3_loop : Scf.Loop 32 :=
  let c0_i32_323 : BitVec 32 := 0#32
  let c16_i32_324 : BitVec 32 := 16#32
  let v442 : BitVec 32 := Scalar.addi c0_i32_323 c16_i32_324
  let c1_i32_325 : BitVec 32 := 1#32
  ⟨c0_i32_323, v442, c1_i32_325⟩

def k0_chk129 (v576 : IVec S16 32) (v582 : IVec S16 32) : Prop :=
  (∀ a x, ((![v576, v582] : Fin 2 → IVec S16 32) a x).toNat < S256x128.size a)
instance k0_chk129.dec : ∀ (v576 : IVec S16 32) (v582 : IVec S16 32), Decidable (k0_chk129 v576 v582) := fun v576 v582 => decidable_of_iff' _ (Iff.of_eq (k0_chk129.eq_1 v576 v582))
theorem k0_idx129_inb : ∀ (v576 : IVec S16 32) (v582 : IVec S16 32) (k0_hw129 : k0_chk129 v576 v582), ∀ a x, ((![v576, v582] : Fin 2 → IVec S16 32) a x).toNat < S256x128.size a := fun v576 v582 k0_hw129 => k0_hw129

def k0_chk130 (v580 : IVec S16 32) (v587 : IVec S16 32) : Prop :=
  (∀ a x, ((![v587, v580] : Fin 2 → IVec S16 32) a x).toNat < S128x128.size a)
instance k0_chk130.dec : ∀ (v580 : IVec S16 32) (v587 : IVec S16 32), Decidable (k0_chk130 v580 v587) := fun v580 v587 => decidable_of_iff' _ (Iff.of_eq (k0_chk130.eq_1 v580 v587))
theorem k0_idx130_inb : ∀ (v580 : IVec S16 32) (v587 : IVec S16 32) (k0_hw130 : k0_chk130 v580 v587), ∀ a x, ((![v587, v580] : Fin 2 → IVec S16 32) a x).toNat < S128x128.size a := fun v580 v587 k0_hw130 => k0_hw130

def k0_chk131 (v576 : IVec S16 32) (v591 : IVec S16 32) : Prop :=
  (∀ a x, ((![v576, v591] : Fin 2 → IVec S16 32) a x).toNat < S256x128.size a)
instance k0_chk131.dec : ∀ (v576 : IVec S16 32) (v591 : IVec S16 32), Decidable (k0_chk131 v576 v591) := fun v576 v591 => decidable_of_iff' _ (Iff.of_eq (k0_chk131.eq_1 v576 v591))
theorem k0_idx131_inb : ∀ (v576 : IVec S16 32) (v591 : IVec S16 32) (k0_hw131 : k0_chk131 v576 v591), ∀ a x, ((![v576, v591] : Fin 2 → IVec S16 32) a x).toNat < S256x128.size a := fun v576 v591 k0_hw131 => k0_hw131

def k0_chk132 (v580 : IVec S16 32) (v596 : IVec S16 32) : Prop :=
  (∀ a x, ((![v596, v580] : Fin 2 → IVec S16 32) a x).toNat < S128x128.size a)
instance k0_chk132.dec : ∀ (v580 : IVec S16 32) (v596 : IVec S16 32), Decidable (k0_chk132 v580 v596) := fun v580 v596 => decidable_of_iff' _ (Iff.of_eq (k0_chk132.eq_1 v580 v596))
theorem k0_idx132_inb : ∀ (v580 : IVec S16 32) (v596 : IVec S16 32) (k0_hw132 : k0_chk132 v580 v596), ∀ a x, ((![v596, v580] : Fin 2 → IVec S16 32) a x).toNat < S128x128.size a := fun v580 v596 k0_hw132 => k0_hw132

def k0_chk133 (v576 : IVec S16 32) (v600 : IVec S16 32) : Prop :=
  (∀ a x, ((![v576, v600] : Fin 2 → IVec S16 32) a x).toNat < S256x128.size a)
instance k0_chk133.dec : ∀ (v576 : IVec S16 32) (v600 : IVec S16 32), Decidable (k0_chk133 v576 v600) := fun v576 v600 => decidable_of_iff' _ (Iff.of_eq (k0_chk133.eq_1 v576 v600))
theorem k0_idx133_inb : ∀ (v576 : IVec S16 32) (v600 : IVec S16 32) (k0_hw133 : k0_chk133 v576 v600), ∀ a x, ((![v576, v600] : Fin 2 → IVec S16 32) a x).toNat < S256x128.size a := fun v576 v600 k0_hw133 => k0_hw133

def k0_chk134 (v580 : IVec S16 32) (v605 : IVec S16 32) : Prop :=
  (∀ a x, ((![v605, v580] : Fin 2 → IVec S16 32) a x).toNat < S128x128.size a)
instance k0_chk134.dec : ∀ (v580 : IVec S16 32) (v605 : IVec S16 32), Decidable (k0_chk134 v580 v605) := fun v580 v605 => decidable_of_iff' _ (Iff.of_eq (k0_chk134.eq_1 v580 v605))
theorem k0_idx134_inb : ∀ (v580 : IVec S16 32) (v605 : IVec S16 32) (k0_hw134 : k0_chk134 v580 v605), ∀ a x, ((![v605, v580] : Fin 2 → IVec S16 32) a x).toNat < S128x128.size a := fun v580 v605 k0_hw134 => k0_hw134

def k0_chk135 (v576 : IVec S16 32) (v609 : IVec S16 32) : Prop :=
  (∀ a x, ((![v576, v609] : Fin 2 → IVec S16 32) a x).toNat < S256x128.size a)
instance k0_chk135.dec : ∀ (v576 : IVec S16 32) (v609 : IVec S16 32), Decidable (k0_chk135 v576 v609) := fun v576 v609 => decidable_of_iff' _ (Iff.of_eq (k0_chk135.eq_1 v576 v609))
theorem k0_idx135_inb : ∀ (v576 : IVec S16 32) (v609 : IVec S16 32) (k0_hw135 : k0_chk135 v576 v609), ∀ a x, ((![v576, v609] : Fin 2 → IVec S16 32) a x).toNat < S256x128.size a := fun v576 v609 k0_hw135 => k0_hw135

def k0_chk136 (v580 : IVec S16 32) (v614 : IVec S16 32) : Prop :=
  (∀ a x, ((![v614, v580] : Fin 2 → IVec S16 32) a x).toNat < S128x128.size a)
instance k0_chk136.dec : ∀ (v580 : IVec S16 32) (v614 : IVec S16 32), Decidable (k0_chk136 v580 v614) := fun v580 v614 => decidable_of_iff' _ (Iff.of_eq (k0_chk136.eq_1 v580 v614))
theorem k0_idx136_inb : ∀ (v580 : IVec S16 32) (v614 : IVec S16 32) (k0_hw136 : k0_chk136 v580 v614), ∀ a x, ((![v614, v580] : Fin 2 → IVec S16 32) a x).toNat < S128x128.size a := fun v580 v614 k0_hw136 => k0_hw136

def k0_chk137 (v576 : IVec S16 32) (v618 : IVec S16 32) : Prop :=
  (∀ a x, ((![v576, v618] : Fin 2 → IVec S16 32) a x).toNat < S256x128.size a)
instance k0_chk137.dec : ∀ (v576 : IVec S16 32) (v618 : IVec S16 32), Decidable (k0_chk137 v576 v618) := fun v576 v618 => decidable_of_iff' _ (Iff.of_eq (k0_chk137.eq_1 v576 v618))
theorem k0_idx137_inb : ∀ (v576 : IVec S16 32) (v618 : IVec S16 32) (k0_hw137 : k0_chk137 v576 v618), ∀ a x, ((![v576, v618] : Fin 2 → IVec S16 32) a x).toNat < S256x128.size a := fun v576 v618 k0_hw137 => k0_hw137

def k0_chk138 (v580 : IVec S16 32) (v623 : IVec S16 32) : Prop :=
  (∀ a x, ((![v623, v580] : Fin 2 → IVec S16 32) a x).toNat < S128x128.size a)
instance k0_chk138.dec : ∀ (v580 : IVec S16 32) (v623 : IVec S16 32), Decidable (k0_chk138 v580 v623) := fun v580 v623 => decidable_of_iff' _ (Iff.of_eq (k0_chk138.eq_1 v580 v623))
theorem k0_idx138_inb : ∀ (v580 : IVec S16 32) (v623 : IVec S16 32) (k0_hw138 : k0_chk138 v580 v623), ∀ a x, ((![v623, v580] : Fin 2 → IVec S16 32) a x).toNat < S128x128.size a := fun v580 v623 k0_hw138 => k0_hw138

def k0_chk139 (v576 : IVec S16 32) (v627 : IVec S16 32) : Prop :=
  (∀ a x, ((![v576, v627] : Fin 2 → IVec S16 32) a x).toNat < S256x128.size a)
instance k0_chk139.dec : ∀ (v576 : IVec S16 32) (v627 : IVec S16 32), Decidable (k0_chk139 v576 v627) := fun v576 v627 => decidable_of_iff' _ (Iff.of_eq (k0_chk139.eq_1 v576 v627))
theorem k0_idx139_inb : ∀ (v576 : IVec S16 32) (v627 : IVec S16 32) (k0_hw139 : k0_chk139 v576 v627), ∀ a x, ((![v576, v627] : Fin 2 → IVec S16 32) a x).toNat < S256x128.size a := fun v576 v627 k0_hw139 => k0_hw139

def k0_chk140 (v580 : IVec S16 32) (v632 : IVec S16 32) : Prop :=
  (∀ a x, ((![v632, v580] : Fin 2 → IVec S16 32) a x).toNat < S128x128.size a)
instance k0_chk140.dec : ∀ (v580 : IVec S16 32) (v632 : IVec S16 32), Decidable (k0_chk140 v580 v632) := fun v580 v632 => decidable_of_iff' _ (Iff.of_eq (k0_chk140.eq_1 v580 v632))
theorem k0_idx140_inb : ∀ (v580 : IVec S16 32) (v632 : IVec S16 32) (k0_hw140 : k0_chk140 v580 v632), ∀ a x, ((![v632, v580] : Fin 2 → IVec S16 32) a x).toNat < S128x128.size a := fun v580 v632 k0_hw140 => k0_hw140

def k0_chk141 (v576 : IVec S16 32) (v636 : IVec S16 32) : Prop :=
  (∀ a x, ((![v576, v636] : Fin 2 → IVec S16 32) a x).toNat < S256x128.size a)
instance k0_chk141.dec : ∀ (v576 : IVec S16 32) (v636 : IVec S16 32), Decidable (k0_chk141 v576 v636) := fun v576 v636 => decidable_of_iff' _ (Iff.of_eq (k0_chk141.eq_1 v576 v636))
theorem k0_idx141_inb : ∀ (v576 : IVec S16 32) (v636 : IVec S16 32) (k0_hw141 : k0_chk141 v576 v636), ∀ a x, ((![v576, v636] : Fin 2 → IVec S16 32) a x).toNat < S256x128.size a := fun v576 v636 k0_hw141 => k0_hw141

def k0_chk142 (v580 : IVec S16 32) (v641 : IVec S16 32) : Prop :=
  (∀ a x, ((![v641, v580] : Fin 2 → IVec S16 32) a x).toNat < S128x128.size a)
instance k0_chk142.dec : ∀ (v580 : IVec S16 32) (v641 : IVec S16 32), Decidable (k0_chk142 v580 v641) := fun v580 v641 => decidable_of_iff' _ (Iff.of_eq (k0_chk142.eq_1 v580 v641))
theorem k0_idx142_inb : ∀ (v580 : IVec S16 32) (v641 : IVec S16 32) (k0_hw142 : k0_chk142 v580 v641), ∀ a x, ((![v641, v580] : Fin 2 → IVec S16 32) a x).toNat < S128x128.size a := fun v580 v641 k0_hw142 => k0_hw142

def k0_chk143 (v576 : IVec S16 32) (v645 : IVec S16 32) : Prop :=
  (∀ a x, ((![v576, v645] : Fin 2 → IVec S16 32) a x).toNat < S256x128.size a)
instance k0_chk143.dec : ∀ (v576 : IVec S16 32) (v645 : IVec S16 32), Decidable (k0_chk143 v576 v645) := fun v576 v645 => decidable_of_iff' _ (Iff.of_eq (k0_chk143.eq_1 v576 v645))
theorem k0_idx143_inb : ∀ (v576 : IVec S16 32) (v645 : IVec S16 32) (k0_hw143 : k0_chk143 v576 v645), ∀ a x, ((![v576, v645] : Fin 2 → IVec S16 32) a x).toNat < S256x128.size a := fun v576 v645 k0_hw143 => k0_hw143

def k0_chk144 (v580 : IVec S16 32) (v650 : IVec S16 32) : Prop :=
  (∀ a x, ((![v650, v580] : Fin 2 → IVec S16 32) a x).toNat < S128x128.size a)
instance k0_chk144.dec : ∀ (v580 : IVec S16 32) (v650 : IVec S16 32), Decidable (k0_chk144 v580 v650) := fun v580 v650 => decidable_of_iff' _ (Iff.of_eq (k0_chk144.eq_1 v580 v650))
theorem k0_idx144_inb : ∀ (v580 : IVec S16 32) (v650 : IVec S16 32) (k0_hw144 : k0_chk144 v580 v650), ∀ a x, ((![v650, v580] : Fin 2 → IVec S16 32) a x).toNat < S128x128.size a := fun v580 v650 k0_hw144 => k0_hw144

def k0_chk145 (v576 : IVec S16 32) (v654 : IVec S16 32) : Prop :=
  (∀ a x, ((![v576, v654] : Fin 2 → IVec S16 32) a x).toNat < S256x128.size a)
instance k0_chk145.dec : ∀ (v576 : IVec S16 32) (v654 : IVec S16 32), Decidable (k0_chk145 v576 v654) := fun v576 v654 => decidable_of_iff' _ (Iff.of_eq (k0_chk145.eq_1 v576 v654))
theorem k0_idx145_inb : ∀ (v576 : IVec S16 32) (v654 : IVec S16 32) (k0_hw145 : k0_chk145 v576 v654), ∀ a x, ((![v576, v654] : Fin 2 → IVec S16 32) a x).toNat < S256x128.size a := fun v576 v654 k0_hw145 => k0_hw145

def k0_chk146 (v580 : IVec S16 32) (v659 : IVec S16 32) : Prop :=
  (∀ a x, ((![v659, v580] : Fin 2 → IVec S16 32) a x).toNat < S128x128.size a)
instance k0_chk146.dec : ∀ (v580 : IVec S16 32) (v659 : IVec S16 32), Decidable (k0_chk146 v580 v659) := fun v580 v659 => decidable_of_iff' _ (Iff.of_eq (k0_chk146.eq_1 v580 v659))
theorem k0_idx146_inb : ∀ (v580 : IVec S16 32) (v659 : IVec S16 32) (k0_hw146 : k0_chk146 v580 v659), ∀ a x, ((![v659, v580] : Fin 2 → IVec S16 32) a x).toNat < S128x128.size a := fun v580 v659 k0_hw146 => k0_hw146

def k0_chk147 (v576 : IVec S16 32) (v663 : IVec S16 32) : Prop :=
  (∀ a x, ((![v576, v663] : Fin 2 → IVec S16 32) a x).toNat < S256x128.size a)
instance k0_chk147.dec : ∀ (v576 : IVec S16 32) (v663 : IVec S16 32), Decidable (k0_chk147 v576 v663) := fun v576 v663 => decidable_of_iff' _ (Iff.of_eq (k0_chk147.eq_1 v576 v663))
theorem k0_idx147_inb : ∀ (v576 : IVec S16 32) (v663 : IVec S16 32) (k0_hw147 : k0_chk147 v576 v663), ∀ a x, ((![v576, v663] : Fin 2 → IVec S16 32) a x).toNat < S256x128.size a := fun v576 v663 k0_hw147 => k0_hw147

def k0_chk148 (v580 : IVec S16 32) (v668 : IVec S16 32) : Prop :=
  (∀ a x, ((![v668, v580] : Fin 2 → IVec S16 32) a x).toNat < S128x128.size a)
instance k0_chk148.dec : ∀ (v580 : IVec S16 32) (v668 : IVec S16 32), Decidable (k0_chk148 v580 v668) := fun v580 v668 => decidable_of_iff' _ (Iff.of_eq (k0_chk148.eq_1 v580 v668))
theorem k0_idx148_inb : ∀ (v580 : IVec S16 32) (v668 : IVec S16 32) (k0_hw148 : k0_chk148 v580 v668), ∀ a x, ((![v668, v580] : Fin 2 → IVec S16 32) a x).toNat < S128x128.size a := fun v580 v668 k0_hw148 => k0_hw148

def k0_chk149 (v576 : IVec S16 32) (v672 : IVec S16 32) : Prop :=
  (∀ a x, ((![v576, v672] : Fin 2 → IVec S16 32) a x).toNat < S256x128.size a)
instance k0_chk149.dec : ∀ (v576 : IVec S16 32) (v672 : IVec S16 32), Decidable (k0_chk149 v576 v672) := fun v576 v672 => decidable_of_iff' _ (Iff.of_eq (k0_chk149.eq_1 v576 v672))
theorem k0_idx149_inb : ∀ (v576 : IVec S16 32) (v672 : IVec S16 32) (k0_hw149 : k0_chk149 v576 v672), ∀ a x, ((![v576, v672] : Fin 2 → IVec S16 32) a x).toNat < S256x128.size a := fun v576 v672 k0_hw149 => k0_hw149

def k0_chk150 (v580 : IVec S16 32) (v677 : IVec S16 32) : Prop :=
  (∀ a x, ((![v677, v580] : Fin 2 → IVec S16 32) a x).toNat < S128x128.size a)
instance k0_chk150.dec : ∀ (v580 : IVec S16 32) (v677 : IVec S16 32), Decidable (k0_chk150 v580 v677) := fun v580 v677 => decidable_of_iff' _ (Iff.of_eq (k0_chk150.eq_1 v580 v677))
theorem k0_idx150_inb : ∀ (v580 : IVec S16 32) (v677 : IVec S16 32) (k0_hw150 : k0_chk150 v580 v677), ∀ a x, ((![v677, v580] : Fin 2 → IVec S16 32) a x).toNat < S128x128.size a := fun v580 v677 k0_hw150 => k0_hw150

def k0_chk151 (v576 : IVec S16 32) (v681 : IVec S16 32) : Prop :=
  (∀ a x, ((![v576, v681] : Fin 2 → IVec S16 32) a x).toNat < S256x128.size a)
instance k0_chk151.dec : ∀ (v576 : IVec S16 32) (v681 : IVec S16 32), Decidable (k0_chk151 v576 v681) := fun v576 v681 => decidable_of_iff' _ (Iff.of_eq (k0_chk151.eq_1 v576 v681))
theorem k0_idx151_inb : ∀ (v576 : IVec S16 32) (v681 : IVec S16 32) (k0_hw151 : k0_chk151 v576 v681), ∀ a x, ((![v576, v681] : Fin 2 → IVec S16 32) a x).toNat < S256x128.size a := fun v576 v681 k0_hw151 => k0_hw151

def k0_chk152 (v580 : IVec S16 32) (v686 : IVec S16 32) : Prop :=
  (∀ a x, ((![v686, v580] : Fin 2 → IVec S16 32) a x).toNat < S128x128.size a)
instance k0_chk152.dec : ∀ (v580 : IVec S16 32) (v686 : IVec S16 32), Decidable (k0_chk152 v580 v686) := fun v580 v686 => decidable_of_iff' _ (Iff.of_eq (k0_chk152.eq_1 v580 v686))
theorem k0_idx152_inb : ∀ (v580 : IVec S16 32) (v686 : IVec S16 32) (k0_hw152 : k0_chk152 v580 v686), ∀ a x, ((![v686, v580] : Fin 2 → IVec S16 32) a x).toNat < S128x128.size a := fun v580 v686 k0_hw152 => k0_hw152

def k0_chk153 (v576 : IVec S16 32) (v690 : IVec S16 32) : Prop :=
  (∀ a x, ((![v576, v690] : Fin 2 → IVec S16 32) a x).toNat < S256x128.size a)
instance k0_chk153.dec : ∀ (v576 : IVec S16 32) (v690 : IVec S16 32), Decidable (k0_chk153 v576 v690) := fun v576 v690 => decidable_of_iff' _ (Iff.of_eq (k0_chk153.eq_1 v576 v690))
theorem k0_idx153_inb : ∀ (v576 : IVec S16 32) (v690 : IVec S16 32) (k0_hw153 : k0_chk153 v576 v690), ∀ a x, ((![v576, v690] : Fin 2 → IVec S16 32) a x).toNat < S256x128.size a := fun v576 v690 k0_hw153 => k0_hw153

def k0_chk154 (v580 : IVec S16 32) (v695 : IVec S16 32) : Prop :=
  (∀ a x, ((![v695, v580] : Fin 2 → IVec S16 32) a x).toNat < S128x128.size a)
instance k0_chk154.dec : ∀ (v580 : IVec S16 32) (v695 : IVec S16 32), Decidable (k0_chk154 v580 v695) := fun v580 v695 => decidable_of_iff' _ (Iff.of_eq (k0_chk154.eq_1 v580 v695))
theorem k0_idx154_inb : ∀ (v580 : IVec S16 32) (v695 : IVec S16 32) (k0_hw154 : k0_chk154 v580 v695), ∀ a x, ((![v695, v580] : Fin 2 → IVec S16 32) a x).toNat < S128x128.size a := fun v580 v695 k0_hw154 => k0_hw154

def k0_chk155 (v576 : IVec S16 32) (v699 : IVec S16 32) : Prop :=
  (∀ a x, ((![v576, v699] : Fin 2 → IVec S16 32) a x).toNat < S256x128.size a)
instance k0_chk155.dec : ∀ (v576 : IVec S16 32) (v699 : IVec S16 32), Decidable (k0_chk155 v576 v699) := fun v576 v699 => decidable_of_iff' _ (Iff.of_eq (k0_chk155.eq_1 v576 v699))
theorem k0_idx155_inb : ∀ (v576 : IVec S16 32) (v699 : IVec S16 32) (k0_hw155 : k0_chk155 v576 v699), ∀ a x, ((![v576, v699] : Fin 2 → IVec S16 32) a x).toNat < S256x128.size a := fun v576 v699 k0_hw155 => k0_hw155

def k0_chk156 (v580 : IVec S16 32) (v704 : IVec S16 32) : Prop :=
  (∀ a x, ((![v704, v580] : Fin 2 → IVec S16 32) a x).toNat < S128x128.size a)
instance k0_chk156.dec : ∀ (v580 : IVec S16 32) (v704 : IVec S16 32), Decidable (k0_chk156 v580 v704) := fun v580 v704 => decidable_of_iff' _ (Iff.of_eq (k0_chk156.eq_1 v580 v704))
theorem k0_idx156_inb : ∀ (v580 : IVec S16 32) (v704 : IVec S16 32) (k0_hw156 : k0_chk156 v580 v704), ∀ a x, ((![v704, v580] : Fin 2 → IVec S16 32) a x).toNat < S128x128.size a := fun v580 v704 k0_hw156 => k0_hw156

def k0_chk157 (v576 : IVec S16 32) (v708 : IVec S16 32) : Prop :=
  (∀ a x, ((![v576, v708] : Fin 2 → IVec S16 32) a x).toNat < S256x128.size a)
instance k0_chk157.dec : ∀ (v576 : IVec S16 32) (v708 : IVec S16 32), Decidable (k0_chk157 v576 v708) := fun v576 v708 => decidable_of_iff' _ (Iff.of_eq (k0_chk157.eq_1 v576 v708))
theorem k0_idx157_inb : ∀ (v576 : IVec S16 32) (v708 : IVec S16 32) (k0_hw157 : k0_chk157 v576 v708), ∀ a x, ((![v576, v708] : Fin 2 → IVec S16 32) a x).toNat < S256x128.size a := fun v576 v708 k0_hw157 => k0_hw157

def k0_chk158 (v580 : IVec S16 32) (v713 : IVec S16 32) : Prop :=
  (∀ a x, ((![v713, v580] : Fin 2 → IVec S16 32) a x).toNat < S128x128.size a)
instance k0_chk158.dec : ∀ (v580 : IVec S16 32) (v713 : IVec S16 32), Decidable (k0_chk158 v580 v713) := fun v580 v713 => decidable_of_iff' _ (Iff.of_eq (k0_chk158.eq_1 v580 v713))
theorem k0_idx158_inb : ∀ (v580 : IVec S16 32) (v713 : IVec S16 32) (k0_hw158 : k0_chk158 v580 v713), ∀ a x, ((![v713, v580] : Fin 2 → IVec S16 32) a x).toNat < S128x128.size a := fun v580 v713 k0_hw158 => k0_hw158

def k0_chk159 (v576 : IVec S16 32) (v717 : IVec S16 32) : Prop :=
  (∀ a x, ((![v576, v717] : Fin 2 → IVec S16 32) a x).toNat < S256x128.size a)
instance k0_chk159.dec : ∀ (v576 : IVec S16 32) (v717 : IVec S16 32), Decidable (k0_chk159 v576 v717) := fun v576 v717 => decidable_of_iff' _ (Iff.of_eq (k0_chk159.eq_1 v576 v717))
theorem k0_idx159_inb : ∀ (v576 : IVec S16 32) (v717 : IVec S16 32) (k0_hw159 : k0_chk159 v576 v717), ∀ a x, ((![v576, v717] : Fin 2 → IVec S16 32) a x).toNat < S256x128.size a := fun v576 v717 k0_hw159 => k0_hw159

def k0_chk160 (v580 : IVec S16 32) (v722 : IVec S16 32) : Prop :=
  (∀ a x, ((![v722, v580] : Fin 2 → IVec S16 32) a x).toNat < S128x128.size a)
instance k0_chk160.dec : ∀ (v580 : IVec S16 32) (v722 : IVec S16 32), Decidable (k0_chk160 v580 v722) := fun v580 v722 => decidable_of_iff' _ (Iff.of_eq (k0_chk160.eq_1 v580 v722))
theorem k0_idx160_inb : ∀ (v580 : IVec S16 32) (v722 : IVec S16 32) (k0_hw160 : k0_chk160 v580 v722), ∀ a x, ((![v722, v580] : Fin 2 → IVec S16 32) a x).toNat < S128x128.size a := fun v580 v722 k0_hw160 => k0_hw160

def k0_chk161 (v576 : IVec S16 32) (v726 : IVec S16 32) : Prop :=
  (∀ a x, ((![v576, v726] : Fin 2 → IVec S16 32) a x).toNat < S256x128.size a)
instance k0_chk161.dec : ∀ (v576 : IVec S16 32) (v726 : IVec S16 32), Decidable (k0_chk161 v576 v726) := fun v576 v726 => decidable_of_iff' _ (Iff.of_eq (k0_chk161.eq_1 v576 v726))
theorem k0_idx161_inb : ∀ (v576 : IVec S16 32) (v726 : IVec S16 32) (k0_hw161 : k0_chk161 v576 v726), ∀ a x, ((![v576, v726] : Fin 2 → IVec S16 32) a x).toNat < S256x128.size a := fun v576 v726 k0_hw161 => k0_hw161

def k0_chk162 (v580 : IVec S16 32) (v731 : IVec S16 32) : Prop :=
  (∀ a x, ((![v731, v580] : Fin 2 → IVec S16 32) a x).toNat < S128x128.size a)
instance k0_chk162.dec : ∀ (v580 : IVec S16 32) (v731 : IVec S16 32), Decidable (k0_chk162 v580 v731) := fun v580 v731 => decidable_of_iff' _ (Iff.of_eq (k0_chk162.eq_1 v580 v731))
theorem k0_idx162_inb : ∀ (v580 : IVec S16 32) (v731 : IVec S16 32) (k0_hw162 : k0_chk162 v580 v731), ∀ a x, ((![v731, v580] : Fin 2 → IVec S16 32) a x).toNat < S128x128.size a := fun v580 v731 k0_hw162 => k0_hw162

def k0_chk163 (v576 : IVec S16 32) (v735 : IVec S16 32) : Prop :=
  (∀ a x, ((![v576, v735] : Fin 2 → IVec S16 32) a x).toNat < S256x128.size a)
instance k0_chk163.dec : ∀ (v576 : IVec S16 32) (v735 : IVec S16 32), Decidable (k0_chk163 v576 v735) := fun v576 v735 => decidable_of_iff' _ (Iff.of_eq (k0_chk163.eq_1 v576 v735))
theorem k0_idx163_inb : ∀ (v576 : IVec S16 32) (v735 : IVec S16 32) (k0_hw163 : k0_chk163 v576 v735), ∀ a x, ((![v576, v735] : Fin 2 → IVec S16 32) a x).toNat < S256x128.size a := fun v576 v735 k0_hw163 => k0_hw163

def k0_chk164 (v580 : IVec S16 32) (v740 : IVec S16 32) : Prop :=
  (∀ a x, ((![v740, v580] : Fin 2 → IVec S16 32) a x).toNat < S128x128.size a)
instance k0_chk164.dec : ∀ (v580 : IVec S16 32) (v740 : IVec S16 32), Decidable (k0_chk164 v580 v740) := fun v580 v740 => decidable_of_iff' _ (Iff.of_eq (k0_chk164.eq_1 v580 v740))
theorem k0_idx164_inb : ∀ (v580 : IVec S16 32) (v740 : IVec S16 32) (k0_hw164 : k0_chk164 v580 v740), ∀ a x, ((![v740, v580] : Fin 2 → IVec S16 32) a x).toNat < S128x128.size a := fun v580 v740 k0_hw164 => k0_hw164

def k0_chk165 (v576 : IVec S16 32) (v744 : IVec S16 32) : Prop :=
  (∀ a x, ((![v576, v744] : Fin 2 → IVec S16 32) a x).toNat < S256x128.size a)
instance k0_chk165.dec : ∀ (v576 : IVec S16 32) (v744 : IVec S16 32), Decidable (k0_chk165 v576 v744) := fun v576 v744 => decidable_of_iff' _ (Iff.of_eq (k0_chk165.eq_1 v576 v744))
theorem k0_idx165_inb : ∀ (v576 : IVec S16 32) (v744 : IVec S16 32) (k0_hw165 : k0_chk165 v576 v744), ∀ a x, ((![v576, v744] : Fin 2 → IVec S16 32) a x).toNat < S256x128.size a := fun v576 v744 k0_hw165 => k0_hw165

def k0_chk166 (v580 : IVec S16 32) (v749 : IVec S16 32) : Prop :=
  (∀ a x, ((![v749, v580] : Fin 2 → IVec S16 32) a x).toNat < S128x128.size a)
instance k0_chk166.dec : ∀ (v580 : IVec S16 32) (v749 : IVec S16 32), Decidable (k0_chk166 v580 v749) := fun v580 v749 => decidable_of_iff' _ (Iff.of_eq (k0_chk166.eq_1 v580 v749))
theorem k0_idx166_inb : ∀ (v580 : IVec S16 32) (v749 : IVec S16 32) (k0_hw166 : k0_chk166 v580 v749), ∀ a x, ((![v749, v580] : Fin 2 → IVec S16 32) a x).toNat < S128x128.size a := fun v580 v749 k0_hw166 => k0_hw166

def k0_chk167 (v576 : IVec S16 32) (v753 : IVec S16 32) : Prop :=
  (∀ a x, ((![v576, v753] : Fin 2 → IVec S16 32) a x).toNat < S256x128.size a)
instance k0_chk167.dec : ∀ (v576 : IVec S16 32) (v753 : IVec S16 32), Decidable (k0_chk167 v576 v753) := fun v576 v753 => decidable_of_iff' _ (Iff.of_eq (k0_chk167.eq_1 v576 v753))
theorem k0_idx167_inb : ∀ (v576 : IVec S16 32) (v753 : IVec S16 32) (k0_hw167 : k0_chk167 v576 v753), ∀ a x, ((![v576, v753] : Fin 2 → IVec S16 32) a x).toNat < S256x128.size a := fun v576 v753 k0_hw167 => k0_hw167

def k0_chk168 (v580 : IVec S16 32) (v758 : IVec S16 32) : Prop :=
  (∀ a x, ((![v758, v580] : Fin 2 → IVec S16 32) a x).toNat < S128x128.size a)
instance k0_chk168.dec : ∀ (v580 : IVec S16 32) (v758 : IVec S16 32), Decidable (k0_chk168 v580 v758) := fun v580 v758 => decidable_of_iff' _ (Iff.of_eq (k0_chk168.eq_1 v580 v758))
theorem k0_idx168_inb : ∀ (v580 : IVec S16 32) (v758 : IVec S16 32) (k0_hw168 : k0_chk168 v580 v758), ∀ a x, ((![v758, v580] : Fin 2 → IVec S16 32) a x).toNat < S128x128.size a := fun v580 v758 k0_hw168 => k0_hw168

def k0_chk169 (v576 : IVec S16 32) (v762 : IVec S16 32) : Prop :=
  (∀ a x, ((![v576, v762] : Fin 2 → IVec S16 32) a x).toNat < S256x128.size a)
instance k0_chk169.dec : ∀ (v576 : IVec S16 32) (v762 : IVec S16 32), Decidable (k0_chk169 v576 v762) := fun v576 v762 => decidable_of_iff' _ (Iff.of_eq (k0_chk169.eq_1 v576 v762))
theorem k0_idx169_inb : ∀ (v576 : IVec S16 32) (v762 : IVec S16 32) (k0_hw169 : k0_chk169 v576 v762), ∀ a x, ((![v576, v762] : Fin 2 → IVec S16 32) a x).toNat < S256x128.size a := fun v576 v762 k0_hw169 => k0_hw169

def k0_chk170 (v580 : IVec S16 32) (v767 : IVec S16 32) : Prop :=
  (∀ a x, ((![v767, v580] : Fin 2 → IVec S16 32) a x).toNat < S128x128.size a)
instance k0_chk170.dec : ∀ (v580 : IVec S16 32) (v767 : IVec S16 32), Decidable (k0_chk170 v580 v767) := fun v580 v767 => decidable_of_iff' _ (Iff.of_eq (k0_chk170.eq_1 v580 v767))
theorem k0_idx170_inb : ∀ (v580 : IVec S16 32) (v767 : IVec S16 32) (k0_hw170 : k0_chk170 v580 v767), ∀ a x, ((![v767, v580] : Fin 2 → IVec S16 32) a x).toNat < S128x128.size a := fun v580 v767 k0_hw170 => k0_hw170

def k0_chk171 (v576 : IVec S16 32) (v771 : IVec S16 32) : Prop :=
  (∀ a x, ((![v576, v771] : Fin 2 → IVec S16 32) a x).toNat < S256x128.size a)
instance k0_chk171.dec : ∀ (v576 : IVec S16 32) (v771 : IVec S16 32), Decidable (k0_chk171 v576 v771) := fun v576 v771 => decidable_of_iff' _ (Iff.of_eq (k0_chk171.eq_1 v576 v771))
theorem k0_idx171_inb : ∀ (v576 : IVec S16 32) (v771 : IVec S16 32) (k0_hw171 : k0_chk171 v576 v771), ∀ a x, ((![v576, v771] : Fin 2 → IVec S16 32) a x).toNat < S256x128.size a := fun v576 v771 k0_hw171 => k0_hw171

def k0_chk172 (v580 : IVec S16 32) (v776 : IVec S16 32) : Prop :=
  (∀ a x, ((![v776, v580] : Fin 2 → IVec S16 32) a x).toNat < S128x128.size a)
instance k0_chk172.dec : ∀ (v580 : IVec S16 32) (v776 : IVec S16 32), Decidable (k0_chk172 v580 v776) := fun v580 v776 => decidable_of_iff' _ (Iff.of_eq (k0_chk172.eq_1 v580 v776))
theorem k0_idx172_inb : ∀ (v580 : IVec S16 32) (v776 : IVec S16 32) (k0_hw172 : k0_chk172 v580 v776), ∀ a x, ((![v776, v580] : Fin 2 → IVec S16 32) a x).toNat < S128x128.size a := fun v580 v776 k0_hw172 => k0_hw172

def k0_chk173 (v576 : IVec S16 32) (v780 : IVec S16 32) : Prop :=
  (∀ a x, ((![v576, v780] : Fin 2 → IVec S16 32) a x).toNat < S256x128.size a)
instance k0_chk173.dec : ∀ (v576 : IVec S16 32) (v780 : IVec S16 32), Decidable (k0_chk173 v576 v780) := fun v576 v780 => decidable_of_iff' _ (Iff.of_eq (k0_chk173.eq_1 v576 v780))
theorem k0_idx173_inb : ∀ (v576 : IVec S16 32) (v780 : IVec S16 32) (k0_hw173 : k0_chk173 v576 v780), ∀ a x, ((![v576, v780] : Fin 2 → IVec S16 32) a x).toNat < S256x128.size a := fun v576 v780 k0_hw173 => k0_hw173

def k0_chk174 (v580 : IVec S16 32) (v785 : IVec S16 32) : Prop :=
  (∀ a x, ((![v785, v580] : Fin 2 → IVec S16 32) a x).toNat < S128x128.size a)
instance k0_chk174.dec : ∀ (v580 : IVec S16 32) (v785 : IVec S16 32), Decidable (k0_chk174 v580 v785) := fun v580 v785 => decidable_of_iff' _ (Iff.of_eq (k0_chk174.eq_1 v580 v785))
theorem k0_idx174_inb : ∀ (v580 : IVec S16 32) (v785 : IVec S16 32) (k0_hw174 : k0_chk174 v580 v785), ∀ a x, ((![v785, v580] : Fin 2 → IVec S16 32) a x).toNat < S128x128.size a := fun v580 v785 k0_hw174 => k0_hw174

def k0_chk175 (v576 : IVec S16 32) (v789 : IVec S16 32) : Prop :=
  (∀ a x, ((![v576, v789] : Fin 2 → IVec S16 32) a x).toNat < S256x128.size a)
instance k0_chk175.dec : ∀ (v576 : IVec S16 32) (v789 : IVec S16 32), Decidable (k0_chk175 v576 v789) := fun v576 v789 => decidable_of_iff' _ (Iff.of_eq (k0_chk175.eq_1 v576 v789))
theorem k0_idx175_inb : ∀ (v576 : IVec S16 32) (v789 : IVec S16 32) (k0_hw175 : k0_chk175 v576 v789), ∀ a x, ((![v576, v789] : Fin 2 → IVec S16 32) a x).toNat < S256x128.size a := fun v576 v789 k0_hw175 => k0_hw175

def k0_chk176 (v580 : IVec S16 32) (v794 : IVec S16 32) : Prop :=
  (∀ a x, ((![v794, v580] : Fin 2 → IVec S16 32) a x).toNat < S128x128.size a)
instance k0_chk176.dec : ∀ (v580 : IVec S16 32) (v794 : IVec S16 32), Decidable (k0_chk176 v580 v794) := fun v580 v794 => decidable_of_iff' _ (Iff.of_eq (k0_chk176.eq_1 v580 v794))
theorem k0_idx176_inb : ∀ (v580 : IVec S16 32) (v794 : IVec S16 32) (k0_hw176 : k0_chk176 v580 v794), ∀ a x, ((![v794, v580] : Fin 2 → IVec S16 32) a x).toNat < S128x128.size a := fun v580 v794 k0_hw176 => k0_hw176

def k0_chk177 (v576 : IVec S16 32) (v798 : IVec S16 32) : Prop :=
  (∀ a x, ((![v576, v798] : Fin 2 → IVec S16 32) a x).toNat < S256x128.size a)
instance k0_chk177.dec : ∀ (v576 : IVec S16 32) (v798 : IVec S16 32), Decidable (k0_chk177 v576 v798) := fun v576 v798 => decidable_of_iff' _ (Iff.of_eq (k0_chk177.eq_1 v576 v798))
theorem k0_idx177_inb : ∀ (v576 : IVec S16 32) (v798 : IVec S16 32) (k0_hw177 : k0_chk177 v576 v798), ∀ a x, ((![v576, v798] : Fin 2 → IVec S16 32) a x).toNat < S256x128.size a := fun v576 v798 k0_hw177 => k0_hw177

def k0_chk178 (v580 : IVec S16 32) (v803 : IVec S16 32) : Prop :=
  (∀ a x, ((![v803, v580] : Fin 2 → IVec S16 32) a x).toNat < S128x128.size a)
instance k0_chk178.dec : ∀ (v580 : IVec S16 32) (v803 : IVec S16 32), Decidable (k0_chk178 v580 v803) := fun v580 v803 => decidable_of_iff' _ (Iff.of_eq (k0_chk178.eq_1 v580 v803))
theorem k0_idx178_inb : ∀ (v580 : IVec S16 32) (v803 : IVec S16 32) (k0_hw178 : k0_chk178 v580 v803), ∀ a x, ((![v803, v580] : Fin 2 → IVec S16 32) a x).toNat < S128x128.size a := fun v580 v803 k0_hw178 => k0_hw178

def k0_chk179 (v576 : IVec S16 32) (v807 : IVec S16 32) : Prop :=
  (∀ a x, ((![v576, v807] : Fin 2 → IVec S16 32) a x).toNat < S256x128.size a)
instance k0_chk179.dec : ∀ (v576 : IVec S16 32) (v807 : IVec S16 32), Decidable (k0_chk179 v576 v807) := fun v576 v807 => decidable_of_iff' _ (Iff.of_eq (k0_chk179.eq_1 v576 v807))
theorem k0_idx179_inb : ∀ (v576 : IVec S16 32) (v807 : IVec S16 32) (k0_hw179 : k0_chk179 v576 v807), ∀ a x, ((![v576, v807] : Fin 2 → IVec S16 32) a x).toNat < S256x128.size a := fun v576 v807 k0_hw179 => k0_hw179

def k0_chk180 (v580 : IVec S16 32) (v812 : IVec S16 32) : Prop :=
  (∀ a x, ((![v812, v580] : Fin 2 → IVec S16 32) a x).toNat < S128x128.size a)
instance k0_chk180.dec : ∀ (v580 : IVec S16 32) (v812 : IVec S16 32), Decidable (k0_chk180 v580 v812) := fun v580 v812 => decidable_of_iff' _ (Iff.of_eq (k0_chk180.eq_1 v580 v812))
theorem k0_idx180_inb : ∀ (v580 : IVec S16 32) (v812 : IVec S16 32) (k0_hw180 : k0_chk180 v580 v812), ∀ a x, ((![v812, v580] : Fin 2 → IVec S16 32) a x).toNat < S128x128.size a := fun v580 v812 k0_hw180 => k0_hw180

def k0_chk181 (v576 : IVec S16 32) (v816 : IVec S16 32) : Prop :=
  (∀ a x, ((![v576, v816] : Fin 2 → IVec S16 32) a x).toNat < S256x128.size a)
instance k0_chk181.dec : ∀ (v576 : IVec S16 32) (v816 : IVec S16 32), Decidable (k0_chk181 v576 v816) := fun v576 v816 => decidable_of_iff' _ (Iff.of_eq (k0_chk181.eq_1 v576 v816))
theorem k0_idx181_inb : ∀ (v576 : IVec S16 32) (v816 : IVec S16 32) (k0_hw181 : k0_chk181 v576 v816), ∀ a x, ((![v576, v816] : Fin 2 → IVec S16 32) a x).toNat < S256x128.size a := fun v576 v816 k0_hw181 => k0_hw181

def k0_chk182 (v580 : IVec S16 32) (v821 : IVec S16 32) : Prop :=
  (∀ a x, ((![v821, v580] : Fin 2 → IVec S16 32) a x).toNat < S128x128.size a)
instance k0_chk182.dec : ∀ (v580 : IVec S16 32) (v821 : IVec S16 32), Decidable (k0_chk182 v580 v821) := fun v580 v821 => decidable_of_iff' _ (Iff.of_eq (k0_chk182.eq_1 v580 v821))
theorem k0_idx182_inb : ∀ (v580 : IVec S16 32) (v821 : IVec S16 32) (k0_hw182 : k0_chk182 v580 v821), ∀ a x, ((![v821, v580] : Fin 2 → IVec S16 32) a x).toNat < S128x128.size a := fun v580 v821 k0_hw182 => k0_hw182

def k0_chk183 (v576 : IVec S16 32) (v825 : IVec S16 32) : Prop :=
  (∀ a x, ((![v576, v825] : Fin 2 → IVec S16 32) a x).toNat < S256x128.size a)
instance k0_chk183.dec : ∀ (v576 : IVec S16 32) (v825 : IVec S16 32), Decidable (k0_chk183 v576 v825) := fun v576 v825 => decidable_of_iff' _ (Iff.of_eq (k0_chk183.eq_1 v576 v825))
theorem k0_idx183_inb : ∀ (v576 : IVec S16 32) (v825 : IVec S16 32) (k0_hw183 : k0_chk183 v576 v825), ∀ a x, ((![v576, v825] : Fin 2 → IVec S16 32) a x).toNat < S256x128.size a := fun v576 v825 k0_hw183 => k0_hw183

def k0_chk184 (v580 : IVec S16 32) (v830 : IVec S16 32) : Prop :=
  (∀ a x, ((![v830, v580] : Fin 2 → IVec S16 32) a x).toNat < S128x128.size a)
instance k0_chk184.dec : ∀ (v580 : IVec S16 32) (v830 : IVec S16 32), Decidable (k0_chk184 v580 v830) := fun v580 v830 => decidable_of_iff' _ (Iff.of_eq (k0_chk184.eq_1 v580 v830))
theorem k0_idx184_inb : ∀ (v580 : IVec S16 32) (v830 : IVec S16 32) (k0_hw184 : k0_chk184 v580 v830), ∀ a x, ((![v830, v580] : Fin 2 → IVec S16 32) a x).toNat < S128x128.size a := fun v580 v830 k0_hw184 => k0_hw184

def k0_chk185 (v576 : IVec S16 32) (v834 : IVec S16 32) : Prop :=
  (∀ a x, ((![v576, v834] : Fin 2 → IVec S16 32) a x).toNat < S256x128.size a)
instance k0_chk185.dec : ∀ (v576 : IVec S16 32) (v834 : IVec S16 32), Decidable (k0_chk185 v576 v834) := fun v576 v834 => decidable_of_iff' _ (Iff.of_eq (k0_chk185.eq_1 v576 v834))
theorem k0_idx185_inb : ∀ (v576 : IVec S16 32) (v834 : IVec S16 32) (k0_hw185 : k0_chk185 v576 v834), ∀ a x, ((![v576, v834] : Fin 2 → IVec S16 32) a x).toNat < S256x128.size a := fun v576 v834 k0_hw185 => k0_hw185

def k0_chk186 (v580 : IVec S16 32) (v839 : IVec S16 32) : Prop :=
  (∀ a x, ((![v839, v580] : Fin 2 → IVec S16 32) a x).toNat < S128x128.size a)
instance k0_chk186.dec : ∀ (v580 : IVec S16 32) (v839 : IVec S16 32), Decidable (k0_chk186 v580 v839) := fun v580 v839 => decidable_of_iff' _ (Iff.of_eq (k0_chk186.eq_1 v580 v839))
theorem k0_idx186_inb : ∀ (v580 : IVec S16 32) (v839 : IVec S16 32) (k0_hw186 : k0_chk186 v580 v839), ∀ a x, ((![v839, v580] : Fin 2 → IVec S16 32) a x).toNat < S128x128.size a := fun v580 v839 k0_hw186 => k0_hw186

def k0_chk187 (v576 : IVec S16 32) (v843 : IVec S16 32) : Prop :=
  (∀ a x, ((![v576, v843] : Fin 2 → IVec S16 32) a x).toNat < S256x128.size a)
instance k0_chk187.dec : ∀ (v576 : IVec S16 32) (v843 : IVec S16 32), Decidable (k0_chk187 v576 v843) := fun v576 v843 => decidable_of_iff' _ (Iff.of_eq (k0_chk187.eq_1 v576 v843))
theorem k0_idx187_inb : ∀ (v576 : IVec S16 32) (v843 : IVec S16 32) (k0_hw187 : k0_chk187 v576 v843), ∀ a x, ((![v576, v843] : Fin 2 → IVec S16 32) a x).toNat < S256x128.size a := fun v576 v843 k0_hw187 => k0_hw187

def k0_chk188 (v580 : IVec S16 32) (v848 : IVec S16 32) : Prop :=
  (∀ a x, ((![v848, v580] : Fin 2 → IVec S16 32) a x).toNat < S128x128.size a)
instance k0_chk188.dec : ∀ (v580 : IVec S16 32) (v848 : IVec S16 32), Decidable (k0_chk188 v580 v848) := fun v580 v848 => decidable_of_iff' _ (Iff.of_eq (k0_chk188.eq_1 v580 v848))
theorem k0_idx188_inb : ∀ (v580 : IVec S16 32) (v848 : IVec S16 32) (k0_hw188 : k0_chk188 v580 v848), ∀ a x, ((![v848, v580] : Fin 2 → IVec S16 32) a x).toNat < S128x128.size a := fun v580 v848 k0_hw188 => k0_hw188

def k0_chk189 (v576 : IVec S16 32) (v852 : IVec S16 32) : Prop :=
  (∀ a x, ((![v576, v852] : Fin 2 → IVec S16 32) a x).toNat < S256x128.size a)
instance k0_chk189.dec : ∀ (v576 : IVec S16 32) (v852 : IVec S16 32), Decidable (k0_chk189 v576 v852) := fun v576 v852 => decidable_of_iff' _ (Iff.of_eq (k0_chk189.eq_1 v576 v852))
theorem k0_idx189_inb : ∀ (v576 : IVec S16 32) (v852 : IVec S16 32) (k0_hw189 : k0_chk189 v576 v852), ∀ a x, ((![v576, v852] : Fin 2 → IVec S16 32) a x).toNat < S256x128.size a := fun v576 v852 k0_hw189 => k0_hw189

def k0_chk190 (v580 : IVec S16 32) (v857 : IVec S16 32) : Prop :=
  (∀ a x, ((![v857, v580] : Fin 2 → IVec S16 32) a x).toNat < S128x128.size a)
instance k0_chk190.dec : ∀ (v580 : IVec S16 32) (v857 : IVec S16 32), Decidable (k0_chk190 v580 v857) := fun v580 v857 => decidable_of_iff' _ (Iff.of_eq (k0_chk190.eq_1 v580 v857))
theorem k0_idx190_inb : ∀ (v580 : IVec S16 32) (v857 : IVec S16 32) (k0_hw190 : k0_chk190 v580 v857), ∀ a x, ((![v857, v580] : Fin 2 → IVec S16 32) a x).toNat < S128x128.size a := fun v580 v857 k0_hw190 => k0_hw190

def k0_chk191 (v576 : IVec S16 32) (v861 : IVec S16 32) : Prop :=
  (∀ a x, ((![v576, v861] : Fin 2 → IVec S16 32) a x).toNat < S256x128.size a)
instance k0_chk191.dec : ∀ (v576 : IVec S16 32) (v861 : IVec S16 32), Decidable (k0_chk191 v576 v861) := fun v576 v861 => decidable_of_iff' _ (Iff.of_eq (k0_chk191.eq_1 v576 v861))
theorem k0_idx191_inb : ∀ (v576 : IVec S16 32) (v861 : IVec S16 32) (k0_hw191 : k0_chk191 v576 v861), ∀ a x, ((![v576, v861] : Fin 2 → IVec S16 32) a x).toNat < S256x128.size a := fun v576 v861 k0_hw191 => k0_hw191

def k0_chk192 (v580 : IVec S16 32) (v866 : IVec S16 32) : Prop :=
  (∀ a x, ((![v866, v580] : Fin 2 → IVec S16 32) a x).toNat < S128x128.size a)
instance k0_chk192.dec : ∀ (v580 : IVec S16 32) (v866 : IVec S16 32), Decidable (k0_chk192 v580 v866) := fun v580 v866 => decidable_of_iff' _ (Iff.of_eq (k0_chk192.eq_1 v580 v866))
theorem k0_idx192_inb : ∀ (v580 : IVec S16 32) (v866 : IVec S16 32) (k0_hw192 : k0_chk192 v580 v866), ∀ a x, ((![v866, v580] : Fin 2 → IVec S16 32) a x).toNat < S128x128.size a := fun v580 v866 k0_hw192 => k0_hw192

def k0_chk193 (v576 : IVec S16 32) (v870 : IVec S16 32) : Prop :=
  (∀ a x, ((![v576, v870] : Fin 2 → IVec S16 32) a x).toNat < S256x128.size a)
instance k0_chk193.dec : ∀ (v576 : IVec S16 32) (v870 : IVec S16 32), Decidable (k0_chk193 v576 v870) := fun v576 v870 => decidable_of_iff' _ (Iff.of_eq (k0_chk193.eq_1 v576 v870))
theorem k0_idx193_inb : ∀ (v576 : IVec S16 32) (v870 : IVec S16 32) (k0_hw193 : k0_chk193 v576 v870), ∀ a x, ((![v576, v870] : Fin 2 → IVec S16 32) a x).toNat < S256x128.size a := fun v576 v870 k0_hw193 => k0_hw193

def k0_chk194 (v580 : IVec S16 32) (v875 : IVec S16 32) : Prop :=
  (∀ a x, ((![v875, v580] : Fin 2 → IVec S16 32) a x).toNat < S128x128.size a)
instance k0_chk194.dec : ∀ (v580 : IVec S16 32) (v875 : IVec S16 32), Decidable (k0_chk194 v580 v875) := fun v580 v875 => decidable_of_iff' _ (Iff.of_eq (k0_chk194.eq_1 v580 v875))
theorem k0_idx194_inb : ∀ (v580 : IVec S16 32) (v875 : IVec S16 32) (k0_hw194 : k0_chk194 v580 v875), ∀ a x, ((![v875, v580] : Fin 2 → IVec S16 32) a x).toNat < S128x128.size a := fun v580 v875 k0_hw194 => k0_hw194

def k0_chk195 (v576 : IVec S16 32) (v879 : IVec S16 32) : Prop :=
  (∀ a x, ((![v576, v879] : Fin 2 → IVec S16 32) a x).toNat < S256x128.size a)
instance k0_chk195.dec : ∀ (v576 : IVec S16 32) (v879 : IVec S16 32), Decidable (k0_chk195 v576 v879) := fun v576 v879 => decidable_of_iff' _ (Iff.of_eq (k0_chk195.eq_1 v576 v879))
theorem k0_idx195_inb : ∀ (v576 : IVec S16 32) (v879 : IVec S16 32) (k0_hw195 : k0_chk195 v576 v879), ∀ a x, ((![v576, v879] : Fin 2 → IVec S16 32) a x).toNat < S256x128.size a := fun v576 v879 k0_hw195 => k0_hw195

def k0_chk196 (v580 : IVec S16 32) (v884 : IVec S16 32) : Prop :=
  (∀ a x, ((![v884, v580] : Fin 2 → IVec S16 32) a x).toNat < S128x128.size a)
instance k0_chk196.dec : ∀ (v580 : IVec S16 32) (v884 : IVec S16 32), Decidable (k0_chk196 v580 v884) := fun v580 v884 => decidable_of_iff' _ (Iff.of_eq (k0_chk196.eq_1 v580 v884))
theorem k0_idx196_inb : ∀ (v580 : IVec S16 32) (v884 : IVec S16 32) (k0_hw196 : k0_chk196 v580 v884), ∀ a x, ((![v884, v580] : Fin 2 → IVec S16 32) a x).toNat < S128x128.size a := fun v580 v884 k0_hw196 => k0_hw196

def k0_chk197 (v576 : IVec S16 32) (v888 : IVec S16 32) : Prop :=
  (∀ a x, ((![v576, v888] : Fin 2 → IVec S16 32) a x).toNat < S256x128.size a)
instance k0_chk197.dec : ∀ (v576 : IVec S16 32) (v888 : IVec S16 32), Decidable (k0_chk197 v576 v888) := fun v576 v888 => decidable_of_iff' _ (Iff.of_eq (k0_chk197.eq_1 v576 v888))
theorem k0_idx197_inb : ∀ (v576 : IVec S16 32) (v888 : IVec S16 32) (k0_hw197 : k0_chk197 v576 v888), ∀ a x, ((![v576, v888] : Fin 2 → IVec S16 32) a x).toNat < S256x128.size a := fun v576 v888 k0_hw197 => k0_hw197

def k0_chk198 (v580 : IVec S16 32) (v893 : IVec S16 32) : Prop :=
  (∀ a x, ((![v893, v580] : Fin 2 → IVec S16 32) a x).toNat < S128x128.size a)
instance k0_chk198.dec : ∀ (v580 : IVec S16 32) (v893 : IVec S16 32), Decidable (k0_chk198 v580 v893) := fun v580 v893 => decidable_of_iff' _ (Iff.of_eq (k0_chk198.eq_1 v580 v893))
theorem k0_idx198_inb : ∀ (v580 : IVec S16 32) (v893 : IVec S16 32) (k0_hw198 : k0_chk198 v580 v893), ∀ a x, ((![v893, v580] : Fin 2 → IVec S16 32) a x).toNat < S128x128.size a := fun v580 v893 k0_hw198 => k0_hw198

def k0_chk199 (v576 : IVec S16 32) (v897 : IVec S16 32) : Prop :=
  (∀ a x, ((![v576, v897] : Fin 2 → IVec S16 32) a x).toNat < S256x128.size a)
instance k0_chk199.dec : ∀ (v576 : IVec S16 32) (v897 : IVec S16 32), Decidable (k0_chk199 v576 v897) := fun v576 v897 => decidable_of_iff' _ (Iff.of_eq (k0_chk199.eq_1 v576 v897))
theorem k0_idx199_inb : ∀ (v576 : IVec S16 32) (v897 : IVec S16 32) (k0_hw199 : k0_chk199 v576 v897), ∀ a x, ((![v576, v897] : Fin 2 → IVec S16 32) a x).toNat < S256x128.size a := fun v576 v897 k0_hw199 => k0_hw199

def k0_chk200 (v580 : IVec S16 32) (v902 : IVec S16 32) : Prop :=
  (∀ a x, ((![v902, v580] : Fin 2 → IVec S16 32) a x).toNat < S128x128.size a)
instance k0_chk200.dec : ∀ (v580 : IVec S16 32) (v902 : IVec S16 32), Decidable (k0_chk200 v580 v902) := fun v580 v902 => decidable_of_iff' _ (Iff.of_eq (k0_chk200.eq_1 v580 v902))
theorem k0_idx200_inb : ∀ (v580 : IVec S16 32) (v902 : IVec S16 32) (k0_hw200 : k0_chk200 v580 v902), ∀ a x, ((![v902, v580] : Fin 2 → IVec S16 32) a x).toNat < S128x128.size a := fun v580 v902 k0_hw200 => k0_hw200

def k0_chk201 (v576 : IVec S16 32) (v906 : IVec S16 32) : Prop :=
  (∀ a x, ((![v576, v906] : Fin 2 → IVec S16 32) a x).toNat < S256x128.size a)
instance k0_chk201.dec : ∀ (v576 : IVec S16 32) (v906 : IVec S16 32), Decidable (k0_chk201 v576 v906) := fun v576 v906 => decidable_of_iff' _ (Iff.of_eq (k0_chk201.eq_1 v576 v906))
theorem k0_idx201_inb : ∀ (v576 : IVec S16 32) (v906 : IVec S16 32) (k0_hw201 : k0_chk201 v576 v906), ∀ a x, ((![v576, v906] : Fin 2 → IVec S16 32) a x).toNat < S256x128.size a := fun v576 v906 k0_hw201 => k0_hw201

def k0_chk202 (v580 : IVec S16 32) (v911 : IVec S16 32) : Prop :=
  (∀ a x, ((![v911, v580] : Fin 2 → IVec S16 32) a x).toNat < S128x128.size a)
instance k0_chk202.dec : ∀ (v580 : IVec S16 32) (v911 : IVec S16 32), Decidable (k0_chk202 v580 v911) := fun v580 v911 => decidable_of_iff' _ (Iff.of_eq (k0_chk202.eq_1 v580 v911))
theorem k0_idx202_inb : ∀ (v580 : IVec S16 32) (v911 : IVec S16 32) (k0_hw202 : k0_chk202 v580 v911), ∀ a x, ((![v911, v580] : Fin 2 → IVec S16 32) a x).toNat < S128x128.size a := fun v580 v911 k0_hw202 => k0_hw202

def k0_chk203 (v576 : IVec S16 32) (v915 : IVec S16 32) : Prop :=
  (∀ a x, ((![v576, v915] : Fin 2 → IVec S16 32) a x).toNat < S256x128.size a)
instance k0_chk203.dec : ∀ (v576 : IVec S16 32) (v915 : IVec S16 32), Decidable (k0_chk203 v576 v915) := fun v576 v915 => decidable_of_iff' _ (Iff.of_eq (k0_chk203.eq_1 v576 v915))
theorem k0_idx203_inb : ∀ (v576 : IVec S16 32) (v915 : IVec S16 32) (k0_hw203 : k0_chk203 v576 v915), ∀ a x, ((![v576, v915] : Fin 2 → IVec S16 32) a x).toNat < S256x128.size a := fun v576 v915 k0_hw203 => k0_hw203

def k0_chk204 (v580 : IVec S16 32) (v920 : IVec S16 32) : Prop :=
  (∀ a x, ((![v920, v580] : Fin 2 → IVec S16 32) a x).toNat < S128x128.size a)
instance k0_chk204.dec : ∀ (v580 : IVec S16 32) (v920 : IVec S16 32), Decidable (k0_chk204 v580 v920) := fun v580 v920 => decidable_of_iff' _ (Iff.of_eq (k0_chk204.eq_1 v580 v920))
theorem k0_idx204_inb : ∀ (v580 : IVec S16 32) (v920 : IVec S16 32) (k0_hw204 : k0_chk204 v580 v920), ∀ a x, ((![v920, v580] : Fin 2 → IVec S16 32) a x).toNat < S128x128.size a := fun v580 v920 k0_hw204 => k0_hw204

def k0_chk205 (v576 : IVec S16 32) (v924 : IVec S16 32) : Prop :=
  (∀ a x, ((![v576, v924] : Fin 2 → IVec S16 32) a x).toNat < S256x128.size a)
instance k0_chk205.dec : ∀ (v576 : IVec S16 32) (v924 : IVec S16 32), Decidable (k0_chk205 v576 v924) := fun v576 v924 => decidable_of_iff' _ (Iff.of_eq (k0_chk205.eq_1 v576 v924))
theorem k0_idx205_inb : ∀ (v576 : IVec S16 32) (v924 : IVec S16 32) (k0_hw205 : k0_chk205 v576 v924), ∀ a x, ((![v576, v924] : Fin 2 → IVec S16 32) a x).toNat < S256x128.size a := fun v576 v924 k0_hw205 => k0_hw205

def k0_chk206 (v580 : IVec S16 32) (v929 : IVec S16 32) : Prop :=
  (∀ a x, ((![v929, v580] : Fin 2 → IVec S16 32) a x).toNat < S128x128.size a)
instance k0_chk206.dec : ∀ (v580 : IVec S16 32) (v929 : IVec S16 32), Decidable (k0_chk206 v580 v929) := fun v580 v929 => decidable_of_iff' _ (Iff.of_eq (k0_chk206.eq_1 v580 v929))
theorem k0_idx206_inb : ∀ (v580 : IVec S16 32) (v929 : IVec S16 32) (k0_hw206 : k0_chk206 v580 v929), ∀ a x, ((![v929, v580] : Fin 2 → IVec S16 32) a x).toNat < S128x128.size a := fun v580 v929 k0_hw206 => k0_hw206

def k0_chk207 (v576 : IVec S16 32) (v933 : IVec S16 32) : Prop :=
  (∀ a x, ((![v576, v933] : Fin 2 → IVec S16 32) a x).toNat < S256x128.size a)
instance k0_chk207.dec : ∀ (v576 : IVec S16 32) (v933 : IVec S16 32), Decidable (k0_chk207 v576 v933) := fun v576 v933 => decidable_of_iff' _ (Iff.of_eq (k0_chk207.eq_1 v576 v933))
theorem k0_idx207_inb : ∀ (v576 : IVec S16 32) (v933 : IVec S16 32) (k0_hw207 : k0_chk207 v576 v933), ∀ a x, ((![v576, v933] : Fin 2 → IVec S16 32) a x).toNat < S256x128.size a := fun v576 v933 k0_hw207 => k0_hw207

def k0_chk208 (v580 : IVec S16 32) (v938 : IVec S16 32) : Prop :=
  (∀ a x, ((![v938, v580] : Fin 2 → IVec S16 32) a x).toNat < S128x128.size a)
instance k0_chk208.dec : ∀ (v580 : IVec S16 32) (v938 : IVec S16 32), Decidable (k0_chk208 v580 v938) := fun v580 v938 => decidable_of_iff' _ (Iff.of_eq (k0_chk208.eq_1 v580 v938))
theorem k0_idx208_inb : ∀ (v580 : IVec S16 32) (v938 : IVec S16 32) (k0_hw208 : k0_chk208 v580 v938), ∀ a x, ((![v938, v580] : Fin 2 → IVec S16 32) a x).toNat < S128x128.size a := fun v580 v938 k0_hw208 => k0_hw208

def k0_chk209 (v576 : IVec S16 32) (v942 : IVec S16 32) : Prop :=
  (∀ a x, ((![v576, v942] : Fin 2 → IVec S16 32) a x).toNat < S256x128.size a)
instance k0_chk209.dec : ∀ (v576 : IVec S16 32) (v942 : IVec S16 32), Decidable (k0_chk209 v576 v942) := fun v576 v942 => decidable_of_iff' _ (Iff.of_eq (k0_chk209.eq_1 v576 v942))
theorem k0_idx209_inb : ∀ (v576 : IVec S16 32) (v942 : IVec S16 32) (k0_hw209 : k0_chk209 v576 v942), ∀ a x, ((![v576, v942] : Fin 2 → IVec S16 32) a x).toNat < S256x128.size a := fun v576 v942 k0_hw209 => k0_hw209

def k0_chk210 (v580 : IVec S16 32) (v947 : IVec S16 32) : Prop :=
  (∀ a x, ((![v947, v580] : Fin 2 → IVec S16 32) a x).toNat < S128x128.size a)
instance k0_chk210.dec : ∀ (v580 : IVec S16 32) (v947 : IVec S16 32), Decidable (k0_chk210 v580 v947) := fun v580 v947 => decidable_of_iff' _ (Iff.of_eq (k0_chk210.eq_1 v580 v947))
theorem k0_idx210_inb : ∀ (v580 : IVec S16 32) (v947 : IVec S16 32) (k0_hw210 : k0_chk210 v580 v947), ∀ a x, ((![v947, v580] : Fin 2 → IVec S16 32) a x).toNat < S128x128.size a := fun v580 v947 k0_hw210 => k0_hw210

def k0_chk211 (v576 : IVec S16 32) (v951 : IVec S16 32) : Prop :=
  (∀ a x, ((![v576, v951] : Fin 2 → IVec S16 32) a x).toNat < S256x128.size a)
instance k0_chk211.dec : ∀ (v576 : IVec S16 32) (v951 : IVec S16 32), Decidable (k0_chk211 v576 v951) := fun v576 v951 => decidable_of_iff' _ (Iff.of_eq (k0_chk211.eq_1 v576 v951))
theorem k0_idx211_inb : ∀ (v576 : IVec S16 32) (v951 : IVec S16 32) (k0_hw211 : k0_chk211 v576 v951), ∀ a x, ((![v576, v951] : Fin 2 → IVec S16 32) a x).toNat < S256x128.size a := fun v576 v951 k0_hw211 => k0_hw211

def k0_chk212 (v580 : IVec S16 32) (v956 : IVec S16 32) : Prop :=
  (∀ a x, ((![v956, v580] : Fin 2 → IVec S16 32) a x).toNat < S128x128.size a)
instance k0_chk212.dec : ∀ (v580 : IVec S16 32) (v956 : IVec S16 32), Decidable (k0_chk212 v580 v956) := fun v580 v956 => decidable_of_iff' _ (Iff.of_eq (k0_chk212.eq_1 v580 v956))
theorem k0_idx212_inb : ∀ (v580 : IVec S16 32) (v956 : IVec S16 32) (k0_hw212 : k0_chk212 v580 v956), ∀ a x, ((![v956, v580] : Fin 2 → IVec S16 32) a x).toNat < S128x128.size a := fun v580 v956 k0_hw212 => k0_hw212

def k0_chk213 (v576 : IVec S16 32) (v960 : IVec S16 32) : Prop :=
  (∀ a x, ((![v576, v960] : Fin 2 → IVec S16 32) a x).toNat < S256x128.size a)
instance k0_chk213.dec : ∀ (v576 : IVec S16 32) (v960 : IVec S16 32), Decidable (k0_chk213 v576 v960) := fun v576 v960 => decidable_of_iff' _ (Iff.of_eq (k0_chk213.eq_1 v576 v960))
theorem k0_idx213_inb : ∀ (v576 : IVec S16 32) (v960 : IVec S16 32) (k0_hw213 : k0_chk213 v576 v960), ∀ a x, ((![v576, v960] : Fin 2 → IVec S16 32) a x).toNat < S256x128.size a := fun v576 v960 k0_hw213 => k0_hw213

def k0_chk214 (v580 : IVec S16 32) (v965 : IVec S16 32) : Prop :=
  (∀ a x, ((![v965, v580] : Fin 2 → IVec S16 32) a x).toNat < S128x128.size a)
instance k0_chk214.dec : ∀ (v580 : IVec S16 32) (v965 : IVec S16 32), Decidable (k0_chk214 v580 v965) := fun v580 v965 => decidable_of_iff' _ (Iff.of_eq (k0_chk214.eq_1 v580 v965))
theorem k0_idx214_inb : ∀ (v580 : IVec S16 32) (v965 : IVec S16 32) (k0_hw214 : k0_chk214 v580 v965), ∀ a x, ((![v965, v580] : Fin 2 → IVec S16 32) a x).toNat < S128x128.size a := fun v580 v965 k0_hw214 => k0_hw214

def k0_chk215 (v576 : IVec S16 32) (v969 : IVec S16 32) : Prop :=
  (∀ a x, ((![v576, v969] : Fin 2 → IVec S16 32) a x).toNat < S256x128.size a)
instance k0_chk215.dec : ∀ (v576 : IVec S16 32) (v969 : IVec S16 32), Decidable (k0_chk215 v576 v969) := fun v576 v969 => decidable_of_iff' _ (Iff.of_eq (k0_chk215.eq_1 v576 v969))
theorem k0_idx215_inb : ∀ (v576 : IVec S16 32) (v969 : IVec S16 32) (k0_hw215 : k0_chk215 v576 v969), ∀ a x, ((![v576, v969] : Fin 2 → IVec S16 32) a x).toNat < S256x128.size a := fun v576 v969 k0_hw215 => k0_hw215

def k0_chk216 (v580 : IVec S16 32) (v974 : IVec S16 32) : Prop :=
  (∀ a x, ((![v974, v580] : Fin 2 → IVec S16 32) a x).toNat < S128x128.size a)
instance k0_chk216.dec : ∀ (v580 : IVec S16 32) (v974 : IVec S16 32), Decidable (k0_chk216 v580 v974) := fun v580 v974 => decidable_of_iff' _ (Iff.of_eq (k0_chk216.eq_1 v580 v974))
theorem k0_idx216_inb : ∀ (v580 : IVec S16 32) (v974 : IVec S16 32) (k0_hw216 : k0_chk216 v580 v974), ∀ a x, ((![v974, v580] : Fin 2 → IVec S16 32) a x).toNat < S128x128.size a := fun v580 v974 k0_hw216 => k0_hw216

def k0_chk217 (v576 : IVec S16 32) (v978 : IVec S16 32) : Prop :=
  (∀ a x, ((![v576, v978] : Fin 2 → IVec S16 32) a x).toNat < S256x128.size a)
instance k0_chk217.dec : ∀ (v576 : IVec S16 32) (v978 : IVec S16 32), Decidable (k0_chk217 v576 v978) := fun v576 v978 => decidable_of_iff' _ (Iff.of_eq (k0_chk217.eq_1 v576 v978))
theorem k0_idx217_inb : ∀ (v576 : IVec S16 32) (v978 : IVec S16 32) (k0_hw217 : k0_chk217 v576 v978), ∀ a x, ((![v576, v978] : Fin 2 → IVec S16 32) a x).toNat < S256x128.size a := fun v576 v978 k0_hw217 => k0_hw217

def k0_chk218 (v580 : IVec S16 32) (v983 : IVec S16 32) : Prop :=
  (∀ a x, ((![v983, v580] : Fin 2 → IVec S16 32) a x).toNat < S128x128.size a)
instance k0_chk218.dec : ∀ (v580 : IVec S16 32) (v983 : IVec S16 32), Decidable (k0_chk218 v580 v983) := fun v580 v983 => decidable_of_iff' _ (Iff.of_eq (k0_chk218.eq_1 v580 v983))
theorem k0_idx218_inb : ∀ (v580 : IVec S16 32) (v983 : IVec S16 32) (k0_hw218 : k0_chk218 v580 v983), ∀ a x, ((![v983, v580] : Fin 2 → IVec S16 32) a x).toNat < S128x128.size a := fun v580 v983 k0_hw218 => k0_hw218

def k0_chk219 (v576 : IVec S16 32) (v987 : IVec S16 32) : Prop :=
  (∀ a x, ((![v576, v987] : Fin 2 → IVec S16 32) a x).toNat < S256x128.size a)
instance k0_chk219.dec : ∀ (v576 : IVec S16 32) (v987 : IVec S16 32), Decidable (k0_chk219 v576 v987) := fun v576 v987 => decidable_of_iff' _ (Iff.of_eq (k0_chk219.eq_1 v576 v987))
theorem k0_idx219_inb : ∀ (v576 : IVec S16 32) (v987 : IVec S16 32) (k0_hw219 : k0_chk219 v576 v987), ∀ a x, ((![v576, v987] : Fin 2 → IVec S16 32) a x).toNat < S256x128.size a := fun v576 v987 k0_hw219 => k0_hw219

def k0_chk220 (v580 : IVec S16 32) (v992 : IVec S16 32) : Prop :=
  (∀ a x, ((![v992, v580] : Fin 2 → IVec S16 32) a x).toNat < S128x128.size a)
instance k0_chk220.dec : ∀ (v580 : IVec S16 32) (v992 : IVec S16 32), Decidable (k0_chk220 v580 v992) := fun v580 v992 => decidable_of_iff' _ (Iff.of_eq (k0_chk220.eq_1 v580 v992))
theorem k0_idx220_inb : ∀ (v580 : IVec S16 32) (v992 : IVec S16 32) (k0_hw220 : k0_chk220 v580 v992), ∀ a x, ((![v992, v580] : Fin 2 → IVec S16 32) a x).toNat < S128x128.size a := fun v580 v992 k0_hw220 => k0_hw220

def k0_chk221 (v576 : IVec S16 32) (v996 : IVec S16 32) : Prop :=
  (∀ a x, ((![v576, v996] : Fin 2 → IVec S16 32) a x).toNat < S256x128.size a)
instance k0_chk221.dec : ∀ (v576 : IVec S16 32) (v996 : IVec S16 32), Decidable (k0_chk221 v576 v996) := fun v576 v996 => decidable_of_iff' _ (Iff.of_eq (k0_chk221.eq_1 v576 v996))
theorem k0_idx221_inb : ∀ (v576 : IVec S16 32) (v996 : IVec S16 32) (k0_hw221 : k0_chk221 v576 v996), ∀ a x, ((![v576, v996] : Fin 2 → IVec S16 32) a x).toNat < S256x128.size a := fun v576 v996 k0_hw221 => k0_hw221

def k0_chk222 (v580 : IVec S16 32) (v1001 : IVec S16 32) : Prop :=
  (∀ a x, ((![v1001, v580] : Fin 2 → IVec S16 32) a x).toNat < S128x128.size a)
instance k0_chk222.dec : ∀ (v580 : IVec S16 32) (v1001 : IVec S16 32), Decidable (k0_chk222 v580 v1001) := fun v580 v1001 => decidable_of_iff' _ (Iff.of_eq (k0_chk222.eq_1 v580 v1001))
theorem k0_idx222_inb : ∀ (v580 : IVec S16 32) (v1001 : IVec S16 32) (k0_hw222 : k0_chk222 v580 v1001), ∀ a x, ((![v1001, v580] : Fin 2 → IVec S16 32) a x).toNat < S128x128.size a := fun v580 v1001 k0_hw222 => k0_hw222

def k0_chk223 (v576 : IVec S16 32) (v1005 : IVec S16 32) : Prop :=
  (∀ a x, ((![v576, v1005] : Fin 2 → IVec S16 32) a x).toNat < S256x128.size a)
instance k0_chk223.dec : ∀ (v576 : IVec S16 32) (v1005 : IVec S16 32), Decidable (k0_chk223 v576 v1005) := fun v576 v1005 => decidable_of_iff' _ (Iff.of_eq (k0_chk223.eq_1 v576 v1005))
theorem k0_idx223_inb : ∀ (v576 : IVec S16 32) (v1005 : IVec S16 32) (k0_hw223 : k0_chk223 v576 v1005), ∀ a x, ((![v576, v1005] : Fin 2 → IVec S16 32) a x).toNat < S256x128.size a := fun v576 v1005 k0_hw223 => k0_hw223

def k0_chk224 (v580 : IVec S16 32) (v1010 : IVec S16 32) : Prop :=
  (∀ a x, ((![v1010, v580] : Fin 2 → IVec S16 32) a x).toNat < S128x128.size a)
instance k0_chk224.dec : ∀ (v580 : IVec S16 32) (v1010 : IVec S16 32), Decidable (k0_chk224 v580 v1010) := fun v580 v1010 => decidable_of_iff' _ (Iff.of_eq (k0_chk224.eq_1 v580 v1010))
theorem k0_idx224_inb : ∀ (v580 : IVec S16 32) (v1010 : IVec S16 32) (k0_hw224 : k0_chk224 v580 v1010), ∀ a x, ((![v1010, v580] : Fin 2 → IVec S16 32) a x).toNat < S128x128.size a := fun v580 v1010 k0_hw224 => k0_hw224

def k0_chk225 (v576 : IVec S16 32) (v1014 : IVec S16 32) : Prop :=
  (∀ a x, ((![v576, v1014] : Fin 2 → IVec S16 32) a x).toNat < S256x128.size a)
instance k0_chk225.dec : ∀ (v576 : IVec S16 32) (v1014 : IVec S16 32), Decidable (k0_chk225 v576 v1014) := fun v576 v1014 => decidable_of_iff' _ (Iff.of_eq (k0_chk225.eq_1 v576 v1014))
theorem k0_idx225_inb : ∀ (v576 : IVec S16 32) (v1014 : IVec S16 32) (k0_hw225 : k0_chk225 v576 v1014), ∀ a x, ((![v576, v1014] : Fin 2 → IVec S16 32) a x).toNat < S256x128.size a := fun v576 v1014 k0_hw225 => k0_hw225

def k0_chk226 (v580 : IVec S16 32) (v1019 : IVec S16 32) : Prop :=
  (∀ a x, ((![v1019, v580] : Fin 2 → IVec S16 32) a x).toNat < S128x128.size a)
instance k0_chk226.dec : ∀ (v580 : IVec S16 32) (v1019 : IVec S16 32), Decidable (k0_chk226 v580 v1019) := fun v580 v1019 => decidable_of_iff' _ (Iff.of_eq (k0_chk226.eq_1 v580 v1019))
theorem k0_idx226_inb : ∀ (v580 : IVec S16 32) (v1019 : IVec S16 32) (k0_hw226 : k0_chk226 v580 v1019), ∀ a x, ((![v1019, v580] : Fin 2 → IVec S16 32) a x).toNat < S128x128.size a := fun v580 v1019 k0_hw226 => k0_hw226

def k0_chk227 (v576 : IVec S16 32) (v1023 : IVec S16 32) : Prop :=
  (∀ a x, ((![v576, v1023] : Fin 2 → IVec S16 32) a x).toNat < S256x128.size a)
instance k0_chk227.dec : ∀ (v576 : IVec S16 32) (v1023 : IVec S16 32), Decidable (k0_chk227 v576 v1023) := fun v576 v1023 => decidable_of_iff' _ (Iff.of_eq (k0_chk227.eq_1 v576 v1023))
theorem k0_idx227_inb : ∀ (v576 : IVec S16 32) (v1023 : IVec S16 32) (k0_hw227 : k0_chk227 v576 v1023), ∀ a x, ((![v576, v1023] : Fin 2 → IVec S16 32) a x).toNat < S256x128.size a := fun v576 v1023 k0_hw227 => k0_hw227

def k0_chk228 (v580 : IVec S16 32) (v1028 : IVec S16 32) : Prop :=
  (∀ a x, ((![v1028, v580] : Fin 2 → IVec S16 32) a x).toNat < S128x128.size a)
instance k0_chk228.dec : ∀ (v580 : IVec S16 32) (v1028 : IVec S16 32), Decidable (k0_chk228 v580 v1028) := fun v580 v1028 => decidable_of_iff' _ (Iff.of_eq (k0_chk228.eq_1 v580 v1028))
theorem k0_idx228_inb : ∀ (v580 : IVec S16 32) (v1028 : IVec S16 32) (k0_hw228 : k0_chk228 v580 v1028), ∀ a x, ((![v1028, v580] : Fin 2 → IVec S16 32) a x).toNat < S128x128.size a := fun v580 v1028 k0_hw228 => k0_hw228

def k0_chk229 (v576 : IVec S16 32) (v1032 : IVec S16 32) : Prop :=
  (∀ a x, ((![v576, v1032] : Fin 2 → IVec S16 32) a x).toNat < S256x128.size a)
instance k0_chk229.dec : ∀ (v576 : IVec S16 32) (v1032 : IVec S16 32), Decidable (k0_chk229 v576 v1032) := fun v576 v1032 => decidable_of_iff' _ (Iff.of_eq (k0_chk229.eq_1 v576 v1032))
theorem k0_idx229_inb : ∀ (v576 : IVec S16 32) (v1032 : IVec S16 32) (k0_hw229 : k0_chk229 v576 v1032), ∀ a x, ((![v576, v1032] : Fin 2 → IVec S16 32) a x).toNat < S256x128.size a := fun v576 v1032 k0_hw229 => k0_hw229

def k0_chk230 (v580 : IVec S16 32) (v1037 : IVec S16 32) : Prop :=
  (∀ a x, ((![v1037, v580] : Fin 2 → IVec S16 32) a x).toNat < S128x128.size a)
instance k0_chk230.dec : ∀ (v580 : IVec S16 32) (v1037 : IVec S16 32), Decidable (k0_chk230 v580 v1037) := fun v580 v1037 => decidable_of_iff' _ (Iff.of_eq (k0_chk230.eq_1 v580 v1037))
theorem k0_idx230_inb : ∀ (v580 : IVec S16 32) (v1037 : IVec S16 32) (k0_hw230 : k0_chk230 v580 v1037), ∀ a x, ((![v1037, v580] : Fin 2 → IVec S16 32) a x).toNat < S128x128.size a := fun v580 v1037 k0_hw230 => k0_hw230

def k0_chk231 (v576 : IVec S16 32) (v1041 : IVec S16 32) : Prop :=
  (∀ a x, ((![v576, v1041] : Fin 2 → IVec S16 32) a x).toNat < S256x128.size a)
instance k0_chk231.dec : ∀ (v576 : IVec S16 32) (v1041 : IVec S16 32), Decidable (k0_chk231 v576 v1041) := fun v576 v1041 => decidable_of_iff' _ (Iff.of_eq (k0_chk231.eq_1 v576 v1041))
theorem k0_idx231_inb : ∀ (v576 : IVec S16 32) (v1041 : IVec S16 32) (k0_hw231 : k0_chk231 v576 v1041), ∀ a x, ((![v576, v1041] : Fin 2 → IVec S16 32) a x).toNat < S256x128.size a := fun v576 v1041 k0_hw231 => k0_hw231

def k0_chk232 (v580 : IVec S16 32) (v1046 : IVec S16 32) : Prop :=
  (∀ a x, ((![v1046, v580] : Fin 2 → IVec S16 32) a x).toNat < S128x128.size a)
instance k0_chk232.dec : ∀ (v580 : IVec S16 32) (v1046 : IVec S16 32), Decidable (k0_chk232 v580 v1046) := fun v580 v1046 => decidable_of_iff' _ (Iff.of_eq (k0_chk232.eq_1 v580 v1046))
theorem k0_idx232_inb : ∀ (v580 : IVec S16 32) (v1046 : IVec S16 32) (k0_hw232 : k0_chk232 v580 v1046), ∀ a x, ((![v1046, v580] : Fin 2 → IVec S16 32) a x).toNat < S128x128.size a := fun v580 v1046 k0_hw232 => k0_hw232

def k0_chk233 (v576 : IVec S16 32) (v1050 : IVec S16 32) : Prop :=
  (∀ a x, ((![v576, v1050] : Fin 2 → IVec S16 32) a x).toNat < S256x128.size a)
instance k0_chk233.dec : ∀ (v576 : IVec S16 32) (v1050 : IVec S16 32), Decidable (k0_chk233 v576 v1050) := fun v576 v1050 => decidable_of_iff' _ (Iff.of_eq (k0_chk233.eq_1 v576 v1050))
theorem k0_idx233_inb : ∀ (v576 : IVec S16 32) (v1050 : IVec S16 32) (k0_hw233 : k0_chk233 v576 v1050), ∀ a x, ((![v576, v1050] : Fin 2 → IVec S16 32) a x).toNat < S256x128.size a := fun v576 v1050 k0_hw233 => k0_hw233

def k0_chk234 (v580 : IVec S16 32) (v1055 : IVec S16 32) : Prop :=
  (∀ a x, ((![v1055, v580] : Fin 2 → IVec S16 32) a x).toNat < S128x128.size a)
instance k0_chk234.dec : ∀ (v580 : IVec S16 32) (v1055 : IVec S16 32), Decidable (k0_chk234 v580 v1055) := fun v580 v1055 => decidable_of_iff' _ (Iff.of_eq (k0_chk234.eq_1 v580 v1055))
theorem k0_idx234_inb : ∀ (v580 : IVec S16 32) (v1055 : IVec S16 32) (k0_hw234 : k0_chk234 v580 v1055), ∀ a x, ((![v1055, v580] : Fin 2 → IVec S16 32) a x).toNat < S128x128.size a := fun v580 v1055 k0_hw234 => k0_hw234

def k0_chk235 (v576 : IVec S16 32) (v1059 : IVec S16 32) : Prop :=
  (∀ a x, ((![v576, v1059] : Fin 2 → IVec S16 32) a x).toNat < S256x128.size a)
instance k0_chk235.dec : ∀ (v576 : IVec S16 32) (v1059 : IVec S16 32), Decidable (k0_chk235 v576 v1059) := fun v576 v1059 => decidable_of_iff' _ (Iff.of_eq (k0_chk235.eq_1 v576 v1059))
theorem k0_idx235_inb : ∀ (v576 : IVec S16 32) (v1059 : IVec S16 32) (k0_hw235 : k0_chk235 v576 v1059), ∀ a x, ((![v576, v1059] : Fin 2 → IVec S16 32) a x).toNat < S256x128.size a := fun v576 v1059 k0_hw235 => k0_hw235

def k0_chk236 (v580 : IVec S16 32) (v1064 : IVec S16 32) : Prop :=
  (∀ a x, ((![v1064, v580] : Fin 2 → IVec S16 32) a x).toNat < S128x128.size a)
instance k0_chk236.dec : ∀ (v580 : IVec S16 32) (v1064 : IVec S16 32), Decidable (k0_chk236 v580 v1064) := fun v580 v1064 => decidable_of_iff' _ (Iff.of_eq (k0_chk236.eq_1 v580 v1064))
theorem k0_idx236_inb : ∀ (v580 : IVec S16 32) (v1064 : IVec S16 32) (k0_hw236 : k0_chk236 v580 v1064), ∀ a x, ((![v1064, v580] : Fin 2 → IVec S16 32) a x).toNat < S128x128.size a := fun v580 v1064 k0_hw236 => k0_hw236

def k0_chk237 (v576 : IVec S16 32) (v1068 : IVec S16 32) : Prop :=
  (∀ a x, ((![v576, v1068] : Fin 2 → IVec S16 32) a x).toNat < S256x128.size a)
instance k0_chk237.dec : ∀ (v576 : IVec S16 32) (v1068 : IVec S16 32), Decidable (k0_chk237 v576 v1068) := fun v576 v1068 => decidable_of_iff' _ (Iff.of_eq (k0_chk237.eq_1 v576 v1068))
theorem k0_idx237_inb : ∀ (v576 : IVec S16 32) (v1068 : IVec S16 32) (k0_hw237 : k0_chk237 v576 v1068), ∀ a x, ((![v576, v1068] : Fin 2 → IVec S16 32) a x).toNat < S256x128.size a := fun v576 v1068 k0_hw237 => k0_hw237

def k0_chk238 (v580 : IVec S16 32) (v1073 : IVec S16 32) : Prop :=
  (∀ a x, ((![v1073, v580] : Fin 2 → IVec S16 32) a x).toNat < S128x128.size a)
instance k0_chk238.dec : ∀ (v580 : IVec S16 32) (v1073 : IVec S16 32), Decidable (k0_chk238 v580 v1073) := fun v580 v1073 => decidable_of_iff' _ (Iff.of_eq (k0_chk238.eq_1 v580 v1073))
theorem k0_idx238_inb : ∀ (v580 : IVec S16 32) (v1073 : IVec S16 32) (k0_hw238 : k0_chk238 v580 v1073), ∀ a x, ((![v1073, v580] : Fin 2 → IVec S16 32) a x).toNat < S128x128.size a := fun v580 v1073 k0_hw238 => k0_hw238

def k0_chk239 (v576 : IVec S16 32) (v1077 : IVec S16 32) : Prop :=
  (∀ a x, ((![v576, v1077] : Fin 2 → IVec S16 32) a x).toNat < S256x128.size a)
instance k0_chk239.dec : ∀ (v576 : IVec S16 32) (v1077 : IVec S16 32), Decidable (k0_chk239 v576 v1077) := fun v576 v1077 => decidable_of_iff' _ (Iff.of_eq (k0_chk239.eq_1 v576 v1077))
theorem k0_idx239_inb : ∀ (v576 : IVec S16 32) (v1077 : IVec S16 32) (k0_hw239 : k0_chk239 v576 v1077), ∀ a x, ((![v576, v1077] : Fin 2 → IVec S16 32) a x).toNat < S256x128.size a := fun v576 v1077 k0_hw239 => k0_hw239

def k0_chk240 (v580 : IVec S16 32) (v1082 : IVec S16 32) : Prop :=
  (∀ a x, ((![v1082, v580] : Fin 2 → IVec S16 32) a x).toNat < S128x128.size a)
instance k0_chk240.dec : ∀ (v580 : IVec S16 32) (v1082 : IVec S16 32), Decidable (k0_chk240 v580 v1082) := fun v580 v1082 => decidable_of_iff' _ (Iff.of_eq (k0_chk240.eq_1 v580 v1082))
theorem k0_idx240_inb : ∀ (v580 : IVec S16 32) (v1082 : IVec S16 32) (k0_hw240 : k0_chk240 v580 v1082), ∀ a x, ((![v1082, v580] : Fin 2 → IVec S16 32) a x).toNat < S128x128.size a := fun v580 v1082 k0_hw240 => k0_hw240

def k0_chk241 (v576 : IVec S16 32) (v1086 : IVec S16 32) : Prop :=
  (∀ a x, ((![v576, v1086] : Fin 2 → IVec S16 32) a x).toNat < S256x128.size a)
instance k0_chk241.dec : ∀ (v576 : IVec S16 32) (v1086 : IVec S16 32), Decidable (k0_chk241 v576 v1086) := fun v576 v1086 => decidable_of_iff' _ (Iff.of_eq (k0_chk241.eq_1 v576 v1086))
theorem k0_idx241_inb : ∀ (v576 : IVec S16 32) (v1086 : IVec S16 32) (k0_hw241 : k0_chk241 v576 v1086), ∀ a x, ((![v576, v1086] : Fin 2 → IVec S16 32) a x).toNat < S256x128.size a := fun v576 v1086 k0_hw241 => k0_hw241

def k0_chk242 (v580 : IVec S16 32) (v1091 : IVec S16 32) : Prop :=
  (∀ a x, ((![v1091, v580] : Fin 2 → IVec S16 32) a x).toNat < S128x128.size a)
instance k0_chk242.dec : ∀ (v580 : IVec S16 32) (v1091 : IVec S16 32), Decidable (k0_chk242 v580 v1091) := fun v580 v1091 => decidable_of_iff' _ (Iff.of_eq (k0_chk242.eq_1 v580 v1091))
theorem k0_idx242_inb : ∀ (v580 : IVec S16 32) (v1091 : IVec S16 32) (k0_hw242 : k0_chk242 v580 v1091), ∀ a x, ((![v1091, v580] : Fin 2 → IVec S16 32) a x).toNat < S128x128.size a := fun v580 v1091 k0_hw242 => k0_hw242

def k0_chk243 (v576 : IVec S16 32) (v1095 : IVec S16 32) : Prop :=
  (∀ a x, ((![v576, v1095] : Fin 2 → IVec S16 32) a x).toNat < S256x128.size a)
instance k0_chk243.dec : ∀ (v576 : IVec S16 32) (v1095 : IVec S16 32), Decidable (k0_chk243 v576 v1095) := fun v576 v1095 => decidable_of_iff' _ (Iff.of_eq (k0_chk243.eq_1 v576 v1095))
theorem k0_idx243_inb : ∀ (v576 : IVec S16 32) (v1095 : IVec S16 32) (k0_hw243 : k0_chk243 v576 v1095), ∀ a x, ((![v576, v1095] : Fin 2 → IVec S16 32) a x).toNat < S256x128.size a := fun v576 v1095 k0_hw243 => k0_hw243

def k0_chk244 (v580 : IVec S16 32) (v1100 : IVec S16 32) : Prop :=
  (∀ a x, ((![v1100, v580] : Fin 2 → IVec S16 32) a x).toNat < S128x128.size a)
instance k0_chk244.dec : ∀ (v580 : IVec S16 32) (v1100 : IVec S16 32), Decidable (k0_chk244 v580 v1100) := fun v580 v1100 => decidable_of_iff' _ (Iff.of_eq (k0_chk244.eq_1 v580 v1100))
theorem k0_idx244_inb : ∀ (v580 : IVec S16 32) (v1100 : IVec S16 32) (k0_hw244 : k0_chk244 v580 v1100), ∀ a x, ((![v1100, v580] : Fin 2 → IVec S16 32) a x).toNat < S128x128.size a := fun v580 v1100 k0_hw244 => k0_hw244

def k0_chk245 (v576 : IVec S16 32) (v1104 : IVec S16 32) : Prop :=
  (∀ a x, ((![v576, v1104] : Fin 2 → IVec S16 32) a x).toNat < S256x128.size a)
instance k0_chk245.dec : ∀ (v576 : IVec S16 32) (v1104 : IVec S16 32), Decidable (k0_chk245 v576 v1104) := fun v576 v1104 => decidable_of_iff' _ (Iff.of_eq (k0_chk245.eq_1 v576 v1104))
theorem k0_idx245_inb : ∀ (v576 : IVec S16 32) (v1104 : IVec S16 32) (k0_hw245 : k0_chk245 v576 v1104), ∀ a x, ((![v576, v1104] : Fin 2 → IVec S16 32) a x).toNat < S256x128.size a := fun v576 v1104 k0_hw245 => k0_hw245

def k0_chk246 (v580 : IVec S16 32) (v1109 : IVec S16 32) : Prop :=
  (∀ a x, ((![v1109, v580] : Fin 2 → IVec S16 32) a x).toNat < S128x128.size a)
instance k0_chk246.dec : ∀ (v580 : IVec S16 32) (v1109 : IVec S16 32), Decidable (k0_chk246 v580 v1109) := fun v580 v1109 => decidable_of_iff' _ (Iff.of_eq (k0_chk246.eq_1 v580 v1109))
theorem k0_idx246_inb : ∀ (v580 : IVec S16 32) (v1109 : IVec S16 32) (k0_hw246 : k0_chk246 v580 v1109), ∀ a x, ((![v1109, v580] : Fin 2 → IVec S16 32) a x).toNat < S128x128.size a := fun v580 v1109 k0_hw246 => k0_hw246

def k0_chk247 (v576 : IVec S16 32) (v1113 : IVec S16 32) : Prop :=
  (∀ a x, ((![v576, v1113] : Fin 2 → IVec S16 32) a x).toNat < S256x128.size a)
instance k0_chk247.dec : ∀ (v576 : IVec S16 32) (v1113 : IVec S16 32), Decidable (k0_chk247 v576 v1113) := fun v576 v1113 => decidable_of_iff' _ (Iff.of_eq (k0_chk247.eq_1 v576 v1113))
theorem k0_idx247_inb : ∀ (v576 : IVec S16 32) (v1113 : IVec S16 32) (k0_hw247 : k0_chk247 v576 v1113), ∀ a x, ((![v576, v1113] : Fin 2 → IVec S16 32) a x).toNat < S256x128.size a := fun v576 v1113 k0_hw247 => k0_hw247

def k0_chk248 (v580 : IVec S16 32) (v1118 : IVec S16 32) : Prop :=
  (∀ a x, ((![v1118, v580] : Fin 2 → IVec S16 32) a x).toNat < S128x128.size a)
instance k0_chk248.dec : ∀ (v580 : IVec S16 32) (v1118 : IVec S16 32), Decidable (k0_chk248 v580 v1118) := fun v580 v1118 => decidable_of_iff' _ (Iff.of_eq (k0_chk248.eq_1 v580 v1118))
theorem k0_idx248_inb : ∀ (v580 : IVec S16 32) (v1118 : IVec S16 32) (k0_hw248 : k0_chk248 v580 v1118), ∀ a x, ((![v1118, v580] : Fin 2 → IVec S16 32) a x).toNat < S128x128.size a := fun v580 v1118 k0_hw248 => k0_hw248

def k0_chk249 (v576 : IVec S16 32) (v1122 : IVec S16 32) : Prop :=
  (∀ a x, ((![v576, v1122] : Fin 2 → IVec S16 32) a x).toNat < S256x128.size a)
instance k0_chk249.dec : ∀ (v576 : IVec S16 32) (v1122 : IVec S16 32), Decidable (k0_chk249 v576 v1122) := fun v576 v1122 => decidable_of_iff' _ (Iff.of_eq (k0_chk249.eq_1 v576 v1122))
theorem k0_idx249_inb : ∀ (v576 : IVec S16 32) (v1122 : IVec S16 32) (k0_hw249 : k0_chk249 v576 v1122), ∀ a x, ((![v576, v1122] : Fin 2 → IVec S16 32) a x).toNat < S256x128.size a := fun v576 v1122 k0_hw249 => k0_hw249

def k0_chk250 (v580 : IVec S16 32) (v1127 : IVec S16 32) : Prop :=
  (∀ a x, ((![v1127, v580] : Fin 2 → IVec S16 32) a x).toNat < S128x128.size a)
instance k0_chk250.dec : ∀ (v580 : IVec S16 32) (v1127 : IVec S16 32), Decidable (k0_chk250 v580 v1127) := fun v580 v1127 => decidable_of_iff' _ (Iff.of_eq (k0_chk250.eq_1 v580 v1127))
theorem k0_idx250_inb : ∀ (v580 : IVec S16 32) (v1127 : IVec S16 32) (k0_hw250 : k0_chk250 v580 v1127), ∀ a x, ((![v1127, v580] : Fin 2 → IVec S16 32) a x).toNat < S128x128.size a := fun v580 v1127 k0_hw250 => k0_hw250

def k0_chk251 (v576 : IVec S16 32) (v1131 : IVec S16 32) : Prop :=
  (∀ a x, ((![v576, v1131] : Fin 2 → IVec S16 32) a x).toNat < S256x128.size a)
instance k0_chk251.dec : ∀ (v576 : IVec S16 32) (v1131 : IVec S16 32), Decidable (k0_chk251 v576 v1131) := fun v576 v1131 => decidable_of_iff' _ (Iff.of_eq (k0_chk251.eq_1 v576 v1131))
theorem k0_idx251_inb : ∀ (v576 : IVec S16 32) (v1131 : IVec S16 32) (k0_hw251 : k0_chk251 v576 v1131), ∀ a x, ((![v576, v1131] : Fin 2 → IVec S16 32) a x).toNat < S256x128.size a := fun v576 v1131 k0_hw251 => k0_hw251

def k0_chk252 (v580 : IVec S16 32) (v1136 : IVec S16 32) : Prop :=
  (∀ a x, ((![v1136, v580] : Fin 2 → IVec S16 32) a x).toNat < S128x128.size a)
instance k0_chk252.dec : ∀ (v580 : IVec S16 32) (v1136 : IVec S16 32), Decidable (k0_chk252 v580 v1136) := fun v580 v1136 => decidable_of_iff' _ (Iff.of_eq (k0_chk252.eq_1 v580 v1136))
theorem k0_idx252_inb : ∀ (v580 : IVec S16 32) (v1136 : IVec S16 32) (k0_hw252 : k0_chk252 v580 v1136), ∀ a x, ((![v1136, v580] : Fin 2 → IVec S16 32) a x).toNat < S128x128.size a := fun v580 v1136 k0_hw252 => k0_hw252

def k0_chk253 (v576 : IVec S16 32) (v1140 : IVec S16 32) : Prop :=
  (∀ a x, ((![v576, v1140] : Fin 2 → IVec S16 32) a x).toNat < S256x128.size a)
instance k0_chk253.dec : ∀ (v576 : IVec S16 32) (v1140 : IVec S16 32), Decidable (k0_chk253 v576 v1140) := fun v576 v1140 => decidable_of_iff' _ (Iff.of_eq (k0_chk253.eq_1 v576 v1140))
theorem k0_idx253_inb : ∀ (v576 : IVec S16 32) (v1140 : IVec S16 32) (k0_hw253 : k0_chk253 v576 v1140), ∀ a x, ((![v576, v1140] : Fin 2 → IVec S16 32) a x).toNat < S256x128.size a := fun v576 v1140 k0_hw253 => k0_hw253

def k0_chk254 (v580 : IVec S16 32) (v1145 : IVec S16 32) : Prop :=
  (∀ a x, ((![v1145, v580] : Fin 2 → IVec S16 32) a x).toNat < S128x128.size a)
instance k0_chk254.dec : ∀ (v580 : IVec S16 32) (v1145 : IVec S16 32), Decidable (k0_chk254 v580 v1145) := fun v580 v1145 => decidable_of_iff' _ (Iff.of_eq (k0_chk254.eq_1 v580 v1145))
theorem k0_idx254_inb : ∀ (v580 : IVec S16 32) (v1145 : IVec S16 32) (k0_hw254 : k0_chk254 v580 v1145), ∀ a x, ((![v1145, v580] : Fin 2 → IVec S16 32) a x).toNat < S128x128.size a := fun v580 v1145 k0_hw254 => k0_hw254

def k0_chk255 (v576 : IVec S16 32) (v1149 : IVec S16 32) : Prop :=
  (∀ a x, ((![v576, v1149] : Fin 2 → IVec S16 32) a x).toNat < S256x128.size a)
instance k0_chk255.dec : ∀ (v576 : IVec S16 32) (v1149 : IVec S16 32), Decidable (k0_chk255 v576 v1149) := fun v576 v1149 => decidable_of_iff' _ (Iff.of_eq (k0_chk255.eq_1 v576 v1149))
theorem k0_idx255_inb : ∀ (v576 : IVec S16 32) (v1149 : IVec S16 32) (k0_hw255 : k0_chk255 v576 v1149), ∀ a x, ((![v576, v1149] : Fin 2 → IVec S16 32) a x).toNat < S256x128.size a := fun v576 v1149 k0_hw255 => k0_hw255

def k0_chk256 (v580 : IVec S16 32) (v1154 : IVec S16 32) : Prop :=
  (∀ a x, ((![v1154, v580] : Fin 2 → IVec S16 32) a x).toNat < S128x128.size a)
instance k0_chk256.dec : ∀ (v580 : IVec S16 32) (v1154 : IVec S16 32), Decidable (k0_chk256 v580 v1154) := fun v580 v1154 => decidable_of_iff' _ (Iff.of_eq (k0_chk256.eq_1 v580 v1154))
theorem k0_idx256_inb : ∀ (v580 : IVec S16 32) (v1154 : IVec S16 32) (k0_hw256 : k0_chk256 v580 v1154), ∀ a x, ((![v1154, v580] : Fin 2 → IVec S16 32) a x).toNat < S128x128.size a := fun v580 v1154 k0_hw256 => k0_hw256
def k0_off30 (i : grid0.Coords) (c0_i32_44 : BitVec 32) : Fin 3 → Nat :=
  let c49_i32 : BitVec 32 := 49#32
  let c0_i32_47 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v131 : BitVec 32 := Scalar.addi v130 c0_i32_44
  ![49, 0, v131.toNat]
def k0_off31 (i : grid0.Coords) (c0_i32_58 : BitVec 32) : Fin 3 → Nat :=
  let c49_i32_59 : BitVec 32 := 49#32
  let c8_i32_61 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v145 : BitVec 32 := Scalar.addi v130 c0_i32_58
  ![49, 8, v145.toNat]
def k0_off32 (i : grid0.Coords) (c0_i32_72 : BitVec 32) : Fin 3 → Nat :=
  let c49_i32_73 : BitVec 32 := 49#32
  let c16_i32_75 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v159 : BitVec 32 := Scalar.addi v130 c0_i32_72
  ![49, 16, v159.toNat]
def k0_off33 (i : grid0.Coords) (c0_i32_86 : BitVec 32) : Fin 3 → Nat :=
  let c49_i32_87 : BitVec 32 := 49#32
  let c24_i32_89 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v173 : BitVec 32 := Scalar.addi v130 c0_i32_86
  ![49, 24, v173.toNat]
def k0_off34 (i : grid0.Coords) (c0_i32_100 : BitVec 32) : Fin 3 → Nat :=
  let c49_i32_101 : BitVec 32 := 49#32
  let c32_i32_103 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v187 : BitVec 32 := Scalar.addi v130 c0_i32_100
  ![49, 32, v187.toNat]
def k0_off35 (i : grid0.Coords) (c0_i32_114 : BitVec 32) : Fin 3 → Nat :=
  let c49_i32_115 : BitVec 32 := 49#32
  let c40_i32_117 : BitVec 32 := 40#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v201 : BitVec 32 := Scalar.addi v130 c0_i32_114
  ![49, 40, v201.toNat]
def k0_off36 (i : grid0.Coords) (c0_i32_128 : BitVec 32) : Fin 3 → Nat :=
  let c49_i32_129 : BitVec 32 := 49#32
  let c48_i32_131 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v215 : BitVec 32 := Scalar.addi v130 c0_i32_128
  ![49, 48, v215.toNat]
def k0_off37 (i : grid0.Coords) (c0_i32_142 : BitVec 32) : Fin 3 → Nat :=
  let c49_i32_143 : BitVec 32 := 49#32
  let c56_i32_145 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_43 : BitVec 32 := 256#32
  let v130 : BitVec 32 := Scalar.addi v2 c256_i32_43
  let v229 : BitVec 32 := Scalar.addi v130 c0_i32_142
  ![49, 56, v229.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x50_S50x16384_1_0 : S16384x50.Transposes [1, 0] S50x16384
  shapeCasts_S50x16384_S819200 : S50x16384.ShapeCasts S819200
  pads_S1000000x64_S1000000x128_000_0640 : S1000000x64.Pads (![0, 0] : Fin 2 → Nat) ![0, 64] ![0, 0] S1000000x128
  h_S_ : 0 < S_.numel
  iota_S16_d0_w32_scVector : S16.Iotas .scVector 32 [0]
  inb_S1000000x128_S1000000x128_0_0 : ∀ a, (![0, 0] : Fin 2 → Nat) a + S1000000x128.size a ≤ S1000000x128.size a
  gathers_S1000000x128_S256x128 : S1000000x128.Gathers 0 S256x128
  inb_S128x128_S8x128_0_0 : ∀ a, (![0, 0] : Fin 2 → Nat) a + S8x128.size a ≤ S128x128.size a
  squeezes_S1x8x128_S8x128 : S1x8x128.Squeezes S8x128
  inb_S128x128_S8x128_8_0 : ∀ a, (![8, 0] : Fin 2 → Nat) a + S8x128.size a ≤ S128x128.size a
  inb_S128x128_S8x128_16_0 : ∀ a, (![16, 0] : Fin 2 → Nat) a + S8x128.size a ≤ S128x128.size a
  inb_S128x128_S8x128_24_0 : ∀ a, (![24, 0] : Fin 2 → Nat) a + S8x128.size a ≤ S128x128.size a
  inb_S128x128_S8x128_32_0 : ∀ a, (![32, 0] : Fin 2 → Nat) a + S8x128.size a ≤ S128x128.size a
  inb_S128x128_S8x128_40_0 : ∀ a, (![40, 0] : Fin 2 → Nat) a + S8x128.size a ≤ S128x128.size a
  inb_S128x128_S8x128_48_0 : ∀ a, (![48, 0] : Fin 2 → Nat) a + S8x128.size a ≤ S128x128.size a
  inb_S128x128_S8x128_56_0 : ∀ a, (![56, 0] : Fin 2 → Nat) a + S8x128.size a ≤ S128x128.size a
  inb_S128x128_S8x128_64_0 : ∀ a, (![64, 0] : Fin 2 → Nat) a + S8x128.size a ≤ S128x128.size a
  inb_S128x128_S8x128_72_0 : ∀ a, (![72, 0] : Fin 2 → Nat) a + S8x128.size a ≤ S128x128.size a
  inb_S128x128_S8x128_80_0 : ∀ a, (![80, 0] : Fin 2 → Nat) a + S8x128.size a ≤ S128x128.size a
  inb_S128x128_S8x128_88_0 : ∀ a, (![88, 0] : Fin 2 → Nat) a + S8x128.size a ≤ S128x128.size a
  inb_S128x128_S8x128_96_0 : ∀ a, (![96, 0] : Fin 2 → Nat) a + S8x128.size a ≤ S128x128.size a
  inb_S128x128_S8x128_104_0 : ∀ a, (![104, 0] : Fin 2 → Nat) a + S8x128.size a ≤ S128x128.size a
  inb_S128x128_S8x128_112_0 : ∀ a, (![112, 0] : Fin 2 → Nat) a + S8x128.size a ≤ S128x128.size a
  inb_S128x128_S8x128_120_0 : ∀ a, (![120, 0] : Fin 2 → Nat) a + S8x128.size a ≤ S128x128.size a
  h_S256x128 : 0 < S256x128.numel
  h_S128x128 : 0 < S128x128.numel
  transposes_S50x64x16384_S16384x50x64_2_0_1 : S50x64x16384.Transposes [2, 0, 1] S16384x50x64
  hcc0_scratch5 : 0 + S_.numel ≤ 5
  hcc0_scratch6 : 1 + S_.numel ≤ 5
  hcc0_scratch7 : 2 + S_.numel ≤ 5
  hcc0_scratch8 : 3 + S_.numel ≤ 5
  hcc0_scratch9 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (256 * r.val))) a + S256.size a ≤ S819200.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S256.size a ≤ S819200.size a
  k0_off3_inb : ∀ (i : grid0.Coords) (k0_t1 : Fin k0_t1_loop.trips), ∀ (k0_h2 : k0_cond2 k0_t1 = 1#1), ∀ a, (k0_off3 i k0_t1) a + S256.size a ≤ S819200.size a
  k0_off4_inb : ∀ (i : grid0.Coords) (k0_t1 : Fin k0_t1_loop.trips), ∀ (k0_h3 : k0_cond3 k0_t1 = 1#1), ∀ (r : Fin 2), ∀ a, (k0_off4 i k0_t1 (BitVec.ofNat 32 (128 * r.val))) a + S1x8x128.size a ≤ S50x64x16384.size a
  k0_off5_inb : ∀ (i : grid0.Coords) (k0_t1 : Fin k0_t1_loop.trips), ∀ (k0_h3 : k0_cond3 k0_t1 = 1#1), ∀ (r : Fin 2), ∀ a, (k0_off5 i k0_t1 (BitVec.ofNat 32 (128 * r.val))) a + S1x8x128.size a ≤ S50x64x16384.size a
  k0_off6_inb : ∀ (i : grid0.Coords) (k0_t1 : Fin k0_t1_loop.trips), ∀ (k0_h3 : k0_cond3 k0_t1 = 1#1), ∀ (r : Fin 2), ∀ a, (k0_off6 i k0_t1 (BitVec.ofNat 32 (128 * r.val))) a + S1x8x128.size a ≤ S50x64x16384.size a
  k0_off7_inb : ∀ (i : grid0.Coords) (k0_t1 : Fin k0_t1_loop.trips), ∀ (k0_h3 : k0_cond3 k0_t1 = 1#1), ∀ (r : Fin 2), ∀ a, (k0_off7 i k0_t1 (BitVec.ofNat 32 (128 * r.val))) a + S1x8x128.size a ≤ S50x64x16384.size a
  k0_off8_inb : ∀ (i : grid0.Coords) (k0_t1 : Fin k0_t1_loop.trips), ∀ (k0_h3 : k0_cond3 k0_t1 = 1#1), ∀ (r : Fin 2), ∀ a, (k0_off8 i k0_t1 (BitVec.ofNat 32 (128 * r.val))) a + S1x8x128.size a ≤ S50x64x16384.size a
  k0_off9_inb : ∀ (i : grid0.Coords) (k0_t1 : Fin k0_t1_loop.trips), ∀ (k0_h3 : k0_cond3 k0_t1 = 1#1), ∀ (r : Fin 2), ∀ a, (k0_off9 i k0_t1 (BitVec.ofNat 32 (128 * r.val))) a + S1x8x128.size a ≤ S50x64x16384.size a
  k0_off10_inb : ∀ (i : grid0.Coords) (k0_t1 : Fin k0_t1_loop.trips), ∀ (k0_h3 : k0_cond3 k0_t1 = 1#1), ∀ (r : Fin 2), ∀ a, (k0_off10 i k0_t1 (BitVec.ofNat 32 (128 * r.val))) a + S1x8x128.size a ≤ S50x64x16384.size a
  k0_off11_inb : ∀ (i : grid0.Coords) (k0_t1 : Fin k0_t1_loop.trips), ∀ (k0_h3 : k0_cond3 k0_t1 = 1#1), ∀ (r : Fin 2), ∀ a, (k0_off11 i k0_t1 (BitVec.ofNat 32 (128 * r.val))) a + S1x8x128.size a ≤ S50x64x16384.size a
  k0_t2_ok : k0_t2_loop.OK
  k0_off12_inb : ∀ (i : grid0.Coords) (k0_t1 : Fin k0_t1_loop.trips), ∀ (r₁ : Fin 2) (r₂ : Fin 2), ∀ a, (k0_off12 i k0_t1 (BitVec.ofNat 32 r₁.val) (BitVec.ofNat 32 (128 * r₂.val))) a + S1x8x128.size a ≤ S50x64x16384.size a
  k0_off13_inb : ∀ (i : grid0.Coords) (k0_t1 : Fin k0_t1_loop.trips), ∀ (r₁ : Fin 2) (r₂ : Fin 2), ∀ a, (k0_off13 i k0_t1 (BitVec.ofNat 32 r₁.val) (BitVec.ofNat 32 (128 * r₂.val))) a + S1x8x128.size a ≤ S50x64x16384.size a
  k0_off14_inb : ∀ (i : grid0.Coords) (k0_t1 : Fin k0_t1_loop.trips), ∀ (r₁ : Fin 2) (r₂ : Fin 2), ∀ a, (k0_off14 i k0_t1 (BitVec.ofNat 32 r₁.val) (BitVec.ofNat 32 (128 * r₂.val))) a + S1x8x128.size a ≤ S50x64x16384.size a
  k0_off15_inb : ∀ (i : grid0.Coords) (k0_t1 : Fin k0_t1_loop.trips), ∀ (r₁ : Fin 2) (r₂ : Fin 2), ∀ a, (k0_off15 i k0_t1 (BitVec.ofNat 32 r₁.val) (BitVec.ofNat 32 (128 * r₂.val))) a + S1x8x128.size a ≤ S50x64x16384.size a
  k0_off16_inb : ∀ (i : grid0.Coords) (k0_t1 : Fin k0_t1_loop.trips), ∀ (r₁ : Fin 2) (r₂ : Fin 2), ∀ a, (k0_off16 i k0_t1 (BitVec.ofNat 32 r₁.val) (BitVec.ofNat 32 (128 * r₂.val))) a + S1x8x128.size a ≤ S50x64x16384.size a
  k0_off17_inb : ∀ (i : grid0.Coords) (k0_t1 : Fin k0_t1_loop.trips), ∀ (r₁ : Fin 2) (r₂ : Fin 2), ∀ a, (k0_off17 i k0_t1 (BitVec.ofNat 32 r₁.val) (BitVec.ofNat 32 (128 * r₂.val))) a + S1x8x128.size a ≤ S50x64x16384.size a
  k0_off18_inb : ∀ (i : grid0.Coords) (k0_t1 : Fin k0_t1_loop.trips), ∀ (r₁ : Fin 2) (r₂ : Fin 2), ∀ a, (k0_off18 i k0_t1 (BitVec.ofNat 32 r₁.val) (BitVec.ofNat 32 (128 * r₂.val))) a + S1x8x128.size a ≤ S50x64x16384.size a
  k0_off19_inb : ∀ (i : grid0.Coords) (k0_t1 : Fin k0_t1_loop.trips), ∀ (r₁ : Fin 2) (r₂ : Fin 2), ∀ a, (k0_off19 i k0_t1 (BitVec.ofNat 32 r₁.val) (BitVec.ofNat 32 (128 * r₂.val))) a + S1x8x128.size a ≤ S50x64x16384.size a
  k0_off20_inb : ∀ (i : grid0.Coords) (k0_t1 : Fin k0_t1_loop.trips), ∀ (k0_h4 : k0_cond4 k0_t1 = 1#1), ∀ a, (k0_off20 i k0_t1) a + S256.size a ≤ S819200.size a
  k0_off21_inb : ∀ (i : grid0.Coords) (k0_t1 : Fin k0_t1_loop.trips), ∀ (k0_h5 : k0_cond5 k0_t1 = 1#1), ∀ a, (k0_off21 i k0_t1) a + S256.size a ≤ S819200.size a
  k0_off22_inb : ∀ (i : grid0.Coords) (k0_t1 : Fin k0_t1_loop.trips), ∀ (k0_h6 : k0_cond6 k0_t1 = 1#1), ∀ (r : Fin 2), ∀ a, (k0_off22 i k0_t1 (BitVec.ofNat 32 (128 * r.val))) a + S1x8x128.size a ≤ S50x64x16384.size a
  k0_off23_inb : ∀ (i : grid0.Coords) (k0_t1 : Fin k0_t1_loop.trips), ∀ (k0_h6 : k0_cond6 k0_t1 = 1#1), ∀ (r : Fin 2), ∀ a, (k0_off23 i k0_t1 (BitVec.ofNat 32 (128 * r.val))) a + S1x8x128.size a ≤ S50x64x16384.size a
  k0_off24_inb : ∀ (i : grid0.Coords) (k0_t1 : Fin k0_t1_loop.trips), ∀ (k0_h6 : k0_cond6 k0_t1 = 1#1), ∀ (r : Fin 2), ∀ a, (k0_off24 i k0_t1 (BitVec.ofNat 32 (128 * r.val))) a + S1x8x128.size a ≤ S50x64x16384.size a
  k0_off25_inb : ∀ (i : grid0.Coords) (k0_t1 : Fin k0_t1_loop.trips), ∀ (k0_h6 : k0_cond6 k0_t1 = 1#1), ∀ (r : Fin 2), ∀ a, (k0_off25 i k0_t1 (BitVec.ofNat 32 (128 * r.val))) a + S1x8x128.size a ≤ S50x64x16384.size a
  k0_off26_inb : ∀ (i : grid0.Coords) (k0_t1 : Fin k0_t1_loop.trips), ∀ (k0_h6 : k0_cond6 k0_t1 = 1#1), ∀ (r : Fin 2), ∀ a, (k0_off26 i k0_t1 (BitVec.ofNat 32 (128 * r.val))) a + S1x8x128.size a ≤ S50x64x16384.size a
  k0_off27_inb : ∀ (i : grid0.Coords) (k0_t1 : Fin k0_t1_loop.trips), ∀ (k0_h6 : k0_cond6 k0_t1 = 1#1), ∀ (r : Fin 2), ∀ a, (k0_off27 i k0_t1 (BitVec.ofNat 32 (128 * r.val))) a + S1x8x128.size a ≤ S50x64x16384.size a
  k0_off28_inb : ∀ (i : grid0.Coords) (k0_t1 : Fin k0_t1_loop.trips), ∀ (k0_h6 : k0_cond6 k0_t1 = 1#1), ∀ (r : Fin 2), ∀ a, (k0_off28 i k0_t1 (BitVec.ofNat 32 (128 * r.val))) a + S1x8x128.size a ≤ S50x64x16384.size a
  k0_off29_inb : ∀ (i : grid0.Coords) (k0_t1 : Fin k0_t1_loop.trips), ∀ (k0_h6 : k0_cond6 k0_t1 = 1#1), ∀ (r : Fin 2), ∀ a, (k0_off29 i k0_t1 (BitVec.ofNat 32 (128 * r.val))) a + S1x8x128.size a ≤ S50x64x16384.size a
  k0_t3_ok : k0_t3_loop.OK
  k0_off30_inb : ∀ i : grid0.Coords, ∀ (r : Fin 2), ∀ a, (k0_off30 i (BitVec.ofNat 32 (128 * r.val))) a + S1x8x128.size a ≤ S50x64x16384.size a
  k0_off31_inb : ∀ i : grid0.Coords, ∀ (r : Fin 2), ∀ a, (k0_off31 i (BitVec.ofNat 32 (128 * r.val))) a + S1x8x128.size a ≤ S50x64x16384.size a
  k0_off32_inb : ∀ i : grid0.Coords, ∀ (r : Fin 2), ∀ a, (k0_off32 i (BitVec.ofNat 32 (128 * r.val))) a + S1x8x128.size a ≤ S50x64x16384.size a
  k0_off33_inb : ∀ i : grid0.Coords, ∀ (r : Fin 2), ∀ a, (k0_off33 i (BitVec.ofNat 32 (128 * r.val))) a + S1x8x128.size a ≤ S50x64x16384.size a
  k0_off34_inb : ∀ i : grid0.Coords, ∀ (r : Fin 2), ∀ a, (k0_off34 i (BitVec.ofNat 32 (128 * r.val))) a + S1x8x128.size a ≤ S50x64x16384.size a
  k0_off35_inb : ∀ i : grid0.Coords, ∀ (r : Fin 2), ∀ a, (k0_off35 i (BitVec.ofNat 32 (128 * r.val))) a + S1x8x128.size a ≤ S50x64x16384.size a
  k0_off36_inb : ∀ i : grid0.Coords, ∀ (r : Fin 2), ∀ a, (k0_off36 i (BitVec.ofNat 32 (128 * r.val))) a + S1x8x128.size a ≤ S50x64x16384.size a
  k0_off37_inb : ∀ i : grid0.Coords, ∀ (r : Fin 2), ∀ a, (k0_off37 i (BitVec.ofNat 32 (128 * r.val))) a + S1x8x128.size a ≤ S50x64x16384.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | .hbm, ⟨25, _⟩ => ⟨S_, .f32⟩
  | .hbm, ⟨26, _⟩ => ⟨S16384x50x64, .f32⟩
  | .hbm, ⟨27, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.RefRun.lean ====
/-
  The reference program read back as one pure function of its two arguments.

  Per batch row b and position h the reference looks up row x[b,h] of the table and scales it by eight.
  The lookup treats its index as follows: an index below zero is first wrapped by adding the table's
  height (select(x < 0, x + 1000000, x)); the row at the wrapped index is gathered; a position whose wrapped
  index still lies outside 0 … 999999 is overwritten with a quiet NaN (the mask is the conjunction of the two
  signed comparisons, reduced with "and" over the index vector's single component and broadcast along the
  row); the program then multiplies by the broadcast constant 8.0.

  The program is a straight line of twenty-six host operations (twenty-three of them the lookup's, one of
  those the wrap's select, which sits in a function of its own), so its run is the library's run of a list of
  operations: every buffer ends at the fold of the list over the launch contents, and the fold at the result
  buffer is the composed term RefOut by computation. The frame claim is that run with the result forgotten.
-/
import proofs.«206429_g47863115546636_cont_8to1c4_619_32_alg».proof.Defs
import proofs.«206429_g47863115546636_cont_8to1c4_619_32_alg».proof.Proof.Gen.ReferenceIdeal
import proofs.«206429_g47863115546636_cont_8to1c4_619_32_alg».proof.Proof.Gen.Pre_input_domain
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The index after the wrap: x + 1000000 where x is negative, x elsewhere. -/
def wrapped (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 1000000#32))) x

/-- The wrapped index as the gather's table of one-component index vectors. -/
def startIdx (x : IVec S16384x50 32) : IVec S16384x50x1 32 :=
  broadcastInDim S16384x50x1 ![0, 1] bcast_S16384x50_S16384x50x1_0_1 (wrapped x)

/-- Per component of the index vector, whether it lies inside the table: 0 ≤ i and i ≤ 999999, read signed. -/
def inside (x : IVec S16384x50 32) : IVec S16384x50x1 1 :=
  andi
    (cmpi .sge (startIdx x) (broadcastInDim S16384x50x1 ![] bcast_S_S16384x50x1 (constantI S_ 32 0#32)))
    (cmpi .sle (startIdx x)
      (broadcastInDim S16384x50x1 ![0, 1, 2] bcast_S1x1x1_S16384x50x1_0_1_2
        (broadcastInDim S1x1x1 ![2] bcast_S1_S1x1x1_2 (constantI S1 32 999999#32))))

/-- Which positions hold an index inside the table: the conjunction of inside over the index vector's single
    component. -/
def inBounds (x : IVec S16384x50 32) : IVec S16384x50 1 :=
  Host.reduce IntOp.andi (inside x) (constantI S_ 1 1#1) reducesTo_S16384x50x1_S16384x50_d2 h_S_

/-- The looked-up rows: the gathered row where the index is inside the table, a quiet NaN elsewhere. -/
def taken (x : IVec S16384x50 32) (tbl : FVec F S1000000x64 .f32) : FVec F S16384x50x64 .f32 :=
  select (broadcastInDim S16384x50x64 ![0, 1] bcast_S16384x50_S16384x50x64_0_1 (inBounds x))
    (Host.gather gather_S1000000x64_S16384x50x1_S16384x50x64_2_0_n_n_0_2_164 tbl (startIdx x))
    (broadcastInDim S16384x50x64 ![] bcast_S_S16384x50x64 (constant (F := F) S_ .f32 0x7FC00000#32))

/-- What the reference leaves in its result buffer: eight times the looked-up rows. -/
def RefOut (x : IVec S16384x50 32) (tbl : FVec F S1000000x64 .f32) : FVec F S16384x50x64 .f32 :=
  mulf (broadcastInDim S16384x50x64 ![] bcast_S_S16384x50x64 (constant (F := F) S_ .f32 0x41000000#32)) (taken x tbl)

/-! ## The program as a list of operations -/

/-- The twenty-six operations in program order: the lookup's (the wrap's select seventh, into the inner
    call's buffer), then the constant 8.0, its broadcast and the product. -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0) main_call0.v2 main_call0.v3 addi,
    TRef.ternary main_call0.v1 main_call0.v3 (.of main_arg0) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select,
    nullary main_cst (constant S_ .f32 0x41000000#32),
    unary main_cst main_v1 (broadcastInDim S16384x50x64 ![] bcast_S_S16384x50x64 : (⟨S_, .f32⟩ : BufTy).Contents (Elt F) → (⟨S16384x50x64, .f32⟩ : BufTy).Contents (Elt F)),
    binary main_v1 main_v0 main_v2 (mulf : (⟨S16384x50x64, .f32⟩ : BufTy).Contents (Elt F) → (⟨S16384x50x64, .f32⟩ : BufTy).Contents (Elt F) → (⟨S16384x50x64, .f32⟩ : BufTy).Contents (Elt F)) ]

set_option maxRecDepth 1024 in
/-- The program is that straight line: the two functions' bodies unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-! ## The typed references' casts -/

/-- A typed reference's two transports cancel. -/
theorem ofBuf_toBuf {Val : EltTy → Type} {T : BufTy} (x : TRef sig T) (v : T.Contents Val) : x.ofBuf (x.toBuf v) = v := by
  obtain ⟨r, h, h2, h3⟩ := x
  subst h
  rfl

/-- At the lookup's result buffer the transport is the identity. -/
theorem toBuf_v0 (h1 h2 h3) (v : (⟨S16384x50x64, .f32⟩ : BufTy).Contents (Elt F)) :
    ((TRef.of main_v0 h1 h2 h3 : TRef sig ⟨S16384x50x64, .f32⟩).toBuf v : (⟨S16384x50x64, .f32⟩ : BufTy).Contents (Elt F)) = v := rfl

/-- At the index argument the transport is the identity. -/
theorem ofBuf_arg0 (h1 h2 h3) (V : Valuation τ sig (Elt F)) :
    (TRef.of main_arg0 h1 h2 h3 : TRef sig ⟨S16384x50, .i32⟩).ofBuf (V (Proc.tc.devRef main_arg0)) = V (main_arg0 : DevRef τ sig) := rfl

/-- At the table argument the transport is the identity. -/
theorem ofBuf_arg1 (h1 h2 h3) (V : Valuation τ sig (Elt F)) :
    (TRef.of main_arg1 h1 h2 h3 : TRef sig ⟨S1000000x64, .f32⟩).ofBuf (V (Proc.tc.devRef main_arg1)) = V (main_arg1 : DevRef τ sig) := rfl

/-! ## The fold at the result and at the arguments -/

attribute [local irreducible] Host.reduce Host.gather in
set_option maxRecDepth 8192 in
/-- The fold at the result buffer is the composed term: each operation's result is its function's value at its own
    buffer and what was there at any other, read off outermost first; what is left between the stages are the
    typed references' transports, which cancel. The reduction and the gather stay folded throughout. -/
theorem out_eq (V : Valuation τ sig (Elt F)) :
    after ops V (main_v2 : DevRef τ sig) = RefOut (V (main_arg0 : DevRef τ sig)) (V (main_arg1 : DevRef τ sig)) := by
  unfold RefOut taken inBounds inside startIdx wrapped
  after_results
  simp only [ofBuf_toBuf, toBuf_v0]
  rw [ofBuf_arg0, ofBuf_arg1]

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-! ## The run -/

/-- On every device, for any float values, from any memory with zero counters: every weakly fair execution of the
    reference terminates with its result at RefOut of the arguments' launch contents, the arguments unchanged. -/
theorem run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v2)
        = RefOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

/-- The reference's frame claim: the run with the result forgotten (the precondition is not needed). -/
theorem frame_ri : Cert.frame_ReferenceIdeal :=
  fun m ρ _ => (θ_run Cert.ReferenceIdeal.defs _ _).mono (fun _ h c => (h c).2) (run (F := Ideal) m ρ)

end Cert.Proof.Ref

end
-- ==== Proof.RefValue.lean ====
/-
  The reference's result read at an index, for indices inside the table.

  The reference's result is RefOut x tbl: eight times the looked-up rows, where the lookup wraps a negative
  index by the table's height, gathers the row at the wrapped index clamped into 0 … 999999, and replaces the
  row by a quiet NaN where the wrapped index lies outside 0 … 999999. When every index x[b,h], read unsigned,
  is below 1000000, none of this is visible: such a word has its top bit clear, so it reads the same signed, is
  not negative (the wrap leaves it), lies in 0 … 999999 (both comparisons hold, their conjunction over the index
  vector's single component is one, the mask is all ones and the NaN is never selected) and is its own clamp.
  The gather has the table's row axis collapsed and addressed by the start index, its column axis the offset
  axis, so the gathered array at (b, h, d) is the table at (start row, d). Hence

      RefOut x tbl (b, h, d) = 8.0 · tbl (x[b,h], d),

  with the literal 8.0 kept as its word. The last part reads the index range off the precondition: its second
  conjunct is the conjunction over all positions of 0 ≤ x and x ≤ 999999 read signed, which for a 32-bit word
  is the same as the unsigned reading being below 1000000.
-/
import proofs.«206429_g47863115546636_cont_8to1c4_619_32_alg».proof.Proof.RefRun
import Idealize.ShloMosaic.Lib.ValueIdx
import Idealize.ShloMosaic.Lib.Pipeline.Value
import Idealize.ShloMosaic.Lib.IdealHost
import Idealize.ShloMosaic.Lib.ReduceAll
import Idealize.ShloMosaic.PureOps.Ideal.Laws
import Idealize.ShloMosaic.PureOps.Reduce

noncomputable section

namespace Cert.Proof.Ref

open Cert.ReferenceIdeal Cert.ReferenceIdeal.Gen Idealize.ShloMosaic Idealize.ShloMosaic.ValueIdx

/-! ## Words -/

/-- A word below 1000000 reads the same signed and unsigned. -/
theorem toInt_of_lt {v : BitVec 32} (h : v.toNat < 1000000) : v.toInt = (v.toNat : Int) :=
  BitVec.toInt_eq_toNat_of_lt (by omega)

/-- A word whose signed reading lies in 0 … 999999 is, read unsigned, below 1000000. -/
theorem toNat_lt_of_toInt {v : BitVec 32} (h0 : 0 ≤ v.toInt) (h1 : v.toInt ≤ 999999) : v.toNat < 1000000 := by
  have hc := BitVec.toInt_eq_toNat_cond v
  have hlt := v.isLt
  split_ifs at hc <;> omega

theorem toInt_zero32 : (0#32 : BitVec 32).toInt = 0 := by decide
theorem toInt_999999 : (999999#32 : BitVec 32).toInt = 999999 := by decide

/-! ## The index stages at an index -/

/-- Where the index is in range the wrap leaves it alone. -/
theorem wrapped_apply (x : IVec S16384x50 32) (j : S16384x50.Idx) (hj : (x j).toNat < 1000000) : wrapped x j = x j := by
  show Scalar.select (IntOp.cmpi .slt (x j) 0#32) (IntOp.addi (x j) 1000000#32) (x j) = x j
  have hc : ¬ IntOp.cmpi .slt (x j) 0#32 = 1#1 := by
    rw [IntOp.cmpi_slt, toInt_zero32, toInt_of_lt hj]; omega
  rw [eq_zero_of_ne_one hc, select_zero]

/-- The start-index table holds the wrapped index in its one component. -/
theorem startIdx_apply (x : IVec S16384x50 32) (b : Fin 16384) (h : Fin 50) (z : Fin 1) :
    startIdx x (ix3 b h z) = wrapped x (ix2 b h) :=
  broadcastInDim_apply _ _ (wrapped x) (ix3 b h z) (ix2 b h) (fun a => match a with | ⟨0, _⟩ => rfl | ⟨1, _⟩ => rfl)

/-! ## The mask -/

/-- A fold by "and" of ones from one is one. -/
theorem fold_andi_ones {ι : Type} (S : Finset ι) (f : ι → BitVec 1) (hf : ∀ k, f k = 1#1) :
    S.fold IntOp.andi 1#1 f = 1#1 := by
  classical
  induction S using Finset.induction_on with
  | empty => rfl
  | insert a s ha ih => rw [Finset.fold_insert ha, hf, ih]; decide

/-- With every index in range both comparisons hold at every component. -/
theorem inside_apply (x : IVec S16384x50 32) (hx : ∀ j, (x j).toNat < 1000000) (i : S16384x50x1.Idx) :
    inside x i = 1#1 := by
  obtain ⟨b, h, z, rfl⟩ : ∃ (b : Fin 16384) (h : Fin 50) (z : Fin 1), i = ix3 b h z := ⟨i 0, i 1, i 2, eq_ix3 i⟩
  show IntOp.andi (IntOp.cmpi .sge (startIdx x (ix3 b h z)) 0#32) (IntOp.cmpi .sle (startIdx x (ix3 b h z)) 999999#32) = 1#1
  rw [startIdx_apply, wrapped_apply x _ (hx _), IntOp.andi_eq_one, IntOp.cmpi_sge, IntOp.cmpi_sle, toInt_zero32, toInt_999999,
    toInt_of_lt (hx _)]
  have := hx (ix2 b h)
  omega

/-- With every index in range, every position is inside the table: the mask is all ones. -/
theorem inBounds_apply (x : IVec S16384x50 32) (hx : ∀ j, (x j).toNat < 1000000) (j : S16384x50.Idx) :
    inBounds x j = 1#1 := by
  unfold inBounds
  rw [Host.reduce_eq_fold_single IntOp.andi (inside x) _ reducesTo_S16384x50x1_S16384x50_d2 (by decide) h_S_ j]
  exact fold_andi_ones _ _ (fun k => inside_apply x hx _)

/-! ## The gather at an index -/

/-- The gathered array at (b, h, d) is the table at row "start index clamped into 0 … 999999", column d: the row
    axis is collapsed and addressed by the start index's one component, the column axis is the offset axis. -/
theorem gather_row_apply {α : Type} (tbl : S1000000x64.Idx → α) (idx : IVec S16384x50x1 32)
    (b : Fin 16384) (h : Fin 50) (d : Fin 64) :
    Host.gather gather_S1000000x64_S16384x50x1_S16384x50x64_2_0_n_n_0_2_164 tbl idx (ix3 b h d)
      = tbl (ix2 (⟨min (idx (ix3 b h (0 : Fin 1))).toInt.toNat 999999, by omega⟩ : Fin 1000000) d) := by
  unfold Host.gather
  refine congrArg tbl (funext fun a => Fin.ext ?_)
  match a with
  | ⟨0, _⟩ =>
    show gather_S1000000x64_S16384x50x1_S16384x50x64_2_0_n_n_0_2_164.start (ix3 b h d) idx 0
      + gather_S1000000x64_S16384x50x1_S16384x50x64_2_0_n_n_0_2_164.batchCoord (ix3 b h d) 0
      + gather_S1000000x64_S16384x50x1_S16384x50x64_2_0_n_n_0_2_164.offCoord (ix3 b h d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S1000000x64_S16384x50x1_S16384x50x64_2_0_n_n_0_2_164.startIndexMap from
      List.mem_singleton.mpr rfl)]
    have hsi : gather_S1000000x64_S16384x50x1_S16384x50x64_2_0_n_n_0_2_164.siIdx (ix3 b h d)
        ⟨List.idxOf (0 : Fin 2) gather_S1000000x64_S16384x50x1_S16384x50x64_2_0_n_n_0_2_164.startIndexMap,
          List.idxOf_lt_length_iff.2 (List.mem_singleton.mpr rfl)⟩ = ix3 b h (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S1000000x64_S16384x50x1_S16384x50x64_2_0_n_n_0_2_164.start (ix3 b h d) idx 1
      + gather_S1000000x64_S16384x50x1_S16384x50x64_2_0_n_n_0_2_164.batchCoord (ix3 b h d) 1
      + gather_S1000000x64_S16384x50x1_S16384x50x64_2_0_n_n_0_2_164.offCoord (ix3 b h d) 1 = d.val
    rw [GatherDims.batchCoord_eq_zero _ _ _ List.not_mem_nil]
    unfold GatherDims.start
    rw [dif_neg (show (1 : Fin 2) ∉ gather_S1000000x64_S16384x50x1_S16384x50x64_2_0_n_n_0_2_164.startIndexMap from by decide)]
    simp only [Nat.zero_add, Nat.add_zero]
    rfl

/-! ## The result at an index -/

/-- With every index in range the reference's result at (b, h, d) is eight times the table's entry at row x[b,h],
    column d: the wrap is not taken, the mask is one, and the clamp leaves the index alone. -/
theorem RefOut_apply (x : IVec S16384x50 32) (tbl : FVec Ideal S1000000x64 .f32) (hx : ∀ j, (x j).toNat < 1000000)
    (b : Fin 16384) (h : Fin 50) (d : Fin 64) :
    RefOut (F := Ideal) x tbl (ix3 b h d)
      = Ideal.ofBits .f32 0x41000000#32 * tbl (ix2 (⟨(x (ix2 b h)).toNat, hx _⟩ : Fin 1000000) d) := by
  unfold RefOut taken
  rw [mulf_apply, broadcastInDim_scalar_apply, constant_apply, select_apply]
  have hm : broadcastInDim S16384x50x64 ![0, 1] bcast_S16384x50_S16384x50x64_0_1 (inBounds x) (ix3 b h d) = 1#1 :=
    (broadcastInDim_apply _ _ (inBounds x) (ix3 b h d) (ix2 b h)
      (fun a => match a with | ⟨0, _⟩ => rfl | ⟨1, _⟩ => rfl)).trans (inBounds_apply x hx _)
  rw [hm, select_one, gather_row_apply]
  refine congrArg (fun r => Ideal.ofBits .f32 0x41000000#32 * tbl (ix2 r d)) (Fin.ext ?_)
  show min (startIdx x (ix3 b h (0 : Fin 1))).toInt.toNat 999999 = (x (ix2 b h)).toNat
  rw [startIdx_apply, wrapped_apply x _ (hx _), toInt_of_lt (hx _)]
  have := hx (ix2 b h)
  omega

/-! ## The index range from the precondition -/

/-- The precondition's second half says every index lies in 0 … 999999 read signed; read unsigned it is then
    below the table's height. -/
theorem pre_idx (x : IVec S16384x50 32) (tbl : FVec Ideal S1000000x64 .f32)
    (hpre : Cert.Pre_input_domain.fn (F := Ideal) x tbl = (fun _ => 1#1)) (j : S16384x50.Idx) : (x j).toNat < 1000000 := by
  have h0 := congrFun hpre ix0
  dsimp only [Cert.Pre_input_domain.fn] at h0
  have h1 := (IntOp.andi_eq_one.mp h0).2
  have h2 := Host.reduce_andi_eq_one _ _ _ _ _ h1 j (funext fun d => d.elim0)
  have h3 : IntOp.andi (IntOp.cmpi .sge (x j) 0#32) (IntOp.cmpi .sle (x j) 999999#32) = 1#1 := h2
  rw [IntOp.andi_eq_one, IntOp.cmpi_sge, IntOp.cmpi_sle, toInt_zero32, toInt_999999] at h3
  exact toNat_lt_of_toInt h3.1 h3.2

end Cert.Proof.Ref

end
-- ==== Proof.KHost.lean ====
/-
  The kernel program's host operations as pure functions, read at an index.

  Around its one call the program does five things on the host. Before the call: the index array x : [16384, 50]
  is transposed to [50, 16384] and flattened row-major to one list of 819200 words, so that position
  h · 16384 + b of the list holds x[b, h] (Xflat); and the table [1000000, 64] is padded on the right of its
  column axis with 64 columns of the float conversion of the integer 0, giving [1000000, 128] whose first 64
  columns are the table's (Tpad). After the call: the result [50, 64, 16384] is transposed with the
  permutation (2, 0, 1) to [16384, 50, 64], so that entry (b, h, d) of the program's result is entry (h, d, b)
  of the call's (OutT).

  What the call is to compute (OutSpec): entry (h, d, b) is eight times the padded table's entry at the row
  named by word h · 16384 + b of the flattened list, reduced modulo the table's height, and column d — the
  scaling done as the kernel's arithmetic does it, a product with the word of 8.0 on the right (mul8). For
  words below the table's height the reduction is the identity.

  The bridge: for indices below the table's height the program's result, OutT of OutSpec of Xflat and Tpad, is the
  reference's composed term. Entry by entry both are 8.0 times the table's entry at (x[b, h], d); the two products
  differ in the order of their factors only, so commutativity of the product is all the algebra there is.
-/
import proofs.«206429_g47863115546636_cont_8to1c4_619_32_alg».proof.Proof.Gen.KernelIdeal
import proofs.«206429_g47863115546636_cont_8to1c4_619_32_alg».proof.Proof.Gen.KernelIdeal.Skeleton
import proofs.«206429_g47863115546636_cont_8to1c4_619_32_alg».proof.Proof.RefValue
import Idealize.ShloMosaic.Lib.ValueIdx
import Idealize.ShloMosaic.Lib.Pipeline.Value
import Idealize.ShloMosaic.Lib.KernelVsHost

noncomputable section

namespace Cert.Proof.KHost

open Cert.KernelIdeal Cert.KernelIdeal.Gen
open Idealize.ShloMosaic Idealize.ShloMosaic.ValueIdx

variable {F : FTy → Type} [FloatOps F]

/-! ## The index list -/

/-- The index array transposed and flattened row-major: the program's first two operations composed. -/
def Xflat (x : IVec S16384x50 32) : IVec S819200 32 :=
  shapeCast S819200 (transpose S50x16384 [1, 0] x transposes_S16384x50_S50x16384_1_0) shapeCasts_S50x16384_S819200

/-- Position h · 16384 + b of the flattened list holds x[b, h]. -/
theorem Xflat_apply (x : IVec S16384x50 32) (h : Fin 50) (b : Fin 16384) :
    Xflat x (ix1 (⟨h.val * 16384 + b.val, by omega⟩ : Fin 819200)) = x (ix2 b h) := by
  unfold Xflat
  refine (shapeCast_apply _ shapeCasts_S50x16384_S819200 (ix1 (⟨h.val * 16384 + b.val, by omega⟩ : Fin 819200)) (ix2 h b)
    (by rw [Shape.rowMajor_val_two, Shape.rowMajor_val_one]; rfl)).trans ?_
  exact transpose_apply [1, 0] x transposes_S16384x50_S50x16384_1_0 (ix2 h b) (ix2 b h)
    (fun a => match a with | ⟨0, _⟩ => rfl | ⟨1, _⟩ => rfl)

/-- Every word of the flattened list is one of x's: a bound on x's words is a bound on the list's. -/
theorem Xflat_bound (x : IVec S16384x50 32) (hx : ∀ j, (x j).toNat < 1000000) : ∀ j, (Xflat x j).toNat < 1000000 :=
  fun j => hx (Shape.Transposes.src transposes_S16384x50_S50x16384_1_0 (Shape.reshapeEquiv shapeCasts_S50x16384_S819200 j))

/-! ## The padded table -/

/-- The table padded with 64 more columns of the converted integer 0: the padding function's two operations
    composed on the constant 0. -/
def Tpad (tbl : FVec F S1000000x64 .f32) : FVec F S1000000x128 .f32 :=
  pad S1000000x128 ![0, 0] ![0, 64] ![0, 0] tbl (sitofp (F := F) .f32 (constantI S_ 32 0#32))
    pads_S1000000x64_S1000000x128_000_0640 h_S_

/-- The padded table's first 64 columns are the table's. -/
theorem Tpad_apply (tbl : FVec F S1000000x64 .f32) (r : Fin 1000000) (dd : Fin 64) :
    Tpad tbl (ix2 r (⟨dd.val, by omega⟩ : Fin 128)) = tbl (ix2 r dd) := by
  unfold Tpad
  exact pad_apply_of_inside ![0, 0] ![0, 64] ![0, 0] tbl _ pads_S1000000x64_S1000000x128_000_0640 h_S_
    (ix2 r (⟨dd.val, by omega⟩ : Fin 128)) (ix2 r dd)
    (fun a => match a with
      | ⟨0, _⟩ => by show r.val = 0 + r.val * (0 + 1); omega
      | ⟨1, _⟩ => by show dd.val = 0 + dd.val * (0 + 1); omega)

/-! ## The result's transpose -/

/-- The call's result with its axes permuted by (2, 0, 1): the program's last operation. -/
def OutT (o : FVec F S50x64x16384 .f32) : FVec F S16384x50x64 .f32 :=
  transpose S16384x50x64 [2, 0, 1] o transposes_S50x64x16384_S16384x50x64_2_0_1

/-- Entry (b, h, d) of the program's result is entry (h, d, b) of the call's. -/
theorem OutT_apply (o : FVec F S50x64x16384 .f32) (b : Fin 16384) (h : Fin 50) (dd : Fin 64) :
    OutT o (ix3 b h dd) = o (ix3 h dd b) := by
  unfold OutT
  exact transpose_apply [2, 0, 1] o transposes_S50x64x16384_S16384x50x64_2_0_1 (ix3 b h dd) (ix3 h dd b)
    (fun a => match a with | ⟨0, _⟩ => rfl | ⟨1, _⟩ => rfl | ⟨2, _⟩ => rfl)

/-! ## What the call computes -/

/-- The kernel's scaling of one entry: the product with the word of 8.0, on the right. -/
def mul8 (a : F .f32) : F .f32 := FloatOps.mulf a (FloatOps.ofBits .f32 0x41000000#32)

/-- The kernel's scaling payload is mul8 entry by entry. -/
theorem k0_pay5_apply (v : Vec F S16 .f32) (x : S16.Idx) : k0_pay5 v x = mul8 (v x) := rfl

/-- At the extended reals the scaling is multiplication by the value of that word. -/
theorem mul8_ideal (a : Ideal .f32) : mul8 (F := Ideal) a = a * Ideal.ofBits .f32 0x41000000#32 := rfl

/-- What the call is to leave in its result: at (h, d, b), eight times the padded table's entry at the row named by
    word h · 16384 + b of the list, reduced modulo the table's height, and column d. -/
def OutSpec (X : IVec S819200 32) (Tp : FVec F S1000000x128 .f32) : FVec F S50x64x16384 .f32 := fun p =>
  mul8 (Tp (ix2
    (⟨(X (ix1 (⟨(p 0).val * 16384 + (p 2).val, by
        have h0 : (p 0).val < 50 := (p 0).isLt
        have h2 : (p 2).val < 16384 := (p 2).isLt
        omega⟩ : Fin 819200))).toNat % 1000000, Nat.mod_lt _ (by decide)⟩ : Fin 1000000)
    (⟨(p 1).val, by have h1 : (p 1).val < 64 := (p 1).isLt; omega⟩ : Fin 128)))

/-- For words below the table's height the reduction is the identity. -/
theorem OutSpec_apply (X : IVec S819200 32) (Tp : FVec F S1000000x128 .f32) (hX : ∀ j, (X j).toNat < 1000000)
    (h : Fin 50) (dd : Fin 64) (b : Fin 16384) :
    OutSpec X Tp (ix3 h dd b)
      = mul8 (Tp (ix2 (⟨(X (ix1 (⟨h.val * 16384 + b.val, by omega⟩ : Fin 819200))).toNat, hX _⟩ : Fin 1000000)
          (⟨dd.val, by omega⟩ : Fin 128))) := by
  show mul8 (Tp (ix2 (⟨(X (ix1 (⟨h.val * 16384 + b.val, _⟩ : Fin 819200))).toNat % 1000000, _⟩ : Fin 1000000)
      (⟨dd.val, _⟩ : Fin 128))) = _
  refine congrArg (fun r : Fin 1000000 => mul8 (Tp (ix2 r (⟨dd.val, _⟩ : Fin 128)))) (Fin.ext ?_)
  exact Nat.mod_eq_of_lt (hX _)

/-! ## The bridge to the reference -/

/-- For indices below the table's height, the program's result computed from the specified call is the reference's
    composed term: entry by entry, 8.0 times the table's entry at (x[b, h], d), the factors in the other order. -/
theorem bridge (x : IVec S16384x50 32) (tbl : FVec Ideal S1000000x64 .f32) (hx : ∀ j, (x j).toNat < 1000000) :
    OutT (OutSpec (F := Ideal) (Xflat x) (Tpad tbl)) = Cert.Proof.Ref.RefOut (F := Ideal) x tbl := by
  funext i
  obtain ⟨b, h, dd, rfl⟩ : ∃ (b : Fin 16384) (h : Fin 50) (dd : Fin 64), i = ix3 b h dd := ⟨i 0, i 1, i 2, eq_ix3 i⟩
  rw [OutT_apply, OutSpec_apply _ _ (Xflat_bound x hx), Cert.Proof.Ref.RefOut_apply x tbl hx, Tpad_apply, mul8_ideal]
  have e : (⟨(Xflat x (ix1 (⟨h.val * 16384 + b.val, by omega⟩ : Fin 819200))).toNat, Xflat_bound x hx _⟩ : Fin 1000000)
      = ⟨(x (ix2 b h)).toNat, hx _⟩ := Fin.ext (congrArg BitVec.toNat (Xflat_apply x h b))
  rw [e]
  exact mul_comm _ _

end Cert.Proof.KHost

end
-- ==== Proof.KDefs.lean ====
import proofs.«206429_g47863115546636_cont_8to1c4_619_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206429_g47863115546636_cont_8to1c4_619_32_alg».proof.Proof.Gen.KernelIdeal
import proofs.«206429_g47863115546636_cont_8to1c4_619_32_alg».proof.Proof.Gen.KernelIdeal.Skeleton
import proofs.«206429_g47863115546636_cont_8to1c4_619_32_alg».proof.Proof.KHost

noncomputable section

/-! The launch configuration of the one SparseCore call, the names of the arrays and scratches as the tile body
    addresses them, the staging scratch as sixteen eight-row blocks, and what the call hands each tile:
    read shares of the flattened indices and of the padded table, and the tile's own 512 batch columns of the result. -/
namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

open Lean Elab Tactic Meta in
/-- At a program headed by an indexed load or an indexed store of the vector subcore: restate the head as the
    whole-buffer load (and store) it is made of, by the library's own equation. -/
elab "sl_idx " c:term : tactic => withMainContext do
  let g ← getMainGoal
  let ty := (← instantiateMVars (← g.getType)).consumeMData
  unless ty.isApp do throwError "sl_idx: not an entailment"
  let some w := Idealize.ShloMosaic.Tactic.Exec.parseWp? ty.appArg! | throwError "sl_idx: no wp"
  let prog := w.prog.consumeMData
  unless prog.isAppOfArity ``Bind.bind 6 do throwError "sl_idx: the program is not a bind"
  let hd := (prog.getArg! 4).consumeMData
  let k := prog.getArg! 5
  let args := hd.getAppArgs
  let n := args.size
  let cE ← Term.elabTerm c none
  let eqPf ←
    if hd.getAppFn.isConstOf ``Idealize.ShloMosaic.SparseCore.vectorLoadIdx then
      mkAppM ``Idealize.ShloMosaic.SparseCore.vectorLoadIdx_bind #[cE, args[n-4]!, args[n-3]!, args[n-2]!, args[n-1]!, k]
    else if hd.getAppFn.isConstOf ``Idealize.ShloMosaic.SparseCore.vectorStoreIdx then
      mkAppM ``Idealize.ShloMosaic.SparseCore.vectorStoreIdx_bind #[cE, args[n-7]!, args[n-6]!, args[n-5]!, args[n-4]!, args[n-3]!, args[n-2]!, args[n-1]!, k]
    else throwError "sl_idx: the head is neither an indexed load nor an indexed store"
  let g' ← Idealize.ShloMosaic.Tactic.rewriteProg g eqPf
  replaceMainGoal [g']
abbrev dM0_0 (L : grid0.Coords) (k : Fin k0_t1_loop.trips) : Memref sig .scVector .hbm S8x128 .f32 := ((oW).slice (Rect.unit (s := S50x64x16384) (k0_off12 L k 0#32 0#32) S1x8x128.size (k0_off12_inb L k 0 0)) (fun _ => rfl)).squeeze S8x128 squeezes_S1x8x128_S8x128
abbrev dM0_1 (L : grid0.Coords) (k : Fin k0_t1_loop.trips) : Memref sig .scVector .hbm S8x128 .f32 := ((oW).slice (Rect.unit (s := S50x64x16384) (k0_off12 L k 0#32 128#32) S1x8x128.size (k0_off12_inb L k 0 1)) (fun _ => rfl)).squeeze S8x128 squeezes_S1x8x128_S8x128
abbrev dM0_2 (L : grid0.Coords) (k : Fin k0_t1_loop.trips) : Memref sig .scVector .hbm S8x128 .f32 := ((oW).slice (Rect.unit (s := S50x64x16384) (k0_off13 L k 0#32 0#32) S1x8x128.size (k0_off13_inb L k 0 0)) (fun _ => rfl)).squeeze S8x128 squeezes_S1x8x128_S8x128
abbrev dM0_3 (L : grid0.Coords) (k : Fin k0_t1_loop.trips) : Memref sig .scVector .hbm S8x128 .f32 := ((oW).slice (Rect.unit (s := S50x64x16384) (k0_off13 L k 0#32 128#32) S1x8x128.size (k0_off13_inb L k 0 1)) (fun _ => rfl)).squeeze S8x128 squeezes_S1x8x128_S8x128
abbrev dM0_4 (L : grid0.Coords) (k : Fin k0_t1_loop.trips) : Memref sig .scVector .hbm S8x128 .f32 := ((oW).slice (Rect.unit (s := S50x64x16384) (k0_off14 L k 0#32 0#32) S1x8x128.size (k0_off14_inb L k 0 0)) (fun _ => rfl)).squeeze S8x128 squeezes_S1x8x128_S8x128
abbrev dM0_5 (L : grid0.Coords) (k : Fin k0_t1_loop.trips) : Memref sig .scVector .hbm S8x128 .f32 := ((oW).slice (Rect.unit (s := S50x64x16384) (k0_off14 L k 0#32 128#32) S1x8x128.size (k0_off14_inb L k 0 1)) (fun _ => rfl)).squeeze S8x128 squeezes_S1x8x128_S8x128
abbrev dM0_6 (L : grid0.Coords) (k : Fin k0_t1_loop.trips) : Memref sig .scVector .hbm S8x128 .f32 := ((oW).slice (Rect.unit (s := S50x64x16384) (k0_off15 L k 0#32 0#32) S1x8x128.size (k0_off15_inb L k 0 0)) (fun _ => rfl)).squeeze S8x128 squeezes_S1x8x128_S8x128
abbrev dM0_7 (L : grid0.Coords) (k : Fin k0_t1_loop.trips) : Memref sig .scVector .hbm S8x128 .f32 := ((oW).slice (Rect.unit (s := S50x64x16384) (k0_off15 L k 0#32 128#32) S1x8x128.size (k0_off15_inb L k 0 1)) (fun _ => rfl)).squeeze S8x128 squeezes_S1x8x128_S8x128
abbrev dM0_8 (L : grid0.Coords) (k : Fin k0_t1_loop.trips) : Memref sig .scVector .hbm S8x128 .f32 := ((oW).slice (Rect.unit (s := S50x64x16384) (k0_off16 L k 0#32 0#32) S1x8x128.size (k0_off16_inb L k 0 0)) (fun _ => rfl)).squeeze S8x128 squeezes_S1x8x128_S8x128
abbrev dM0_9 (L : grid0.Coords) (k : Fin k0_t1_loop.trips) : Memref sig .scVector .hbm S8x128 .f32 := ((oW).slice (Rect.unit (s := S50x64x16384) (k0_off16 L k 0#32 128#32) S1x8x128.size (k0_off16_inb L k 0 1)) (fun _ => rfl)).squeeze S8x128 squeezes_S1x8x128_S8x128
abbrev dM0_10 (L : grid0.Coords) (k : Fin k0_t1_loop.trips) : Memref sig .scVector .hbm S8x128 .f32 := ((oW).slice (Rect.unit (s := S50x64x16384) (k0_off17 L k 0#32 0#32) S1x8x128.size (k0_off17_inb L k 0 0)) (fun _ => rfl)).squeeze S8x128 squeezes_S1x8x128_S8x128
abbrev dM0_11 (L : grid0.Coords) (k : Fin k0_t1_loop.trips) : Memref sig .scVector .hbm S8x128 .f32 := ((oW).slice (Rect.unit (s := S50x64x16384) (k0_off17 L k 0#32 128#32) S1x8x128.size (k0_off17_inb L k 0 1)) (fun _ => rfl)).squeeze S8x128 squeezes_S1x8x128_S8x128
abbrev dM0_12 (L : grid0.Coords) (k : Fin k0_t1_loop.trips) : Memref sig .scVector .hbm S8x128 .f32 := ((oW).slice (Rect.unit (s := S50x64x16384) (k0_off18 L k 0#32 0#32) S1x8x128.size (k0_off18_inb L k 0 0)) (fun _ => rfl)).squeeze S8x128 squeezes_S1x8x128_S8x128
abbrev dM0_13 (L : grid0.Coords) (k : Fin k0_t1_loop.trips) : Memref sig .scVector .hbm S8x128 .f32 := ((oW).slice (Rect.unit (s := S50x64x16384) (k0_off18 L k 0#32 128#32) S1x8x128.size (k0_off18_inb L k 0 1)) (fun _ => rfl)).squeeze S8x128 squeezes_S1x8x128_S8x128
abbrev dM0_14 (L : grid0.Coords) (k : Fin k0_t1_loop.trips) : Memref sig .scVector .hbm S8x128 .f32 := ((oW).slice (Rect.unit (s := S50x64x16384) (k0_off19 L k 0#32 0#32) S1x8x128.size (k0_off19_inb L k 0 0)) (fun _ => rfl)).squeeze S8x128 squeezes_S1x8x128_S8x128
abbrev dM0_15 (L : grid0.Coords) (k : Fin k0_t1_loop.trips) : Memref sig .scVector .hbm S8x128 .f32 := ((oW).slice (Rect.unit (s := S50x64x16384) (k0_off19 L k 0#32 128#32) S1x8x128.size (k0_off19_inb L k 0 1)) (fun _ => rfl)).squeeze S8x128 squeezes_S1x8x128_S8x128
abbrev dM1_0 (L : grid0.Coords) (k : Fin k0_t1_loop.trips) : Memref sig .scVector .hbm S8x128 .f32 := ((oW).slice (Rect.unit (s := S50x64x16384) (k0_off12 L k 1#32 0#32) S1x8x128.size (k0_off12_inb L k 1 0)) (fun _ => rfl)).squeeze S8x128 squeezes_S1x8x128_S8x128
abbrev dM1_1 (L : grid0.Coords) (k : Fin k0_t1_loop.trips) : Memref sig .scVector .hbm S8x128 .f32 := ((oW).slice (Rect.unit (s := S50x64x16384) (k0_off12 L k 1#32 128#32) S1x8x128.size (k0_off12_inb L k 1 1)) (fun _ => rfl)).squeeze S8x128 squeezes_S1x8x128_S8x128
abbrev dM1_2 (L : grid0.Coords) (k : Fin k0_t1_loop.trips) : Memref sig .scVector .hbm S8x128 .f32 := ((oW).slice (Rect.unit (s := S50x64x16384) (k0_off13 L k 1#32 0#32) S1x8x128.size (k0_off13_inb L k 1 0)) (fun _ => rfl)).squeeze S8x128 squeezes_S1x8x128_S8x128
abbrev dM1_3 (L : grid0.Coords) (k : Fin k0_t1_loop.trips) : Memref sig .scVector .hbm S8x128 .f32 := ((oW).slice (Rect.unit (s := S50x64x16384) (k0_off13 L k 1#32 128#32) S1x8x128.size (k0_off13_inb L k 1 1)) (fun _ => rfl)).squeeze S8x128 squeezes_S1x8x128_S8x128
abbrev dM1_4 (L : grid0.Coords) (k : Fin k0_t1_loop.trips) : Memref sig .scVector .hbm S8x128 .f32 := ((oW).slice (Rect.unit (s := S50x64x16384) (k0_off14 L k 1#32 0#32) S1x8x128.size (k0_off14_inb L k 1 0)) (fun _ => rfl)).squeeze S8x128 squeezes_S1x8x128_S8x128
abbrev dM1_5 (L : grid0.Coords) (k : Fin k0_t1_loop.trips) : Memref sig .scVector .hbm S8x128 .f32 := ((oW).slice (Rect.unit (s := S50x64x16384) (k0_off14 L k 1#32 128#32) S1x8x128.size (k0_off14_inb L k 1 1)) (fun _ => rfl)).squeeze S8x128 squeezes_S1x8x128_S8x128
abbrev dM1_6 (L : grid0.Coords) (k : Fin k0_t1_loop.trips) : Memref sig .scVector .hbm S8x128 .f32 := ((oW).slice (Rect.unit (s := S50x64x16384) (k0_off15 L k 1#32 0#32) S1x8x128.size (k0_off15_inb L k 1 0)) (fun _ => rfl)).squeeze S8x128 squeezes_S1x8x128_S8x128
abbrev dM1_7 (L : grid0.Coords) (k : Fin k0_t1_loop.trips) : Memref sig .scVector .hbm S8x128 .f32 := ((oW).slice (Rect.unit (s := S50x64x16384) (k0_off15 L k 1#32 128#32) S1x8x128.size (k0_off15_inb L k 1 1)) (fun _ => rfl)).squeeze S8x128 squeezes_S1x8x128_S8x128
abbrev dM1_8 (L : grid0.Coords) (k : Fin k0_t1_loop.trips) : Memref sig .scVector .hbm S8x128 .f32 := ((oW).slice (Rect.unit (s := S50x64x16384) (k0_off16 L k 1#32 0#32) S1x8x128.size (k0_off16_inb L k 1 0)) (fun _ => rfl)).squeeze S8x128 squeezes_S1x8x128_S8x128
abbrev dM1_9 (L : grid0.Coords) (k : Fin k0_t1_loop.trips) : Memref sig .scVector .hbm S8x128 .f32 := ((oW).slice (Rect.unit (s := S50x64x16384) (k0_off16 L k 1#32 128#32) S1x8x128.size (k0_off16_inb L k 1 1)) (fun _ => rfl)).squeeze S8x128 squeezes_S1x8x128_S8x128
abbrev dM1_10 (L : grid0.Coords) (k : Fin k0_t1_loop.trips) : Memref sig .scVector .hbm S8x128 .f32 := ((oW).slice (Rect.unit (s := S50x64x16384) (k0_off17 L k 1#32 0#32) S1x8x128.size (k0_off17_inb L k 1 0)) (fun _ => rfl)).squeeze S8x128 squeezes_S1x8x128_S8x128
abbrev dM1_11 (L : grid0.Coords) (k : Fin k0_t1_loop.trips) : Memref sig .scVector .hbm S8x128 .f32 := ((oW).slice (Rect.unit (s := S50x64x16384) (k0_off17 L k 1#32 128#32) S1x8x128.size (k0_off17_inb L k 1 1)) (fun _ => rfl)).squeeze S8x128 squeezes_S1x8x128_S8x128
abbrev dM1_12 (L : grid0.Coords) (k : Fin k0_t1_loop.trips) : Memref sig .scVector .hbm S8x128 .f32 := ((oW).slice (Rect.unit (s := S50x64x16384) (k0_off18 L k 1#32 0#32) S1x8x128.size (k0_off18_inb L k 1 0)) (fun _ => rfl)).squeeze S8x128 squeezes_S1x8x128_S8x128
abbrev dM1_13 (L : grid0.Coords) (k : Fin k0_t1_loop.trips) : Memref sig .scVector .hbm S8x128 .f32 := ((oW).slice (Rect.unit (s := S50x64x16384) (k0_off18 L k 1#32 128#32) S1x8x128.size (k0_off18_inb L k 1 1)) (fun _ => rfl)).squeeze S8x128 squeezes_S1x8x128_S8x128
abbrev dM1_14 (L : grid0.Coords) (k : Fin k0_t1_loop.trips) : Memref sig .scVector .hbm S8x128 .f32 := ((oW).slice (Rect.unit (s := S50x64x16384) (k0_off19 L k 1#32 0#32) S1x8x128.size (k0_off19_inb L k 1 0)) (fun _ => rfl)).squeeze S8x128 squeezes_S1x8x128_S8x128
abbrev dM1_15 (L : grid0.Coords) (k : Fin k0_t1_loop.trips) : Memref sig .scVector .hbm S8x128 .f32 := ((oW).slice (Rect.unit (s := S50x64x16384) (k0_off19 L k 1#32 128#32) S1x8x128.size (k0_off19_inb L k 1 1)) (fun _ => rfl)).squeeze S8x128 squeezes_S1x8x128_S8x128
abbrev sM_0 : Memref sig .scVector .vmem S8x128 .f32 := (tb).slice (Rect.unit (s := S128x128) ![0, 0] S8x128.size inb_S128x128_S8x128_0_0) (fun _ => rfl)
abbrev sM_1 : Memref sig .scVector .vmem S8x128 .f32 := (tb).slice (Rect.unit (s := S128x128) ![8, 0] S8x128.size inb_S128x128_S8x128_8_0) (fun _ => rfl)
abbrev sM_2 : Memref sig .scVector .vmem S8x128 .f32 := (tb).slice (Rect.unit (s := S128x128) ![16, 0] S8x128.size inb_S128x128_S8x128_16_0) (fun _ => rfl)
abbrev sM_3 : Memref sig .scVector .vmem S8x128 .f32 := (tb).slice (Rect.unit (s := S128x128) ![24, 0] S8x128.size inb_S128x128_S8x128_24_0) (fun _ => rfl)
abbrev sM_4 : Memref sig .scVector .vmem S8x128 .f32 := (tb).slice (Rect.unit (s := S128x128) ![32, 0] S8x128.size inb_S128x128_S8x128_32_0) (fun _ => rfl)
abbrev sM_5 : Memref sig .scVector .vmem S8x128 .f32 := (tb).slice (Rect.unit (s := S128x128) ![40, 0] S8x128.size inb_S128x128_S8x128_40_0) (fun _ => rfl)
abbrev sM_6 : Memref sig .scVector .vmem S8x128 .f32 := (tb).slice (Rect.unit (s := S128x128) ![48, 0] S8x128.size inb_S128x128_S8x128_48_0) (fun _ => rfl)
abbrev sM_7 : Memref sig .scVector .vmem S8x128 .f32 := (tb).slice (Rect.unit (s := S128x128) ![56, 0] S8x128.size inb_S128x128_S8x128_56_0) (fun _ => rfl)
abbrev sM_8 : Memref sig .scVector .vmem S8x128 .f32 := (tb).slice (Rect.unit (s := S128x128) ![64, 0] S8x128.size inb_S128x128_S8x128_64_0) (fun _ => rfl)
abbrev sM_9 : Memref sig .scVector .vmem S8x128 .f32 := (tb).slice (Rect.unit (s := S128x128) ![72, 0] S8x128.size inb_S128x128_S8x128_72_0) (fun _ => rfl)
abbrev sM_10 : Memref sig .scVector .vmem S8x128 .f32 := (tb).slice (Rect.unit (s := S128x128) ![80, 0] S8x128.size inb_S128x128_S8x128_80_0) (fun _ => rfl)
abbrev sM_11 : Memref sig .scVector .vmem S8x128 .f32 := (tb).slice (Rect.unit (s := S128x128) ![88, 0] S8x128.size inb_S128x128_S8x128_88_0) (fun _ => rfl)
abbrev sM_12 : Memref sig .scVector .vmem S8x128 .f32 := (tb).slice (Rect.unit (s := S128x128) ![96, 0] S8x128.size inb_S128x128_S8x128_96_0) (fun _ => rfl)
abbrev sM_13 : Memref sig .scVector .vmem S8x128 .f32 := (tb).slice (Rect.unit (s := S128x128) ![104, 0] S8x128.size inb_S128x128_S8x128_104_0) (fun _ => rfl)
abbrev sM_14 : Memref sig .scVector .vmem S8x128 .f32 := (tb).slice (Rect.unit (s := S128x128) ![112, 0] S8x128.size inb_S128x128_S8x128_112_0) (fun _ => rfl)
abbrev sM_15 : Memref sig .scVector .vmem S8x128 .f32 := (tb).slice (Rect.unit (s := S128x128) ![120, 0] S8x128.size inb_S128x128_S8x128_120_0) (fun _ => rfl)

/-! ## What the one call hands each SparseCore and each tile, and takes back -/

abbrev xLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

theorem hdiv32 : 32 ∣ S50x64x16384.size 2 := ⟨512, rfl⟩
/-- The 512 batch columns a tile writes: part `w` of 32 along the last axis of the kernel's result. -/
abbrev colsRect (w : Fin 32) : Rect S50x64x16384 := Rect.part (s := S50x64x16384) (a₀ := 2) hdiv32 w
abbrev colsSet (w : Fin 32) : Finset S50x64x16384.Idx := (colsRect w).set
/-- Tile `i` of SparseCore `c` is worker `2 i + c`. -/
def widOf (c : Fin 2) (i : Fin 16) : Fin 32 := ⟨2 * i.val + c.val, by omega⟩

theorem nCore_zero : (K (F := F)).nCore 0 = 2 := rfl
theorem nSub_zero : (K (F := F)).nSub 0 = 16 := rfl

abbrev qC (c : Fin 2) : PosShare TreeShare := Transfers.shareTok fullShare 2 c
abbrev qT (c : Fin 2) (i : Fin 16) : PosShare TreeShare := Transfers.shareTok (qC c) 16 i

variable [FloatOps F]

/-- On a tile's columns the result holds the scaled table rows its indices name. -/
def OutOK (d : Dev nD) (Xd : Buf (Elt F) (xLoc d)) (Td : Buf (Elt F) (tLoc d)) (w : Fin 32) (f : Buf (Elt F) (oLoc d)) : Prop :=
  ∀ p ∈ colsSet w, f p = Cert.Proof.KHost.OutSpec Xd Td p

section Pay
variable (Xv : (d : Dev nD) → Buf (Elt F) (xLoc d)) (Tv : (d : Dev nD) → Buf (Elt F) (tLoc d)) (fo : (d : Dev nD) → Buf (Elt F) (oLoc d))

def P : (K (F := F)).Pay (nD := nD) (Val := Elt F) (Name := ℕ) (U := UU) where
  st := fun q d c => match q with
    | 0 => iprop((xLoc d ↦{qC (Fin.cast nCore_zero c)} Xv d) ∗ (tLoc d ↦{qC (Fin.cast nCore_zero c)} Tv d)
        ∗ bigSep Finset.univ fun i : Fin 16 => (oLoc d ↦[colsSet (widOf (Fin.cast nCore_zero c) i)]{fullShare} fo d : sProp 𝕄))
  dn := fun q d c => match q with
    | 0 => iprop((xLoc d ↦{qC (Fin.cast nCore_zero c)} Xv d) ∗ (tLoc d ↦{qC (Fin.cast nCore_zero c)} Tv d)
        ∗ bigSep Finset.univ fun i : Fin 16 => (iprop(∃ f, ⌜OutOK d (Xv d) (Tv d) (widOf (Fin.cast nCore_zero c) i) f⌝
            ∗ oLoc d ↦[colsSet (widOf (Fin.cast nCore_zero c) i)]{fullShare} f) : sProp 𝕄))
  go := fun q d c i => match q with
    | 0 => iprop((xLoc d ↦{qT (Fin.cast nCore_zero c) (Fin.cast nSub_zero i)} Xv d) ∗ (tLoc d ↦{qT (Fin.cast nCore_zero c) (Fin.cast nSub_zero i)} Tv d)
        ∗ (oLoc d ↦[colsSet (widOf (Fin.cast nCore_zero c) (Fin.cast nSub_zero i))]{fullShare} fo d))
  td := fun q d c i => match q with
    | 0 => iprop((xLoc d ↦{qT (Fin.cast nCore_zero c) (Fin.cast nSub_zero i)} Xv d) ∗ (tLoc d ↦{qT (Fin.cast nCore_zero c) (Fin.cast nSub_zero i)} Tv d)
        ∗ ∃ f, ⌜OutOK d (Xv d) (Tv d) (widOf (Fin.cast nCore_zero c) (Fin.cast nSub_zero i)) f⌝
            ∗ oLoc d ↦[colsSet (widOf (Fin.cast nCore_zero c) (Fin.cast nSub_zero i))]{fullShare} f)
  x := fun _ _ => iprop(emp)

instance P_storable : (P (F := F) Xv Tv fo).IsStorable where
  st q d c := match q with | 0 => by unfold P; infer_instance
  dn q d c := match q with | 0 => by unfold P; infer_instance
  go q d c i := match q with | 0 => by unfold P; infer_instance
  td q d c i := match q with | 0 => by unfold P; infer_instance

end Pay

abbrev deliv (d : Dev nD) (L : grid0.Coords) (dM : Memref sig .scVector .hbm S8x128 .f32) (sM : Memref sig .scVector .vmem S8x128 .f32)
    (fo : Buf (Elt F) (dM.view.loc (V d (cV L) (jV L)))) (f : Buf (Elt F) (sM.view.loc (V d (cV L) (jV L)))) : sProp 𝕄 :=
  iprop((dM.view.loc (V d (cV L) (jV L)) ↦[dM.view.set]{fullShare} dM.view.writes (Elt F) fo [⟨Rect.whole S8x128, ReadAs.same.apply (sM.view.read (Elt F) f)⟩])
    ∗ (sM.view.loc (V d (cV L) (jV L)) ↦[sM.view.set]{fullShare} f))

/-! ## The staging scratch as sixteen blocks of eight rows -/

theorem hdiv16 : 16 ∣ S128x128.size 0 := ⟨8, rfl⟩
abbrev tbPart (t : Fin 16) : Rect S128x128 := Rect.part (s := S128x128) (a₀ := 0) hdiv16 t

omit [FloatOps F] in
theorem sM_0_rect : Rect.unit (s := S128x128) ![0, 0] S8x128.size inb_S128x128_S8x128_0_0 = tbPart 0 := by
  unfold tbPart Rect.part Rect.block
  congr 1 <;> funext a <;> (match a with | 0 => simp [Shape.partIx, Shape.partSize] | 1 => simp [Shape.partIx, Shape.partSize])
omit [FloatOps F] in
theorem sM_0_set : (sM_0).view.set = (tbPart 0).set := by
  show ((View.whole (cc0_scratch4 : Ref sig .scVector)).slice (Rect.unit (s := S128x128) ![0, 0] S8x128.size inb_S128x128_S8x128_0_0)).set = _
  rw [View.set_slice, sM_0_rect]
  exact Finset.map_refl
omit [FloatOps F] in
theorem sM_1_rect : Rect.unit (s := S128x128) ![8, 0] S8x128.size inb_S128x128_S8x128_8_0 = tbPart 1 := by
  unfold tbPart Rect.part Rect.block
  congr 1 <;> funext a <;> (match a with | 0 => simp [Shape.partIx, Shape.partSize] | 1 => simp [Shape.partIx, Shape.partSize])
omit [FloatOps F] in
theorem sM_1_set : (sM_1).view.set = (tbPart 1).set := by
  show ((View.whole (cc0_scratch4 : Ref sig .scVector)).slice (Rect.unit (s := S128x128) ![8, 0] S8x128.size inb_S128x128_S8x128_8_0)).set = _
  rw [View.set_slice, sM_1_rect]
  exact Finset.map_refl
omit [FloatOps F] in
theorem sM_2_rect : Rect.unit (s := S128x128) ![16, 0] S8x128.size inb_S128x128_S8x128_16_0 = tbPart 2 := by
  unfold tbPart Rect.part Rect.block
  congr 1 <;> funext a <;> (match a with | 0 => simp [Shape.partIx, Shape.partSize] | 1 => simp [Shape.partIx, Shape.partSize])
omit [FloatOps F] in
theorem sM_2_set : (sM_2).view.set = (tbPart 2).set := by
  show ((View.whole (cc0_scratch4 : Ref sig .scVector)).slice (Rect.unit (s := S128x128) ![16, 0] S8x128.size inb_S128x128_S8x128_16_0)).set = _
  rw [View.set_slice, sM_2_rect]
  exact Finset.map_refl
omit [FloatOps F] in
theorem sM_3_rect : Rect.unit (s := S128x128) ![24, 0] S8x128.size inb_S128x128_S8x128_24_0 = tbPart 3 := by
  unfold tbPart Rect.part Rect.block
  congr 1 <;> funext a <;> (match a with | 0 => simp [Shape.partIx, Shape.partSize] | 1 => simp [Shape.partIx, Shape.partSize])
omit [FloatOps F] in
theorem sM_3_set : (sM_3).view.set = (tbPart 3).set := by
  show ((View.whole (cc0_scratch4 : Ref sig .scVector)).slice (Rect.unit (s := S128x128) ![24, 0] S8x128.size inb_S128x128_S8x128_24_0)).set = _
  rw [View.set_slice, sM_3_rect]
  exact Finset.map_refl
omit [FloatOps F] in
theorem sM_4_rect : Rect.unit (s := S128x128) ![32, 0] S8x128.size inb_S128x128_S8x128_32_0 = tbPart 4 := by
  unfold tbPart Rect.part Rect.block
  congr 1 <;> funext a <;> (match a with | 0 => simp [Shape.partIx, Shape.partSize] | 1 => simp [Shape.partIx, Shape.partSize])
omit [FloatOps F] in
theorem sM_4_set : (sM_4).view.set = (tbPart 4).set := by
  show ((View.whole (cc0_scratch4 : Ref sig .scVector)).slice (Rect.unit (s := S128x128) ![32, 0] S8x128.size inb_S128x128_S8x128_32_0)).set = _
  rw [View.set_slice, sM_4_rect]
  exact Finset.map_refl
omit [FloatOps F] in
theorem sM_5_rect : Rect.unit (s := S128x128) ![40, 0] S8x128.size inb_S128x128_S8x128_40_0 = tbPart 5 := by
  unfold tbPart Rect.part Rect.block
  congr 1 <;> funext a <;> (match a with | 0 => simp [Shape.partIx, Shape.partSize] | 1 => simp [Shape.partIx, Shape.partSize])
omit [FloatOps F] in
theorem sM_5_set : (sM_5).view.set = (tbPart 5).set := by
  show ((View.whole (cc0_scratch4 : Ref sig .scVector)).slice (Rect.unit (s := S128x128) ![40, 0] S8x128.size inb_S128x128_S8x128_40_0)).set = _
  rw [View.set_slice, sM_5_rect]
  exact Finset.map_refl
omit [FloatOps F] in
theorem sM_6_rect : Rect.unit (s := S128x128) ![48, 0] S8x128.size inb_S128x128_S8x128_48_0 = tbPart 6 := by
  unfold tbPart Rect.part Rect.block
  congr 1 <;> funext a <;> (match a with | 0 => simp [Shape.partIx, Shape.partSize] | 1 => simp [Shape.partIx, Shape.partSize])
omit [FloatOps F] in
theorem sM_6_set : (sM_6).view.set = (tbPart 6).set := by
  show ((View.whole (cc0_scratch4 : Ref sig .scVector)).slice (Rect.unit (s := S128x128) ![48, 0] S8x128.size inb_S128x128_S8x128_48_0)).set = _
  rw [View.set_slice, sM_6_rect]
  exact Finset.map_refl
omit [FloatOps F] in
theorem sM_7_rect : Rect.unit (s := S128x128) ![56, 0] S8x128.size inb_S128x128_S8x128_56_0 = tbPart 7 := by
  unfold tbPart Rect.part Rect.block
  congr 1 <;> funext a <;> (match a with | 0 => simp [Shape.partIx, Shape.partSize] | 1 => simp [Shape.partIx, Shape.partSize])
omit [FloatOps F] in
theorem sM_7_set : (sM_7).view.set = (tbPart 7).set := by
  show ((View.whole (cc0_scratch4 : Ref sig .scVector)).slice (Rect.unit (s := S128x128) ![56, 0] S8x128.size inb_S128x128_S8x128_56_0)).set = _
  rw [View.set_slice, sM_7_rect]
  exact Finset.map_refl
omit [FloatOps F] in
theorem sM_8_rect : Rect.unit (s := S128x128) ![64, 0] S8x128.size inb_S128x128_S8x128_64_0 = tbPart 8 := by
  unfold tbPart Rect.part Rect.block
  congr 1 <;> funext a <;> (match a with | 0 => simp [Shape.partIx, Shape.partSize] | 1 => simp [Shape.partIx, Shape.partSize])
omit [FloatOps F] in
theorem sM_8_set : (sM_8).view.set = (tbPart 8).set := by
  show ((View.whole (cc0_scratch4 : Ref sig .scVector)).slice (Rect.unit (s := S128x128) ![64, 0] S8x128.size inb_S128x128_S8x128_64_0)).set = _
  rw [View.set_slice, sM_8_rect]
  exact Finset.map_refl
omit [FloatOps F] in
theorem sM_9_rect : Rect.unit (s := S128x128) ![72, 0] S8x128.size inb_S128x128_S8x128_72_0 = tbPart 9 := by
  unfold tbPart Rect.part Rect.block
  congr 1 <;> funext a <;> (match a with | 0 => simp [Shape.partIx, Shape.partSize] | 1 => simp [Shape.partIx, Shape.partSize])
omit [FloatOps F] in
theorem sM_9_set : (sM_9).view.set = (tbPart 9).set := by
  show ((View.whole (cc0_scratch4 : Ref sig .scVector)).slice (Rect.unit (s := S128x128) ![72, 0] S8x128.size inb_S128x128_S8x128_72_0)).set = _
  rw [View.set_slice, sM_9_rect]
  exact Finset.map_refl
omit [FloatOps F] in
theorem sM_10_rect : Rect.unit (s := S128x128) ![80, 0] S8x128.size inb_S128x128_S8x128_80_0 = tbPart 10 := by
  unfold tbPart Rect.part Rect.block
  congr 1 <;> funext a <;> (match a with | 0 => simp [Shape.partIx, Shape.partSize] | 1 => simp [Shape.partIx, Shape.partSize])
omit [FloatOps F] in
theorem sM_10_set : (sM_10).view.set = (tbPart 10).set := by
  show ((View.whole (cc0_scratch4 : Ref sig .scVector)).slice (Rect.unit (s := S128x128) ![80, 0] S8x128.size inb_S128x128_S8x128_80_0)).set = _
  rw [View.set_slice, sM_10_rect]
  exact Finset.map_refl
omit [FloatOps F] in
theorem sM_11_rect : Rect.unit (s := S128x128) ![88, 0] S8x128.size inb_S128x128_S8x128_88_0 = tbPart 11 := by
  unfold tbPart Rect.part Rect.block
  congr 1 <;> funext a <;> (match a with | 0 => simp [Shape.partIx, Shape.partSize] | 1 => simp [Shape.partIx, Shape.partSize])
omit [FloatOps F] in
theorem sM_11_set : (sM_11).view.set = (tbPart 11).set := by
  show ((View.whole (cc0_scratch4 : Ref sig .scVector)).slice (Rect.unit (s := S128x128) ![88, 0] S8x128.size inb_S128x128_S8x128_88_0)).set = _
  rw [View.set_slice, sM_11_rect]
  exact Finset.map_refl
omit [FloatOps F] in
theorem sM_12_rect : Rect.unit (s := S128x128) ![96, 0] S8x128.size inb_S128x128_S8x128_96_0 = tbPart 12 := by
  unfold tbPart Rect.part Rect.block
  congr 1 <;> funext a <;> (match a with | 0 => simp [Shape.partIx, Shape.partSize] | 1 => simp [Shape.partIx, Shape.partSize])
omit [FloatOps F] in
theorem sM_12_set : (sM_12).view.set = (tbPart 12).set := by
  show ((View.whole (cc0_scratch4 : Ref sig .scVector)).slice (Rect.unit (s := S128x128) ![96, 0] S8x128.size inb_S128x128_S8x128_96_0)).set = _
  rw [View.set_slice, sM_12_rect]
  exact Finset.map_refl
omit [FloatOps F] in
theorem sM_13_rect : Rect.unit (s := S128x128) ![104, 0] S8x128.size inb_S128x128_S8x128_104_0 = tbPart 13 := by
  unfold tbPart Rect.part Rect.block
  congr 1 <;> funext a <;> (match a with | 0 => simp [Shape.partIx, Shape.partSize] | 1 => simp [Shape.partIx, Shape.partSize])
omit [FloatOps F] in
theorem sM_13_set : (sM_13).view.set = (tbPart 13).set := by
  show ((View.whole (cc0_scratch4 : Ref sig .scVector)).slice (Rect.unit (s := S128x128) ![104, 0] S8x128.size inb_S128x128_S8x128_104_0)).set = _
  rw [View.set_slice, sM_13_rect]
  exact Finset.map_refl
omit [FloatOps F] in
theorem sM_14_rect : Rect.unit (s := S128x128) ![112, 0] S8x128.size inb_S128x128_S8x128_112_0 = tbPart 14 := by
  unfold tbPart Rect.part Rect.block
  congr 1 <;> funext a <;> (match a with | 0 => simp [Shape.partIx, Shape.partSize] | 1 => simp [Shape.partIx, Shape.partSize])
omit [FloatOps F] in
theorem sM_14_set : (sM_14).view.set = (tbPart 14).set := by
  show ((View.whole (cc0_scratch4 : Ref sig .scVector)).slice (Rect.unit (s := S128x128) ![112, 0] S8x128.size inb_S128x128_S8x128_112_0)).set = _
  rw [View.set_slice, sM_14_rect]
  exact Finset.map_refl
omit [FloatOps F] in
theorem sM_15_rect : Rect.unit (s := S128x128) ![120, 0] S8x128.size inb_S128x128_S8x128_120_0 = tbPart 15 := by
  unfold tbPart Rect.part Rect.block
  congr 1 <;> funext a <;> (match a with | 0 => simp [Shape.partIx, Shape.partSize] | 1 => simp [Shape.partIx, Shape.partSize])
omit [FloatOps F] in
theorem sM_15_set : (sM_15).view.set = (tbPart 15).set := by
  show ((View.whole (cc0_scratch4 : Ref sig .scVector)).slice (Rect.unit (s := S128x128) ![120, 0] S8x128.size inb_S128x128_S8x128_120_0)).set = _
  rw [View.set_slice, sM_15_rect]
  exact Finset.map_refl

omit [FloatOps F] in
theorem sM_0_pts (d : Dev nD) (L : grid0.Coords) (f : Buf (Elt F) ((V d (cV L) (jV L)).loc cc0_scratch4)) :
    (((sM_0).view.loc (V d (cV L) (jV L)) ↦[(sM_0).view.set]{fullShare} f : sProp 𝕄)) = ((V d (cV L) (jV L)).loc cc0_scratch4 ↦[(tbPart 0).set]{fullShare} f) := by
  rw [sM_0_set]
omit [FloatOps F] in
theorem sM_1_pts (d : Dev nD) (L : grid0.Coords) (f : Buf (Elt F) ((V d (cV L) (jV L)).loc cc0_scratch4)) :
    (((sM_1).view.loc (V d (cV L) (jV L)) ↦[(sM_1).view.set]{fullShare} f : sProp 𝕄)) = ((V d (cV L) (jV L)).loc cc0_scratch4 ↦[(tbPart 1).set]{fullShare} f) := by
  rw [sM_1_set]
omit [FloatOps F] in
theorem sM_2_pts (d : Dev nD) (L : grid0.Coords) (f : Buf (Elt F) ((V d (cV L) (jV L)).loc cc0_scratch4)) :
    (((sM_2).view.loc (V d (cV L) (jV L)) ↦[(sM_2).view.set]{fullShare} f : sProp 𝕄)) = ((V d (cV L) (jV L)).loc cc0_scratch4 ↦[(tbPart 2).set]{fullShare} f) := by
  rw [sM_2_set]
omit [FloatOps F] in
theorem sM_3_pts (d : Dev nD) (L : grid0.Coords) (f : Buf (Elt F) ((V d (cV L) (jV L)).loc cc0_scratch4)) :
    (((sM_3).view.loc (V d (cV L) (jV L)) ↦[(sM_3).view.set]{fullShare} f : sProp 𝕄)) = ((V d (cV L) (jV L)).loc cc0_scratch4 ↦[(tbPart 3).set]{fullShare} f) := by
  rw [sM_3_set]
omit [FloatOps F] in
theorem sM_4_pts (d : Dev nD) (L : grid0.Coords) (f : Buf (Elt F) ((V d (cV L) (jV L)).loc cc0_scratch4)) :
    (((sM_4).view.loc (V d (cV L) (jV L)) ↦[(sM_4).view.set]{fullShare} f : sProp 𝕄)) = ((V d (cV L) (jV L)).loc cc0_scratch4 ↦[(tbPart 4).set]{fullShare} f) := by
  rw [sM_4_set]
omit [FloatOps F] in
theorem sM_5_pts (d : Dev nD) (L : grid0.Coords) (f : Buf (Elt F) ((V d (cV L) (jV L)).loc cc0_scratch4)) :
    (((sM_5).view.loc (V d (cV L) (jV L)) ↦[(sM_5).view.set]{fullShare} f : sProp 𝕄)) = ((V d (cV L) (jV L)).loc cc0_scratch4 ↦[(tbPart 5).set]{fullShare} f) := by
  rw [sM_5_set]
omit [FloatOps F] in
theorem sM_6_pts (d : Dev nD) (L : grid0.Coords) (f : Buf (Elt F) ((V d (cV L) (jV L)).loc cc0_scratch4)) :
    (((sM_6).view.loc (V d (cV L) (jV L)) ↦[(sM_6).view.set]{fullShare} f : sProp 𝕄)) = ((V d (cV L) (jV L)).loc cc0_scratch4 ↦[(tbPart 6).set]{fullShare} f) := by
  rw [sM_6_set]
omit [FloatOps F] in
theorem sM_7_pts (d : Dev nD) (L : grid0.Coords) (f : Buf (Elt F) ((V d (cV L) (jV L)).loc cc0_scratch4)) :
    (((sM_7).view.loc (V d (cV L) (jV L)) ↦[(sM_7).view.set]{fullShare} f : sProp 𝕄)) = ((V d (cV L) (jV L)).loc cc0_scratch4 ↦[(tbPart 7).set]{fullShare} f) := by
  rw [sM_7_set]
omit [FloatOps F] in
theorem sM_8_pts (d : Dev nD) (L : grid0.Coords) (f : Buf (Elt F) ((V d (cV L) (jV L)).loc cc0_scratch4)) :
    (((sM_8).view.loc (V d (cV L) (jV L)) ↦[(sM_8).view.set]{fullShare} f : sProp 𝕄)) = ((V d (cV L) (jV L)).loc cc0_scratch4 ↦[(tbPart 8).set]{fullShare} f) := by
  rw [sM_8_set]
omit [FloatOps F] in
theorem sM_9_pts (d : Dev nD) (L : grid0.Coords) (f : Buf (Elt F) ((V d (cV L) (jV L)).loc cc0_scratch4)) :
    (((sM_9).view.loc (V d (cV L) (jV L)) ↦[(sM_9).view.set]{fullShare} f : sProp 𝕄)) = ((V d (cV L) (jV L)).loc cc0_scratch4 ↦[(tbPart 9).set]{fullShare} f) := by
  rw [sM_9_set]
omit [FloatOps F] in
theorem sM_10_pts (d : Dev nD) (L : grid0.Coords) (f : Buf (Elt F) ((V d (cV L) (jV L)).loc cc0_scratch4)) :
    (((sM_10).view.loc (V d (cV L) (jV L)) ↦[(sM_10).view.set]{fullShare} f : sProp 𝕄)) = ((V d (cV L) (jV L)).loc cc0_scratch4 ↦[(tbPart 10).set]{fullShare} f) := by
  rw [sM_10_set]
omit [FloatOps F] in
theorem sM_11_pts (d : Dev nD) (L : grid0.Coords) (f : Buf (Elt F) ((V d (cV L) (jV L)).loc cc0_scratch4)) :
    (((sM_11).view.loc (V d (cV L) (jV L)) ↦[(sM_11).view.set]{fullShare} f : sProp 𝕄)) = ((V d (cV L) (jV L)).loc cc0_scratch4 ↦[(tbPart 11).set]{fullShare} f) := by
  rw [sM_11_set]
omit [FloatOps F] in
theorem sM_12_pts (d : Dev nD) (L : grid0.Coords) (f : Buf (Elt F) ((V d (cV L) (jV L)).loc cc0_scratch4)) :
    (((sM_12).view.loc (V d (cV L) (jV L)) ↦[(sM_12).view.set]{fullShare} f : sProp 𝕄)) = ((V d (cV L) (jV L)).loc cc0_scratch4 ↦[(tbPart 12).set]{fullShare} f) := by
  rw [sM_12_set]
omit [FloatOps F] in
theorem sM_13_pts (d : Dev nD) (L : grid0.Coords) (f : Buf (Elt F) ((V d (cV L) (jV L)).loc cc0_scratch4)) :
    (((sM_13).view.loc (V d (cV L) (jV L)) ↦[(sM_13).view.set]{fullShare} f : sProp 𝕄)) = ((V d (cV L) (jV L)).loc cc0_scratch4 ↦[(tbPart 13).set]{fullShare} f) := by
  rw [sM_13_set]
omit [FloatOps F] in
theorem sM_14_pts (d : Dev nD) (L : grid0.Coords) (f : Buf (Elt F) ((V d (cV L) (jV L)).loc cc0_scratch4)) :
    (((sM_14).view.loc (V d (cV L) (jV L)) ↦[(sM_14).view.set]{fullShare} f : sProp 𝕄)) = ((V d (cV L) (jV L)).loc cc0_scratch4 ↦[(tbPart 14).set]{fullShare} f) := by
  rw [sM_14_set]
omit [FloatOps F] in
theorem sM_15_pts (d : Dev nD) (L : grid0.Coords) (f : Buf (Elt F) ((V d (cV L) (jV L)).loc cc0_scratch4)) :
    (((sM_15).view.loc (V d (cV L) (jV L)) ↦[(sM_15).view.set]{fullShare} f : sProp 𝕄)) = ((V d (cV L) (jV L)).loc cc0_scratch4 ↦[(tbPart 15).set]{fullShare} f) := by
  rw [sM_15_set]

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [SparseCore.bigSep_insert' (by decide)]
  rw [bigSep_singleton]

omit [FloatOps F] in
theorem tb_parts (d : Dev nD) (L : grid0.Coords) (f : Buf (Elt F) ((V d (cV L) (jV L)).loc cc0_scratch4)) :
    (((tb).view.loc (V d (cV L) (jV L)) ↦{fullShare} f : sProp 𝕄))
      = bigSep Finset.univ (fun t : Fin 16 => ((V d (cV L) (jV L)).loc cc0_scratch4 ↦[(tbPart t).set]{fullShare} f : sProp 𝕄)) := by
  rw [← pointsTo_biUnion Finset.univ (ℓ := (V d (cV L) (jV L)).loc cc0_scratch4) (fun t => (tbPart t).set) (fun i _ j _ h => Rect.part_disjoint hdiv16 h),
    Rect.biUnion_part hdiv16]

omit [FloatOps F] in
set_option maxHeartbeats 1600000 in
/-- The scratch held whole is its sixteen blocks, each by exactly its own elements. -/
theorem tb_blocks (d : Dev nD) (L : grid0.Coords) (f : Buf (Elt F) ((V d (cV L) (jV L)).loc cc0_scratch4)) :
    (((tb).view.loc (V d (cV L) (jV L)) ↦{fullShare} f : sProp 𝕄))
      = iprop(((sM_0).view.loc (V d (cV L) (jV L)) ↦[(sM_0).view.set]{fullShare} f)
        ∗ ((sM_1).view.loc (V d (cV L) (jV L)) ↦[(sM_1).view.set]{fullShare} f)
        ∗ ((sM_2).view.loc (V d (cV L) (jV L)) ↦[(sM_2).view.set]{fullShare} f)
        ∗ ((sM_3).view.loc (V d (cV L) (jV L)) ↦[(sM_3).view.set]{fullShare} f)
        ∗ ((sM_4).view.loc (V d (cV L) (jV L)) ↦[(sM_4).view.set]{fullShare} f)
        ∗ ((sM_5).view.loc (V d (cV L) (jV L)) ↦[(sM_5).view.set]{fullShare} f)
        ∗ ((sM_6).view.loc (V d (cV L) (jV L)) ↦[(sM_6).view.set]{fullShare} f)
        ∗ ((sM_7).view.loc (V d (cV L) (jV L)) ↦[(sM_7).view.set]{fullShare} f)
        ∗ ((sM_8).view.loc (V d (cV L) (jV L)) ↦[(sM_8).view.set]{fullShare} f)
        ∗ ((sM_9).view.loc (V d (cV L) (jV L)) ↦[(sM_9).view.set]{fullShare} f)
        ∗ ((sM_10).view.loc (V d (cV L) (jV L)) ↦[(sM_10).view.set]{fullShare} f)
        ∗ ((sM_11).view.loc (V d (cV L) (jV L)) ↦[(sM_11).view.set]{fullShare} f)
        ∗ ((sM_12).view.loc (V d (cV L) (jV L)) ↦[(sM_12).view.set]{fullShare} f)
        ∗ ((sM_13).view.loc (V d (cV L) (jV L)) ↦[(sM_13).view.set]{fullShare} f)
        ∗ ((sM_14).view.loc (V d (cV L) (jV L)) ↦[(sM_14).view.set]{fullShare} f)
        ∗ ((sM_15).view.loc (V d (cV L) (jV L)) ↦[(sM_15).view.set]{fullShare} f)) := by
  rw [tb_parts, bigSep_fin16, sM_0_pts, sM_1_pts, sM_2_pts, sM_3_pts, sM_4_pts, sM_5_pts, sM_6_pts, sM_7_pts, sM_8_pts, sM_9_pts, sM_10_pts, sM_11_pts, sM_12_pts, sM_13_pts, sM_14_pts, sM_15_pts]

def invIn0 (d : Dev nD) (L : grid0.Coords) (_ : Nat) (_ : PUnit) : sProp 𝕄 :=
  iprop((∃ G, ((r0).view.loc (V d (cV L) (jV L)) ↦{fullShare} G)) ∗ ∃ f, ((tb).view.loc (V d (cV L) (jV L)) ↦{fullShare} f))
def invIn1 (d : Dev nD) (L : grid0.Coords) (_ : Nat) (_ : PUnit) : sProp 𝕄 :=
  iprop((∃ G, ((r1).view.loc (V d (cV L) (jV L)) ↦{fullShare} G)) ∗ ∃ f, ((tb).view.loc (V d (cV L) (jV L)) ↦{fullShare} f))

end Cert.Proof.K
end
-- ==== Proof.KPre.lean ====
/-
  The index half of the precondition, for any float values.

  The precondition is the conjunction of two "all" reductions: every table entry finite, and every index between 0 and
  999999 read signed. The second does not look at the floats. For a 32-bit word, lying in 0 … 999999 read signed is
  the same as being below 1000000 read unsigned.
-/
import proofs.«206429_g47863115546636_cont_8to1c4_619_32_alg».proof.Proof.Gen.Pre_input_domain
import Idealize.ShloMosaic.Lib.ValueIdx
import Idealize.ShloMosaic.Lib.ReduceAll

noncomputable section

namespace Cert.Proof.KPre

open Idealize.ShloMosaic Idealize.ShloMosaic.ValueIdx

variable {F : FTy → Type} [FloatOps F]

/-- A word whose signed reading lies in 0 … 999999 is, read unsigned, below 1000000. -/
theorem toNat_lt_of_toInt {v : BitVec 32} (h0 : 0 ≤ v.toInt) (h1 : v.toInt ≤ 999999) : v.toNat < 1000000 := by
  have hc := BitVec.toInt_eq_toNat_cond v
  have hlt := v.isLt
  split_ifs at hc <;> omega

/-- Under the precondition every index, read unsigned, is below the table's height. -/
theorem pre_idx_gen (x : IVec Cert.Pre_input_domain.S16384x50 32) (tbl : FVec F Cert.Pre_input_domain.S1000000x64 .f32)
    (hpre : Cert.Pre_input_domain.fn (F := F) x tbl = (fun _ => 1#1)) (j : Cert.Pre_input_domain.S16384x50.Idx) :
    (x j).toNat < 1000000 := by
  have h0 := congrFun hpre ix0
  dsimp only [Cert.Pre_input_domain.fn] at h0
  have h1 := (IntOp.andi_eq_one.mp h0).2
  have h2 := Host.reduce_andi_eq_one _ _ _ _ _ h1 j (funext fun d => d.elim0)
  have h3 : IntOp.andi (IntOp.cmpi .sge (x j) 0#32) (IntOp.cmpi .sle (x j) 999999#32) = 1#1 := h2
  rw [IntOp.andi_eq_one, IntOp.cmpi_sge, IntOp.cmpi_sle, show (0#32 : BitVec 32).toInt = 0 from by decide,
    show (999999#32 : BitVec 32).toInt = 999999 from by decide] at h3
  exact toNat_lt_of_toInt h3.1 h3.2

end Cert.Proof.KPre

end
-- ==== Proof.KLaunch.lean ====
/-
  The launch of the one SparseCore call.

  The call runs on two SparseCores of sixteen tiles each: thirty-two workers, worker 2 i + c being tile i of
  SparseCore c, each writing its own 512 batch columns of the result [50, 64, 16384] (the last axis cut in
  thirty-two equal parts). The TensorCore holds the flattened index list and the padded table whole; it hands
  each SparseCore a read share of both (the full share cut in two tokens, the remainder kept) and that
  SparseCore's sixteen column blocks of the result; a SparseCore cuts its shares once more into sixteen tokens,
  one per tile, and hands each tile its own block. A tile returns its tokens and its block, now holding on those
  columns what the call is specified to compute; the blocks are disjoint and cover the array, so joined they are
  the whole result at the specified function, and the tokens rejoin to the whole index list and table.

  Around the call the TensorCore runs the program's host operations: before it the transpose and flattening of
  the index array and the padding of the table, after it the transpose of the result. Its buffers are all held
  whole throughout, so each stretch of host operations is the fold of the operations over the held valuation.
-/
import proofs.«206429_g47863115546636_cont_8to1c4_619_32_alg».proof.Proof.KDefs
import proofs.«206429_g47863115546636_cont_8to1c4_619_32_alg».proof.Proof.KPre

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch's facts -/

/-- The four launch semaphores are distinct where they must be and unscoped, no SparseCore buffer is reassigned per
    task, and the call has one body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable [FloatOps F]

section Split
variable (Xv : (d : Dev nD) → Buf (Elt F) (xLoc d)) (Tv : (d : Dev nD) → Buf (Elt F) (tLoc d)) (fo : (d : Dev nD) → Buf (Elt F) (oLoc d))

/-! ## A SparseCore's operands among its sixteen tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's read share of the index list and of the table is cut into sixteen tokens, one per tile, the
    remainder kept and put back when the tiles' tokens return; its sixteen column blocks of the result go one to
    each tile and come back with what the tile wrote. -/
theorem vecSplit : (K (F := F)).VecSplit' (P Xv Tv fo) 0 := by
  intro d c
  show iprop((xLoc d ↦{qC (Fin.cast nCore_zero c)} Xv d) ∗ (tLoc d ↦{qC (Fin.cast nCore_zero c)} Tv d)
        ∗ bigSep Finset.univ fun i : Fin 16 => (oLoc d ↦[colsSet (widOf (Fin.cast nCore_zero c) i)]{fullShare} fo d : sProp 𝕄))
      ⊢ |={Set.univ}=> iprop(
        (bigSep Finset.univ fun i : Fin ((K (F := F)).nSub 0) =>
          iprop((xLoc d ↦{qT (Fin.cast nCore_zero c) (Fin.cast nSub_zero i)} Xv d) ∗ (tLoc d ↦{qT (Fin.cast nCore_zero c) (Fin.cast nSub_zero i)} Tv d)
            ∗ (oLoc d ↦[colsSet (widOf (Fin.cast nCore_zero c) (Fin.cast nSub_zero i))]{fullShare} fo d)))
        ∗ ((bigSep Finset.univ fun i : Fin ((K (F := F)).nSub 0) =>
            iprop((xLoc d ↦{qT (Fin.cast nCore_zero c) (Fin.cast nSub_zero i)} Xv d) ∗ (tLoc d ↦{qT (Fin.cast nCore_zero c) (Fin.cast nSub_zero i)} Tv d)
              ∗ ∃ f, ⌜OutOK d (Xv d) (Tv d) (widOf (Fin.cast nCore_zero c) (Fin.cast nSub_zero i)) f⌝
                ∗ oLoc d ↦[colsSet (widOf (Fin.cast nCore_zero c) (Fin.cast nSub_zero i))]{fullShare} f))
          -∗ iprop((xLoc d ↦{qC (Fin.cast nCore_zero c)} Xv d) ∗ (tLoc d ↦{qC (Fin.cast nCore_zero c)} Tv d)
            ∗ bigSep Finset.univ fun i : Fin 16 => (iprop(∃ f, ⌜OutOK d (Xv d) (Tv d) (widOf (Fin.cast nCore_zero c) i) f⌝
                ∗ oLoc d ↦[colsSet (widOf (Fin.cast nCore_zero c) i)]{fullShare} f) : sProp 𝕄))))
  generalize Fin.cast nCore_zero c = c'
  rw [bigSep_tasks (F := F) (fun i => iprop((xLoc d ↦{qT c' i} Xv d) ∗ (tLoc d ↦{qT c' i} Tv d) ∗ (oLoc d ↦[colsSet (widOf c' i)]{fullShare} fo d))),
    bigSep_tasks (F := F) (fun i => iprop((xLoc d ↦{qT c' i} Xv d) ∗ (tLoc d ↦{qT c' i} Tv d)
      ∗ ∃ f, ⌜OutOK d (Xv d) (Tv d) (widOf c' i) f⌝ ∗ oLoc d ↦[colsSet (widOf c' i)]{fullShare} f)),
    bigSep_sep', bigSep_sep', bigSep_sep', bigSep_sep']
  iintro ⟨HX, HT, HO⟩
  ihave HX' := (Transfers.pointsTo_toks_split (qC c') 16) $$ HX
  icases HX' with ⟨HXd, HXs⟩
  ihave HT' := (Transfers.pointsTo_toks_split (qC c') 16) $$ HT
  icases HT' with ⟨HTd, HTs⟩
  imodintro
  isplitl [HXs HTs HO]
  · isplitl [HXs]; · iexact HXs
    isplitl [HTs]; · iexact HTs
    iexact HO
  iintro ⟨HXs, HTs, HO⟩
  isplitl [HXd HXs]
  · iapply (Transfers.pointsTo_toks_join (qC c') 16)
    isplitl [HXd]; · iexact HXd
    iexact HXs
  isplitl [HTd HTs]
  · iapply (Transfers.pointsTo_toks_join (qC c') 16)
    isplitl [HTd]; · iexact HTd
    iexact HTs
  iexact HO

/-! ## The launch element: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Xv Tv fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Split

/-! ## @main on the TensorCore -/

section Main
variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v4

/-- What the call is handed: the flattened index list and the padded table computed from the launch contents of the
    two arguments, and the result array as the launch left it. -/
def Xv (d : Dev nD) : Buf (Elt F) (xLoc d) := Cert.Proof.KHost.Xflat (m (a0Loc d))
def Tv (d : Dev nD) : Buf (Elt F) (tLoc d) := Cert.Proof.KHost.Tpad (m (a1Loc d))
def fo (d : Dev nD) : Buf (Elt F) (oLoc d) := m (oLoc d)

/-! ### The TensorCore's nine arrays, held whole -/

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev x' : DevRef τ sig := Proc.devRef .tc (main_v1 : Ref sig .tc)
abbrev c0' : DevRef τ sig := Proc.devRef .tc (main_c : Ref sig .tc)
abbrev p0' : DevRef τ sig := Proc.devRef .tc (main_call0_v0 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev S9 : Finset (DevRef τ sig) := {a0', a1', w0', x', c0', p0', t', o', r'}

omit [FloatOps F] in
theorem held_S9 (d : Dev nD) (W : Valuation τ sig (Elt F)) :
    (held (T d) S9 W : sProp 𝕄) = iprop((a0Loc d ↦{fullShare} W a0') ∗ (a1Loc d ↦{fullShare} W a1')
      ∗ ((SparseCore.T d).loc main_v0 ↦{fullShare} W w0') ∗ (xLoc d ↦{fullShare} W x') ∗ ((SparseCore.T d).loc main_c ↦{fullShare} W c0')
      ∗ ((SparseCore.T d).loc main_call0_v0 ↦{fullShare} W p0') ∗ (tLoc d ↦{fullShare} W t') ∗ (oLoc d ↦{fullShare} W o')
      ∗ (rLoc d ↦{fullShare} W r')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ ((SparseCore.T d).loc main_v0 ↦{fullShare} W main_v0) ∗ (xLoc d ↦{fullShare} W main_v1) ∗ ((SparseCore.T d).loc main_c ↦{fullShare} W main_c)
      ∗ ((SparseCore.T d).loc main_call0_v0 ↦{fullShare} W main_call0_v0) ∗ (tLoc d ↦{fullShare} W main_v2) ∗ (oLoc d ↦{fullShare} W main_v3)
      ∗ (rLoc d ↦{fullShare} W main_v4)) := by
  unfold unscopedBufs
  rw [show (Finset.univ.filter fun b : Ref sig .tc => ¬ b.isScoped)
      = {main_arg0, main_arg1, main_v0, main_v1, main_c, main_call0_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S9 (V0 m d) := by
  rw [unscopedBufs_eq, held_S9]; rfl

/-! ### The program as two stretches of host operations around the call -/

/-- The five host operations before the call: the transpose and flattening of the index array, the constant 0, and
    the padding function's conversion and pad. -/
abbrev pre : List (HloOp τ sig (Elt F)) :=
  [ StableHlo.unary main_arg0 main_v0 ((transpose S50x16384 [1, 0] · transposes_S16384x50_S50x16384_1_0) : (⟨S16384x50, .i32⟩ : BufTy).Contents (Elt F) → (⟨S50x16384, .i32⟩ : BufTy).Contents (Elt F)),
    StableHlo.reshape main_v0 main_v1 rfl shapeCasts_S50x16384_S819200,
    StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1000000x64, .f32⟩) main_call0.v0 main_call0.v1
      (fun x v => pad S1000000x128 ![0, 0] ![0, 64] ![0, 0] x v pads_S1000000x64_S1000000x128_000_0640 h_S_) ]

/-- The one host operation after the call: the transpose of its result. -/
abbrev opOut : HloOp τ sig (Elt F) :=
  StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F))

set_option maxRecDepth 1024 in
theorem main_eq (d : Dev nD) :
    main (F := F) d = (StableHlo.seq pre >>= fun _ => (K (F := F)).run d 0 >>= fun _ => StableHlo.seq [opOut] >>= fun _ => pure ⟨⟩) := by
  simp only [main, fn_pad.body, StableHlo.seq, bind_assoc, pure_bind]

theorem hpre_sub : ∀ op ∈ (pre : List (HloOp τ sig (Elt F))), op.bufs ⊆ S9 := by
  intro op h
  simp only [List.mem_cons, List.not_mem_nil, or_false] at h
  rcases h with rfl | rfl | rfl | rfl | rfl
  · rw [StableHlo.unary_bufs]; decide
  · rw [StableHlo.reshape_bufs]; decide
  · rw [StableHlo.nullary_bufs]; decide
  · rw [StableHlo.unary_bufs]; decide
  · rw [StableHlo.binary_bufs]; decide
theorem hpre_fresh : ∀ op ∈ (pre : List (HloOp τ sig (Elt F))), op.fresh = ∅ := by
  intro op h
  simp only [List.mem_cons, List.not_mem_nil, or_false] at h
  rcases h with rfl | rfl | rfl | rfl | rfl <;> rfl
theorem hout_sub : ∀ op ∈ ([opOut] : List (HloOp τ sig (Elt F))), op.bufs ⊆ S9 := by
  intro op h
  rw [List.mem_singleton] at h
  subst h
  rw [StableHlo.unary_bufs]; decide
theorem hout_fresh : ∀ op ∈ ([opOut] : List (HloOp τ sig (Elt F))), op.fresh = ∅ := by
  intro op h
  rw [List.mem_singleton] at h
  subst h; rfl

/-- A typed reference's two transports cancel. -/
theorem tref_ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-! The fold of the first stretch at the buffers that matter: the index list and the padded table are the pure
    functions of the arguments, the arguments and the result array are untouched. -/
theorem pre_x (W : Valuation τ sig (Elt F)) : StableHlo.after pre W x' = Cert.Proof.KHost.Xflat (W a0') := by
  after_results; rfl
theorem pre_t (W : Valuation τ sig (Elt F)) : StableHlo.after pre W t' = Cert.Proof.KHost.Tpad (W a1') := by
  unfold Cert.Proof.KHost.Tpad; after_results; simp only [tref_ofBuf_toBuf]; first | done | rfl
theorem pre_a0 (W : Valuation τ sig (Elt F)) : StableHlo.after pre W a0' = W a0' := by
  after_results; first | done | rfl
theorem pre_a1 (W : Valuation τ sig (Elt F)) : StableHlo.after pre W a1' = W a1' := by
  after_results; first | done | rfl
theorem pre_o (W : Valuation τ sig (Elt F)) : StableHlo.after pre W o' = W o' := by
  after_results; first | done | rfl

/-! ### The result array as thirty-two column blocks, two SparseCores of sixteen -/

omit [FloatOps F] in
theorem cols_disjoint : ∀ w ∈ (Finset.univ : Finset (Fin 32)), ∀ w' ∈ (Finset.univ : Finset (Fin 32)), w ≠ w' → Disjoint (colsSet w) (colsSet w') :=
  fun _ _ _ _ h => Rect.part_disjoint hdiv32 h
omit [FloatOps F] in
theorem cols_cover : (Finset.univ : Finset (Fin 32)).biUnion colsSet = Finset.univ := Rect.biUnion_part hdiv32

omit [FloatOps F] in
theorem oPts_cols (d : Dev nD) (f : Buf (Elt F) (oLoc d)) :
    (oLoc d ↦{fullShare} f : sProp 𝕄) = bigSep Finset.univ fun w : Fin 32 => oLoc d ↦[colsSet w]{fullShare} f := by
  rw [← pointsTo_biUnion Finset.univ (ℓ := oLoc d) colsSet cols_disjoint, cols_cover]

omit [FloatOps F] in
/-- Worker 2 i + c is tile i of SparseCore c: the thirty-two workers are the two SparseCores' sixteen tiles. -/
theorem regroup (Φ : Fin 32 → sProp 𝕄) :
    bigSep Finset.univ Φ = bigSep Finset.univ fun c : Fin 2 => bigSep Finset.univ fun i : Fin 16 => Φ (widOf c i) := by
  have himg : ((Finset.univ : Finset (Fin 2)) ×ˢ (Finset.univ : Finset (Fin 16))).image (fun p => widOf p.1 p.2) = Finset.univ := by decide
  have hinj : Function.Injective (fun p : Fin 2 × Fin 16 => widOf p.1 p.2) := by decide
  rw [← himg, Idealize.ShloMosaic.SparseCore.bigSep_image_of_injOn hinj.injOn, Idealize.ShloMosaic.SparseCore.bigSep_product]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Call
variable (Xw : (d : Dev nD) → Buf (Elt F) (xLoc d)) (Tw : (d : Dev nD) → Buf (Elt F) (tLoc d)) (fw : (d : Dev nD) → Buf (Elt F) (oLoc d))

/-- What the call takes for the two SparseCores. -/
theorem st0_eq (d : Dev nD) : (bigSep Finset.univ fun c : Fin ((K (F := F)).nCore 0) => (P Xw Tw fw).st 0 d c)
    = iprop((bigSep Finset.univ fun c : Fin 2 => (xLoc d ↦{qC c} Xw d : sProp 𝕄)) ∗ (bigSep Finset.univ fun c : Fin 2 => (tLoc d ↦{qC c} Tw d : sProp 𝕄))
        ∗ bigSep Finset.univ fun c : Fin 2 => bigSep Finset.univ fun i : Fin 16 => (oLoc d ↦[colsSet (widOf c i)]{fullShare} fw d : sProp 𝕄)) := by
  show (bigSep Finset.univ fun c : Fin ((K (F := F)).nCore 0) =>
      iprop((xLoc d ↦{qC (Fin.cast nCore_zero c)} Xw d) ∗ (tLoc d ↦{qC (Fin.cast nCore_zero c)} Tw d)
        ∗ bigSep Finset.univ fun i : Fin 16 => (oLoc d ↦[colsSet (widOf (Fin.cast nCore_zero c) i)]{fullShare} fw d : sProp 𝕄))) = _
  rw [bigSep_cores (F := F) (fun c' => iprop((xLoc d ↦{qC c'} Xw d) ∗ (tLoc d ↦{qC c'} Tw d)
        ∗ bigSep Finset.univ fun i : Fin 16 => (oLoc d ↦[colsSet (widOf c' i)]{fullShare} fw d : sProp 𝕄))), bigSep_sep', bigSep_sep']

/-- What it hands back. -/
theorem dn0_eq (d : Dev nD) : (bigSep Finset.univ fun c : Fin ((K (F := F)).nCore 0) => (P Xw Tw fw).dn 0 d c)
    = iprop((bigSep Finset.univ fun c : Fin 2 => (xLoc d ↦{qC c} Xw d : sProp 𝕄)) ∗ (bigSep Finset.univ fun c : Fin 2 => (tLoc d ↦{qC c} Tw d : sProp 𝕄))
        ∗ bigSep Finset.univ fun c : Fin 2 => bigSep Finset.univ fun i : Fin 16 =>
            (iprop(∃ f, ⌜OutOK d (Xw d) (Tw d) (widOf c i) f⌝ ∗ oLoc d ↦[colsSet (widOf c i)]{fullShare} f) : sProp 𝕄)) := by
  show (bigSep Finset.univ fun c : Fin ((K (F := F)).nCore 0) =>
      iprop((xLoc d ↦{qC (Fin.cast nCore_zero c)} Xw d) ∗ (tLoc d ↦{qC (Fin.cast nCore_zero c)} Tw d)
        ∗ bigSep Finset.univ fun i : Fin 16 => (iprop(∃ f, ⌜OutOK d (Xw d) (Tw d) (widOf (Fin.cast nCore_zero c) i) f⌝
            ∗ oLoc d ↦[colsSet (widOf (Fin.cast nCore_zero c) i)]{fullShare} f) : sProp 𝕄))) = _
  rw [bigSep_cores (F := F) (fun c' => iprop((xLoc d ↦{qC c'} Xw d) ∗ (tLoc d ↦{qC c'} Tw d)
        ∗ bigSep Finset.univ fun i : Fin 16 => (iprop(∃ f, ⌜OutOK d (Xw d) (Tw d) (widOf c' i) f⌝
            ∗ oLoc d ↦[colsSet (widOf c' i)]{fullShare} f) : sProp 𝕄))), bigSep_sep', bigSep_sep']

/-- The thirty-two returned blocks, each right on its own columns, are the whole array at the specified function:
    the blocks are disjoint and cover, so one function agrees with each on its block, and that function is the
    specified one at every index. -/
theorem oCols_join (d : Dev nD) :
    (bigSep Finset.univ fun w : Fin 32 => (iprop(∃ f, ⌜OutOK d (Xw d) (Tw d) w f⌝ ∗ oLoc d ↦[colsSet w]{fullShare} f) : sProp 𝕄))
      ⊢ (oLoc d ↦{fullShare} Cert.Proof.KHost.OutSpec (Xw d) (Tw d) : sProp 𝕄) := by
  refine (bigSep_exists_pi Finset.univ (fun w (f : Buf (Elt F) (oLoc d)) => iprop(⌜OutOK d (Xw d) (Tw d) w f⌝ ∗ oLoc d ↦[colsSet w]{fullShare} f))).trans ?_
  iintro ⟨%fs, H⟩
  ihave H2 := (bigSep_pure_sep Finset.univ (fun w => OutOK d (Xw d) (Tw d) w (fs w)) (fun w => (oLoc d ↦[colsSet w]{fullShare} fs w : sProp 𝕄))) $$ H
  icases H2 with ⟨%hOK, H3⟩
  ihave H' := (pointsTo_biUnion_join Finset.univ colsSet fs (fs 0) cols_disjoint) $$ H3
  icases H' with ⟨%g, %hg, Hg⟩
  rw [cols_cover]
  have e : g = Cert.Proof.KHost.OutSpec (Xw d) (Tw d) := funext fun p => by
    obtain ⟨w, -, hw⟩ := Finset.mem_biUnion.mp (cols_cover ▸ Finset.mem_univ p)
    rw [hg w (Finset.mem_univ _) p hw]
    exact hOK w (Finset.mem_univ _) p hw
  subst e
  iexact Hg

end Call

/-! ### The held arrays after each stretch -/

/-- After the first stretch: the arguments and the result array as launched, the index list and the padded table
    the pure functions of the arguments (the three other buffers at whatever the fold gives). -/
theorem held_pre (d : Dev nD) : (held (T d) S9 (StableHlo.after pre (V0 m d)) : sProp 𝕄)
    = iprop((a0Loc d ↦{fullShare} m (a0Loc d)) ∗ (a1Loc d ↦{fullShare} m (a1Loc d))
      ∗ ((SparseCore.T d).loc main_v0 ↦{fullShare} StableHlo.after pre (V0 m d) w0') ∗ (xLoc d ↦{fullShare} Xv m d)
      ∗ ((SparseCore.T d).loc main_c ↦{fullShare} StableHlo.after pre (V0 m d) c0')
      ∗ ((SparseCore.T d).loc main_call0_v0 ↦{fullShare} StableHlo.after pre (V0 m d) p0') ∗ (tLoc d ↦{fullShare} Tv m d)
      ∗ (oLoc d ↦{fullShare} fo m d) ∗ (rLoc d ↦{fullShare} StableHlo.after pre (V0 m d) r')) := by
  rw [held_S9, pre_a0, pre_a1, pre_x, pre_t, pre_o]
  rfl

/-- The valuation after the call: as after the first stretch, the result array at the specified function. -/
def V2 (d : Dev nD) : Valuation τ sig (Elt F) :=
  Function.update (StableHlo.after pre (V0 m d)) o' (Cert.Proof.KHost.OutSpec (Xv m d) (Tv m d))

theorem held_V2 (d : Dev nD) : (held (T d) S9 (V2 m d) : sProp 𝕄)
    = iprop((a0Loc d ↦{fullShare} m (a0Loc d)) ∗ (a1Loc d ↦{fullShare} m (a1Loc d))
      ∗ ((SparseCore.T d).loc main_v0 ↦{fullShare} StableHlo.after pre (V0 m d) w0') ∗ (xLoc d ↦{fullShare} Xv m d)
      ∗ ((SparseCore.T d).loc main_c ↦{fullShare} StableHlo.after pre (V0 m d) c0')
      ∗ ((SparseCore.T d).loc main_call0_v0 ↦{fullShare} StableHlo.after pre (V0 m d) p0') ∗ (tLoc d ↦{fullShare} Tv m d)
      ∗ (oLoc d ↦{fullShare} Cert.Proof.KHost.OutSpec (Xv m d) (Tv m d)) ∗ (rLoc d ↦{fullShare} StableHlo.after pre (V0 m d) r')) := by
  unfold V2
  rw [held_S9, Function.update_self, Function.update_of_ne (show a0' ≠ o' by decide), Function.update_of_ne (show a1' ≠ o' by decide),
    Function.update_of_ne (show w0' ≠ o' by decide), Function.update_of_ne (show x' ≠ o' by decide),
    Function.update_of_ne (show c0' ≠ o' by decide), Function.update_of_ne (show p0' ≠ o' by decide),
    Function.update_of_ne (show t' ≠ o' by decide), Function.update_of_ne (show r' ≠ o' by decide),
    pre_a0, pre_a1, pre_x, pre_t]
  rfl

theorem out_a0 (W : Valuation τ sig (Elt F)) : StableHlo.after [opOut] W a0' = W a0' := by
  after_results; first | done | rfl
theorem out_a1 (W : Valuation τ sig (Elt F)) : StableHlo.after [opOut] W a1' = W a1' := by
  after_results; first | done | rfl
theorem out_r (W : Valuation τ sig (Elt F)) : StableHlo.after [opOut] W r' = Cert.Proof.KHost.OutT (W o') := by
  after_results; first | done | rfl

/-- What @main leaves the claim: the two arguments at their launch contents, and the program's result at the
    transpose of the specified call result. -/
abbrev FIN (d : Dev nD) : sProp 𝕄 :=
  iprop((a0Loc d ↦{fullShare} m (a0Loc d)) ∗ (a1Loc d ↦{fullShare} m (a1Loc d))
    ∗ (rLoc d ↦{fullShare} Cert.Proof.KHost.OutT (Cert.Proof.KHost.OutSpec (Xv m d) (Tv m d))))

/-- After the last stretch the three buffers of the claim are where the claim wants them. -/
theorem held_out (d : Dev nD) : (held (T d) S9 (StableHlo.after [opOut] (V2 m d)) : sProp 𝕄)
    ⊢ iprop((a0Loc d ↦{fullShare} m (a0Loc d)) ∗ (a1Loc d ↦{fullShare} m (a1Loc d))
      ∗ (rLoc d ↦{fullShare} Cert.Proof.KHost.OutT (Cert.Proof.KHost.OutSpec (Xv m d) (Tv m d)))) := by
  rw [held_S9, out_a0, out_a1, out_r]
  unfold V2
  rw [Function.update_self, Function.update_of_ne (show a0' ≠ o' by decide), Function.update_of_ne (show a1' ≠ o' by decide),
    pre_a0, pre_a1]
  iintro ⟨Ha0, Ha1, -, -, -, -, -, -, Hr⟩
  isplitl [Ha0]; · iexact Ha0
  isplitl [Ha1]; · iexact Ha1
  iexact Hr

/-! ### @main -/

/-- @main on device d's TensorCore: the first stretch of host operations; the call, from shares of the index list
    and the table and the result array's column blocks, back with the result at the specified function; the last
    transpose. The arguments are kept. -/
theorem hmain (κ : GSem nD τ sig → ℕ) (d : Dev nD) :
    iprop((K (F := F)).ctx EH (P (Xv m) (Tv m) (fo m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S9 _ pre hpre_sub hpre_fresh (V0 m d)) $$ [Hb Hheld]
  · isplitl [Hb]; · iexact Hb
    iexact Hheld
  iintro ⟨Hb, Hheld⟩
  ihave Hh := (Entails.of_eq (held_pre m d)) $$ Hheld
  icases Hh with ⟨Ha0, Ha1, Hw0, Hx, Hc, Hp0, Ht, Ho, Hr⟩
  ihave Hx' := (Transfers.pointsTo_toks_split fullShare 2) $$ Hx
  icases Hx' with ⟨Hxd, Hxs⟩
  ihave Ht' := (Transfers.pointsTo_toks_split fullShare 2) $$ Ht
  icases Ht' with ⟨Htd, Hts⟩
  ihave Ho' := (Entails.of_eq ((oPts_cols d (fo m d)).trans (regroup _))) $$ Ho
  rw [wp_bind]
  iapply ((K (F := F)).wp_run (D (F := F)) 𝒱 (EH := EH) (P := P (Xv m) (Tv m) (fo m)) κ d 0) $$ [Hst Hxs Hts Ho' Hb Ha0 Ha1 Hw0 Hc Hp0 Hr Hxd Htd]
  isplitr; · iexact Hctx
  isplitl [Hst]; · iexact Hst
  isplitl [Hxs Hts Ho']
  · rw [st0_eq]
    isplitl [Hxs]; · iexact Hxs
    isplitl [Hts]; · iexact Hts
    iexact Ho'
  iintro ⟨Hst, Hdn⟩
  ihave Hdn' := (Entails.of_eq (dn0_eq (Xv m) (Tv m) (fo m) d)) $$ Hdn
  icases Hdn' with ⟨Hxs, Hts, Hos⟩
  ihave Hx := (Transfers.pointsTo_toks_join fullShare 2) $$ [Hxd Hxs]
  · isplitl [Hxd]; · iexact Hxd
    iexact Hxs
  ihave Ht := (Transfers.pointsTo_toks_join fullShare 2) $$ [Htd Hts]
  · isplitl [Htd]; · iexact Htd
    iexact Hts
  ihave Hos' := (Entails.of_eq (regroup (fun w => (iprop(∃ f, ⌜OutOK d (Xv m d) (Tv m d) w f⌝ ∗ oLoc d ↦[colsSet w]{fullShare} f) : sProp 𝕄))).symm) $$ Hos
  ihave Ho := (oCols_join (Xv m) (Tv m) d) $$ Hos'
  ihave Hheld := (Entails.of_eq (held_V2 m d).symm) $$ [Ha0 Ha1 Hw0 Hx Hc Hp0 Ht Ho Hr]
  · isplitl [Ha0]; · iexact Ha0
    isplitl [Ha1]; · iexact Ha1
    isplitl [Hw0]; · iexact Hw0
    isplitl [Hx]; · iexact Hx
    isplitl [Hc]; · iexact Hc
    isplitl [Hp0]; · iexact Hp0
    isplitl [Ht]; · iexact Ht
    isplitl [Ho]; · iexact Ho
    iexact Hr
  iapply (StableHlo.wp_seq 𝒱 none Set.univ d S9 _ [opOut] hout_sub hout_fresh (V2 m d)) $$ [Hb Hheld]
  · isplitl [Hb]; · iexact Hb
    iexact Hheld
  iintro ⟨Hb, Hheld⟩
  ihave Hfin := (held_out m d) $$ Hheld
  rw [wp_pure]
  imodintro
  isplitl [Hst]; · iexact Hst
  iexact Hfin

/-! ## What the final memory says -/

def fq (d : Dev nD) (s' : Phys nD τ sig (Elt F)) : Prop :=
  s'.mem.mem (a0Loc d) = m (a0Loc d) ∧ s'.mem.mem (a1Loc d) = m (a1Loc d)
    ∧ s'.mem.mem (rLoc d) = Cert.Proof.KHost.OutT (Cert.Proof.KHost.OutSpec (Xv m d) (Tv m d))

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare)
      (f := Cert.Proof.KHost.OutT (Cert.Proof.KHost.OutSpec (Xv m d) (Tv m d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Given the tiles' obligation: every weakly fair execution of the program terminates with the result at the
    transpose of the specified call result over the flattened index list and the padded table, the arguments unchanged. -/
theorem run_main [∀ e, Nonempty (Elt F e)]
    (hX : ∀ d j, (Cert.Proof.KHost.Xflat (m ((SparseCore.T d).loc main_arg0)) j).toNat < 1000000)
    (htile : (K (F := F)).TileObl (D (F := F)) 𝒱 (P (Xv m) (Tv m) (fo m)) v₀ 0) :
    θ_run (defs (F := F)) (threads (F := F)) ⟨m, fun _ => 0, ρ⟩ (fun r => ∀ c : Dev nD,
      r.2.mem ((c.tc : Thread nD τ).loc main_v4)
        = Cert.Proof.KHost.OutT (Cert.Proof.KHost.OutSpec (Cert.Proof.KHost.Xflat (m ((c.tc : Thread nD τ).loc main_arg0)))
            (Cert.Proof.KHost.Tpad (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (Xv m) (Tv m) (fo m)) facts v₀
    (fun q hq => match q with | 0 => nomatch hq)
    (fun q _ => match q with | 0 => htile)
    (fun q _ => match q with | 0 => SparseCore.Cfg.VecSplit.of_plain (vecSplit (Xv m) (Tv m) (fo m)))
    m ρ main (fun _ => iprop(emp)) (FIN m) (u₀ (F := F)) (sep_elim_left.trans (hu₀ (Xv m) (Tv m) (fo m))) (hmain m ρ) (fq m) (hfin m) _
    (fun _ h c => ⟨(h c).2.2, (h c).1, (h c).2.1⟩)

/-! ## The frame, for any float values -/

/-- The precondition bounds every word of the flattened index list: its index half does not look at the floats. -/
theorem hX_of_pre_gen
    (hpre : ∀ c : Dev nD, Cert.Pre_input_domain.fn (F := F) (m ((c.tc : Thread nD τ).loc main_arg0)) (m ((c.tc : Thread nD τ).loc main_arg1)) = (fun _ => 1#1)) :
    ∀ d j, (Cert.Proof.KHost.Xflat (m ((SparseCore.T d).loc main_arg0)) j).toNat < 1000000 :=
  fun d => Cert.Proof.KHost.Xflat_bound _ (Cert.Proof.KPre.pre_idx_gen _ _ (hpre d))

/-- Under the precondition, given the tiles' obligation (which may use the index bound): the program runs and its
    arguments end unchanged. -/
theorem frame_gen [∀ e, Nonempty (Elt F e)]
    (hpre : ∀ c : Dev nD, Cert.Pre_input_domain.fn (F := F) (m ((c.tc : Thread nD τ).loc main_arg0)) (m ((c.tc : Thread nD τ).loc main_arg1)) = (fun _ => 1#1))
    (htile : (∀ d j, (Cert.Proof.KHost.Xflat (m ((SparseCore.T d).loc main_arg0)) j).toNat < 1000000) →
      (K (F := F)).TileObl (D (F := F)) 𝒱 (P (Xv m) (Tv m) (fo m)) v₀ 0) :
    θ_run (defs (F := F)) (threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2)
    (run_main m ρ (hX_of_pre_gen m hpre) (htile (hX_of_pre_gen m hpre)))

end Main

-- IDEAL ONLY

/-- The precondition bounds every word of the flattened index list. -/
theorem hX_of_pre (m : (ℓ : Loc nD τ sig) → Buf (Elt Ideal) ℓ) (hpre : Cert.Pre_KernelIdeal m) :
    ∀ d j, (Cert.Proof.KHost.Xflat (m ((SparseCore.T d).loc main_arg0)) j).toNat < 1000000 :=
  fun d => Cert.Proof.KHost.Xflat_bound _ (Cert.Proof.Ref.pre_idx _ _ (hpre d))

/-- The kernel program's frame claim: its run with the result forgotten. -/
theorem frame_k
    (htile : ∀ (m : (ℓ : Loc nD τ sig) → Buf (Elt Ideal) ℓ),
      (∀ d j, (Cert.Proof.KHost.Xflat (m ((SparseCore.T d).loc main_arg0)) j).toNat < 1000000) →
      (K (F := Ideal)).TileObl (D (F := Ideal)) 𝒱 (P (Xv m) (Tv m) (fo m)) v₀ 0) :
    Cert.frame_KernelIdeal :=
  fun m ρ hpre => (θ_run Cert.KernelIdeal.defs _ _).mono (fun _ h c => (h c).2)
    (run_main (F := Ideal) m ρ (hX_of_pre m hpre) (htile m (hX_of_pre m hpre)))

/-- The two programs end with equal results: the kernel program's at the transpose of the specified call result, which
    for indices inside the table is the reference's composed term. -/
theorem algebraic_k
    (htile : ∀ (m : (ℓ : Loc nD τ sig) → Buf (Elt Ideal) ℓ),
      (∀ d j, (Cert.Proof.KHost.Xflat (m ((SparseCore.T d).loc main_arg0)) j).toNat < 1000000) →
      (K (F := Ideal)).TileObl (D (F := Ideal)) 𝒱 (P (Xv m) (Tv m) (fo m)) v₀ 0) :
    Cert.algebraic_KernelIdeal_ReferenceIdeal := by
  intro m ρ m' ρ' hpre hagree
  refine ⟨fun c => Cert.Proof.KHost.OutT (F := Ideal) (Cert.Proof.KHost.OutSpec (F := Ideal) (Cert.Proof.KHost.Xflat (m ((c.tc : Thread nD τ).loc main_arg0)))
      (Cert.Proof.KHost.Tpad (F := Ideal) (m ((c.tc : Thread nD τ).loc main_arg1)))), ?_, ?_⟩
  · exact run_main (F := Ideal) m ρ (hX_of_pre m hpre) (htile m (hX_of_pre m hpre))
  · refine (θ_run Cert.ReferenceIdeal.defs _ _).mono (fun _ h c => ⟨?_, (h c).2⟩) (Cert.Proof.Ref.run (F := Ideal) m' ρ')
    rw [(h c).1, (hagree c).1, (hagree c).2]
    exact (Cert.Proof.KHost.bridge (m ((c.tc : Thread nD τ).loc main_arg0)) (m ((c.tc : Thread nD τ).loc main_arg1))
      (Cert.Proof.Ref.pre_idx _ _ (hpre c))).symm

end Cert.Proof.K
end
-- ==== Proof.KWords.lean ====
/-
  The constant index words of the transposition loops, named, with their pointwise closed forms.
  With l the lane (0 ≤ l < 16): W3 is the lane number, W37 is l + 8, the sixteen words
  W7, W11, …, W67 are e_k(l) = (l + k) mod 16 for k = 0..15, and the sixteen words W70, W73, …, W115
  are e_k(l) + (e_k(l) AND 8), that is e_k(l) + 8 when e_k(l) ≥ 8 and e_k(l) otherwise.
-/
import proofs.«206429_g47863115546636_cont_8to1c4_619_32_alg».proof.Proof.Gen.KernelIdeal.Skeleton
import Idealize.ShloMosaic.Lib.ValueIdx

noncomputable section

namespace Cert.Proof.KW

open Idealize.ShloMosaic Idealize.SL.Sem Idealize.ShloMosaic.ValueIdx
open Cert.KernelIdeal Cert.KernelIdeal.Gen

/-- A statement about every lane index follows from the statement at each of the sixteen lanes. -/
theorem forall_lane {P : S16.Idx → Prop} (h : ∀ k : Fin 16, P (ix1 k)) : ∀ x, P x :=
  fun x => (eq_ix1 x) ▸ h (x 0)

/-- The lane number. -/
def W3 : IVec S16 32 := iota .scVector S16 32 [0] Gen.iota_S16_d0_w32_scVector

/-- e_0: lane l holds (l + 0) mod 16. -/
def W7 : IVec S16 32 := k0_pay397
/-- e_1: lane l holds (l + 1) mod 16. -/
def W11 : IVec S16 32 := k0_pay398
/-- e_2: lane l holds (l + 2) mod 16. -/
def W15 : IVec S16 32 := k0_pay399
/-- e_3: lane l holds (l + 3) mod 16. -/
def W19 : IVec S16 32 := k0_pay400
/-- e_4: lane l holds (l + 4) mod 16. -/
def W23 : IVec S16 32 := k0_pay401
/-- e_5: lane l holds (l + 5) mod 16. -/
def W27 : IVec S16 32 := k0_pay402
/-- e_6: lane l holds (l + 6) mod 16. -/
def W31 : IVec S16 32 := k0_pay403
/-- e_7: lane l holds (l + 7) mod 16. -/
def W35 : IVec S16 32 := k0_pay404
/-- Lane l holds l + 8. -/
def W37 : IVec S16 32 := k0_pay405
/-- e_8: lane l holds (l + 8) mod 16. -/
def W39 : IVec S16 32 := k0_pay406 W37 15#32
/-- e_9: lane l holds (l + 9) mod 16. -/
def W43 : IVec S16 32 := k0_pay407 W3
/-- e_10: lane l holds (l + 10) mod 16. -/
def W47 : IVec S16 32 := k0_pay408 W3
/-- e_11: lane l holds (l + 11) mod 16. -/
def W51 : IVec S16 32 := k0_pay409 W3
/-- e_12: lane l holds (l + 12) mod 16. -/
def W55 : IVec S16 32 := k0_pay410 W3
/-- e_13: lane l holds (l + 13) mod 16. -/
def W59 : IVec S16 32 := k0_pay411 W3
/-- e_14: lane l holds (l + 14) mod 16. -/
def W63 : IVec S16 32 := k0_pay412 W3
/-- e_15: lane l holds (l + 15) mod 16. -/
def W67 : IVec S16 32 := k0_pay413 W3
/-- e_0 + (e_0 AND 8). -/
def W70 : IVec S16 32 := k0_pay414 W7
/-- e_1 + (e_1 AND 8). -/
def W73 : IVec S16 32 := k0_pay415 W11
/-- e_2 + (e_2 AND 8). -/
def W76 : IVec S16 32 := k0_pay416 W15
/-- e_3 + (e_3 AND 8). -/
def W79 : IVec S16 32 := k0_pay417 W19
/-- e_4 + (e_4 AND 8). -/
def W82 : IVec S16 32 := k0_pay418 W23
/-- e_5 + (e_5 AND 8). -/
def W85 : IVec S16 32 := k0_pay419 W27
/-- e_6 + (e_6 AND 8). -/
def W88 : IVec S16 32 := k0_pay420 W31
/-- e_7 + (e_7 AND 8). -/
def W91 : IVec S16 32 := k0_pay421 W35
/-- e_8 + (e_8 AND 8). -/
def W94 : IVec S16 32 := k0_pay422 W39
/-- e_9 + (e_9 AND 8). -/
def W97 : IVec S16 32 := k0_pay423 W43
/-- e_10 + (e_10 AND 8). -/
def W100 : IVec S16 32 := k0_pay424 W47
/-- e_11 + (e_11 AND 8). -/
def W103 : IVec S16 32 := k0_pay425 W51
/-- e_12 + (e_12 AND 8). -/
def W106 : IVec S16 32 := k0_pay426 W55
/-- e_13 + (e_13 AND 8). -/
def W109 : IVec S16 32 := k0_pay427 W59
/-- e_14 + (e_14 AND 8). -/
def W112 : IVec S16 32 := k0_pay428 W63
/-- e_15 + (e_15 AND 8). -/
def W115 : IVec S16 32 := k0_pay429 W67

theorem W3_apply (x : S16.Idx) : W3 x = BitVec.ofNat 32 (x 0).val := by
  revert x; exact forall_lane (by decide +kernel)
theorem W37_apply (x : S16.Idx) : W37 x = BitVec.ofNat 32 ((x 0).val + 8) := by
  revert x; exact forall_lane (by decide +kernel)
theorem W7_apply (x : S16.Idx) : W7 x = BitVec.ofNat 32 (((x 0).val + 0) % 16) := by
  revert x; exact forall_lane (by decide +kernel)
theorem W11_apply (x : S16.Idx) : W11 x = BitVec.ofNat 32 (((x 0).val + 1) % 16) := by
  revert x; exact forall_lane (by decide +kernel)
theorem W15_apply (x : S16.Idx) : W15 x = BitVec.ofNat 32 (((x 0).val + 2) % 16) := by
  revert x; exact forall_lane (by decide +kernel)
theorem W19_apply (x : S16.Idx) : W19 x = BitVec.ofNat 32 (((x 0).val + 3) % 16) := by
  revert x; exact forall_lane (by decide +kernel)
theorem W23_apply (x : S16.Idx) : W23 x = BitVec.ofNat 32 (((x 0).val + 4) % 16) := by
  revert x; exact forall_lane (by decide +kernel)
theorem W27_apply (x : S16.Idx) : W27 x = BitVec.ofNat 32 (((x 0).val + 5) % 16) := by
  revert x; exact forall_lane (by decide +kernel)
theorem W31_apply (x : S16.Idx) : W31 x = BitVec.ofNat 32 (((x 0).val + 6) % 16) := by
  revert x; exact forall_lane (by decide +kernel)
theorem W35_apply (x : S16.Idx) : W35 x = BitVec.ofNat 32 (((x 0).val + 7) % 16) := by
  revert x; exact forall_lane (by decide +kernel)
theorem W39_apply (x : S16.Idx) : W39 x = BitVec.ofNat 32 (((x 0).val + 8) % 16) := by
  revert x; exact forall_lane (by decide +kernel)
theorem W43_apply (x : S16.Idx) : W43 x = BitVec.ofNat 32 (((x 0).val + 9) % 16) := by
  revert x; exact forall_lane (by decide +kernel)
theorem W47_apply (x : S16.Idx) : W47 x = BitVec.ofNat 32 (((x 0).val + 10) % 16) := by
  revert x; exact forall_lane (by decide +kernel)
theorem W51_apply (x : S16.Idx) : W51 x = BitVec.ofNat 32 (((x 0).val + 11) % 16) := by
  revert x; exact forall_lane (by decide +kernel)
theorem W55_apply (x : S16.Idx) : W55 x = BitVec.ofNat 32 (((x 0).val + 12) % 16) := by
  revert x; exact forall_lane (by decide +kernel)
theorem W59_apply (x : S16.Idx) : W59 x = BitVec.ofNat 32 (((x 0).val + 13) % 16) := by
  revert x; exact forall_lane (by decide +kernel)
theorem W63_apply (x : S16.Idx) : W63 x = BitVec.ofNat 32 (((x 0).val + 14) % 16) := by
  revert x; exact forall_lane (by decide +kernel)
theorem W67_apply (x : S16.Idx) : W67 x = BitVec.ofNat 32 (((x 0).val + 15) % 16) := by
  revert x; exact forall_lane (by decide +kernel)
theorem W70_apply (x : S16.Idx) :
    W70 x = BitVec.ofNat 32 (((x 0).val + 0) % 16 + (if 8 ≤ ((x 0).val + 0) % 16 then 8 else 0)) := by
  revert x; exact forall_lane (by decide +kernel)
theorem W73_apply (x : S16.Idx) :
    W73 x = BitVec.ofNat 32 (((x 0).val + 1) % 16 + (if 8 ≤ ((x 0).val + 1) % 16 then 8 else 0)) := by
  revert x; exact forall_lane (by decide +kernel)
theorem W76_apply (x : S16.Idx) :
    W76 x = BitVec.ofNat 32 (((x 0).val + 2) % 16 + (if 8 ≤ ((x 0).val + 2) % 16 then 8 else 0)) := by
  revert x; exact forall_lane (by decide +kernel)
theorem W79_apply (x : S16.Idx) :
    W79 x = BitVec.ofNat 32 (((x 0).val + 3) % 16 + (if 8 ≤ ((x 0).val + 3) % 16 then 8 else 0)) := by
  revert x; exact forall_lane (by decide +kernel)
theorem W82_apply (x : S16.Idx) :
    W82 x = BitVec.ofNat 32 (((x 0).val + 4) % 16 + (if 8 ≤ ((x 0).val + 4) % 16 then 8 else 0)) := by
  revert x; exact forall_lane (by decide +kernel)
theorem W85_apply (x : S16.Idx) :
    W85 x = BitVec.ofNat 32 (((x 0).val + 5) % 16 + (if 8 ≤ ((x 0).val + 5) % 16 then 8 else 0)) := by
  revert x; exact forall_lane (by decide +kernel)
theorem W88_apply (x : S16.Idx) :
    W88 x = BitVec.ofNat 32 (((x 0).val + 6) % 16 + (if 8 ≤ ((x 0).val + 6) % 16 then 8 else 0)) := by
  revert x; exact forall_lane (by decide +kernel)
theorem W91_apply (x : S16.Idx) :
    W91 x = BitVec.ofNat 32 (((x 0).val + 7) % 16 + (if 8 ≤ ((x 0).val + 7) % 16 then 8 else 0)) := by
  revert x; exact forall_lane (by decide +kernel)
theorem W94_apply (x : S16.Idx) :
    W94 x = BitVec.ofNat 32 (((x 0).val + 8) % 16 + (if 8 ≤ ((x 0).val + 8) % 16 then 8 else 0)) := by
  revert x; exact forall_lane (by decide +kernel)
theorem W97_apply (x : S16.Idx) :
    W97 x = BitVec.ofNat 32 (((x 0).val + 9) % 16 + (if 8 ≤ ((x 0).val + 9) % 16 then 8 else 0)) := by
  revert x; exact forall_lane (by decide +kernel)
theorem W100_apply (x : S16.Idx) :
    W100 x = BitVec.ofNat 32 (((x 0).val + 10) % 16 + (if 8 ≤ ((x 0).val + 10) % 16 then 8 else 0)) := by
  revert x; exact forall_lane (by decide +kernel)
theorem W103_apply (x : S16.Idx) :
    W103 x = BitVec.ofNat 32 (((x 0).val + 11) % 16 + (if 8 ≤ ((x 0).val + 11) % 16 then 8 else 0)) := by
  revert x; exact forall_lane (by decide +kernel)
theorem W106_apply (x : S16.Idx) :
    W106 x = BitVec.ofNat 32 (((x 0).val + 12) % 16 + (if 8 ≤ ((x 0).val + 12) % 16 then 8 else 0)) := by
  revert x; exact forall_lane (by decide +kernel)
theorem W109_apply (x : S16.Idx) :
    W109 x = BitVec.ofNat 32 (((x 0).val + 13) % 16 + (if 8 ≤ ((x 0).val + 13) % 16 then 8 else 0)) := by
  revert x; exact forall_lane (by decide +kernel)
theorem W112_apply (x : S16.Idx) :
    W112 x = BitVec.ofNat 32 (((x 0).val + 14) % 16 + (if 8 ≤ ((x 0).val + 14) % 16 then 8 else 0)) := by
  revert x; exact forall_lane (by decide +kernel)
theorem W115_apply (x : S16.Idx) :
    W115 x = BitVec.ofNat 32 (((x 0).val + 15) % 16 + (if 8 ≤ ((x 0).val + 15) % 16 then 8 else 0)) := by
  revert x; exact forall_lane (by decide +kernel)

end Cert.Proof.KW
-- ==== Proof.KMath.lean ====
/-
  The value of the transposition through the 128 x 128 scratch.

  A chunk R has 256 rows of 128. Trip g (j = g / 8, c = g mod 8) makes 64 (indexed load, indexed store)
  pairs; pair number m = 16 * dg + k (dg = 0..3, k = 0..15) loads, at lane l, R[16 g + l, e_k(l) + 16 dg]
  with e_k(l) = (l + k) mod 16, scales it by 8, and stores it at scratch position
  (e_k(l) + (e_k(l) AND 8) + 32 dg + 8 j, l + 16 c). Every scratch position (r, q) is written exactly once
  over the 16 trips: by trip q / 16 + 8 ((r / 8) mod 2), pair 16 (r / 32) + ((r mod 8 + 8 ((r / 16) mod 2)
  - q) mod 16), and receives 8 * R[128 ((r / 8) mod 2) + q, 8 (r / 16) + r mod 8].
-/
import proofs.«206429_g47863115546636_cont_8to1c4_619_32_alg».proof.Proof.KWords

noncomputable section

namespace Cert.Proof.KW

open Idealize.ShloMosaic Idealize.SL.Sem Idealize.ShloMosaic.ValueIdx
open Cert.KernelIdeal Cert.KernelIdeal.Gen

variable {F : FTy → Type} [FloatOps F]

/-! ### A left fold of overwrites -/

/-- A fold of steps none of which touches p leaves the value at p. -/
theorem foldl_miss {α β ι : Type} (step : (β → α) → ι → (β → α)) (nm : ι → β → Prop)
    (hmiss : ∀ g k j, ¬ nm k j → step g k j = g j) :
    ∀ (l : List ι) (g0 : β → α) (p : β), (∀ k ∈ l, ¬ nm k p) → l.foldl step g0 p = g0 p := by
  intro l
  induction l with
  | nil => intro g0 p _; rfl
  | cons a l ih =>
    intro g0 p h
    rw [List.foldl_cons, ih (step g0 a) p (fun k hk => h k (List.mem_cons_of_mem _ hk))]
    exact hmiss g0 a p (h a (List.mem_cons.mpr (Or.inl rfl)))

/-- A fold of steps exactly one of which (step k) touches p leaves step k's value at p. -/
theorem foldl_hit {α β ι : Type} (step : (β → α) → ι → (β → α)) (nm : ι → β → Prop) (V : ι → α)
    (hhit : ∀ g k j, nm k j → step g k j = V k)
    (hmiss : ∀ g k j, ¬ nm k j → step g k j = g j) :
    ∀ (l : List ι) (g0 : β → α) (p : β) (k : ι), k ∈ l → nm k p → (∀ k' ∈ l, nm k' p → k' = k) →
      l.foldl step g0 p = V k := by
  intro l
  induction l with
  | nil => intro g0 p k hk; cases hk
  | cons a l ih =>
    intro g0 p k hk hn huniq
    rw [List.foldl_cons]
    by_cases hkl : k ∈ l
    · exact ih (step g0 a) p k hkl hn (fun k' hk' => huniq k' (List.mem_cons_of_mem _ hk'))
    · have hak : a = k := by
        rcases List.mem_cons.mp hk with h | h
        · exact h.symm
        · exact absurd h hkl
      subst hak
      rw [foldl_miss step nm hmiss l (step g0 a) p
        (fun k' hk' hn' => hkl ((huniq k' (List.mem_cons_of_mem _ hk') hn') ▸ hk'))]
      exact hhit g0 a p hn

/-! ### An unmasked indexed store without accumulation -/

section Store
variable {s : Shape} {e : EltTy} {d : Fin 1 → Nat}

/-- Where exactly one lane names position p, the store leaves that lane's value at p. -/
theorem storeIdx_hit (f : Vec F s e) (idxs : Fin s.rank → IVec ⟨1, d⟩ 32) (v : Vec F ⟨1, d⟩ e)
    (h : ∀ a x, (idxs a x).toNat < s.size a) (p : s.Idx) (k : Fin (d 0))
    (hn : ∀ a, (p a).val = (idxs a (Shape.ofLane k)).toNat)
    (huniq : ∀ k' : Fin (d 0), (∀ a, (p a).val = (idxs a (Shape.ofLane k')).toNat) → k' = k) :
    storeIdx f idxs v (fun _ => 1#1) false h p = v (Shape.ofLane k) := by
  unfold storeIdx
  refine foldl_hit _ (fun k j => ∀ a, (j a).val = (idxs a (Shape.ofLane k)).toNat)
    (fun k => v (Shape.ofLane k)) ?_ ?_ _ f p k (List.mem_finRange k) hn (fun k' _ => huniq k')
  · intro g k j hj
    simp [idxAt, hj]
  · intro g k j hj
    simp [idxAt, hj]

/-- Where no lane names position p, the store leaves p as it was. -/
theorem storeIdx_miss (f : Vec F s e) (idxs : Fin s.rank → IVec ⟨1, d⟩ 32) (v : Vec F ⟨1, d⟩ e)
    (h : ∀ a x, (idxs a x).toNat < s.size a) (p : s.Idx)
    (hn : ∀ k : Fin (d 0), ¬ ∀ a, (p a).val = (idxs a (Shape.ofLane k)).toNat) :
    storeIdx f idxs v (fun _ => 1#1) false h p = f p := by
  unfold storeIdx
  refine foldl_miss _ (fun k j => ∀ a, (j a).val = (idxs a (Shape.ofLane k)).toNat) ?_ _ f p (fun k _ => hn k)
  intro g k j hj
  simp [idxAt, hj]

end Store

/-! ### The transposed value and the order in which the scratch is written -/

/-- e + (e AND 8) for e = (l + k) mod 16. -/
def rsf (k l : ℕ) : ℕ := (l + k) % 16 + (if 8 ≤ (l + k) % 16 then 8 else 0)

/-- The chunk position whose value scratch position (r, q) receives:
    row 128 ((r / 8) mod 2) + q, column 8 (r / 16) + r mod 8. -/
def src (p : S128x128.Idx) : S256x128.Idx :=
  ix2 ⟨128 * (((p 0).val / 8) % 2) + (p 1).val, by
        have h1 : (p 1).val < 128 := (p 1).isLt
        omega⟩
      ⟨8 * ((p 0).val / 16) + (p 0).val % 8, by
        have h0 : (p 0).val < 128 := (p 0).isLt
        omega⟩

/-- The scratch once the whole chunk has gone through: 8 times the chunk's value at the source position. -/
def T8 (R : Vec F S256x128 .f32) : Vec F S128x128 .f32 :=
  fun p => FloatOps.mulf (R (src p)) (Scalar.ofBits .f32 0x41000000#32)

/-- The trip that writes scratch position (r, q): q / 16 + 8 ((r / 8) mod 2). -/
def tripOf (p : S128x128.Idx) : ℕ := (p 1).val / 16 + 8 * (((p 0).val / 8) % 2)

/-- The pair (counted from 0 inside its trip) that writes scratch position (r, q). -/
def pairOf (p : S128x128.Idx) : ℕ :=
  16 * ((p 0).val / 32) + (((p 0).val % 8 + 8 * (((p 0).val / 16) % 2) + 16 - (p 1).val % 16) % 16)

/-- The scratch after the first n pairs of trip g, from the scratch f before the trip. -/
def Mid (g n : ℕ) (R : Vec F S256x128 .f32) (f f' : Vec F S128x128 .f32) : Prop :=
  ∀ p, f' p = if tripOf p = g ∧ pairOf p < n then T8 R p else f p

/-- The scratch holds the transposed value at every position of the trips before g. -/
def Done (g : ℕ) (R : Vec F S256x128 .f32) (f' : Vec F S128x128 .f32) : Prop :=
  ∀ p, tripOf p < g → f' p = T8 R p

theorem mid0 (g : ℕ) (R : Vec F S256x128 .f32) (f : Vec F S128x128 .f32) : Mid g 0 R f f := by
  intro p; simp

theorem done_zero (R : Vec F S256x128 .f32) (f : Vec F S128x128 .f32) : Done 0 R f := by
  intro p hp; exact absurd hp (Nat.not_lt_zero _)

theorem done_step {g : ℕ} {R : Vec F S256x128 .f32} {f f' : Vec F S128x128 .f32} :
    Done g R f → Mid g 64 R f f' → Done (g + 1) R f' := by
  intro hd hm p hp
  have hr : (p 0).val < 128 := (p 0).isLt
  have hq : (p 1).val < 128 := (p 1).isLt
  rw [hm p]
  by_cases ht : tripOf p = g
  · have h64 : pairOf p < 64 := by unfold pairOf; omega
    rw [if_pos ⟨ht, h64⟩]
  · rw [if_neg (fun h => ht h.1)]
    exact hd p (by omega)

theorem done_all {R : Vec F S256x128 .f32} {f' : Vec F S128x128 .f32} : Done 16 R f' → f' = T8 R := by
  intro hd
  funext p
  have hr : (p 0).val < 128 := (p 0).isLt
  have hq : (p 1).val < 128 := (p 1).isLt
  exact hd p (by unfold tripOf; omega)

/-! ### One (load, store) pair -/

theorem arith_hit (r q g m : ℕ) (hr : r < 128) (hq : q < 128)
    (ht : q / 16 + 8 * ((r / 8) % 2) = g)
    (hp : 16 * (r / 32) + ((r % 8 + 8 * ((r / 16) % 2) + 16 - q % 16) % 16) = m) :
    r = rsf (m % 16) (q % 16) + 32 * (m / 16) + 8 * (g / 8) ∧ q = q % 16 + 16 * (g % 8) ∧
      128 * ((r / 8) % 2) + q = 16 * g + q % 16 ∧
      8 * (r / 16) + r % 8 = (q % 16 + m % 16) % 16 + 16 * (m / 16) := by
  unfold rsf
  subst ht hp
  split_ifs <;> omega

theorem arith_miss (r q g m l : ℕ) (hg : g < 16) (hm : m < 64) (hl : l < 16)
    (h0 : r = rsf (m % 16) l + 32 * (m / 16) + 8 * (g / 8)) (h1 : q = l + 16 * (g % 8)) :
    q / 16 + 8 * ((r / 8) % 2) = g ∧
      16 * (r / 32) + ((r % 8 + 8 * ((r / 16) % 2) + 16 - q % 16) % 16) = m := by
  unfold rsf at h0
  subst h1
  split_ifs at h0 <;> subst h0 <;> omega

/-! ### The same for sixteen lanes and a rank-two base -/

theorem ofLane_eq_ix1 (k : Fin 16) : (Shape.ofLane (d := ![16]) k : S16.Idx) = ix1 k := by
  funext a
  match a with
  | ⟨0, _⟩ => rfl

theorem store16_hit {s0 s1 : ℕ} (f : Vec F ⟨2, ![s0, s1]⟩ .f32) (rowS colS : IVec S16 32) (v : Vec F S16 .f32)
    (h' : ∀ a x, ((![rowS, colS] : Fin 2 → IVec S16 32) a x).toNat < (⟨2, ![s0, s1]⟩ : Shape).size a)
    (p : (⟨2, ![s0, s1]⟩ : Shape).Idx) (k : Fin 16)
    (hn0 : (p 0).val = (rowS (ix1 k)).toNat) (hn1 : (p 1).val = (colS (ix1 k)).toNat)
    (huniq : ∀ k' : Fin 16, (p 1).val = (colS (ix1 k')).toNat → k' = k) :
    storeIdx f ![rowS, colS] v (fun _ => 1#1) false h' p = v (ix1 k) := by
  rw [← ofLane_eq_ix1 k]
  refine storeIdx_hit f ![rowS, colS] v h' p k ?_ ?_
  · intro a
    rw [ofLane_eq_ix1 k]
    match a with
    | ⟨0, _⟩ => exact hn0
    | ⟨1, _⟩ => exact hn1
  · intro k' hk'
    have h1 := hk' 1
    rw [ofLane_eq_ix1 k'] at h1
    exact huniq k' h1

theorem store16_miss {s0 s1 : ℕ} (f : Vec F ⟨2, ![s0, s1]⟩ .f32) (rowS colS : IVec S16 32) (v : Vec F S16 .f32)
    (h' : ∀ a x, ((![rowS, colS] : Fin 2 → IVec S16 32) a x).toNat < (⟨2, ![s0, s1]⟩ : Shape).size a)
    (p : (⟨2, ![s0, s1]⟩ : Shape).Idx)
    (hn : ∀ k : Fin 16, (p 0).val = (rowS (ix1 k)).toNat → (p 1).val = (colS (ix1 k)).toNat → False) :
    storeIdx f ![rowS, colS] v (fun _ => 1#1) false h' p = f p := by
  refine storeIdx_miss f ![rowS, colS] v h' p ?_
  intro k hk
  have h0 := hk 0
  have h1 := hk 1
  rw [ofLane_eq_ix1 k] at h0 h1
  exact hn k h0 h1

/-- One pair: if the index words have the closed forms of pair m of trip g and the stored value is 8 times
    the loaded one, the pair takes the scratch after m pairs to the scratch after m + 1 pairs. -/
theorem mid_step (g m : ℕ) (hg : g < 16) (hm : m < 64)
    (R : Vec F S256x128 .f32) (f f' : Vec F S128x128 .f32)
    (rowS colS rowL colL : IVec S16 32)
    (hrowS : ∀ k : Fin 16, (rowS (ix1 k)).toNat = rsf (m % 16) k.val + 32 * (m / 16) + 8 * (g / 8))
    (hcolS : ∀ k : Fin 16, (colS (ix1 k)).toNat = k.val + 16 * (g % 8))
    (hrowL : ∀ k : Fin 16, (rowL (ix1 k)).toNat = 16 * g + k.val)
    (hcolL : ∀ k : Fin 16, (colL (ix1 k)).toNat = (k.val + m % 16) % 16 + 16 * (m / 16))
    (h : ∀ a x, ((![rowL, colL] : Fin 2 → IVec S16 32) a x).toNat < S256x128.size a)
    (v : Vec F S16 .f32)
    (hv : ∀ x, v x = FloatOps.mulf (loadIdx R ![rowL, colL] h x) (Scalar.ofBits .f32 0x41000000#32))
    (h' : ∀ a x, ((![rowS, colS] : Fin 2 → IVec S16 32) a x).toNat < S128x128.size a) :
    Mid g m R f f' → Mid g (m + 1) R f (storeIdx f' ![rowS, colS] v (fun _ => 1#1) false h') := by
  intro hmid p
  have hr : (p 0).val < 128 := (p 0).isLt
  have hq : (p 1).val < 128 := (p 1).isLt
  by_cases hc : tripOf p = g ∧ pairOf p = m
  · obtain ⟨ht, hp⟩ := hc
    have hk : (p 1).val % 16 < 16 := Nat.mod_lt _ (by omega)
    obtain ⟨a0, a1, a2, a3⟩ := arith_hit (p 0).val (p 1).val g m hr hq ht hp
    have hst := store16_hit f' rowS colS v h' p ⟨(p 1).val % 16, hk⟩
      (by rw [hrowS]; exact a0) (by rw [hcolS]; exact a1)
      (by
        intro k' hk'
        rw [hcolS] at hk'
        apply Fin.ext
        show k'.val = (p 1).val % 16
        have := k'.isLt
        omega)
    rw [hst, hv, if_pos ⟨ht, by omega⟩]
    show FloatOps.mulf (R (idxAt ![rowL, colL] h (ix1 ⟨(p 1).val % 16, hk⟩))) _ = FloatOps.mulf (R (src p)) _
    have hidx : idxAt ![rowL, colL] h (ix1 ⟨(p 1).val % 16, hk⟩) = src p := by
      funext a
      match a with
      | ⟨0, _⟩ =>
        apply Fin.ext
        show (rowL (ix1 ⟨(p 1).val % 16, hk⟩)).toNat = 128 * (((p 0).val / 8) % 2) + (p 1).val
        rw [hrowL]; exact a2.symm
      | ⟨1, _⟩ =>
        apply Fin.ext
        show (colL (ix1 ⟨(p 1).val % 16, hk⟩)).toNat = 8 * ((p 0).val / 16) + (p 0).val % 8
        rw [hcolL]; exact a3.symm
    rw [hidx]
  · have hst := store16_miss f' rowS colS v h' p (by
      intro k h0 h1
      rw [hrowS] at h0
      rw [hcolS] at h1
      exact hc (arith_miss (p 0).val (p 1).val g m k.val hg hm k.isLt h0 h1))
    rw [hst, hmid p]
    by_cases ht : tripOf p = g
    · have hne : pairOf p ≠ m := fun h => hc ⟨ht, h⟩
      by_cases hlt : pairOf p < m
      · rw [if_pos ⟨ht, hlt⟩, if_pos ⟨ht, by omega⟩]
      · rw [if_neg (fun h => hlt h.2), if_neg (fun h => by omega)]
    · rw [if_neg (fun h => ht h.1), if_neg (fun h => ht h.1)]

end Cert.Proof.KW
-- ==== Proof.KPred.lean ====
import proofs.«206429_g47863115546636_cont_8to1c4_619_32_alg».proof.Proof.KDefs
import proofs.«206429_g47863115546636_cont_8to1c4_619_32_alg».proof.Proof.KMath
import Idealize.ShloMosaic.Lib.ValueIdx

/-! What the tile's scratches hold, as facts about the flattened indices `X` and the padded table `Tp`: an index list
    holds the 256 indices of its chunk; a row buffer the table rows those indices name; the staging scratch their
    transposed, scaled copy; a piece of the result the values the kernel's result function gives there. -/

noncomputable section

namespace Cert.Proof.K
open Cert.KernelIdeal Cert.KernelIdeal.Gen
open Idealize.ShloMosaic Idealize.ShloMosaic.ValueIdx

variable {F : FTy → Type}

theorem trips1 : k0_t1_loop.trips = 50 := by decide

/-- The tile's first batch column. -/
def wbL (L : grid0.Coords) : ℕ := 1024 * (L 1).val + 512 * (L 0).val
theorem L_bounds (L : grid0.Coords) : (L 0).val < 2 ∧ (L 1).val < 16 := ⟨(L 0).isLt, (L 1).isLt⟩
/-- The tile's worker number. -/
def widL (L : grid0.Coords) : Fin 32 := ⟨2 * (L 1).val + (L 0).val, by have := L_bounds L; omega⟩

/-- Where chunk `(k, b)` of the tile's loop starts in the flattened indices: row `k` of the history, the tile's columns,
    the first or the second 256 of them. -/
def xoff (L : grid0.Coords) (k : Fin k0_t1_loop.trips) (b : Fin 2) : ℕ := 16384 * k.val + wbL L + 256 * b.val

theorem xoff_lt (L : grid0.Coords) (k : Fin k0_t1_loop.trips) (b : Fin 2) (j : Fin 256) : xoff L k b + j.val < 819200 := by
  have hk : k.val < 50 := by have h1 := k.isLt; have h2 := trips1; omega
  have hL := L_bounds L; have hb := b.isLt; have hj := j.isLt
  unfold xoff wbL; omega

/-- An index list holds its chunk's 256 indices. -/
def IdxOK (X : IVec S819200 32) (L : grid0.Coords) (k : Fin k0_t1_loop.trips) (b : Fin 2) (I : IVec S256 32) : Prop :=
  ∀ j : Fin 256, I (ix1 j) = X (ix1 (⟨xoff L k b + j.val, xoff_lt L k b j⟩ : Fin 819200))

variable [FloatOps F]

/-- A row buffer holds the padded table's rows its chunk's indices name. -/
def RowsOK (X : IVec S819200 32) (Tp : Vec F S1000000x128 .f32) (L : grid0.Coords) (k : Fin k0_t1_loop.trips) (b : Fin 2)
    (R : Vec F S256x128 .f32) : Prop :=
  ∀ (r : Fin 256) (c : Fin 128),
    R (ix2 r c) = Tp (ix2 (⟨(X (ix1 (⟨xoff L k b + r.val, xoff_lt L k b r⟩ : Fin 819200))).toNat % 1000000, Nat.mod_lt _ (by decide)⟩ : Fin 1000000) c)

/-- The staging scratch holds the chunk's rows transposed and scaled. -/
def TbOK (X : IVec S819200 32) (Tp : Vec F S1000000x128 .f32) (L : grid0.Coords) (k : Fin k0_t1_loop.trips) (b : Fin 2)
    (f : Vec F S128x128 .f32) : Prop :=
  ∃ R, RowsOK X Tp L k b R ∧ f = Cert.Proof.KW.T8 R

/-- On the elements `S` the result holds what the kernel's result function gives. -/
def GdOK (X : IVec S819200 32) (Tp : Vec F S1000000x128 .f32) (S : Finset S50x64x16384.Idx) (g : Vec F S50x64x16384 .f32) : Prop :=
  ∀ p ∈ S, g p = Cert.Proof.KHost.OutSpec X Tp p

end Cert.Proof.K
end
-- ==== Proof.KInv.lean ====
import proofs.«206429_g47863115546636_cont_8to1c4_619_32_alg».proof.Proof.KPred

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.K Cert.Proof.KW

variable {F : FTy → Type}
local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

/-! What a tile holds between two trips of its chunk loop: the row gather of the trip's first chunk and the index fetch
    of its second in flight, the previous trip's second chunk on its way out of the staging scratch, and the pieces of
    the tile's columns of the result, each held by exactly its own elements — with what each of them holds. -/
variable [FloatOps F]

section Inv
variable (d : Dev nD) (L : grid0.Coords) (O : CellTallies nD τ sig (HIx 1)) (W : Waits sig (HIx 1)) (q : PosShare TreeShare)
variable (X : Buf (Elt F) ((V d (cV L) (jV L)).loc main_v1_scv)) (Tp : Buf (Elt F) ((V d (cV L) (jV L)).loc main_v2_scv))

abbrev N1M : ℕ := S1000000x128.size gathers_S1000000x128_S256x128.axis

/-- Trip number `n` as a trip (any trip past the last, where it is not used). -/
def kOf (n : ℕ) : Fin k0_t1_loop.trips := ⟨n % 50, by rw [trips1]; exact Nat.mod_lt _ (by decide)⟩

/-- The index fetch of trip `n`'s second chunk, on its way into the second index list. -/
def flyI1 (n : ℕ) : sProp 𝕄 :=
  iprop(∃ (SX : Finset ((V d (cV L) (jV L)).loc main_v1_scv).ty.Idx) (I1 : Buf (Elt F) ((V d (cV L) (jV L)).loc cc0_scratch1)),
    Transfers.Flight countersEmb (V d (cV L) (jV L)) (SemLoc.dma cc0_scratch9.sem) (default : HIx 1) 8192
        iprop(((i1).view.loc (V d (cV L) (jV L)) ↦{fullShare} I1) ∗ ((xW).view.loc (V d (cV L) (jV L)) ↦[SX]{Transfers.shareTok q 5 4} X))
    ∗ ((xW).view.loc (V d (cV L) (jV L)) ↦[Finset.univ \ SX]{Transfers.shareTok q 5 4} X)
    ∗ ⌜(∀ j, ((i1).view.read (Elt F) I1 j).toNat < N1M) ∧ IdxOK X L (kOf n) 1 I1⌝)

/-- The row gather of trip `n`'s first chunk, on its way into the first row buffer. -/
def flyG0 (n : ℕ) : sProp 𝕄 :=
  iprop(∃ (ST : Finset ((V d (cV L) (jV L)).loc main_v2_scv).ty.Idx) (G0 : Buf (Elt F) ((V d (cV L) (jV L)).loc cc0_scratch2)) (I0 : Buf (Elt F) ((V d (cV L) (jV L)).loc cc0_scratch0)),
    Transfers.Flight countersEmb (V d (cV L) (jV L)) (SemLoc.dma cc0_scratch5.sem) (default : HIx 1) 1048576
        iprop((((r0).view.loc (V d (cV L) (jV L)) ↦{fullShare} G0) ∗ ((i0).view.loc (V d (cV L) (jV L)) ↦{fullShare} I0)) ∗ ((tW).view.loc (V d (cV L) (jV L)) ↦[ST]{Transfers.shareTok q 5 0} Tp))
    ∗ ((tW).view.loc (V d (cV L) (jV L)) ↦[Finset.univ \ ST]{Transfers.shareTok q 5 0} Tp)
    ∗ ⌜RowsOK X Tp L (kOf n) 0 G0⌝)

/-- The sixteen copies of a trip's second chunk out of the staging scratch, all issued, none waited for. -/
def batchB (kp : Fin k0_t1_loop.trips) : sProp 𝕄 :=
  iprop(∃ (f : Buf (Elt F) ((V d (cV L) (jV L)).loc cc0_scratch4)) (g0 : Buf (Elt F) ((V d (cV L) (jV L)).loc main_v3_scv)) (g1 : Buf (Elt F) ((V d (cV L) (jV L)).loc main_v3_scv)) (g2 : Buf (Elt F) ((V d (cV L) (jV L)).loc main_v3_scv)) (g3 : Buf (Elt F) ((V d (cV L) (jV L)).loc main_v3_scv)) (g4 : Buf (Elt F) ((V d (cV L) (jV L)).loc main_v3_scv)) (g5 : Buf (Elt F) ((V d (cV L) (jV L)).loc main_v3_scv)) (g6 : Buf (Elt F) ((V d (cV L) (jV L)).loc main_v3_scv)) (g7 : Buf (Elt F) ((V d (cV L) (jV L)).loc main_v3_scv)) (g8 : Buf (Elt F) ((V d (cV L) (jV L)).loc main_v3_scv)) (g9 : Buf (Elt F) ((V d (cV L) (jV L)).loc main_v3_scv)) (g10 : Buf (Elt F) ((V d (cV L) (jV L)).loc main_v3_scv)) (g11 : Buf (Elt F) ((V d (cV L) (jV L)).loc main_v3_scv)) (g12 : Buf (Elt F) ((V d (cV L) (jV L)).loc main_v3_scv)) (g13 : Buf (Elt F) ((V d (cV L) (jV L)).loc main_v3_scv)) (g14 : Buf (Elt F) ((V d (cV L) (jV L)).loc main_v3_scv)) (g15 : Buf (Elt F) ((V d (cV L) (jV L)).loc main_v3_scv)),
    Transfers.Batched countersEmb (V d (cV L) (jV L)) (SemLoc.dma cc0_scratch7.sem) (default : HIx 1) 32768 16
      [deliv d L (dM1_0 L kp) sM_0 g0 f, deliv d L (dM1_1 L kp) sM_1 g1 f, deliv d L (dM1_2 L kp) sM_2 g2 f, deliv d L (dM1_3 L kp) sM_3 g3 f, deliv d L (dM1_4 L kp) sM_4 g4 f, deliv d L (dM1_5 L kp) sM_5 g5 f, deliv d L (dM1_6 L kp) sM_6 g6 f, deliv d L (dM1_7 L kp) sM_7 g7 f, deliv d L (dM1_8 L kp) sM_8 g8 f, deliv d L (dM1_9 L kp) sM_9 g9 f, deliv d L (dM1_10 L kp) sM_10 g10 f, deliv d L (dM1_11 L kp) sM_11 g11 f, deliv d L (dM1_12 L kp) sM_12 g12 f, deliv d L (dM1_13 L kp) sM_13 g13 f, deliv d L (dM1_14 L kp) sM_14 g14 f, deliv d L (dM1_15 L kp) sM_15 g15 f] 0
    ∗ ⌜TbOK X Tp L kp 1 f⌝)

/-- The sixteen pieces of the result a trip's first chunk fills — holding the result's values there once `ok` —; and
    its second chunk's. -/
def SlA (ok : Prop) (k : Fin k0_t1_loop.trips) : sProp 𝕄 :=
  iprop((∃ g, ((dM0_0 L k).view.loc (V d (cV L) (jV L)) ↦[(dM0_0 L k).view.set]{fullShare} g) ∗ ⌜ok → GdOK X Tp (dM0_0 L k).view.set g⌝)
    ∗ (∃ g, ((dM0_1 L k).view.loc (V d (cV L) (jV L)) ↦[(dM0_1 L k).view.set]{fullShare} g) ∗ ⌜ok → GdOK X Tp (dM0_1 L k).view.set g⌝)
    ∗ (∃ g, ((dM0_2 L k).view.loc (V d (cV L) (jV L)) ↦[(dM0_2 L k).view.set]{fullShare} g) ∗ ⌜ok → GdOK X Tp (dM0_2 L k).view.set g⌝)
    ∗ (∃ g, ((dM0_3 L k).view.loc (V d (cV L) (jV L)) ↦[(dM0_3 L k).view.set]{fullShare} g) ∗ ⌜ok → GdOK X Tp (dM0_3 L k).view.set g⌝)
    ∗ (∃ g, ((dM0_4 L k).view.loc (V d (cV L) (jV L)) ↦[(dM0_4 L k).view.set]{fullShare} g) ∗ ⌜ok → GdOK X Tp (dM0_4 L k).view.set g⌝)
    ∗ (∃ g, ((dM0_5 L k).view.loc (V d (cV L) (jV L)) ↦[(dM0_5 L k).view.set]{fullShare} g) ∗ ⌜ok → GdOK X Tp (dM0_5 L k).view.set g⌝)
    ∗ (∃ g, ((dM0_6 L k).view.loc (V d (cV L) (jV L)) ↦[(dM0_6 L k).view.set]{fullShare} g) ∗ ⌜ok → GdOK X Tp (dM0_6 L k).view.set g⌝)
    ∗ (∃ g, ((dM0_7 L k).view.loc (V d (cV L) (jV L)) ↦[(dM0_7 L k).view.set]{fullShare} g) ∗ ⌜ok → GdOK X Tp (dM0_7 L k).view.set g⌝)
    ∗ (∃ g, ((dM0_8 L k).view.loc (V d (cV L) (jV L)) ↦[(dM0_8 L k).view.set]{fullShare} g) ∗ ⌜ok → GdOK X Tp (dM0_8 L k).view.set g⌝)
    ∗ (∃ g, ((dM0_9 L k).view.loc (V d (cV L) (jV L)) ↦[(dM0_9 L k).view.set]{fullShare} g) ∗ ⌜ok → GdOK X Tp (dM0_9 L k).view.set g⌝)
    ∗ (∃ g, ((dM0_10 L k).view.loc (V d (cV L) (jV L)) ↦[(dM0_10 L k).view.set]{fullShare} g) ∗ ⌜ok → GdOK X Tp (dM0_10 L k).view.set g⌝)
    ∗ (∃ g, ((dM0_11 L k).view.loc (V d (cV L) (jV L)) ↦[(dM0_11 L k).view.set]{fullShare} g) ∗ ⌜ok → GdOK X Tp (dM0_11 L k).view.set g⌝)
    ∗ (∃ g, ((dM0_12 L k).view.loc (V d (cV L) (jV L)) ↦[(dM0_12 L k).view.set]{fullShare} g) ∗ ⌜ok → GdOK X Tp (dM0_12 L k).view.set g⌝)
    ∗ (∃ g, ((dM0_13 L k).view.loc (V d (cV L) (jV L)) ↦[(dM0_13 L k).view.set]{fullShare} g) ∗ ⌜ok → GdOK X Tp (dM0_13 L k).view.set g⌝)
    ∗ (∃ g, ((dM0_14 L k).view.loc (V d (cV L) (jV L)) ↦[(dM0_14 L k).view.set]{fullShare} g) ∗ ⌜ok → GdOK X Tp (dM0_14 L k).view.set g⌝)
    ∗ (∃ g, ((dM0_15 L k).view.loc (V d (cV L) (jV L)) ↦[(dM0_15 L k).view.set]{fullShare} g) ∗ ⌜ok → GdOK X Tp (dM0_15 L k).view.set g⌝))
def SlB (ok : Prop) (k : Fin k0_t1_loop.trips) : sProp 𝕄 :=
  iprop((∃ g, ((dM1_0 L k).view.loc (V d (cV L) (jV L)) ↦[(dM1_0 L k).view.set]{fullShare} g) ∗ ⌜ok → GdOK X Tp (dM1_0 L k).view.set g⌝)
    ∗ (∃ g, ((dM1_1 L k).view.loc (V d (cV L) (jV L)) ↦[(dM1_1 L k).view.set]{fullShare} g) ∗ ⌜ok → GdOK X Tp (dM1_1 L k).view.set g⌝)
    ∗ (∃ g, ((dM1_2 L k).view.loc (V d (cV L) (jV L)) ↦[(dM1_2 L k).view.set]{fullShare} g) ∗ ⌜ok → GdOK X Tp (dM1_2 L k).view.set g⌝)
    ∗ (∃ g, ((dM1_3 L k).view.loc (V d (cV L) (jV L)) ↦[(dM1_3 L k).view.set]{fullShare} g) ∗ ⌜ok → GdOK X Tp (dM1_3 L k).view.set g⌝)
    ∗ (∃ g, ((dM1_4 L k).view.loc (V d (cV L) (jV L)) ↦[(dM1_4 L k).view.set]{fullShare} g) ∗ ⌜ok → GdOK X Tp (dM1_4 L k).view.set g⌝)
    ∗ (∃ g, ((dM1_5 L k).view.loc (V d (cV L) (jV L)) ↦[(dM1_5 L k).view.set]{fullShare} g) ∗ ⌜ok → GdOK X Tp (dM1_5 L k).view.set g⌝)
    ∗ (∃ g, ((dM1_6 L k).view.loc (V d (cV L) (jV L)) ↦[(dM1_6 L k).view.set]{fullShare} g) ∗ ⌜ok → GdOK X Tp (dM1_6 L k).view.set g⌝)
    ∗ (∃ g, ((dM1_7 L k).view.loc (V d (cV L) (jV L)) ↦[(dM1_7 L k).view.set]{fullShare} g) ∗ ⌜ok → GdOK X Tp (dM1_7 L k).view.set g⌝)
    ∗ (∃ g, ((dM1_8 L k).view.loc (V d (cV L) (jV L)) ↦[(dM1_8 L k).view.set]{fullShare} g) ∗ ⌜ok → GdOK X Tp (dM1_8 L k).view.set g⌝)
    ∗ (∃ g, ((dM1_9 L k).view.loc (V d (cV L) (jV L)) ↦[(dM1_9 L k).view.set]{fullShare} g) ∗ ⌜ok → GdOK X Tp (dM1_9 L k).view.set g⌝)
    ∗ (∃ g, ((dM1_10 L k).view.loc (V d (cV L) (jV L)) ↦[(dM1_10 L k).view.set]{fullShare} g) ∗ ⌜ok → GdOK X Tp (dM1_10 L k).view.set g⌝)
    ∗ (∃ g, ((dM1_11 L k).view.loc (V d (cV L) (jV L)) ↦[(dM1_11 L k).view.set]{fullShare} g) ∗ ⌜ok → GdOK X Tp (dM1_11 L k).view.set g⌝)
    ∗ (∃ g, ((dM1_12 L k).view.loc (V d (cV L) (jV L)) ↦[(dM1_12 L k).view.set]{fullShare} g) ∗ ⌜ok → GdOK X Tp (dM1_12 L k).view.set g⌝)
    ∗ (∃ g, ((dM1_13 L k).view.loc (V d (cV L) (jV L)) ↦[(dM1_13 L k).view.set]{fullShare} g) ∗ ⌜ok → GdOK X Tp (dM1_13 L k).view.set g⌝)
    ∗ (∃ g, ((dM1_14 L k).view.loc (V d (cV L) (jV L)) ↦[(dM1_14 L k).view.set]{fullShare} g) ∗ ⌜ok → GdOK X Tp (dM1_14 L k).view.set g⌝)
    ∗ (∃ g, ((dM1_15 L k).view.loc (V d (cV L) (jV L)) ↦[(dM1_15 L k).view.set]{fullShare} g) ∗ ⌜ok → GdOK X Tp (dM1_15 L k).view.set g⌝))

def owesPart : sProp 𝕄 := iprop(∃ W', owes (V d (cV L) (jV L)) O W' ∗ ⌜∀ p ∈ W', p ∈ W ∨ p.2 = none⌝)

def coreFly (n : ℕ) : sProp 𝕄 :=
  iprop(Transfers.MayWaits (V d (cV L) (jV L)) (none : HIx 1) O
    ∗ ((xW).view.loc (V d (cV L) (jV L)) ↦{Transfers.shareTok q 5 3} X) ∗ flyI1 d L q X n ∗ flyG0 d L q X Tp n
    ∗ ((tW).view.loc (V d (cV L) (jV L)) ↦{Transfers.shareTok q 5 1} Tp)
    ∗ (∃ g1, ((r1).view.loc (V d (cV L) (jV L)) ↦{fullShare} g1))
    ∗ semVal ((V d (cV L) (jV L)), SemLoc.dma cc0_scratch6.sem) 0 ∗ semVal ((V d (cV L) (jV L)), SemLoc.dma cc0_scratch8.sem) 0
    ∗ owesPart d L O W)

def coreIdle : sProp 𝕄 :=
  iprop(Transfers.MayWaits (V d (cV L) (jV L)) (none : HIx 1) O
    ∗ ((xW).view.loc (V d (cV L) (jV L)) ↦{Transfers.shareTok q 5 3} X) ∗ ((xW).view.loc (V d (cV L) (jV L)) ↦{Transfers.shareTok q 5 4} X)
    ∗ ((tW).view.loc (V d (cV L) (jV L)) ↦{Transfers.shareTok q 5 0} Tp) ∗ ((tW).view.loc (V d (cV L) (jV L)) ↦{Transfers.shareTok q 5 1} Tp)
    ∗ (∃ g, ((r0).view.loc (V d (cV L) (jV L)) ↦{fullShare} g)) ∗ (∃ g, ((r1).view.loc (V d (cV L) (jV L)) ↦{fullShare} g))
    ∗ (∃ g, ((i0).view.loc (V d (cV L) (jV L)) ↦{fullShare} g)) ∗ (∃ g, ((i1).view.loc (V d (cV L) (jV L)) ↦{fullShare} g))
    ∗ semVal ((V d (cV L) (jV L)), SemLoc.dma cc0_scratch5.sem) 0 ∗ semVal ((V d (cV L) (jV L)), SemLoc.dma cc0_scratch6.sem) 0
    ∗ semVal ((V d (cV L) (jV L)), SemLoc.dma cc0_scratch8.sem) 0 ∗ semVal ((V d (cV L) (jV L)), SemLoc.dma cc0_scratch9.sem) 0
    ∗ owesPart d L O W)

/-- The staging scratch at rest. -/
def tbIdle : sProp 𝕄 := iprop((∃ f, ((tb).view.loc (V d (cV L) (jV L)) ↦{fullShare} f)) ∗ semVal ((V d (cV L) (jV L)), SemLoc.dma cc0_scratch7.sem) 0)

end Inv

/-- The transposition loops' invariants: the rows kept, the staging scratch done up to the trip. -/
def invR0 (d : Dev nD) (L : grid0.Coords) (R : Buf (Elt F) ((V d (cV L) (jV L)).loc cc0_scratch2)) (n : Nat) (_ : PUnit) : sProp 𝕄 :=
  iprop(((r0).view.loc (V d (cV L) (jV L)) ↦{fullShare} R) ∗ ∃ f, ⌜Done n R f⌝ ∗ ((tb).view.loc (V d (cV L) (jV L)) ↦{fullShare} f))
def invR1 (d : Dev nD) (L : grid0.Coords) (R : Buf (Elt F) ((V d (cV L) (jV L)).loc cc0_scratch3)) (n : Nat) (_ : PUnit) : sProp 𝕄 :=
  iprop(((r1).view.loc (V d (cV L) (jV L)) ↦{fullShare} R) ∗ ∃ f, ⌜Done n R f⌝ ∗ ((tb).view.loc (V d (cV L) (jV L)) ↦{fullShare} f))

/-- The first word of the body: the tile's first batch column. -/
def w2 (L : grid0.Coords) : BitVec 32 :=
  Scalar.muli (Scalar.addi (Scalar.muli (BitVec.ofNat 32 (L 1).val) 2#32) (BitVec.ofNat 32 (L 0).val)) 512#32

/-- One trip of the transposition loop over the first row buffer, as the chunk trips use it: the rows kept, the
    staging scratch done one trip further. -/
abbrev Inner2 (d : Dev nD) (L : grid0.Coords) : Prop :=
  ∀ (k : Fin k0_t1_loop.trips) (v245 v275 : BitVec 32) (g : Fin k0_t2_loop.trips) (R : Buf (Elt F) ((V d (cV L) (jV L)).loc cc0_scratch2)) (f : Buf (Elt F) ((V d (cV L) (jV L)).loc cc0_scratch4)),
    Done g.val R f →
    iprop(((r0).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ (k0_t2_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k v245 v275 g ())
          fun _ => iprop(((r0).view.loc (V d (cV L) (jV L)) ↦{fullShare} R) ∗ ∃ f', ⌜Done (g.val + 1) R f'⌝ ∗ ((tb).view.loc (V d (cV L) (jV L)) ↦{fullShare} f')) : sProp 𝕄)
abbrev Inner3 (d : Dev nD) (L : grid0.Coords) : Prop :=
  ∀ (k : Fin k0_t1_loop.trips) (v400 v401 v420 v421 : BitVec 32) (v422 v423 : BitVec 1) (g : Fin k0_t3_loop.trips) (R : Buf (Elt F) ((V d (cV L) (jV L)).loc cc0_scratch3)) (f : Buf (Elt F) ((V d (cV L) (jV L)).loc cc0_scratch4)),
    Done g.val R f →
    iprop(((r1).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ (k0_t3_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k v400 v401 v420 v421 v422 v423 g ())
          fun _ => iprop(((r1).view.loc (V d (cV L) (jV L)) ↦{fullShare} R) ∗ ∃ f', ⌜Done (g.val + 1) R f'⌝ ∗ ((tb).view.loc (V d (cV L) (jV L)) ↦{fullShare} f')) : sProp 𝕄)

/-- A wait recorded at the kernels' index keeps the record admissible. -/
theorem okW_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- A buffer's contents named, with the equation. -/
theorem pts_ex_eq {ℓ : Loc nD τ sig} {q : PosShare TreeShare} (f : Buf (Elt F) ℓ) :
    (ℓ ↦{q} f : sProp 𝕄) ⊢ iprop(∃ g, (ℓ ↦{q} g) ∗ ⌜g = f⌝) := by
  iintro H; iexists f; isplitl [H]; · iexact H
  ipureintro; rfl

omit [FloatOps F] in
/-- A fetched index list holds words of the flattened indices: each names a table row. -/
theorem hin_i0 (d : Dev nD) (L : grid0.Coords) (X : Buf (Elt F) ((V d (cV L) (jV L)).loc main_v1_scv)) (hX : ∀ j, (X j).toNat < 1000000)
    (g : Buf (Elt F) ((V d (cV L) (jV L)).loc cc0_scratch0)) (off : Fin 1 → Nat) (hoff : ∀ a, off a + S256.size a ≤ S819200.size a) (j : S256.Idx) :
    ((i0).view.read (Elt F) (View.write (Elt F) (i0).view g (ReadAs.same.apply (View.read (Elt F) ((xW).slice (Rect.unit (s := S819200) off S256.size hoff) (fun _ => rfl)).view X)) Finset.univ) j).toNat
      < N1M := by
  rw [View.write_whole_univ]
  simp only [Memref.view_whole, View.read_whole]
  have key : ∀ y, (ReadAs.same.apply (View.read (Elt F) ((xW).slice (Rect.unit (s := S819200) off S256.size hoff) (fun _ => rfl)).view X) y)
      = X (((xW).slice (Rect.unit (s := S819200) off S256.size hoff) (fun _ => rfl)).view.emb y) := fun y => (View.read_apply _ _).trans (cast_eq _ _)
  rw [key]; exact hX _
omit [FloatOps F] in
theorem hin_i1 (d : Dev nD) (L : grid0.Coords) (X : Buf (Elt F) ((V d (cV L) (jV L)).loc main_v1_scv)) (hX : ∀ j, (X j).toNat < 1000000)
    (g : Buf (Elt F) ((V d (cV L) (jV L)).loc cc0_scratch1)) (off : Fin 1 → Nat) (hoff : ∀ a, off a + S256.size a ≤ S819200.size a) (j : S256.Idx) :
    ((i1).view.read (Elt F) (View.write (Elt F) (i1).view g (ReadAs.same.apply (View.read (Elt F) ((xW).slice (Rect.unit (s := S819200) off S256.size hoff) (fun _ => rfl)).view X)) Finset.univ) j).toNat
      < N1M := by
  rw [View.write_whole_univ]
  simp only [Memref.view_whole, View.read_whole]
  have key : ∀ y, (ReadAs.same.apply (View.read (Elt F) ((xW).slice (Rect.unit (s := S819200) off S256.size hoff) (fun _ => rfl)).view X) y)
      = X (((xW).slice (Rect.unit (s := S819200) off S256.size hoff) (fun _ => rfl)).view.emb y) := fun y => (View.read_apply _ _).trans (cast_eq _ _)
  rw [key]; exact hX _

end Cert.Proof.K
end
-- ==== Proof.KOff.lean ====
import proofs.«206429_g47863115546636_cont_8to1c4_619_32_alg».proof.Proof.Gen.KernelIdeal

/-! Closed forms of the offsets of the sixteen pieces a chunk's copy-out writes: the chunk's row of the result, eight
    feature rows, and 128 of the tile's batch columns. -/
set_option Elab.async false

namespace Cert.Proof.K
open Cert.KernelIdeal Cert.KernelIdeal.Gen Idealize.ShloMosaic

theorem off12_eq : ∀ (L : grid0.Coords) (k : Fin k0_t1_loop.trips) (r₁ r₂ : Fin 2),
    k0_off12 L k (BitVec.ofNat 32 r₁.val) (BitVec.ofNat 32 (128 * r₂.val))
      = ![k.val, 0, 1024 * (L 1).val + 512 * (L 0).val + 256 * r₁.val + 128 * r₂.val] := by decide +kernel
theorem off13_eq : ∀ (L : grid0.Coords) (k : Fin k0_t1_loop.trips) (r₁ r₂ : Fin 2),
    k0_off13 L k (BitVec.ofNat 32 r₁.val) (BitVec.ofNat 32 (128 * r₂.val))
      = ![k.val, 8, 1024 * (L 1).val + 512 * (L 0).val + 256 * r₁.val + 128 * r₂.val] := by decide +kernel
theorem off14_eq : ∀ (L : grid0.Coords) (k : Fin k0_t1_loop.trips) (r₁ r₂ : Fin 2),
    k0_off14 L k (BitVec.ofNat 32 r₁.val) (BitVec.ofNat 32 (128 * r₂.val))
      = ![k.val, 16, 1024 * (L 1).val + 512 * (L 0).val + 256 * r₁.val + 128 * r₂.val] := by decide +kernel
theorem off15_eq : ∀ (L : grid0.Coords) (k : Fin k0_t1_loop.trips) (r₁ r₂ : Fin 2),
    k0_off15 L k (BitVec.ofNat 32 r₁.val) (BitVec.ofNat 32 (128 * r₂.val))
      = ![k.val, 24, 1024 * (L 1).val + 512 * (L 0).val + 256 * r₁.val + 128 * r₂.val] := by decide +kernel
theorem off16_eq : ∀ (L : grid0.Coords) (k : Fin k0_t1_loop.trips) (r₁ r₂ : Fin 2),
    k0_off16 L k (BitVec.ofNat 32 r₁.val) (BitVec.ofNat 32 (128 * r₂.val))
      = ![k.val, 32, 1024 * (L 1).val + 512 * (L 0).val + 256 * r₁.val + 128 * r₂.val] := by decide +kernel
theorem off17_eq : ∀ (L : grid0.Coords) (k : Fin k0_t1_loop.trips) (r₁ r₂ : Fin 2),
    k0_off17 L k (BitVec.ofNat 32 r₁.val) (BitVec.ofNat 32 (128 * r₂.val))
      = ![k.val, 40, 1024 * (L 1).val + 512 * (L 0).val + 256 * r₁.val + 128 * r₂.val] := by decide +kernel
theorem off18_eq : ∀ (L : grid0.Coords) (k : Fin k0_t1_loop.trips) (r₁ r₂ : Fin 2),
    k0_off18 L k (BitVec.ofNat 32 r₁.val) (BitVec.ofNat 32 (128 * r₂.val))
      = ![k.val, 48, 1024 * (L 1).val + 512 * (L 0).val + 256 * r₁.val + 128 * r₂.val] := by decide +kernel
theorem off19_eq : ∀ (L : grid0.Coords) (k : Fin k0_t1_loop.trips) (r₁ r₂ : Fin 2),
    k0_off19 L k (BitVec.ofNat 32 r₁.val) (BitVec.ofNat 32 (128 * r₂.val))
      = ![k.val, 56, 1024 * (L 1).val + 512 * (L 0).val + 256 * r₁.val + 128 * r₂.val] := by decide +kernel

end Cert.Proof.K
-- ==== Proof.KTile.lean ====
/-
  A tile's share of the result, piece by piece, and what its scratches hold.

  A tile (SparseCore c, subcore i; worker 2 i + c) owns 512 batch columns of the result [50, 64, 16384], columns
  1024 i + 512 c onward. Its loop makes fifty trips, one per history row k; a trip has two chunks of 256 columns
  (b = 0, 1), and a chunk is written out as sixteen pieces of eight feature rows by 128 columns: piece t covers
  feature rows 8 (t / 2) … 8 (t / 2) + 7 and columns 1024 i + 512 c + 256 b + 128 (t mod 2) onward, 128 of them.
  The 1600 pieces are pairwise disjoint and cover exactly the tile's columns, so holding the columns is holding the
  pieces, and pieces each right on its own rectangle join to the columns right everywhere.

  The values: a chunk's 256 indices are a stretch of the flattened index list starting at 16384 k + (the tile's
  first column) + 256 b; the gathered rows are the padded table's rows those indices name; the staging scratch holds
  them transposed and scaled by eight; and piece t copies out rows 8 t … 8 t + 7 of the staging scratch, which at
  result position (k, r, q) is eight times the table's entry at the row named by index 16384 k + q, column r: the
  specified result.
-/
import proofs.«206429_g47863115546636_cont_8to1c4_619_32_alg».proof.Proof.KPred
import proofs.«206429_g47863115546636_cont_8to1c4_619_32_alg».proof.Proof.KInv
import proofs.«206429_g47863115546636_cont_8to1c4_619_32_alg».proof.Proof.KOff
noncomputable section
namespace Cert.Proof.K
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KW

variable {F : FTy → Type}
local notation "𝕄" => MT nD τ sig (HIx 1) (Elt F) ℕ UU ℕ
local notation "xW" => (Memref.whole main_v1_scv : Memref sig Kind.scVector Space.hbm S819200 EltTy.i32)
local notation "tW" => (Memref.whole main_v2_scv : Memref sig Kind.scVector Space.hbm S1000000x128 EltTy.f32)
local notation "oW" => (Memref.whole main_v3_scv : Memref sig Kind.scVector Space.hbm S50x64x16384 EltTy.f32)
local notation "i0" => (Memref.whole cc0_scratch0 : Memref sig Kind.scVector Space.vmem S256 EltTy.i32)
local notation "i1" => (Memref.whole cc0_scratch1 : Memref sig Kind.scVector Space.vmem S256 EltTy.i32)
local notation "r0" => (Memref.whole cc0_scratch2 : Memref sig Kind.scVector Space.vmem S256x128 EltTy.f32)
local notation "r1" => (Memref.whole cc0_scratch3 : Memref sig Kind.scVector Space.vmem S256x128 EltTy.f32)
local notation "tb" => (Memref.whole cc0_scratch4 : Memref sig Kind.scVector Space.vmem S128x128 EltTy.f32)

/-! ## The two index prefetches inside the loop -/

set_option Elab.async false in
theorem off3_eq' : ∀ (L : grid0.Coords) (k : Fin k0_t1_loop.trips), k0_cond2 k = 1#1 → k0_off3 L k = ![xoff L (kOf (k.val + 1)) 0] := by
  decide +kernel
set_option Elab.async false in
theorem off21_eq' : ∀ (L : grid0.Coords) (k : Fin k0_t1_loop.trips), k0_cond5 k = 1#1 → k0_off21 L k = ![xoff L (kOf (k.val + 1)) 1] := by
  decide +kernel

/-- The first chunk's prefetch inside trip k fetches the next trip's first 256 indices. -/
theorem off3_eq (L : grid0.Coords) (k : Fin k0_t1_loop.trips) (h2 : k0_cond2 k = 1#1) : k0_off3 L k = ![xoff L (kOf (k.val + 1)) 0] :=
  off3_eq' L k h2
/-- The second chunk's prefetch inside trip k fetches the next trip's second 256 indices. -/
theorem off21_eq (L : grid0.Coords) (k : Fin k0_t1_loop.trips) (h5 : k0_cond5 k = 1#1) : k0_off21 L k = ![xoff L (kOf (k.val + 1)) 1] :=
  off21_eq' L k h5

/-! ## The pieces as rectangles: disjoint, and covering the tile's columns -/

theorem sl_inb (L : grid0.Coords) (k : Fin k0_t1_loop.trips) (b : Fin 2) (t : Fin 16) :
    ∀ a, (![k.val, 8 * (t.val / 2), wbL L + 256 * b.val + 128 * (t.val % 2)] : Fin 3 → ℕ) a + S1x8x128.size a ≤ S50x64x16384.size a := by
  have hk : k.val < 50 := by have h1 := k.isLt; have h2 := trips1; omega
  have hL := L_bounds L; have hb := b.isLt; have ht := t.isLt
  intro a
  match a with
  | 0 => show k.val + 1 ≤ 50; omega
  | 1 => show 8 * (t.val / 2) + 8 ≤ 64; omega
  | 2 => show wbL L + 256 * b.val + 128 * (t.val % 2) + 128 ≤ 16384; unfold wbL; omega

abbrev slRect (L : grid0.Coords) (k : Fin k0_t1_loop.trips) (b : Fin 2) (t : Fin 16) : Rect S50x64x16384 :=
  Rect.unit (s := S50x64x16384) ![k.val, 8 * (t.val / 2), wbL L + 256 * b.val + 128 * (t.val % 2)] S1x8x128.size (sl_inb L k b t)

theorem mem_slRect (L : grid0.Coords) (k : Fin k0_t1_loop.trips) (b : Fin 2) (t : Fin 16) (p : S50x64x16384.Idx) :
    p ∈ (slRect L k b t).set ↔ (p 0).val = k.val ∧ 8 * (t.val / 2) ≤ (p 1).val ∧ (p 1).val < 8 * (t.val / 2) + 8
      ∧ wbL L + 256 * b.val + 128 * (t.val % 2) ≤ (p 2).val ∧ (p 2).val < wbL L + 256 * b.val + 128 * (t.val % 2) + 128 := by
  rw [Rect.mem_set_unit]
  constructor
  · intro h
    have h0 := h 0; have h1 := h 1; have h2 := h 2
    have e0 : k.val ≤ (p 0).val ∧ (p 0).val < k.val + 1 := h0
    have e1 : 8 * (t.val / 2) ≤ (p 1).val ∧ (p 1).val < 8 * (t.val / 2) + 8 := h1
    have e2 : wbL L + 256 * b.val + 128 * (t.val % 2) ≤ (p 2).val ∧ (p 2).val < wbL L + 256 * b.val + 128 * (t.val % 2) + 128 := h2
    omega
  · intro h a
    match a with
    | 0 => show k.val ≤ (p 0).val ∧ (p 0).val < k.val + 1; omega
    | 1 => show 8 * (t.val / 2) ≤ (p 1).val ∧ (p 1).val < 8 * (t.val / 2) + 8; omega
    | 2 => show wbL L + 256 * b.val + 128 * (t.val % 2) ≤ (p 2).val ∧ (p 2).val < wbL L + 256 * b.val + 128 * (t.val % 2) + 128; omega

theorem mem_colsSet (w : Fin 32) (p : S50x64x16384.Idx) : p ∈ colsSet w ↔ 512 * w.val ≤ (p 2).val ∧ (p 2).val < 512 * w.val + 512 := by
  unfold colsSet colsRect Rect.part Rect.block
  rw [Rect.mem_set_unit]
  have p0 : (p 0).val < 50 := (p 0).isLt
  have p1 : (p 1).val < 64 := (p 1).isLt
  constructor
  · intro h
    have h2 := h 2
    have e2 : w.val * 512 ≤ (p 2).val ∧ (p 2).val < w.val * 512 + 512 := h2
    omega
  · intro h a
    match a with
    | 0 => show 0 * 50 ≤ (p 0).val ∧ (p 0).val < 0 * 50 + 50; omega
    | 1 => show 0 * 64 ≤ (p 1).val ∧ (p 1).val < 0 * 64 + 64; omega
    | 2 => show w.val * 512 ≤ (p 2).val ∧ (p 2).val < w.val * 512 + 512; omega

theorem sl_disj (L : grid0.Coords) (x y : Fin k0_t1_loop.trips × Fin 2 × Fin 16) (h : x ≠ y) :
    Disjoint (slRect L x.1 x.2.1 x.2.2).set (slRect L y.1 y.2.1 y.2.2).set := by
  rw [Finset.disjoint_left]; intro p hx hy
  rw [mem_slRect] at hx hy
  obtain ⟨k, b, t⟩ := x; obtain ⟨k', b', t'⟩ := y
  apply h
  have hb := b.isLt; have hb' := b'.isLt; have ht := t.isLt; have ht' := t'.isLt
  simp only at hx hy
  refine Prod.ext (Fin.ext ?_) (Prod.ext (Fin.ext ?_) (Fin.ext ?_)) <;> simp only <;> omega

theorem sl_cover (L : grid0.Coords) :
    (Finset.univ : Finset (Fin k0_t1_loop.trips × Fin 2 × Fin 16)).biUnion (fun x => (slRect L x.1 x.2.1 x.2.2).set) = colsSet (widL L) := by
  ext p
  simp only [Finset.mem_biUnion, Finset.mem_univ, true_and, mem_slRect, mem_colsSet]
  have hL := L_bounds L
  have p0 : (p 0).val < 50 := (p 0).isLt
  have p1 : (p 1).val < 64 := (p 1).isLt
  constructor
  · rintro ⟨⟨k, b, t⟩, h⟩
    have hb := b.isLt; have ht := t.isLt
    simp only at h
    unfold widL wbL at *
    simp only
    omega
  · intro h
    unfold widL at h; simp only at h
    have hw : wbL L = 512 * (2 * (L 1).val + (L 0).val) := by unfold wbL; omega
    obtain ⟨q, hq⟩ : ∃ q, (p 2).val = wbL L + q := ⟨(p 2).val - wbL L, by omega⟩
    have hq2 : q < 512 := by omega
    have hb : q / 256 < 2 := by omega
    have ht : 2 * ((p 1).val / 8) + (q % 256) / 128 < 16 := by omega
    have p2 : (p 2).val < 16384 := (p 2).isLt
    have e1 : (2 * ((p 1).val / 8) + (q % 256) / 128) / 2 = (p 1).val / 8 := by omega
    have e2 : (2 * ((p 1).val / 8) + (q % 256) / 128) % 2 = (q % 256) / 128 := by omega
    refine ⟨⟨⟨(p 0).val, by rw [trips1]; exact p0⟩, ⟨q / 256, hb⟩, ⟨2 * ((p 1).val / 8) + (q % 256) / 128, ht⟩⟩, ?_⟩
    show (p 0).val = (p 0).val ∧ 8 * ((2 * ((p 1).val / 8) + (q % 256) / 128) / 2) ≤ (p 1).val
      ∧ (p 1).val < 8 * ((2 * ((p 1).val / 8) + (q % 256) / 128) / 2) + 8
      ∧ wbL L + 256 * (q / 256) + 128 * ((2 * ((p 1).val / 8) + (q % 256) / 128) % 2) ≤ (p 2).val
      ∧ (p 2).val < wbL L + 256 * (q / 256) + 128 * ((2 * ((p 1).val / 8) + (q % 256) / 128) % 2) + 128
    rw [e1, e2]
    refine ⟨rfl, ?_, ?_, ?_, ?_⟩ <;> omega

variable [FloatOps F]

/-! ## The thirty-two pieces a trip writes, as rectangles of the result -/

omit [FloatOps F] in
/-- A piece's memref — the slice of the whole result at an offset, its unit axis squeezed away — reaches exactly the
    offset's rectangle. -/
theorem dM_set_gen (L : grid0.Coords) (k : Fin k0_t1_loop.trips) (off : Fin 3 → ℕ) (inb : ∀ a, off a + S1x8x128.size a ≤ S50x64x16384.size a)
    (b : Fin 2) (t : Fin 16) (hoff : off = ![k.val, 8 * (t.val / 2), wbL L + 256 * b.val + 128 * (t.val % 2)]) :
    (((oW).slice (Rect.unit (s := S50x64x16384) off S1x8x128.size inb) (fun _ => rfl)).squeeze S8x128 squeezes_S1x8x128_S8x128).view.set
      = (slRect L k b t).set := by
  subst hoff
  show (((oW).view.slice (Rect.unit (s := S50x64x16384) ![k.val, 8 * (t.val / 2), wbL L + 256 * b.val + 128 * (t.val % 2)] S1x8x128.size inb)).reshape
      S8x128 squeezes_S1x8x128_S8x128.numel_eq).set = _
  rw [View.set_reshape]
  exact View.set_slice_whole main_v3_scv _

omit [FloatOps F] in
theorem dM0_0_set (L : grid0.Coords) (k : Fin k0_t1_loop.trips) : (dM0_0 L k).view.set = (slRect L k 0 0).set :=
  dM_set_gen L k _ _ 0 0 (off12_eq L k 0 0)
omit [FloatOps F] in
theorem dM0_1_set (L : grid0.Coords) (k : Fin k0_t1_loop.trips) : (dM0_1 L k).view.set = (slRect L k 0 1).set :=
  dM_set_gen L k _ _ 0 1 (off12_eq L k 0 1)
omit [FloatOps F] in
theorem dM0_2_set (L : grid0.Coords) (k : Fin k0_t1_loop.trips) : (dM0_2 L k).view.set = (slRect L k 0 2).set :=
  dM_set_gen L k _ _ 0 2 (off13_eq L k 0 0)
omit [FloatOps F] in
theorem dM0_3_set (L : grid0.Coords) (k : Fin k0_t1_loop.trips) : (dM0_3 L k).view.set = (slRect L k 0 3).set :=
  dM_set_gen L k _ _ 0 3 (off13_eq L k 0 1)
omit [FloatOps F] in
theorem dM0_4_set (L : grid0.Coords) (k : Fin k0_t1_loop.trips) : (dM0_4 L k).view.set = (slRect L k 0 4).set :=
  dM_set_gen L k _ _ 0 4 (off14_eq L k 0 0)
omit [FloatOps F] in
theorem dM0_5_set (L : grid0.Coords) (k : Fin k0_t1_loop.trips) : (dM0_5 L k).view.set = (slRect L k 0 5).set :=
  dM_set_gen L k _ _ 0 5 (off14_eq L k 0 1)
omit [FloatOps F] in
theorem dM0_6_set (L : grid0.Coords) (k : Fin k0_t1_loop.trips) : (dM0_6 L k).view.set = (slRect L k 0 6).set :=
  dM_set_gen L k _ _ 0 6 (off15_eq L k 0 0)
omit [FloatOps F] in
theorem dM0_7_set (L : grid0.Coords) (k : Fin k0_t1_loop.trips) : (dM0_7 L k).view.set = (slRect L k 0 7).set :=
  dM_set_gen L k _ _ 0 7 (off15_eq L k 0 1)
omit [FloatOps F] in
theorem dM0_8_set (L : grid0.Coords) (k : Fin k0_t1_loop.trips) : (dM0_8 L k).view.set = (slRect L k 0 8).set :=
  dM_set_gen L k _ _ 0 8 (off16_eq L k 0 0)
omit [FloatOps F] in
theorem dM0_9_set (L : grid0.Coords) (k : Fin k0_t1_loop.trips) : (dM0_9 L k).view.set = (slRect L k 0 9).set :=
  dM_set_gen L k _ _ 0 9 (off16_eq L k 0 1)
omit [FloatOps F] in
theorem dM0_10_set (L : grid0.Coords) (k : Fin k0_t1_loop.trips) : (dM0_10 L k).view.set = (slRect L k 0 10).set :=
  dM_set_gen L k _ _ 0 10 (off17_eq L k 0 0)
omit [FloatOps F] in
theorem dM0_11_set (L : grid0.Coords) (k : Fin k0_t1_loop.trips) : (dM0_11 L k).view.set = (slRect L k 0 11).set :=
  dM_set_gen L k _ _ 0 11 (off17_eq L k 0 1)
omit [FloatOps F] in
theorem dM0_12_set (L : grid0.Coords) (k : Fin k0_t1_loop.trips) : (dM0_12 L k).view.set = (slRect L k 0 12).set :=
  dM_set_gen L k _ _ 0 12 (off18_eq L k 0 0)
omit [FloatOps F] in
theorem dM0_13_set (L : grid0.Coords) (k : Fin k0_t1_loop.trips) : (dM0_13 L k).view.set = (slRect L k 0 13).set :=
  dM_set_gen L k _ _ 0 13 (off18_eq L k 0 1)
omit [FloatOps F] in
theorem dM0_14_set (L : grid0.Coords) (k : Fin k0_t1_loop.trips) : (dM0_14 L k).view.set = (slRect L k 0 14).set :=
  dM_set_gen L k _ _ 0 14 (off19_eq L k 0 0)
omit [FloatOps F] in
theorem dM0_15_set (L : grid0.Coords) (k : Fin k0_t1_loop.trips) : (dM0_15 L k).view.set = (slRect L k 0 15).set :=
  dM_set_gen L k _ _ 0 15 (off19_eq L k 0 1)
omit [FloatOps F] in
theorem dM1_0_set (L : grid0.Coords) (k : Fin k0_t1_loop.trips) : (dM1_0 L k).view.set = (slRect L k 1 0).set :=
  dM_set_gen L k _ _ 1 0 (off12_eq L k 1 0)
omit [FloatOps F] in
theorem dM1_1_set (L : grid0.Coords) (k : Fin k0_t1_loop.trips) : (dM1_1 L k).view.set = (slRect L k 1 1).set :=
  dM_set_gen L k _ _ 1 1 (off12_eq L k 1 1)
omit [FloatOps F] in
theorem dM1_2_set (L : grid0.Coords) (k : Fin k0_t1_loop.trips) : (dM1_2 L k).view.set = (slRect L k 1 2).set :=
  dM_set_gen L k _ _ 1 2 (off13_eq L k 1 0)
omit [FloatOps F] in
theorem dM1_3_set (L : grid0.Coords) (k : Fin k0_t1_loop.trips) : (dM1_3 L k).view.set = (slRect L k 1 3).set :=
  dM_set_gen L k _ _ 1 3 (off13_eq L k 1 1)
omit [FloatOps F] in
theorem dM1_4_set (L : grid0.Coords) (k : Fin k0_t1_loop.trips) : (dM1_4 L k).view.set = (slRect L k 1 4).set :=
  dM_set_gen L k _ _ 1 4 (off14_eq L k 1 0)
omit [FloatOps F] in
theorem dM1_5_set (L : grid0.Coords) (k : Fin k0_t1_loop.trips) : (dM1_5 L k).view.set = (slRect L k 1 5).set :=
  dM_set_gen L k _ _ 1 5 (off14_eq L k 1 1)
omit [FloatOps F] in
theorem dM1_6_set (L : grid0.Coords) (k : Fin k0_t1_loop.trips) : (dM1_6 L k).view.set = (slRect L k 1 6).set :=
  dM_set_gen L k _ _ 1 6 (off15_eq L k 1 0)
omit [FloatOps F] in
theorem dM1_7_set (L : grid0.Coords) (k : Fin k0_t1_loop.trips) : (dM1_7 L k).view.set = (slRect L k 1 7).set :=
  dM_set_gen L k _ _ 1 7 (off15_eq L k 1 1)
omit [FloatOps F] in
theorem dM1_8_set (L : grid0.Coords) (k : Fin k0_t1_loop.trips) : (dM1_8 L k).view.set = (slRect L k 1 8).set :=
  dM_set_gen L k _ _ 1 8 (off16_eq L k 1 0)
omit [FloatOps F] in
theorem dM1_9_set (L : grid0.Coords) (k : Fin k0_t1_loop.trips) : (dM1_9 L k).view.set = (slRect L k 1 9).set :=
  dM_set_gen L k _ _ 1 9 (off16_eq L k 1 1)
omit [FloatOps F] in
theorem dM1_10_set (L : grid0.Coords) (k : Fin k0_t1_loop.trips) : (dM1_10 L k).view.set = (slRect L k 1 10).set :=
  dM_set_gen L k _ _ 1 10 (off17_eq L k 1 0)
omit [FloatOps F] in
theorem dM1_11_set (L : grid0.Coords) (k : Fin k0_t1_loop.trips) : (dM1_11 L k).view.set = (slRect L k 1 11).set :=
  dM_set_gen L k _ _ 1 11 (off17_eq L k 1 1)
omit [FloatOps F] in
theorem dM1_12_set (L : grid0.Coords) (k : Fin k0_t1_loop.trips) : (dM1_12 L k).view.set = (slRect L k 1 12).set :=
  dM_set_gen L k _ _ 1 12 (off18_eq L k 1 0)
omit [FloatOps F] in
theorem dM1_13_set (L : grid0.Coords) (k : Fin k0_t1_loop.trips) : (dM1_13 L k).view.set = (slRect L k 1 13).set :=
  dM_set_gen L k _ _ 1 13 (off18_eq L k 1 1)
omit [FloatOps F] in
theorem dM1_14_set (L : grid0.Coords) (k : Fin k0_t1_loop.trips) : (dM1_14 L k).view.set = (slRect L k 1 14).set :=
  dM_set_gen L k _ _ 1 14 (off19_eq L k 1 0)
omit [FloatOps F] in
theorem dM1_15_set (L : grid0.Coords) (k : Fin k0_t1_loop.trips) : (dM1_15 L k).view.set = (slRect L k 1 15).set :=
  dM_set_gen L k _ _ 1 15 (off19_eq L k 1 1)

/-! ## One piece, before and after its chunk -/

/-- A piece held at some contents, nothing claimed of it. -/
theorem piece_of (d : Dev nD) (L : grid0.Coords) (X : Buf (Elt F) ((V d (cV L) (jV L)).loc main_v1_scv)) (Tp : Buf (Elt F) ((V d (cV L) (jV L)).loc main_v2_scv))
    (S : Finset S50x64x16384.Idx) (f : Buf (Elt F) (oLoc d)) :
    (oLoc d ↦[S]{fullShare} f : sProp 𝕄) ⊢ iprop(∃ g : Buf (Elt F) (oLoc d), (oLoc d ↦[S]{fullShare} g) ∗ ⌜False → GdOK X Tp S g⌝) := by
  iintro H
  iexists f
  isplitl [H]; · iexact H
  ipureintro; exact fun h => h.elim

/-- A piece held at contents that are right on it. -/
theorem piece_to (d : Dev nD) (L : grid0.Coords) (X : Buf (Elt F) ((V d (cV L) (jV L)).loc main_v1_scv)) (Tp : Buf (Elt F) ((V d (cV L) (jV L)).loc main_v2_scv))
    (S : Finset S50x64x16384.Idx) :
    (iprop(∃ g : Buf (Elt F) (oLoc d), (oLoc d ↦[S]{fullShare} g) ∗ ⌜True → GdOK X Tp S g⌝) : sProp 𝕄)
      ⊢ iprop(∃ g : Buf (Elt F) (oLoc d), ⌜GdOK X Tp S g⌝ ∗ oLoc d ↦[S]{fullShare} g) := by
  iintro ⟨%g, H, %hg⟩
  iexists g
  isplitr; · ipureintro; exact hg trivial
  iexact H

theorem dM0_0_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 0).set]{fullShare} f : sProp 𝕄)
      ⊢ iprop(∃ g, ((dM0_0 L k).view.loc (V d (cV L) (jV L)) ↦[(dM0_0 L k).view.set]{fullShare} g) ∗ ⌜False → GdOK X Tp (dM0_0 L k).view.set g⌝) := by
  rw [dM0_0_set]; exact piece_of d L X Tp _ f
theorem dM0_0_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_0 L k).view.loc (V d (cV L) (jV L)) ↦[(dM0_0 L k).view.set]{fullShare} g) ∗ ⌜True → GdOK X Tp (dM0_0 L k).view.set g⌝) : sProp 𝕄)
      ⊢ iprop(∃ g : Buf (Elt F) (oLoc d), ⌜GdOK X Tp (slRect L k 0 0).set g⌝ ∗ oLoc d ↦[(slRect L k 0 0).set]{fullShare} g) := by
  rw [dM0_0_set]; exact piece_to d L X Tp _
theorem dM0_1_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 1).set]{fullShare} f : sProp 𝕄)
      ⊢ iprop(∃ g, ((dM0_1 L k).view.loc (V d (cV L) (jV L)) ↦[(dM0_1 L k).view.set]{fullShare} g) ∗ ⌜False → GdOK X Tp (dM0_1 L k).view.set g⌝) := by
  rw [dM0_1_set]; exact piece_of d L X Tp _ f
theorem dM0_1_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_1 L k).view.loc (V d (cV L) (jV L)) ↦[(dM0_1 L k).view.set]{fullShare} g) ∗ ⌜True → GdOK X Tp (dM0_1 L k).view.set g⌝) : sProp 𝕄)
      ⊢ iprop(∃ g : Buf (Elt F) (oLoc d), ⌜GdOK X Tp (slRect L k 0 1).set g⌝ ∗ oLoc d ↦[(slRect L k 0 1).set]{fullShare} g) := by
  rw [dM0_1_set]; exact piece_to d L X Tp _
theorem dM0_2_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 2).set]{fullShare} f : sProp 𝕄)
      ⊢ iprop(∃ g, ((dM0_2 L k).view.loc (V d (cV L) (jV L)) ↦[(dM0_2 L k).view.set]{fullShare} g) ∗ ⌜False → GdOK X Tp (dM0_2 L k).view.set g⌝) := by
  rw [dM0_2_set]; exact piece_of d L X Tp _ f
theorem dM0_2_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_2 L k).view.loc (V d (cV L) (jV L)) ↦[(dM0_2 L k).view.set]{fullShare} g) ∗ ⌜True → GdOK X Tp (dM0_2 L k).view.set g⌝) : sProp 𝕄)
      ⊢ iprop(∃ g : Buf (Elt F) (oLoc d), ⌜GdOK X Tp (slRect L k 0 2).set g⌝ ∗ oLoc d ↦[(slRect L k 0 2).set]{fullShare} g) := by
  rw [dM0_2_set]; exact piece_to d L X Tp _
theorem dM0_3_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 3).set]{fullShare} f : sProp 𝕄)
      ⊢ iprop(∃ g, ((dM0_3 L k).view.loc (V d (cV L) (jV L)) ↦[(dM0_3 L k).view.set]{fullShare} g) ∗ ⌜False → GdOK X Tp (dM0_3 L k).view.set g⌝) := by
  rw [dM0_3_set]; exact piece_of d L X Tp _ f
theorem dM0_3_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_3 L k).view.loc (V d (cV L) (jV L)) ↦[(dM0_3 L k).view.set]{fullShare} g) ∗ ⌜True → GdOK X Tp (dM0_3 L k).view.set g⌝) : sProp 𝕄)
      ⊢ iprop(∃ g : Buf (Elt F) (oLoc d), ⌜GdOK X Tp (slRect L k 0 3).set g⌝ ∗ oLoc d ↦[(slRect L k 0 3).set]{fullShare} g) := by
  rw [dM0_3_set]; exact piece_to d L X Tp _
theorem dM0_4_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 4).set]{fullShare} f : sProp 𝕄)
      ⊢ iprop(∃ g, ((dM0_4 L k).view.loc (V d (cV L) (jV L)) ↦[(dM0_4 L k).view.set]{fullShare} g) ∗ ⌜False → GdOK X Tp (dM0_4 L k).view.set g⌝) := by
  rw [dM0_4_set]; exact piece_of d L X Tp _ f
theorem dM0_4_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_4 L k).view.loc (V d (cV L) (jV L)) ↦[(dM0_4 L k).view.set]{fullShare} g) ∗ ⌜True → GdOK X Tp (dM0_4 L k).view.set g⌝) : sProp 𝕄)
      ⊢ iprop(∃ g : Buf (Elt F) (oLoc d), ⌜GdOK X Tp (slRect L k 0 4).set g⌝ ∗ oLoc d ↦[(slRect L k 0 4).set]{fullShare} g) := by
  rw [dM0_4_set]; exact piece_to d L X Tp _
theorem dM0_5_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 5).set]{fullShare} f : sProp 𝕄)
      ⊢ iprop(∃ g, ((dM0_5 L k).view.loc (V d (cV L) (jV L)) ↦[(dM0_5 L k).view.set]{fullShare} g) ∗ ⌜False → GdOK X Tp (dM0_5 L k).view.set g⌝) := by
  rw [dM0_5_set]; exact piece_of d L X Tp _ f
theorem dM0_5_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_5 L k).view.loc (V d (cV L) (jV L)) ↦[(dM0_5 L k).view.set]{fullShare} g) ∗ ⌜True → GdOK X Tp (dM0_5 L k).view.set g⌝) : sProp 𝕄)
      ⊢ iprop(∃ g : Buf (Elt F) (oLoc d), ⌜GdOK X Tp (slRect L k 0 5).set g⌝ ∗ oLoc d ↦[(slRect L k 0 5).set]{fullShare} g) := by
  rw [dM0_5_set]; exact piece_to d L X Tp _
theorem dM0_6_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 6).set]{fullShare} f : sProp 𝕄)
      ⊢ iprop(∃ g, ((dM0_6 L k).view.loc (V d (cV L) (jV L)) ↦[(dM0_6 L k).view.set]{fullShare} g) ∗ ⌜False → GdOK X Tp (dM0_6 L k).view.set g⌝) := by
  rw [dM0_6_set]; exact piece_of d L X Tp _ f
theorem dM0_6_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_6 L k).view.loc (V d (cV L) (jV L)) ↦[(dM0_6 L k).view.set]{fullShare} g) ∗ ⌜True → GdOK X Tp (dM0_6 L k).view.set g⌝) : sProp 𝕄)
      ⊢ iprop(∃ g : Buf (Elt F) (oLoc d), ⌜GdOK X Tp (slRect L k 0 6).set g⌝ ∗ oLoc d ↦[(slRect L k 0 6).set]{fullShare} g) := by
  rw [dM0_6_set]; exact piece_to d L X Tp _
theorem dM0_7_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 7).set]{fullShare} f : sProp 𝕄)
      ⊢ iprop(∃ g, ((dM0_7 L k).view.loc (V d (cV L) (jV L)) ↦[(dM0_7 L k).view.set]{fullShare} g) ∗ ⌜False → GdOK X Tp (dM0_7 L k).view.set g⌝) := by
  rw [dM0_7_set]; exact piece_of d L X Tp _ f
theorem dM0_7_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_7 L k).view.loc (V d (cV L) (jV L)) ↦[(dM0_7 L k).view.set]{fullShare} g) ∗ ⌜True → GdOK X Tp (dM0_7 L k).view.set g⌝) : sProp 𝕄)
      ⊢ iprop(∃ g : Buf (Elt F) (oLoc d), ⌜GdOK X Tp (slRect L k 0 7).set g⌝ ∗ oLoc d ↦[(slRect L k 0 7).set]{fullShare} g) := by
  rw [dM0_7_set]; exact piece_to d L X Tp _
theorem dM0_8_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 8).set]{fullShare} f : sProp 𝕄)
      ⊢ iprop(∃ g, ((dM0_8 L k).view.loc (V d (cV L) (jV L)) ↦[(dM0_8 L k).view.set]{fullShare} g) ∗ ⌜False → GdOK X Tp (dM0_8 L k).view.set g⌝) := by
  rw [dM0_8_set]; exact piece_of d L X Tp _ f
theorem dM0_8_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_8 L k).view.loc (V d (cV L) (jV L)) ↦[(dM0_8 L k).view.set]{fullShare} g) ∗ ⌜True → GdOK X Tp (dM0_8 L k).view.set g⌝) : sProp 𝕄)
      ⊢ iprop(∃ g : Buf (Elt F) (oLoc d), ⌜GdOK X Tp (slRect L k 0 8).set g⌝ ∗ oLoc d ↦[(slRect L k 0 8).set]{fullShare} g) := by
  rw [dM0_8_set]; exact piece_to d L X Tp _
theorem dM0_9_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 9).set]{fullShare} f : sProp 𝕄)
      ⊢ iprop(∃ g, ((dM0_9 L k).view.loc (V d (cV L) (jV L)) ↦[(dM0_9 L k).view.set]{fullShare} g) ∗ ⌜False → GdOK X Tp (dM0_9 L k).view.set g⌝) := by
  rw [dM0_9_set]; exact piece_of d L X Tp _ f
theorem dM0_9_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_9 L k).view.loc (V d (cV L) (jV L)) ↦[(dM0_9 L k).view.set]{fullShare} g) ∗ ⌜True → GdOK X Tp (dM0_9 L k).view.set g⌝) : sProp 𝕄)
      ⊢ iprop(∃ g : Buf (Elt F) (oLoc d), ⌜GdOK X Tp (slRect L k 0 9).set g⌝ ∗ oLoc d ↦[(slRect L k 0 9).set]{fullShare} g) := by
  rw [dM0_9_set]; exact piece_to d L X Tp _
theorem dM0_10_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 10).set]{fullShare} f : sProp 𝕄)
      ⊢ iprop(∃ g, ((dM0_10 L k).view.loc (V d (cV L) (jV L)) ↦[(dM0_10 L k).view.set]{fullShare} g) ∗ ⌜False → GdOK X Tp (dM0_10 L k).view.set g⌝) := by
  rw [dM0_10_set]; exact piece_of d L X Tp _ f
theorem dM0_10_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_10 L k).view.loc (V d (cV L) (jV L)) ↦[(dM0_10 L k).view.set]{fullShare} g) ∗ ⌜True → GdOK X Tp (dM0_10 L k).view.set g⌝) : sProp 𝕄)
      ⊢ iprop(∃ g : Buf (Elt F) (oLoc d), ⌜GdOK X Tp (slRect L k 0 10).set g⌝ ∗ oLoc d ↦[(slRect L k 0 10).set]{fullShare} g) := by
  rw [dM0_10_set]; exact piece_to d L X Tp _
theorem dM0_11_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 11).set]{fullShare} f : sProp 𝕄)
      ⊢ iprop(∃ g, ((dM0_11 L k).view.loc (V d (cV L) (jV L)) ↦[(dM0_11 L k).view.set]{fullShare} g) ∗ ⌜False → GdOK X Tp (dM0_11 L k).view.set g⌝) := by
  rw [dM0_11_set]; exact piece_of d L X Tp _ f
theorem dM0_11_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_11 L k).view.loc (V d (cV L) (jV L)) ↦[(dM0_11 L k).view.set]{fullShare} g) ∗ ⌜True → GdOK X Tp (dM0_11 L k).view.set g⌝) : sProp 𝕄)
      ⊢ iprop(∃ g : Buf (Elt F) (oLoc d), ⌜GdOK X Tp (slRect L k 0 11).set g⌝ ∗ oLoc d ↦[(slRect L k 0 11).set]{fullShare} g) := by
  rw [dM0_11_set]; exact piece_to d L X Tp _
theorem dM0_12_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 12).set]{fullShare} f : sProp 𝕄)
      ⊢ iprop(∃ g, ((dM0_12 L k).view.loc (V d (cV L) (jV L)) ↦[(dM0_12 L k).view.set]{fullShare} g) ∗ ⌜False → GdOK X Tp (dM0_12 L k).view.set g⌝) := by
  rw [dM0_12_set]; exact piece_of d L X Tp _ f
theorem dM0_12_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_12 L k).view.loc (V d (cV L) (jV L)) ↦[(dM0_12 L k).view.set]{fullShare} g) ∗ ⌜True → GdOK X Tp (dM0_12 L k).view.set g⌝) : sProp 𝕄)
      ⊢ iprop(∃ g : Buf (Elt F) (oLoc d), ⌜GdOK X Tp (slRect L k 0 12).set g⌝ ∗ oLoc d ↦[(slRect L k 0 12).set]{fullShare} g) := by
  rw [dM0_12_set]; exact piece_to d L X Tp _
theorem dM0_13_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 13).set]{fullShare} f : sProp 𝕄)
      ⊢ iprop(∃ g, ((dM0_13 L k).view.loc (V d (cV L) (jV L)) ↦[(dM0_13 L k).view.set]{fullShare} g) ∗ ⌜False → GdOK X Tp (dM0_13 L k).view.set g⌝) := by
  rw [dM0_13_set]; exact piece_of d L X Tp _ f
theorem dM0_13_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_13 L k).view.loc (V d (cV L) (jV L)) ↦[(dM0_13 L k).view.set]{fullShare} g) ∗ ⌜True → GdOK X Tp (dM0_13 L k).view.set g⌝) : sProp 𝕄)
      ⊢ iprop(∃ g : Buf (Elt F) (oLoc d), ⌜GdOK X Tp (slRect L k 0 13).set g⌝ ∗ oLoc d ↦[(slRect L k 0 13).set]{fullShare} g) := by
  rw [dM0_13_set]; exact piece_to d L X Tp _
theorem dM0_14_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 14).set]{fullShare} f : sProp 𝕄)
      ⊢ iprop(∃ g, ((dM0_14 L k).view.loc (V d (cV L) (jV L)) ↦[(dM0_14 L k).view.set]{fullShare} g) ∗ ⌜False → GdOK X Tp (dM0_14 L k).view.set g⌝) := by
  rw [dM0_14_set]; exact piece_of d L X Tp _ f
theorem dM0_14_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_14 L k).view.loc (V d (cV L) (jV L)) ↦[(dM0_14 L k).view.set]{fullShare} g) ∗ ⌜True → GdOK X Tp (dM0_14 L k).view.set g⌝) : sProp 𝕄)
      ⊢ iprop(∃ g : Buf (Elt F) (oLoc d), ⌜GdOK X Tp (slRect L k 0 14).set g⌝ ∗ oLoc d ↦[(slRect L k 0 14).set]{fullShare} g) := by
  rw [dM0_14_set]; exact piece_to d L X Tp _
theorem dM0_15_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 15).set]{fullShare} f : sProp 𝕄)
      ⊢ iprop(∃ g, ((dM0_15 L k).view.loc (V d (cV L) (jV L)) ↦[(dM0_15 L k).view.set]{fullShare} g) ∗ ⌜False → GdOK X Tp (dM0_15 L k).view.set g⌝) := by
  rw [dM0_15_set]; exact piece_of d L X Tp _ f
theorem dM0_15_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_15 L k).view.loc (V d (cV L) (jV L)) ↦[(dM0_15 L k).view.set]{fullShare} g) ∗ ⌜True → GdOK X Tp (dM0_15 L k).view.set g⌝) : sProp 𝕄)
      ⊢ iprop(∃ g : Buf (Elt F) (oLoc d), ⌜GdOK X Tp (slRect L k 0 15).set g⌝ ∗ oLoc d ↦[(slRect L k 0 15).set]{fullShare} g) := by
  rw [dM0_15_set]; exact piece_to d L X Tp _
theorem dM1_0_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 0).set]{fullShare} f : sProp 𝕄)
      ⊢ iprop(∃ g, ((dM1_0 L k).view.loc (V d (cV L) (jV L)) ↦[(dM1_0 L k).view.set]{fullShare} g) ∗ ⌜False → GdOK X Tp (dM1_0 L k).view.set g⌝) := by
  rw [dM1_0_set]; exact piece_of d L X Tp _ f
theorem dM1_0_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_0 L k).view.loc (V d (cV L) (jV L)) ↦[(dM1_0 L k).view.set]{fullShare} g) ∗ ⌜True → GdOK X Tp (dM1_0 L k).view.set g⌝) : sProp 𝕄)
      ⊢ iprop(∃ g : Buf (Elt F) (oLoc d), ⌜GdOK X Tp (slRect L k 1 0).set g⌝ ∗ oLoc d ↦[(slRect L k 1 0).set]{fullShare} g) := by
  rw [dM1_0_set]; exact piece_to d L X Tp _
theorem dM1_1_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 1).set]{fullShare} f : sProp 𝕄)
      ⊢ iprop(∃ g, ((dM1_1 L k).view.loc (V d (cV L) (jV L)) ↦[(dM1_1 L k).view.set]{fullShare} g) ∗ ⌜False → GdOK X Tp (dM1_1 L k).view.set g⌝) := by
  rw [dM1_1_set]; exact piece_of d L X Tp _ f
theorem dM1_1_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_1 L k).view.loc (V d (cV L) (jV L)) ↦[(dM1_1 L k).view.set]{fullShare} g) ∗ ⌜True → GdOK X Tp (dM1_1 L k).view.set g⌝) : sProp 𝕄)
      ⊢ iprop(∃ g : Buf (Elt F) (oLoc d), ⌜GdOK X Tp (slRect L k 1 1).set g⌝ ∗ oLoc d ↦[(slRect L k 1 1).set]{fullShare} g) := by
  rw [dM1_1_set]; exact piece_to d L X Tp _
theorem dM1_2_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 2).set]{fullShare} f : sProp 𝕄)
      ⊢ iprop(∃ g, ((dM1_2 L k).view.loc (V d (cV L) (jV L)) ↦[(dM1_2 L k).view.set]{fullShare} g) ∗ ⌜False → GdOK X Tp (dM1_2 L k).view.set g⌝) := by
  rw [dM1_2_set]; exact piece_of d L X Tp _ f
theorem dM1_2_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_2 L k).view.loc (V d (cV L) (jV L)) ↦[(dM1_2 L k).view.set]{fullShare} g) ∗ ⌜True → GdOK X Tp (dM1_2 L k).view.set g⌝) : sProp 𝕄)
      ⊢ iprop(∃ g : Buf (Elt F) (oLoc d), ⌜GdOK X Tp (slRect L k 1 2).set g⌝ ∗ oLoc d ↦[(slRect L k 1 2).set]{fullShare} g) := by
  rw [dM1_2_set]; exact piece_to d L X Tp _
theorem dM1_3_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 3).set]{fullShare} f : sProp 𝕄)
      ⊢ iprop(∃ g, ((dM1_3 L k).view.loc (V d (cV L) (jV L)) ↦[(dM1_3 L k).view.set]{fullShare} g) ∗ ⌜False → GdOK X Tp (dM1_3 L k).view.set g⌝) := by
  rw [dM1_3_set]; exact piece_of d L X Tp _ f
theorem dM1_3_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_3 L k).view.loc (V d (cV L) (jV L)) ↦[(dM1_3 L k).view.set]{fullShare} g) ∗ ⌜True → GdOK X Tp (dM1_3 L k).view.set g⌝) : sProp 𝕄)
      ⊢ iprop(∃ g : Buf (Elt F) (oLoc d), ⌜GdOK X Tp (slRect L k 1 3).set g⌝ ∗ oLoc d ↦[(slRect L k 1 3).set]{fullShare} g) := by
  rw [dM1_3_set]; exact piece_to d L X Tp _
theorem dM1_4_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 4).set]{fullShare} f : sProp 𝕄)
      ⊢ iprop(∃ g, ((dM1_4 L k).view.loc (V d (cV L) (jV L)) ↦[(dM1_4 L k).view.set]{fullShare} g) ∗ ⌜False → GdOK X Tp (dM1_4 L k).view.set g⌝) := by
  rw [dM1_4_set]; exact piece_of d L X Tp _ f
theorem dM1_4_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_4 L k).view.loc (V d (cV L) (jV L)) ↦[(dM1_4 L k).view.set]{fullShare} g) ∗ ⌜True → GdOK X Tp (dM1_4 L k).view.set g⌝) : sProp 𝕄)
      ⊢ iprop(∃ g : Buf (Elt F) (oLoc d), ⌜GdOK X Tp (slRect L k 1 4).set g⌝ ∗ oLoc d ↦[(slRect L k 1 4).set]{fullShare} g) := by
  rw [dM1_4_set]; exact piece_to d L X Tp _
theorem dM1_5_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 5).set]{fullShare} f : sProp 𝕄)
      ⊢ iprop(∃ g, ((dM1_5 L k).view.loc (V d (cV L) (jV L)) ↦[(dM1_5 L k).view.set]{fullShare} g) ∗ ⌜False → GdOK X Tp (dM1_5 L k).view.set g⌝) := by
  rw [dM1_5_set]; exact piece_of d L X Tp _ f
theorem dM1_5_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_5 L k).view.loc (V d (cV L) (jV L)) ↦[(dM1_5 L k).view.set]{fullShare} g) ∗ ⌜True → GdOK X Tp (dM1_5 L k).view.set g⌝) : sProp 𝕄)
      ⊢ iprop(∃ g : Buf (Elt F) (oLoc d), ⌜GdOK X Tp (slRect L k 1 5).set g⌝ ∗ oLoc d ↦[(slRect L k 1 5).set]{fullShare} g) := by
  rw [dM1_5_set]; exact piece_to d L X Tp _
theorem dM1_6_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 6).set]{fullShare} f : sProp 𝕄)
      ⊢ iprop(∃ g, ((dM1_6 L k).view.loc (V d (cV L) (jV L)) ↦[(dM1_6 L k).view.set]{fullShare} g) ∗ ⌜False → GdOK X Tp (dM1_6 L k).view.set g⌝) := by
  rw [dM1_6_set]; exact piece_of d L X Tp _ f
theorem dM1_6_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_6 L k).view.loc (V d (cV L) (jV L)) ↦[(dM1_6 L k).view.set]{fullShare} g) ∗ ⌜True → GdOK X Tp (dM1_6 L k).view.set g⌝) : sProp 𝕄)
      ⊢ iprop(∃ g : Buf (Elt F) (oLoc d), ⌜GdOK X Tp (slRect L k 1 6).set g⌝ ∗ oLoc d ↦[(slRect L k 1 6).set]{fullShare} g) := by
  rw [dM1_6_set]; exact piece_to d L X Tp _
theorem dM1_7_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 7).set]{fullShare} f : sProp 𝕄)
      ⊢ iprop(∃ g, ((dM1_7 L k).view.loc (V d (cV L) (jV L)) ↦[(dM1_7 L k).view.set]{fullShare} g) ∗ ⌜False → GdOK X Tp (dM1_7 L k).view.set g⌝) := by
  rw [dM1_7_set]; exact piece_of d L X Tp _ f
theorem dM1_7_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_7 L k).view.loc (V d (cV L) (jV L)) ↦[(dM1_7 L k).view.set]{fullShare} g) ∗ ⌜True → GdOK X Tp (dM1_7 L k).view.set g⌝) : sProp 𝕄)
      ⊢ iprop(∃ g : Buf (Elt F) (oLoc d), ⌜GdOK X Tp (slRect L k 1 7).set g⌝ ∗ oLoc d ↦[(slRect L k 1 7).set]{fullShare} g) := by
  rw [dM1_7_set]; exact piece_to d L X Tp _
theorem dM1_8_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 8).set]{fullShare} f : sProp 𝕄)
      ⊢ iprop(∃ g, ((dM1_8 L k).view.loc (V d (cV L) (jV L)) ↦[(dM1_8 L k).view.set]{fullShare} g) ∗ ⌜False → GdOK X Tp (dM1_8 L k).view.set g⌝) := by
  rw [dM1_8_set]; exact piece_of d L X Tp _ f
theorem dM1_8_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_8 L k).view.loc (V d (cV L) (jV L)) ↦[(dM1_8 L k).view.set]{fullShare} g) ∗ ⌜True → GdOK X Tp (dM1_8 L k).view.set g⌝) : sProp 𝕄)
      ⊢ iprop(∃ g : Buf (Elt F) (oLoc d), ⌜GdOK X Tp (slRect L k 1 8).set g⌝ ∗ oLoc d ↦[(slRect L k 1 8).set]{fullShare} g) := by
  rw [dM1_8_set]; exact piece_to d L X Tp _
theorem dM1_9_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 9).set]{fullShare} f : sProp 𝕄)
      ⊢ iprop(∃ g, ((dM1_9 L k).view.loc (V d (cV L) (jV L)) ↦[(dM1_9 L k).view.set]{fullShare} g) ∗ ⌜False → GdOK X Tp (dM1_9 L k).view.set g⌝) := by
  rw [dM1_9_set]; exact piece_of d L X Tp _ f
theorem dM1_9_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_9 L k).view.loc (V d (cV L) (jV L)) ↦[(dM1_9 L k).view.set]{fullShare} g) ∗ ⌜True → GdOK X Tp (dM1_9 L k).view.set g⌝) : sProp 𝕄)
      ⊢ iprop(∃ g : Buf (Elt F) (oLoc d), ⌜GdOK X Tp (slRect L k 1 9).set g⌝ ∗ oLoc d ↦[(slRect L k 1 9).set]{fullShare} g) := by
  rw [dM1_9_set]; exact piece_to d L X Tp _
theorem dM1_10_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 10).set]{fullShare} f : sProp 𝕄)
      ⊢ iprop(∃ g, ((dM1_10 L k).view.loc (V d (cV L) (jV L)) ↦[(dM1_10 L k).view.set]{fullShare} g) ∗ ⌜False → GdOK X Tp (dM1_10 L k).view.set g⌝) := by
  rw [dM1_10_set]; exact piece_of d L X Tp _ f
theorem dM1_10_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_10 L k).view.loc (V d (cV L) (jV L)) ↦[(dM1_10 L k).view.set]{fullShare} g) ∗ ⌜True → GdOK X Tp (dM1_10 L k).view.set g⌝) : sProp 𝕄)
      ⊢ iprop(∃ g : Buf (Elt F) (oLoc d), ⌜GdOK X Tp (slRect L k 1 10).set g⌝ ∗ oLoc d ↦[(slRect L k 1 10).set]{fullShare} g) := by
  rw [dM1_10_set]; exact piece_to d L X Tp _
theorem dM1_11_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 11).set]{fullShare} f : sProp 𝕄)
      ⊢ iprop(∃ g, ((dM1_11 L k).view.loc (V d (cV L) (jV L)) ↦[(dM1_11 L k).view.set]{fullShare} g) ∗ ⌜False → GdOK X Tp (dM1_11 L k).view.set g⌝) := by
  rw [dM1_11_set]; exact piece_of d L X Tp _ f
theorem dM1_11_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_11 L k).view.loc (V d (cV L) (jV L)) ↦[(dM1_11 L k).view.set]{fullShare} g) ∗ ⌜True → GdOK X Tp (dM1_11 L k).view.set g⌝) : sProp 𝕄)
      ⊢ iprop(∃ g : Buf (Elt F) (oLoc d), ⌜GdOK X Tp (slRect L k 1 11).set g⌝ ∗ oLoc d ↦[(slRect L k 1 11).set]{fullShare} g) := by
  rw [dM1_11_set]; exact piece_to d L X Tp _
theorem dM1_12_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 12).set]{fullShare} f : sProp 𝕄)
      ⊢ iprop(∃ g, ((dM1_12 L k).view.loc (V d (cV L) (jV L)) ↦[(dM1_12 L k).view.set]{fullShare} g) ∗ ⌜False → GdOK X Tp (dM1_12 L k).view.set g⌝) := by
  rw [dM1_12_set]; exact piece_of d L X Tp _ f
theorem dM1_12_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_12 L k).view.loc (V d (cV L) (jV L)) ↦[(dM1_12 L k).view.set]{fullShare} g) ∗ ⌜True → GdOK X Tp (dM1_12 L k).view.set g⌝) : sProp 𝕄)
      ⊢ iprop(∃ g : Buf (Elt F) (oLoc d), ⌜GdOK X Tp (slRect L k 1 12).set g⌝ ∗ oLoc d ↦[(slRect L k 1 12).set]{fullShare} g) := by
  rw [dM1_12_set]; exact piece_to d L X Tp _
theorem dM1_13_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 13).set]{fullShare} f : sProp 𝕄)
      ⊢ iprop(∃ g, ((dM1_13 L k).view.loc (V d (cV L) (jV L)) ↦[(dM1_13 L k).view.set]{fullShare} g) ∗ ⌜False → GdOK X Tp (dM1_13 L k).view.set g⌝) := by
  rw [dM1_13_set]; exact piece_of d L X Tp _ f
theorem dM1_13_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_13 L k).view.loc (V d (cV L) (jV L)) ↦[(dM1_13 L k).view.set]{fullShare} g) ∗ ⌜True → GdOK X Tp (dM1_13 L k).view.set g⌝) : sProp 𝕄)
      ⊢ iprop(∃ g : Buf (Elt F) (oLoc d), ⌜GdOK X Tp (slRect L k 1 13).set g⌝ ∗ oLoc d ↦[(slRect L k 1 13).set]{fullShare} g) := by
  rw [dM1_13_set]; exact piece_to d L X Tp _
theorem dM1_14_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 14).set]{fullShare} f : sProp 𝕄)
      ⊢ iprop(∃ g, ((dM1_14 L k).view.loc (V d (cV L) (jV L)) ↦[(dM1_14 L k).view.set]{fullShare} g) ∗ ⌜False → GdOK X Tp (dM1_14 L k).view.set g⌝) := by
  rw [dM1_14_set]; exact piece_of d L X Tp _ f
theorem dM1_14_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_14 L k).view.loc (V d (cV L) (jV L)) ↦[(dM1_14 L k).view.set]{fullShare} g) ∗ ⌜True → GdOK X Tp (dM1_14 L k).view.set g⌝) : sProp 𝕄)
      ⊢ iprop(∃ g : Buf (Elt F) (oLoc d), ⌜GdOK X Tp (slRect L k 1 14).set g⌝ ∗ oLoc d ↦[(slRect L k 1 14).set]{fullShare} g) := by
  rw [dM1_14_set]; exact piece_to d L X Tp _
theorem dM1_15_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 15).set]{fullShare} f : sProp 𝕄)
      ⊢ iprop(∃ g, ((dM1_15 L k).view.loc (V d (cV L) (jV L)) ↦[(dM1_15 L k).view.set]{fullShare} g) ∗ ⌜False → GdOK X Tp (dM1_15 L k).view.set g⌝) := by
  rw [dM1_15_set]; exact piece_of d L X Tp _ f
theorem dM1_15_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_15 L k).view.loc (V d (cV L) (jV L)) ↦[(dM1_15 L k).view.set]{fullShare} g) ∗ ⌜True → GdOK X Tp (dM1_15 L k).view.set g⌝) : sProp 𝕄)
      ⊢ iprop(∃ g : Buf (Elt F) (oLoc d), ⌜GdOK X Tp (slRect L k 1 15).set g⌝ ∗ oLoc d ↦[(slRect L k 1 15).set]{fullShare} g) := by
  rw [dM1_15_set]; exact piece_to d L X Tp _

/-- The sixteen pieces of chunk 0 of trip k, held at one contents, are what the trip's first chunk is handed (nothing yet
    claimed of their values). -/
theorem SlA_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (bigSep Finset.univ fun t : Fin 16 => (oLoc d ↦[(slRect L k 0 t).set]{fullShare} f : sProp 𝕄)) ⊢ SlA d L X Tp False k := by
  rw [bigSep_fin16]
  unfold SlA
  exact BI.sep_mono (dM0_0_of d L X Tp k f) (BI.sep_mono (dM0_1_of d L X Tp k f) (BI.sep_mono (dM0_2_of d L X Tp k f) (BI.sep_mono (dM0_3_of d L X Tp k f) (BI.sep_mono (dM0_4_of d L X Tp k f) (BI.sep_mono (dM0_5_of d L X Tp k f) (BI.sep_mono (dM0_6_of d L X Tp k f) (BI.sep_mono (dM0_7_of d L X Tp k f) (BI.sep_mono (dM0_8_of d L X Tp k f) (BI.sep_mono (dM0_9_of d L X Tp k f) (BI.sep_mono (dM0_10_of d L X Tp k f) (BI.sep_mono (dM0_11_of d L X Tp k f) (BI.sep_mono (dM0_12_of d L X Tp k f) (BI.sep_mono (dM0_13_of d L X Tp k f) (BI.sep_mono (dM0_14_of d L X Tp k f) (dM0_15_of d L X Tp k f)))))))))))))))

/-- The sixteen pieces of chunk 0 of trip k, each right on its rectangle, read over the result array's own location. -/
theorem SlA_to (d : Dev nD) (L : grid0.Coords) (X : Buf (Elt F) ((V d (cV L) (jV L)).loc main_v1_scv)) (Tp : Buf (Elt F) ((V d (cV L) (jV L)).loc main_v2_scv))
    (k : Fin k0_t1_loop.trips) :
    SlA d L X Tp True k ⊢ bigSep Finset.univ fun t : Fin 16 =>
      (iprop(∃ g : Buf (Elt F) (oLoc d), ⌜GdOK X Tp (slRect L k 0 t).set g⌝ ∗ oLoc d ↦[(slRect L k 0 t).set]{fullShare} g) : sProp 𝕄) := by
  rw [bigSep_fin16]
  unfold SlA
  exact BI.sep_mono (dM0_0_to d L X Tp k) (BI.sep_mono (dM0_1_to d L X Tp k) (BI.sep_mono (dM0_2_to d L X Tp k) (BI.sep_mono (dM0_3_to d L X Tp k) (BI.sep_mono (dM0_4_to d L X Tp k) (BI.sep_mono (dM0_5_to d L X Tp k) (BI.sep_mono (dM0_6_to d L X Tp k) (BI.sep_mono (dM0_7_to d L X Tp k) (BI.sep_mono (dM0_8_to d L X Tp k) (BI.sep_mono (dM0_9_to d L X Tp k) (BI.sep_mono (dM0_10_to d L X Tp k) (BI.sep_mono (dM0_11_to d L X Tp k) (BI.sep_mono (dM0_12_to d L X Tp k) (BI.sep_mono (dM0_13_to d L X Tp k) (BI.sep_mono (dM0_14_to d L X Tp k) (dM0_15_to d L X Tp k)))))))))))))))

/-- The sixteen pieces of chunk 1 of trip k, held at one contents, are what the trip's second chunk is handed (nothing yet
    claimed of their values). -/
theorem SlB_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (bigSep Finset.univ fun t : Fin 16 => (oLoc d ↦[(slRect L k 1 t).set]{fullShare} f : sProp 𝕄)) ⊢ SlB d L X Tp False k := by
  rw [bigSep_fin16]
  unfold SlB
  exact BI.sep_mono (dM1_0_of d L X Tp k f) (BI.sep_mono (dM1_1_of d L X Tp k f) (BI.sep_mono (dM1_2_of d L X Tp k f) (BI.sep_mono (dM1_3_of d L X Tp k f) (BI.sep_mono (dM1_4_of d L X Tp k f) (BI.sep_mono (dM1_5_of d L X Tp k f) (BI.sep_mono (dM1_6_of d L X Tp k f) (BI.sep_mono (dM1_7_of d L X Tp k f) (BI.sep_mono (dM1_8_of d L X Tp k f) (BI.sep_mono (dM1_9_of d L X Tp k f) (BI.sep_mono (dM1_10_of d L X Tp k f) (BI.sep_mono (dM1_11_of d L X Tp k f) (BI.sep_mono (dM1_12_of d L X Tp k f) (BI.sep_mono (dM1_13_of d L X Tp k f) (BI.sep_mono (dM1_14_of d L X Tp k f) (dM1_15_of d L X Tp k f)))))))))))))))

/-- The sixteen pieces of chunk 1 of trip k, each right on its rectangle, read over the result array's own location. -/
theorem SlB_to (d : Dev nD) (L : grid0.Coords) (X : Buf (Elt F) ((V d (cV L) (jV L)).loc main_v1_scv)) (Tp : Buf (Elt F) ((V d (cV L) (jV L)).loc main_v2_scv))
    (k : Fin k0_t1_loop.trips) :
    SlB d L X Tp True k ⊢ bigSep Finset.univ fun t : Fin 16 =>
      (iprop(∃ g : Buf (Elt F) (oLoc d), ⌜GdOK X Tp (slRect L k 1 t).set g⌝ ∗ oLoc d ↦[(slRect L k 1 t).set]{fullShare} g) : sProp 𝕄) := by
  rw [bigSep_fin16]
  unfold SlB
  exact BI.sep_mono (dM1_0_to d L X Tp k) (BI.sep_mono (dM1_1_to d L X Tp k) (BI.sep_mono (dM1_2_to d L X Tp k) (BI.sep_mono (dM1_3_to d L X Tp k) (BI.sep_mono (dM1_4_to d L X Tp k) (BI.sep_mono (dM1_5_to d L X Tp k) (BI.sep_mono (dM1_6_to d L X Tp k) (BI.sep_mono (dM1_7_to d L X Tp k) (BI.sep_mono (dM1_8_to d L X Tp k) (BI.sep_mono (dM1_9_to d L X Tp k) (BI.sep_mono (dM1_10_to d L X Tp k) (BI.sep_mono (dM1_11_to d L X Tp k) (BI.sep_mono (dM1_12_to d L X Tp k) (BI.sep_mono (dM1_13_to d L X Tp k) (BI.sep_mono (dM1_14_to d L X Tp k) (dM1_15_to d L X Tp k)))))))))))))))

/-! ## The tile's columns as its fifty trips' pieces -/

omit [FloatOps F] in
theorem bigSep_triples (Φ : Fin k0_t1_loop.trips × Fin 2 × Fin 16 → sProp 𝕄) :
    bigSep Finset.univ Φ = bigSep Finset.univ fun k : Fin k0_t1_loop.trips => bigSep Finset.univ fun b : Fin 2 => bigSep Finset.univ fun t : Fin 16 => Φ (k, b, t) := by
  rw [← Finset.univ_product_univ, Idealize.ShloMosaic.SparseCore.bigSep_product]
  refine bigSep_congr fun k _ => ?_
  rw [← Finset.univ_product_univ, Idealize.ShloMosaic.SparseCore.bigSep_product]

/-- The tile's columns of the result, held at one contents, are what its fifty trips' chunks are handed: the pieces
    are disjoint and cover the columns. -/
theorem region_split (d : Dev nD) (L : grid0.Coords) (X : Buf (Elt F) ((V d (cV L) (jV L)).loc main_v1_scv)) (Tp : Buf (Elt F) ((V d (cV L) (jV L)).loc main_v2_scv))
    (f : Buf (Elt F) (oLoc d)) :
    (oLoc d ↦[colsSet (widL L)]{fullShare} f : sProp 𝕄)
      ⊢ bigSep Finset.univ (fun k : Fin k0_t1_loop.trips => iprop(SlA d L X Tp False k ∗ SlB d L X Tp False k)) := by
  rw [← sl_cover L, pointsTo_biUnion Finset.univ (ℓ := oLoc d) (fun x : Fin k0_t1_loop.trips × Fin 2 × Fin 16 => (slRect L x.1 x.2.1 x.2.2).set)
    (fun x _ y _ h => sl_disj L x y h), bigSep_triples]
  refine bigSep_mono fun k _ => ?_
  rw [bigSep_univ_two]
  exact BI.sep_mono (SlA_of d L X Tp k f) (SlB_of d L X Tp k f)

/-- The pieces of all the trips, each right on its own rectangle, are the tile's columns at one contents that is right
    on all of them: one function agrees with each piece's on its rectangle, and the rectangles cover the columns. -/
theorem region_join (d : Dev nD) (L : grid0.Coords) (X : Buf (Elt F) ((V d (cV L) (jV L)).loc main_v1_scv)) (Tp : Buf (Elt F) ((V d (cV L) (jV L)).loc main_v2_scv)) :
    bigSep Finset.univ (fun k : Fin k0_t1_loop.trips => iprop(SlA d L X Tp True k ∗ SlB d L X Tp True k))
      ⊢ (iprop(∃ f, ⌜OutOK d X Tp (widL L) f⌝ ∗ oLoc d ↦[colsSet (widL L)]{fullShare} f) : sProp 𝕄) := by
  have h1 : bigSep Finset.univ (fun k : Fin k0_t1_loop.trips => iprop(SlA d L X Tp True k ∗ SlB d L X Tp True k))
      ⊢ bigSep Finset.univ (fun x : Fin k0_t1_loop.trips × Fin 2 × Fin 16 =>
          (iprop(∃ g : Buf (Elt F) (oLoc d), ⌜GdOK X Tp (slRect L x.1 x.2.1 x.2.2).set g⌝ ∗ oLoc d ↦[(slRect L x.1 x.2.1 x.2.2).set]{fullShare} g) : sProp 𝕄)) := by
    rw [bigSep_triples]
    refine bigSep_mono fun k _ => ?_
    rw [bigSep_univ_two]
    exact BI.sep_mono (SlA_to d L X Tp k) (SlB_to d L X Tp k)
  refine h1.trans ?_
  refine (bigSep_exists_pi Finset.univ (fun (x : Fin k0_t1_loop.trips × Fin 2 × Fin 16) (g : Buf (Elt F) (oLoc d)) =>
    iprop(⌜GdOK X Tp (slRect L x.1 x.2.1 x.2.2).set g⌝ ∗ oLoc d ↦[(slRect L x.1 x.2.1 x.2.2).set]{fullShare} g))).trans ?_
  iintro ⟨%gs, H⟩
  ihave H2 := (bigSep_pure_sep Finset.univ (fun x : Fin k0_t1_loop.trips × Fin 2 × Fin 16 => GdOK X Tp (slRect L x.1 x.2.1 x.2.2).set (gs x))
    (fun x => (oLoc d ↦[(slRect L x.1 x.2.1 x.2.2).set]{fullShare} gs x : sProp 𝕄))) $$ H
  icases H2 with ⟨%hOK, H3⟩
  ihave H' := (pointsTo_biUnion_join Finset.univ (fun x : Fin k0_t1_loop.trips × Fin 2 × Fin 16 => (slRect L x.1 x.2.1 x.2.2).set) gs
    (gs (⟨0, by rw [trips1]; omega⟩, 0, 0)) (fun x _ y _ h => sl_disj L x y h)) $$ H3
  icases H' with ⟨%g, %hg, Hg⟩
  rw [sl_cover]
  iexists g
  isplitr
  · ipureintro
    intro p hp
    obtain ⟨x, -, hx⟩ := Finset.mem_biUnion.mp ((sl_cover L).symm ▸ hp)
    rw [hg x (Finset.mem_univ _) p hx]
    exact hOK x (Finset.mem_univ _) p hx
  iexact Hg

/-! ## A fetched index list -/

omit [FloatOps F] in
/-- The 256 words copied from the flattened indices at a chunk's offset are the chunk's indices. -/
theorem idx_ok_write0 (d : Dev nD) (L : grid0.Coords) (X : Buf (Elt F) ((V d (cV L) (jV L)).loc main_v1_scv)) (k : Fin k0_t1_loop.trips) (b : Fin 2)
    (g : Buf (Elt F) ((V d (cV L) (jV L)).loc cc0_scratch0)) (off : Fin 1 → Nat) (hoff : ∀ a, off a + S256.size a ≤ S819200.size a) (he : off = ![xoff L k b]) :
    IdxOK X L k b (View.write (Elt F) (i0).view g (ReadAs.same.apply (View.read (Elt F) ((xW).slice (Rect.unit (s := S819200) off S256.size hoff) (fun _ => rfl)).view X)) Finset.univ) := by
  subst he
  intro j
  rw [View.write_whole_univ]
  have key : ∀ y, (ReadAs.same.apply (View.read (Elt F) ((xW).slice (Rect.unit (s := S819200) ![xoff L k b] S256.size hoff) (fun _ => rfl)).view X) y)
      = X (((xW).slice (Rect.unit (s := S819200) ![xoff L k b] S256.size hoff) (fun _ => rfl)).view.emb y) := fun y => (View.read_apply _ _).trans (cast_eq _ _)
  rw [key]
  refine congrArg X (funext fun a => ?_)
  match a with
  | ⟨0, _⟩ => exact Fin.ext (show xoff L k b + 1 * j.val = xoff L k b + j.val by omega)
  | ⟨n + 1, hn⟩ => exact absurd hn (show ¬ n + 1 < 1 by omega)
omit [FloatOps F] in
theorem idx_ok_write1 (d : Dev nD) (L : grid0.Coords) (X : Buf (Elt F) ((V d (cV L) (jV L)).loc main_v1_scv)) (k : Fin k0_t1_loop.trips) (b : Fin 2)
    (g : Buf (Elt F) ((V d (cV L) (jV L)).loc cc0_scratch1)) (off : Fin 1 → Nat) (hoff : ∀ a, off a + S256.size a ≤ S819200.size a) (he : off = ![xoff L k b]) :
    IdxOK X L k b (View.write (Elt F) (i1).view g (ReadAs.same.apply (View.read (Elt F) ((xW).slice (Rect.unit (s := S819200) off S256.size hoff) (fun _ => rfl)).view X)) Finset.univ) := by
  subst he
  intro j
  rw [View.write_whole_univ]
  have key : ∀ y, (ReadAs.same.apply (View.read (Elt F) ((xW).slice (Rect.unit (s := S819200) ![xoff L k b] S256.size hoff) (fun _ => rfl)).view X) y)
      = X (((xW).slice (Rect.unit (s := S819200) ![xoff L k b] S256.size hoff) (fun _ => rfl)).view.emb y) := fun y => (View.read_apply _ _).trans (cast_eq _ _)
  rw [key]
  refine congrArg X (funext fun a => ?_)
  match a with
  | ⟨0, _⟩ => exact Fin.ext (show xoff L k b + 1 * j.val = xoff L k b + j.val by omega)
  | ⟨n + 1, hn⟩ => exact absurd hn (show ¬ n + 1 < 1 by omega)

/-! ## A piece copied out of the staging scratch -/

omit [FloatOps F] in
theorem ix2_congr {n0 n1 : ℕ} {a a' : Fin n0} {c c' : Fin n1} (ha : a = a') (hc : c = c') : ix2 a c = ix2 a' c' := by
  subst ha hc; rfl

/-- The table entry the specification reads depends on the index position and the column only as numbers. -/
theorem spec_congr (X : IVec S819200 32) (Tp : Vec F S1000000x128 .f32) {n1 n2 : ℕ} (h1 : n1 < 819200) (h2 : n2 < 819200)
    {c1 c2 : ℕ} (hc1 : c1 < 128) (hc2 : c2 < 128) (hn : n1 = n2) (hc : c1 = c2) :
    Tp (ix2 (⟨(X (ix1 (⟨n1, h1⟩ : Fin 819200))).toNat % 1000000, Nat.mod_lt _ (by decide)⟩ : Fin 1000000) (⟨c1, hc1⟩ : Fin 128))
      = Tp (ix2 (⟨(X (ix1 (⟨n2, h2⟩ : Fin 819200))).toNat % 1000000, Nat.mod_lt _ (by decide)⟩ : Fin 1000000) (⟨c2, hc2⟩ : Fin 128)) := by
  subst hn hc; rfl

/-- Piece t of chunk (k, b), copied out of rows 8 t … 8 t + 7 of a staging scratch that holds the chunk's rows transposed
    and scaled, holds the specified result on its rectangle: at local position (y0, y1) it sits at result position
    (k, 8 (t / 2) + y0, first column + 256 b + 128 (t mod 2) + y1) and reads scratch position (8 t + y0, y1), whose
    source is row 128 (t mod 2) + y1, column 8 (t / 2) + y0 of the chunk. -/
theorem gd_gen (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (t : Fin 16)
    (off : Fin 3 → ℕ) (inb : ∀ a, off a + S1x8x128.size a ≤ S50x64x16384.size a)
    (hoff : off = ![k.val, 8 * (t.val / 2), wbL L + 256 * b.val + 128 * (t.val % 2)])
    (offS : Fin 2 → ℕ) (inbS : ∀ a, offS a + S8x128.size a ≤ S128x128.size a) (hoffS : offS = ![8 * t.val, 0])
    (f : Buf (Elt F) ((V d (cV L) (jV L)).loc cc0_scratch4)) (h : TbOK X Tp L k b f)
    (g0 : Buf (Elt F) ((((oW).slice (Rect.unit (s := S50x64x16384) off S1x8x128.size inb) (fun _ => rfl)).squeeze S8x128 squeezes_S1x8x128_S8x128).view.loc (V d (cV L) (jV L)))) :
    GdOK X Tp (((oW).slice (Rect.unit (s := S50x64x16384) off S1x8x128.size inb) (fun _ => rfl)).squeeze S8x128 squeezes_S1x8x128_S8x128).view.set
      ((((oW).slice (Rect.unit (s := S50x64x16384) off S1x8x128.size inb) (fun _ => rfl)).squeeze S8x128 squeezes_S1x8x128_S8x128).view.writes (Elt F) g0 [⟨Rect.whole S8x128, ReadAs.same.apply (((tb).slice (Rect.unit (s := S128x128) offS S8x128.size inbS) (fun _ => rfl)).view.read (Elt F) f)⟩]) := by
  subst hoff hoffS
  obtain ⟨R, hR, rfl⟩ := h
  intro p hp
  obtain ⟨y, -, rfl⟩ := Finset.mem_map.mp hp
  obtain ⟨y0, y1, rfl⟩ : ∃ (y0 : Fin 8) (y1 : Fin 128), y = ix2 y0 y1 := ⟨y 0, y 1, eq_ix2 y⟩
  have ht := t.isLt; have hb := b.isLt; have hL := L_bounds L
  have hk : k.val < 50 := by have h1 := k.isLt; have h2 := trips1; omega
  -- the written value at the piece's element is the payload there, which reads the scratch block
  have h1 := View.read_writes_cons_emb (((oW).slice (Rect.unit (s := S50x64x16384) ![k.val, 8 * (t.val / 2), wbL L + 256 * b.val + 128 * (t.val % 2)] S1x8x128.size inb) (fun _ => rfl)).squeeze S8x128 squeezes_S1x8x128_S8x128).view g0 (Rect.whole S8x128)
    (ReadAs.same.apply (((tb).slice (Rect.unit (s := S128x128) ![8 * t.val, 0] S8x128.size inbS) (fun _ => rfl)).view.read (Elt F) (Cert.Proof.KW.T8 R))) [] (ix2 y0 y1)
  rw [Rect.emb_whole_apply, View.read_apply, cast_eq] at h1
  refine h1.trans ?_
  refine ((View.read_apply _ _).trans (cast_eq _ _)).trans ?_
  -- where the element sits in the result
  have hre : Shape.reshapeEquiv squeezes_S1x8x128_S8x128.numel_eq (ix2 y0 y1) = (ix3 (0 : Fin 1) y0 y1 : S1x8x128.Idx) :=
    Shape.reshapeEquiv_eq_of_rowMajor _ (by
      rw [Shape.rowMajor_val_three, Shape.rowMajor_val_two]
      show (0 * 8 + y0.val) * 128 + y1.val = y0.val * 128 + y1.val
      omega)
  have hp0 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 0).val = k.val := by
    show k.val + 1 * ((Shape.reshapeEquiv squeezes_S1x8x128_S8x128.numel_eq (ix2 y0 y1)) 0).val = k.val
    rw [hre]; show k.val + 1 * 0 = k.val; omega
  have hp1 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 1).val = 8 * (t.val / 2) + y0.val := by
    show 8 * (t.val / 2) + 1 * ((Shape.reshapeEquiv squeezes_S1x8x128_S8x128.numel_eq (ix2 y0 y1)) 1).val = _
    rw [hre]; show 8 * (t.val / 2) + 1 * y0.val = _; omega
  have hp2 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 2).val = wbL L + 256 * b.val + 128 * (t.val % 2) + y1.val := by
    show wbL L + 256 * b.val + 128 * (t.val % 2) + 1 * ((Shape.reshapeEquiv squeezes_S1x8x128_S8x128.numel_eq (ix2 y0 y1)) 2).val = _
    rw [hre]; show wbL L + 256 * b.val + 128 * (t.val % 2) + 1 * y1.val = _; omega
  -- the scratch position read, and its source in the chunk
  have hsrc : Cert.Proof.KW.src (((tb).slice (Rect.unit (s := S128x128) ![8 * t.val, 0] S8x128.size inbS) (fun _ => rfl)).view.emb (ix2 y0 y1))
      = ix2 (⟨128 * (t.val % 2) + y1.val, by omega⟩ : Fin 256) (⟨8 * (t.val / 2) + y0.val, by omega⟩ : Fin 128) := by
    unfold Cert.Proof.KW.src
    refine ix2_congr (Fin.ext ?_) (Fin.ext ?_)
    · show 128 * (((8 * t.val + 1 * y0.val) / 8) % 2) + (0 + 1 * y1.val) = 128 * (t.val % 2) + y1.val
      omega
    · show 8 * ((8 * t.val + 1 * y0.val) / 16) + (8 * t.val + 1 * y0.val) % 8 = 8 * (t.val / 2) + y0.val
      omega
  show FloatOps.mulf (R (Cert.Proof.KW.src (((tb).slice (Rect.unit (s := S128x128) ![8 * t.val, 0] S8x128.size inbS) (fun _ => rfl)).view.emb (ix2 y0 y1)))) (Scalar.ofBits .f32 0x41000000#32) = _
  rw [hsrc, hR]
  refine congrArg (fun a => FloatOps.mulf a (FloatOps.ofBits .f32 0x41000000#32)) (spec_congr X Tp _ _ _ _ ?_ ?_)
  · show xoff L k b + (128 * (t.val % 2) + y1.val) = _
    rw [hp0, hp2]; unfold xoff; omega
  · rw [hp1]

/-! The thirty-two pieces, each an instance of the general lemma at its own offsets. -/
theorem gd_of_tb0_0 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_0 L k).view.loc (V d (cV L) (jV L)))) :
    GdOK X Tp (dM0_0 L k).view.set ((dM0_0 L k).view.writes (Elt F) g0 [⟨Rect.whole S8x128, ReadAs.same.apply ((sM_0).view.read (Elt F) f)⟩]) :=
  gd_gen d L X Tp k 0 0 _ _ (off12_eq L k 0 0) _ _ rfl f h g0
theorem gd_of_tb0_1 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_1 L k).view.loc (V d (cV L) (jV L)))) :
    GdOK X Tp (dM0_1 L k).view.set ((dM0_1 L k).view.writes (Elt F) g0 [⟨Rect.whole S8x128, ReadAs.same.apply ((sM_1).view.read (Elt F) f)⟩]) :=
  gd_gen d L X Tp k 0 1 _ _ (off12_eq L k 0 1) _ _ rfl f h g0
theorem gd_of_tb0_2 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_2 L k).view.loc (V d (cV L) (jV L)))) :
    GdOK X Tp (dM0_2 L k).view.set ((dM0_2 L k).view.writes (Elt F) g0 [⟨Rect.whole S8x128, ReadAs.same.apply ((sM_2).view.read (Elt F) f)⟩]) :=
  gd_gen d L X Tp k 0 2 _ _ (off13_eq L k 0 0) _ _ rfl f h g0
theorem gd_of_tb0_3 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_3 L k).view.loc (V d (cV L) (jV L)))) :
    GdOK X Tp (dM0_3 L k).view.set ((dM0_3 L k).view.writes (Elt F) g0 [⟨Rect.whole S8x128, ReadAs.same.apply ((sM_3).view.read (Elt F) f)⟩]) :=
  gd_gen d L X Tp k 0 3 _ _ (off13_eq L k 0 1) _ _ rfl f h g0
theorem gd_of_tb0_4 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_4 L k).view.loc (V d (cV L) (jV L)))) :
    GdOK X Tp (dM0_4 L k).view.set ((dM0_4 L k).view.writes (Elt F) g0 [⟨Rect.whole S8x128, ReadAs.same.apply ((sM_4).view.read (Elt F) f)⟩]) :=
  gd_gen d L X Tp k 0 4 _ _ (off14_eq L k 0 0) _ _ rfl f h g0
theorem gd_of_tb0_5 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_5 L k).view.loc (V d (cV L) (jV L)))) :
    GdOK X Tp (dM0_5 L k).view.set ((dM0_5 L k).view.writes (Elt F) g0 [⟨Rect.whole S8x128, ReadAs.same.apply ((sM_5).view.read (Elt F) f)⟩]) :=
  gd_gen d L X Tp k 0 5 _ _ (off14_eq L k 0 1) _ _ rfl f h g0
theorem gd_of_tb0_6 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_6 L k).view.loc (V d (cV L) (jV L)))) :
    GdOK X Tp (dM0_6 L k).view.set ((dM0_6 L k).view.writes (Elt F) g0 [⟨Rect.whole S8x128, ReadAs.same.apply ((sM_6).view.read (Elt F) f)⟩]) :=
  gd_gen d L X Tp k 0 6 _ _ (off15_eq L k 0 0) _ _ rfl f h g0
theorem gd_of_tb0_7 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_7 L k).view.loc (V d (cV L) (jV L)))) :
    GdOK X Tp (dM0_7 L k).view.set ((dM0_7 L k).view.writes (Elt F) g0 [⟨Rect.whole S8x128, ReadAs.same.apply ((sM_7).view.read (Elt F) f)⟩]) :=
  gd_gen d L X Tp k 0 7 _ _ (off15_eq L k 0 1) _ _ rfl f h g0
theorem gd_of_tb0_8 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_8 L k).view.loc (V d (cV L) (jV L)))) :
    GdOK X Tp (dM0_8 L k).view.set ((dM0_8 L k).view.writes (Elt F) g0 [⟨Rect.whole S8x128, ReadAs.same.apply ((sM_8).view.read (Elt F) f)⟩]) :=
  gd_gen d L X Tp k 0 8 _ _ (off16_eq L k 0 0) _ _ rfl f h g0
theorem gd_of_tb0_9 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_9 L k).view.loc (V d (cV L) (jV L)))) :
    GdOK X Tp (dM0_9 L k).view.set ((dM0_9 L k).view.writes (Elt F) g0 [⟨Rect.whole S8x128, ReadAs.same.apply ((sM_9).view.read (Elt F) f)⟩]) :=
  gd_gen d L X Tp k 0 9 _ _ (off16_eq L k 0 1) _ _ rfl f h g0
theorem gd_of_tb0_10 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_10 L k).view.loc (V d (cV L) (jV L)))) :
    GdOK X Tp (dM0_10 L k).view.set ((dM0_10 L k).view.writes (Elt F) g0 [⟨Rect.whole S8x128, ReadAs.same.apply ((sM_10).view.read (Elt F) f)⟩]) :=
  gd_gen d L X Tp k 0 10 _ _ (off17_eq L k 0 0) _ _ rfl f h g0
theorem gd_of_tb0_11 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_11 L k).view.loc (V d (cV L) (jV L)))) :
    GdOK X Tp (dM0_11 L k).view.set ((dM0_11 L k).view.writes (Elt F) g0 [⟨Rect.whole S8x128, ReadAs.same.apply ((sM_11).view.read (Elt F) f)⟩]) :=
  gd_gen d L X Tp k 0 11 _ _ (off17_eq L k 0 1) _ _ rfl f h g0
theorem gd_of_tb0_12 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_12 L k).view.loc (V d (cV L) (jV L)))) :
    GdOK X Tp (dM0_12 L k).view.set ((dM0_12 L k).view.writes (Elt F) g0 [⟨Rect.whole S8x128, ReadAs.same.apply ((sM_12).view.read (Elt F) f)⟩]) :=
  gd_gen d L X Tp k 0 12 _ _ (off18_eq L k 0 0) _ _ rfl f h g0
theorem gd_of_tb0_13 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_13 L k).view.loc (V d (cV L) (jV L)))) :
    GdOK X Tp (dM0_13 L k).view.set ((dM0_13 L k).view.writes (Elt F) g0 [⟨Rect.whole S8x128, ReadAs.same.apply ((sM_13).view.read (Elt F) f)⟩]) :=
  gd_gen d L X Tp k 0 13 _ _ (off18_eq L k 0 1) _ _ rfl f h g0
theorem gd_of_tb0_14 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_14 L k).view.loc (V d (cV L) (jV L)))) :
    GdOK X Tp (dM0_14 L k).view.set ((dM0_14 L k).view.writes (Elt F) g0 [⟨Rect.whole S8x128, ReadAs.same.apply ((sM_14).view.read (Elt F) f)⟩]) :=
  gd_gen d L X Tp k 0 14 _ _ (off19_eq L k 0 0) _ _ rfl f h g0
theorem gd_of_tb0_15 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_15 L k).view.loc (V d (cV L) (jV L)))) :
    GdOK X Tp (dM0_15 L k).view.set ((dM0_15 L k).view.writes (Elt F) g0 [⟨Rect.whole S8x128, ReadAs.same.apply ((sM_15).view.read (Elt F) f)⟩]) :=
  gd_gen d L X Tp k 0 15 _ _ (off19_eq L k 0 1) _ _ rfl f h g0
theorem gd_of_tb1_0 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_0 L k).view.loc (V d (cV L) (jV L)))) :
    GdOK X Tp (dM1_0 L k).view.set ((dM1_0 L k).view.writes (Elt F) g0 [⟨Rect.whole S8x128, ReadAs.same.apply ((sM_0).view.read (Elt F) f)⟩]) :=
  gd_gen d L X Tp k 1 0 _ _ (off12_eq L k 1 0) _ _ rfl f h g0
theorem gd_of_tb1_1 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_1 L k).view.loc (V d (cV L) (jV L)))) :
    GdOK X Tp (dM1_1 L k).view.set ((dM1_1 L k).view.writes (Elt F) g0 [⟨Rect.whole S8x128, ReadAs.same.apply ((sM_1).view.read (Elt F) f)⟩]) :=
  gd_gen d L X Tp k 1 1 _ _ (off12_eq L k 1 1) _ _ rfl f h g0
theorem gd_of_tb1_2 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_2 L k).view.loc (V d (cV L) (jV L)))) :
    GdOK X Tp (dM1_2 L k).view.set ((dM1_2 L k).view.writes (Elt F) g0 [⟨Rect.whole S8x128, ReadAs.same.apply ((sM_2).view.read (Elt F) f)⟩]) :=
  gd_gen d L X Tp k 1 2 _ _ (off13_eq L k 1 0) _ _ rfl f h g0
theorem gd_of_tb1_3 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_3 L k).view.loc (V d (cV L) (jV L)))) :
    GdOK X Tp (dM1_3 L k).view.set ((dM1_3 L k).view.writes (Elt F) g0 [⟨Rect.whole S8x128, ReadAs.same.apply ((sM_3).view.read (Elt F) f)⟩]) :=
  gd_gen d L X Tp k 1 3 _ _ (off13_eq L k 1 1) _ _ rfl f h g0
theorem gd_of_tb1_4 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_4 L k).view.loc (V d (cV L) (jV L)))) :
    GdOK X Tp (dM1_4 L k).view.set ((dM1_4 L k).view.writes (Elt F) g0 [⟨Rect.whole S8x128, ReadAs.same.apply ((sM_4).view.read (Elt F) f)⟩]) :=
  gd_gen d L X Tp k 1 4 _ _ (off14_eq L k 1 0) _ _ rfl f h g0
theorem gd_of_tb1_5 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_5 L k).view.loc (V d (cV L) (jV L)))) :
    GdOK X Tp (dM1_5 L k).view.set ((dM1_5 L k).view.writes (Elt F) g0 [⟨Rect.whole S8x128, ReadAs.same.apply ((sM_5).view.read (Elt F) f)⟩]) :=
  gd_gen d L X Tp k 1 5 _ _ (off14_eq L k 1 1) _ _ rfl f h g0
theorem gd_of_tb1_6 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_6 L k).view.loc (V d (cV L) (jV L)))) :
    GdOK X Tp (dM1_6 L k).view.set ((dM1_6 L k).view.writes (Elt F) g0 [⟨Rect.whole S8x128, ReadAs.same.apply ((sM_6).view.read (Elt F) f)⟩]) :=
  gd_gen d L X Tp k 1 6 _ _ (off15_eq L k 1 0) _ _ rfl f h g0
theorem gd_of_tb1_7 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_7 L k).view.loc (V d (cV L) (jV L)))) :
    GdOK X Tp (dM1_7 L k).view.set ((dM1_7 L k).view.writes (Elt F) g0 [⟨Rect.whole S8x128, ReadAs.same.apply ((sM_7).view.read (Elt F) f)⟩]) :=
  gd_gen d L X Tp k 1 7 _ _ (off15_eq L k 1 1) _ _ rfl f h g0
theorem gd_of_tb1_8 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_8 L k).view.loc (V d (cV L) (jV L)))) :
    GdOK X Tp (dM1_8 L k).view.set ((dM1_8 L k).view.writes (Elt F) g0 [⟨Rect.whole S8x128, ReadAs.same.apply ((sM_8).view.read (Elt F) f)⟩]) :=
  gd_gen d L X Tp k 1 8 _ _ (off16_eq L k 1 0) _ _ rfl f h g0
theorem gd_of_tb1_9 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_9 L k).view.loc (V d (cV L) (jV L)))) :
    GdOK X Tp (dM1_9 L k).view.set ((dM1_9 L k).view.writes (Elt F) g0 [⟨Rect.whole S8x128, ReadAs.same.apply ((sM_9).view.read (Elt F) f)⟩]) :=
  gd_gen d L X Tp k 1 9 _ _ (off16_eq L k 1 1) _ _ rfl f h g0
theorem gd_of_tb1_10 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_10 L k).view.loc (V d (cV L) (jV L)))) :
    GdOK X Tp (dM1_10 L k).view.set ((dM1_10 L k).view.writes (Elt F) g0 [⟨Rect.whole S8x128, ReadAs.same.apply ((sM_10).view.read (Elt F) f)⟩]) :=
  gd_gen d L X Tp k 1 10 _ _ (off17_eq L k 1 0) _ _ rfl f h g0
theorem gd_of_tb1_11 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_11 L k).view.loc (V d (cV L) (jV L)))) :
    GdOK X Tp (dM1_11 L k).view.set ((dM1_11 L k).view.writes (Elt F) g0 [⟨Rect.whole S8x128, ReadAs.same.apply ((sM_11).view.read (Elt F) f)⟩]) :=
  gd_gen d L X Tp k 1 11 _ _ (off17_eq L k 1 1) _ _ rfl f h g0
theorem gd_of_tb1_12 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_12 L k).view.loc (V d (cV L) (jV L)))) :
    GdOK X Tp (dM1_12 L k).view.set ((dM1_12 L k).view.writes (Elt F) g0 [⟨Rect.whole S8x128, ReadAs.same.apply ((sM_12).view.read (Elt F) f)⟩]) :=
  gd_gen d L X Tp k 1 12 _ _ (off18_eq L k 1 0) _ _ rfl f h g0
theorem gd_of_tb1_13 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_13 L k).view.loc (V d (cV L) (jV L)))) :
    GdOK X Tp (dM1_13 L k).view.set ((dM1_13 L k).view.writes (Elt F) g0 [⟨Rect.whole S8x128, ReadAs.same.apply ((sM_13).view.read (Elt F) f)⟩]) :=
  gd_gen d L X Tp k 1 13 _ _ (off18_eq L k 1 1) _ _ rfl f h g0
theorem gd_of_tb1_14 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_14 L k).view.loc (V d (cV L) (jV L)))) :
    GdOK X Tp (dM1_14 L k).view.set ((dM1_14 L k).view.writes (Elt F) g0 [⟨Rect.whole S8x128, ReadAs.same.apply ((sM_14).view.read (Elt F) f)⟩]) :=
  gd_gen d L X Tp k 1 14 _ _ (off19_eq L k 1 0) _ _ rfl f h g0
theorem gd_of_tb1_15 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_15 L k).view.loc (V d (cV L) (jV L)))) :
    GdOK X Tp (dM1_15 L k).view.set ((dM1_15 L k).view.writes (Elt F) g0 [⟨Rect.whole S8x128, ReadAs.same.apply ((sM_15).view.read (Elt F) f)⟩]) :=
  gd_gen d L X Tp k 1 15 _ _ (off19_eq L k 1 1) _ _ rfl f h g0

/-- The gathered rows: each row of the buffer is the padded table's row its index names. -/
theorem rows_ok_gather0 (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (I : Buf (Elt F) ((V d (cV L) (jV L)).loc cc0_scratch0)) (hI : IdxOK X L k b I)
    (g : Buf (Elt F) ((V d (cV L) (jV L)).loc cc0_scratch2)) (pf) (hin : ∀ j, ((i0).view.read (Elt F) I j).toNat < N1M) :
    RowsOK X Tp L k b ((r0).view.writes (Elt F) g [⟨Rect.whole _, SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i0).view I) pf hin)⟩]) := by
  intro r c
  have h1 := View.read_writes_cons_emb (r0).view g (Rect.whole S256x128)
    (SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i0).view I) pf hin)) [] (ix2 r c)
  have e := Rect.emb_whole_apply S256x128 (ix2 r c)
  rw [e] at h1
  simp only [Memref.view_whole, View.read_whole] at h1
  refine h1.trans ?_
  unfold SparseCore.gatherPayload
  refine ((View.read_apply _ _).trans (cast_eq _ _)).trans ?_
  have hrow : S256.rowMajor.symm (r.cast pf.symm) = ix1 r := (Equiv.symm_apply_eq _).2 (Fin.ext (by rw [Shape.rowMajor_val_one]; rfl))
  have hI' : (I (ix1 r)).toNat < 1000000 := hin (ix1 r)
  refine congrArg Tp (funext fun a => Fin.ext ?_)
  match a with
  | ⟨0, _⟩ =>
    show 0 + 1 * (gathers_S1000000x128_S256x128.idx (SparseCore.rows (View.read (Elt F) (i0).view I) pf hin) (ix2 r c) gathers_S1000000x128_S256x128.axis).val
      = (X (ix1 (⟨xoff L k b + r.val, xoff_lt L k b r⟩ : Fin 819200))).toNat % 1000000
    rw [Shape.Gathers.idx_axis]
    show 0 + 1 * (I (S256.rowMajor.symm (r.cast pf.symm))).toNat = _
    rw [hrow, ← hI r, Nat.mod_eq_of_lt hI']; omega
  | ⟨1, _⟩ =>
    show 0 + 1 * (gathers_S1000000x128_S256x128.idx (SparseCore.rows (View.read (Elt F) (i0).view I) pf hin) (ix2 r c) ⟨1, by decide⟩).val = c.val
    rw [Shape.Gathers.idx_of_ne _ _ _ _ (by decide)]
    show 0 + 1 * c.val = c.val
    omega

/-- The gathered rows: each row of the buffer is the padded table's row its index names. -/
theorem rows_ok_gather1 (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (I : Buf (Elt F) ((V d (cV L) (jV L)).loc cc0_scratch1)) (hI : IdxOK X L k b I)
    (g : Buf (Elt F) ((V d (cV L) (jV L)).loc cc0_scratch3)) (pf) (hin : ∀ j, ((i1).view.read (Elt F) I j).toNat < N1M) :
    RowsOK X Tp L k b ((r1).view.writes (Elt F) g [⟨Rect.whole _, SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i1).view I) pf hin)⟩]) := by
  intro r c
  have h1 := View.read_writes_cons_emb (r1).view g (Rect.whole S256x128)
    (SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i1).view I) pf hin)) [] (ix2 r c)
  have e := Rect.emb_whole_apply S256x128 (ix2 r c)
  rw [e] at h1
  simp only [Memref.view_whole, View.read_whole] at h1
  refine h1.trans ?_
  unfold SparseCore.gatherPayload
  refine ((View.read_apply _ _).trans (cast_eq _ _)).trans ?_
  have hrow : S256.rowMajor.symm (r.cast pf.symm) = ix1 r := (Equiv.symm_apply_eq _).2 (Fin.ext (by rw [Shape.rowMajor_val_one]; rfl))
  have hI' : (I (ix1 r)).toNat < 1000000 := hin (ix1 r)
  refine congrArg Tp (funext fun a => Fin.ext ?_)
  match a with
  | ⟨0, _⟩ =>
    show 0 + 1 * (gathers_S1000000x128_S256x128.idx (SparseCore.rows (View.read (Elt F) (i1).view I) pf hin) (ix2 r c) gathers_S1000000x128_S256x128.axis).val
      = (X (ix1 (⟨xoff L k b + r.val, xoff_lt L k b r⟩ : Fin 819200))).toNat % 1000000
    rw [Shape.Gathers.idx_axis]
    show 0 + 1 * (I (S256.rowMajor.symm (r.cast pf.symm))).toNat = _
    rw [hrow, ← hI r, Nat.mod_eq_of_lt hI']; omega
  | ⟨1, _⟩ =>
    show 0 + 1 * (gathers_S1000000x128_S256x128.idx (SparseCore.rows (View.read (Elt F) (i1).view I) pf hin) (ix2 r c) ⟨1, by decide⟩).val = c.val
    rw [Shape.Gathers.idx_of_ne _ _ _ _ (by decide)]
    show 0 + 1 * c.val = c.val
    omega

end Cert.Proof.K
end
-- ==== Proof.KTripF.lean ====
import proofs.«206429_g47863115546636_cont_8to1c4_619_32_alg».proof.Proof.KTile

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.K Cert.Proof.KW

variable {F : FTy → Type}
local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

variable [FloatOps F]

set_option maxHeartbeats 0 in
theorem tripF (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : k0_cond2 k = 1#1) (h3 : ¬ k0_cond3 k = 1#1) (h4 : k0_cond4 k = 1#1) (h5 : k0_cond5 k = 1#1) (h6 : k0_cond6 k = 1#1) :
    iprop(coreFly d L O W q X Tp k.val ∗ tbIdle d L ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k ∗ SlA d L X Tp True k) : sProp 𝕄) := by
  unfold coreFly flyI1 flyG0 tbIdle SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨⟨%f, Htb⟩, Hs7⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec

  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  unfold batchB
  isplitl [Hmw HX3 Hs9 HX4 Hs5 HT0 HT1 Hr1 Hs6 Hs8 HO]
  · isplitl [Hmw]; · iexact Hmw
    isplitl [HX3]; · iexact HX3
    isplitl [Hs9 HX4]
    · iexists _, _
      isplitl [Hs9]; · iexact Hs9
      isplitl [HX4]; · iexact HX4
      ipureintro
      exact ⟨hin_i1 (F := F) d L X hX _ _ _, idx_ok_write1 d L X (kOf (k.val + 1)) 1 _ _ _ (off21_eq L k h5)⟩
    isplitl [Hs5 HT0]
    · iexists _, _, _
      isplitl [Hs5]; · iexact Hs5
      isplitl [HT0]; · iexact HT0
      ipureintro
      exact rows_ok_gather0 d L X Tp (kOf (k.val + 1)) 0 _ (idx_ok_write0 d L X (kOf (k.val + 1)) 0 _ _ _ (off3_eq L k h2)) _ _ _
    isplitl [HT1]; · iexact HT1
    isplitl [Hr1]; · iexists _; iexact Hr1
    isplitl [Hs6]; · iexact Hs6
    isplitl [Hs8]; · iexact Hs8
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.K
end
-- ==== Proof.KTripM.lean ====
import proofs.«206429_g47863115546636_cont_8to1c4_619_32_alg».proof.Proof.KTile

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.K Cert.Proof.KW

variable {F : FTy → Type}
local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

variable [FloatOps F]

set_option maxHeartbeats 0 in
theorem tripM (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : k0_cond2 k = 1#1) (h3 : k0_cond3 k = 1#1) (h4 : k0_cond4 k = 1#1) (h5 : k0_cond5 k = 1#1) (h6 : k0_cond6 k = 1#1) :
    iprop(coreFly d L O W q X Tp k.val ∗ batchB d L X Tp kp ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k ∗ SlB d L X Tp True kp ∗ SlA d L X Tp True k) : sProp 𝕄) := by
  unfold coreFly flyI1 flyG0 batchB SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨%f, %ga0, %ga1, %ga2, %ga3, %ga4, %ga5, %ga6, %ga7, %ga8, %ga9, %ga10, %ga11, %ga12, %ga13, %ga14, %ga15, Hs7, %hTb⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  isplitl [Hmw HX3 Hs9 HX4 Hs5 HT0 HT1 Hr1 Hs6 Hs8 HO]
  · isplitl [Hmw]; · iexact Hmw
    isplitl [HX3]; · iexact HX3
    isplitl [Hs9 HX4]
    · iexists _, _
      isplitl [Hs9]; · iexact Hs9
      isplitl [HX4]; · iexact HX4
      ipureintro
      exact ⟨hin_i1 (F := F) d L X hX _ _ _, idx_ok_write1 d L X (kOf (k.val + 1)) 1 _ _ _ (off21_eq L k h5)⟩
    isplitl [Hs5 HT0]
    · iexists _, _, _
      isplitl [Hs5]; · iexact Hs5
      isplitl [HT0]; · iexact HT0
      ipureintro
      exact rows_ok_gather0 d L X Tp (kOf (k.val + 1)) 0 _ (idx_ok_write0 d L X (kOf (k.val + 1)) 0 _ _ _ (off3_eq L k h2)) _ _ _
    isplitl [HT1]; · iexact HT1
    isplitl [Hr1]; · iexists _; iexact Hr1
    isplitl [Hs6]; · iexact Hs6
    isplitl [Hs8]; · iexact Hs8
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15]
  ·
    isplitl [Hs7_dst0]
    · iexists _; isplitl [Hs7_dst0]; · iexact Hs7_dst0
      ipureintro; exact fun _ => gd_of_tb1_0 d L X Tp kp _ hTb _
    isplitl [Hs7_dst1]
    · iexists _; isplitl [Hs7_dst1]; · iexact Hs7_dst1
      ipureintro; exact fun _ => gd_of_tb1_1 d L X Tp kp _ hTb _
    isplitl [Hs7_dst2]
    · iexists _; isplitl [Hs7_dst2]; · iexact Hs7_dst2
      ipureintro; exact fun _ => gd_of_tb1_2 d L X Tp kp _ hTb _
    isplitl [Hs7_dst3]
    · iexists _; isplitl [Hs7_dst3]; · iexact Hs7_dst3
      ipureintro; exact fun _ => gd_of_tb1_3 d L X Tp kp _ hTb _
    isplitl [Hs7_dst4]
    · iexists _; isplitl [Hs7_dst4]; · iexact Hs7_dst4
      ipureintro; exact fun _ => gd_of_tb1_4 d L X Tp kp _ hTb _
    isplitl [Hs7_dst5]
    · iexists _; isplitl [Hs7_dst5]; · iexact Hs7_dst5
      ipureintro; exact fun _ => gd_of_tb1_5 d L X Tp kp _ hTb _
    isplitl [Hs7_dst6]
    · iexists _; isplitl [Hs7_dst6]; · iexact Hs7_dst6
      ipureintro; exact fun _ => gd_of_tb1_6 d L X Tp kp _ hTb _
    isplitl [Hs7_dst7]
    · iexists _; isplitl [Hs7_dst7]; · iexact Hs7_dst7
      ipureintro; exact fun _ => gd_of_tb1_7 d L X Tp kp _ hTb _
    isplitl [Hs7_dst8]
    · iexists _; isplitl [Hs7_dst8]; · iexact Hs7_dst8
      ipureintro; exact fun _ => gd_of_tb1_8 d L X Tp kp _ hTb _
    isplitl [Hs7_dst9]
    · iexists _; isplitl [Hs7_dst9]; · iexact Hs7_dst9
      ipureintro; exact fun _ => gd_of_tb1_9 d L X Tp kp _ hTb _
    isplitl [Hs7_dst10]
    · iexists _; isplitl [Hs7_dst10]; · iexact Hs7_dst10
      ipureintro; exact fun _ => gd_of_tb1_10 d L X Tp kp _ hTb _
    isplitl [Hs7_dst11]
    · iexists _; isplitl [Hs7_dst11]; · iexact Hs7_dst11
      ipureintro; exact fun _ => gd_of_tb1_11 d L X Tp kp _ hTb _
    isplitl [Hs7_dst12]
    · iexists _; isplitl [Hs7_dst12]; · iexact Hs7_dst12
      ipureintro; exact fun _ => gd_of_tb1_12 d L X Tp kp _ hTb _
    isplitl [Hs7_dst13]
    · iexists _; isplitl [Hs7_dst13]; · iexact Hs7_dst13
      ipureintro; exact fun _ => gd_of_tb1_13 d L X Tp kp _ hTb _
    isplitl [Hs7_dst14]
    · iexists _; isplitl [Hs7_dst14]; · iexact Hs7_dst14
      ipureintro; exact fun _ => gd_of_tb1_14 d L X Tp kp _ hTb _
    iexists _; isplitl [Hs7_dst15]; · iexact Hs7_dst15
    ipureintro; exact fun _ => gd_of_tb1_15 d L X Tp kp _ hTb _
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.K
end
-- ==== Proof.KTripL.lean ====
import proofs.«206429_g47863115546636_cont_8to1c4_619_32_alg».proof.Proof.KTile

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.K Cert.Proof.KW

variable {F : FTy → Type}
local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

variable [FloatOps F]

set_option maxHeartbeats 0 in
theorem tripL (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : ¬ k0_cond2 k = 1#1) (h3 : k0_cond3 k = 1#1) (h4 : ¬ k0_cond4 k = 1#1) (h5 : ¬ k0_cond5 k = 1#1) (h6 : k0_cond6 k = 1#1) :
    iprop(coreFly d L O W q X Tp k.val ∗ batchB d L X Tp kp ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreIdle d L O W q X Tp ∗ batchB d L X Tp k ∗ SlB d L X Tp True kp ∗ SlA d L X Tp True k) : sProp 𝕄) := by
  unfold coreFly flyI1 flyG0 batchB SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨%f, %ga0, %ga1, %ga2, %ga3, %ga4, %ga5, %ga6, %ga7, %ga8, %ga9, %ga10, %ga11, %ga12, %ga13, %ga14, %ga15, Hs7, %hTb⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  unfold coreIdle owesPart
  isplitl [Hmw HX3 HX4 HT0 HT1 Hs5_dst Hr1 Hs5_dst_and Hs9_dst Hs5 Hs6 Hs8 Hs9 HO]
  · isplitl [Hmw]; · iexact Hmw
    isplitl [HX3]; · iexact HX3
    isplitl [HX4]; · iexact HX4
    isplitl [HT0]; · iexact HT0
    isplitl [HT1]; · iexact HT1
    isplitl [Hs5_dst]; · iexists _; iexact Hs5_dst
    isplitl [Hr1]; · iexists _; iexact Hr1
    isplitl [Hs5_dst_and]; · iexists _; iexact Hs5_dst_and
    isplitl [Hs9_dst]; · iexists _; iexact Hs9_dst
    isplitl [Hs5]; · iexact Hs5
    isplitl [Hs6]; · iexact Hs6
    isplitl [Hs8]; · iexact Hs8
    isplitl [Hs9]; · iexact Hs9
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15]
  ·
    isplitl [Hs7_dst0]
    · iexists _; isplitl [Hs7_dst0]; · iexact Hs7_dst0
      ipureintro; exact fun _ => gd_of_tb1_0 d L X Tp kp _ hTb _
    isplitl [Hs7_dst1]
    · iexists _; isplitl [Hs7_dst1]; · iexact Hs7_dst1
      ipureintro; exact fun _ => gd_of_tb1_1 d L X Tp kp _ hTb _
    isplitl [Hs7_dst2]
    · iexists _; isplitl [Hs7_dst2]; · iexact Hs7_dst2
      ipureintro; exact fun _ => gd_of_tb1_2 d L X Tp kp _ hTb _
    isplitl [Hs7_dst3]
    · iexists _; isplitl [Hs7_dst3]; · iexact Hs7_dst3
      ipureintro; exact fun _ => gd_of_tb1_3 d L X Tp kp _ hTb _
    isplitl [Hs7_dst4]
    · iexists _; isplitl [Hs7_dst4]; · iexact Hs7_dst4
      ipureintro; exact fun _ => gd_of_tb1_4 d L X Tp kp _ hTb _
    isplitl [Hs7_dst5]
    · iexists _; isplitl [Hs7_dst5]; · iexact Hs7_dst5
      ipureintro; exact fun _ => gd_of_tb1_5 d L X Tp kp _ hTb _
    isplitl [Hs7_dst6]
    · iexists _; isplitl [Hs7_dst6]; · iexact Hs7_dst6
      ipureintro; exact fun _ => gd_of_tb1_6 d L X Tp kp _ hTb _
    isplitl [Hs7_dst7]
    · iexists _; isplitl [Hs7_dst7]; · iexact Hs7_dst7
      ipureintro; exact fun _ => gd_of_tb1_7 d L X Tp kp _ hTb _
    isplitl [Hs7_dst8]
    · iexists _; isplitl [Hs7_dst8]; · iexact Hs7_dst8
      ipureintro; exact fun _ => gd_of_tb1_8 d L X Tp kp _ hTb _
    isplitl [Hs7_dst9]
    · iexists _; isplitl [Hs7_dst9]; · iexact Hs7_dst9
      ipureintro; exact fun _ => gd_of_tb1_9 d L X Tp kp _ hTb _
    isplitl [Hs7_dst10]
    · iexists _; isplitl [Hs7_dst10]; · iexact Hs7_dst10
      ipureintro; exact fun _ => gd_of_tb1_10 d L X Tp kp _ hTb _
    isplitl [Hs7_dst11]
    · iexists _; isplitl [Hs7_dst11]; · iexact Hs7_dst11
      ipureintro; exact fun _ => gd_of_tb1_11 d L X Tp kp _ hTb _
    isplitl [Hs7_dst12]
    · iexists _; isplitl [Hs7_dst12]; · iexact Hs7_dst12
      ipureintro; exact fun _ => gd_of_tb1_12 d L X Tp kp _ hTb _
    isplitl [Hs7_dst13]
    · iexists _; isplitl [Hs7_dst13]; · iexact Hs7_dst13
      ipureintro; exact fun _ => gd_of_tb1_13 d L X Tp kp _ hTb _
    isplitl [Hs7_dst14]
    · iexists _; isplitl [Hs7_dst14]; · iexact Hs7_dst14
      ipureintro; exact fun _ => gd_of_tb1_14 d L X Tp kp _ hTb _
    iexists _; isplitl [Hs7_dst15]; · iexact Hs7_dst15
    ipureintro; exact fun _ => gd_of_tb1_15 d L X Tp kp _ hTb _
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.K
end
-- ==== Proof.KChk.lean ====
/-
  The 256 in-range conditions of the two transposition loops hold at the constant index words:
  for every trip g and every lane, the row and column words of each indexed load lie inside the
  256 x 128 row buffer and those of each indexed store inside the 128 x 128 scratch. Each is a finite
  statement over 16 trips, 16 lanes and 2 axes, checked by evaluation.
  J2 g and J3 g are the word floor(g / 8) as the loops compute it (signed floor division by 8).
-/
import proofs.«206429_g47863115546636_cont_8to1c4_619_32_alg».proof.Proof.KWords

-- one statement at a time: each is checked by evaluation, and many at once hold much memory
set_option Elab.async false

noncomputable section

namespace Cert.Proof.KW

open Idealize.ShloMosaic Idealize.SL.Sem Idealize.ShloMosaic.ValueIdx
open Cert.KernelIdeal Cert.KernelIdeal.Gen

/-- floor(g / 8) as the first loop computes it from its trip variable. -/
def J2 (g : Fin k0_t2_loop.trips) : BitVec 32 :=
  let arg16 : BitVec 32 := Scf.iv 0#32 1#32 g
  let v555 : BitVec 32 := Scalar.muli arg16 1#32
  let v556 : BitVec 32 := Scalar.addi 0#32 v555
  let v558 : BitVec 32 := Scalar.divsi v556 8#32
  let v559 : BitVec 1 := Scalar.cmpi .sgt v556 0#32
  let v560 : BitVec 32 := Scalar.extui v559
  let v561 : BitVec 1 := Scalar.cmpi .slt v556 0#32
  let v562 : BitVec 32 := Scalar.extui v561
  let v563 : BitVec 32 := Scalar.subi v560 v562
  let v564 : BitVec 1 := Scalar.cmpi .sgt 8#32 0#32
  let v565 : BitVec 32 := Scalar.extui v564
  let v566 : BitVec 1 := Scalar.cmpi .slt 8#32 0#32
  let v567 : BitVec 32 := Scalar.extui v566
  let v568 : BitVec 32 := Scalar.subi v565 v567
  let v569 : BitVec 1 := Scalar.cmpi .ne v563 v568
  let v570 : BitVec 32 := Scalar.remsi v556 8#32
  let v571 : BitVec 1 := Scalar.cmpi .ne v570 0#32
  let v572 : BitVec 1 := Scalar.andi v569 v571
  let v573 : BitVec 32 := Scalar.subi v558 1#32
  let v574 : BitVec 32 := Scalar.select v572 v573 v558
  v574

/-- floor(g / 8) as the second loop computes it from its trip variable. -/
def J3 (g : Fin k0_t3_loop.trips) : BitVec 32 :=
  let arg16 : BitVec 32 := Scf.iv 0#32 1#32 g
  let v555 : BitVec 32 := Scalar.muli arg16 1#32
  let v556 : BitVec 32 := Scalar.addi 0#32 v555
  let v558 : BitVec 32 := Scalar.divsi v556 8#32
  let v559 : BitVec 1 := Scalar.cmpi .sgt v556 0#32
  let v560 : BitVec 32 := Scalar.extui v559
  let v561 : BitVec 1 := Scalar.cmpi .slt v556 0#32
  let v562 : BitVec 32 := Scalar.extui v561
  let v563 : BitVec 32 := Scalar.subi v560 v562
  let v564 : BitVec 1 := Scalar.cmpi .sgt 8#32 0#32
  let v565 : BitVec 32 := Scalar.extui v564
  let v566 : BitVec 1 := Scalar.cmpi .slt 8#32 0#32
  let v567 : BitVec 32 := Scalar.extui v566
  let v568 : BitVec 32 := Scalar.subi v565 v567
  let v569 : BitVec 1 := Scalar.cmpi .ne v563 v568
  let v570 : BitVec 32 := Scalar.remsi v556 8#32
  let v571 : BitVec 1 := Scalar.cmpi .ne v570 0#32
  let v572 : BitVec 1 := Scalar.andi v569 v571
  let v573 : BitVec 32 := Scalar.subi v558 1#32
  let v574 : BitVec 32 := Scalar.select v572 v573 v558
  v574

theorem chk1 (g : Fin k0_t2_loop.trips) : k0_chk1 (k0_pay1 W3 0#32 1#32 g) (k0_pay3 W7) := by
  unfold k0_chk1; revert g; decide +kernel

theorem chk2 (g : Fin k0_t2_loop.trips) : k0_chk2 (k0_pay2 W3 0#32 1#32 g) (k0_pay4 W70 0#32 1#32 g) := by
  unfold k0_chk2; revert g; decide +kernel

theorem chk3 (g : Fin k0_t2_loop.trips) : k0_chk3 (k0_pay1 W3 0#32 1#32 g) (k0_pay6 W11) := by
  unfold k0_chk3; revert g; decide +kernel

theorem chk4 (g : Fin k0_t2_loop.trips) : k0_chk4 (k0_pay2 W3 0#32 1#32 g) (k0_pay7 W73 (J2 g) 8#32) := by
  unfold k0_chk4; revert g; decide +kernel

theorem chk5 (g : Fin k0_t2_loop.trips) : k0_chk5 (k0_pay1 W3 0#32 1#32 g) (k0_pay9 W15) := by
  unfold k0_chk5; revert g; decide +kernel

theorem chk6 (g : Fin k0_t2_loop.trips) : k0_chk6 (k0_pay2 W3 0#32 1#32 g) (k0_pay10 W76 (J2 g)) := by
  unfold k0_chk6; revert g; decide +kernel

theorem chk7 (g : Fin k0_t2_loop.trips) : k0_chk7 (k0_pay1 W3 0#32 1#32 g) (k0_pay12 W19) := by
  unfold k0_chk7; revert g; decide +kernel

theorem chk8 (g : Fin k0_t2_loop.trips) : k0_chk8 (k0_pay2 W3 0#32 1#32 g) (k0_pay13 W79 (J2 g)) := by
  unfold k0_chk8; revert g; decide +kernel

theorem chk9 (g : Fin k0_t2_loop.trips) : k0_chk9 (k0_pay1 W3 0#32 1#32 g) (k0_pay15 W23) := by
  unfold k0_chk9; revert g; decide +kernel

theorem chk10 (g : Fin k0_t2_loop.trips) : k0_chk10 (k0_pay2 W3 0#32 1#32 g) (k0_pay16 W82 (J2 g)) := by
  unfold k0_chk10; revert g; decide +kernel

theorem chk11 (g : Fin k0_t2_loop.trips) : k0_chk11 (k0_pay1 W3 0#32 1#32 g) (addi W27 k0_pay18) := by
  unfold k0_chk11; revert g; decide +kernel

theorem chk12 (g : Fin k0_t2_loop.trips) : k0_chk12 (k0_pay2 W3 0#32 1#32 g) (k0_pay19 W85 (J2 g)) := by
  unfold k0_chk12; revert g; decide +kernel

theorem chk13 (g : Fin k0_t2_loop.trips) : k0_chk13 (k0_pay1 W3 0#32 1#32 g) (k0_pay21 W31) := by
  unfold k0_chk13; revert g; decide +kernel

theorem chk14 (g : Fin k0_t2_loop.trips) : k0_chk14 (k0_pay2 W3 0#32 1#32 g) (k0_pay22 W88 (J2 g)) := by
  unfold k0_chk14; revert g; decide +kernel

theorem chk15 (g : Fin k0_t2_loop.trips) : k0_chk15 (k0_pay1 W3 0#32 1#32 g) (k0_pay24 W35) := by
  unfold k0_chk15; revert g; decide +kernel

theorem chk16 (g : Fin k0_t2_loop.trips) : k0_chk16 (k0_pay2 W3 0#32 1#32 g) (k0_pay25 W91 (J2 g)) := by
  unfold k0_chk16; revert g; decide +kernel

theorem chk17 (g : Fin k0_t2_loop.trips) : k0_chk17 (k0_pay1 W3 0#32 1#32 g) (k0_pay27 W39) := by
  unfold k0_chk17; revert g; decide +kernel

theorem chk18 (g : Fin k0_t2_loop.trips) : k0_chk18 (k0_pay2 W3 0#32 1#32 g) (k0_pay28 W94 (J2 g)) := by
  unfold k0_chk18; revert g; decide +kernel

theorem chk19 (g : Fin k0_t2_loop.trips) : k0_chk19 (k0_pay1 W3 0#32 1#32 g) (k0_pay31 W43) := by
  unfold k0_chk19; revert g; decide +kernel

theorem chk20 (g : Fin k0_t2_loop.trips) : k0_chk20 (k0_pay2 W3 0#32 1#32 g) (k0_pay32 W97 (J2 g)) := by
  unfold k0_chk20; revert g; decide +kernel

theorem chk21 (g : Fin k0_t2_loop.trips) : k0_chk21 (k0_pay1 W3 0#32 1#32 g) (k0_pay34 W47) := by
  unfold k0_chk21; revert g; decide +kernel

theorem chk22 (g : Fin k0_t2_loop.trips) : k0_chk22 (k0_pay2 W3 0#32 1#32 g) (k0_pay35 W100 (J2 g)) := by
  unfold k0_chk22; revert g; decide +kernel

theorem chk23 (g : Fin k0_t2_loop.trips) : k0_chk23 (k0_pay1 W3 0#32 1#32 g) (k0_pay37 W51) := by
  unfold k0_chk23; revert g; decide +kernel

theorem chk24 (g : Fin k0_t2_loop.trips) : k0_chk24 (k0_pay2 W3 0#32 1#32 g) (k0_pay38 W103 (J2 g)) := by
  unfold k0_chk24; revert g; decide +kernel

theorem chk25 (g : Fin k0_t2_loop.trips) : k0_chk25 (k0_pay1 W3 0#32 1#32 g) (k0_pay40 W55) := by
  unfold k0_chk25; revert g; decide +kernel

theorem chk26 (g : Fin k0_t2_loop.trips) : k0_chk26 (k0_pay2 W3 0#32 1#32 g) (addi W106 (k0_pay41 (J2 g))) := by
  unfold k0_chk26; revert g; decide +kernel

theorem chk27 (g : Fin k0_t2_loop.trips) : k0_chk27 (k0_pay1 W3 0#32 1#32 g) (k0_pay43 W59) := by
  unfold k0_chk27; revert g; decide +kernel

theorem chk28 (g : Fin k0_t2_loop.trips) : k0_chk28 (k0_pay2 W3 0#32 1#32 g) (k0_pay44 W109 (J2 g)) := by
  unfold k0_chk28; revert g; decide +kernel

theorem chk29 (g : Fin k0_t2_loop.trips) : k0_chk29 (k0_pay1 W3 0#32 1#32 g) (k0_pay46 W63) := by
  unfold k0_chk29; revert g; decide +kernel

theorem chk30 (g : Fin k0_t2_loop.trips) : k0_chk30 (k0_pay2 W3 0#32 1#32 g) (k0_pay47 W112 (J2 g)) := by
  unfold k0_chk30; revert g; decide +kernel

theorem chk31 (g : Fin k0_t2_loop.trips) : k0_chk31 (k0_pay1 W3 0#32 1#32 g) (k0_pay49 W67) := by
  unfold k0_chk31; revert g; decide +kernel

theorem chk32 (g : Fin k0_t2_loop.trips) : k0_chk32 (k0_pay2 W3 0#32 1#32 g) (k0_pay50 W115 (J2 g)) := by
  unfold k0_chk32; revert g; decide +kernel

theorem chk33 (g : Fin k0_t2_loop.trips) : k0_chk33 (k0_pay1 W3 0#32 1#32 g) (k0_pay52 W7) := by
  unfold k0_chk33; revert g; decide +kernel

theorem chk34 (g : Fin k0_t2_loop.trips) : k0_chk34 (k0_pay2 W3 0#32 1#32 g) (k0_pay53 W70 (J2 g) 8#32) := by
  unfold k0_chk34; revert g; decide +kernel

theorem chk35 (g : Fin k0_t2_loop.trips) : k0_chk35 (k0_pay1 W3 0#32 1#32 g) (k0_pay55 W11) := by
  unfold k0_chk35; revert g; decide +kernel

theorem chk36 (g : Fin k0_t2_loop.trips) : k0_chk36 (k0_pay2 W3 0#32 1#32 g) (k0_pay56 W73 (J2 g)) := by
  unfold k0_chk36; revert g; decide +kernel

theorem chk37 (g : Fin k0_t2_loop.trips) : k0_chk37 (k0_pay1 W3 0#32 1#32 g) (k0_pay58 W15) := by
  unfold k0_chk37; revert g; decide +kernel

theorem chk38 (g : Fin k0_t2_loop.trips) : k0_chk38 (k0_pay2 W3 0#32 1#32 g) (k0_pay59 W76 (J2 g)) := by
  unfold k0_chk38; revert g; decide +kernel

theorem chk39 (g : Fin k0_t2_loop.trips) : k0_chk39 (k0_pay1 W3 0#32 1#32 g) (k0_pay61 W19) := by
  unfold k0_chk39; revert g; decide +kernel

theorem chk40 (g : Fin k0_t2_loop.trips) : k0_chk40 (k0_pay2 W3 0#32 1#32 g) (k0_pay62 W79 (J2 g)) := by
  unfold k0_chk40; revert g; decide +kernel

theorem chk41 (g : Fin k0_t2_loop.trips) : k0_chk41 (k0_pay1 W3 0#32 1#32 g) (addi W23 k0_pay64) := by
  unfold k0_chk41; revert g; decide +kernel

theorem chk42 (g : Fin k0_t2_loop.trips) : k0_chk42 (k0_pay2 W3 0#32 1#32 g) (k0_pay65 W82 (J2 g)) := by
  unfold k0_chk42; revert g; decide +kernel

theorem chk43 (g : Fin k0_t2_loop.trips) : k0_chk43 (k0_pay1 W3 0#32 1#32 g) (k0_pay67 W27) := by
  unfold k0_chk43; revert g; decide +kernel

theorem chk44 (g : Fin k0_t2_loop.trips) : k0_chk44 (k0_pay2 W3 0#32 1#32 g) (k0_pay68 W85 (J2 g)) := by
  unfold k0_chk44; revert g; decide +kernel

theorem chk45 (g : Fin k0_t2_loop.trips) : k0_chk45 (k0_pay1 W3 0#32 1#32 g) (k0_pay70 W31) := by
  unfold k0_chk45; revert g; decide +kernel

theorem chk46 (g : Fin k0_t2_loop.trips) : k0_chk46 (k0_pay2 W3 0#32 1#32 g) (k0_pay71 W88 (J2 g)) := by
  unfold k0_chk46; revert g; decide +kernel

theorem chk47 (g : Fin k0_t2_loop.trips) : k0_chk47 (k0_pay1 W3 0#32 1#32 g) (k0_pay73 W35) := by
  unfold k0_chk47; revert g; decide +kernel

theorem chk48 (g : Fin k0_t2_loop.trips) : k0_chk48 (k0_pay2 W3 0#32 1#32 g) (k0_pay74 W91 (J2 g)) := by
  unfold k0_chk48; revert g; decide +kernel

theorem chk49 (g : Fin k0_t2_loop.trips) : k0_chk49 (k0_pay1 W3 0#32 1#32 g) (k0_pay77 W39) := by
  unfold k0_chk49; revert g; decide +kernel

theorem chk50 (g : Fin k0_t2_loop.trips) : k0_chk50 (k0_pay2 W3 0#32 1#32 g) (k0_pay78 W94 (J2 g)) := by
  unfold k0_chk50; revert g; decide +kernel

theorem chk51 (g : Fin k0_t2_loop.trips) : k0_chk51 (k0_pay1 W3 0#32 1#32 g) (k0_pay80 W43) := by
  unfold k0_chk51; revert g; decide +kernel

theorem chk52 (g : Fin k0_t2_loop.trips) : k0_chk52 (k0_pay2 W3 0#32 1#32 g) (k0_pay81 W97 (J2 g)) := by
  unfold k0_chk52; revert g; decide +kernel

theorem chk53 (g : Fin k0_t2_loop.trips) : k0_chk53 (k0_pay1 W3 0#32 1#32 g) (k0_pay83 W47) := by
  unfold k0_chk53; revert g; decide +kernel

theorem chk54 (g : Fin k0_t2_loop.trips) : k0_chk54 (k0_pay2 W3 0#32 1#32 g) (k0_pay84 W100 (J2 g)) := by
  unfold k0_chk54; revert g; decide +kernel

theorem chk55 (g : Fin k0_t2_loop.trips) : k0_chk55 (k0_pay1 W3 0#32 1#32 g) (k0_pay86 W51) := by
  unfold k0_chk55; revert g; decide +kernel

theorem chk56 (g : Fin k0_t2_loop.trips) : k0_chk56 (k0_pay2 W3 0#32 1#32 g) (addi W103 (k0_pay87 (J2 g))) := by
  unfold k0_chk56; revert g; decide +kernel

theorem chk57 (g : Fin k0_t2_loop.trips) : k0_chk57 (k0_pay1 W3 0#32 1#32 g) (k0_pay89 W55) := by
  unfold k0_chk57; revert g; decide +kernel

theorem chk58 (g : Fin k0_t2_loop.trips) : k0_chk58 (k0_pay2 W3 0#32 1#32 g) (k0_pay90 W106 (J2 g)) := by
  unfold k0_chk58; revert g; decide +kernel

theorem chk59 (g : Fin k0_t2_loop.trips) : k0_chk59 (k0_pay1 W3 0#32 1#32 g) (k0_pay92 W59) := by
  unfold k0_chk59; revert g; decide +kernel

theorem chk60 (g : Fin k0_t2_loop.trips) : k0_chk60 (k0_pay2 W3 0#32 1#32 g) (k0_pay93 W109 (J2 g)) := by
  unfold k0_chk60; revert g; decide +kernel

theorem chk61 (g : Fin k0_t2_loop.trips) : k0_chk61 (k0_pay1 W3 0#32 1#32 g) (k0_pay95 W63) := by
  unfold k0_chk61; revert g; decide +kernel

theorem chk62 (g : Fin k0_t2_loop.trips) : k0_chk62 (k0_pay2 W3 0#32 1#32 g) (k0_pay96 W112 (J2 g)) := by
  unfold k0_chk62; revert g; decide +kernel

theorem chk63 (g : Fin k0_t2_loop.trips) : k0_chk63 (k0_pay1 W3 0#32 1#32 g) (k0_pay98 W67) := by
  unfold k0_chk63; revert g; decide +kernel

theorem chk64 (g : Fin k0_t2_loop.trips) : k0_chk64 (k0_pay2 W3 0#32 1#32 g) (k0_pay99 W115 (J2 g) 8#32) := by
  unfold k0_chk64; revert g; decide +kernel

theorem chk65 (g : Fin k0_t2_loop.trips) : k0_chk65 (k0_pay1 W3 0#32 1#32 g) (k0_pay101 W7) := by
  unfold k0_chk65; revert g; decide +kernel

theorem chk66 (g : Fin k0_t2_loop.trips) : k0_chk66 (k0_pay2 W3 0#32 1#32 g) (k0_pay102 W70 (J2 g)) := by
  unfold k0_chk66; revert g; decide +kernel

theorem chk67 (g : Fin k0_t2_loop.trips) : k0_chk67 (k0_pay1 W3 0#32 1#32 g) (k0_pay104 W11) := by
  unfold k0_chk67; revert g; decide +kernel

theorem chk68 (g : Fin k0_t2_loop.trips) : k0_chk68 (k0_pay2 W3 0#32 1#32 g) (k0_pay105 W73 (J2 g)) := by
  unfold k0_chk68; revert g; decide +kernel

theorem chk69 (g : Fin k0_t2_loop.trips) : k0_chk69 (k0_pay1 W3 0#32 1#32 g) (k0_pay107 W15) := by
  unfold k0_chk69; revert g; decide +kernel

theorem chk70 (g : Fin k0_t2_loop.trips) : k0_chk70 (k0_pay2 W3 0#32 1#32 g) (k0_pay108 W76 (J2 g)) := by
  unfold k0_chk70; revert g; decide +kernel

theorem chk71 (g : Fin k0_t2_loop.trips) : k0_chk71 (k0_pay1 W3 0#32 1#32 g) (addi W19 k0_pay110) := by
  unfold k0_chk71; revert g; decide +kernel

theorem chk72 (g : Fin k0_t2_loop.trips) : k0_chk72 (k0_pay2 W3 0#32 1#32 g) (k0_pay111 W79 (J2 g)) := by
  unfold k0_chk72; revert g; decide +kernel

theorem chk73 (g : Fin k0_t2_loop.trips) : k0_chk73 (k0_pay1 W3 0#32 1#32 g) (k0_pay113 W23) := by
  unfold k0_chk73; revert g; decide +kernel

theorem chk74 (g : Fin k0_t2_loop.trips) : k0_chk74 (k0_pay2 W3 0#32 1#32 g) (k0_pay114 W82 (J2 g)) := by
  unfold k0_chk74; revert g; decide +kernel

theorem chk75 (g : Fin k0_t2_loop.trips) : k0_chk75 (k0_pay1 W3 0#32 1#32 g) (k0_pay116 W27) := by
  unfold k0_chk75; revert g; decide +kernel

theorem chk76 (g : Fin k0_t2_loop.trips) : k0_chk76 (k0_pay2 W3 0#32 1#32 g) (k0_pay117 W85 (J2 g)) := by
  unfold k0_chk76; revert g; decide +kernel

theorem chk77 (g : Fin k0_t2_loop.trips) : k0_chk77 (k0_pay1 W3 0#32 1#32 g) (k0_pay119 W31) := by
  unfold k0_chk77; revert g; decide +kernel

theorem chk78 (g : Fin k0_t2_loop.trips) : k0_chk78 (k0_pay2 W3 0#32 1#32 g) (k0_pay120 W88 (J2 g)) := by
  unfold k0_chk78; revert g; decide +kernel

theorem chk79 (g : Fin k0_t2_loop.trips) : k0_chk79 (k0_pay1 W3 0#32 1#32 g) (k0_pay123 W35) := by
  unfold k0_chk79; revert g; decide +kernel

theorem chk80 (g : Fin k0_t2_loop.trips) : k0_chk80 (k0_pay2 W3 0#32 1#32 g) (k0_pay124 W91 (J2 g)) := by
  unfold k0_chk80; revert g; decide +kernel

theorem chk81 (g : Fin k0_t2_loop.trips) : k0_chk81 (k0_pay1 W3 0#32 1#32 g) (k0_pay126 W39) := by
  unfold k0_chk81; revert g; decide +kernel

theorem chk82 (g : Fin k0_t2_loop.trips) : k0_chk82 (k0_pay2 W3 0#32 1#32 g) (k0_pay127 W94 (J2 g)) := by
  unfold k0_chk82; revert g; decide +kernel

theorem chk83 (g : Fin k0_t2_loop.trips) : k0_chk83 (k0_pay1 W3 0#32 1#32 g) (k0_pay129 W43) := by
  unfold k0_chk83; revert g; decide +kernel

theorem chk84 (g : Fin k0_t2_loop.trips) : k0_chk84 (k0_pay2 W3 0#32 1#32 g) (k0_pay130 W97 (J2 g)) := by
  unfold k0_chk84; revert g; decide +kernel

theorem chk85 (g : Fin k0_t2_loop.trips) : k0_chk85 (k0_pay1 W3 0#32 1#32 g) (k0_pay132 W47) := by
  unfold k0_chk85; revert g; decide +kernel

theorem chk86 (g : Fin k0_t2_loop.trips) : k0_chk86 (k0_pay2 W3 0#32 1#32 g) (addi W100 (k0_pay133 (J2 g))) := by
  unfold k0_chk86; revert g; decide +kernel

theorem chk87 (g : Fin k0_t2_loop.trips) : k0_chk87 (k0_pay1 W3 0#32 1#32 g) (k0_pay135 W51) := by
  unfold k0_chk87; revert g; decide +kernel

theorem chk88 (g : Fin k0_t2_loop.trips) : k0_chk88 (k0_pay2 W3 0#32 1#32 g) (k0_pay136 W103 (J2 g)) := by
  unfold k0_chk88; revert g; decide +kernel

theorem chk89 (g : Fin k0_t2_loop.trips) : k0_chk89 (k0_pay1 W3 0#32 1#32 g) (k0_pay138 W55) := by
  unfold k0_chk89; revert g; decide +kernel

theorem chk90 (g : Fin k0_t2_loop.trips) : k0_chk90 (k0_pay2 W3 0#32 1#32 g) (k0_pay139 W106 (J2 g)) := by
  unfold k0_chk90; revert g; decide +kernel

theorem chk91 (g : Fin k0_t2_loop.trips) : k0_chk91 (k0_pay1 W3 0#32 1#32 g) (k0_pay141 W59) := by
  unfold k0_chk91; revert g; decide +kernel

theorem chk92 (g : Fin k0_t2_loop.trips) : k0_chk92 (k0_pay2 W3 0#32 1#32 g) (k0_pay142 W109 (J2 g)) := by
  unfold k0_chk92; revert g; decide +kernel

theorem chk93 (g : Fin k0_t2_loop.trips) : k0_chk93 (k0_pay1 W3 0#32 1#32 g) (k0_pay144 W63) := by
  unfold k0_chk93; revert g; decide +kernel

theorem chk94 (g : Fin k0_t2_loop.trips) : k0_chk94 (k0_pay2 W3 0#32 1#32 g) (k0_pay145 W112 (J2 g) 8#32) := by
  unfold k0_chk94; revert g; decide +kernel

theorem chk95 (g : Fin k0_t2_loop.trips) : k0_chk95 (k0_pay1 W3 0#32 1#32 g) (k0_pay147 W67) := by
  unfold k0_chk95; revert g; decide +kernel

theorem chk96 (g : Fin k0_t2_loop.trips) : k0_chk96 (k0_pay2 W3 0#32 1#32 g) (k0_pay148 W115 (J2 g)) := by
  unfold k0_chk96; revert g; decide +kernel

theorem chk97 (g : Fin k0_t2_loop.trips) : k0_chk97 (k0_pay1 W3 0#32 1#32 g) (k0_pay150 W7) := by
  unfold k0_chk97; revert g; decide +kernel

theorem chk98 (g : Fin k0_t2_loop.trips) : k0_chk98 (k0_pay2 W3 0#32 1#32 g) (k0_pay151 W70 (J2 g)) := by
  unfold k0_chk98; revert g; decide +kernel

theorem chk99 (g : Fin k0_t2_loop.trips) : k0_chk99 (k0_pay1 W3 0#32 1#32 g) (k0_pay153 W11) := by
  unfold k0_chk99; revert g; decide +kernel

theorem chk100 (g : Fin k0_t2_loop.trips) : k0_chk100 (k0_pay2 W3 0#32 1#32 g) (k0_pay154 W73 (J2 g)) := by
  unfold k0_chk100; revert g; decide +kernel

theorem chk101 (g : Fin k0_t2_loop.trips) : k0_chk101 (k0_pay1 W3 0#32 1#32 g) (addi W15 k0_pay156) := by
  unfold k0_chk101; revert g; decide +kernel

theorem chk102 (g : Fin k0_t2_loop.trips) : k0_chk102 (k0_pay2 W3 0#32 1#32 g) (k0_pay157 W76 (J2 g)) := by
  unfold k0_chk102; revert g; decide +kernel

theorem chk103 (g : Fin k0_t2_loop.trips) : k0_chk103 (k0_pay1 W3 0#32 1#32 g) (k0_pay159 W19) := by
  unfold k0_chk103; revert g; decide +kernel

theorem chk104 (g : Fin k0_t2_loop.trips) : k0_chk104 (k0_pay2 W3 0#32 1#32 g) (k0_pay160 W79 (J2 g)) := by
  unfold k0_chk104; revert g; decide +kernel

theorem chk105 (g : Fin k0_t2_loop.trips) : k0_chk105 (k0_pay1 W3 0#32 1#32 g) (k0_pay162 W23) := by
  unfold k0_chk105; revert g; decide +kernel

theorem chk106 (g : Fin k0_t2_loop.trips) : k0_chk106 (k0_pay2 W3 0#32 1#32 g) (k0_pay163 W82 (J2 g)) := by
  unfold k0_chk106; revert g; decide +kernel

theorem chk107 (g : Fin k0_t2_loop.trips) : k0_chk107 (k0_pay1 W3 0#32 1#32 g) (k0_pay165 W27) := by
  unfold k0_chk107; revert g; decide +kernel

theorem chk108 (g : Fin k0_t2_loop.trips) : k0_chk108 (k0_pay2 W3 0#32 1#32 g) (k0_pay166 W85 (J2 g)) := by
  unfold k0_chk108; revert g; decide +kernel

theorem chk109 (g : Fin k0_t2_loop.trips) : k0_chk109 (k0_pay1 W3 0#32 1#32 g) (k0_pay169 W31) := by
  unfold k0_chk109; revert g; decide +kernel

theorem chk110 (g : Fin k0_t2_loop.trips) : k0_chk110 (k0_pay2 W3 0#32 1#32 g) (k0_pay170 W88 (J2 g)) := by
  unfold k0_chk110; revert g; decide +kernel

theorem chk111 (g : Fin k0_t2_loop.trips) : k0_chk111 (k0_pay1 W3 0#32 1#32 g) (k0_pay172 W35) := by
  unfold k0_chk111; revert g; decide +kernel

theorem chk112 (g : Fin k0_t2_loop.trips) : k0_chk112 (k0_pay2 W3 0#32 1#32 g) (k0_pay173 W91 (J2 g)) := by
  unfold k0_chk112; revert g; decide +kernel

theorem chk113 (g : Fin k0_t2_loop.trips) : k0_chk113 (k0_pay1 W3 0#32 1#32 g) (k0_pay175 W39) := by
  unfold k0_chk113; revert g; decide +kernel

theorem chk114 (g : Fin k0_t2_loop.trips) : k0_chk114 (k0_pay2 W3 0#32 1#32 g) (k0_pay176 W94 (J2 g)) := by
  unfold k0_chk114; revert g; decide +kernel

theorem chk115 (g : Fin k0_t2_loop.trips) : k0_chk115 (k0_pay1 W3 0#32 1#32 g) (k0_pay178 W43) := by
  unfold k0_chk115; revert g; decide +kernel

theorem chk116 (g : Fin k0_t2_loop.trips) : k0_chk116 (k0_pay2 W3 0#32 1#32 g) (addi W97 (k0_pay179 (J2 g))) := by
  unfold k0_chk116; revert g; decide +kernel

theorem chk117 (g : Fin k0_t2_loop.trips) : k0_chk117 (k0_pay1 W3 0#32 1#32 g) (k0_pay181 W47) := by
  unfold k0_chk117; revert g; decide +kernel

theorem chk118 (g : Fin k0_t2_loop.trips) : k0_chk118 (k0_pay2 W3 0#32 1#32 g) (k0_pay182 W100 (J2 g)) := by
  unfold k0_chk118; revert g; decide +kernel

theorem chk119 (g : Fin k0_t2_loop.trips) : k0_chk119 (k0_pay1 W3 0#32 1#32 g) (k0_pay184 W51) := by
  unfold k0_chk119; revert g; decide +kernel

theorem chk120 (g : Fin k0_t2_loop.trips) : k0_chk120 (k0_pay2 W3 0#32 1#32 g) (k0_pay185 W103 (J2 g)) := by
  unfold k0_chk120; revert g; decide +kernel

theorem chk121 (g : Fin k0_t2_loop.trips) : k0_chk121 (k0_pay1 W3 0#32 1#32 g) (k0_pay187 W55) := by
  unfold k0_chk121; revert g; decide +kernel

theorem chk122 (g : Fin k0_t2_loop.trips) : k0_chk122 (k0_pay2 W3 0#32 1#32 g) (k0_pay188 W106 (J2 g)) := by
  unfold k0_chk122; revert g; decide +kernel

theorem chk123 (g : Fin k0_t2_loop.trips) : k0_chk123 (k0_pay1 W3 0#32 1#32 g) (k0_pay190 W59) := by
  unfold k0_chk123; revert g; decide +kernel

theorem chk124 (g : Fin k0_t2_loop.trips) : k0_chk124 (k0_pay2 W3 0#32 1#32 g) (k0_pay381 W109 (J2 g) 8#32) := by
  unfold k0_chk124; revert g; decide +kernel

theorem chk125 (g : Fin k0_t2_loop.trips) : k0_chk125 (k0_pay1 W3 0#32 1#32 g) (k0_pay383 W63) := by
  unfold k0_chk125; revert g; decide +kernel

theorem chk126 (g : Fin k0_t2_loop.trips) : k0_chk126 (k0_pay2 W3 0#32 1#32 g) (k0_pay384 W112 (J2 g)) := by
  unfold k0_chk126; revert g; decide +kernel

theorem chk127 (g : Fin k0_t2_loop.trips) : k0_chk127 (k0_pay1 W3 0#32 1#32 g) (k0_pay386 W67) := by
  unfold k0_chk127; revert g; decide +kernel

theorem chk128 (g : Fin k0_t2_loop.trips) : k0_chk128 (k0_pay2 W3 0#32 1#32 g) (k0_pay387 W115 (J2 g)) := by
  unfold k0_chk128; revert g; decide +kernel

theorem chk129 (g : Fin k0_t3_loop.trips) : k0_chk129 (k0_pay191 W3 0#32 1#32 g) (k0_pay193 W7) := by
  unfold k0_chk129; revert g; decide +kernel

theorem chk130 (g : Fin k0_t3_loop.trips) : k0_chk130 (k0_pay192 W3 0#32 1#32 g) (k0_pay194 W70 0#32 1#32 g) := by
  unfold k0_chk130; revert g; decide +kernel

theorem chk131 (g : Fin k0_t3_loop.trips) : k0_chk131 (k0_pay191 W3 0#32 1#32 g) (k0_pay196 W11) := by
  unfold k0_chk131; revert g; decide +kernel

theorem chk132 (g : Fin k0_t3_loop.trips) : k0_chk132 (k0_pay192 W3 0#32 1#32 g) (k0_pay197 W73 (J3 g) 8#32) := by
  unfold k0_chk132; revert g; decide +kernel

theorem chk133 (g : Fin k0_t3_loop.trips) : k0_chk133 (k0_pay191 W3 0#32 1#32 g) (k0_pay199 W15) := by
  unfold k0_chk133; revert g; decide +kernel

theorem chk134 (g : Fin k0_t3_loop.trips) : k0_chk134 (k0_pay192 W3 0#32 1#32 g) (k0_pay200 W76 (J3 g)) := by
  unfold k0_chk134; revert g; decide +kernel

theorem chk135 (g : Fin k0_t3_loop.trips) : k0_chk135 (k0_pay191 W3 0#32 1#32 g) (k0_pay202 W19) := by
  unfold k0_chk135; revert g; decide +kernel

theorem chk136 (g : Fin k0_t3_loop.trips) : k0_chk136 (k0_pay192 W3 0#32 1#32 g) (k0_pay203 W79 (J3 g)) := by
  unfold k0_chk136; revert g; decide +kernel

theorem chk137 (g : Fin k0_t3_loop.trips) : k0_chk137 (k0_pay191 W3 0#32 1#32 g) (k0_pay205 W23) := by
  unfold k0_chk137; revert g; decide +kernel

theorem chk138 (g : Fin k0_t3_loop.trips) : k0_chk138 (k0_pay192 W3 0#32 1#32 g) (k0_pay206 W82 (J3 g)) := by
  unfold k0_chk138; revert g; decide +kernel

theorem chk139 (g : Fin k0_t3_loop.trips) : k0_chk139 (k0_pay191 W3 0#32 1#32 g) (addi W27 k0_pay208) := by
  unfold k0_chk139; revert g; decide +kernel

theorem chk140 (g : Fin k0_t3_loop.trips) : k0_chk140 (k0_pay192 W3 0#32 1#32 g) (k0_pay209 W85 (J3 g)) := by
  unfold k0_chk140; revert g; decide +kernel

theorem chk141 (g : Fin k0_t3_loop.trips) : k0_chk141 (k0_pay191 W3 0#32 1#32 g) (k0_pay211 W31) := by
  unfold k0_chk141; revert g; decide +kernel

theorem chk142 (g : Fin k0_t3_loop.trips) : k0_chk142 (k0_pay192 W3 0#32 1#32 g) (k0_pay212 W88 (J3 g)) := by
  unfold k0_chk142; revert g; decide +kernel

theorem chk143 (g : Fin k0_t3_loop.trips) : k0_chk143 (k0_pay191 W3 0#32 1#32 g) (k0_pay214 W35) := by
  unfold k0_chk143; revert g; decide +kernel

theorem chk144 (g : Fin k0_t3_loop.trips) : k0_chk144 (k0_pay192 W3 0#32 1#32 g) (k0_pay215 W91 (J3 g)) := by
  unfold k0_chk144; revert g; decide +kernel

theorem chk145 (g : Fin k0_t3_loop.trips) : k0_chk145 (k0_pay191 W3 0#32 1#32 g) (k0_pay217 W39) := by
  unfold k0_chk145; revert g; decide +kernel

theorem chk146 (g : Fin k0_t3_loop.trips) : k0_chk146 (k0_pay192 W3 0#32 1#32 g) (k0_pay218 W94 (J3 g)) := by
  unfold k0_chk146; revert g; decide +kernel

theorem chk147 (g : Fin k0_t3_loop.trips) : k0_chk147 (k0_pay191 W3 0#32 1#32 g) (k0_pay221 W43) := by
  unfold k0_chk147; revert g; decide +kernel

theorem chk148 (g : Fin k0_t3_loop.trips) : k0_chk148 (k0_pay192 W3 0#32 1#32 g) (k0_pay222 W97 (J3 g)) := by
  unfold k0_chk148; revert g; decide +kernel

theorem chk149 (g : Fin k0_t3_loop.trips) : k0_chk149 (k0_pay191 W3 0#32 1#32 g) (k0_pay224 W47) := by
  unfold k0_chk149; revert g; decide +kernel

theorem chk150 (g : Fin k0_t3_loop.trips) : k0_chk150 (k0_pay192 W3 0#32 1#32 g) (k0_pay225 W100 (J3 g)) := by
  unfold k0_chk150; revert g; decide +kernel

theorem chk151 (g : Fin k0_t3_loop.trips) : k0_chk151 (k0_pay191 W3 0#32 1#32 g) (k0_pay227 W51) := by
  unfold k0_chk151; revert g; decide +kernel

theorem chk152 (g : Fin k0_t3_loop.trips) : k0_chk152 (k0_pay192 W3 0#32 1#32 g) (k0_pay228 W103 (J3 g)) := by
  unfold k0_chk152; revert g; decide +kernel

theorem chk153 (g : Fin k0_t3_loop.trips) : k0_chk153 (k0_pay191 W3 0#32 1#32 g) (k0_pay230 W55) := by
  unfold k0_chk153; revert g; decide +kernel

theorem chk154 (g : Fin k0_t3_loop.trips) : k0_chk154 (k0_pay192 W3 0#32 1#32 g) (addi W106 (k0_pay231 (J3 g))) := by
  unfold k0_chk154; revert g; decide +kernel

theorem chk155 (g : Fin k0_t3_loop.trips) : k0_chk155 (k0_pay191 W3 0#32 1#32 g) (k0_pay233 W59) := by
  unfold k0_chk155; revert g; decide +kernel

theorem chk156 (g : Fin k0_t3_loop.trips) : k0_chk156 (k0_pay192 W3 0#32 1#32 g) (k0_pay234 W109 (J3 g)) := by
  unfold k0_chk156; revert g; decide +kernel

theorem chk157 (g : Fin k0_t3_loop.trips) : k0_chk157 (k0_pay191 W3 0#32 1#32 g) (k0_pay236 W63) := by
  unfold k0_chk157; revert g; decide +kernel

theorem chk158 (g : Fin k0_t3_loop.trips) : k0_chk158 (k0_pay192 W3 0#32 1#32 g) (k0_pay237 W112 (J3 g)) := by
  unfold k0_chk158; revert g; decide +kernel

theorem chk159 (g : Fin k0_t3_loop.trips) : k0_chk159 (k0_pay191 W3 0#32 1#32 g) (k0_pay239 W67) := by
  unfold k0_chk159; revert g; decide +kernel

theorem chk160 (g : Fin k0_t3_loop.trips) : k0_chk160 (k0_pay192 W3 0#32 1#32 g) (k0_pay240 W115 (J3 g)) := by
  unfold k0_chk160; revert g; decide +kernel

theorem chk161 (g : Fin k0_t3_loop.trips) : k0_chk161 (k0_pay191 W3 0#32 1#32 g) (k0_pay242 W7) := by
  unfold k0_chk161; revert g; decide +kernel

theorem chk162 (g : Fin k0_t3_loop.trips) : k0_chk162 (k0_pay192 W3 0#32 1#32 g) (k0_pay243 W70 (J3 g) 8#32) := by
  unfold k0_chk162; revert g; decide +kernel

theorem chk163 (g : Fin k0_t3_loop.trips) : k0_chk163 (k0_pay191 W3 0#32 1#32 g) (k0_pay245 W11) := by
  unfold k0_chk163; revert g; decide +kernel

theorem chk164 (g : Fin k0_t3_loop.trips) : k0_chk164 (k0_pay192 W3 0#32 1#32 g) (k0_pay246 W73 (J3 g)) := by
  unfold k0_chk164; revert g; decide +kernel

theorem chk165 (g : Fin k0_t3_loop.trips) : k0_chk165 (k0_pay191 W3 0#32 1#32 g) (k0_pay248 W15) := by
  unfold k0_chk165; revert g; decide +kernel

theorem chk166 (g : Fin k0_t3_loop.trips) : k0_chk166 (k0_pay192 W3 0#32 1#32 g) (k0_pay249 W76 (J3 g)) := by
  unfold k0_chk166; revert g; decide +kernel

theorem chk167 (g : Fin k0_t3_loop.trips) : k0_chk167 (k0_pay191 W3 0#32 1#32 g) (k0_pay251 W19) := by
  unfold k0_chk167; revert g; decide +kernel

theorem chk168 (g : Fin k0_t3_loop.trips) : k0_chk168 (k0_pay192 W3 0#32 1#32 g) (k0_pay252 W79 (J3 g)) := by
  unfold k0_chk168; revert g; decide +kernel

theorem chk169 (g : Fin k0_t3_loop.trips) : k0_chk169 (k0_pay191 W3 0#32 1#32 g) (addi W23 k0_pay254) := by
  unfold k0_chk169; revert g; decide +kernel

theorem chk170 (g : Fin k0_t3_loop.trips) : k0_chk170 (k0_pay192 W3 0#32 1#32 g) (k0_pay255 W82 (J3 g)) := by
  unfold k0_chk170; revert g; decide +kernel

theorem chk171 (g : Fin k0_t3_loop.trips) : k0_chk171 (k0_pay191 W3 0#32 1#32 g) (k0_pay257 W27) := by
  unfold k0_chk171; revert g; decide +kernel

theorem chk172 (g : Fin k0_t3_loop.trips) : k0_chk172 (k0_pay192 W3 0#32 1#32 g) (k0_pay258 W85 (J3 g)) := by
  unfold k0_chk172; revert g; decide +kernel

theorem chk173 (g : Fin k0_t3_loop.trips) : k0_chk173 (k0_pay191 W3 0#32 1#32 g) (k0_pay260 W31) := by
  unfold k0_chk173; revert g; decide +kernel

theorem chk174 (g : Fin k0_t3_loop.trips) : k0_chk174 (k0_pay192 W3 0#32 1#32 g) (k0_pay261 W88 (J3 g)) := by
  unfold k0_chk174; revert g; decide +kernel

theorem chk175 (g : Fin k0_t3_loop.trips) : k0_chk175 (k0_pay191 W3 0#32 1#32 g) (k0_pay263 W35) := by
  unfold k0_chk175; revert g; decide +kernel

theorem chk176 (g : Fin k0_t3_loop.trips) : k0_chk176 (k0_pay192 W3 0#32 1#32 g) (k0_pay264 W91 (J3 g)) := by
  unfold k0_chk176; revert g; decide +kernel

theorem chk177 (g : Fin k0_t3_loop.trips) : k0_chk177 (k0_pay191 W3 0#32 1#32 g) (k0_pay267 W39) := by
  unfold k0_chk177; revert g; decide +kernel

theorem chk178 (g : Fin k0_t3_loop.trips) : k0_chk178 (k0_pay192 W3 0#32 1#32 g) (k0_pay268 W94 (J3 g)) := by
  unfold k0_chk178; revert g; decide +kernel

theorem chk179 (g : Fin k0_t3_loop.trips) : k0_chk179 (k0_pay191 W3 0#32 1#32 g) (k0_pay270 W43) := by
  unfold k0_chk179; revert g; decide +kernel

theorem chk180 (g : Fin k0_t3_loop.trips) : k0_chk180 (k0_pay192 W3 0#32 1#32 g) (k0_pay271 W97 (J3 g)) := by
  unfold k0_chk180; revert g; decide +kernel

theorem chk181 (g : Fin k0_t3_loop.trips) : k0_chk181 (k0_pay191 W3 0#32 1#32 g) (k0_pay273 W47) := by
  unfold k0_chk181; revert g; decide +kernel

theorem chk182 (g : Fin k0_t3_loop.trips) : k0_chk182 (k0_pay192 W3 0#32 1#32 g) (k0_pay274 W100 (J3 g)) := by
  unfold k0_chk182; revert g; decide +kernel

theorem chk183 (g : Fin k0_t3_loop.trips) : k0_chk183 (k0_pay191 W3 0#32 1#32 g) (k0_pay276 W51) := by
  unfold k0_chk183; revert g; decide +kernel

theorem chk184 (g : Fin k0_t3_loop.trips) : k0_chk184 (k0_pay192 W3 0#32 1#32 g) (addi W103 (k0_pay277 (J3 g))) := by
  unfold k0_chk184; revert g; decide +kernel

theorem chk185 (g : Fin k0_t3_loop.trips) : k0_chk185 (k0_pay191 W3 0#32 1#32 g) (k0_pay279 W55) := by
  unfold k0_chk185; revert g; decide +kernel

theorem chk186 (g : Fin k0_t3_loop.trips) : k0_chk186 (k0_pay192 W3 0#32 1#32 g) (k0_pay280 W106 (J3 g)) := by
  unfold k0_chk186; revert g; decide +kernel

theorem chk187 (g : Fin k0_t3_loop.trips) : k0_chk187 (k0_pay191 W3 0#32 1#32 g) (k0_pay282 W59) := by
  unfold k0_chk187; revert g; decide +kernel

theorem chk188 (g : Fin k0_t3_loop.trips) : k0_chk188 (k0_pay192 W3 0#32 1#32 g) (k0_pay283 W109 (J3 g)) := by
  unfold k0_chk188; revert g; decide +kernel

theorem chk189 (g : Fin k0_t3_loop.trips) : k0_chk189 (k0_pay191 W3 0#32 1#32 g) (k0_pay285 W63) := by
  unfold k0_chk189; revert g; decide +kernel

theorem chk190 (g : Fin k0_t3_loop.trips) : k0_chk190 (k0_pay192 W3 0#32 1#32 g) (k0_pay286 W112 (J3 g)) := by
  unfold k0_chk190; revert g; decide +kernel

theorem chk191 (g : Fin k0_t3_loop.trips) : k0_chk191 (k0_pay191 W3 0#32 1#32 g) (k0_pay288 W67) := by
  unfold k0_chk191; revert g; decide +kernel

theorem chk192 (g : Fin k0_t3_loop.trips) : k0_chk192 (k0_pay192 W3 0#32 1#32 g) (k0_pay289 W115 (J3 g) 8#32) := by
  unfold k0_chk192; revert g; decide +kernel

theorem chk193 (g : Fin k0_t3_loop.trips) : k0_chk193 (k0_pay191 W3 0#32 1#32 g) (k0_pay291 W7) := by
  unfold k0_chk193; revert g; decide +kernel

theorem chk194 (g : Fin k0_t3_loop.trips) : k0_chk194 (k0_pay192 W3 0#32 1#32 g) (k0_pay292 W70 (J3 g)) := by
  unfold k0_chk194; revert g; decide +kernel

theorem chk195 (g : Fin k0_t3_loop.trips) : k0_chk195 (k0_pay191 W3 0#32 1#32 g) (k0_pay294 W11) := by
  unfold k0_chk195; revert g; decide +kernel

theorem chk196 (g : Fin k0_t3_loop.trips) : k0_chk196 (k0_pay192 W3 0#32 1#32 g) (k0_pay295 W73 (J3 g)) := by
  unfold k0_chk196; revert g; decide +kernel

theorem chk197 (g : Fin k0_t3_loop.trips) : k0_chk197 (k0_pay191 W3 0#32 1#32 g) (k0_pay297 W15) := by
  unfold k0_chk197; revert g; decide +kernel

theorem chk198 (g : Fin k0_t3_loop.trips) : k0_chk198 (k0_pay192 W3 0#32 1#32 g) (k0_pay298 W76 (J3 g)) := by
  unfold k0_chk198; revert g; decide +kernel

theorem chk199 (g : Fin k0_t3_loop.trips) : k0_chk199 (k0_pay191 W3 0#32 1#32 g) (addi W19 k0_pay300) := by
  unfold k0_chk199; revert g; decide +kernel

theorem chk200 (g : Fin k0_t3_loop.trips) : k0_chk200 (k0_pay192 W3 0#32 1#32 g) (k0_pay301 W79 (J3 g)) := by
  unfold k0_chk200; revert g; decide +kernel

theorem chk201 (g : Fin k0_t3_loop.trips) : k0_chk201 (k0_pay191 W3 0#32 1#32 g) (k0_pay303 W23) := by
  unfold k0_chk201; revert g; decide +kernel

theorem chk202 (g : Fin k0_t3_loop.trips) : k0_chk202 (k0_pay192 W3 0#32 1#32 g) (k0_pay304 W82 (J3 g)) := by
  unfold k0_chk202; revert g; decide +kernel

theorem chk203 (g : Fin k0_t3_loop.trips) : k0_chk203 (k0_pay191 W3 0#32 1#32 g) (k0_pay306 W27) := by
  unfold k0_chk203; revert g; decide +kernel

theorem chk204 (g : Fin k0_t3_loop.trips) : k0_chk204 (k0_pay192 W3 0#32 1#32 g) (k0_pay307 W85 (J3 g)) := by
  unfold k0_chk204; revert g; decide +kernel

theorem chk205 (g : Fin k0_t3_loop.trips) : k0_chk205 (k0_pay191 W3 0#32 1#32 g) (k0_pay309 W31) := by
  unfold k0_chk205; revert g; decide +kernel

theorem chk206 (g : Fin k0_t3_loop.trips) : k0_chk206 (k0_pay192 W3 0#32 1#32 g) (k0_pay310 W88 (J3 g)) := by
  unfold k0_chk206; revert g; decide +kernel

theorem chk207 (g : Fin k0_t3_loop.trips) : k0_chk207 (k0_pay191 W3 0#32 1#32 g) (k0_pay313 W35) := by
  unfold k0_chk207; revert g; decide +kernel

theorem chk208 (g : Fin k0_t3_loop.trips) : k0_chk208 (k0_pay192 W3 0#32 1#32 g) (k0_pay314 W91 (J3 g)) := by
  unfold k0_chk208; revert g; decide +kernel

theorem chk209 (g : Fin k0_t3_loop.trips) : k0_chk209 (k0_pay191 W3 0#32 1#32 g) (k0_pay316 W39) := by
  unfold k0_chk209; revert g; decide +kernel

theorem chk210 (g : Fin k0_t3_loop.trips) : k0_chk210 (k0_pay192 W3 0#32 1#32 g) (k0_pay317 W94 (J3 g)) := by
  unfold k0_chk210; revert g; decide +kernel

theorem chk211 (g : Fin k0_t3_loop.trips) : k0_chk211 (k0_pay191 W3 0#32 1#32 g) (k0_pay319 W43) := by
  unfold k0_chk211; revert g; decide +kernel

theorem chk212 (g : Fin k0_t3_loop.trips) : k0_chk212 (k0_pay192 W3 0#32 1#32 g) (k0_pay320 W97 (J3 g)) := by
  unfold k0_chk212; revert g; decide +kernel

theorem chk213 (g : Fin k0_t3_loop.trips) : k0_chk213 (k0_pay191 W3 0#32 1#32 g) (k0_pay322 W47) := by
  unfold k0_chk213; revert g; decide +kernel

theorem chk214 (g : Fin k0_t3_loop.trips) : k0_chk214 (k0_pay192 W3 0#32 1#32 g) (addi W100 (k0_pay323 (J3 g))) := by
  unfold k0_chk214; revert g; decide +kernel

theorem chk215 (g : Fin k0_t3_loop.trips) : k0_chk215 (k0_pay191 W3 0#32 1#32 g) (k0_pay325 W51) := by
  unfold k0_chk215; revert g; decide +kernel

theorem chk216 (g : Fin k0_t3_loop.trips) : k0_chk216 (k0_pay192 W3 0#32 1#32 g) (k0_pay326 W103 (J3 g)) := by
  unfold k0_chk216; revert g; decide +kernel

theorem chk217 (g : Fin k0_t3_loop.trips) : k0_chk217 (k0_pay191 W3 0#32 1#32 g) (k0_pay328 W55) := by
  unfold k0_chk217; revert g; decide +kernel

theorem chk218 (g : Fin k0_t3_loop.trips) : k0_chk218 (k0_pay192 W3 0#32 1#32 g) (k0_pay329 W106 (J3 g)) := by
  unfold k0_chk218; revert g; decide +kernel

theorem chk219 (g : Fin k0_t3_loop.trips) : k0_chk219 (k0_pay191 W3 0#32 1#32 g) (k0_pay331 W59) := by
  unfold k0_chk219; revert g; decide +kernel

theorem chk220 (g : Fin k0_t3_loop.trips) : k0_chk220 (k0_pay192 W3 0#32 1#32 g) (k0_pay332 W109 (J3 g)) := by
  unfold k0_chk220; revert g; decide +kernel

theorem chk221 (g : Fin k0_t3_loop.trips) : k0_chk221 (k0_pay191 W3 0#32 1#32 g) (k0_pay334 W63) := by
  unfold k0_chk221; revert g; decide +kernel

theorem chk222 (g : Fin k0_t3_loop.trips) : k0_chk222 (k0_pay192 W3 0#32 1#32 g) (k0_pay335 W112 (J3 g) 8#32) := by
  unfold k0_chk222; revert g; decide +kernel

theorem chk223 (g : Fin k0_t3_loop.trips) : k0_chk223 (k0_pay191 W3 0#32 1#32 g) (k0_pay337 W67) := by
  unfold k0_chk223; revert g; decide +kernel

theorem chk224 (g : Fin k0_t3_loop.trips) : k0_chk224 (k0_pay192 W3 0#32 1#32 g) (k0_pay338 W115 (J3 g)) := by
  unfold k0_chk224; revert g; decide +kernel

theorem chk225 (g : Fin k0_t3_loop.trips) : k0_chk225 (k0_pay191 W3 0#32 1#32 g) (k0_pay340 W7) := by
  unfold k0_chk225; revert g; decide +kernel

theorem chk226 (g : Fin k0_t3_loop.trips) : k0_chk226 (k0_pay192 W3 0#32 1#32 g) (k0_pay341 W70 (J3 g)) := by
  unfold k0_chk226; revert g; decide +kernel

theorem chk227 (g : Fin k0_t3_loop.trips) : k0_chk227 (k0_pay191 W3 0#32 1#32 g) (k0_pay343 W11) := by
  unfold k0_chk227; revert g; decide +kernel

theorem chk228 (g : Fin k0_t3_loop.trips) : k0_chk228 (k0_pay192 W3 0#32 1#32 g) (k0_pay344 W73 (J3 g)) := by
  unfold k0_chk228; revert g; decide +kernel

theorem chk229 (g : Fin k0_t3_loop.trips) : k0_chk229 (k0_pay191 W3 0#32 1#32 g) (addi W15 k0_pay346) := by
  unfold k0_chk229; revert g; decide +kernel

theorem chk230 (g : Fin k0_t3_loop.trips) : k0_chk230 (k0_pay192 W3 0#32 1#32 g) (k0_pay347 W76 (J3 g)) := by
  unfold k0_chk230; revert g; decide +kernel

theorem chk231 (g : Fin k0_t3_loop.trips) : k0_chk231 (k0_pay191 W3 0#32 1#32 g) (k0_pay349 W19) := by
  unfold k0_chk231; revert g; decide +kernel

theorem chk232 (g : Fin k0_t3_loop.trips) : k0_chk232 (k0_pay192 W3 0#32 1#32 g) (k0_pay350 W79 (J3 g)) := by
  unfold k0_chk232; revert g; decide +kernel

theorem chk233 (g : Fin k0_t3_loop.trips) : k0_chk233 (k0_pay191 W3 0#32 1#32 g) (k0_pay352 W23) := by
  unfold k0_chk233; revert g; decide +kernel

theorem chk234 (g : Fin k0_t3_loop.trips) : k0_chk234 (k0_pay192 W3 0#32 1#32 g) (k0_pay353 W82 (J3 g)) := by
  unfold k0_chk234; revert g; decide +kernel

theorem chk235 (g : Fin k0_t3_loop.trips) : k0_chk235 (k0_pay191 W3 0#32 1#32 g) (k0_pay355 W27) := by
  unfold k0_chk235; revert g; decide +kernel

theorem chk236 (g : Fin k0_t3_loop.trips) : k0_chk236 (k0_pay192 W3 0#32 1#32 g) (k0_pay356 W85 (J3 g)) := by
  unfold k0_chk236; revert g; decide +kernel

theorem chk237 (g : Fin k0_t3_loop.trips) : k0_chk237 (k0_pay191 W3 0#32 1#32 g) (k0_pay359 W31) := by
  unfold k0_chk237; revert g; decide +kernel

theorem chk238 (g : Fin k0_t3_loop.trips) : k0_chk238 (k0_pay192 W3 0#32 1#32 g) (k0_pay360 W88 (J3 g)) := by
  unfold k0_chk238; revert g; decide +kernel

theorem chk239 (g : Fin k0_t3_loop.trips) : k0_chk239 (k0_pay191 W3 0#32 1#32 g) (k0_pay362 W35) := by
  unfold k0_chk239; revert g; decide +kernel

theorem chk240 (g : Fin k0_t3_loop.trips) : k0_chk240 (k0_pay192 W3 0#32 1#32 g) (k0_pay363 W91 (J3 g)) := by
  unfold k0_chk240; revert g; decide +kernel

theorem chk241 (g : Fin k0_t3_loop.trips) : k0_chk241 (k0_pay191 W3 0#32 1#32 g) (k0_pay365 W39) := by
  unfold k0_chk241; revert g; decide +kernel

theorem chk242 (g : Fin k0_t3_loop.trips) : k0_chk242 (k0_pay192 W3 0#32 1#32 g) (k0_pay366 W94 (J3 g)) := by
  unfold k0_chk242; revert g; decide +kernel

theorem chk243 (g : Fin k0_t3_loop.trips) : k0_chk243 (k0_pay191 W3 0#32 1#32 g) (k0_pay368 W43) := by
  unfold k0_chk243; revert g; decide +kernel

theorem chk244 (g : Fin k0_t3_loop.trips) : k0_chk244 (k0_pay192 W3 0#32 1#32 g) (addi W97 (k0_pay369 (J3 g))) := by
  unfold k0_chk244; revert g; decide +kernel

theorem chk245 (g : Fin k0_t3_loop.trips) : k0_chk245 (k0_pay191 W3 0#32 1#32 g) (k0_pay371 W47) := by
  unfold k0_chk245; revert g; decide +kernel

theorem chk246 (g : Fin k0_t3_loop.trips) : k0_chk246 (k0_pay192 W3 0#32 1#32 g) (k0_pay372 W100 (J3 g)) := by
  unfold k0_chk246; revert g; decide +kernel

theorem chk247 (g : Fin k0_t3_loop.trips) : k0_chk247 (k0_pay191 W3 0#32 1#32 g) (k0_pay374 W51) := by
  unfold k0_chk247; revert g; decide +kernel

theorem chk248 (g : Fin k0_t3_loop.trips) : k0_chk248 (k0_pay192 W3 0#32 1#32 g) (k0_pay375 W103 (J3 g)) := by
  unfold k0_chk248; revert g; decide +kernel

theorem chk249 (g : Fin k0_t3_loop.trips) : k0_chk249 (k0_pay191 W3 0#32 1#32 g) (k0_pay377 W55) := by
  unfold k0_chk249; revert g; decide +kernel

theorem chk250 (g : Fin k0_t3_loop.trips) : k0_chk250 (k0_pay192 W3 0#32 1#32 g) (k0_pay378 W106 (J3 g)) := by
  unfold k0_chk250; revert g; decide +kernel

theorem chk251 (g : Fin k0_t3_loop.trips) : k0_chk251 (k0_pay191 W3 0#32 1#32 g) (k0_pay380 W59) := by
  unfold k0_chk251; revert g; decide +kernel

theorem chk252 (g : Fin k0_t3_loop.trips) : k0_chk252 (k0_pay192 W3 0#32 1#32 g) (k0_pay389 W109 (J3 g) 8#32) := by
  unfold k0_chk252; revert g; decide +kernel

theorem chk253 (g : Fin k0_t3_loop.trips) : k0_chk253 (k0_pay191 W3 0#32 1#32 g) (k0_pay391 W63) := by
  unfold k0_chk253; revert g; decide +kernel

theorem chk254 (g : Fin k0_t3_loop.trips) : k0_chk254 (k0_pay192 W3 0#32 1#32 g) (k0_pay392 W112 (J3 g)) := by
  unfold k0_chk254; revert g; decide +kernel

theorem chk255 (g : Fin k0_t3_loop.trips) : k0_chk255 (k0_pay191 W3 0#32 1#32 g) (k0_pay394 W67) := by
  unfold k0_chk255; revert g; decide +kernel

theorem chk256 (g : Fin k0_t3_loop.trips) : k0_chk256 (k0_pay192 W3 0#32 1#32 g) (k0_pay395 W115 (J3 g)) := by
  unfold k0_chk256; revert g; decide +kernel

end Cert.Proof.KW

end

namespace Cert.Proof.KW

open Lean Elab Tactic Meta in
/-- Closes a decidable goal whose free variables range over finite types (a trip number, a lane) by
    evaluation: the statement is proved for every value of those variables at once and then applied. -/
elab "fin_decide" : tactic => withMainContext do
  let gs ← getGoals
  let goal ← getMainGoal
  let tgt ← instantiateMVars (← goal.getType)
  let st := collectFVars {} tgt
  let lctx ← getLCtx
  let fvs : Array Expr := lctx.foldl (init := #[]) fun acc d =>
    if st.fvarSet.contains d.fvarId then acc.push d.toExpr else acc
  let closed ← mkForallFVars fvs tgt
  let m ← mkFreshExprSyntheticOpaqueMVar closed
  setGoals [m.mvarId!]
  evalTactic (← `(tactic| decide +kernel))
  let rest ← getUnsolvedGoals
  unless rest.isEmpty do throwError "fin_decide: evaluation left goals"
  goal.assign (mkAppN m fvs)
  setGoals gs.tail

open Lean Elab Tactic Meta in
/-- Closes a goal that is one of the 256 in-range conditions, whatever names its index words are spelt
    through, by evaluation over the trips. -/
elab "chk_disch" : tactic => withMainContext do
  let tgt ← instantiateMVars (← getMainTarget)
  let some c := tgt.consumeMData.getAppFn.constName? | throwError "chk_disch: the goal's head is not a constant"
  let .str _ s := c | throwError "chk_disch: unexpected head {c}"
  unless s.startsWith "k0_chk" do throwError "chk_disch: the goal's head {c} is not an in-range condition"
  evalTactic (← `(tactic| fin_decide))

end Cert.Proof.KW
-- ==== Proof.KInner.lean ====
/-
  One trip of each of the two transposition loops, run: holding the gathered chunk R (256 x 128) and the
  128 x 128 scratch f, with the scratch already holding the transposed value T8 R at every position of the trips
  before g (Done g R f), trip g's 64 (indexed load, indexed store) pairs leave the chunk as it was and a scratch f'
  with Done (g + 1) R f'. The run leaves the scratch as 64 whole-buffer pieces, each the indexed store of the one
  before; the general one-pair lemma is applied to each, its closed forms of the row and column words checked by
  evaluation over the 16 trips and 16 lanes.
-/
import proofs.«206429_g47863115546636_cont_8to1c4_619_32_alg».proof.Proof.KDefs
import proofs.«206429_g47863115546636_cont_8to1c4_619_32_alg».proof.Proof.KChk
import proofs.«206429_g47863115546636_cont_8to1c4_619_32_alg».proof.Proof.KMath

-- one statement at a time: each run holds much memory
set_option Elab.async false

noncomputable section

namespace Cert.Proof.KI
open Cert.KernelIdeal Cert.KernelIdeal.Gen
open Cert.Proof.K Cert.Proof.KW
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

variable [FloatOps F]

/-! ### The scratch as the run leaves it: whole-buffer pieces -/

/-- A whole-buffer write on top of any earlier writes leaves its payload. -/
theorem writes_whole_cons {κ : Kind} (Val : EltTy → Type) (b : Ref sig κ) (f w : b.ty.Contents Val)
    (L : List (View.Piece Val b.ty.shape _)) :
    (Memref.whole b : Memref sig κ _ _ _).view.writes Val f (⟨Rect.whole _, w⟩ :: L) = w :=
  Memref.write_access_whole_univ Val b _ w

theorem done_congrR {g : ℕ} {R R' : Vec F S256x128 .f32} {f : Vec F S128x128 .f32} (h : R' = R) :
    Done g R' f → Done g R f := h ▸ id

theorem done_congrR' {g : ℕ} {R R' : Vec F S256x128 .f32} {f : Vec F S128x128 .f32} (h : R' = R) :
    Done g R f → Done g R' f := h ▸ id

/-- After the 64 pairs of trip g the scratch, a whole-buffer piece on top of the earlier ones, holds the
    transposed value at every position of the trips up to g. -/
theorem done_of_writes {g : ℕ} {R : Vec F S256x128 .f32} (f : cc0_scratch4.ty.Contents (Elt F))
    (X : cc0_scratch4.ty.Contents (Elt F)) (L : List (View.Piece (Elt F) cc0_scratch4.ty.shape _))
    (hD : Done g R f) (hM : Mid g 64 R f X) :
    Done (g + 1) R ((Memref.whole cc0_scratch4 : Memref sig _ _ _ _).view.writes (Elt F) f (⟨Rect.whole _, X⟩ :: L)) := by
  rw [writes_whole_cons]
  exact done_step hD hM

/-- The scratch before the first pair, read whole. -/
theorem mid_base (g : ℕ) (R : Vec F S256x128 .f32) (f : cc0_scratch4.ty.Contents (Elt F)) :
    Mid g 0 R f (View.readAt (Elt F) (Memref.whole cc0_scratch4 : Memref sig _ _ _ _).view (LoadRect.whole _) f) := by
  rw [Memref.readAt_whole]
  exact mid0 g R f

/-- The scratch read whole after a whole-buffer piece is that piece's payload. -/
theorem mid_of_readAt {g n : ℕ} {R : Vec F S256x128 .f32} (f f0 : cc0_scratch4.ty.Contents (Elt F))
    (X : cc0_scratch4.ty.Contents (Elt F)) (L : List (View.Piece (Elt F) cc0_scratch4.ty.shape _))
    (hM : Mid g n R f0 X) :
    Mid g n R f0 (View.readAt (Elt F) (Memref.whole cc0_scratch4 : Memref sig _ _ _ _).view (LoadRect.whole _)
      ((Memref.whole cc0_scratch4 : Memref sig _ _ _ _).view.writes (Elt F) f (⟨Rect.whole _, X⟩ :: L))) := by
  rw [Memref.readAt_whole, writes_whole_cons]
  exact hM

theorem trips2 : k0_t2_loop.trips = 16 := by decide
theorem trips3 : k0_t3_loop.trips = 16 := by decide

set_option maxHeartbeats 0 in
theorem inner2_trip (d : Dev nD) (L : grid0.Coords) (v2 : BitVec 32) (k : Fin k0_t1_loop.trips) (v245 v275 : BitVec 32)
    (g : Fin k0_t2_loop.trips)
    (R : Buf (Elt F) ((V d (cV L) (jV L)).loc cc0_scratch2)) (f : Buf (Elt F) ((V d (cV L) (jV L)).loc cc0_scratch4))
    (hD : Done g.val R f) :
    iprop(((r0).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ
          (k0_t2_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 v2 W3 W7 W11 W15 W19 W23 W27 W31 W35 W39 W43 W47 W51 W55 W59 W63 W67 W70 W73 W76 W79 W82 W85 W88 W91 W94 W97 W100 W103 W106 W109 W112 W115 k v245 v275 g ())
          fun _ => iprop(((r0).view.loc (V d (cV L) (jV L)) ↦{fullShare} R)
            ∗ ∃ f', ⌜Done (g.val + 1) R f'⌝ ∗ ((tb).view.loc (V d (cV L) (jV L)) ↦{fullShare} f')) : sProp 𝕄) := by
  have hg : g.val < 16 := Nat.lt_of_lt_of_eq g.isLt trips2
  unfold k0_t2_body
  iintro ⟨HR, HT⟩
  sl_exec (disch := chk_disch)
  repeat (sl_idx (V d (cV L) (jV L)); sl_exec (disch := chk_disch))
  sl_step
  isplitl [HR]; · iexact HR
  iexists _
  isplitr [HT]
  rotate_left
  · iexact HT
  · ipureintro
    refine done_congrR (Memref.readAt_whole (Elt F) cc0_scratch2 R) ?_
    refine done_of_writes f _ _ (done_congrR' (Memref.readAt_whole (Elt F) cc0_scratch2 R) hD) ?_
    iterate 63
      (refine mid_step _ _ hg (by decide) _ _ _ _ _ _ _ (by fin_decide) (by fin_decide) (by fin_decide) (by fin_decide) _ _ (fun _ => rfl) _ ?_
       refine mid_of_readAt _ _ _ _ ?_)
    refine mid_step _ _ hg (by decide) _ _ _ _ _ _ _ (by fin_decide) (by fin_decide) (by fin_decide) (by fin_decide) _ _ (fun _ => rfl) _ ?_
    exact mid_base _ _ _

set_option maxHeartbeats 0 in
theorem inner3_trip (d : Dev nD) (L : grid0.Coords) (v2 : BitVec 32) (k : Fin k0_t1_loop.trips) (v400 v401 v420 v421 : BitVec 32) (v422 v423 : BitVec 1)
    (g : Fin k0_t3_loop.trips)
    (R : Buf (Elt F) ((V d (cV L) (jV L)).loc cc0_scratch3)) (f : Buf (Elt F) ((V d (cV L) (jV L)).loc cc0_scratch4))
    (hD : Done g.val R f) :
    iprop(((r1).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ
          (k0_t3_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 v2 W3 W7 W11 W15 W19 W23 W27 W31 W35 W39 W43 W47 W51 W55 W59 W63 W67 W70 W73 W76 W79 W82 W85 W88 W91 W94 W97 W100 W103 W106 W109 W112 W115 k v400 v401 v420 v421 v422 v423 g ())
          fun _ => iprop(((r1).view.loc (V d (cV L) (jV L)) ↦{fullShare} R)
            ∗ ∃ f', ⌜Done (g.val + 1) R f'⌝ ∗ ((tb).view.loc (V d (cV L) (jV L)) ↦{fullShare} f')) : sProp 𝕄) := by
  have hg : g.val < 16 := Nat.lt_of_lt_of_eq g.isLt trips3
  unfold k0_t3_body
  iintro ⟨HR, HT⟩
  sl_exec (disch := chk_disch)
  repeat (sl_idx (V d (cV L) (jV L)); sl_exec (disch := chk_disch))
  sl_step
  isplitl [HR]; · iexact HR
  iexists _
  isplitr [HT]
  rotate_left
  · iexact HT
  · ipureintro
    refine done_congrR (Memref.readAt_whole (Elt F) cc0_scratch3 R) ?_
    refine done_of_writes f _ _ (done_congrR' (Memref.readAt_whole (Elt F) cc0_scratch3 R) hD) ?_
    iterate 63
      (refine mid_step _ _ hg (by decide) _ _ _ _ _ _ _ (by fin_decide) (by fin_decide) (by fin_decide) (by fin_decide) _ _ (fun _ => rfl) _ ?_
       refine mid_of_readAt _ _ _ _ ?_)
    refine mid_step _ _ hg (by decide) _ _ _ _ _ _ _ (by fin_decide) (by fin_decide) (by fin_decide) (by fin_decide) _ _ (fun _ => rfl) _ ?_
    exact mid_base _ _ _

end Cert.Proof.KI
end
-- ==== Proof.KBody.lean ====
import proofs.«206429_g47863115546636_cont_8to1c4_619_32_alg».proof.Proof.KTripF
import proofs.«206429_g47863115546636_cont_8to1c4_619_32_alg».proof.Proof.KTripM
import proofs.«206429_g47863115546636_cont_8to1c4_619_32_alg».proof.Proof.KTripL
import proofs.«206429_g47863115546636_cont_8to1c4_619_32_alg».proof.Proof.KTile
import proofs.«206429_g47863115546636_cont_8to1c4_619_32_alg».proof.Proof.KInner

noncomputable section

namespace Cert.Proof.K
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.K Cert.Proof.KW

variable {F : FTy → Type}
local notation "𝕄" => MT nD τ sig (HIx 1) (Elt F) ℕ UU ℕ
local notation "xW" => (Memref.whole Cert.KernelIdeal.main_v1_scv : Memref Cert.KernelIdeal.sig Kind.scVector Space.hbm Cert.KernelIdeal.S819200 EltTy.i32)
local notation "tW" => (Memref.whole Cert.KernelIdeal.main_v2_scv : Memref Cert.KernelIdeal.sig Kind.scVector Space.hbm Cert.KernelIdeal.S1000000x128 EltTy.f32)
local notation "oW" => (Memref.whole Cert.KernelIdeal.main_v3_scv : Memref Cert.KernelIdeal.sig Kind.scVector Space.hbm Cert.KernelIdeal.S50x64x16384 EltTy.f32)
local notation "i0" => (Memref.whole Cert.KernelIdeal.cc0_scratch0 : Memref Cert.KernelIdeal.sig Kind.scVector Space.vmem Cert.KernelIdeal.S256 EltTy.i32)
local notation "i1" => (Memref.whole Cert.KernelIdeal.cc0_scratch1 : Memref Cert.KernelIdeal.sig Kind.scVector Space.vmem Cert.KernelIdeal.S256 EltTy.i32)
local notation "r0" => (Memref.whole Cert.KernelIdeal.cc0_scratch2 : Memref Cert.KernelIdeal.sig Kind.scVector Space.vmem Cert.KernelIdeal.S256x128 EltTy.f32)
local notation "r1" => (Memref.whole Cert.KernelIdeal.cc0_scratch3 : Memref Cert.KernelIdeal.sig Kind.scVector Space.vmem Cert.KernelIdeal.S256x128 EltTy.f32)
local notation "tb" => (Memref.whole Cert.KernelIdeal.cc0_scratch4 : Memref Cert.KernelIdeal.sig Kind.scVector Space.vmem Cert.KernelIdeal.S128x128 EltTy.f32)

/-! A tile's whole task: the first index fetch and row gather, the fifty trips of the chunk loop by their invariant, the
    last chunk's copies drained; the tile's columns of the result come back holding the scaled table rows. -/
variable [FloatOps F]

omit [FloatOps F] in
theorem ownSems0_V5 (d : Dev nD) (L : grid0.Coords) :
    (ownSems0 (V d (cV L) (jV L)) : sProp 𝕄)
      = iprop(semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
          ∗ bigSep ((((((ownCells (V d (cV L) (jV L))).erase ((V d (cV L) (jV L)), SemLoc.dma cc0_scratch5.sem)).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)) fun g => semVal g 0) := by
  unfold SparseCore.Cfg.ownSems0
  rw [SparseCore.bigSep_erase' ((mem_ownCells (g := ((V d (cV L) (jV L)), SemLoc.dma cc0_scratch5.sem))).mpr ⟨rfl, by show (SemLoc.dma cc0_scratch5.sem : SemLoc sig).isScoped .scVector = true; decide⟩),
    SparseCore.bigSep_erase' (Finset.mem_erase.mpr ⟨(fun e => absurd (congrArg Prod.snd e) (show (SemLoc.dma cc0_scratch6.sem : SemLoc sig) ≠ SemLoc.dma cc0_scratch5.sem by decide)), (mem_ownCells (g := ((V d (cV L) (jV L)), SemLoc.dma cc0_scratch6.sem))).mpr ⟨rfl, by show (SemLoc.dma cc0_scratch6.sem : SemLoc sig).isScoped .scVector = true; decide⟩⟩),
    SparseCore.bigSep_erase' (Finset.mem_erase.mpr ⟨(fun e => absurd (congrArg Prod.snd e) (show (SemLoc.dma cc0_scratch7.sem : SemLoc sig) ≠ SemLoc.dma cc0_scratch6.sem by decide)), Finset.mem_erase.mpr ⟨(fun e => absurd (congrArg Prod.snd e) (show (SemLoc.dma cc0_scratch7.sem : SemLoc sig) ≠ SemLoc.dma cc0_scratch5.sem by decide)), (mem_ownCells (g := ((V d (cV L) (jV L)), SemLoc.dma cc0_scratch7.sem))).mpr ⟨rfl, by show (SemLoc.dma cc0_scratch7.sem : SemLoc sig).isScoped .scVector = true; decide⟩⟩⟩),
    SparseCore.bigSep_erase' (Finset.mem_erase.mpr ⟨(fun e => absurd (congrArg Prod.snd e) (show (SemLoc.dma cc0_scratch8.sem : SemLoc sig) ≠ SemLoc.dma cc0_scratch7.sem by decide)), Finset.mem_erase.mpr ⟨(fun e => absurd (congrArg Prod.snd e) (show (SemLoc.dma cc0_scratch8.sem : SemLoc sig) ≠ SemLoc.dma cc0_scratch6.sem by decide)), Finset.mem_erase.mpr ⟨(fun e => absurd (congrArg Prod.snd e) (show (SemLoc.dma cc0_scratch8.sem : SemLoc sig) ≠ SemLoc.dma cc0_scratch5.sem by decide)), (mem_ownCells (g := ((V d (cV L) (jV L)), SemLoc.dma cc0_scratch8.sem))).mpr ⟨rfl, by show (SemLoc.dma cc0_scratch8.sem : SemLoc sig).isScoped .scVector = true; decide⟩⟩⟩⟩),
    SparseCore.bigSep_erase' (Finset.mem_erase.mpr ⟨(fun e => absurd (congrArg Prod.snd e) (show (SemLoc.dma cc0_scratch9.sem : SemLoc sig) ≠ SemLoc.dma cc0_scratch8.sem by decide)), Finset.mem_erase.mpr ⟨(fun e => absurd (congrArg Prod.snd e) (show (SemLoc.dma cc0_scratch9.sem : SemLoc sig) ≠ SemLoc.dma cc0_scratch7.sem by decide)), Finset.mem_erase.mpr ⟨(fun e => absurd (congrArg Prod.snd e) (show (SemLoc.dma cc0_scratch9.sem : SemLoc sig) ≠ SemLoc.dma cc0_scratch6.sem by decide)), Finset.mem_erase.mpr ⟨(fun e => absurd (congrArg Prod.snd e) (show (SemLoc.dma cc0_scratch9.sem : SemLoc sig) ≠ SemLoc.dma cc0_scratch5.sem by decide)), (mem_ownCells (g := ((V d (cV L) (jV L)), SemLoc.dma cc0_scratch9.sem))).mpr ⟨rfl, by show (SemLoc.dma cc0_scratch9.sem : SemLoc sig).isScoped .scVector = true; decide⟩⟩⟩⟩⟩)]

omit [FloatOps F] in
theorem ownBufs_V5 (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := (Proc.scVector (cV L) (jV L)).devRef cc0_scratch4) rfl⟩⟩⟩⟩)]

theorem cond1_all : ∀ k : Fin k0_t1_loop.trips, k0_cond1 k = 1#1 := by decide
theorem cond6_all : ∀ k : Fin k0_t1_loop.trips, k0_cond6 k = 1#1 := by decide
theorem cond2_iff : ∀ k : Fin k0_t1_loop.trips, k0_cond2 k = 1#1 ↔ k.val < 49 := by decide
theorem cond3_iff : ∀ k : Fin k0_t1_loop.trips, k0_cond3 k = 1#1 ↔ 0 < k.val := by decide
theorem cond4_iff : ∀ k : Fin k0_t1_loop.trips, k0_cond4 k = 1#1 ↔ k.val < 49 := by decide
theorem cond5_iff : ∀ k : Fin k0_t1_loop.trips, k0_cond5 k = 1#1 ↔ k.val < 49 := by decide

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  repeat rw [SparseCore.bigSep_insert' (by decide)]
  rw [bigSep_singleton]

/-- The trip before trip `n` (any trip at `n = 0`, where it is not used). -/
def kpred (n : ℕ) : Fin k0_t1_loop.trips := ⟨(n - 1) % 50, by rw [trips1]; exact Nat.mod_lt _ (by decide)⟩
/-- The trips whose second chunk's pieces the tile holds before trip `n`: all but the one on its way out. -/
def setB (n : ℕ) : Finset (Fin k0_t1_loop.trips) := Finset.univ.filter fun k' => k'.val + 1 ≠ n

section Body
variable (d : Dev nD) (L : grid0.Coords) (O : CellTallies nD τ sig (HIx 1)) (W : Waits sig (HIx 1)) (q : PosShare TreeShare)
variable (X : Buf (Elt F) ((V d (cV L) (jV L)).loc main_v1_scv)) (Tp : Buf (Elt F) ((V d (cV L) (jV L)).loc main_v2_scv))

def inv (n : ℕ) (_ : PUnit) : sProp 𝕄 :=
  iprop((if n < 50 then coreFly d L O W q X Tp n else coreIdle d L O W q X Tp)
    ∗ (if n = 0 then tbIdle d L else batchB d L X Tp (kpred n))
    ∗ bigSep Finset.univ (fun k' : Fin k0_t1_loop.trips => SlA d L X Tp (k'.val < n) k')
    ∗ bigSep (setB n) (fun k' : Fin k0_t1_loop.trips => SlB d L X Tp (k'.val + 1 < n) k'))

theorem SlA_mono {ok ok' : Prop} (h : ok' → ok) (k : Fin k0_t1_loop.trips) : SlA d L X Tp ok k ⊢ SlA d L X Tp ok' k := by
  unfold SlA
  iintro ⟨⟨%g0, H0, %p0⟩, ⟨%g1, H1, %p1⟩, ⟨%g2, H2, %p2⟩, ⟨%g3, H3, %p3⟩, ⟨%g4, H4, %p4⟩, ⟨%g5, H5, %p5⟩, ⟨%g6, H6, %p6⟩, ⟨%g7, H7, %p7⟩, ⟨%g8, H8, %p8⟩, ⟨%g9, H9, %p9⟩, ⟨%g10, H10, %p10⟩, ⟨%g11, H11, %p11⟩, ⟨%g12, H12, %p12⟩, ⟨%g13, H13, %p13⟩, ⟨%g14, H14, %p14⟩, ⟨%g15, H15, %p15⟩⟩
  isplitl [H0]
  · iexists g0; isplitl [H0]; · iexact H0
    ipureintro; exact fun h' => p0 (h h')
  isplitl [H1]
  · iexists g1; isplitl [H1]; · iexact H1
    ipureintro; exact fun h' => p1 (h h')
  isplitl [H2]
  · iexists g2; isplitl [H2]; · iexact H2
    ipureintro; exact fun h' => p2 (h h')
  isplitl [H3]
  · iexists g3; isplitl [H3]; · iexact H3
    ipureintro; exact fun h' => p3 (h h')
  isplitl [H4]
  · iexists g4; isplitl [H4]; · iexact H4
    ipureintro; exact fun h' => p4 (h h')
  isplitl [H5]
  · iexists g5; isplitl [H5]; · iexact H5
    ipureintro; exact fun h' => p5 (h h')
  isplitl [H6]
  · iexists g6; isplitl [H6]; · iexact H6
    ipureintro; exact fun h' => p6 (h h')
  isplitl [H7]
  · iexists g7; isplitl [H7]; · iexact H7
    ipureintro; exact fun h' => p7 (h h')
  isplitl [H8]
  · iexists g8; isplitl [H8]; · iexact H8
    ipureintro; exact fun h' => p8 (h h')
  isplitl [H9]
  · iexists g9; isplitl [H9]; · iexact H9
    ipureintro; exact fun h' => p9 (h h')
  isplitl [H10]
  · iexists g10; isplitl [H10]; · iexact H10
    ipureintro; exact fun h' => p10 (h h')
  isplitl [H11]
  · iexists g11; isplitl [H11]; · iexact H11
    ipureintro; exact fun h' => p11 (h h')
  isplitl [H12]
  · iexists g12; isplitl [H12]; · iexact H12
    ipureintro; exact fun h' => p12 (h h')
  isplitl [H13]
  · iexists g13; isplitl [H13]; · iexact H13
    ipureintro; exact fun h' => p13 (h h')
  isplitl [H14]
  · iexists g14; isplitl [H14]; · iexact H14
    ipureintro; exact fun h' => p14 (h h')
  iexists g15; isplitl [H15]; · iexact H15
  ipureintro; exact fun h' => p15 (h h')
theorem SlB_mono {ok ok' : Prop} (h : ok' → ok) (k : Fin k0_t1_loop.trips) : SlB d L X Tp ok k ⊢ SlB d L X Tp ok' k := by
  unfold SlB
  iintro ⟨⟨%g0, H0, %p0⟩, ⟨%g1, H1, %p1⟩, ⟨%g2, H2, %p2⟩, ⟨%g3, H3, %p3⟩, ⟨%g4, H4, %p4⟩, ⟨%g5, H5, %p5⟩, ⟨%g6, H6, %p6⟩, ⟨%g7, H7, %p7⟩, ⟨%g8, H8, %p8⟩, ⟨%g9, H9, %p9⟩, ⟨%g10, H10, %p10⟩, ⟨%g11, H11, %p11⟩, ⟨%g12, H12, %p12⟩, ⟨%g13, H13, %p13⟩, ⟨%g14, H14, %p14⟩, ⟨%g15, H15, %p15⟩⟩
  isplitl [H0]
  · iexists g0; isplitl [H0]; · iexact H0
    ipureintro; exact fun h' => p0 (h h')
  isplitl [H1]
  · iexists g1; isplitl [H1]; · iexact H1
    ipureintro; exact fun h' => p1 (h h')
  isplitl [H2]
  · iexists g2; isplitl [H2]; · iexact H2
    ipureintro; exact fun h' => p2 (h h')
  isplitl [H3]
  · iexists g3; isplitl [H3]; · iexact H3
    ipureintro; exact fun h' => p3 (h h')
  isplitl [H4]
  · iexists g4; isplitl [H4]; · iexact H4
    ipureintro; exact fun h' => p4 (h h')
  isplitl [H5]
  · iexists g5; isplitl [H5]; · iexact H5
    ipureintro; exact fun h' => p5 (h h')
  isplitl [H6]
  · iexists g6; isplitl [H6]; · iexact H6
    ipureintro; exact fun h' => p6 (h h')
  isplitl [H7]
  · iexists g7; isplitl [H7]; · iexact H7
    ipureintro; exact fun h' => p7 (h h')
  isplitl [H8]
  · iexists g8; isplitl [H8]; · iexact H8
    ipureintro; exact fun h' => p8 (h h')
  isplitl [H9]
  · iexists g9; isplitl [H9]; · iexact H9
    ipureintro; exact fun h' => p9 (h h')
  isplitl [H10]
  · iexists g10; isplitl [H10]; · iexact H10
    ipureintro; exact fun h' => p10 (h h')
  isplitl [H11]
  · iexists g11; isplitl [H11]; · iexact H11
    ipureintro; exact fun h' => p11 (h h')
  isplitl [H12]
  · iexists g12; isplitl [H12]; · iexact H12
    ipureintro; exact fun h' => p12 (h h')
  isplitl [H13]
  · iexists g13; isplitl [H13]; · iexact H13
    ipureintro; exact fun h' => p13 (h h')
  isplitl [H14]
  · iexists g14; isplitl [H14]; · iexact H14
    ipureintro; exact fun h' => p14 (h h')
  iexists g15; isplitl [H15]; · iexact H15
  ipureintro; exact fun h' => p15 (h h')

omit [FloatOps F] in
theorem mem_setB_self (k : Fin k0_t1_loop.trips) : k ∈ setB k.val := by simp [setB]

theorem slA_advance (k : Fin k0_t1_loop.trips) :
    iprop(SlA d L X Tp True k ∗ bigSep (Finset.univ.erase k) (fun k' : Fin k0_t1_loop.trips => SlA d L X Tp (k'.val < k.val) k'))
      ⊢ bigSep Finset.univ (fun k' : Fin k0_t1_loop.trips => SlA d L X Tp (k'.val < k.val + 1) k') := by
  rw [SparseCore.bigSep_erase' (Finset.mem_univ k) (Φ := fun k' : Fin k0_t1_loop.trips => SlA d L X Tp (k'.val < k.val + 1) k')]
  iintro ⟨Hk, Hr⟩
  isplitl [Hk]
  · iapply (SlA_mono d L X Tp (fun _ => trivial) k); iexact Hk
  · iapply (SparseCore.ent (bigSep_mono (s := Finset.univ.erase k) (fun k' hk' => SlA_mono d L X Tp (ok := k'.val < k.val) (ok' := k'.val < k.val + 1)
      (fun h => by have := Fin.val_ne_of_ne (Finset.ne_of_mem_erase hk'); omega) k'))); iexact Hr

theorem slB_advance (k kp : Fin k0_t1_loop.trips) (h : kp.val + 1 = k.val) :
    iprop(SlB d L X Tp True kp ∗ bigSep ((setB k.val).erase k) (fun k' : Fin k0_t1_loop.trips => SlB d L X Tp (k'.val + 1 < k.val) k'))
      ⊢ bigSep (setB (k.val + 1)) (fun k' : Fin k0_t1_loop.trips => SlB d L X Tp (k'.val + 1 < k.val + 1) k') := by
  have hset : setB (k.val + 1) = insert kp ((setB k.val).erase k) := by
    ext x
    simp only [setB, Finset.mem_filter, Finset.mem_univ, true_and, Finset.mem_insert, Finset.mem_erase, ne_eq]
    constructor
    · intro hx
      by_cases e : x = kp
      · exact .inl e
      · exact .inr ⟨fun e' => hx (by rw [e']), fun e' => e (Fin.ext (by omega))⟩
    · rintro (rfl | ⟨h1, h2⟩)
      · omega
      · intro e; exact h1 (Fin.ext (by omega))
  have hnot : kp ∉ (setB k.val).erase k := by
    simp only [setB, Finset.mem_erase, Finset.mem_filter, Finset.mem_univ, true_and, ne_eq, not_and, not_not]
    intro _; exact h
  rw [hset, SparseCore.bigSep_insert' hnot]
  iintro ⟨Hk, Hr⟩
  isplitl [Hk]
  · iapply (SlB_mono d L X Tp (fun _ => trivial) kp); iexact Hk
  · iapply (SparseCore.ent (bigSep_mono (s := (setB k.val).erase k) (fun k' hk' => SlB_mono d L X Tp (ok := k'.val + 1 < k.val) (ok' := k'.val + 1 < k.val + 1)
      (fun h' => by
        have h1 := (Finset.mem_filter.mp (Finset.mem_of_mem_erase hk')).2
        omega) k'))); iexact Hr

theorem slB_advance0 (k : Fin k0_t1_loop.trips) (h0 : k.val = 0) :
    bigSep ((setB k.val).erase k) (fun k' : Fin k0_t1_loop.trips => SlB d L X Tp (k'.val + 1 < k.val) k')
      ⊢ bigSep (setB (k.val + 1)) (fun k' : Fin k0_t1_loop.trips => SlB d L X Tp (k'.val + 1 < k.val + 1) k') := by
  have hset : setB (k.val + 1) = (setB k.val).erase k := by
    ext x
    simp only [setB, Finset.mem_filter, Finset.mem_univ, true_and, Finset.mem_erase, ne_eq]
    constructor
    · intro hx; exact ⟨fun e => hx (by rw [e]), by omega⟩
    · rintro ⟨h1, _⟩ e; exact h1 (Fin.ext (by omega))
  rw [hset]
  exact bigSep_mono (fun k' _ => SlB_mono d L X Tp (fun h' => by omega) k')

omit [FloatOps F] in
theorem off1_eq0 : k0_off1 L 0#32 = ![xoff L (kOf 0) 0] := by
  have e := k0_off1_eq L 0
  have e' : k0_off1 L 0#32 = ![1024 * (L 1).val + 512 * (L 0).val + 256 * 0] := e
  rw [e']; unfold xoff wbL kOf; simp
omit [FloatOps F] in
theorem off1_eq1 : k0_off1 L 256#32 = ![xoff L (kOf 0) 1] := by
  have e := k0_off1_eq L 1
  have e' : k0_off1 L 256#32 = ![1024 * (L 1).val + 512 * (L 0).val + 256 * 1] := e
  rw [e']; unfold xoff wbL kOf; simp

set_option maxHeartbeats 0 in
theorem tripStepF (hX : ∀ j, (X j).toNat < 1000000) (hI2 : Inner2 (F := F) d L) (hI3 : Inner3 (F := F) d L)
    (k : Fin k0_t1_loop.trips) (h0 : k.val = 0) :
    iprop(coreFly d L O W q X Tp k.val ∗ tbIdle d L
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripF d L O W q X Tp hX hI2 hI3 k k (cond1_all k) ((cond2_iff k).mpr (by omega)) (fun h => by have := (cond3_iff k).mp h; omega) ((cond4_iff k).mpr (by omega)) ((cond5_iff k).mpr (by omega)) (cond6_all k))
    isplitl [Hc]; · iexact Hc
    isplitl [Hb]; · iexact Hb
    isplitl [HAk]; · iexact HAk
    iexact HBk
  · iintro %a ⟨Hc, Hb, HAk⟩
    isplitl [Hc]; · iexact Hc
    isplitl [Hb]; · iexact Hb
    isplitl [HAk HAr]
    · iapply (slA_advance d L X Tp k); isplitl [HAk]; · iexact HAk
      iexact HAr
    · iapply (slB_advance0 d L X Tp k h0); iexact HBr

set_option maxHeartbeats 0 in
theorem tripStepM (hX : ∀ j, (X j).toNat < 1000000) (hI2 : Inner2 (F := F) d L) (hI3 : Inner3 (F := F) d L)
    (k : Fin k0_t1_loop.trips) (hpos : 0 < k.val) (h49 : k.val < 49) (hkp1 : (kpred k.val).val + 1 = k.val) :
    iprop(coreFly d L O W q X Tp k.val ∗ batchB d L X Tp (kpred k.val)
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripM d L O W q X Tp hX hI2 hI3 k (kpred k.val) (cond1_all k) ((cond2_iff k).mpr (by omega)) ((cond3_iff k).mpr (by omega)) ((cond4_iff k).mpr (by omega)) ((cond5_iff k).mpr (by omega)) (cond6_all k))
    isplitl [Hc]; · iexact Hc
    isplitl [Hb]; · iexact Hb
    isplitl [HAk]; · iexact HAk
    iexact HBk
  · iintro %a ⟨Hc, Hb, HBp, HAk⟩
    isplitl [Hc]; · iexact Hc
    isplitl [Hb]; · iexact Hb
    isplitl [HAk HAr]
    · iapply (slA_advance d L X Tp k); isplitl [HAk]; · iexact HAk
      iexact HAr
    · iapply (slB_advance d L X Tp k (kpred k.val) hkp1); isplitl [HBp]; · iexact HBp
      iexact HBr

set_option maxHeartbeats 0 in
theorem tripStepL (hX : ∀ j, (X j).toNat < 1000000) (hI2 : Inner2 (F := F) d L) (hI3 : Inner3 (F := F) d L)
    (k : Fin k0_t1_loop.trips) (hpos : 0 < k.val) (h49 : k.val = 49) (hkp1 : (kpred k.val).val + 1 = k.val) :
    iprop(coreFly d L O W q X Tp k.val ∗ batchB d L X Tp (kpred k.val)
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreIdle d L O W q X Tp ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripL d L O W q X Tp hX hI2 hI3 k (kpred k.val) (cond1_all k) (fun h => by have := (cond2_iff k).mp h; omega) ((cond3_iff k).mpr (by omega)) (fun h => by have := (cond4_iff k).mp h; omega) (fun h => by have := (cond5_iff k).mp h; omega) (cond6_all k))
    isplitl [Hc]; · iexact Hc
    isplitl [Hb]; · iexact Hb
    isplitl [HAk]; · iexact HAk
    iexact HBk
  · iintro %a ⟨Hc, Hb, HBp, HAk⟩
    isplitl [Hc]; · iexact Hc
    isplitl [Hb]; · iexact Hb
    isplitl [HAk HAr]
    · iapply (slA_advance d L X Tp k); isplitl [HAk]; · iexact HAk
      iexact HAr
    · iapply (slB_advance d L X Tp k (kpred k.val) hkp1); isplitl [HBp]; · iexact HBp
      iexact HBr

omit [FloatOps F] in
theorem pts_X (q : PosShare TreeShare) (f : Buf (Elt F) (xLoc d)) :
    (((xW).view.loc (V d (cV L) (jV L)) ↦{q} f : sProp 𝕄)) = (xLoc d ↦{q} f : sProp 𝕄) := by
  simp only [Memref.view_whole, View.set_whole]
omit [FloatOps F] in
theorem pts_T (q : PosShare TreeShare) (f : Buf (Elt F) (tLoc d)) :
    (((tW).view.loc (V d (cV L) (jV L)) ↦{q} f : sProp 𝕄)) = (tLoc d ↦{q} f : sProp 𝕄) := by
  simp only [Memref.view_whole, View.set_whole]

omit [FloatOps F] in
theorem pts_b0 (f : Buf (Elt F) ((V d (cV L) (jV L)).loc cc0_scratch0)) :
    ((((i0).view.loc (V d (cV L) (jV L)) ↦{fullShare} f : sProp 𝕄))) = ((V d (cV L) (jV L)).loc cc0_scratch0 ↦{fullShare} f : sProp 𝕄) := rfl
omit [FloatOps F] in
theorem pts_b1 (f : Buf (Elt F) ((V d (cV L) (jV L)).loc cc0_scratch1)) :
    ((((i1).view.loc (V d (cV L) (jV L)) ↦{fullShare} f : sProp 𝕄))) = ((V d (cV L) (jV L)).loc cc0_scratch1 ↦{fullShare} f : sProp 𝕄) := rfl
omit [FloatOps F] in
theorem pts_b2 (f : Buf (Elt F) ((V d (cV L) (jV L)).loc cc0_scratch2)) :
    ((((r0).view.loc (V d (cV L) (jV L)) ↦{fullShare} f : sProp 𝕄))) = ((V d (cV L) (jV L)).loc cc0_scratch2 ↦{fullShare} f : sProp 𝕄) := rfl
omit [FloatOps F] in
theorem pts_b3 (f : Buf (Elt F) ((V d (cV L) (jV L)).loc cc0_scratch3)) :
    ((((r1).view.loc (V d (cV L) (jV L)) ↦{fullShare} f : sProp 𝕄))) = ((V d (cV L) (jV L)).loc cc0_scratch3 ↦{fullShare} f : sProp 𝕄) := rfl
omit [FloatOps F] in
theorem pts_b4 (f : Buf (Elt F) ((V d (cV L) (jV L)).loc cc0_scratch4)) :
    ((((tb).view.loc (V d (cV L) (jV L)) ↦{fullShare} f : sProp 𝕄))) = ((V d (cV L) (jV L)).loc cc0_scratch4 ↦{fullShare} f : sProp 𝕄) := rfl

theorem out_final (f : Buf (Elt F) ((V d (cV L) (jV L)).loc cc0_scratch4)) (hTb : TbOK X Tp L (kpred k0_t1_loop.trips) 1 f)
    (g0 : Buf (Elt F) ((dM1_0 L (kpred k0_t1_loop.trips)).view.loc (V d (cV L) (jV L)))) (g1 : Buf (Elt F) ((dM1_1 L (kpred k0_t1_loop.trips)).view.loc (V d (cV L) (jV L)))) (g2 : Buf (Elt F) ((dM1_2 L (kpred k0_t1_loop.trips)).view.loc (V d (cV L) (jV L)))) (g3 : Buf (Elt F) ((dM1_3 L (kpred k0_t1_loop.trips)).view.loc (V d (cV L) (jV L)))) (g4 : Buf (Elt F) ((dM1_4 L (kpred k0_t1_loop.trips)).view.loc (V d (cV L) (jV L)))) (g5 : Buf (Elt F) ((dM1_5 L (kpred k0_t1_loop.trips)).view.loc (V d (cV L) (jV L)))) (g6 : Buf (Elt F) ((dM1_6 L (kpred k0_t1_loop.trips)).view.loc (V d (cV L) (jV L)))) (g7 : Buf (Elt F) ((dM1_7 L (kpred k0_t1_loop.trips)).view.loc (V d (cV L) (jV L)))) (g8 : Buf (Elt F) ((dM1_8 L (kpred k0_t1_loop.trips)).view.loc (V d (cV L) (jV L)))) (g9 : Buf (Elt F) ((dM1_9 L (kpred k0_t1_loop.trips)).view.loc (V d (cV L) (jV L)))) (g10 : Buf (Elt F) ((dM1_10 L (kpred k0_t1_loop.trips)).view.loc (V d (cV L) (jV L)))) (g11 : Buf (Elt F) ((dM1_11 L (kpred k0_t1_loop.trips)).view.loc (V d (cV L) (jV L)))) (g12 : Buf (Elt F) ((dM1_12 L (kpred k0_t1_loop.trips)).view.loc (V d (cV L) (jV L)))) (g13 : Buf (Elt F) ((dM1_13 L (kpred k0_t1_loop.trips)).view.loc (V d (cV L) (jV L)))) (g14 : Buf (Elt F) ((dM1_14 L (kpred k0_t1_loop.trips)).view.loc (V d (cV L) (jV L)))) (g15 : Buf (Elt F) ((dM1_15 L (kpred k0_t1_loop.trips)).view.loc (V d (cV L) (jV L)))) :
    iprop(((dM1_0 L (kpred k0_t1_loop.trips)).view.loc (V d (cV L) (jV L)) ↦[(dM1_0 L (kpred k0_t1_loop.trips)).view.set]{fullShare} (dM1_0 L (kpred k0_t1_loop.trips)).view.writes (Elt F) g0 [⟨Rect.whole S8x128, ReadAs.same.apply ((sM_0).view.read (Elt F) f)⟩])
        ∗ ((dM1_1 L (kpred k0_t1_loop.trips)).view.loc (V d (cV L) (jV L)) ↦[(dM1_1 L (kpred k0_t1_loop.trips)).view.set]{fullShare} (dM1_1 L (kpred k0_t1_loop.trips)).view.writes (Elt F) g1 [⟨Rect.whole S8x128, ReadAs.same.apply ((sM_1).view.read (Elt F) f)⟩])
        ∗ ((dM1_2 L (kpred k0_t1_loop.trips)).view.loc (V d (cV L) (jV L)) ↦[(dM1_2 L (kpred k0_t1_loop.trips)).view.set]{fullShare} (dM1_2 L (kpred k0_t1_loop.trips)).view.writes (Elt F) g2 [⟨Rect.whole S8x128, ReadAs.same.apply ((sM_2).view.read (Elt F) f)⟩])
        ∗ ((dM1_3 L (kpred k0_t1_loop.trips)).view.loc (V d (cV L) (jV L)) ↦[(dM1_3 L (kpred k0_t1_loop.trips)).view.set]{fullShare} (dM1_3 L (kpred k0_t1_loop.trips)).view.writes (Elt F) g3 [⟨Rect.whole S8x128, ReadAs.same.apply ((sM_3).view.read (Elt F) f)⟩])
        ∗ ((dM1_4 L (kpred k0_t1_loop.trips)).view.loc (V d (cV L) (jV L)) ↦[(dM1_4 L (kpred k0_t1_loop.trips)).view.set]{fullShare} (dM1_4 L (kpred k0_t1_loop.trips)).view.writes (Elt F) g4 [⟨Rect.whole S8x128, ReadAs.same.apply ((sM_4).view.read (Elt F) f)⟩])
        ∗ ((dM1_5 L (kpred k0_t1_loop.trips)).view.loc (V d (cV L) (jV L)) ↦[(dM1_5 L (kpred k0_t1_loop.trips)).view.set]{fullShare} (dM1_5 L (kpred k0_t1_loop.trips)).view.writes (Elt F) g5 [⟨Rect.whole S8x128, ReadAs.same.apply ((sM_5).view.read (Elt F) f)⟩])
        ∗ ((dM1_6 L (kpred k0_t1_loop.trips)).view.loc (V d (cV L) (jV L)) ↦[(dM1_6 L (kpred k0_t1_loop.trips)).view.set]{fullShare} (dM1_6 L (kpred k0_t1_loop.trips)).view.writes (Elt F) g6 [⟨Rect.whole S8x128, ReadAs.same.apply ((sM_6).view.read (Elt F) f)⟩])
        ∗ ((dM1_7 L (kpred k0_t1_loop.trips)).view.loc (V d (cV L) (jV L)) ↦[(dM1_7 L (kpred k0_t1_loop.trips)).view.set]{fullShare} (dM1_7 L (kpred k0_t1_loop.trips)).view.writes (Elt F) g7 [⟨Rect.whole S8x128, ReadAs.same.apply ((sM_7).view.read (Elt F) f)⟩])
        ∗ ((dM1_8 L (kpred k0_t1_loop.trips)).view.loc (V d (cV L) (jV L)) ↦[(dM1_8 L (kpred k0_t1_loop.trips)).view.set]{fullShare} (dM1_8 L (kpred k0_t1_loop.trips)).view.writes (Elt F) g8 [⟨Rect.whole S8x128, ReadAs.same.apply ((sM_8).view.read (Elt F) f)⟩])
        ∗ ((dM1_9 L (kpred k0_t1_loop.trips)).view.loc (V d (cV L) (jV L)) ↦[(dM1_9 L (kpred k0_t1_loop.trips)).view.set]{fullShare} (dM1_9 L (kpred k0_t1_loop.trips)).view.writes (Elt F) g9 [⟨Rect.whole S8x128, ReadAs.same.apply ((sM_9).view.read (Elt F) f)⟩])
        ∗ ((dM1_10 L (kpred k0_t1_loop.trips)).view.loc (V d (cV L) (jV L)) ↦[(dM1_10 L (kpred k0_t1_loop.trips)).view.set]{fullShare} (dM1_10 L (kpred k0_t1_loop.trips)).view.writes (Elt F) g10 [⟨Rect.whole S8x128, ReadAs.same.apply ((sM_10).view.read (Elt F) f)⟩])
        ∗ ((dM1_11 L (kpred k0_t1_loop.trips)).view.loc (V d (cV L) (jV L)) ↦[(dM1_11 L (kpred k0_t1_loop.trips)).view.set]{fullShare} (dM1_11 L (kpred k0_t1_loop.trips)).view.writes (Elt F) g11 [⟨Rect.whole S8x128, ReadAs.same.apply ((sM_11).view.read (Elt F) f)⟩])
        ∗ ((dM1_12 L (kpred k0_t1_loop.trips)).view.loc (V d (cV L) (jV L)) ↦[(dM1_12 L (kpred k0_t1_loop.trips)).view.set]{fullShare} (dM1_12 L (kpred k0_t1_loop.trips)).view.writes (Elt F) g12 [⟨Rect.whole S8x128, ReadAs.same.apply ((sM_12).view.read (Elt F) f)⟩])
        ∗ ((dM1_13 L (kpred k0_t1_loop.trips)).view.loc (V d (cV L) (jV L)) ↦[(dM1_13 L (kpred k0_t1_loop.trips)).view.set]{fullShare} (dM1_13 L (kpred k0_t1_loop.trips)).view.writes (Elt F) g13 [⟨Rect.whole S8x128, ReadAs.same.apply ((sM_13).view.read (Elt F) f)⟩])
        ∗ ((dM1_14 L (kpred k0_t1_loop.trips)).view.loc (V d (cV L) (jV L)) ↦[(dM1_14 L (kpred k0_t1_loop.trips)).view.set]{fullShare} (dM1_14 L (kpred k0_t1_loop.trips)).view.writes (Elt F) g14 [⟨Rect.whole S8x128, ReadAs.same.apply ((sM_14).view.read (Elt F) f)⟩])
        ∗ ((dM1_15 L (kpred k0_t1_loop.trips)).view.loc (V d (cV L) (jV L)) ↦[(dM1_15 L (kpred k0_t1_loop.trips)).view.set]{fullShare} (dM1_15 L (kpred k0_t1_loop.trips)).view.writes (Elt F) g15 [⟨Rect.whole S8x128, ReadAs.same.apply ((sM_15).view.read (Elt F) f)⟩])
        ∗ bigSep Finset.univ (fun k' : Fin k0_t1_loop.trips => SlA d L X Tp (k'.val < k0_t1_loop.trips) k')
        ∗ bigSep (setB k0_t1_loop.trips) (fun k' : Fin k0_t1_loop.trips => SlB d L X Tp (k'.val + 1 < k0_t1_loop.trips) k'))
      ⊢ (iprop(∃ fo, ⌜OutOK d X Tp (widL L) fo⌝ ∗ oLoc d ↦[colsSet (widL L)]{fullShare} fo) : sProp 𝕄) := by
  iintro ⟨H0, H1, H2, H3, H4, H5, H6, H7, H8, H9, H10, H11, H12, H13, H14, H15, HSA, HSB⟩
  iapply (region_join d L X Tp)
  rw [bigSep_sep']
  isplitl [HSA]
  · iapply (SparseCore.ent (bigSep_mono (s := Finset.univ) (fun k' _ => SlA_mono d L X Tp (ok := k'.val < k0_t1_loop.trips) (ok' := True) (fun _ => k'.isLt) k'))); iexact HSA
  · rw [SparseCore.bigSep_erase' (Finset.mem_univ (kpred k0_t1_loop.trips)) (Φ := fun k' : Fin k0_t1_loop.trips => SlB d L X Tp True k')]
    isplitl [H0 H1 H2 H3 H4 H5 H6 H7 H8 H9 H10 H11 H12 H13 H14 H15]
    · unfold SlB
      isplitl [H0]
      · iexists _; isplitl [H0]; · iexact H0
        ipureintro; exact fun _ => gd_of_tb1_0 d L X Tp (kpred k0_t1_loop.trips) _ hTb _
      isplitl [H1]
      · iexists _; isplitl [H1]; · iexact H1
        ipureintro; exact fun _ => gd_of_tb1_1 d L X Tp (kpred k0_t1_loop.trips) _ hTb _
      isplitl [H2]
      · iexists _; isplitl [H2]; · iexact H2
        ipureintro; exact fun _ => gd_of_tb1_2 d L X Tp (kpred k0_t1_loop.trips) _ hTb _
      isplitl [H3]
      · iexists _; isplitl [H3]; · iexact H3
        ipureintro; exact fun _ => gd_of_tb1_3 d L X Tp (kpred k0_t1_loop.trips) _ hTb _
      isplitl [H4]
      · iexists _; isplitl [H4]; · iexact H4
        ipureintro; exact fun _ => gd_of_tb1_4 d L X Tp (kpred k0_t1_loop.trips) _ hTb _
      isplitl [H5]
      · iexists _; isplitl [H5]; · iexact H5
        ipureintro; exact fun _ => gd_of_tb1_5 d L X Tp (kpred k0_t1_loop.trips) _ hTb _
      isplitl [H6]
      · iexists _; isplitl [H6]; · iexact H6
        ipureintro; exact fun _ => gd_of_tb1_6 d L X Tp (kpred k0_t1_loop.trips) _ hTb _
      isplitl [H7]
      · iexists _; isplitl [H7]; · iexact H7
        ipureintro; exact fun _ => gd_of_tb1_7 d L X Tp (kpred k0_t1_loop.trips) _ hTb _
      isplitl [H8]
      · iexists _; isplitl [H8]; · iexact H8
        ipureintro; exact fun _ => gd_of_tb1_8 d L X Tp (kpred k0_t1_loop.trips) _ hTb _
      isplitl [H9]
      · iexists _; isplitl [H9]; · iexact H9
        ipureintro; exact fun _ => gd_of_tb1_9 d L X Tp (kpred k0_t1_loop.trips) _ hTb _
      isplitl [H10]
      · iexists _; isplitl [H10]; · iexact H10
        ipureintro; exact fun _ => gd_of_tb1_10 d L X Tp (kpred k0_t1_loop.trips) _ hTb _
      isplitl [H11]
      · iexists _; isplitl [H11]; · iexact H11
        ipureintro; exact fun _ => gd_of_tb1_11 d L X Tp (kpred k0_t1_loop.trips) _ hTb _
      isplitl [H12]
      · iexists _; isplitl [H12]; · iexact H12
        ipureintro; exact fun _ => gd_of_tb1_12 d L X Tp (kpred k0_t1_loop.trips) _ hTb _
      isplitl [H13]
      · iexists _; isplitl [H13]; · iexact H13
        ipureintro; exact fun _ => gd_of_tb1_13 d L X Tp (kpred k0_t1_loop.trips) _ hTb _
      isplitl [H14]
      · iexists _; isplitl [H14]; · iexact H14
        ipureintro; exact fun _ => gd_of_tb1_14 d L X Tp (kpred k0_t1_loop.trips) _ hTb _
      iexists _; isplitl [H15]; · iexact H15
      ipureintro; exact fun _ => gd_of_tb1_15 d L X Tp (kpred k0_t1_loop.trips) _ hTb _
    · have hset : (Finset.univ : Finset (Fin k0_t1_loop.trips)).erase (kpred k0_t1_loop.trips) = setB k0_t1_loop.trips := by decide
      rw [hset]
      iapply (SparseCore.ent (bigSep_mono (s := setB k0_t1_loop.trips) (fun k' hk' => SlB_mono d L X Tp (ok := k'.val + 1 < k0_t1_loop.trips) (ok' := True)
        (fun _ => by have h1 := (Finset.mem_filter.mp hk').2; have h2 := k'.isLt; omega) k'))); iexact HSB

set_option maxHeartbeats 0 in
/-- The task on vector subcore `L` of device `d`. -/
theorem tile_body (hF : (K (F := F)).Facts) (hX : ∀ j, (X j).toNat < 1000000) (hI2 : Inner2 (F := F) d L) (hI3 : Inner3 (F := F) d L)
    (fod : Buf (Elt F) (oLoc d)) (hO : ∀ g, O g none = 0) :
    iprop(levAts (K (F := F)).L (K (F := F)).lev ∗ emp
        ∗ ((xLoc d ↦{q} X) ∗ (tLoc d ↦{q} Tp) ∗ (oLoc d ↦[colsSet (widL L)]{fullShare} fod))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (cc0_k L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9)
          fun _ => iprop(((xLoc d ↦{q} X) ∗ (tLoc d ↦{q} Tp) ∗ ∃ f, ⌜OutOK d X Tp (widL L) f⌝ ∗ oLoc d ↦[colsSet (widL L)]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V5, ownBufs_V5]
  iintro ⟨#Hlv, -, ⟨HX, HT, HOut⟩, ⟨⟨%f0, Hi0⟩, ⟨%f1, Hi1⟩, ⟨%g0, Hr0⟩, ⟨%g1, Hr1⟩, ⟨%ft, Htb⟩, Hbufs⟩, ⟨Hs5, Hs6, Hs7, Hs8, Hs9, Hsems⟩, HO⟩
  ihave Hi0 := (Entails.of_eq (pts_b0 (F := F) d L _).symm) $$ Hi0
  ihave Hi1 := (Entails.of_eq (pts_b1 (F := F) d L _).symm) $$ Hi1
  ihave Hr0 := (Entails.of_eq (pts_b2 (F := F) d L _).symm) $$ Hr0
  ihave Hr1 := (Entails.of_eq (pts_b3 (F := F) d L _).symm) $$ Hr1
  ihave Htb := (Entails.of_eq (pts_b4 (F := F) d L _).symm) $$ Htb
  ihave Hmw := ((K (F := F)).mayWaits_none (thr := (V d (cV L) (jV L))) hO) $$ Hlv
  ihave HX := (Entails.of_eq (pts_X (F := F) d L q X).symm) $$ HX
  ihave HT := (Entails.of_eq (pts_T (F := F) d L q Tp).symm) $$ HT
  ihave HXs := (Transfers.pointsTo_toks_split q 5) $$ HX
  icases HXs with ⟨HXd, HXt⟩
  ihave HXt := (Entails.of_eq (bigSep_fin5 (F := F) _)) $$ HXt
  icases HXt with ⟨HX0, HX1, HX2, HX3, HX4⟩
  ihave HTs := (Transfers.pointsTo_toks_split q 5) $$ HT
  icases HTs with ⟨HTd, HTt⟩
  ihave HTt := (Entails.of_eq (bigSep_fin5 (F := F) _)) $$ HTt
  icases HTt with ⟨HT0, HT1, HT2, HT3, HT4⟩
  ihave HSl := (region_split d L X Tp fod) $$ HOut
  ihave HSl := (Entails.of_eq (bigSep_sep' _ _ _)) $$ HSl
  icases HSl with ⟨HSA, HSB⟩
  have hinA := hin_i0 (F := F) d L X hX
  have hb : Transfers.BatchOf (V d (cV L) (jV L)) (SemLoc.dma cc0_scratch7.sem) 16 := trivial
  sl_unfold [cc0_k]
  sl_exec
  sl_for (inv d L O W q X Tp) $$ [Hmw HX3 Hs9 HX4 Hs5 HT0 HT1 Hr1 Hs6 Hs8 HO Htb Hs7 HSA HSB]
  case region =>
    intro k acc
    have hk : k.val < 50 := lt_of_lt_of_eq k.isLt trips1
    unfold inv
    rw [if_pos hk]
    rcases Nat.eq_zero_or_pos k.val with h0 | hpos
    · rw [if_pos h0, if_pos (by omega : k.val + 1 < 50), if_neg (by omega : ¬ k.val + 1 = 0)]
      have hkp : kpred (k.val + 1) = k := Fin.ext (by simp only [kpred, Nat.add_sub_cancel]; exact Nat.mod_eq_of_lt hk)
      rw [hkp]
      exact tripStepF d L O W q X Tp hX hI2 hI3 k h0
    · have hkp : kpred (k.val + 1) = k := Fin.ext (by simp only [kpred, Nat.add_sub_cancel]; exact Nat.mod_eq_of_lt hk)
      have hkp1 : (kpred k.val).val + 1 = k.val := by simp only [kpred]; rw [Nat.mod_eq_of_lt (by omega)]; omega
      rw [if_neg (by omega : ¬ k.val = 0), if_neg (by omega : ¬ k.val + 1 = 0), hkp]
      rcases Nat.lt_or_ge k.val 49 with h49 | h49
      · rw [if_pos (by omega : k.val + 1 < 50)]
        exact tripStepM d L O W q X Tp hX hI2 hI3 k hpos h49 hkp1
      · rw [if_neg (by omega : ¬ k.val + 1 < 50)]
        exact tripStepL d L O W q X Tp hX hI2 hI3 k hpos (by omega) hkp1
  · unfold inv
    rw [if_pos (by decide : 0 < 50), if_pos rfl]
    unfold coreFly flyI1 flyG0 tbIdle owesPart
    isplitl [Hmw HX3 Hs9 HX4 Hs5 HT0 HT1 Hr1 Hs6 Hs8 HO]
    · isplitl [Hmw]; · iexact Hmw
      isplitl [HX3]; · iexact HX3
      isplitl [Hs9 HX4]
      · iexists _, _
        isplitl [Hs9]; · iexact Hs9
        isplitl [HX4]; · iexact HX4
        ipureintro
        exact ⟨hin_i1 (F := F) d L X hX _ _ _, idx_ok_write1 d L X (kOf 0) 1 _ _ _ (off1_eq1 L)⟩
      isplitl [Hs5 HT0]
      · iexists _, _, _
        isplitl [Hs5]; · iexact Hs5
        isplitl [HT0]; · iexact HT0
        ipureintro
        exact rows_ok_gather0 d L X Tp (kOf 0) 0 _ (idx_ok_write0 d L X (kOf 0) 0 _ _ _ (off1_eq0 L)) _ _ _
      isplitl [HT1]; · iexact HT1
      isplitl [Hr1]; · iexists _; iexact Hr1
      isplitl [Hs6]; · iexact Hs6
      isplitl [Hs8]; · iexact Hs8
      iexists _; isplitl [HO]; · iexact HO
      ipureintro; repeat (first | exact (fun p hp => Or.inl hp) | apply okW_insert)
    isplitl [Htb Hs7]
    · isplitl [Htb]; · iexists _; iexact Htb
      iexact Hs7
    isplitl [HSA]
    · iapply (SparseCore.ent (bigSep_mono (s := Finset.univ) (fun k' _ => SlA_mono d L X Tp (ok := False) (ok' := k'.val < 0) (fun h => by omega) k'))); iexact HSA
    · rw [show setB 0 = Finset.univ from by ext x; simp [setB]]
      iapply (SparseCore.ent (bigSep_mono (s := Finset.univ) (fun k' _ => SlB_mono d L X Tp (ok := False) (ok' := k'.val + 1 < 0) (fun h => by omega) k'))); iexact HSB
  iintro %_ HI
  unfold inv
  rw [if_neg (by decide : ¬ k0_t1_loop.trips < 50), if_neg (by decide : ¬ k0_t1_loop.trips = 0)]
  unfold coreIdle batchB owesPart
  icases HI with ⟨⟨Hmw, HX3, HX4, HT0, HT1, ⟨%g0', Hr0⟩, ⟨%g1', Hr1⟩, ⟨%f0', Hi0⟩, ⟨%f1', Hi1⟩, Hs5, Hs6, Hs8, Hs9, ⟨%W', HO, %hW'⟩⟩,
    ⟨%f, %ga0, %ga1, %ga2, %ga3, %ga4, %ga5, %ga6, %ga7, %ga8, %ga9, %ga10, %ga11, %ga12, %ga13, %ga14, %ga15, Hs7, %hTb⟩, HSA, HSB⟩
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_step
  ihave Hi0 := (Entails.of_eq (pts_b0 (F := F) d L _)) $$ Hi0
  ihave Hi1 := (Entails.of_eq (pts_b1 (F := F) d L _)) $$ Hi1
  ihave Hr0 := (Entails.of_eq (pts_b2 (F := F) d L _)) $$ Hr0
  ihave Hr1 := (Entails.of_eq (pts_b3 (F := F) d L _)) $$ Hr1
  ihave Htb := (Entails.of_eq (pts_b4 (F := F) d L _)) $$ Htb
  ihave HXt := (Entails.of_eq (bigSep_fin5 (F := F) (fun i : Fin 5 => (((xW).view.loc (V d (cV L) (jV L)) ↦{Transfers.shareTok q 5 i} X : sProp 𝕄)))).symm) $$ [HX0 HX1 HX2 HX3 HX4]
  · isplitl [HX0]; · iexact HX0
    isplitl [HX1]; · iexact HX1
    isplitl [HX2]; · iexact HX2
    isplitl [HX3]; · iexact HX3
    iexact HX4
  ihave HX := (Transfers.pointsTo_toks_join q 5) $$ [HXd HXt]
  · isplitl [HXd]; · iexact HXd
    iexact HXt
  ihave HX := (Entails.of_eq (pts_X (F := F) d L q X)) $$ HX
  ihave HTt := (Entails.of_eq (bigSep_fin5 (F := F) (fun i : Fin 5 => (((tW).view.loc (V d (cV L) (jV L)) ↦{Transfers.shareTok q 5 i} Tp : sProp 𝕄)))).symm) $$ [HT0 HT1 HT2 HT3 HT4]
  · isplitl [HT0]; · iexact HT0
    isplitl [HT1]; · iexact HT1
    isplitl [HT2]; · iexact HT2
    isplitl [HT3]; · iexact HT3
    iexact HT4
  ihave HT := (Transfers.pointsTo_toks_join q 5) $$ [HTd HTt]
  · isplitl [HTd]; · iexact HTd
    iexact HTt
  ihave HT := (Entails.of_eq (pts_T (F := F) d L q Tp)) $$ HT
  ihave HOutF := (out_final d L X Tp f hTb _ _ _ _ _ _ _ _ _ _ _ _ _ _ _ _) $$ [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15 HSA HSB]
  · isplitl [Hs7_dst0]; · iexact Hs7_dst0
    isplitl [Hs7_dst1]; · iexact Hs7_dst1
    isplitl [Hs7_dst2]; · iexact Hs7_dst2
    isplitl [Hs7_dst3]; · iexact Hs7_dst3
    isplitl [Hs7_dst4]; · iexact Hs7_dst4
    isplitl [Hs7_dst5]; · iexact Hs7_dst5
    isplitl [Hs7_dst6]; · iexact Hs7_dst6
    isplitl [Hs7_dst7]; · iexact Hs7_dst7
    isplitl [Hs7_dst8]; · iexact Hs7_dst8
    isplitl [Hs7_dst9]; · iexact Hs7_dst9
    isplitl [Hs7_dst10]; · iexact Hs7_dst10
    isplitl [Hs7_dst11]; · iexact Hs7_dst11
    isplitl [Hs7_dst12]; · iexact Hs7_dst12
    isplitl [Hs7_dst13]; · iexact Hs7_dst13
    isplitl [Hs7_dst14]; · iexact Hs7_dst14
    isplitl [Hs7_dst15]; · iexact Hs7_dst15
    isplitl [HSA]; · iexact HSA
    iexact HSB
  isplitl [HX HT HOutF]
  · isplitl [HX]; · iexact HX
    isplitl [HT]; · iexact HT
    iexact HOutF
  isplitl [Hi0 Hi1 Hr0 Hr1 Htb Hbufs]
  · isplitl [Hi0]; · iexists _; iexact Hi0
    isplitl [Hi1]; · iexists _; iexact Hi1
    isplitl [Hr0]; · iexists _; iexact Hr0
    isplitl [Hr1]; · iexists _; iexact Hr1
    isplitl [Htb]; · iexists _; iexact Htb
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro; repeat (first | exact hW' | apply okW_insert)

end Body

/-! ## The tile's obligation of the launch -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (F := F) (coordsV c s) xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (Xv : (d : Dev nD) → Buf (Elt F) (xLoc d)) (Tv : (d : Dev nD) → Buf (Elt F) (tLoc d))
    (fo : (d : Dev nD) → Buf (Elt F) (oLoc d)) (hX : ∀ d j, (Xv d j).toNat < 1000000) :
    (K (F := F)).TileObl (D (F := F)) 𝒱 (P Xv Tv fo) v₀ 0 := by
  intro d c i O W hO _ _
  simp only [show (P Xv Tv fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) O W (qT (Fin.cast nCore_zero c) (Fin.cast nSub_zero i)) (Xv d) (Tv d) hF (hX d)
    (fun k v245 v275 g R f hD => Cert.Proof.KI.inner2_trip d _ (w2 _) k v245 v275 g R f hD)
    (fun k v400 v401 v420 v421 v422 v423 g R f hD => Cert.Proof.KI.inner3_trip d _ (w2 _) k v400 v401 v420 v421 v422 v423 g R f hD)
    (fo d) hO).trans (wp_mono frame _ _ fun _ => obl_post)

end Cert.Proof.K
end
-- ==== Proof.KHostB.lean ====
/-
  The kernel program's host operations as pure functions, read at an index.

  Around its one call the program does five things on the host. Before the call: the index array x : [16384, 50]
  is transposed to [50, 16384] and flattened row-major to one list of 819200 words, so that position
  h · 16384 + b of the list holds x[b, h] (Xflat); and the table [1000000, 64] is padded on the right of its
  column axis with 64 columns of the float conversion of the integer 0, giving [1000000, 128] whose first 64
  columns are the table's (Tpad). After the call: the result [50, 64, 16384] is transposed with the
  permutation (2, 0, 1) to [16384, 50, 64], so that entry (b, h, d) of the program's result is entry (h, d, b)
  of the call's (OutT).

  What the call is to compute (OutSpec): entry (h, d, b) is eight times the padded table's entry at the row
  named by word h · 16384 + b of the flattened list, reduced modulo the table's height, and column d — the
  scaling done as the kernel's arithmetic does it, a product with the word of 8.0 on the right (mul8). For
  words below the table's height the reduction is the identity.
-/
import proofs.«206429_g47863115546636_cont_8to1c4_619_32_alg».proof.Proof.Gen.Kernel
import proofs.«206429_g47863115546636_cont_8to1c4_619_32_alg».proof.Proof.Gen.Kernel.Skeleton
import Idealize.ShloMosaic.Lib.ValueIdx
import Idealize.ShloMosaic.Lib.Pipeline.Value
import Idealize.ShloMosaic.Lib.KernelVsHost

noncomputable section

namespace Cert.Proof.KHostB

open Cert.Kernel Cert.Kernel.Gen
open Idealize.ShloMosaic Idealize.ShloMosaic.ValueIdx

variable {F : FTy → Type} [FloatOps F]

/-! ## The index list -/

/-- The index array transposed and flattened row-major: the program's first two operations composed. -/
def Xflat (x : IVec S16384x50 32) : IVec S819200 32 :=
  shapeCast S819200 (transpose S50x16384 [1, 0] x transposes_S16384x50_S50x16384_1_0) shapeCasts_S50x16384_S819200

/-- Position h · 16384 + b of the flattened list holds x[b, h]. -/
theorem Xflat_apply (x : IVec S16384x50 32) (h : Fin 50) (b : Fin 16384) :
    Xflat x (ix1 (⟨h.val * 16384 + b.val, by omega⟩ : Fin 819200)) = x (ix2 b h) := by
  unfold Xflat
  refine (shapeCast_apply _ shapeCasts_S50x16384_S819200 (ix1 (⟨h.val * 16384 + b.val, by omega⟩ : Fin 819200)) (ix2 h b)
    (by rw [Shape.rowMajor_val_two, Shape.rowMajor_val_one]; rfl)).trans ?_
  exact transpose_apply [1, 0] x transposes_S16384x50_S50x16384_1_0 (ix2 h b) (ix2 b h)
    (fun a => match a with | ⟨0, _⟩ => rfl | ⟨1, _⟩ => rfl)

/-- Every word of the flattened list is one of x's: a bound on x's words is a bound on the list's. -/
theorem Xflat_bound (x : IVec S16384x50 32) (hx : ∀ j, (x j).toNat < 1000000) : ∀ j, (Xflat x j).toNat < 1000000 :=
  fun j => hx (Shape.Transposes.src transposes_S16384x50_S50x16384_1_0 (Shape.reshapeEquiv shapeCasts_S50x16384_S819200 j))

/-! ## The padded table -/

/-- The table padded with 64 more columns of the converted integer 0: the padding function's two operations
    composed on the constant 0. -/
def Tpad (tbl : FVec F S1000000x64 .f32) : FVec F S1000000x128 .f32 :=
  pad S1000000x128 ![0, 0] ![0, 64] ![0, 0] tbl (sitofp (F := F) .f32 (constantI S_ 32 0#32))
    pads_S1000000x64_S1000000x128_000_0640 h_S_

/-- The padded table's first 64 columns are the table's. -/
theorem Tpad_apply (tbl : FVec F S1000000x64 .f32) (r : Fin 1000000) (dd : Fin 64) :
    Tpad tbl (ix2 r (⟨dd.val, by omega⟩ : Fin 128)) = tbl (ix2 r dd) := by
  unfold Tpad
  exact pad_apply_of_inside ![0, 0] ![0, 64] ![0, 0] tbl _ pads_S1000000x64_S1000000x128_000_0640 h_S_
    (ix2 r (⟨dd.val, by omega⟩ : Fin 128)) (ix2 r dd)
    (fun a => match a with
      | ⟨0, _⟩ => by show r.val = 0 + r.val * (0 + 1); omega
      | ⟨1, _⟩ => by show dd.val = 0 + dd.val * (0 + 1); omega)

/-! ## The result's transpose -/

/-- The call's result with its axes permuted by (2, 0, 1): the program's last operation. -/
def OutT (o : FVec F S50x64x16384 .f32) : FVec F S16384x50x64 .f32 :=
  transpose S16384x50x64 [2, 0, 1] o transposes_S50x64x16384_S16384x50x64_2_0_1

/-- Entry (b, h, d) of the program's result is entry (h, d, b) of the call's. -/
theorem OutT_apply (o : FVec F S50x64x16384 .f32) (b : Fin 16384) (h : Fin 50) (dd : Fin 64) :
    OutT o (ix3 b h dd) = o (ix3 h dd b) := by
  unfold OutT
  exact transpose_apply [2, 0, 1] o transposes_S50x64x16384_S16384x50x64_2_0_1 (ix3 b h dd) (ix3 h dd b)
    (fun a => match a with | ⟨0, _⟩ => rfl | ⟨1, _⟩ => rfl | ⟨2, _⟩ => rfl)

/-! ## What the call computes -/

/-- The kernel's scaling of one entry: the product with the word of 8.0, on the right. -/
def mul8 (a : F .f32) : F .f32 := FloatOps.mulf a (FloatOps.ofBits .f32 0x41000000#32)

/-- The kernel's scaling payload is mul8 entry by entry. -/
theorem k0_pay5_apply (v : Vec F S16 .f32) (x : S16.Idx) : k0_pay5 v x = mul8 (v x) := rfl

/-- What the call is to leave in its result: at (h, d, b), eight times the padded table's entry at the row named by
    word h · 16384 + b of the list, reduced modulo the table's height, and column d. -/
def OutSpec (X : IVec S819200 32) (Tp : FVec F S1000000x128 .f32) : FVec F S50x64x16384 .f32 := fun p =>
  mul8 (Tp (ix2
    (⟨(X (ix1 (⟨(p 0).val * 16384 + (p 2).val, by
        have h0 : (p 0).val < 50 := (p 0).isLt
        have h2 : (p 2).val < 16384 := (p 2).isLt
        omega⟩ : Fin 819200))).toNat % 1000000, Nat.mod_lt _ (by decide)⟩ : Fin 1000000)
    (⟨(p 1).val, by have h1 : (p 1).val < 64 := (p 1).isLt; omega⟩ : Fin 128)))

/-- For words below the table's height the reduction is the identity. -/
theorem OutSpec_apply (X : IVec S819200 32) (Tp : FVec F S1000000x128 .f32) (hX : ∀ j, (X j).toNat < 1000000)
    (h : Fin 50) (dd : Fin 64) (b : Fin 16384) :
    OutSpec X Tp (ix3 h dd b)
      = mul8 (Tp (ix2 (⟨(X (ix1 (⟨h.val * 16384 + b.val, by omega⟩ : Fin 819200))).toNat, hX _⟩ : Fin 1000000)
          (⟨dd.val, by omega⟩ : Fin 128))) := by
  show mul8 (Tp (ix2 (⟨(X (ix1 (⟨h.val * 16384 + b.val, _⟩ : Fin 819200))).toNat % 1000000, _⟩ : Fin 1000000)
      (⟨dd.val, _⟩ : Fin 128))) = _
  refine congrArg (fun r : Fin 1000000 => mul8 (Tp (ix2 r (⟨dd.val, _⟩ : Fin 128)))) (Fin.ext ?_)
  exact Nat.mod_eq_of_lt (hX _)

end Cert.Proof.KHostB

end
-- ==== Proof.KDefsB.lean ====
import proofs.«206429_g47863115546636_cont_8to1c4_619_32_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206429_g47863115546636_cont_8to1c4_619_32_alg».proof.Proof.Gen.Kernel
import proofs.«206429_g47863115546636_cont_8to1c4_619_32_alg».proof.Proof.Gen.Kernel.Skeleton
import proofs.«206429_g47863115546636_cont_8to1c4_619_32_alg».proof.Proof.KHostB

noncomputable section

/-! The launch configuration of the one SparseCore call, the names of the arrays and scratches as the tile body
    addresses them, the staging scratch as sixteen eight-row blocks, and what the call hands each tile:
    read shares of the flattened indices and of the padded table, and the tile's own 512 batch columns of the result. -/
namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

open Lean Elab Tactic Meta in
/-- At a program headed by an indexed load or an indexed store of the vector subcore: restate the head as the
    whole-buffer load (and store) it is made of, by the library's own equation. -/
elab "sl_idx " c:term : tactic => withMainContext do
  let g ← getMainGoal
  let ty := (← instantiateMVars (← g.getType)).consumeMData
  unless ty.isApp do throwError "sl_idx: not an entailment"
  let some w := Idealize.ShloMosaic.Tactic.Exec.parseWp? ty.appArg! | throwError "sl_idx: no wp"
  let prog := w.prog.consumeMData
  unless prog.isAppOfArity ``Bind.bind 6 do throwError "sl_idx: the program is not a bind"
  let hd := (prog.getArg! 4).consumeMData
  let k := prog.getArg! 5
  let args := hd.getAppArgs
  let n := args.size
  let cE ← Term.elabTerm c none
  let eqPf ←
    if hd.getAppFn.isConstOf ``Idealize.ShloMosaic.SparseCore.vectorLoadIdx then
      mkAppM ``Idealize.ShloMosaic.SparseCore.vectorLoadIdx_bind #[cE, args[n-4]!, args[n-3]!, args[n-2]!, args[n-1]!, k]
    else if hd.getAppFn.isConstOf ``Idealize.ShloMosaic.SparseCore.vectorStoreIdx then
      mkAppM ``Idealize.ShloMosaic.SparseCore.vectorStoreIdx_bind #[cE, args[n-7]!, args[n-6]!, args[n-5]!, args[n-4]!, args[n-3]!, args[n-2]!, args[n-1]!, k]
    else throwError "sl_idx: the head is neither an indexed load nor an indexed store"
  let g' ← Idealize.ShloMosaic.Tactic.rewriteProg g eqPf
  replaceMainGoal [g']
abbrev dM0_0 (L : grid0.Coords) (k : Fin k0_t1_loop.trips) : Memref sig .scVector .hbm S8x128 .f32 := ((oW).slice (Rect.unit (s := S50x64x16384) (k0_off12 L k 0#32 0#32) S1x8x128.size (k0_off12_inb L k 0 0)) (fun _ => rfl)).squeeze S8x128 squeezes_S1x8x128_S8x128
abbrev dM0_1 (L : grid0.Coords) (k : Fin k0_t1_loop.trips) : Memref sig .scVector .hbm S8x128 .f32 := ((oW).slice (Rect.unit (s := S50x64x16384) (k0_off12 L k 0#32 128#32) S1x8x128.size (k0_off12_inb L k 0 1)) (fun _ => rfl)).squeeze S8x128 squeezes_S1x8x128_S8x128
abbrev dM0_2 (L : grid0.Coords) (k : Fin k0_t1_loop.trips) : Memref sig .scVector .hbm S8x128 .f32 := ((oW).slice (Rect.unit (s := S50x64x16384) (k0_off13 L k 0#32 0#32) S1x8x128.size (k0_off13_inb L k 0 0)) (fun _ => rfl)).squeeze S8x128 squeezes_S1x8x128_S8x128
abbrev dM0_3 (L : grid0.Coords) (k : Fin k0_t1_loop.trips) : Memref sig .scVector .hbm S8x128 .f32 := ((oW).slice (Rect.unit (s := S50x64x16384) (k0_off13 L k 0#32 128#32) S1x8x128.size (k0_off13_inb L k 0 1)) (fun _ => rfl)).squeeze S8x128 squeezes_S1x8x128_S8x128
abbrev dM0_4 (L : grid0.Coords) (k : Fin k0_t1_loop.trips) : Memref sig .scVector .hbm S8x128 .f32 := ((oW).slice (Rect.unit (s := S50x64x16384) (k0_off14 L k 0#32 0#32) S1x8x128.size (k0_off14_inb L k 0 0)) (fun _ => rfl)).squeeze S8x128 squeezes_S1x8x128_S8x128
abbrev dM0_5 (L : grid0.Coords) (k : Fin k0_t1_loop.trips) : Memref sig .scVector .hbm S8x128 .f32 := ((oW).slice (Rect.unit (s := S50x64x16384) (k0_off14 L k 0#32 128#32) S1x8x128.size (k0_off14_inb L k 0 1)) (fun _ => rfl)).squeeze S8x128 squeezes_S1x8x128_S8x128
abbrev dM0_6 (L : grid0.Coords) (k : Fin k0_t1_loop.trips) : Memref sig .scVector .hbm S8x128 .f32 := ((oW).slice (Rect.unit (s := S50x64x16384) (k0_off15 L k 0#32 0#32) S1x8x128.size (k0_off15_inb L k 0 0)) (fun _ => rfl)).squeeze S8x128 squeezes_S1x8x128_S8x128
abbrev dM0_7 (L : grid0.Coords) (k : Fin k0_t1_loop.trips) : Memref sig .scVector .hbm S8x128 .f32 := ((oW).slice (Rect.unit (s := S50x64x16384) (k0_off15 L k 0#32 128#32) S1x8x128.size (k0_off15_inb L k 0 1)) (fun _ => rfl)).squeeze S8x128 squeezes_S1x8x128_S8x128
abbrev dM0_8 (L : grid0.Coords) (k : Fin k0_t1_loop.trips) : Memref sig .scVector .hbm S8x128 .f32 := ((oW).slice (Rect.unit (s := S50x64x16384) (k0_off16 L k 0#32 0#32) S1x8x128.size (k0_off16_inb L k 0 0)) (fun _ => rfl)).squeeze S8x128 squeezes_S1x8x128_S8x128
abbrev dM0_9 (L : grid0.Coords) (k : Fin k0_t1_loop.trips) : Memref sig .scVector .hbm S8x128 .f32 := ((oW).slice (Rect.unit (s := S50x64x16384) (k0_off16 L k 0#32 128#32) S1x8x128.size (k0_off16_inb L k 0 1)) (fun _ => rfl)).squeeze S8x128 squeezes_S1x8x128_S8x128
abbrev dM0_10 (L : grid0.Coords) (k : Fin k0_t1_loop.trips) : Memref sig .scVector .hbm S8x128 .f32 := ((oW).slice (Rect.unit (s := S50x64x16384) (k0_off17 L k 0#32 0#32) S1x8x128.size (k0_off17_inb L k 0 0)) (fun _ => rfl)).squeeze S8x128 squeezes_S1x8x128_S8x128
abbrev dM0_11 (L : grid0.Coords) (k : Fin k0_t1_loop.trips) : Memref sig .scVector .hbm S8x128 .f32 := ((oW).slice (Rect.unit (s := S50x64x16384) (k0_off17 L k 0#32 128#32) S1x8x128.size (k0_off17_inb L k 0 1)) (fun _ => rfl)).squeeze S8x128 squeezes_S1x8x128_S8x128
abbrev dM0_12 (L : grid0.Coords) (k : Fin k0_t1_loop.trips) : Memref sig .scVector .hbm S8x128 .f32 := ((oW).slice (Rect.unit (s := S50x64x16384) (k0_off18 L k 0#32 0#32) S1x8x128.size (k0_off18_inb L k 0 0)) (fun _ => rfl)).squeeze S8x128 squeezes_S1x8x128_S8x128
abbrev dM0_13 (L : grid0.Coords) (k : Fin k0_t1_loop.trips) : Memref sig .scVector .hbm S8x128 .f32 := ((oW).slice (Rect.unit (s := S50x64x16384) (k0_off18 L k 0#32 128#32) S1x8x128.size (k0_off18_inb L k 0 1)) (fun _ => rfl)).squeeze S8x128 squeezes_S1x8x128_S8x128
abbrev dM0_14 (L : grid0.Coords) (k : Fin k0_t1_loop.trips) : Memref sig .scVector .hbm S8x128 .f32 := ((oW).slice (Rect.unit (s := S50x64x16384) (k0_off19 L k 0#32 0#32) S1x8x128.size (k0_off19_inb L k 0 0)) (fun _ => rfl)).squeeze S8x128 squeezes_S1x8x128_S8x128
abbrev dM0_15 (L : grid0.Coords) (k : Fin k0_t1_loop.trips) : Memref sig .scVector .hbm S8x128 .f32 := ((oW).slice (Rect.unit (s := S50x64x16384) (k0_off19 L k 0#32 128#32) S1x8x128.size (k0_off19_inb L k 0 1)) (fun _ => rfl)).squeeze S8x128 squeezes_S1x8x128_S8x128
abbrev dM1_0 (L : grid0.Coords) (k : Fin k0_t1_loop.trips) : Memref sig .scVector .hbm S8x128 .f32 := ((oW).slice (Rect.unit (s := S50x64x16384) (k0_off12 L k 1#32 0#32) S1x8x128.size (k0_off12_inb L k 1 0)) (fun _ => rfl)).squeeze S8x128 squeezes_S1x8x128_S8x128
abbrev dM1_1 (L : grid0.Coords) (k : Fin k0_t1_loop.trips) : Memref sig .scVector .hbm S8x128 .f32 := ((oW).slice (Rect.unit (s := S50x64x16384) (k0_off12 L k 1#32 128#32) S1x8x128.size (k0_off12_inb L k 1 1)) (fun _ => rfl)).squeeze S8x128 squeezes_S1x8x128_S8x128
abbrev dM1_2 (L : grid0.Coords) (k : Fin k0_t1_loop.trips) : Memref sig .scVector .hbm S8x128 .f32 := ((oW).slice (Rect.unit (s := S50x64x16384) (k0_off13 L k 1#32 0#32) S1x8x128.size (k0_off13_inb L k 1 0)) (fun _ => rfl)).squeeze S8x128 squeezes_S1x8x128_S8x128
abbrev dM1_3 (L : grid0.Coords) (k : Fin k0_t1_loop.trips) : Memref sig .scVector .hbm S8x128 .f32 := ((oW).slice (Rect.unit (s := S50x64x16384) (k0_off13 L k 1#32 128#32) S1x8x128.size (k0_off13_inb L k 1 1)) (fun _ => rfl)).squeeze S8x128 squeezes_S1x8x128_S8x128
abbrev dM1_4 (L : grid0.Coords) (k : Fin k0_t1_loop.trips) : Memref sig .scVector .hbm S8x128 .f32 := ((oW).slice (Rect.unit (s := S50x64x16384) (k0_off14 L k 1#32 0#32) S1x8x128.size (k0_off14_inb L k 1 0)) (fun _ => rfl)).squeeze S8x128 squeezes_S1x8x128_S8x128
abbrev dM1_5 (L : grid0.Coords) (k : Fin k0_t1_loop.trips) : Memref sig .scVector .hbm S8x128 .f32 := ((oW).slice (Rect.unit (s := S50x64x16384) (k0_off14 L k 1#32 128#32) S1x8x128.size (k0_off14_inb L k 1 1)) (fun _ => rfl)).squeeze S8x128 squeezes_S1x8x128_S8x128
abbrev dM1_6 (L : grid0.Coords) (k : Fin k0_t1_loop.trips) : Memref sig .scVector .hbm S8x128 .f32 := ((oW).slice (Rect.unit (s := S50x64x16384) (k0_off15 L k 1#32 0#32) S1x8x128.size (k0_off15_inb L k 1 0)) (fun _ => rfl)).squeeze S8x128 squeezes_S1x8x128_S8x128
abbrev dM1_7 (L : grid0.Coords) (k : Fin k0_t1_loop.trips) : Memref sig .scVector .hbm S8x128 .f32 := ((oW).slice (Rect.unit (s := S50x64x16384) (k0_off15 L k 1#32 128#32) S1x8x128.size (k0_off15_inb L k 1 1)) (fun _ => rfl)).squeeze S8x128 squeezes_S1x8x128_S8x128
abbrev dM1_8 (L : grid0.Coords) (k : Fin k0_t1_loop.trips) : Memref sig .scVector .hbm S8x128 .f32 := ((oW).slice (Rect.unit (s := S50x64x16384) (k0_off16 L k 1#32 0#32) S1x8x128.size (k0_off16_inb L k 1 0)) (fun _ => rfl)).squeeze S8x128 squeezes_S1x8x128_S8x128
abbrev dM1_9 (L : grid0.Coords) (k : Fin k0_t1_loop.trips) : Memref sig .scVector .hbm S8x128 .f32 := ((oW).slice (Rect.unit (s := S50x64x16384) (k0_off16 L k 1#32 128#32) S1x8x128.size (k0_off16_inb L k 1 1)) (fun _ => rfl)).squeeze S8x128 squeezes_S1x8x128_S8x128
abbrev dM1_10 (L : grid0.Coords) (k : Fin k0_t1_loop.trips) : Memref sig .scVector .hbm S8x128 .f32 := ((oW).slice (Rect.unit (s := S50x64x16384) (k0_off17 L k 1#32 0#32) S1x8x128.size (k0_off17_inb L k 1 0)) (fun _ => rfl)).squeeze S8x128 squeezes_S1x8x128_S8x128
abbrev dM1_11 (L : grid0.Coords) (k : Fin k0_t1_loop.trips) : Memref sig .scVector .hbm S8x128 .f32 := ((oW).slice (Rect.unit (s := S50x64x16384) (k0_off17 L k 1#32 128#32) S1x8x128.size (k0_off17_inb L k 1 1)) (fun _ => rfl)).squeeze S8x128 squeezes_S1x8x128_S8x128
abbrev dM1_12 (L : grid0.Coords) (k : Fin k0_t1_loop.trips) : Memref sig .scVector .hbm S8x128 .f32 := ((oW).slice (Rect.unit (s := S50x64x16384) (k0_off18 L k 1#32 0#32) S1x8x128.size (k0_off18_inb L k 1 0)) (fun _ => rfl)).squeeze S8x128 squeezes_S1x8x128_S8x128
abbrev dM1_13 (L : grid0.Coords) (k : Fin k0_t1_loop.trips) : Memref sig .scVector .hbm S8x128 .f32 := ((oW).slice (Rect.unit (s := S50x64x16384) (k0_off18 L k 1#32 128#32) S1x8x128.size (k0_off18_inb L k 1 1)) (fun _ => rfl)).squeeze S8x128 squeezes_S1x8x128_S8x128
abbrev dM1_14 (L : grid0.Coords) (k : Fin k0_t1_loop.trips) : Memref sig .scVector .hbm S8x128 .f32 := ((oW).slice (Rect.unit (s := S50x64x16384) (k0_off19 L k 1#32 0#32) S1x8x128.size (k0_off19_inb L k 1 0)) (fun _ => rfl)).squeeze S8x128 squeezes_S1x8x128_S8x128
abbrev dM1_15 (L : grid0.Coords) (k : Fin k0_t1_loop.trips) : Memref sig .scVector .hbm S8x128 .f32 := ((oW).slice (Rect.unit (s := S50x64x16384) (k0_off19 L k 1#32 128#32) S1x8x128.size (k0_off19_inb L k 1 1)) (fun _ => rfl)).squeeze S8x128 squeezes_S1x8x128_S8x128
abbrev sM_0 : Memref sig .scVector .vmem S8x128 .f32 := (tb).slice (Rect.unit (s := S128x128) ![0, 0] S8x128.size inb_S128x128_S8x128_0_0) (fun _ => rfl)
abbrev sM_1 : Memref sig .scVector .vmem S8x128 .f32 := (tb).slice (Rect.unit (s := S128x128) ![8, 0] S8x128.size inb_S128x128_S8x128_8_0) (fun _ => rfl)
abbrev sM_2 : Memref sig .scVector .vmem S8x128 .f32 := (tb).slice (Rect.unit (s := S128x128) ![16, 0] S8x128.size inb_S128x128_S8x128_16_0) (fun _ => rfl)
abbrev sM_3 : Memref sig .scVector .vmem S8x128 .f32 := (tb).slice (Rect.unit (s := S128x128) ![24, 0] S8x128.size inb_S128x128_S8x128_24_0) (fun _ => rfl)
abbrev sM_4 : Memref sig .scVector .vmem S8x128 .f32 := (tb).slice (Rect.unit (s := S128x128) ![32, 0] S8x128.size inb_S128x128_S8x128_32_0) (fun _ => rfl)
abbrev sM_5 : Memref sig .scVector .vmem S8x128 .f32 := (tb).slice (Rect.unit (s := S128x128) ![40, 0] S8x128.size inb_S128x128_S8x128_40_0) (fun _ => rfl)
abbrev sM_6 : Memref sig .scVector .vmem S8x128 .f32 := (tb).slice (Rect.unit (s := S128x128) ![48, 0] S8x128.size inb_S128x128_S8x128_48_0) (fun _ => rfl)
abbrev sM_7 : Memref sig .scVector .vmem S8x128 .f32 := (tb).slice (Rect.unit (s := S128x128) ![56, 0] S8x128.size inb_S128x128_S8x128_56_0) (fun _ => rfl)
abbrev sM_8 : Memref sig .scVector .vmem S8x128 .f32 := (tb).slice (Rect.unit (s := S128x128) ![64, 0] S8x128.size inb_S128x128_S8x128_64_0) (fun _ => rfl)
abbrev sM_9 : Memref sig .scVector .vmem S8x128 .f32 := (tb).slice (Rect.unit (s := S128x128) ![72, 0] S8x128.size inb_S128x128_S8x128_72_0) (fun _ => rfl)
abbrev sM_10 : Memref sig .scVector .vmem S8x128 .f32 := (tb).slice (Rect.unit (s := S128x128) ![80, 0] S8x128.size inb_S128x128_S8x128_80_0) (fun _ => rfl)
abbrev sM_11 : Memref sig .scVector .vmem S8x128 .f32 := (tb).slice (Rect.unit (s := S128x128) ![88, 0] S8x128.size inb_S128x128_S8x128_88_0) (fun _ => rfl)
abbrev sM_12 : Memref sig .scVector .vmem S8x128 .f32 := (tb).slice (Rect.unit (s := S128x128) ![96, 0] S8x128.size inb_S128x128_S8x128_96_0) (fun _ => rfl)
abbrev sM_13 : Memref sig .scVector .vmem S8x128 .f32 := (tb).slice (Rect.unit (s := S128x128) ![104, 0] S8x128.size inb_S128x128_S8x128_104_0) (fun _ => rfl)
abbrev sM_14 : Memref sig .scVector .vmem S8x128 .f32 := (tb).slice (Rect.unit (s := S128x128) ![112, 0] S8x128.size inb_S128x128_S8x128_112_0) (fun _ => rfl)
abbrev sM_15 : Memref sig .scVector .vmem S8x128 .f32 := (tb).slice (Rect.unit (s := S128x128) ![120, 0] S8x128.size inb_S128x128_S8x128_120_0) (fun _ => rfl)

/-! ## What the one call hands each SparseCore and each tile, and takes back -/

abbrev xLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3

theorem hdiv32 : 32 ∣ S50x64x16384.size 2 := ⟨512, rfl⟩
/-- The 512 batch columns a tile writes: part `w` of 32 along the last axis of the kernel's result. -/
abbrev colsRect (w : Fin 32) : Rect S50x64x16384 := Rect.part (s := S50x64x16384) (a₀ := 2) hdiv32 w
abbrev colsSet (w : Fin 32) : Finset S50x64x16384.Idx := (colsRect w).set
/-- Tile `i` of SparseCore `c` is worker `2 i + c`. -/
def widOf (c : Fin 2) (i : Fin 16) : Fin 32 := ⟨2 * i.val + c.val, by omega⟩

theorem nCore_zero : (K (F := F)).nCore 0 = 2 := rfl
theorem nSub_zero : (K (F := F)).nSub 0 = 16 := rfl

abbrev qC (c : Fin 2) : PosShare TreeShare := Transfers.shareTok fullShare 2 c
abbrev qT (c : Fin 2) (i : Fin 16) : PosShare TreeShare := Transfers.shareTok (qC c) 16 i

variable [FloatOps F]

/-- On a tile's columns the result holds the scaled table rows its indices name. -/
def OutOK (d : Dev nD) (Xd : Buf (Elt F) (xLoc d)) (Td : Buf (Elt F) (tLoc d)) (w : Fin 32) (f : Buf (Elt F) (oLoc d)) : Prop :=
  ∀ p ∈ colsSet w, f p = Cert.Proof.KHostB.OutSpec Xd Td p

section Pay
variable (Xv : (d : Dev nD) → Buf (Elt F) (xLoc d)) (Tv : (d : Dev nD) → Buf (Elt F) (tLoc d)) (fo : (d : Dev nD) → Buf (Elt F) (oLoc d))

def P : (K (F := F)).Pay (nD := nD) (Val := Elt F) (Name := ℕ) (U := UU) where
  st := fun q d c => match q with
    | 0 => iprop((xLoc d ↦{qC (Fin.cast nCore_zero c)} Xv d) ∗ (tLoc d ↦{qC (Fin.cast nCore_zero c)} Tv d)
        ∗ bigSep Finset.univ fun i : Fin 16 => (oLoc d ↦[colsSet (widOf (Fin.cast nCore_zero c) i)]{fullShare} fo d : sProp 𝕄))
  dn := fun q d c => match q with
    | 0 => iprop((xLoc d ↦{qC (Fin.cast nCore_zero c)} Xv d) ∗ (tLoc d ↦{qC (Fin.cast nCore_zero c)} Tv d)
        ∗ bigSep Finset.univ fun i : Fin 16 => (iprop(∃ f, ⌜OutOK d (Xv d) (Tv d) (widOf (Fin.cast nCore_zero c) i) f⌝
            ∗ oLoc d ↦[colsSet (widOf (Fin.cast nCore_zero c) i)]{fullShare} f) : sProp 𝕄))
  go := fun q d c i => match q with
    | 0 => iprop((xLoc d ↦{qT (Fin.cast nCore_zero c) (Fin.cast nSub_zero i)} Xv d) ∗ (tLoc d ↦{qT (Fin.cast nCore_zero c) (Fin.cast nSub_zero i)} Tv d)
        ∗ (oLoc d ↦[colsSet (widOf (Fin.cast nCore_zero c) (Fin.cast nSub_zero i))]{fullShare} fo d))
  td := fun q d c i => match q with
    | 0 => iprop((xLoc d ↦{qT (Fin.cast nCore_zero c) (Fin.cast nSub_zero i)} Xv d) ∗ (tLoc d ↦{qT (Fin.cast nCore_zero c) (Fin.cast nSub_zero i)} Tv d)
        ∗ ∃ f, ⌜OutOK d (Xv d) (Tv d) (widOf (Fin.cast nCore_zero c) (Fin.cast nSub_zero i)) f⌝
            ∗ oLoc d ↦[colsSet (widOf (Fin.cast nCore_zero c) (Fin.cast nSub_zero i))]{fullShare} f)
  x := fun _ _ => iprop(emp)

instance P_storable : (P (F := F) Xv Tv fo).IsStorable where
  st q d c := match q with | 0 => by unfold P; infer_instance
  dn q d c := match q with | 0 => by unfold P; infer_instance
  go q d c i := match q with | 0 => by unfold P; infer_instance
  td q d c i := match q with | 0 => by unfold P; infer_instance

end Pay

abbrev deliv (d : Dev nD) (L : grid0.Coords) (dM : Memref sig .scVector .hbm S8x128 .f32) (sM : Memref sig .scVector .vmem S8x128 .f32)
    (fo : Buf (Elt F) (dM.view.loc (V d (cV L) (jV L)))) (f : Buf (Elt F) (sM.view.loc (V d (cV L) (jV L)))) : sProp 𝕄 :=
  iprop((dM.view.loc (V d (cV L) (jV L)) ↦[dM.view.set]{fullShare} dM.view.writes (Elt F) fo [⟨Rect.whole S8x128, ReadAs.same.apply (sM.view.read (Elt F) f)⟩])
    ∗ (sM.view.loc (V d (cV L) (jV L)) ↦[sM.view.set]{fullShare} f))

/-! ## The staging scratch as sixteen blocks of eight rows -/

theorem hdiv16 : 16 ∣ S128x128.size 0 := ⟨8, rfl⟩
abbrev tbPart (t : Fin 16) : Rect S128x128 := Rect.part (s := S128x128) (a₀ := 0) hdiv16 t

omit [FloatOps F] in
theorem sM_0_rect : Rect.unit (s := S128x128) ![0, 0] S8x128.size inb_S128x128_S8x128_0_0 = tbPart 0 := by
  unfold tbPart Rect.part Rect.block
  congr 1 <;> funext a <;> (match a with | 0 => simp [Shape.partIx, Shape.partSize] | 1 => simp [Shape.partIx, Shape.partSize])
omit [FloatOps F] in
theorem sM_0_set : (sM_0).view.set = (tbPart 0).set := by
  show ((View.whole (cc0_scratch4 : Ref sig .scVector)).slice (Rect.unit (s := S128x128) ![0, 0] S8x128.size inb_S128x128_S8x128_0_0)).set = _
  rw [View.set_slice, sM_0_rect]
  exact Finset.map_refl
omit [FloatOps F] in
theorem sM_1_rect : Rect.unit (s := S128x128) ![8, 0] S8x128.size inb_S128x128_S8x128_8_0 = tbPart 1 := by
  unfold tbPart Rect.part Rect.block
  congr 1 <;> funext a <;> (match a with | 0 => simp [Shape.partIx, Shape.partSize] | 1 => simp [Shape.partIx, Shape.partSize])
omit [FloatOps F] in
theorem sM_1_set : (sM_1).view.set = (tbPart 1).set := by
  show ((View.whole (cc0_scratch4 : Ref sig .scVector)).slice (Rect.unit (s := S128x128) ![8, 0] S8x128.size inb_S128x128_S8x128_8_0)).set = _
  rw [View.set_slice, sM_1_rect]
  exact Finset.map_refl
omit [FloatOps F] in
theorem sM_2_rect : Rect.unit (s := S128x128) ![16, 0] S8x128.size inb_S128x128_S8x128_16_0 = tbPart 2 := by
  unfold tbPart Rect.part Rect.block
  congr 1 <;> funext a <;> (match a with | 0 => simp [Shape.partIx, Shape.partSize] | 1 => simp [Shape.partIx, Shape.partSize])
omit [FloatOps F] in
theorem sM_2_set : (sM_2).view.set = (tbPart 2).set := by
  show ((View.whole (cc0_scratch4 : Ref sig .scVector)).slice (Rect.unit (s := S128x128) ![16, 0] S8x128.size inb_S128x128_S8x128_16_0)).set = _
  rw [View.set_slice, sM_2_rect]
  exact Finset.map_refl
omit [FloatOps F] in
theorem sM_3_rect : Rect.unit (s := S128x128) ![24, 0] S8x128.size inb_S128x128_S8x128_24_0 = tbPart 3 := by
  unfold tbPart Rect.part Rect.block
  congr 1 <;> funext a <;> (match a with | 0 => simp [Shape.partIx, Shape.partSize] | 1 => simp [Shape.partIx, Shape.partSize])
omit [FloatOps F] in
theorem sM_3_set : (sM_3).view.set = (tbPart 3).set := by
  show ((View.whole (cc0_scratch4 : Ref sig .scVector)).slice (Rect.unit (s := S128x128) ![24, 0] S8x128.size inb_S128x128_S8x128_24_0)).set = _
  rw [View.set_slice, sM_3_rect]
  exact Finset.map_refl
omit [FloatOps F] in
theorem sM_4_rect : Rect.unit (s := S128x128) ![32, 0] S8x128.size inb_S128x128_S8x128_32_0 = tbPart 4 := by
  unfold tbPart Rect.part Rect.block
  congr 1 <;> funext a <;> (match a with | 0 => simp [Shape.partIx, Shape.partSize] | 1 => simp [Shape.partIx, Shape.partSize])
omit [FloatOps F] in
theorem sM_4_set : (sM_4).view.set = (tbPart 4).set := by
  show ((View.whole (cc0_scratch4 : Ref sig .scVector)).slice (Rect.unit (s := S128x128) ![32, 0] S8x128.size inb_S128x128_S8x128_32_0)).set = _
  rw [View.set_slice, sM_4_rect]
  exact Finset.map_refl
omit [FloatOps F] in
theorem sM_5_rect : Rect.unit (s := S128x128) ![40, 0] S8x128.size inb_S128x128_S8x128_40_0 = tbPart 5 := by
  unfold tbPart Rect.part Rect.block
  congr 1 <;> funext a <;> (match a with | 0 => simp [Shape.partIx, Shape.partSize] | 1 => simp [Shape.partIx, Shape.partSize])
omit [FloatOps F] in
theorem sM_5_set : (sM_5).view.set = (tbPart 5).set := by
  show ((View.whole (cc0_scratch4 : Ref sig .scVector)).slice (Rect.unit (s := S128x128) ![40, 0] S8x128.size inb_S128x128_S8x128_40_0)).set = _
  rw [View.set_slice, sM_5_rect]
  exact Finset.map_refl
omit [FloatOps F] in
theorem sM_6_rect : Rect.unit (s := S128x128) ![48, 0] S8x128.size inb_S128x128_S8x128_48_0 = tbPart 6 := by
  unfold tbPart Rect.part Rect.block
  congr 1 <;> funext a <;> (match a with | 0 => simp [Shape.partIx, Shape.partSize] | 1 => simp [Shape.partIx, Shape.partSize])
omit [FloatOps F] in
theorem sM_6_set : (sM_6).view.set = (tbPart 6).set := by
  show ((View.whole (cc0_scratch4 : Ref sig .scVector)).slice (Rect.unit (s := S128x128) ![48, 0] S8x128.size inb_S128x128_S8x128_48_0)).set = _
  rw [View.set_slice, sM_6_rect]
  exact Finset.map_refl
omit [FloatOps F] in
theorem sM_7_rect : Rect.unit (s := S128x128) ![56, 0] S8x128.size inb_S128x128_S8x128_56_0 = tbPart 7 := by
  unfold tbPart Rect.part Rect.block
  congr 1 <;> funext a <;> (match a with | 0 => simp [Shape.partIx, Shape.partSize] | 1 => simp [Shape.partIx, Shape.partSize])
omit [FloatOps F] in
theorem sM_7_set : (sM_7).view.set = (tbPart 7).set := by
  show ((View.whole (cc0_scratch4 : Ref sig .scVector)).slice (Rect.unit (s := S128x128) ![56, 0] S8x128.size inb_S128x128_S8x128_56_0)).set = _
  rw [View.set_slice, sM_7_rect]
  exact Finset.map_refl
omit [FloatOps F] in
theorem sM_8_rect : Rect.unit (s := S128x128) ![64, 0] S8x128.size inb_S128x128_S8x128_64_0 = tbPart 8 := by
  unfold tbPart Rect.part Rect.block
  congr 1 <;> funext a <;> (match a with | 0 => simp [Shape.partIx, Shape.partSize] | 1 => simp [Shape.partIx, Shape.partSize])
omit [FloatOps F] in
theorem sM_8_set : (sM_8).view.set = (tbPart 8).set := by
  show ((View.whole (cc0_scratch4 : Ref sig .scVector)).slice (Rect.unit (s := S128x128) ![64, 0] S8x128.size inb_S128x128_S8x128_64_0)).set = _
  rw [View.set_slice, sM_8_rect]
  exact Finset.map_refl
omit [FloatOps F] in
theorem sM_9_rect : Rect.unit (s := S128x128) ![72, 0] S8x128.size inb_S128x128_S8x128_72_0 = tbPart 9 := by
  unfold tbPart Rect.part Rect.block
  congr 1 <;> funext a <;> (match a with | 0 => simp [Shape.partIx, Shape.partSize] | 1 => simp [Shape.partIx, Shape.partSize])
omit [FloatOps F] in
theorem sM_9_set : (sM_9).view.set = (tbPart 9).set := by
  show ((View.whole (cc0_scratch4 : Ref sig .scVector)).slice (Rect.unit (s := S128x128) ![72, 0] S8x128.size inb_S128x128_S8x128_72_0)).set = _
  rw [View.set_slice, sM_9_rect]
  exact Finset.map_refl
omit [FloatOps F] in
theorem sM_10_rect : Rect.unit (s := S128x128) ![80, 0] S8x128.size inb_S128x128_S8x128_80_0 = tbPart 10 := by
  unfold tbPart Rect.part Rect.block
  congr 1 <;> funext a <;> (match a with | 0 => simp [Shape.partIx, Shape.partSize] | 1 => simp [Shape.partIx, Shape.partSize])
omit [FloatOps F] in
theorem sM_10_set : (sM_10).view.set = (tbPart 10).set := by
  show ((View.whole (cc0_scratch4 : Ref sig .scVector)).slice (Rect.unit (s := S128x128) ![80, 0] S8x128.size inb_S128x128_S8x128_80_0)).set = _
  rw [View.set_slice, sM_10_rect]
  exact Finset.map_refl
omit [FloatOps F] in
theorem sM_11_rect : Rect.unit (s := S128x128) ![88, 0] S8x128.size inb_S128x128_S8x128_88_0 = tbPart 11 := by
  unfold tbPart Rect.part Rect.block
  congr 1 <;> funext a <;> (match a with | 0 => simp [Shape.partIx, Shape.partSize] | 1 => simp [Shape.partIx, Shape.partSize])
omit [FloatOps F] in
theorem sM_11_set : (sM_11).view.set = (tbPart 11).set := by
  show ((View.whole (cc0_scratch4 : Ref sig .scVector)).slice (Rect.unit (s := S128x128) ![88, 0] S8x128.size inb_S128x128_S8x128_88_0)).set = _
  rw [View.set_slice, sM_11_rect]
  exact Finset.map_refl
omit [FloatOps F] in
theorem sM_12_rect : Rect.unit (s := S128x128) ![96, 0] S8x128.size inb_S128x128_S8x128_96_0 = tbPart 12 := by
  unfold tbPart Rect.part Rect.block
  congr 1 <;> funext a <;> (match a with | 0 => simp [Shape.partIx, Shape.partSize] | 1 => simp [Shape.partIx, Shape.partSize])
omit [FloatOps F] in
theorem sM_12_set : (sM_12).view.set = (tbPart 12).set := by
  show ((View.whole (cc0_scratch4 : Ref sig .scVector)).slice (Rect.unit (s := S128x128) ![96, 0] S8x128.size inb_S128x128_S8x128_96_0)).set = _
  rw [View.set_slice, sM_12_rect]
  exact Finset.map_refl
omit [FloatOps F] in
theorem sM_13_rect : Rect.unit (s := S128x128) ![104, 0] S8x128.size inb_S128x128_S8x128_104_0 = tbPart 13 := by
  unfold tbPart Rect.part Rect.block
  congr 1 <;> funext a <;> (match a with | 0 => simp [Shape.partIx, Shape.partSize] | 1 => simp [Shape.partIx, Shape.partSize])
omit [FloatOps F] in
theorem sM_13_set : (sM_13).view.set = (tbPart 13).set := by
  show ((View.whole (cc0_scratch4 : Ref sig .scVector)).slice (Rect.unit (s := S128x128) ![104, 0] S8x128.size inb_S128x128_S8x128_104_0)).set = _
  rw [View.set_slice, sM_13_rect]
  exact Finset.map_refl
omit [FloatOps F] in
theorem sM_14_rect : Rect.unit (s := S128x128) ![112, 0] S8x128.size inb_S128x128_S8x128_112_0 = tbPart 14 := by
  unfold tbPart Rect.part Rect.block
  congr 1 <;> funext a <;> (match a with | 0 => simp [Shape.partIx, Shape.partSize] | 1 => simp [Shape.partIx, Shape.partSize])
omit [FloatOps F] in
theorem sM_14_set : (sM_14).view.set = (tbPart 14).set := by
  show ((View.whole (cc0_scratch4 : Ref sig .scVector)).slice (Rect.unit (s := S128x128) ![112, 0] S8x128.size inb_S128x128_S8x128_112_0)).set = _
  rw [View.set_slice, sM_14_rect]
  exact Finset.map_refl
omit [FloatOps F] in
theorem sM_15_rect : Rect.unit (s := S128x128) ![120, 0] S8x128.size inb_S128x128_S8x128_120_0 = tbPart 15 := by
  unfold tbPart Rect.part Rect.block
  congr 1 <;> funext a <;> (match a with | 0 => simp [Shape.partIx, Shape.partSize] | 1 => simp [Shape.partIx, Shape.partSize])
omit [FloatOps F] in
theorem sM_15_set : (sM_15).view.set = (tbPart 15).set := by
  show ((View.whole (cc0_scratch4 : Ref sig .scVector)).slice (Rect.unit (s := S128x128) ![120, 0] S8x128.size inb_S128x128_S8x128_120_0)).set = _
  rw [View.set_slice, sM_15_rect]
  exact Finset.map_refl

omit [FloatOps F] in
theorem sM_0_pts (d : Dev nD) (L : grid0.Coords) (f : Buf (Elt F) ((V d (cV L) (jV L)).loc cc0_scratch4)) :
    (((sM_0).view.loc (V d (cV L) (jV L)) ↦[(sM_0).view.set]{fullShare} f : sProp 𝕄)) = ((V d (cV L) (jV L)).loc cc0_scratch4 ↦[(tbPart 0).set]{fullShare} f) := by
  rw [sM_0_set]
omit [FloatOps F] in
theorem sM_1_pts (d : Dev nD) (L : grid0.Coords) (f : Buf (Elt F) ((V d (cV L) (jV L)).loc cc0_scratch4)) :
    (((sM_1).view.loc (V d (cV L) (jV L)) ↦[(sM_1).view.set]{fullShare} f : sProp 𝕄)) = ((V d (cV L) (jV L)).loc cc0_scratch4 ↦[(tbPart 1).set]{fullShare} f) := by
  rw [sM_1_set]
omit [FloatOps F] in
theorem sM_2_pts (d : Dev nD) (L : grid0.Coords) (f : Buf (Elt F) ((V d (cV L) (jV L)).loc cc0_scratch4)) :
    (((sM_2).view.loc (V d (cV L) (jV L)) ↦[(sM_2).view.set]{fullShare} f : sProp 𝕄)) = ((V d (cV L) (jV L)).loc cc0_scratch4 ↦[(tbPart 2).set]{fullShare} f) := by
  rw [sM_2_set]
omit [FloatOps F] in
theorem sM_3_pts (d : Dev nD) (L : grid0.Coords) (f : Buf (Elt F) ((V d (cV L) (jV L)).loc cc0_scratch4)) :
    (((sM_3).view.loc (V d (cV L) (jV L)) ↦[(sM_3).view.set]{fullShare} f : sProp 𝕄)) = ((V d (cV L) (jV L)).loc cc0_scratch4 ↦[(tbPart 3).set]{fullShare} f) := by
  rw [sM_3_set]
omit [FloatOps F] in
theorem sM_4_pts (d : Dev nD) (L : grid0.Coords) (f : Buf (Elt F) ((V d (cV L) (jV L)).loc cc0_scratch4)) :
    (((sM_4).view.loc (V d (cV L) (jV L)) ↦[(sM_4).view.set]{fullShare} f : sProp 𝕄)) = ((V d (cV L) (jV L)).loc cc0_scratch4 ↦[(tbPart 4).set]{fullShare} f) := by
  rw [sM_4_set]
omit [FloatOps F] in
theorem sM_5_pts (d : Dev nD) (L : grid0.Coords) (f : Buf (Elt F) ((V d (cV L) (jV L)).loc cc0_scratch4)) :
    (((sM_5).view.loc (V d (cV L) (jV L)) ↦[(sM_5).view.set]{fullShare} f : sProp 𝕄)) = ((V d (cV L) (jV L)).loc cc0_scratch4 ↦[(tbPart 5).set]{fullShare} f) := by
  rw [sM_5_set]
omit [FloatOps F] in
theorem sM_6_pts (d : Dev nD) (L : grid0.Coords) (f : Buf (Elt F) ((V d (cV L) (jV L)).loc cc0_scratch4)) :
    (((sM_6).view.loc (V d (cV L) (jV L)) ↦[(sM_6).view.set]{fullShare} f : sProp 𝕄)) = ((V d (cV L) (jV L)).loc cc0_scratch4 ↦[(tbPart 6).set]{fullShare} f) := by
  rw [sM_6_set]
omit [FloatOps F] in
theorem sM_7_pts (d : Dev nD) (L : grid0.Coords) (f : Buf (Elt F) ((V d (cV L) (jV L)).loc cc0_scratch4)) :
    (((sM_7).view.loc (V d (cV L) (jV L)) ↦[(sM_7).view.set]{fullShare} f : sProp 𝕄)) = ((V d (cV L) (jV L)).loc cc0_scratch4 ↦[(tbPart 7).set]{fullShare} f) := by
  rw [sM_7_set]
omit [FloatOps F] in
theorem sM_8_pts (d : Dev nD) (L : grid0.Coords) (f : Buf (Elt F) ((V d (cV L) (jV L)).loc cc0_scratch4)) :
    (((sM_8).view.loc (V d (cV L) (jV L)) ↦[(sM_8).view.set]{fullShare} f : sProp 𝕄)) = ((V d (cV L) (jV L)).loc cc0_scratch4 ↦[(tbPart 8).set]{fullShare} f) := by
  rw [sM_8_set]
omit [FloatOps F] in
theorem sM_9_pts (d : Dev nD) (L : grid0.Coords) (f : Buf (Elt F) ((V d (cV L) (jV L)).loc cc0_scratch4)) :
    (((sM_9).view.loc (V d (cV L) (jV L)) ↦[(sM_9).view.set]{fullShare} f : sProp 𝕄)) = ((V d (cV L) (jV L)).loc cc0_scratch4 ↦[(tbPart 9).set]{fullShare} f) := by
  rw [sM_9_set]
omit [FloatOps F] in
theorem sM_10_pts (d : Dev nD) (L : grid0.Coords) (f : Buf (Elt F) ((V d (cV L) (jV L)).loc cc0_scratch4)) :
    (((sM_10).view.loc (V d (cV L) (jV L)) ↦[(sM_10).view.set]{fullShare} f : sProp 𝕄)) = ((V d (cV L) (jV L)).loc cc0_scratch4 ↦[(tbPart 10).set]{fullShare} f) := by
  rw [sM_10_set]
omit [FloatOps F] in
theorem sM_11_pts (d : Dev nD) (L : grid0.Coords) (f : Buf (Elt F) ((V d (cV L) (jV L)).loc cc0_scratch4)) :
    (((sM_11).view.loc (V d (cV L) (jV L)) ↦[(sM_11).view.set]{fullShare} f : sProp 𝕄)) = ((V d (cV L) (jV L)).loc cc0_scratch4 ↦[(tbPart 11).set]{fullShare} f) := by
  rw [sM_11_set]
omit [FloatOps F] in
theorem sM_12_pts (d : Dev nD) (L : grid0.Coords) (f : Buf (Elt F) ((V d (cV L) (jV L)).loc cc0_scratch4)) :
    (((sM_12).view.loc (V d (cV L) (jV L)) ↦[(sM_12).view.set]{fullShare} f : sProp 𝕄)) = ((V d (cV L) (jV L)).loc cc0_scratch4 ↦[(tbPart 12).set]{fullShare} f) := by
  rw [sM_12_set]
omit [FloatOps F] in
theorem sM_13_pts (d : Dev nD) (L : grid0.Coords) (f : Buf (Elt F) ((V d (cV L) (jV L)).loc cc0_scratch4)) :
    (((sM_13).view.loc (V d (cV L) (jV L)) ↦[(sM_13).view.set]{fullShare} f : sProp 𝕄)) = ((V d (cV L) (jV L)).loc cc0_scratch4 ↦[(tbPart 13).set]{fullShare} f) := by
  rw [sM_13_set]
omit [FloatOps F] in
theorem sM_14_pts (d : Dev nD) (L : grid0.Coords) (f : Buf (Elt F) ((V d (cV L) (jV L)).loc cc0_scratch4)) :
    (((sM_14).view.loc (V d (cV L) (jV L)) ↦[(sM_14).view.set]{fullShare} f : sProp 𝕄)) = ((V d (cV L) (jV L)).loc cc0_scratch4 ↦[(tbPart 14).set]{fullShare} f) := by
  rw [sM_14_set]
omit [FloatOps F] in
theorem sM_15_pts (d : Dev nD) (L : grid0.Coords) (f : Buf (Elt F) ((V d (cV L) (jV L)).loc cc0_scratch4)) :
    (((sM_15).view.loc (V d (cV L) (jV L)) ↦[(sM_15).view.set]{fullShare} f : sProp 𝕄)) = ((V d (cV L) (jV L)).loc cc0_scratch4 ↦[(tbPart 15).set]{fullShare} f) := by
  rw [sM_15_set]

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [SparseCore.bigSep_insert' (by decide)]
  rw [bigSep_singleton]

omit [FloatOps F] in
theorem tb_parts (d : Dev nD) (L : grid0.Coords) (f : Buf (Elt F) ((V d (cV L) (jV L)).loc cc0_scratch4)) :
    (((tb).view.loc (V d (cV L) (jV L)) ↦{fullShare} f : sProp 𝕄))
      = bigSep Finset.univ (fun t : Fin 16 => ((V d (cV L) (jV L)).loc cc0_scratch4 ↦[(tbPart t).set]{fullShare} f : sProp 𝕄)) := by
  rw [← pointsTo_biUnion Finset.univ (ℓ := (V d (cV L) (jV L)).loc cc0_scratch4) (fun t => (tbPart t).set) (fun i _ j _ h => Rect.part_disjoint hdiv16 h),
    Rect.biUnion_part hdiv16]

omit [FloatOps F] in
set_option maxHeartbeats 1600000 in
/-- The scratch held whole is its sixteen blocks, each by exactly its own elements. -/
theorem tb_blocks (d : Dev nD) (L : grid0.Coords) (f : Buf (Elt F) ((V d (cV L) (jV L)).loc cc0_scratch4)) :
    (((tb).view.loc (V d (cV L) (jV L)) ↦{fullShare} f : sProp 𝕄))
      = iprop(((sM_0).view.loc (V d (cV L) (jV L)) ↦[(sM_0).view.set]{fullShare} f)
        ∗ ((sM_1).view.loc (V d (cV L) (jV L)) ↦[(sM_1).view.set]{fullShare} f)
        ∗ ((sM_2).view.loc (V d (cV L) (jV L)) ↦[(sM_2).view.set]{fullShare} f)
        ∗ ((sM_3).view.loc (V d (cV L) (jV L)) ↦[(sM_3).view.set]{fullShare} f)
        ∗ ((sM_4).view.loc (V d (cV L) (jV L)) ↦[(sM_4).view.set]{fullShare} f)
        ∗ ((sM_5).view.loc (V d (cV L) (jV L)) ↦[(sM_5).view.set]{fullShare} f)
        ∗ ((sM_6).view.loc (V d (cV L) (jV L)) ↦[(sM_6).view.set]{fullShare} f)
        ∗ ((sM_7).view.loc (V d (cV L) (jV L)) ↦[(sM_7).view.set]{fullShare} f)
        ∗ ((sM_8).view.loc (V d (cV L) (jV L)) ↦[(sM_8).view.set]{fullShare} f)
        ∗ ((sM_9).view.loc (V d (cV L) (jV L)) ↦[(sM_9).view.set]{fullShare} f)
        ∗ ((sM_10).view.loc (V d (cV L) (jV L)) ↦[(sM_10).view.set]{fullShare} f)
        ∗ ((sM_11).view.loc (V d (cV L) (jV L)) ↦[(sM_11).view.set]{fullShare} f)
        ∗ ((sM_12).view.loc (V d (cV L) (jV L)) ↦[(sM_12).view.set]{fullShare} f)
        ∗ ((sM_13).view.loc (V d (cV L) (jV L)) ↦[(sM_13).view.set]{fullShare} f)
        ∗ ((sM_14).view.loc (V d (cV L) (jV L)) ↦[(sM_14).view.set]{fullShare} f)
        ∗ ((sM_15).view.loc (V d (cV L) (jV L)) ↦[(sM_15).view.set]{fullShare} f)) := by
  rw [tb_parts, bigSep_fin16, sM_0_pts, sM_1_pts, sM_2_pts, sM_3_pts, sM_4_pts, sM_5_pts, sM_6_pts, sM_7_pts, sM_8_pts, sM_9_pts, sM_10_pts, sM_11_pts, sM_12_pts, sM_13_pts, sM_14_pts, sM_15_pts]

def invIn0 (d : Dev nD) (L : grid0.Coords) (_ : Nat) (_ : PUnit) : sProp 𝕄 :=
  iprop((∃ G, ((r0).view.loc (V d (cV L) (jV L)) ↦{fullShare} G)) ∗ ∃ f, ((tb).view.loc (V d (cV L) (jV L)) ↦{fullShare} f))
def invIn1 (d : Dev nD) (L : grid0.Coords) (_ : Nat) (_ : PUnit) : sProp 𝕄 :=
  iprop((∃ G, ((r1).view.loc (V d (cV L) (jV L)) ↦{fullShare} G)) ∗ ∃ f, ((tb).view.loc (V d (cV L) (jV L)) ↦{fullShare} f))

end Cert.Proof.KB
end
-- ==== Proof.KLaunchB.lean ====
/-
  The launch of the one SparseCore call.

  The call runs on two SparseCores of sixteen tiles each: thirty-two workers, worker 2 i + c being tile i of
  SparseCore c, each writing its own 512 batch columns of the result [50, 64, 16384] (the last axis cut in
  thirty-two equal parts). The TensorCore holds the flattened index list and the padded table whole; it hands
  each SparseCore a read share of both (the full share cut in two tokens, the remainder kept) and that
  SparseCore's sixteen column blocks of the result; a SparseCore cuts its shares once more into sixteen tokens,
  one per tile, and hands each tile its own block. A tile returns its tokens and its block, now holding on those
  columns what the call is specified to compute; the blocks are disjoint and cover the array, so joined they are
  the whole result at the specified function, and the tokens rejoin to the whole index list and table.

  Around the call the TensorCore runs the program's host operations: before it the transpose and flattening of
  the index array and the padding of the table, after it the transpose of the result. Its buffers are all held
  whole throughout, so each stretch of host operations is the fold of the operations over the held valuation.
-/
import proofs.«206429_g47863115546636_cont_8to1c4_619_32_alg».proof.Proof.KDefsB
import proofs.«206429_g47863115546636_cont_8to1c4_619_32_alg».proof.Proof.KPre

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch's facts -/

/-- The four launch semaphores are distinct where they must be and unscoped, no SparseCore buffer is reassigned per
    task, and the call has one body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable [FloatOps F]

section Split
variable (Xv : (d : Dev nD) → Buf (Elt F) (xLoc d)) (Tv : (d : Dev nD) → Buf (Elt F) (tLoc d)) (fo : (d : Dev nD) → Buf (Elt F) (oLoc d))

/-! ## A SparseCore's operands among its sixteen tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's read share of the index list and of the table is cut into sixteen tokens, one per tile, the
    remainder kept and put back when the tiles' tokens return; its sixteen column blocks of the result go one to
    each tile and come back with what the tile wrote. -/
theorem vecSplit : (K (F := F)).VecSplit' (P Xv Tv fo) 0 := by
  intro d c
  show iprop((xLoc d ↦{qC (Fin.cast nCore_zero c)} Xv d) ∗ (tLoc d ↦{qC (Fin.cast nCore_zero c)} Tv d)
        ∗ bigSep Finset.univ fun i : Fin 16 => (oLoc d ↦[colsSet (widOf (Fin.cast nCore_zero c) i)]{fullShare} fo d : sProp 𝕄))
      ⊢ |={Set.univ}=> iprop(
        (bigSep Finset.univ fun i : Fin ((K (F := F)).nSub 0) =>
          iprop((xLoc d ↦{qT (Fin.cast nCore_zero c) (Fin.cast nSub_zero i)} Xv d) ∗ (tLoc d ↦{qT (Fin.cast nCore_zero c) (Fin.cast nSub_zero i)} Tv d)
            ∗ (oLoc d ↦[colsSet (widOf (Fin.cast nCore_zero c) (Fin.cast nSub_zero i))]{fullShare} fo d)))
        ∗ ((bigSep Finset.univ fun i : Fin ((K (F := F)).nSub 0) =>
            iprop((xLoc d ↦{qT (Fin.cast nCore_zero c) (Fin.cast nSub_zero i)} Xv d) ∗ (tLoc d ↦{qT (Fin.cast nCore_zero c) (Fin.cast nSub_zero i)} Tv d)
              ∗ ∃ f, ⌜OutOK d (Xv d) (Tv d) (widOf (Fin.cast nCore_zero c) (Fin.cast nSub_zero i)) f⌝
                ∗ oLoc d ↦[colsSet (widOf (Fin.cast nCore_zero c) (Fin.cast nSub_zero i))]{fullShare} f))
          -∗ iprop((xLoc d ↦{qC (Fin.cast nCore_zero c)} Xv d) ∗ (tLoc d ↦{qC (Fin.cast nCore_zero c)} Tv d)
            ∗ bigSep Finset.univ fun i : Fin 16 => (iprop(∃ f, ⌜OutOK d (Xv d) (Tv d) (widOf (Fin.cast nCore_zero c) i) f⌝
                ∗ oLoc d ↦[colsSet (widOf (Fin.cast nCore_zero c) i)]{fullShare} f) : sProp 𝕄))))
  generalize Fin.cast nCore_zero c = c'
  rw [bigSep_tasks (F := F) (fun i => iprop((xLoc d ↦{qT c' i} Xv d) ∗ (tLoc d ↦{qT c' i} Tv d) ∗ (oLoc d ↦[colsSet (widOf c' i)]{fullShare} fo d))),
    bigSep_tasks (F := F) (fun i => iprop((xLoc d ↦{qT c' i} Xv d) ∗ (tLoc d ↦{qT c' i} Tv d)
      ∗ ∃ f, ⌜OutOK d (Xv d) (Tv d) (widOf c' i) f⌝ ∗ oLoc d ↦[colsSet (widOf c' i)]{fullShare} f)),
    bigSep_sep', bigSep_sep', bigSep_sep', bigSep_sep']
  iintro ⟨HX, HT, HO⟩
  ihave HX' := (Transfers.pointsTo_toks_split (qC c') 16) $$ HX
  icases HX' with ⟨HXd, HXs⟩
  ihave HT' := (Transfers.pointsTo_toks_split (qC c') 16) $$ HT
  icases HT' with ⟨HTd, HTs⟩
  imodintro
  isplitl [HXs HTs HO]
  · isplitl [HXs]; · iexact HXs
    isplitl [HTs]; · iexact HTs
    iexact HO
  iintro ⟨HXs, HTs, HO⟩
  isplitl [HXd HXs]
  · iapply (Transfers.pointsTo_toks_join (qC c') 16)
    isplitl [HXd]; · iexact HXd
    iexact HXs
  isplitl [HTd HTs]
  · iapply (Transfers.pointsTo_toks_join (qC c') 16)
    isplitl [HTd]; · iexact HTd
    iexact HTs
  iexact HO

/-! ## The launch element: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Xv Tv fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Split

/-! ## @main on the TensorCore -/

section Main
variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v4

/-- What the call is handed: the flattened index list and the padded table computed from the launch contents of the
    two arguments, and the result array as the launch left it. -/
def Xv (d : Dev nD) : Buf (Elt F) (xLoc d) := Cert.Proof.KHostB.Xflat (m (a0Loc d))
def Tv (d : Dev nD) : Buf (Elt F) (tLoc d) := Cert.Proof.KHostB.Tpad (m (a1Loc d))
def fo (d : Dev nD) : Buf (Elt F) (oLoc d) := m (oLoc d)

/-! ### The TensorCore's nine arrays, held whole -/

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev x' : DevRef τ sig := Proc.devRef .tc (main_v1 : Ref sig .tc)
abbrev c0' : DevRef τ sig := Proc.devRef .tc (main_c : Ref sig .tc)
abbrev p0' : DevRef τ sig := Proc.devRef .tc (main_call0_v0 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev S9 : Finset (DevRef τ sig) := {a0', a1', w0', x', c0', p0', t', o', r'}

omit [FloatOps F] in
theorem held_S9 (d : Dev nD) (W : Valuation τ sig (Elt F)) :
    (held (T d) S9 W : sProp 𝕄) = iprop((a0Loc d ↦{fullShare} W a0') ∗ (a1Loc d ↦{fullShare} W a1')
      ∗ ((SparseCore.T d).loc main_v0 ↦{fullShare} W w0') ∗ (xLoc d ↦{fullShare} W x') ∗ ((SparseCore.T d).loc main_c ↦{fullShare} W c0')
      ∗ ((SparseCore.T d).loc main_call0_v0 ↦{fullShare} W p0') ∗ (tLoc d ↦{fullShare} W t') ∗ (oLoc d ↦{fullShare} W o')
      ∗ (rLoc d ↦{fullShare} W r')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ ((SparseCore.T d).loc main_v0 ↦{fullShare} W main_v0) ∗ (xLoc d ↦{fullShare} W main_v1) ∗ ((SparseCore.T d).loc main_c ↦{fullShare} W main_c)
      ∗ ((SparseCore.T d).loc main_call0_v0 ↦{fullShare} W main_call0_v0) ∗ (tLoc d ↦{fullShare} W main_v2) ∗ (oLoc d ↦{fullShare} W main_v3)
      ∗ (rLoc d ↦{fullShare} W main_v4)) := by
  unfold unscopedBufs
  rw [show (Finset.univ.filter fun b : Ref sig .tc => ¬ b.isScoped)
      = {main_arg0, main_arg1, main_v0, main_v1, main_c, main_call0_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S9 (V0 m d) := by
  rw [unscopedBufs_eq, held_S9]; rfl

/-! ### The program as two stretches of host operations around the call -/

/-- The five host operations before the call: the transpose and flattening of the index array, the constant 0, and
    the padding function's conversion and pad. -/
abbrev pre : List (HloOp τ sig (Elt F)) :=
  [ StableHlo.unary main_arg0 main_v0 ((transpose S50x16384 [1, 0] · transposes_S16384x50_S50x16384_1_0) : (⟨S16384x50, .i32⟩ : BufTy).Contents (Elt F) → (⟨S50x16384, .i32⟩ : BufTy).Contents (Elt F)),
    StableHlo.reshape main_v0 main_v1 rfl shapeCasts_S50x16384_S819200,
    StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1000000x64, .f32⟩) main_call0.v0 main_call0.v1
      (fun x v => pad S1000000x128 ![0, 0] ![0, 64] ![0, 0] x v pads_S1000000x64_S1000000x128_000_0640 h_S_) ]

/-- The one host operation after the call: the transpose of its result. -/
abbrev opOut : HloOp τ sig (Elt F) :=
  StableHlo.unary main_v3 main_v4 ((transpose S16384x50x64 [2, 0, 1] · transposes_S50x64x16384_S16384x50x64_2_0_1) : (⟨S50x64x16384, .f32⟩ : BufTy).Contents (Elt F) → (⟨S16384x50x64, .f32⟩ : BufTy).Contents (Elt F))

set_option maxRecDepth 1024 in
theorem main_eq (d : Dev nD) :
    main (F := F) d = (StableHlo.seq pre >>= fun _ => (K (F := F)).run d 0 >>= fun _ => StableHlo.seq [opOut] >>= fun _ => pure ⟨⟩) := by
  simp only [main, fn_pad.body, StableHlo.seq, bind_assoc, pure_bind]

theorem hpre_sub : ∀ op ∈ (pre : List (HloOp τ sig (Elt F))), op.bufs ⊆ S9 := by
  intro op h
  simp only [List.mem_cons, List.not_mem_nil, or_false] at h
  rcases h with rfl | rfl | rfl | rfl | rfl
  · rw [StableHlo.unary_bufs]; decide
  · rw [StableHlo.reshape_bufs]; decide
  · rw [StableHlo.nullary_bufs]; decide
  · rw [StableHlo.unary_bufs]; decide
  · rw [StableHlo.binary_bufs]; decide
theorem hpre_fresh : ∀ op ∈ (pre : List (HloOp τ sig (Elt F))), op.fresh = ∅ := by
  intro op h
  simp only [List.mem_cons, List.not_mem_nil, or_false] at h
  rcases h with rfl | rfl | rfl | rfl | rfl <;> rfl
theorem hout_sub : ∀ op ∈ ([opOut] : List (HloOp τ sig (Elt F))), op.bufs ⊆ S9 := by
  intro op h
  rw [List.mem_singleton] at h
  subst h
  rw [StableHlo.unary_bufs]; decide
theorem hout_fresh : ∀ op ∈ ([opOut] : List (HloOp τ sig (Elt F))), op.fresh = ∅ := by
  intro op h
  rw [List.mem_singleton] at h
  subst h; rfl

/-- A typed reference's two transports cancel. -/
theorem tref_ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-! The fold of the first stretch at the buffers that matter: the index list and the padded table are the pure
    functions of the arguments, the arguments and the result array are untouched. -/
theorem pre_x (W : Valuation τ sig (Elt F)) : StableHlo.after pre W x' = Cert.Proof.KHostB.Xflat (W a0') := by
  after_results; rfl
theorem pre_t (W : Valuation τ sig (Elt F)) : StableHlo.after pre W t' = Cert.Proof.KHostB.Tpad (W a1') := by
  unfold Cert.Proof.KHostB.Tpad; after_results; simp only [tref_ofBuf_toBuf]; first | done | rfl
theorem pre_a0 (W : Valuation τ sig (Elt F)) : StableHlo.after pre W a0' = W a0' := by
  after_results; first | done | rfl
theorem pre_a1 (W : Valuation τ sig (Elt F)) : StableHlo.after pre W a1' = W a1' := by
  after_results; first | done | rfl
theorem pre_o (W : Valuation τ sig (Elt F)) : StableHlo.after pre W o' = W o' := by
  after_results; first | done | rfl

/-! ### The result array as thirty-two column blocks, two SparseCores of sixteen -/

omit [FloatOps F] in
theorem cols_disjoint : ∀ w ∈ (Finset.univ : Finset (Fin 32)), ∀ w' ∈ (Finset.univ : Finset (Fin 32)), w ≠ w' → Disjoint (colsSet w) (colsSet w') :=
  fun _ _ _ _ h => Rect.part_disjoint hdiv32 h
omit [FloatOps F] in
theorem cols_cover : (Finset.univ : Finset (Fin 32)).biUnion colsSet = Finset.univ := Rect.biUnion_part hdiv32

omit [FloatOps F] in
theorem oPts_cols (d : Dev nD) (f : Buf (Elt F) (oLoc d)) :
    (oLoc d ↦{fullShare} f : sProp 𝕄) = bigSep Finset.univ fun w : Fin 32 => oLoc d ↦[colsSet w]{fullShare} f := by
  rw [← pointsTo_biUnion Finset.univ (ℓ := oLoc d) colsSet cols_disjoint, cols_cover]

omit [FloatOps F] in
/-- Worker 2 i + c is tile i of SparseCore c: the thirty-two workers are the two SparseCores' sixteen tiles. -/
theorem regroup (Φ : Fin 32 → sProp 𝕄) :
    bigSep Finset.univ Φ = bigSep Finset.univ fun c : Fin 2 => bigSep Finset.univ fun i : Fin 16 => Φ (widOf c i) := by
  have himg : ((Finset.univ : Finset (Fin 2)) ×ˢ (Finset.univ : Finset (Fin 16))).image (fun p => widOf p.1 p.2) = Finset.univ := by decide
  have hinj : Function.Injective (fun p : Fin 2 × Fin 16 => widOf p.1 p.2) := by decide
  rw [← himg, Idealize.ShloMosaic.SparseCore.bigSep_image_of_injOn hinj.injOn, Idealize.ShloMosaic.SparseCore.bigSep_product]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Call
variable (Xw : (d : Dev nD) → Buf (Elt F) (xLoc d)) (Tw : (d : Dev nD) → Buf (Elt F) (tLoc d)) (fw : (d : Dev nD) → Buf (Elt F) (oLoc d))

/-- What the call takes for the two SparseCores. -/
theorem st0_eq (d : Dev nD) : (bigSep Finset.univ fun c : Fin ((K (F := F)).nCore 0) => (P Xw Tw fw).st 0 d c)
    = iprop((bigSep Finset.univ fun c : Fin 2 => (xLoc d ↦{qC c} Xw d : sProp 𝕄)) ∗ (bigSep Finset.univ fun c : Fin 2 => (tLoc d ↦{qC c} Tw d : sProp 𝕄))
        ∗ bigSep Finset.univ fun c : Fin 2 => bigSep Finset.univ fun i : Fin 16 => (oLoc d ↦[colsSet (widOf c i)]{fullShare} fw d : sProp 𝕄)) := by
  show (bigSep Finset.univ fun c : Fin ((K (F := F)).nCore 0) =>
      iprop((xLoc d ↦{qC (Fin.cast nCore_zero c)} Xw d) ∗ (tLoc d ↦{qC (Fin.cast nCore_zero c)} Tw d)
        ∗ bigSep Finset.univ fun i : Fin 16 => (oLoc d ↦[colsSet (widOf (Fin.cast nCore_zero c) i)]{fullShare} fw d : sProp 𝕄))) = _
  rw [bigSep_cores (F := F) (fun c' => iprop((xLoc d ↦{qC c'} Xw d) ∗ (tLoc d ↦{qC c'} Tw d)
        ∗ bigSep Finset.univ fun i : Fin 16 => (oLoc d ↦[colsSet (widOf c' i)]{fullShare} fw d : sProp 𝕄))), bigSep_sep', bigSep_sep']

/-- What it hands back. -/
theorem dn0_eq (d : Dev nD) : (bigSep Finset.univ fun c : Fin ((K (F := F)).nCore 0) => (P Xw Tw fw).dn 0 d c)
    = iprop((bigSep Finset.univ fun c : Fin 2 => (xLoc d ↦{qC c} Xw d : sProp 𝕄)) ∗ (bigSep Finset.univ fun c : Fin 2 => (tLoc d ↦{qC c} Tw d : sProp 𝕄))
        ∗ bigSep Finset.univ fun c : Fin 2 => bigSep Finset.univ fun i : Fin 16 =>
            (iprop(∃ f, ⌜OutOK d (Xw d) (Tw d) (widOf c i) f⌝ ∗ oLoc d ↦[colsSet (widOf c i)]{fullShare} f) : sProp 𝕄)) := by
  show (bigSep Finset.univ fun c : Fin ((K (F := F)).nCore 0) =>
      iprop((xLoc d ↦{qC (Fin.cast nCore_zero c)} Xw d) ∗ (tLoc d ↦{qC (Fin.cast nCore_zero c)} Tw d)
        ∗ bigSep Finset.univ fun i : Fin 16 => (iprop(∃ f, ⌜OutOK d (Xw d) (Tw d) (widOf (Fin.cast nCore_zero c) i) f⌝
            ∗ oLoc d ↦[colsSet (widOf (Fin.cast nCore_zero c) i)]{fullShare} f) : sProp 𝕄))) = _
  rw [bigSep_cores (F := F) (fun c' => iprop((xLoc d ↦{qC c'} Xw d) ∗ (tLoc d ↦{qC c'} Tw d)
        ∗ bigSep Finset.univ fun i : Fin 16 => (iprop(∃ f, ⌜OutOK d (Xw d) (Tw d) (widOf c' i) f⌝
            ∗ oLoc d ↦[colsSet (widOf c' i)]{fullShare} f) : sProp 𝕄))), bigSep_sep', bigSep_sep']

/-- The thirty-two returned blocks, each right on its own columns, are the whole array at the specified function:
    the blocks are disjoint and cover, so one function agrees with each on its block, and that function is the
    specified one at every index. -/
theorem oCols_join (d : Dev nD) :
    (bigSep Finset.univ fun w : Fin 32 => (iprop(∃ f, ⌜OutOK d (Xw d) (Tw d) w f⌝ ∗ oLoc d ↦[colsSet w]{fullShare} f) : sProp 𝕄))
      ⊢ (oLoc d ↦{fullShare} Cert.Proof.KHostB.OutSpec (Xw d) (Tw d) : sProp 𝕄) := by
  refine (bigSep_exists_pi Finset.univ (fun w (f : Buf (Elt F) (oLoc d)) => iprop(⌜OutOK d (Xw d) (Tw d) w f⌝ ∗ oLoc d ↦[colsSet w]{fullShare} f))).trans ?_
  iintro ⟨%fs, H⟩
  ihave H2 := (bigSep_pure_sep Finset.univ (fun w => OutOK d (Xw d) (Tw d) w (fs w)) (fun w => (oLoc d ↦[colsSet w]{fullShare} fs w : sProp 𝕄))) $$ H
  icases H2 with ⟨%hOK, H3⟩
  ihave H' := (pointsTo_biUnion_join Finset.univ colsSet fs (fs 0) cols_disjoint) $$ H3
  icases H' with ⟨%g, %hg, Hg⟩
  rw [cols_cover]
  have e : g = Cert.Proof.KHostB.OutSpec (Xw d) (Tw d) := funext fun p => by
    obtain ⟨w, -, hw⟩ := Finset.mem_biUnion.mp (cols_cover ▸ Finset.mem_univ p)
    rw [hg w (Finset.mem_univ _) p hw]
    exact hOK w (Finset.mem_univ _) p hw
  subst e
  iexact Hg

end Call

/-! ### The held arrays after each stretch -/

/-- After the first stretch: the arguments and the result array as launched, the index list and the padded table
    the pure functions of the arguments (the three other buffers at whatever the fold gives). -/
theorem held_pre (d : Dev nD) : (held (T d) S9 (StableHlo.after pre (V0 m d)) : sProp 𝕄)
    = iprop((a0Loc d ↦{fullShare} m (a0Loc d)) ∗ (a1Loc d ↦{fullShare} m (a1Loc d))
      ∗ ((SparseCore.T d).loc main_v0 ↦{fullShare} StableHlo.after pre (V0 m d) w0') ∗ (xLoc d ↦{fullShare} Xv m d)
      ∗ ((SparseCore.T d).loc main_c ↦{fullShare} StableHlo.after pre (V0 m d) c0')
      ∗ ((SparseCore.T d).loc main_call0_v0 ↦{fullShare} StableHlo.after pre (V0 m d) p0') ∗ (tLoc d ↦{fullShare} Tv m d)
      ∗ (oLoc d ↦{fullShare} fo m d) ∗ (rLoc d ↦{fullShare} StableHlo.after pre (V0 m d) r')) := by
  rw [held_S9, pre_a0, pre_a1, pre_x, pre_t, pre_o]
  rfl

/-- The valuation after the call: as after the first stretch, the result array at the specified function. -/
def V2 (d : Dev nD) : Valuation τ sig (Elt F) :=
  Function.update (StableHlo.after pre (V0 m d)) o' (Cert.Proof.KHostB.OutSpec (Xv m d) (Tv m d))

theorem held_V2 (d : Dev nD) : (held (T d) S9 (V2 m d) : sProp 𝕄)
    = iprop((a0Loc d ↦{fullShare} m (a0Loc d)) ∗ (a1Loc d ↦{fullShare} m (a1Loc d))
      ∗ ((SparseCore.T d).loc main_v0 ↦{fullShare} StableHlo.after pre (V0 m d) w0') ∗ (xLoc d ↦{fullShare} Xv m d)
      ∗ ((SparseCore.T d).loc main_c ↦{fullShare} StableHlo.after pre (V0 m d) c0')
      ∗ ((SparseCore.T d).loc main_call0_v0 ↦{fullShare} StableHlo.after pre (V0 m d) p0') ∗ (tLoc d ↦{fullShare} Tv m d)
      ∗ (oLoc d ↦{fullShare} Cert.Proof.KHostB.OutSpec (Xv m d) (Tv m d)) ∗ (rLoc d ↦{fullShare} StableHlo.after pre (V0 m d) r')) := by
  unfold V2
  rw [held_S9, Function.update_self, Function.update_of_ne (show a0' ≠ o' by decide), Function.update_of_ne (show a1' ≠ o' by decide),
    Function.update_of_ne (show w0' ≠ o' by decide), Function.update_of_ne (show x' ≠ o' by decide),
    Function.update_of_ne (show c0' ≠ o' by decide), Function.update_of_ne (show p0' ≠ o' by decide),
    Function.update_of_ne (show t' ≠ o' by decide), Function.update_of_ne (show r' ≠ o' by decide),
    pre_a0, pre_a1, pre_x, pre_t]
  rfl

theorem out_a0 (W : Valuation τ sig (Elt F)) : StableHlo.after [opOut] W a0' = W a0' := by
  after_results; first | done | rfl
theorem out_a1 (W : Valuation τ sig (Elt F)) : StableHlo.after [opOut] W a1' = W a1' := by
  after_results; first | done | rfl
theorem out_r (W : Valuation τ sig (Elt F)) : StableHlo.after [opOut] W r' = Cert.Proof.KHostB.OutT (W o') := by
  after_results; first | done | rfl

/-- What @main leaves the claim: the two arguments at their launch contents, and the program's result at the
    transpose of the specified call result. -/
abbrev FIN (d : Dev nD) : sProp 𝕄 :=
  iprop((a0Loc d ↦{fullShare} m (a0Loc d)) ∗ (a1Loc d ↦{fullShare} m (a1Loc d))
    ∗ (rLoc d ↦{fullShare} Cert.Proof.KHostB.OutT (Cert.Proof.KHostB.OutSpec (Xv m d) (Tv m d))))

/-- After the last stretch the three buffers of the claim are where the claim wants them. -/
theorem held_out (d : Dev nD) : (held (T d) S9 (StableHlo.after [opOut] (V2 m d)) : sProp 𝕄)
    ⊢ iprop((a0Loc d ↦{fullShare} m (a0Loc d)) ∗ (a1Loc d ↦{fullShare} m (a1Loc d))
      ∗ (rLoc d ↦{fullShare} Cert.Proof.KHostB.OutT (Cert.Proof.KHostB.OutSpec (Xv m d) (Tv m d)))) := by
  rw [held_S9, out_a0, out_a1, out_r]
  unfold V2
  rw [Function.update_self, Function.update_of_ne (show a0' ≠ o' by decide), Function.update_of_ne (show a1' ≠ o' by decide),
    pre_a0, pre_a1]
  iintro ⟨Ha0, Ha1, -, -, -, -, -, -, Hr⟩
  isplitl [Ha0]; · iexact Ha0
  isplitl [Ha1]; · iexact Ha1
  iexact Hr

/-! ### @main -/

/-- @main on device d's TensorCore: the first stretch of host operations; the call, from shares of the index list
    and the table and the result array's column blocks, back with the result at the specified function; the last
    transpose. The arguments are kept. -/
theorem hmain (κ : GSem nD τ sig → ℕ) (d : Dev nD) :
    iprop((K (F := F)).ctx EH (P (Xv m) (Tv m) (fo m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S9 _ pre hpre_sub hpre_fresh (V0 m d)) $$ [Hb Hheld]
  · isplitl [Hb]; · iexact Hb
    iexact Hheld
  iintro ⟨Hb, Hheld⟩
  ihave Hh := (Entails.of_eq (held_pre m d)) $$ Hheld
  icases Hh with ⟨Ha0, Ha1, Hw0, Hx, Hc, Hp0, Ht, Ho, Hr⟩
  ihave Hx' := (Transfers.pointsTo_toks_split fullShare 2) $$ Hx
  icases Hx' with ⟨Hxd, Hxs⟩
  ihave Ht' := (Transfers.pointsTo_toks_split fullShare 2) $$ Ht
  icases Ht' with ⟨Htd, Hts⟩
  ihave Ho' := (Entails.of_eq ((oPts_cols d (fo m d)).trans (regroup _))) $$ Ho
  rw [wp_bind]
  iapply ((K (F := F)).wp_run (D (F := F)) 𝒱 (EH := EH) (P := P (Xv m) (Tv m) (fo m)) κ d 0) $$ [Hst Hxs Hts Ho' Hb Ha0 Ha1 Hw0 Hc Hp0 Hr Hxd Htd]
  isplitr; · iexact Hctx
  isplitl [Hst]; · iexact Hst
  isplitl [Hxs Hts Ho']
  · rw [st0_eq]
    isplitl [Hxs]; · iexact Hxs
    isplitl [Hts]; · iexact Hts
    iexact Ho'
  iintro ⟨Hst, Hdn⟩
  ihave Hdn' := (Entails.of_eq (dn0_eq (Xv m) (Tv m) (fo m) d)) $$ Hdn
  icases Hdn' with ⟨Hxs, Hts, Hos⟩
  ihave Hx := (Transfers.pointsTo_toks_join fullShare 2) $$ [Hxd Hxs]
  · isplitl [Hxd]; · iexact Hxd
    iexact Hxs
  ihave Ht := (Transfers.pointsTo_toks_join fullShare 2) $$ [Htd Hts]
  · isplitl [Htd]; · iexact Htd
    iexact Hts
  ihave Hos' := (Entails.of_eq (regroup (fun w => (iprop(∃ f, ⌜OutOK d (Xv m d) (Tv m d) w f⌝ ∗ oLoc d ↦[colsSet w]{fullShare} f) : sProp 𝕄))).symm) $$ Hos
  ihave Ho := (oCols_join (Xv m) (Tv m) d) $$ Hos'
  ihave Hheld := (Entails.of_eq (held_V2 m d).symm) $$ [Ha0 Ha1 Hw0 Hx Hc Hp0 Ht Ho Hr]
  · isplitl [Ha0]; · iexact Ha0
    isplitl [Ha1]; · iexact Ha1
    isplitl [Hw0]; · iexact Hw0
    isplitl [Hx]; · iexact Hx
    isplitl [Hc]; · iexact Hc
    isplitl [Hp0]; · iexact Hp0
    isplitl [Ht]; · iexact Ht
    isplitl [Ho]; · iexact Ho
    iexact Hr
  iapply (StableHlo.wp_seq 𝒱 none Set.univ d S9 _ [opOut] hout_sub hout_fresh (V2 m d)) $$ [Hb Hheld]
  · isplitl [Hb]; · iexact Hb
    iexact Hheld
  iintro ⟨Hb, Hheld⟩
  ihave Hfin := (held_out m d) $$ Hheld
  rw [wp_pure]
  imodintro
  isplitl [Hst]; · iexact Hst
  iexact Hfin

/-! ## What the final memory says -/

def fq (d : Dev nD) (s' : Phys nD τ sig (Elt F)) : Prop :=
  s'.mem.mem (a0Loc d) = m (a0Loc d) ∧ s'.mem.mem (a1Loc d) = m (a1Loc d)
    ∧ s'.mem.mem (rLoc d) = Cert.Proof.KHostB.OutT (Cert.Proof.KHostB.OutSpec (Xv m d) (Tv m d))

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare)
      (f := Cert.Proof.KHostB.OutT (Cert.Proof.KHostB.OutSpec (Xv m d) (Tv m d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Given the tiles' obligation: every weakly fair execution of the program terminates with the result at the
    transpose of the specified call result over the flattened index list and the padded table, the arguments unchanged. -/
theorem run_main [∀ e, Nonempty (Elt F e)]
    (hX : ∀ d j, (Cert.Proof.KHostB.Xflat (m ((SparseCore.T d).loc main_arg0)) j).toNat < 1000000)
    (htile : (K (F := F)).TileObl (D (F := F)) 𝒱 (P (Xv m) (Tv m) (fo m)) v₀ 0) :
    θ_run (defs (F := F)) (threads (F := F)) ⟨m, fun _ => 0, ρ⟩ (fun r => ∀ c : Dev nD,
      r.2.mem ((c.tc : Thread nD τ).loc main_v4)
        = Cert.Proof.KHostB.OutT (Cert.Proof.KHostB.OutSpec (Cert.Proof.KHostB.Xflat (m ((c.tc : Thread nD τ).loc main_arg0)))
            (Cert.Proof.KHostB.Tpad (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P (Xv m) (Tv m) (fo m)) facts v₀
    (fun q hq => match q with | 0 => nomatch hq)
    (fun q _ => match q with | 0 => htile)
    (fun q _ => match q with | 0 => SparseCore.Cfg.VecSplit.of_plain (vecSplit (Xv m) (Tv m) (fo m)))
    m ρ main (fun _ => iprop(emp)) (FIN m) (u₀ (F := F)) (sep_elim_left.trans (hu₀ (Xv m) (Tv m) (fo m))) (hmain m ρ) (fq m) (hfin m) _
    (fun _ h c => ⟨(h c).2.2, (h c).1, (h c).2.1⟩)

/-! ## The frame, for any float values -/

/-- The precondition bounds every word of the flattened index list: its index half does not look at the floats. -/
theorem hX_of_pre_gen
    (hpre : ∀ c : Dev nD, Cert.Pre_input_domain.fn (F := F) (m ((c.tc : Thread nD τ).loc main_arg0)) (m ((c.tc : Thread nD τ).loc main_arg1)) = (fun _ => 1#1)) :
    ∀ d j, (Cert.Proof.KHostB.Xflat (m ((SparseCore.T d).loc main_arg0)) j).toNat < 1000000 :=
  fun d => Cert.Proof.KHostB.Xflat_bound _ (Cert.Proof.KPre.pre_idx_gen _ _ (hpre d))

/-- Under the precondition, given the tiles' obligation (which may use the index bound): the program runs and its
    arguments end unchanged. -/
theorem frame_gen [∀ e, Nonempty (Elt F e)]
    (hpre : ∀ c : Dev nD, Cert.Pre_input_domain.fn (F := F) (m ((c.tc : Thread nD τ).loc main_arg0)) (m ((c.tc : Thread nD τ).loc main_arg1)) = (fun _ => 1#1))
    (htile : (∀ d j, (Cert.Proof.KHostB.Xflat (m ((SparseCore.T d).loc main_arg0)) j).toNat < 1000000) →
      (K (F := F)).TileObl (D (F := F)) 𝒱 (P (Xv m) (Tv m) (fo m)) v₀ 0) :
    θ_run (defs (F := F)) (threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2)
    (run_main m ρ (hX_of_pre_gen m hpre) (htile (hX_of_pre_gen m hpre)))

end Main

end Cert.Proof.KB
end
-- ==== Proof.KWordsB.lean ====
/-
  The constant index words of the transposition loops, named, with their pointwise closed forms.
  With l the lane (0 ≤ l < 16): W3 is the lane number, W37 is l + 8, the sixteen words
  W7, W11, …, W67 are e_k(l) = (l + k) mod 16 for k = 0..15, and the sixteen words W70, W73, …, W115
  are e_k(l) + (e_k(l) AND 8), that is e_k(l) + 8 when e_k(l) ≥ 8 and e_k(l) otherwise.
-/
import proofs.«206429_g47863115546636_cont_8to1c4_619_32_alg».proof.Proof.Gen.Kernel.Skeleton
import Idealize.ShloMosaic.Lib.ValueIdx

noncomputable section

namespace Cert.Proof.KWB

open Idealize.ShloMosaic Idealize.SL.Sem Idealize.ShloMosaic.ValueIdx
open Cert.Kernel Cert.Kernel.Gen

/-- A statement about every lane index follows from the statement at each of the sixteen lanes. -/
theorem forall_lane {P : S16.Idx → Prop} (h : ∀ k : Fin 16, P (ix1 k)) : ∀ x, P x :=
  fun x => (eq_ix1 x) ▸ h (x 0)

/-- The lane number. -/
def W3 : IVec S16 32 := iota .scVector S16 32 [0] Gen.iota_S16_d0_w32_scVector

/-- e_0: lane l holds (l + 0) mod 16. -/
def W7 : IVec S16 32 := k0_pay397
/-- e_1: lane l holds (l + 1) mod 16. -/
def W11 : IVec S16 32 := k0_pay398
/-- e_2: lane l holds (l + 2) mod 16. -/
def W15 : IVec S16 32 := k0_pay399
/-- e_3: lane l holds (l + 3) mod 16. -/
def W19 : IVec S16 32 := k0_pay400
/-- e_4: lane l holds (l + 4) mod 16. -/
def W23 : IVec S16 32 := k0_pay401
/-- e_5: lane l holds (l + 5) mod 16. -/
def W27 : IVec S16 32 := k0_pay402
/-- e_6: lane l holds (l + 6) mod 16. -/
def W31 : IVec S16 32 := k0_pay403
/-- e_7: lane l holds (l + 7) mod 16. -/
def W35 : IVec S16 32 := k0_pay404
/-- Lane l holds l + 8. -/
def W37 : IVec S16 32 := k0_pay405
/-- e_8: lane l holds (l + 8) mod 16. -/
def W39 : IVec S16 32 := k0_pay406 W37 15#32
/-- e_9: lane l holds (l + 9) mod 16. -/
def W43 : IVec S16 32 := k0_pay407 W3
/-- e_10: lane l holds (l + 10) mod 16. -/
def W47 : IVec S16 32 := k0_pay408 W3
/-- e_11: lane l holds (l + 11) mod 16. -/
def W51 : IVec S16 32 := k0_pay409 W3
/-- e_12: lane l holds (l + 12) mod 16. -/
def W55 : IVec S16 32 := k0_pay410 W3
/-- e_13: lane l holds (l + 13) mod 16. -/
def W59 : IVec S16 32 := k0_pay411 W3
/-- e_14: lane l holds (l + 14) mod 16. -/
def W63 : IVec S16 32 := k0_pay412 W3
/-- e_15: lane l holds (l + 15) mod 16. -/
def W67 : IVec S16 32 := k0_pay413 W3
/-- e_0 + (e_0 AND 8). -/
def W70 : IVec S16 32 := k0_pay414 W7
/-- e_1 + (e_1 AND 8). -/
def W73 : IVec S16 32 := k0_pay415 W11
/-- e_2 + (e_2 AND 8). -/
def W76 : IVec S16 32 := k0_pay416 W15
/-- e_3 + (e_3 AND 8). -/
def W79 : IVec S16 32 := k0_pay417 W19
/-- e_4 + (e_4 AND 8). -/
def W82 : IVec S16 32 := k0_pay418 W23
/-- e_5 + (e_5 AND 8). -/
def W85 : IVec S16 32 := k0_pay419 W27
/-- e_6 + (e_6 AND 8). -/
def W88 : IVec S16 32 := k0_pay420 W31
/-- e_7 + (e_7 AND 8). -/
def W91 : IVec S16 32 := k0_pay421 W35
/-- e_8 + (e_8 AND 8). -/
def W94 : IVec S16 32 := k0_pay422 W39
/-- e_9 + (e_9 AND 8). -/
def W97 : IVec S16 32 := k0_pay423 W43
/-- e_10 + (e_10 AND 8). -/
def W100 : IVec S16 32 := k0_pay424 W47
/-- e_11 + (e_11 AND 8). -/
def W103 : IVec S16 32 := k0_pay425 W51
/-- e_12 + (e_12 AND 8). -/
def W106 : IVec S16 32 := k0_pay426 W55
/-- e_13 + (e_13 AND 8). -/
def W109 : IVec S16 32 := k0_pay427 W59
/-- e_14 + (e_14 AND 8). -/
def W112 : IVec S16 32 := k0_pay428 W63
/-- e_15 + (e_15 AND 8). -/
def W115 : IVec S16 32 := k0_pay429 W67

theorem W3_apply (x : S16.Idx) : W3 x = BitVec.ofNat 32 (x 0).val := by
  revert x; exact forall_lane (by decide +kernel)
theorem W37_apply (x : S16.Idx) : W37 x = BitVec.ofNat 32 ((x 0).val + 8) := by
  revert x; exact forall_lane (by decide +kernel)
theorem W7_apply (x : S16.Idx) : W7 x = BitVec.ofNat 32 (((x 0).val + 0) % 16) := by
  revert x; exact forall_lane (by decide +kernel)
theorem W11_apply (x : S16.Idx) : W11 x = BitVec.ofNat 32 (((x 0).val + 1) % 16) := by
  revert x; exact forall_lane (by decide +kernel)
theorem W15_apply (x : S16.Idx) : W15 x = BitVec.ofNat 32 (((x 0).val + 2) % 16) := by
  revert x; exact forall_lane (by decide +kernel)
theorem W19_apply (x : S16.Idx) : W19 x = BitVec.ofNat 32 (((x 0).val + 3) % 16) := by
  revert x; exact forall_lane (by decide +kernel)
theorem W23_apply (x : S16.Idx) : W23 x = BitVec.ofNat 32 (((x 0).val + 4) % 16) := by
  revert x; exact forall_lane (by decide +kernel)
theorem W27_apply (x : S16.Idx) : W27 x = BitVec.ofNat 32 (((x 0).val + 5) % 16) := by
  revert x; exact forall_lane (by decide +kernel)
theorem W31_apply (x : S16.Idx) : W31 x = BitVec.ofNat 32 (((x 0).val + 6) % 16) := by
  revert x; exact forall_lane (by decide +kernel)
theorem W35_apply (x : S16.Idx) : W35 x = BitVec.ofNat 32 (((x 0).val + 7) % 16) := by
  revert x; exact forall_lane (by decide +kernel)
theorem W39_apply (x : S16.Idx) : W39 x = BitVec.ofNat 32 (((x 0).val + 8) % 16) := by
  revert x; exact forall_lane (by decide +kernel)
theorem W43_apply (x : S16.Idx) : W43 x = BitVec.ofNat 32 (((x 0).val + 9) % 16) := by
  revert x; exact forall_lane (by decide +kernel)
theorem W47_apply (x : S16.Idx) : W47 x = BitVec.ofNat 32 (((x 0).val + 10) % 16) := by
  revert x; exact forall_lane (by decide +kernel)
theorem W51_apply (x : S16.Idx) : W51 x = BitVec.ofNat 32 (((x 0).val + 11) % 16) := by
  revert x; exact forall_lane (by decide +kernel)
theorem W55_apply (x : S16.Idx) : W55 x = BitVec.ofNat 32 (((x 0).val + 12) % 16) := by
  revert x; exact forall_lane (by decide +kernel)
theorem W59_apply (x : S16.Idx) : W59 x = BitVec.ofNat 32 (((x 0).val + 13) % 16) := by
  revert x; exact forall_lane (by decide +kernel)
theorem W63_apply (x : S16.Idx) : W63 x = BitVec.ofNat 32 (((x 0).val + 14) % 16) := by
  revert x; exact forall_lane (by decide +kernel)
theorem W67_apply (x : S16.Idx) : W67 x = BitVec.ofNat 32 (((x 0).val + 15) % 16) := by
  revert x; exact forall_lane (by decide +kernel)
theorem W70_apply (x : S16.Idx) :
    W70 x = BitVec.ofNat 32 (((x 0).val + 0) % 16 + (if 8 ≤ ((x 0).val + 0) % 16 then 8 else 0)) := by
  revert x; exact forall_lane (by decide +kernel)
theorem W73_apply (x : S16.Idx) :
    W73 x = BitVec.ofNat 32 (((x 0).val + 1) % 16 + (if 8 ≤ ((x 0).val + 1) % 16 then 8 else 0)) := by
  revert x; exact forall_lane (by decide +kernel)
theorem W76_apply (x : S16.Idx) :
    W76 x = BitVec.ofNat 32 (((x 0).val + 2) % 16 + (if 8 ≤ ((x 0).val + 2) % 16 then 8 else 0)) := by
  revert x; exact forall_lane (by decide +kernel)
theorem W79_apply (x : S16.Idx) :
    W79 x = BitVec.ofNat 32 (((x 0).val + 3) % 16 + (if 8 ≤ ((x 0).val + 3) % 16 then 8 else 0)) := by
  revert x; exact forall_lane (by decide +kernel)
theorem W82_apply (x : S16.Idx) :
    W82 x = BitVec.ofNat 32 (((x 0).val + 4) % 16 + (if 8 ≤ ((x 0).val + 4) % 16 then 8 else 0)) := by
  revert x; exact forall_lane (by decide +kernel)
theorem W85_apply (x : S16.Idx) :
    W85 x = BitVec.ofNat 32 (((x 0).val + 5) % 16 + (if 8 ≤ ((x 0).val + 5) % 16 then 8 else 0)) := by
  revert x; exact forall_lane (by decide +kernel)
theorem W88_apply (x : S16.Idx) :
    W88 x = BitVec.ofNat 32 (((x 0).val + 6) % 16 + (if 8 ≤ ((x 0).val + 6) % 16 then 8 else 0)) := by
  revert x; exact forall_lane (by decide +kernel)
theorem W91_apply (x : S16.Idx) :
    W91 x = BitVec.ofNat 32 (((x 0).val + 7) % 16 + (if 8 ≤ ((x 0).val + 7) % 16 then 8 else 0)) := by
  revert x; exact forall_lane (by decide +kernel)
theorem W94_apply (x : S16.Idx) :
    W94 x = BitVec.ofNat 32 (((x 0).val + 8) % 16 + (if 8 ≤ ((x 0).val + 8) % 16 then 8 else 0)) := by
  revert x; exact forall_lane (by decide +kernel)
theorem W97_apply (x : S16.Idx) :
    W97 x = BitVec.ofNat 32 (((x 0).val + 9) % 16 + (if 8 ≤ ((x 0).val + 9) % 16 then 8 else 0)) := by
  revert x; exact forall_lane (by decide +kernel)
theorem W100_apply (x : S16.Idx) :
    W100 x = BitVec.ofNat 32 (((x 0).val + 10) % 16 + (if 8 ≤ ((x 0).val + 10) % 16 then 8 else 0)) := by
  revert x; exact forall_lane (by decide +kernel)
theorem W103_apply (x : S16.Idx) :
    W103 x = BitVec.ofNat 32 (((x 0).val + 11) % 16 + (if 8 ≤ ((x 0).val + 11) % 16 then 8 else 0)) := by
  revert x; exact forall_lane (by decide +kernel)
theorem W106_apply (x : S16.Idx) :
    W106 x = BitVec.ofNat 32 (((x 0).val + 12) % 16 + (if 8 ≤ ((x 0).val + 12) % 16 then 8 else 0)) := by
  revert x; exact forall_lane (by decide +kernel)
theorem W109_apply (x : S16.Idx) :
    W109 x = BitVec.ofNat 32 (((x 0).val + 13) % 16 + (if 8 ≤ ((x 0).val + 13) % 16 then 8 else 0)) := by
  revert x; exact forall_lane (by decide +kernel)
theorem W112_apply (x : S16.Idx) :
    W112 x = BitVec.ofNat 32 (((x 0).val + 14) % 16 + (if 8 ≤ ((x 0).val + 14) % 16 then 8 else 0)) := by
  revert x; exact forall_lane (by decide +kernel)
theorem W115_apply (x : S16.Idx) :
    W115 x = BitVec.ofNat 32 (((x 0).val + 15) % 16 + (if 8 ≤ ((x 0).val + 15) % 16 then 8 else 0)) := by
  revert x; exact forall_lane (by decide +kernel)

end Cert.Proof.KWB
-- ==== Proof.KMathB.lean ====
/-
  The value of the transposition through the 128 x 128 scratch.

  A chunk R has 256 rows of 128. Trip g (j = g / 8, c = g mod 8) makes 64 (indexed load, indexed store)
  pairs; pair number m = 16 * dg + k (dg = 0..3, k = 0..15) loads, at lane l, R[16 g + l, e_k(l) + 16 dg]
  with e_k(l) = (l + k) mod 16, scales it by 8, and stores it at scratch position
  (e_k(l) + (e_k(l) AND 8) + 32 dg + 8 j, l + 16 c). Every scratch position (r, q) is written exactly once
  over the 16 trips: by trip q / 16 + 8 ((r / 8) mod 2), pair 16 (r / 32) + ((r mod 8 + 8 ((r / 16) mod 2)
  - q) mod 16), and receives 8 * R[128 ((r / 8) mod 2) + q, 8 (r / 16) + r mod 8].
-/
import proofs.«206429_g47863115546636_cont_8to1c4_619_32_alg».proof.Proof.KWordsB

noncomputable section

namespace Cert.Proof.KWB

open Idealize.ShloMosaic Idealize.SL.Sem Idealize.ShloMosaic.ValueIdx
open Cert.Kernel Cert.Kernel.Gen

variable {F : FTy → Type} [FloatOps F]

/-! ### A left fold of overwrites -/

/-- A fold of steps none of which touches p leaves the value at p. -/
theorem foldl_miss {α β ι : Type} (step : (β → α) → ι → (β → α)) (nm : ι → β → Prop)
    (hmiss : ∀ g k j, ¬ nm k j → step g k j = g j) :
    ∀ (l : List ι) (g0 : β → α) (p : β), (∀ k ∈ l, ¬ nm k p) → l.foldl step g0 p = g0 p := by
  intro l
  induction l with
  | nil => intro g0 p _; rfl
  | cons a l ih =>
    intro g0 p h
    rw [List.foldl_cons, ih (step g0 a) p (fun k hk => h k (List.mem_cons_of_mem _ hk))]
    exact hmiss g0 a p (h a (List.mem_cons.mpr (Or.inl rfl)))

/-- A fold of steps exactly one of which (step k) touches p leaves step k's value at p. -/
theorem foldl_hit {α β ι : Type} (step : (β → α) → ι → (β → α)) (nm : ι → β → Prop) (V : ι → α)
    (hhit : ∀ g k j, nm k j → step g k j = V k)
    (hmiss : ∀ g k j, ¬ nm k j → step g k j = g j) :
    ∀ (l : List ι) (g0 : β → α) (p : β) (k : ι), k ∈ l → nm k p → (∀ k' ∈ l, nm k' p → k' = k) →
      l.foldl step g0 p = V k := by
  intro l
  induction l with
  | nil => intro g0 p k hk; cases hk
  | cons a l ih =>
    intro g0 p k hk hn huniq
    rw [List.foldl_cons]
    by_cases hkl : k ∈ l
    · exact ih (step g0 a) p k hkl hn (fun k' hk' => huniq k' (List.mem_cons_of_mem _ hk'))
    · have hak : a = k := by
        rcases List.mem_cons.mp hk with h | h
        · exact h.symm
        · exact absurd h hkl
      subst hak
      rw [foldl_miss step nm hmiss l (step g0 a) p
        (fun k' hk' hn' => hkl ((huniq k' (List.mem_cons_of_mem _ hk') hn') ▸ hk'))]
      exact hhit g0 a p hn

/-! ### An unmasked indexed store without accumulation -/

section Store
variable {s : Shape} {e : EltTy} {d : Fin 1 → Nat}

/-- Where exactly one lane names position p, the store leaves that lane's value at p. -/
theorem storeIdx_hit (f : Vec F s e) (idxs : Fin s.rank → IVec ⟨1, d⟩ 32) (v : Vec F ⟨1, d⟩ e)
    (h : ∀ a x, (idxs a x).toNat < s.size a) (p : s.Idx) (k : Fin (d 0))
    (hn : ∀ a, (p a).val = (idxs a (Shape.ofLane k)).toNat)
    (huniq : ∀ k' : Fin (d 0), (∀ a, (p a).val = (idxs a (Shape.ofLane k')).toNat) → k' = k) :
    storeIdx f idxs v (fun _ => 1#1) false h p = v (Shape.ofLane k) := by
  unfold storeIdx
  refine foldl_hit _ (fun k j => ∀ a, (j a).val = (idxs a (Shape.ofLane k)).toNat)
    (fun k => v (Shape.ofLane k)) ?_ ?_ _ f p k (List.mem_finRange k) hn (fun k' _ => huniq k')
  · intro g k j hj
    simp [idxAt, hj]
  · intro g k j hj
    simp [idxAt, hj]

/-- Where no lane names position p, the store leaves p as it was. -/
theorem storeIdx_miss (f : Vec F s e) (idxs : Fin s.rank → IVec ⟨1, d⟩ 32) (v : Vec F ⟨1, d⟩ e)
    (h : ∀ a x, (idxs a x).toNat < s.size a) (p : s.Idx)
    (hn : ∀ k : Fin (d 0), ¬ ∀ a, (p a).val = (idxs a (Shape.ofLane k)).toNat) :
    storeIdx f idxs v (fun _ => 1#1) false h p = f p := by
  unfold storeIdx
  refine foldl_miss _ (fun k j => ∀ a, (j a).val = (idxs a (Shape.ofLane k)).toNat) ?_ _ f p (fun k _ => hn k)
  intro g k j hj
  simp [idxAt, hj]

end Store

/-! ### The transposed value and the order in which the scratch is written -/

/-- e + (e AND 8) for e = (l + k) mod 16. -/
def rsf (k l : ℕ) : ℕ := (l + k) % 16 + (if 8 ≤ (l + k) % 16 then 8 else 0)

/-- The chunk position whose value scratch position (r, q) receives:
    row 128 ((r / 8) mod 2) + q, column 8 (r / 16) + r mod 8. -/
def src (p : S128x128.Idx) : S256x128.Idx :=
  ix2 ⟨128 * (((p 0).val / 8) % 2) + (p 1).val, by
        have h1 : (p 1).val < 128 := (p 1).isLt
        omega⟩
      ⟨8 * ((p 0).val / 16) + (p 0).val % 8, by
        have h0 : (p 0).val < 128 := (p 0).isLt
        omega⟩

/-- The scratch once the whole chunk has gone through: 8 times the chunk's value at the source position. -/
def T8 (R : Vec F S256x128 .f32) : Vec F S128x128 .f32 :=
  fun p => FloatOps.mulf (R (src p)) (Scalar.ofBits .f32 0x41000000#32)

/-- The trip that writes scratch position (r, q): q / 16 + 8 ((r / 8) mod 2). -/
def tripOf (p : S128x128.Idx) : ℕ := (p 1).val / 16 + 8 * (((p 0).val / 8) % 2)

/-- The pair (counted from 0 inside its trip) that writes scratch position (r, q). -/
def pairOf (p : S128x128.Idx) : ℕ :=
  16 * ((p 0).val / 32) + (((p 0).val % 8 + 8 * (((p 0).val / 16) % 2) + 16 - (p 1).val % 16) % 16)

/-- The scratch after the first n pairs of trip g, from the scratch f before the trip. -/
def Mid (g n : ℕ) (R : Vec F S256x128 .f32) (f f' : Vec F S128x128 .f32) : Prop :=
  ∀ p, f' p = if tripOf p = g ∧ pairOf p < n then T8 R p else f p

/-- The scratch holds the transposed value at every position of the trips before g. -/
def Done (g : ℕ) (R : Vec F S256x128 .f32) (f' : Vec F S128x128 .f32) : Prop :=
  ∀ p, tripOf p < g → f' p = T8 R p

theorem mid0 (g : ℕ) (R : Vec F S256x128 .f32) (f : Vec F S128x128 .f32) : Mid g 0 R f f := by
  intro p; simp

theorem done_zero (R : Vec F S256x128 .f32) (f : Vec F S128x128 .f32) : Done 0 R f := by
  intro p hp; exact absurd hp (Nat.not_lt_zero _)

theorem done_step {g : ℕ} {R : Vec F S256x128 .f32} {f f' : Vec F S128x128 .f32} :
    Done g R f → Mid g 64 R f f' → Done (g + 1) R f' := by
  intro hd hm p hp
  have hr : (p 0).val < 128 := (p 0).isLt
  have hq : (p 1).val < 128 := (p 1).isLt
  rw [hm p]
  by_cases ht : tripOf p = g
  · have h64 : pairOf p < 64 := by unfold pairOf; omega
    rw [if_pos ⟨ht, h64⟩]
  · rw [if_neg (fun h => ht h.1)]
    exact hd p (by omega)

theorem done_all {R : Vec F S256x128 .f32} {f' : Vec F S128x128 .f32} : Done 16 R f' → f' = T8 R := by
  intro hd
  funext p
  have hr : (p 0).val < 128 := (p 0).isLt
  have hq : (p 1).val < 128 := (p 1).isLt
  exact hd p (by unfold tripOf; omega)

/-! ### One (load, store) pair -/

theorem arith_hit (r q g m : ℕ) (hr : r < 128) (hq : q < 128)
    (ht : q / 16 + 8 * ((r / 8) % 2) = g)
    (hp : 16 * (r / 32) + ((r % 8 + 8 * ((r / 16) % 2) + 16 - q % 16) % 16) = m) :
    r = rsf (m % 16) (q % 16) + 32 * (m / 16) + 8 * (g / 8) ∧ q = q % 16 + 16 * (g % 8) ∧
      128 * ((r / 8) % 2) + q = 16 * g + q % 16 ∧
      8 * (r / 16) + r % 8 = (q % 16 + m % 16) % 16 + 16 * (m / 16) := by
  unfold rsf
  subst ht hp
  split_ifs <;> omega

theorem arith_miss (r q g m l : ℕ) (hg : g < 16) (hm : m < 64) (hl : l < 16)
    (h0 : r = rsf (m % 16) l + 32 * (m / 16) + 8 * (g / 8)) (h1 : q = l + 16 * (g % 8)) :
    q / 16 + 8 * ((r / 8) % 2) = g ∧
      16 * (r / 32) + ((r % 8 + 8 * ((r / 16) % 2) + 16 - q % 16) % 16) = m := by
  unfold rsf at h0
  subst h1
  split_ifs at h0 <;> subst h0 <;> omega

/-! ### The same for sixteen lanes and a rank-two base -/

theorem ofLane_eq_ix1 (k : Fin 16) : (Shape.ofLane (d := ![16]) k : S16.Idx) = ix1 k := by
  funext a
  match a with
  | ⟨0, _⟩ => rfl

theorem store16_hit {s0 s1 : ℕ} (f : Vec F ⟨2, ![s0, s1]⟩ .f32) (rowS colS : IVec S16 32) (v : Vec F S16 .f32)
    (h' : ∀ a x, ((![rowS, colS] : Fin 2 → IVec S16 32) a x).toNat < (⟨2, ![s0, s1]⟩ : Shape).size a)
    (p : (⟨2, ![s0, s1]⟩ : Shape).Idx) (k : Fin 16)
    (hn0 : (p 0).val = (rowS (ix1 k)).toNat) (hn1 : (p 1).val = (colS (ix1 k)).toNat)
    (huniq : ∀ k' : Fin 16, (p 1).val = (colS (ix1 k')).toNat → k' = k) :
    storeIdx f ![rowS, colS] v (fun _ => 1#1) false h' p = v (ix1 k) := by
  rw [← ofLane_eq_ix1 k]
  refine storeIdx_hit f ![rowS, colS] v h' p k ?_ ?_
  · intro a
    rw [ofLane_eq_ix1 k]
    match a with
    | ⟨0, _⟩ => exact hn0
    | ⟨1, _⟩ => exact hn1
  · intro k' hk'
    have h1 := hk' 1
    rw [ofLane_eq_ix1 k'] at h1
    exact huniq k' h1

theorem store16_miss {s0 s1 : ℕ} (f : Vec F ⟨2, ![s0, s1]⟩ .f32) (rowS colS : IVec S16 32) (v : Vec F S16 .f32)
    (h' : ∀ a x, ((![rowS, colS] : Fin 2 → IVec S16 32) a x).toNat < (⟨2, ![s0, s1]⟩ : Shape).size a)
    (p : (⟨2, ![s0, s1]⟩ : Shape).Idx)
    (hn : ∀ k : Fin 16, (p 0).val = (rowS (ix1 k)).toNat → (p 1).val = (colS (ix1 k)).toNat → False) :
    storeIdx f ![rowS, colS] v (fun _ => 1#1) false h' p = f p := by
  refine storeIdx_miss f ![rowS, colS] v h' p ?_
  intro k hk
  have h0 := hk 0
  have h1 := hk 1
  rw [ofLane_eq_ix1 k] at h0 h1
  exact hn k h0 h1

/-- One pair: if the index words have the closed forms of pair m of trip g and the stored value is 8 times
    the loaded one, the pair takes the scratch after m pairs to the scratch after m + 1 pairs. -/
theorem mid_step (g m : ℕ) (hg : g < 16) (hm : m < 64)
    (R : Vec F S256x128 .f32) (f f' : Vec F S128x128 .f32)
    (rowS colS rowL colL : IVec S16 32)
    (hrowS : ∀ k : Fin 16, (rowS (ix1 k)).toNat = rsf (m % 16) k.val + 32 * (m / 16) + 8 * (g / 8))
    (hcolS : ∀ k : Fin 16, (colS (ix1 k)).toNat = k.val + 16 * (g % 8))
    (hrowL : ∀ k : Fin 16, (rowL (ix1 k)).toNat = 16 * g + k.val)
    (hcolL : ∀ k : Fin 16, (colL (ix1 k)).toNat = (k.val + m % 16) % 16 + 16 * (m / 16))
    (h : ∀ a x, ((![rowL, colL] : Fin 2 → IVec S16 32) a x).toNat < S256x128.size a)
    (v : Vec F S16 .f32)
    (hv : ∀ x, v x = FloatOps.mulf (loadIdx R ![rowL, colL] h x) (Scalar.ofBits .f32 0x41000000#32))
    (h' : ∀ a x, ((![rowS, colS] : Fin 2 → IVec S16 32) a x).toNat < S128x128.size a) :
    Mid g m R f f' → Mid g (m + 1) R f (storeIdx f' ![rowS, colS] v (fun _ => 1#1) false h') := by
  intro hmid p
  have hr : (p 0).val < 128 := (p 0).isLt
  have hq : (p 1).val < 128 := (p 1).isLt
  by_cases hc : tripOf p = g ∧ pairOf p = m
  · obtain ⟨ht, hp⟩ := hc
    have hk : (p 1).val % 16 < 16 := Nat.mod_lt _ (by omega)
    obtain ⟨a0, a1, a2, a3⟩ := arith_hit (p 0).val (p 1).val g m hr hq ht hp
    have hst := store16_hit f' rowS colS v h' p ⟨(p 1).val % 16, hk⟩
      (by rw [hrowS]; exact a0) (by rw [hcolS]; exact a1)
      (by
        intro k' hk'
        rw [hcolS] at hk'
        apply Fin.ext
        show k'.val = (p 1).val % 16
        have := k'.isLt
        omega)
    rw [hst, hv, if_pos ⟨ht, by omega⟩]
    show FloatOps.mulf (R (idxAt ![rowL, colL] h (ix1 ⟨(p 1).val % 16, hk⟩))) _ = FloatOps.mulf (R (src p)) _
    have hidx : idxAt ![rowL, colL] h (ix1 ⟨(p 1).val % 16, hk⟩) = src p := by
      funext a
      match a with
      | ⟨0, _⟩ =>
        apply Fin.ext
        show (rowL (ix1 ⟨(p 1).val % 16, hk⟩)).toNat = 128 * (((p 0).val / 8) % 2) + (p 1).val
        rw [hrowL]; exact a2.symm
      | ⟨1, _⟩ =>
        apply Fin.ext
        show (colL (ix1 ⟨(p 1).val % 16, hk⟩)).toNat = 8 * ((p 0).val / 16) + (p 0).val % 8
        rw [hcolL]; exact a3.symm
    rw [hidx]
  · have hst := store16_miss f' rowS colS v h' p (by
      intro k h0 h1
      rw [hrowS] at h0
      rw [hcolS] at h1
      exact hc (arith_miss (p 0).val (p 1).val g m k.val hg hm k.isLt h0 h1))
    rw [hst, hmid p]
    by_cases ht : tripOf p = g
    · have hne : pairOf p ≠ m := fun h => hc ⟨ht, h⟩
      by_cases hlt : pairOf p < m
      · rw [if_pos ⟨ht, hlt⟩, if_pos ⟨ht, by omega⟩]
      · rw [if_neg (fun h => hlt h.2), if_neg (fun h => by omega)]
    · rw [if_neg (fun h => ht h.1), if_neg (fun h => ht h.1)]

end Cert.Proof.KWB
-- ==== Proof.KPredB.lean ====
import proofs.«206429_g47863115546636_cont_8to1c4_619_32_alg».proof.Proof.KDefsB
import proofs.«206429_g47863115546636_cont_8to1c4_619_32_alg».proof.Proof.KMathB
import Idealize.ShloMosaic.Lib.ValueIdx

/-! What the tile's scratches hold, as facts about the flattened indices `X` and the padded table `Tp`: an index list
    holds the 256 indices of its chunk; a row buffer the table rows those indices name; the staging scratch their
    transposed, scaled copy; a piece of the result the values the kernel's result function gives there. -/

noncomputable section

namespace Cert.Proof.KB
open Cert.Kernel Cert.Kernel.Gen
open Idealize.ShloMosaic Idealize.ShloMosaic.ValueIdx

variable {F : FTy → Type}

theorem trips1 : k0_t1_loop.trips = 50 := by decide

/-- The tile's first batch column. -/
def wbL (L : grid0.Coords) : ℕ := 1024 * (L 1).val + 512 * (L 0).val
theorem L_bounds (L : grid0.Coords) : (L 0).val < 2 ∧ (L 1).val < 16 := ⟨(L 0).isLt, (L 1).isLt⟩
/-- The tile's worker number. -/
def widL (L : grid0.Coords) : Fin 32 := ⟨2 * (L 1).val + (L 0).val, by have := L_bounds L; omega⟩

/-- Where chunk `(k, b)` of the tile's loop starts in the flattened indices: row `k` of the history, the tile's columns,
    the first or the second 256 of them. -/
def xoff (L : grid0.Coords) (k : Fin k0_t1_loop.trips) (b : Fin 2) : ℕ := 16384 * k.val + wbL L + 256 * b.val

theorem xoff_lt (L : grid0.Coords) (k : Fin k0_t1_loop.trips) (b : Fin 2) (j : Fin 256) : xoff L k b + j.val < 819200 := by
  have hk : k.val < 50 := by have h1 := k.isLt; have h2 := trips1; omega
  have hL := L_bounds L; have hb := b.isLt; have hj := j.isLt
  unfold xoff wbL; omega

/-- An index list holds its chunk's 256 indices. -/
def IdxOK (X : IVec S819200 32) (L : grid0.Coords) (k : Fin k0_t1_loop.trips) (b : Fin 2) (I : IVec S256 32) : Prop :=
  ∀ j : Fin 256, I (ix1 j) = X (ix1 (⟨xoff L k b + j.val, xoff_lt L k b j⟩ : Fin 819200))

variable [FloatOps F]

/-- A row buffer holds the padded table's rows its chunk's indices name. -/
def RowsOK (X : IVec S819200 32) (Tp : Vec F S1000000x128 .f32) (L : grid0.Coords) (k : Fin k0_t1_loop.trips) (b : Fin 2)
    (R : Vec F S256x128 .f32) : Prop :=
  ∀ (r : Fin 256) (c : Fin 128),
    R (ix2 r c) = Tp (ix2 (⟨(X (ix1 (⟨xoff L k b + r.val, xoff_lt L k b r⟩ : Fin 819200))).toNat % 1000000, Nat.mod_lt _ (by decide)⟩ : Fin 1000000) c)

/-- The staging scratch holds the chunk's rows transposed and scaled. -/
def TbOK (X : IVec S819200 32) (Tp : Vec F S1000000x128 .f32) (L : grid0.Coords) (k : Fin k0_t1_loop.trips) (b : Fin 2)
    (f : Vec F S128x128 .f32) : Prop :=
  ∃ R, RowsOK X Tp L k b R ∧ f = Cert.Proof.KWB.T8 R

/-- On the elements `S` the result holds what the kernel's result function gives. -/
def GdOK (X : IVec S819200 32) (Tp : Vec F S1000000x128 .f32) (S : Finset S50x64x16384.Idx) (g : Vec F S50x64x16384 .f32) : Prop :=
  ∀ p ∈ S, g p = Cert.Proof.KHostB.OutSpec X Tp p

end Cert.Proof.KB
end
-- ==== Proof.KInvB.lean ====
import proofs.«206429_g47863115546636_cont_8to1c4_619_32_alg».proof.Proof.KPredB

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KB Cert.Proof.KWB

variable {F : FTy → Type}
local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

/-! What a tile holds between two trips of its chunk loop: the row gather of the trip's first chunk and the index fetch
    of its second in flight, the previous trip's second chunk on its way out of the staging scratch, and the pieces of
    the tile's columns of the result, each held by exactly its own elements — with what each of them holds. -/
variable [FloatOps F]

section Inv
variable (d : Dev nD) (L : grid0.Coords) (O : CellTallies nD τ sig (HIx 1)) (W : Waits sig (HIx 1)) (q : PosShare TreeShare)
variable (X : Buf (Elt F) ((V d (cV L) (jV L)).loc main_v1_scv)) (Tp : Buf (Elt F) ((V d (cV L) (jV L)).loc main_v2_scv))

abbrev N1M : ℕ := S1000000x128.size gathers_S1000000x128_S256x128.axis

/-- Trip number `n` as a trip (any trip past the last, where it is not used). -/
def kOf (n : ℕ) : Fin k0_t1_loop.trips := ⟨n % 50, by rw [trips1]; exact Nat.mod_lt _ (by decide)⟩

/-- The index fetch of trip `n`'s second chunk, on its way into the second index list. -/
def flyI1 (n : ℕ) : sProp 𝕄 :=
  iprop(∃ (SX : Finset ((V d (cV L) (jV L)).loc main_v1_scv).ty.Idx) (I1 : Buf (Elt F) ((V d (cV L) (jV L)).loc cc0_scratch1)),
    Transfers.Flight countersEmb (V d (cV L) (jV L)) (SemLoc.dma cc0_scratch9.sem) (default : HIx 1) 8192
        iprop(((i1).view.loc (V d (cV L) (jV L)) ↦{fullShare} I1) ∗ ((xW).view.loc (V d (cV L) (jV L)) ↦[SX]{Transfers.shareTok q 5 4} X))
    ∗ ((xW).view.loc (V d (cV L) (jV L)) ↦[Finset.univ \ SX]{Transfers.shareTok q 5 4} X)
    ∗ ⌜(∀ j, ((i1).view.read (Elt F) I1 j).toNat < N1M) ∧ IdxOK X L (kOf n) 1 I1⌝)

/-- The row gather of trip `n`'s first chunk, on its way into the first row buffer. -/
def flyG0 (n : ℕ) : sProp 𝕄 :=
  iprop(∃ (ST : Finset ((V d (cV L) (jV L)).loc main_v2_scv).ty.Idx) (G0 : Buf (Elt F) ((V d (cV L) (jV L)).loc cc0_scratch2)) (I0 : Buf (Elt F) ((V d (cV L) (jV L)).loc cc0_scratch0)),
    Transfers.Flight countersEmb (V d (cV L) (jV L)) (SemLoc.dma cc0_scratch5.sem) (default : HIx 1) 1048576
        iprop((((r0).view.loc (V d (cV L) (jV L)) ↦{fullShare} G0) ∗ ((i0).view.loc (V d (cV L) (jV L)) ↦{fullShare} I0)) ∗ ((tW).view.loc (V d (cV L) (jV L)) ↦[ST]{Transfers.shareTok q 5 0} Tp))
    ∗ ((tW).view.loc (V d (cV L) (jV L)) ↦[Finset.univ \ ST]{Transfers.shareTok q 5 0} Tp)
    ∗ ⌜RowsOK X Tp L (kOf n) 0 G0⌝)

/-- The sixteen copies of a trip's second chunk out of the staging scratch, all issued, none waited for. -/
def batchB (kp : Fin k0_t1_loop.trips) : sProp 𝕄 :=
  iprop(∃ (f : Buf (Elt F) ((V d (cV L) (jV L)).loc cc0_scratch4)) (g0 : Buf (Elt F) ((V d (cV L) (jV L)).loc main_v3_scv)) (g1 : Buf (Elt F) ((V d (cV L) (jV L)).loc main_v3_scv)) (g2 : Buf (Elt F) ((V d (cV L) (jV L)).loc main_v3_scv)) (g3 : Buf (Elt F) ((V d (cV L) (jV L)).loc main_v3_scv)) (g4 : Buf (Elt F) ((V d (cV L) (jV L)).loc main_v3_scv)) (g5 : Buf (Elt F) ((V d (cV L) (jV L)).loc main_v3_scv)) (g6 : Buf (Elt F) ((V d (cV L) (jV L)).loc main_v3_scv)) (g7 : Buf (Elt F) ((V d (cV L) (jV L)).loc main_v3_scv)) (g8 : Buf (Elt F) ((V d (cV L) (jV L)).loc main_v3_scv)) (g9 : Buf (Elt F) ((V d (cV L) (jV L)).loc main_v3_scv)) (g10 : Buf (Elt F) ((V d (cV L) (jV L)).loc main_v3_scv)) (g11 : Buf (Elt F) ((V d (cV L) (jV L)).loc main_v3_scv)) (g12 : Buf (Elt F) ((V d (cV L) (jV L)).loc main_v3_scv)) (g13 : Buf (Elt F) ((V d (cV L) (jV L)).loc main_v3_scv)) (g14 : Buf (Elt F) ((V d (cV L) (jV L)).loc main_v3_scv)) (g15 : Buf (Elt F) ((V d (cV L) (jV L)).loc main_v3_scv)),
    Transfers.Batched countersEmb (V d (cV L) (jV L)) (SemLoc.dma cc0_scratch7.sem) (default : HIx 1) 32768 16
      [deliv d L (dM1_0 L kp) sM_0 g0 f, deliv d L (dM1_1 L kp) sM_1 g1 f, deliv d L (dM1_2 L kp) sM_2 g2 f, deliv d L (dM1_3 L kp) sM_3 g3 f, deliv d L (dM1_4 L kp) sM_4 g4 f, deliv d L (dM1_5 L kp) sM_5 g5 f, deliv d L (dM1_6 L kp) sM_6 g6 f, deliv d L (dM1_7 L kp) sM_7 g7 f, deliv d L (dM1_8 L kp) sM_8 g8 f, deliv d L (dM1_9 L kp) sM_9 g9 f, deliv d L (dM1_10 L kp) sM_10 g10 f, deliv d L (dM1_11 L kp) sM_11 g11 f, deliv d L (dM1_12 L kp) sM_12 g12 f, deliv d L (dM1_13 L kp) sM_13 g13 f, deliv d L (dM1_14 L kp) sM_14 g14 f, deliv d L (dM1_15 L kp) sM_15 g15 f] 0
    ∗ ⌜TbOK X Tp L kp 1 f⌝)

/-- The sixteen pieces of the result a trip's first chunk fills — holding the result's values there once `ok` —; and
    its second chunk's. -/
def SlA (ok : Prop) (k : Fin k0_t1_loop.trips) : sProp 𝕄 :=
  iprop((∃ g, ((dM0_0 L k).view.loc (V d (cV L) (jV L)) ↦[(dM0_0 L k).view.set]{fullShare} g) ∗ ⌜ok → GdOK X Tp (dM0_0 L k).view.set g⌝)
    ∗ (∃ g, ((dM0_1 L k).view.loc (V d (cV L) (jV L)) ↦[(dM0_1 L k).view.set]{fullShare} g) ∗ ⌜ok → GdOK X Tp (dM0_1 L k).view.set g⌝)
    ∗ (∃ g, ((dM0_2 L k).view.loc (V d (cV L) (jV L)) ↦[(dM0_2 L k).view.set]{fullShare} g) ∗ ⌜ok → GdOK X Tp (dM0_2 L k).view.set g⌝)
    ∗ (∃ g, ((dM0_3 L k).view.loc (V d (cV L) (jV L)) ↦[(dM0_3 L k).view.set]{fullShare} g) ∗ ⌜ok → GdOK X Tp (dM0_3 L k).view.set g⌝)
    ∗ (∃ g, ((dM0_4 L k).view.loc (V d (cV L) (jV L)) ↦[(dM0_4 L k).view.set]{fullShare} g) ∗ ⌜ok → GdOK X Tp (dM0_4 L k).view.set g⌝)
    ∗ (∃ g, ((dM0_5 L k).view.loc (V d (cV L) (jV L)) ↦[(dM0_5 L k).view.set]{fullShare} g) ∗ ⌜ok → GdOK X Tp (dM0_5 L k).view.set g⌝)
    ∗ (∃ g, ((dM0_6 L k).view.loc (V d (cV L) (jV L)) ↦[(dM0_6 L k).view.set]{fullShare} g) ∗ ⌜ok → GdOK X Tp (dM0_6 L k).view.set g⌝)
    ∗ (∃ g, ((dM0_7 L k).view.loc (V d (cV L) (jV L)) ↦[(dM0_7 L k).view.set]{fullShare} g) ∗ ⌜ok → GdOK X Tp (dM0_7 L k).view.set g⌝)
    ∗ (∃ g, ((dM0_8 L k).view.loc (V d (cV L) (jV L)) ↦[(dM0_8 L k).view.set]{fullShare} g) ∗ ⌜ok → GdOK X Tp (dM0_8 L k).view.set g⌝)
    ∗ (∃ g, ((dM0_9 L k).view.loc (V d (cV L) (jV L)) ↦[(dM0_9 L k).view.set]{fullShare} g) ∗ ⌜ok → GdOK X Tp (dM0_9 L k).view.set g⌝)
    ∗ (∃ g, ((dM0_10 L k).view.loc (V d (cV L) (jV L)) ↦[(dM0_10 L k).view.set]{fullShare} g) ∗ ⌜ok → GdOK X Tp (dM0_10 L k).view.set g⌝)
    ∗ (∃ g, ((dM0_11 L k).view.loc (V d (cV L) (jV L)) ↦[(dM0_11 L k).view.set]{fullShare} g) ∗ ⌜ok → GdOK X Tp (dM0_11 L k).view.set g⌝)
    ∗ (∃ g, ((dM0_12 L k).view.loc (V d (cV L) (jV L)) ↦[(dM0_12 L k).view.set]{fullShare} g) ∗ ⌜ok → GdOK X Tp (dM0_12 L k).view.set g⌝)
    ∗ (∃ g, ((dM0_13 L k).view.loc (V d (cV L) (jV L)) ↦[(dM0_13 L k).view.set]{fullShare} g) ∗ ⌜ok → GdOK X Tp (dM0_13 L k).view.set g⌝)
    ∗ (∃ g, ((dM0_14 L k).view.loc (V d (cV L) (jV L)) ↦[(dM0_14 L k).view.set]{fullShare} g) ∗ ⌜ok → GdOK X Tp (dM0_14 L k).view.set g⌝)
    ∗ (∃ g, ((dM0_15 L k).view.loc (V d (cV L) (jV L)) ↦[(dM0_15 L k).view.set]{fullShare} g) ∗ ⌜ok → GdOK X Tp (dM0_15 L k).view.set g⌝))
def SlB (ok : Prop) (k : Fin k0_t1_loop.trips) : sProp 𝕄 :=
  iprop((∃ g, ((dM1_0 L k).view.loc (V d (cV L) (jV L)) ↦[(dM1_0 L k).view.set]{fullShare} g) ∗ ⌜ok → GdOK X Tp (dM1_0 L k).view.set g⌝)
    ∗ (∃ g, ((dM1_1 L k).view.loc (V d (cV L) (jV L)) ↦[(dM1_1 L k).view.set]{fullShare} g) ∗ ⌜ok → GdOK X Tp (dM1_1 L k).view.set g⌝)
    ∗ (∃ g, ((dM1_2 L k).view.loc (V d (cV L) (jV L)) ↦[(dM1_2 L k).view.set]{fullShare} g) ∗ ⌜ok → GdOK X Tp (dM1_2 L k).view.set g⌝)
    ∗ (∃ g, ((dM1_3 L k).view.loc (V d (cV L) (jV L)) ↦[(dM1_3 L k).view.set]{fullShare} g) ∗ ⌜ok → GdOK X Tp (dM1_3 L k).view.set g⌝)
    ∗ (∃ g, ((dM1_4 L k).view.loc (V d (cV L) (jV L)) ↦[(dM1_4 L k).view.set]{fullShare} g) ∗ ⌜ok → GdOK X Tp (dM1_4 L k).view.set g⌝)
    ∗ (∃ g, ((dM1_5 L k).view.loc (V d (cV L) (jV L)) ↦[(dM1_5 L k).view.set]{fullShare} g) ∗ ⌜ok → GdOK X Tp (dM1_5 L k).view.set g⌝)
    ∗ (∃ g, ((dM1_6 L k).view.loc (V d (cV L) (jV L)) ↦[(dM1_6 L k).view.set]{fullShare} g) ∗ ⌜ok → GdOK X Tp (dM1_6 L k).view.set g⌝)
    ∗ (∃ g, ((dM1_7 L k).view.loc (V d (cV L) (jV L)) ↦[(dM1_7 L k).view.set]{fullShare} g) ∗ ⌜ok → GdOK X Tp (dM1_7 L k).view.set g⌝)
    ∗ (∃ g, ((dM1_8 L k).view.loc (V d (cV L) (jV L)) ↦[(dM1_8 L k).view.set]{fullShare} g) ∗ ⌜ok → GdOK X Tp (dM1_8 L k).view.set g⌝)
    ∗ (∃ g, ((dM1_9 L k).view.loc (V d (cV L) (jV L)) ↦[(dM1_9 L k).view.set]{fullShare} g) ∗ ⌜ok → GdOK X Tp (dM1_9 L k).view.set g⌝)
    ∗ (∃ g, ((dM1_10 L k).view.loc (V d (cV L) (jV L)) ↦[(dM1_10 L k).view.set]{fullShare} g) ∗ ⌜ok → GdOK X Tp (dM1_10 L k).view.set g⌝)
    ∗ (∃ g, ((dM1_11 L k).view.loc (V d (cV L) (jV L)) ↦[(dM1_11 L k).view.set]{fullShare} g) ∗ ⌜ok → GdOK X Tp (dM1_11 L k).view.set g⌝)
    ∗ (∃ g, ((dM1_12 L k).view.loc (V d (cV L) (jV L)) ↦[(dM1_12 L k).view.set]{fullShare} g) ∗ ⌜ok → GdOK X Tp (dM1_12 L k).view.set g⌝)
    ∗ (∃ g, ((dM1_13 L k).view.loc (V d (cV L) (jV L)) ↦[(dM1_13 L k).view.set]{fullShare} g) ∗ ⌜ok → GdOK X Tp (dM1_13 L k).view.set g⌝)
    ∗ (∃ g, ((dM1_14 L k).view.loc (V d (cV L) (jV L)) ↦[(dM1_14 L k).view.set]{fullShare} g) ∗ ⌜ok → GdOK X Tp (dM1_14 L k).view.set g⌝)
    ∗ (∃ g, ((dM1_15 L k).view.loc (V d (cV L) (jV L)) ↦[(dM1_15 L k).view.set]{fullShare} g) ∗ ⌜ok → GdOK X Tp (dM1_15 L k).view.set g⌝))

def owesPart : sProp 𝕄 := iprop(∃ W', owes (V d (cV L) (jV L)) O W' ∗ ⌜∀ p ∈ W', p ∈ W ∨ p.2 = none⌝)

def coreFly (n : ℕ) : sProp 𝕄 :=
  iprop(Transfers.MayWaits (V d (cV L) (jV L)) (none : HIx 1) O
    ∗ ((xW).view.loc (V d (cV L) (jV L)) ↦{Transfers.shareTok q 5 3} X) ∗ flyI1 d L q X n ∗ flyG0 d L q X Tp n
    ∗ ((tW).view.loc (V d (cV L) (jV L)) ↦{Transfers.shareTok q 5 1} Tp)
    ∗ (∃ g1, ((r1).view.loc (V d (cV L) (jV L)) ↦{fullShare} g1))
    ∗ semVal ((V d (cV L) (jV L)), SemLoc.dma cc0_scratch6.sem) 0 ∗ semVal ((V d (cV L) (jV L)), SemLoc.dma cc0_scratch8.sem) 0
    ∗ owesPart d L O W)

def coreIdle : sProp 𝕄 :=
  iprop(Transfers.MayWaits (V d (cV L) (jV L)) (none : HIx 1) O
    ∗ ((xW).view.loc (V d (cV L) (jV L)) ↦{Transfers.shareTok q 5 3} X) ∗ ((xW).view.loc (V d (cV L) (jV L)) ↦{Transfers.shareTok q 5 4} X)
    ∗ ((tW).view.loc (V d (cV L) (jV L)) ↦{Transfers.shareTok q 5 0} Tp) ∗ ((tW).view.loc (V d (cV L) (jV L)) ↦{Transfers.shareTok q 5 1} Tp)
    ∗ (∃ g, ((r0).view.loc (V d (cV L) (jV L)) ↦{fullShare} g)) ∗ (∃ g, ((r1).view.loc (V d (cV L) (jV L)) ↦{fullShare} g))
    ∗ (∃ g, ((i0).view.loc (V d (cV L) (jV L)) ↦{fullShare} g)) ∗ (∃ g, ((i1).view.loc (V d (cV L) (jV L)) ↦{fullShare} g))
    ∗ semVal ((V d (cV L) (jV L)), SemLoc.dma cc0_scratch5.sem) 0 ∗ semVal ((V d (cV L) (jV L)), SemLoc.dma cc0_scratch6.sem) 0
    ∗ semVal ((V d (cV L) (jV L)), SemLoc.dma cc0_scratch8.sem) 0 ∗ semVal ((V d (cV L) (jV L)), SemLoc.dma cc0_scratch9.sem) 0
    ∗ owesPart d L O W)

/-- The staging scratch at rest. -/
def tbIdle : sProp 𝕄 := iprop((∃ f, ((tb).view.loc (V d (cV L) (jV L)) ↦{fullShare} f)) ∗ semVal ((V d (cV L) (jV L)), SemLoc.dma cc0_scratch7.sem) 0)

end Inv

/-- The transposition loops' invariants: the rows kept, the staging scratch done up to the trip. -/
def invR0 (d : Dev nD) (L : grid0.Coords) (R : Buf (Elt F) ((V d (cV L) (jV L)).loc cc0_scratch2)) (n : Nat) (_ : PUnit) : sProp 𝕄 :=
  iprop(((r0).view.loc (V d (cV L) (jV L)) ↦{fullShare} R) ∗ ∃ f, ⌜Done n R f⌝ ∗ ((tb).view.loc (V d (cV L) (jV L)) ↦{fullShare} f))
def invR1 (d : Dev nD) (L : grid0.Coords) (R : Buf (Elt F) ((V d (cV L) (jV L)).loc cc0_scratch3)) (n : Nat) (_ : PUnit) : sProp 𝕄 :=
  iprop(((r1).view.loc (V d (cV L) (jV L)) ↦{fullShare} R) ∗ ∃ f, ⌜Done n R f⌝ ∗ ((tb).view.loc (V d (cV L) (jV L)) ↦{fullShare} f))

/-- The first word of the body: the tile's first batch column. -/
def w2 (L : grid0.Coords) : BitVec 32 :=
  Scalar.muli (Scalar.addi (Scalar.muli (BitVec.ofNat 32 (L 1).val) 2#32) (BitVec.ofNat 32 (L 0).val)) 512#32

/-- One trip of the transposition loop over the first row buffer, as the chunk trips use it: the rows kept, the
    staging scratch done one trip further. -/
abbrev Inner2 (d : Dev nD) (L : grid0.Coords) : Prop :=
  ∀ (k : Fin k0_t1_loop.trips) (v245 v275 : BitVec 32) (g : Fin k0_t2_loop.trips) (R : Buf (Elt F) ((V d (cV L) (jV L)).loc cc0_scratch2)) (f : Buf (Elt F) ((V d (cV L) (jV L)).loc cc0_scratch4)),
    Done g.val R f →
    iprop(((r0).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ (k0_t2_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k v245 v275 g ())
          fun _ => iprop(((r0).view.loc (V d (cV L) (jV L)) ↦{fullShare} R) ∗ ∃ f', ⌜Done (g.val + 1) R f'⌝ ∗ ((tb).view.loc (V d (cV L) (jV L)) ↦{fullShare} f')) : sProp 𝕄)
abbrev Inner3 (d : Dev nD) (L : grid0.Coords) : Prop :=
  ∀ (k : Fin k0_t1_loop.trips) (v400 v401 v420 v421 : BitVec 32) (v422 v423 : BitVec 1) (g : Fin k0_t3_loop.trips) (R : Buf (Elt F) ((V d (cV L) (jV L)).loc cc0_scratch3)) (f : Buf (Elt F) ((V d (cV L) (jV L)).loc cc0_scratch4)),
    Done g.val R f →
    iprop(((r1).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ (k0_t3_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k v400 v401 v420 v421 v422 v423 g ())
          fun _ => iprop(((r1).view.loc (V d (cV L) (jV L)) ↦{fullShare} R) ∗ ∃ f', ⌜Done (g.val + 1) R f'⌝ ∗ ((tb).view.loc (V d (cV L) (jV L)) ↦{fullShare} f')) : sProp 𝕄)

/-- A wait recorded at the kernels' index keeps the record admissible. -/
theorem okW_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- A buffer's contents named, with the equation. -/
theorem pts_ex_eq {ℓ : Loc nD τ sig} {q : PosShare TreeShare} (f : Buf (Elt F) ℓ) :
    (ℓ ↦{q} f : sProp 𝕄) ⊢ iprop(∃ g, (ℓ ↦{q} g) ∗ ⌜g = f⌝) := by
  iintro H; iexists f; isplitl [H]; · iexact H
  ipureintro; rfl

omit [FloatOps F] in
/-- A fetched index list holds words of the flattened indices: each names a table row. -/
theorem hin_i0 (d : Dev nD) (L : grid0.Coords) (X : Buf (Elt F) ((V d (cV L) (jV L)).loc main_v1_scv)) (hX : ∀ j, (X j).toNat < 1000000)
    (g : Buf (Elt F) ((V d (cV L) (jV L)).loc cc0_scratch0)) (off : Fin 1 → Nat) (hoff : ∀ a, off a + S256.size a ≤ S819200.size a) (j : S256.Idx) :
    ((i0).view.read (Elt F) (View.write (Elt F) (i0).view g (ReadAs.same.apply (View.read (Elt F) ((xW).slice (Rect.unit (s := S819200) off S256.size hoff) (fun _ => rfl)).view X)) Finset.univ) j).toNat
      < N1M := by
  rw [View.write_whole_univ]
  simp only [Memref.view_whole, View.read_whole]
  have key : ∀ y, (ReadAs.same.apply (View.read (Elt F) ((xW).slice (Rect.unit (s := S819200) off S256.size hoff) (fun _ => rfl)).view X) y)
      = X (((xW).slice (Rect.unit (s := S819200) off S256.size hoff) (fun _ => rfl)).view.emb y) := fun y => (View.read_apply _ _).trans (cast_eq _ _)
  rw [key]; exact hX _
omit [FloatOps F] in
theorem hin_i1 (d : Dev nD) (L : grid0.Coords) (X : Buf (Elt F) ((V d (cV L) (jV L)).loc main_v1_scv)) (hX : ∀ j, (X j).toNat < 1000000)
    (g : Buf (Elt F) ((V d (cV L) (jV L)).loc cc0_scratch1)) (off : Fin 1 → Nat) (hoff : ∀ a, off a + S256.size a ≤ S819200.size a) (j : S256.Idx) :
    ((i1).view.read (Elt F) (View.write (Elt F) (i1).view g (ReadAs.same.apply (View.read (Elt F) ((xW).slice (Rect.unit (s := S819200) off S256.size hoff) (fun _ => rfl)).view X)) Finset.univ) j).toNat
      < N1M := by
  rw [View.write_whole_univ]
  simp only [Memref.view_whole, View.read_whole]
  have key : ∀ y, (ReadAs.same.apply (View.read (Elt F) ((xW).slice (Rect.unit (s := S819200) off S256.size hoff) (fun _ => rfl)).view X) y)
      = X (((xW).slice (Rect.unit (s := S819200) off S256.size hoff) (fun _ => rfl)).view.emb y) := fun y => (View.read_apply _ _).trans (cast_eq _ _)
  rw [key]; exact hX _

end Cert.Proof.KB
end
-- ==== Proof.KOffB.lean ====
import proofs.«206429_g47863115546636_cont_8to1c4_619_32_alg».proof.Proof.Gen.Kernel

/-! Closed forms of the offsets of the sixteen pieces a chunk's copy-out writes: the chunk's row of the result, eight
    feature rows, and 128 of the tile's batch columns. -/
set_option Elab.async false

namespace Cert.Proof.KB
open Cert.Kernel Cert.Kernel.Gen Idealize.ShloMosaic

theorem off12_eq : ∀ (L : grid0.Coords) (k : Fin k0_t1_loop.trips) (r₁ r₂ : Fin 2),
    k0_off12 L k (BitVec.ofNat 32 r₁.val) (BitVec.ofNat 32 (128 * r₂.val))
      = ![k.val, 0, 1024 * (L 1).val + 512 * (L 0).val + 256 * r₁.val + 128 * r₂.val] := by decide +kernel
theorem off13_eq : ∀ (L : grid0.Coords) (k : Fin k0_t1_loop.trips) (r₁ r₂ : Fin 2),
    k0_off13 L k (BitVec.ofNat 32 r₁.val) (BitVec.ofNat 32 (128 * r₂.val))
      = ![k.val, 8, 1024 * (L 1).val + 512 * (L 0).val + 256 * r₁.val + 128 * r₂.val] := by decide +kernel
theorem off14_eq : ∀ (L : grid0.Coords) (k : Fin k0_t1_loop.trips) (r₁ r₂ : Fin 2),
    k0_off14 L k (BitVec.ofNat 32 r₁.val) (BitVec.ofNat 32 (128 * r₂.val))
      = ![k.val, 16, 1024 * (L 1).val + 512 * (L 0).val + 256 * r₁.val + 128 * r₂.val] := by decide +kernel
theorem off15_eq : ∀ (L : grid0.Coords) (k : Fin k0_t1_loop.trips) (r₁ r₂ : Fin 2),
    k0_off15 L k (BitVec.ofNat 32 r₁.val) (BitVec.ofNat 32 (128 * r₂.val))
      = ![k.val, 24, 1024 * (L 1).val + 512 * (L 0).val + 256 * r₁.val + 128 * r₂.val] := by decide +kernel
theorem off16_eq : ∀ (L : grid0.Coords) (k : Fin k0_t1_loop.trips) (r₁ r₂ : Fin 2),
    k0_off16 L k (BitVec.ofNat 32 r₁.val) (BitVec.ofNat 32 (128 * r₂.val))
      = ![k.val, 32, 1024 * (L 1).val + 512 * (L 0).val + 256 * r₁.val + 128 * r₂.val] := by decide +kernel
theorem off17_eq : ∀ (L : grid0.Coords) (k : Fin k0_t1_loop.trips) (r₁ r₂ : Fin 2),
    k0_off17 L k (BitVec.ofNat 32 r₁.val) (BitVec.ofNat 32 (128 * r₂.val))
      = ![k.val, 40, 1024 * (L 1).val + 512 * (L 0).val + 256 * r₁.val + 128 * r₂.val] := by decide +kernel
theorem off18_eq : ∀ (L : grid0.Coords) (k : Fin k0_t1_loop.trips) (r₁ r₂ : Fin 2),
    k0_off18 L k (BitVec.ofNat 32 r₁.val) (BitVec.ofNat 32 (128 * r₂.val))
      = ![k.val, 48, 1024 * (L 1).val + 512 * (L 0).val + 256 * r₁.val + 128 * r₂.val] := by decide +kernel
theorem off19_eq : ∀ (L : grid0.Coords) (k : Fin k0_t1_loop.trips) (r₁ r₂ : Fin 2),
    k0_off19 L k (BitVec.ofNat 32 r₁.val) (BitVec.ofNat 32 (128 * r₂.val))
      = ![k.val, 56, 1024 * (L 1).val + 512 * (L 0).val + 256 * r₁.val + 128 * r₂.val] := by decide +kernel

end Cert.Proof.KB
-- ==== Proof.KTileB.lean ====
/-
  A tile's share of the result, piece by piece, and what its scratches hold.

  A tile (SparseCore c, subcore i; worker 2 i + c) owns 512 batch columns of the result [50, 64, 16384], columns
  1024 i + 512 c onward. Its loop makes fifty trips, one per history row k; a trip has two chunks of 256 columns
  (b = 0, 1), and a chunk is written out as sixteen pieces of eight feature rows by 128 columns: piece t covers
  feature rows 8 (t / 2) … 8 (t / 2) + 7 and columns 1024 i + 512 c + 256 b + 128 (t mod 2) onward, 128 of them.
  The 1600 pieces are pairwise disjoint and cover exactly the tile's columns, so holding the columns is holding the
  pieces, and pieces each right on its own rectangle join to the columns right everywhere.

  The values: a chunk's 256 indices are a stretch of the flattened index list starting at 16384 k + (the tile's
  first column) + 256 b; the gathered rows are the padded table's rows those indices name; the staging scratch holds
  them transposed and scaled by eight; and piece t copies out rows 8 t … 8 t + 7 of the staging scratch, which at
  result position (k, r, q) is eight times the table's entry at the row named by index 16384 k + q, column r: the
  specified result.
-/
import proofs.«206429_g47863115546636_cont_8to1c4_619_32_alg».proof.Proof.KPredB
import proofs.«206429_g47863115546636_cont_8to1c4_619_32_alg».proof.Proof.KInvB
import proofs.«206429_g47863115546636_cont_8to1c4_619_32_alg».proof.Proof.KOffB
noncomputable section
namespace Cert.Proof.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KWB

variable {F : FTy → Type}
local notation "𝕄" => MT nD τ sig (HIx 1) (Elt F) ℕ UU ℕ
local notation "xW" => (Memref.whole main_v1_scv : Memref sig Kind.scVector Space.hbm S819200 EltTy.i32)
local notation "tW" => (Memref.whole main_v2_scv : Memref sig Kind.scVector Space.hbm S1000000x128 EltTy.f32)
local notation "oW" => (Memref.whole main_v3_scv : Memref sig Kind.scVector Space.hbm S50x64x16384 EltTy.f32)
local notation "i0" => (Memref.whole cc0_scratch0 : Memref sig Kind.scVector Space.vmem S256 EltTy.i32)
local notation "i1" => (Memref.whole cc0_scratch1 : Memref sig Kind.scVector Space.vmem S256 EltTy.i32)
local notation "r0" => (Memref.whole cc0_scratch2 : Memref sig Kind.scVector Space.vmem S256x128 EltTy.f32)
local notation "r1" => (Memref.whole cc0_scratch3 : Memref sig Kind.scVector Space.vmem S256x128 EltTy.f32)
local notation "tb" => (Memref.whole cc0_scratch4 : Memref sig Kind.scVector Space.vmem S128x128 EltTy.f32)

/-! ## The two index prefetches inside the loop -/

set_option Elab.async false in
theorem off3_eq' : ∀ (L : grid0.Coords) (k : Fin k0_t1_loop.trips), k0_cond2 k = 1#1 → k0_off3 L k = ![xoff L (kOf (k.val + 1)) 0] := by
  decide +kernel
set_option Elab.async false in
theorem off21_eq' : ∀ (L : grid0.Coords) (k : Fin k0_t1_loop.trips), k0_cond5 k = 1#1 → k0_off21 L k = ![xoff L (kOf (k.val + 1)) 1] := by
  decide +kernel

/-- The first chunk's prefetch inside trip k fetches the next trip's first 256 indices. -/
theorem off3_eq (L : grid0.Coords) (k : Fin k0_t1_loop.trips) (h2 : k0_cond2 k = 1#1) : k0_off3 L k = ![xoff L (kOf (k.val + 1)) 0] :=
  off3_eq' L k h2
/-- The second chunk's prefetch inside trip k fetches the next trip's second 256 indices. -/
theorem off21_eq (L : grid0.Coords) (k : Fin k0_t1_loop.trips) (h5 : k0_cond5 k = 1#1) : k0_off21 L k = ![xoff L (kOf (k.val + 1)) 1] :=
  off21_eq' L k h5

/-! ## The pieces as rectangles: disjoint, and covering the tile's columns -/

theorem sl_inb (L : grid0.Coords) (k : Fin k0_t1_loop.trips) (b : Fin 2) (t : Fin 16) :
    ∀ a, (![k.val, 8 * (t.val / 2), wbL L + 256 * b.val + 128 * (t.val % 2)] : Fin 3 → ℕ) a + S1x8x128.size a ≤ S50x64x16384.size a := by
  have hk : k.val < 50 := by have h1 := k.isLt; have h2 := trips1; omega
  have hL := L_bounds L; have hb := b.isLt; have ht := t.isLt
  intro a
  match a with
  | 0 => show k.val + 1 ≤ 50; omega
  | 1 => show 8 * (t.val / 2) + 8 ≤ 64; omega
  | 2 => show wbL L + 256 * b.val + 128 * (t.val % 2) + 128 ≤ 16384; unfold wbL; omega

abbrev slRect (L : grid0.Coords) (k : Fin k0_t1_loop.trips) (b : Fin 2) (t : Fin 16) : Rect S50x64x16384 :=
  Rect.unit (s := S50x64x16384) ![k.val, 8 * (t.val / 2), wbL L + 256 * b.val + 128 * (t.val % 2)] S1x8x128.size (sl_inb L k b t)

theorem mem_slRect (L : grid0.Coords) (k : Fin k0_t1_loop.trips) (b : Fin 2) (t : Fin 16) (p : S50x64x16384.Idx) :
    p ∈ (slRect L k b t).set ↔ (p 0).val = k.val ∧ 8 * (t.val / 2) ≤ (p 1).val ∧ (p 1).val < 8 * (t.val / 2) + 8
      ∧ wbL L + 256 * b.val + 128 * (t.val % 2) ≤ (p 2).val ∧ (p 2).val < wbL L + 256 * b.val + 128 * (t.val % 2) + 128 := by
  rw [Rect.mem_set_unit]
  constructor
  · intro h
    have h0 := h 0; have h1 := h 1; have h2 := h 2
    have e0 : k.val ≤ (p 0).val ∧ (p 0).val < k.val + 1 := h0
    have e1 : 8 * (t.val / 2) ≤ (p 1).val ∧ (p 1).val < 8 * (t.val / 2) + 8 := h1
    have e2 : wbL L + 256 * b.val + 128 * (t.val % 2) ≤ (p 2).val ∧ (p 2).val < wbL L + 256 * b.val + 128 * (t.val % 2) + 128 := h2
    omega
  · intro h a
    match a with
    | 0 => show k.val ≤ (p 0).val ∧ (p 0).val < k.val + 1; omega
    | 1 => show 8 * (t.val / 2) ≤ (p 1).val ∧ (p 1).val < 8 * (t.val / 2) + 8; omega
    | 2 => show wbL L + 256 * b.val + 128 * (t.val % 2) ≤ (p 2).val ∧ (p 2).val < wbL L + 256 * b.val + 128 * (t.val % 2) + 128; omega

theorem mem_colsSet (w : Fin 32) (p : S50x64x16384.Idx) : p ∈ colsSet w ↔ 512 * w.val ≤ (p 2).val ∧ (p 2).val < 512 * w.val + 512 := by
  unfold colsSet colsRect Rect.part Rect.block
  rw [Rect.mem_set_unit]
  have p0 : (p 0).val < 50 := (p 0).isLt
  have p1 : (p 1).val < 64 := (p 1).isLt
  constructor
  · intro h
    have h2 := h 2
    have e2 : w.val * 512 ≤ (p 2).val ∧ (p 2).val < w.val * 512 + 512 := h2
    omega
  · intro h a
    match a with
    | 0 => show 0 * 50 ≤ (p 0).val ∧ (p 0).val < 0 * 50 + 50; omega
    | 1 => show 0 * 64 ≤ (p 1).val ∧ (p 1).val < 0 * 64 + 64; omega
    | 2 => show w.val * 512 ≤ (p 2).val ∧ (p 2).val < w.val * 512 + 512; omega

theorem sl_disj (L : grid0.Coords) (x y : Fin k0_t1_loop.trips × Fin 2 × Fin 16) (h : x ≠ y) :
    Disjoint (slRect L x.1 x.2.1 x.2.2).set (slRect L y.1 y.2.1 y.2.2).set := by
  rw [Finset.disjoint_left]; intro p hx hy
  rw [mem_slRect] at hx hy
  obtain ⟨k, b, t⟩ := x; obtain ⟨k', b', t'⟩ := y
  apply h
  have hb := b.isLt; have hb' := b'.isLt; have ht := t.isLt; have ht' := t'.isLt
  simp only at hx hy
  refine Prod.ext (Fin.ext ?_) (Prod.ext (Fin.ext ?_) (Fin.ext ?_)) <;> simp only <;> omega

theorem sl_cover (L : grid0.Coords) :
    (Finset.univ : Finset (Fin k0_t1_loop.trips × Fin 2 × Fin 16)).biUnion (fun x => (slRect L x.1 x.2.1 x.2.2).set) = colsSet (widL L) := by
  ext p
  simp only [Finset.mem_biUnion, Finset.mem_univ, true_and, mem_slRect, mem_colsSet]
  have hL := L_bounds L
  have p0 : (p 0).val < 50 := (p 0).isLt
  have p1 : (p 1).val < 64 := (p 1).isLt
  constructor
  · rintro ⟨⟨k, b, t⟩, h⟩
    have hb := b.isLt; have ht := t.isLt
    simp only at h
    unfold widL wbL at *
    simp only
    omega
  · intro h
    unfold widL at h; simp only at h
    have hw : wbL L = 512 * (2 * (L 1).val + (L 0).val) := by unfold wbL; omega
    obtain ⟨q, hq⟩ : ∃ q, (p 2).val = wbL L + q := ⟨(p 2).val - wbL L, by omega⟩
    have hq2 : q < 512 := by omega
    have hb : q / 256 < 2 := by omega
    have ht : 2 * ((p 1).val / 8) + (q % 256) / 128 < 16 := by omega
    have p2 : (p 2).val < 16384 := (p 2).isLt
    have e1 : (2 * ((p 1).val / 8) + (q % 256) / 128) / 2 = (p 1).val / 8 := by omega
    have e2 : (2 * ((p 1).val / 8) + (q % 256) / 128) % 2 = (q % 256) / 128 := by omega
    refine ⟨⟨⟨(p 0).val, by rw [trips1]; exact p0⟩, ⟨q / 256, hb⟩, ⟨2 * ((p 1).val / 8) + (q % 256) / 128, ht⟩⟩, ?_⟩
    show (p 0).val = (p 0).val ∧ 8 * ((2 * ((p 1).val / 8) + (q % 256) / 128) / 2) ≤ (p 1).val
      ∧ (p 1).val < 8 * ((2 * ((p 1).val / 8) + (q % 256) / 128) / 2) + 8
      ∧ wbL L + 256 * (q / 256) + 128 * ((2 * ((p 1).val / 8) + (q % 256) / 128) % 2) ≤ (p 2).val
      ∧ (p 2).val < wbL L + 256 * (q / 256) + 128 * ((2 * ((p 1).val / 8) + (q % 256) / 128) % 2) + 128
    rw [e1, e2]
    refine ⟨rfl, ?_, ?_, ?_, ?_⟩ <;> omega

variable [FloatOps F]

/-! ## The thirty-two pieces a trip writes, as rectangles of the result -/

omit [FloatOps F] in
/-- A piece's memref — the slice of the whole result at an offset, its unit axis squeezed away — reaches exactly the
    offset's rectangle. -/
theorem dM_set_gen (L : grid0.Coords) (k : Fin k0_t1_loop.trips) (off : Fin 3 → ℕ) (inb : ∀ a, off a + S1x8x128.size a ≤ S50x64x16384.size a)
    (b : Fin 2) (t : Fin 16) (hoff : off = ![k.val, 8 * (t.val / 2), wbL L + 256 * b.val + 128 * (t.val % 2)]) :
    (((oW).slice (Rect.unit (s := S50x64x16384) off S1x8x128.size inb) (fun _ => rfl)).squeeze S8x128 squeezes_S1x8x128_S8x128).view.set
      = (slRect L k b t).set := by
  subst hoff
  show (((oW).view.slice (Rect.unit (s := S50x64x16384) ![k.val, 8 * (t.val / 2), wbL L + 256 * b.val + 128 * (t.val % 2)] S1x8x128.size inb)).reshape
      S8x128 squeezes_S1x8x128_S8x128.numel_eq).set = _
  rw [View.set_reshape]
  exact View.set_slice_whole main_v3_scv _

omit [FloatOps F] in
theorem dM0_0_set (L : grid0.Coords) (k : Fin k0_t1_loop.trips) : (dM0_0 L k).view.set = (slRect L k 0 0).set :=
  dM_set_gen L k _ _ 0 0 (off12_eq L k 0 0)
omit [FloatOps F] in
theorem dM0_1_set (L : grid0.Coords) (k : Fin k0_t1_loop.trips) : (dM0_1 L k).view.set = (slRect L k 0 1).set :=
  dM_set_gen L k _ _ 0 1 (off12_eq L k 0 1)
omit [FloatOps F] in
theorem dM0_2_set (L : grid0.Coords) (k : Fin k0_t1_loop.trips) : (dM0_2 L k).view.set = (slRect L k 0 2).set :=
  dM_set_gen L k _ _ 0 2 (off13_eq L k 0 0)
omit [FloatOps F] in
theorem dM0_3_set (L : grid0.Coords) (k : Fin k0_t1_loop.trips) : (dM0_3 L k).view.set = (slRect L k 0 3).set :=
  dM_set_gen L k _ _ 0 3 (off13_eq L k 0 1)
omit [FloatOps F] in
theorem dM0_4_set (L : grid0.Coords) (k : Fin k0_t1_loop.trips) : (dM0_4 L k).view.set = (slRect L k 0 4).set :=
  dM_set_gen L k _ _ 0 4 (off14_eq L k 0 0)
omit [FloatOps F] in
theorem dM0_5_set (L : grid0.Coords) (k : Fin k0_t1_loop.trips) : (dM0_5 L k).view.set = (slRect L k 0 5).set :=
  dM_set_gen L k _ _ 0 5 (off14_eq L k 0 1)
omit [FloatOps F] in
theorem dM0_6_set (L : grid0.Coords) (k : Fin k0_t1_loop.trips) : (dM0_6 L k).view.set = (slRect L k 0 6).set :=
  dM_set_gen L k _ _ 0 6 (off15_eq L k 0 0)
omit [FloatOps F] in
theorem dM0_7_set (L : grid0.Coords) (k : Fin k0_t1_loop.trips) : (dM0_7 L k).view.set = (slRect L k 0 7).set :=
  dM_set_gen L k _ _ 0 7 (off15_eq L k 0 1)
omit [FloatOps F] in
theorem dM0_8_set (L : grid0.Coords) (k : Fin k0_t1_loop.trips) : (dM0_8 L k).view.set = (slRect L k 0 8).set :=
  dM_set_gen L k _ _ 0 8 (off16_eq L k 0 0)
omit [FloatOps F] in
theorem dM0_9_set (L : grid0.Coords) (k : Fin k0_t1_loop.trips) : (dM0_9 L k).view.set = (slRect L k 0 9).set :=
  dM_set_gen L k _ _ 0 9 (off16_eq L k 0 1)
omit [FloatOps F] in
theorem dM0_10_set (L : grid0.Coords) (k : Fin k0_t1_loop.trips) : (dM0_10 L k).view.set = (slRect L k 0 10).set :=
  dM_set_gen L k _ _ 0 10 (off17_eq L k 0 0)
omit [FloatOps F] in
theorem dM0_11_set (L : grid0.Coords) (k : Fin k0_t1_loop.trips) : (dM0_11 L k).view.set = (slRect L k 0 11).set :=
  dM_set_gen L k _ _ 0 11 (off17_eq L k 0 1)
omit [FloatOps F] in
theorem dM0_12_set (L : grid0.Coords) (k : Fin k0_t1_loop.trips) : (dM0_12 L k).view.set = (slRect L k 0 12).set :=
  dM_set_gen L k _ _ 0 12 (off18_eq L k 0 0)
omit [FloatOps F] in
theorem dM0_13_set (L : grid0.Coords) (k : Fin k0_t1_loop.trips) : (dM0_13 L k).view.set = (slRect L k 0 13).set :=
  dM_set_gen L k _ _ 0 13 (off18_eq L k 0 1)
omit [FloatOps F] in
theorem dM0_14_set (L : grid0.Coords) (k : Fin k0_t1_loop.trips) : (dM0_14 L k).view.set = (slRect L k 0 14).set :=
  dM_set_gen L k _ _ 0 14 (off19_eq L k 0 0)
omit [FloatOps F] in
theorem dM0_15_set (L : grid0.Coords) (k : Fin k0_t1_loop.trips) : (dM0_15 L k).view.set = (slRect L k 0 15).set :=
  dM_set_gen L k _ _ 0 15 (off19_eq L k 0 1)
omit [FloatOps F] in
theorem dM1_0_set (L : grid0.Coords) (k : Fin k0_t1_loop.trips) : (dM1_0 L k).view.set = (slRect L k 1 0).set :=
  dM_set_gen L k _ _ 1 0 (off12_eq L k 1 0)
omit [FloatOps F] in
theorem dM1_1_set (L : grid0.Coords) (k : Fin k0_t1_loop.trips) : (dM1_1 L k).view.set = (slRect L k 1 1).set :=
  dM_set_gen L k _ _ 1 1 (off12_eq L k 1 1)
omit [FloatOps F] in
theorem dM1_2_set (L : grid0.Coords) (k : Fin k0_t1_loop.trips) : (dM1_2 L k).view.set = (slRect L k 1 2).set :=
  dM_set_gen L k _ _ 1 2 (off13_eq L k 1 0)
omit [FloatOps F] in
theorem dM1_3_set (L : grid0.Coords) (k : Fin k0_t1_loop.trips) : (dM1_3 L k).view.set = (slRect L k 1 3).set :=
  dM_set_gen L k _ _ 1 3 (off13_eq L k 1 1)
omit [FloatOps F] in
theorem dM1_4_set (L : grid0.Coords) (k : Fin k0_t1_loop.trips) : (dM1_4 L k).view.set = (slRect L k 1 4).set :=
  dM_set_gen L k _ _ 1 4 (off14_eq L k 1 0)
omit [FloatOps F] in
theorem dM1_5_set (L : grid0.Coords) (k : Fin k0_t1_loop.trips) : (dM1_5 L k).view.set = (slRect L k 1 5).set :=
  dM_set_gen L k _ _ 1 5 (off14_eq L k 1 1)
omit [FloatOps F] in
theorem dM1_6_set (L : grid0.Coords) (k : Fin k0_t1_loop.trips) : (dM1_6 L k).view.set = (slRect L k 1 6).set :=
  dM_set_gen L k _ _ 1 6 (off15_eq L k 1 0)
omit [FloatOps F] in
theorem dM1_7_set (L : grid0.Coords) (k : Fin k0_t1_loop.trips) : (dM1_7 L k).view.set = (slRect L k 1 7).set :=
  dM_set_gen L k _ _ 1 7 (off15_eq L k 1 1)
omit [FloatOps F] in
theorem dM1_8_set (L : grid0.Coords) (k : Fin k0_t1_loop.trips) : (dM1_8 L k).view.set = (slRect L k 1 8).set :=
  dM_set_gen L k _ _ 1 8 (off16_eq L k 1 0)
omit [FloatOps F] in
theorem dM1_9_set (L : grid0.Coords) (k : Fin k0_t1_loop.trips) : (dM1_9 L k).view.set = (slRect L k 1 9).set :=
  dM_set_gen L k _ _ 1 9 (off16_eq L k 1 1)
omit [FloatOps F] in
theorem dM1_10_set (L : grid0.Coords) (k : Fin k0_t1_loop.trips) : (dM1_10 L k).view.set = (slRect L k 1 10).set :=
  dM_set_gen L k _ _ 1 10 (off17_eq L k 1 0)
omit [FloatOps F] in
theorem dM1_11_set (L : grid0.Coords) (k : Fin k0_t1_loop.trips) : (dM1_11 L k).view.set = (slRect L k 1 11).set :=
  dM_set_gen L k _ _ 1 11 (off17_eq L k 1 1)
omit [FloatOps F] in
theorem dM1_12_set (L : grid0.Coords) (k : Fin k0_t1_loop.trips) : (dM1_12 L k).view.set = (slRect L k 1 12).set :=
  dM_set_gen L k _ _ 1 12 (off18_eq L k 1 0)
omit [FloatOps F] in
theorem dM1_13_set (L : grid0.Coords) (k : Fin k0_t1_loop.trips) : (dM1_13 L k).view.set = (slRect L k 1 13).set :=
  dM_set_gen L k _ _ 1 13 (off18_eq L k 1 1)
omit [FloatOps F] in
theorem dM1_14_set (L : grid0.Coords) (k : Fin k0_t1_loop.trips) : (dM1_14 L k).view.set = (slRect L k 1 14).set :=
  dM_set_gen L k _ _ 1 14 (off19_eq L k 1 0)
omit [FloatOps F] in
theorem dM1_15_set (L : grid0.Coords) (k : Fin k0_t1_loop.trips) : (dM1_15 L k).view.set = (slRect L k 1 15).set :=
  dM_set_gen L k _ _ 1 15 (off19_eq L k 1 1)

/-! ## One piece, before and after its chunk -/

/-- A piece held at some contents, nothing claimed of it. -/
theorem piece_of (d : Dev nD) (L : grid0.Coords) (X : Buf (Elt F) ((V d (cV L) (jV L)).loc main_v1_scv)) (Tp : Buf (Elt F) ((V d (cV L) (jV L)).loc main_v2_scv))
    (S : Finset S50x64x16384.Idx) (f : Buf (Elt F) (oLoc d)) :
    (oLoc d ↦[S]{fullShare} f : sProp 𝕄) ⊢ iprop(∃ g : Buf (Elt F) (oLoc d), (oLoc d ↦[S]{fullShare} g) ∗ ⌜False → GdOK X Tp S g⌝) := by
  iintro H
  iexists f
  isplitl [H]; · iexact H
  ipureintro; exact fun h => h.elim

/-- A piece held at contents that are right on it. -/
theorem piece_to (d : Dev nD) (L : grid0.Coords) (X : Buf (Elt F) ((V d (cV L) (jV L)).loc main_v1_scv)) (Tp : Buf (Elt F) ((V d (cV L) (jV L)).loc main_v2_scv))
    (S : Finset S50x64x16384.Idx) :
    (iprop(∃ g : Buf (Elt F) (oLoc d), (oLoc d ↦[S]{fullShare} g) ∗ ⌜True → GdOK X Tp S g⌝) : sProp 𝕄)
      ⊢ iprop(∃ g : Buf (Elt F) (oLoc d), ⌜GdOK X Tp S g⌝ ∗ oLoc d ↦[S]{fullShare} g) := by
  iintro ⟨%g, H, %hg⟩
  iexists g
  isplitr; · ipureintro; exact hg trivial
  iexact H

theorem dM0_0_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 0).set]{fullShare} f : sProp 𝕄)
      ⊢ iprop(∃ g, ((dM0_0 L k).view.loc (V d (cV L) (jV L)) ↦[(dM0_0 L k).view.set]{fullShare} g) ∗ ⌜False → GdOK X Tp (dM0_0 L k).view.set g⌝) := by
  rw [dM0_0_set]; exact piece_of d L X Tp _ f
theorem dM0_0_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_0 L k).view.loc (V d (cV L) (jV L)) ↦[(dM0_0 L k).view.set]{fullShare} g) ∗ ⌜True → GdOK X Tp (dM0_0 L k).view.set g⌝) : sProp 𝕄)
      ⊢ iprop(∃ g : Buf (Elt F) (oLoc d), ⌜GdOK X Tp (slRect L k 0 0).set g⌝ ∗ oLoc d ↦[(slRect L k 0 0).set]{fullShare} g) := by
  rw [dM0_0_set]; exact piece_to d L X Tp _
theorem dM0_1_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 1).set]{fullShare} f : sProp 𝕄)
      ⊢ iprop(∃ g, ((dM0_1 L k).view.loc (V d (cV L) (jV L)) ↦[(dM0_1 L k).view.set]{fullShare} g) ∗ ⌜False → GdOK X Tp (dM0_1 L k).view.set g⌝) := by
  rw [dM0_1_set]; exact piece_of d L X Tp _ f
theorem dM0_1_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_1 L k).view.loc (V d (cV L) (jV L)) ↦[(dM0_1 L k).view.set]{fullShare} g) ∗ ⌜True → GdOK X Tp (dM0_1 L k).view.set g⌝) : sProp 𝕄)
      ⊢ iprop(∃ g : Buf (Elt F) (oLoc d), ⌜GdOK X Tp (slRect L k 0 1).set g⌝ ∗ oLoc d ↦[(slRect L k 0 1).set]{fullShare} g) := by
  rw [dM0_1_set]; exact piece_to d L X Tp _
theorem dM0_2_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 2).set]{fullShare} f : sProp 𝕄)
      ⊢ iprop(∃ g, ((dM0_2 L k).view.loc (V d (cV L) (jV L)) ↦[(dM0_2 L k).view.set]{fullShare} g) ∗ ⌜False → GdOK X Tp (dM0_2 L k).view.set g⌝) := by
  rw [dM0_2_set]; exact piece_of d L X Tp _ f
theorem dM0_2_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_2 L k).view.loc (V d (cV L) (jV L)) ↦[(dM0_2 L k).view.set]{fullShare} g) ∗ ⌜True → GdOK X Tp (dM0_2 L k).view.set g⌝) : sProp 𝕄)
      ⊢ iprop(∃ g : Buf (Elt F) (oLoc d), ⌜GdOK X Tp (slRect L k 0 2).set g⌝ ∗ oLoc d ↦[(slRect L k 0 2).set]{fullShare} g) := by
  rw [dM0_2_set]; exact piece_to d L X Tp _
theorem dM0_3_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 3).set]{fullShare} f : sProp 𝕄)
      ⊢ iprop(∃ g, ((dM0_3 L k).view.loc (V d (cV L) (jV L)) ↦[(dM0_3 L k).view.set]{fullShare} g) ∗ ⌜False → GdOK X Tp (dM0_3 L k).view.set g⌝) := by
  rw [dM0_3_set]; exact piece_of d L X Tp _ f
theorem dM0_3_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_3 L k).view.loc (V d (cV L) (jV L)) ↦[(dM0_3 L k).view.set]{fullShare} g) ∗ ⌜True → GdOK X Tp (dM0_3 L k).view.set g⌝) : sProp 𝕄)
      ⊢ iprop(∃ g : Buf (Elt F) (oLoc d), ⌜GdOK X Tp (slRect L k 0 3).set g⌝ ∗ oLoc d ↦[(slRect L k 0 3).set]{fullShare} g) := by
  rw [dM0_3_set]; exact piece_to d L X Tp _
theorem dM0_4_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 4).set]{fullShare} f : sProp 𝕄)
      ⊢ iprop(∃ g, ((dM0_4 L k).view.loc (V d (cV L) (jV L)) ↦[(dM0_4 L k).view.set]{fullShare} g) ∗ ⌜False → GdOK X Tp (dM0_4 L k).view.set g⌝) := by
  rw [dM0_4_set]; exact piece_of d L X Tp _ f
theorem dM0_4_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_4 L k).view.loc (V d (cV L) (jV L)) ↦[(dM0_4 L k).view.set]{fullShare} g) ∗ ⌜True → GdOK X Tp (dM0_4 L k).view.set g⌝) : sProp 𝕄)
      ⊢ iprop(∃ g : Buf (Elt F) (oLoc d), ⌜GdOK X Tp (slRect L k 0 4).set g⌝ ∗ oLoc d ↦[(slRect L k 0 4).set]{fullShare} g) := by
  rw [dM0_4_set]; exact piece_to d L X Tp _
theorem dM0_5_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 5).set]{fullShare} f : sProp 𝕄)
      ⊢ iprop(∃ g, ((dM0_5 L k).view.loc (V d (cV L) (jV L)) ↦[(dM0_5 L k).view.set]{fullShare} g) ∗ ⌜False → GdOK X Tp (dM0_5 L k).view.set g⌝) := by
  rw [dM0_5_set]; exact piece_of d L X Tp _ f
theorem dM0_5_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_5 L k).view.loc (V d (cV L) (jV L)) ↦[(dM0_5 L k).view.set]{fullShare} g) ∗ ⌜True → GdOK X Tp (dM0_5 L k).view.set g⌝) : sProp 𝕄)
      ⊢ iprop(∃ g : Buf (Elt F) (oLoc d), ⌜GdOK X Tp (slRect L k 0 5).set g⌝ ∗ oLoc d ↦[(slRect L k 0 5).set]{fullShare} g) := by
  rw [dM0_5_set]; exact piece_to d L X Tp _
theorem dM0_6_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 6).set]{fullShare} f : sProp 𝕄)
      ⊢ iprop(∃ g, ((dM0_6 L k).view.loc (V d (cV L) (jV L)) ↦[(dM0_6 L k).view.set]{fullShare} g) ∗ ⌜False → GdOK X Tp (dM0_6 L k).view.set g⌝) := by
  rw [dM0_6_set]; exact piece_of d L X Tp _ f
theorem dM0_6_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_6 L k).view.loc (V d (cV L) (jV L)) ↦[(dM0_6 L k).view.set]{fullShare} g) ∗ ⌜True → GdOK X Tp (dM0_6 L k).view.set g⌝) : sProp 𝕄)
      ⊢ iprop(∃ g : Buf (Elt F) (oLoc d), ⌜GdOK X Tp (slRect L k 0 6).set g⌝ ∗ oLoc d ↦[(slRect L k 0 6).set]{fullShare} g) := by
  rw [dM0_6_set]; exact piece_to d L X Tp _
theorem dM0_7_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 7).set]{fullShare} f : sProp 𝕄)
      ⊢ iprop(∃ g, ((dM0_7 L k).view.loc (V d (cV L) (jV L)) ↦[(dM0_7 L k).view.set]{fullShare} g) ∗ ⌜False → GdOK X Tp (dM0_7 L k).view.set g⌝) := by
  rw [dM0_7_set]; exact piece_of d L X Tp _ f
theorem dM0_7_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_7 L k).view.loc (V d (cV L) (jV L)) ↦[(dM0_7 L k).view.set]{fullShare} g) ∗ ⌜True → GdOK X Tp (dM0_7 L k).view.set g⌝) : sProp 𝕄)
      ⊢ iprop(∃ g : Buf (Elt F) (oLoc d), ⌜GdOK X Tp (slRect L k 0 7).set g⌝ ∗ oLoc d ↦[(slRect L k 0 7).set]{fullShare} g) := by
  rw [dM0_7_set]; exact piece_to d L X Tp _
theorem dM0_8_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 8).set]{fullShare} f : sProp 𝕄)
      ⊢ iprop(∃ g, ((dM0_8 L k).view.loc (V d (cV L) (jV L)) ↦[(dM0_8 L k).view.set]{fullShare} g) ∗ ⌜False → GdOK X Tp (dM0_8 L k).view.set g⌝) := by
  rw [dM0_8_set]; exact piece_of d L X Tp _ f
theorem dM0_8_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_8 L k).view.loc (V d (cV L) (jV L)) ↦[(dM0_8 L k).view.set]{fullShare} g) ∗ ⌜True → GdOK X Tp (dM0_8 L k).view.set g⌝) : sProp 𝕄)
      ⊢ iprop(∃ g : Buf (Elt F) (oLoc d), ⌜GdOK X Tp (slRect L k 0 8).set g⌝ ∗ oLoc d ↦[(slRect L k 0 8).set]{fullShare} g) := by
  rw [dM0_8_set]; exact piece_to d L X Tp _
theorem dM0_9_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 9).set]{fullShare} f : sProp 𝕄)
      ⊢ iprop(∃ g, ((dM0_9 L k).view.loc (V d (cV L) (jV L)) ↦[(dM0_9 L k).view.set]{fullShare} g) ∗ ⌜False → GdOK X Tp (dM0_9 L k).view.set g⌝) := by
  rw [dM0_9_set]; exact piece_of d L X Tp _ f
theorem dM0_9_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_9 L k).view.loc (V d (cV L) (jV L)) ↦[(dM0_9 L k).view.set]{fullShare} g) ∗ ⌜True → GdOK X Tp (dM0_9 L k).view.set g⌝) : sProp 𝕄)
      ⊢ iprop(∃ g : Buf (Elt F) (oLoc d), ⌜GdOK X Tp (slRect L k 0 9).set g⌝ ∗ oLoc d ↦[(slRect L k 0 9).set]{fullShare} g) := by
  rw [dM0_9_set]; exact piece_to d L X Tp _
theorem dM0_10_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 10).set]{fullShare} f : sProp 𝕄)
      ⊢ iprop(∃ g, ((dM0_10 L k).view.loc (V d (cV L) (jV L)) ↦[(dM0_10 L k).view.set]{fullShare} g) ∗ ⌜False → GdOK X Tp (dM0_10 L k).view.set g⌝) := by
  rw [dM0_10_set]; exact piece_of d L X Tp _ f
theorem dM0_10_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_10 L k).view.loc (V d (cV L) (jV L)) ↦[(dM0_10 L k).view.set]{fullShare} g) ∗ ⌜True → GdOK X Tp (dM0_10 L k).view.set g⌝) : sProp 𝕄)
      ⊢ iprop(∃ g : Buf (Elt F) (oLoc d), ⌜GdOK X Tp (slRect L k 0 10).set g⌝ ∗ oLoc d ↦[(slRect L k 0 10).set]{fullShare} g) := by
  rw [dM0_10_set]; exact piece_to d L X Tp _
theorem dM0_11_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 11).set]{fullShare} f : sProp 𝕄)
      ⊢ iprop(∃ g, ((dM0_11 L k).view.loc (V d (cV L) (jV L)) ↦[(dM0_11 L k).view.set]{fullShare} g) ∗ ⌜False → GdOK X Tp (dM0_11 L k).view.set g⌝) := by
  rw [dM0_11_set]; exact piece_of d L X Tp _ f
theorem dM0_11_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_11 L k).view.loc (V d (cV L) (jV L)) ↦[(dM0_11 L k).view.set]{fullShare} g) ∗ ⌜True → GdOK X Tp (dM0_11 L k).view.set g⌝) : sProp 𝕄)
      ⊢ iprop(∃ g : Buf (Elt F) (oLoc d), ⌜GdOK X Tp (slRect L k 0 11).set g⌝ ∗ oLoc d ↦[(slRect L k 0 11).set]{fullShare} g) := by
  rw [dM0_11_set]; exact piece_to d L X Tp _
theorem dM0_12_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 12).set]{fullShare} f : sProp 𝕄)
      ⊢ iprop(∃ g, ((dM0_12 L k).view.loc (V d (cV L) (jV L)) ↦[(dM0_12 L k).view.set]{fullShare} g) ∗ ⌜False → GdOK X Tp (dM0_12 L k).view.set g⌝) := by
  rw [dM0_12_set]; exact piece_of d L X Tp _ f
theorem dM0_12_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_12 L k).view.loc (V d (cV L) (jV L)) ↦[(dM0_12 L k).view.set]{fullShare} g) ∗ ⌜True → GdOK X Tp (dM0_12 L k).view.set g⌝) : sProp 𝕄)
      ⊢ iprop(∃ g : Buf (Elt F) (oLoc d), ⌜GdOK X Tp (slRect L k 0 12).set g⌝ ∗ oLoc d ↦[(slRect L k 0 12).set]{fullShare} g) := by
  rw [dM0_12_set]; exact piece_to d L X Tp _
theorem dM0_13_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 13).set]{fullShare} f : sProp 𝕄)
      ⊢ iprop(∃ g, ((dM0_13 L k).view.loc (V d (cV L) (jV L)) ↦[(dM0_13 L k).view.set]{fullShare} g) ∗ ⌜False → GdOK X Tp (dM0_13 L k).view.set g⌝) := by
  rw [dM0_13_set]; exact piece_of d L X Tp _ f
theorem dM0_13_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_13 L k).view.loc (V d (cV L) (jV L)) ↦[(dM0_13 L k).view.set]{fullShare} g) ∗ ⌜True → GdOK X Tp (dM0_13 L k).view.set g⌝) : sProp 𝕄)
      ⊢ iprop(∃ g : Buf (Elt F) (oLoc d), ⌜GdOK X Tp (slRect L k 0 13).set g⌝ ∗ oLoc d ↦[(slRect L k 0 13).set]{fullShare} g) := by
  rw [dM0_13_set]; exact piece_to d L X Tp _
theorem dM0_14_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 14).set]{fullShare} f : sProp 𝕄)
      ⊢ iprop(∃ g, ((dM0_14 L k).view.loc (V d (cV L) (jV L)) ↦[(dM0_14 L k).view.set]{fullShare} g) ∗ ⌜False → GdOK X Tp (dM0_14 L k).view.set g⌝) := by
  rw [dM0_14_set]; exact piece_of d L X Tp _ f
theorem dM0_14_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_14 L k).view.loc (V d (cV L) (jV L)) ↦[(dM0_14 L k).view.set]{fullShare} g) ∗ ⌜True → GdOK X Tp (dM0_14 L k).view.set g⌝) : sProp 𝕄)
      ⊢ iprop(∃ g : Buf (Elt F) (oLoc d), ⌜GdOK X Tp (slRect L k 0 14).set g⌝ ∗ oLoc d ↦[(slRect L k 0 14).set]{fullShare} g) := by
  rw [dM0_14_set]; exact piece_to d L X Tp _
theorem dM0_15_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 0 15).set]{fullShare} f : sProp 𝕄)
      ⊢ iprop(∃ g, ((dM0_15 L k).view.loc (V d (cV L) (jV L)) ↦[(dM0_15 L k).view.set]{fullShare} g) ∗ ⌜False → GdOK X Tp (dM0_15 L k).view.set g⌝) := by
  rw [dM0_15_set]; exact piece_of d L X Tp _ f
theorem dM0_15_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM0_15 L k).view.loc (V d (cV L) (jV L)) ↦[(dM0_15 L k).view.set]{fullShare} g) ∗ ⌜True → GdOK X Tp (dM0_15 L k).view.set g⌝) : sProp 𝕄)
      ⊢ iprop(∃ g : Buf (Elt F) (oLoc d), ⌜GdOK X Tp (slRect L k 0 15).set g⌝ ∗ oLoc d ↦[(slRect L k 0 15).set]{fullShare} g) := by
  rw [dM0_15_set]; exact piece_to d L X Tp _
theorem dM1_0_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 0).set]{fullShare} f : sProp 𝕄)
      ⊢ iprop(∃ g, ((dM1_0 L k).view.loc (V d (cV L) (jV L)) ↦[(dM1_0 L k).view.set]{fullShare} g) ∗ ⌜False → GdOK X Tp (dM1_0 L k).view.set g⌝) := by
  rw [dM1_0_set]; exact piece_of d L X Tp _ f
theorem dM1_0_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_0 L k).view.loc (V d (cV L) (jV L)) ↦[(dM1_0 L k).view.set]{fullShare} g) ∗ ⌜True → GdOK X Tp (dM1_0 L k).view.set g⌝) : sProp 𝕄)
      ⊢ iprop(∃ g : Buf (Elt F) (oLoc d), ⌜GdOK X Tp (slRect L k 1 0).set g⌝ ∗ oLoc d ↦[(slRect L k 1 0).set]{fullShare} g) := by
  rw [dM1_0_set]; exact piece_to d L X Tp _
theorem dM1_1_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 1).set]{fullShare} f : sProp 𝕄)
      ⊢ iprop(∃ g, ((dM1_1 L k).view.loc (V d (cV L) (jV L)) ↦[(dM1_1 L k).view.set]{fullShare} g) ∗ ⌜False → GdOK X Tp (dM1_1 L k).view.set g⌝) := by
  rw [dM1_1_set]; exact piece_of d L X Tp _ f
theorem dM1_1_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_1 L k).view.loc (V d (cV L) (jV L)) ↦[(dM1_1 L k).view.set]{fullShare} g) ∗ ⌜True → GdOK X Tp (dM1_1 L k).view.set g⌝) : sProp 𝕄)
      ⊢ iprop(∃ g : Buf (Elt F) (oLoc d), ⌜GdOK X Tp (slRect L k 1 1).set g⌝ ∗ oLoc d ↦[(slRect L k 1 1).set]{fullShare} g) := by
  rw [dM1_1_set]; exact piece_to d L X Tp _
theorem dM1_2_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 2).set]{fullShare} f : sProp 𝕄)
      ⊢ iprop(∃ g, ((dM1_2 L k).view.loc (V d (cV L) (jV L)) ↦[(dM1_2 L k).view.set]{fullShare} g) ∗ ⌜False → GdOK X Tp (dM1_2 L k).view.set g⌝) := by
  rw [dM1_2_set]; exact piece_of d L X Tp _ f
theorem dM1_2_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_2 L k).view.loc (V d (cV L) (jV L)) ↦[(dM1_2 L k).view.set]{fullShare} g) ∗ ⌜True → GdOK X Tp (dM1_2 L k).view.set g⌝) : sProp 𝕄)
      ⊢ iprop(∃ g : Buf (Elt F) (oLoc d), ⌜GdOK X Tp (slRect L k 1 2).set g⌝ ∗ oLoc d ↦[(slRect L k 1 2).set]{fullShare} g) := by
  rw [dM1_2_set]; exact piece_to d L X Tp _
theorem dM1_3_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 3).set]{fullShare} f : sProp 𝕄)
      ⊢ iprop(∃ g, ((dM1_3 L k).view.loc (V d (cV L) (jV L)) ↦[(dM1_3 L k).view.set]{fullShare} g) ∗ ⌜False → GdOK X Tp (dM1_3 L k).view.set g⌝) := by
  rw [dM1_3_set]; exact piece_of d L X Tp _ f
theorem dM1_3_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_3 L k).view.loc (V d (cV L) (jV L)) ↦[(dM1_3 L k).view.set]{fullShare} g) ∗ ⌜True → GdOK X Tp (dM1_3 L k).view.set g⌝) : sProp 𝕄)
      ⊢ iprop(∃ g : Buf (Elt F) (oLoc d), ⌜GdOK X Tp (slRect L k 1 3).set g⌝ ∗ oLoc d ↦[(slRect L k 1 3).set]{fullShare} g) := by
  rw [dM1_3_set]; exact piece_to d L X Tp _
theorem dM1_4_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 4).set]{fullShare} f : sProp 𝕄)
      ⊢ iprop(∃ g, ((dM1_4 L k).view.loc (V d (cV L) (jV L)) ↦[(dM1_4 L k).view.set]{fullShare} g) ∗ ⌜False → GdOK X Tp (dM1_4 L k).view.set g⌝) := by
  rw [dM1_4_set]; exact piece_of d L X Tp _ f
theorem dM1_4_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_4 L k).view.loc (V d (cV L) (jV L)) ↦[(dM1_4 L k).view.set]{fullShare} g) ∗ ⌜True → GdOK X Tp (dM1_4 L k).view.set g⌝) : sProp 𝕄)
      ⊢ iprop(∃ g : Buf (Elt F) (oLoc d), ⌜GdOK X Tp (slRect L k 1 4).set g⌝ ∗ oLoc d ↦[(slRect L k 1 4).set]{fullShare} g) := by
  rw [dM1_4_set]; exact piece_to d L X Tp _
theorem dM1_5_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 5).set]{fullShare} f : sProp 𝕄)
      ⊢ iprop(∃ g, ((dM1_5 L k).view.loc (V d (cV L) (jV L)) ↦[(dM1_5 L k).view.set]{fullShare} g) ∗ ⌜False → GdOK X Tp (dM1_5 L k).view.set g⌝) := by
  rw [dM1_5_set]; exact piece_of d L X Tp _ f
theorem dM1_5_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_5 L k).view.loc (V d (cV L) (jV L)) ↦[(dM1_5 L k).view.set]{fullShare} g) ∗ ⌜True → GdOK X Tp (dM1_5 L k).view.set g⌝) : sProp 𝕄)
      ⊢ iprop(∃ g : Buf (Elt F) (oLoc d), ⌜GdOK X Tp (slRect L k 1 5).set g⌝ ∗ oLoc d ↦[(slRect L k 1 5).set]{fullShare} g) := by
  rw [dM1_5_set]; exact piece_to d L X Tp _
theorem dM1_6_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 6).set]{fullShare} f : sProp 𝕄)
      ⊢ iprop(∃ g, ((dM1_6 L k).view.loc (V d (cV L) (jV L)) ↦[(dM1_6 L k).view.set]{fullShare} g) ∗ ⌜False → GdOK X Tp (dM1_6 L k).view.set g⌝) := by
  rw [dM1_6_set]; exact piece_of d L X Tp _ f
theorem dM1_6_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_6 L k).view.loc (V d (cV L) (jV L)) ↦[(dM1_6 L k).view.set]{fullShare} g) ∗ ⌜True → GdOK X Tp (dM1_6 L k).view.set g⌝) : sProp 𝕄)
      ⊢ iprop(∃ g : Buf (Elt F) (oLoc d), ⌜GdOK X Tp (slRect L k 1 6).set g⌝ ∗ oLoc d ↦[(slRect L k 1 6).set]{fullShare} g) := by
  rw [dM1_6_set]; exact piece_to d L X Tp _
theorem dM1_7_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 7).set]{fullShare} f : sProp 𝕄)
      ⊢ iprop(∃ g, ((dM1_7 L k).view.loc (V d (cV L) (jV L)) ↦[(dM1_7 L k).view.set]{fullShare} g) ∗ ⌜False → GdOK X Tp (dM1_7 L k).view.set g⌝) := by
  rw [dM1_7_set]; exact piece_of d L X Tp _ f
theorem dM1_7_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_7 L k).view.loc (V d (cV L) (jV L)) ↦[(dM1_7 L k).view.set]{fullShare} g) ∗ ⌜True → GdOK X Tp (dM1_7 L k).view.set g⌝) : sProp 𝕄)
      ⊢ iprop(∃ g : Buf (Elt F) (oLoc d), ⌜GdOK X Tp (slRect L k 1 7).set g⌝ ∗ oLoc d ↦[(slRect L k 1 7).set]{fullShare} g) := by
  rw [dM1_7_set]; exact piece_to d L X Tp _
theorem dM1_8_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 8).set]{fullShare} f : sProp 𝕄)
      ⊢ iprop(∃ g, ((dM1_8 L k).view.loc (V d (cV L) (jV L)) ↦[(dM1_8 L k).view.set]{fullShare} g) ∗ ⌜False → GdOK X Tp (dM1_8 L k).view.set g⌝) := by
  rw [dM1_8_set]; exact piece_of d L X Tp _ f
theorem dM1_8_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_8 L k).view.loc (V d (cV L) (jV L)) ↦[(dM1_8 L k).view.set]{fullShare} g) ∗ ⌜True → GdOK X Tp (dM1_8 L k).view.set g⌝) : sProp 𝕄)
      ⊢ iprop(∃ g : Buf (Elt F) (oLoc d), ⌜GdOK X Tp (slRect L k 1 8).set g⌝ ∗ oLoc d ↦[(slRect L k 1 8).set]{fullShare} g) := by
  rw [dM1_8_set]; exact piece_to d L X Tp _
theorem dM1_9_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 9).set]{fullShare} f : sProp 𝕄)
      ⊢ iprop(∃ g, ((dM1_9 L k).view.loc (V d (cV L) (jV L)) ↦[(dM1_9 L k).view.set]{fullShare} g) ∗ ⌜False → GdOK X Tp (dM1_9 L k).view.set g⌝) := by
  rw [dM1_9_set]; exact piece_of d L X Tp _ f
theorem dM1_9_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_9 L k).view.loc (V d (cV L) (jV L)) ↦[(dM1_9 L k).view.set]{fullShare} g) ∗ ⌜True → GdOK X Tp (dM1_9 L k).view.set g⌝) : sProp 𝕄)
      ⊢ iprop(∃ g : Buf (Elt F) (oLoc d), ⌜GdOK X Tp (slRect L k 1 9).set g⌝ ∗ oLoc d ↦[(slRect L k 1 9).set]{fullShare} g) := by
  rw [dM1_9_set]; exact piece_to d L X Tp _
theorem dM1_10_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 10).set]{fullShare} f : sProp 𝕄)
      ⊢ iprop(∃ g, ((dM1_10 L k).view.loc (V d (cV L) (jV L)) ↦[(dM1_10 L k).view.set]{fullShare} g) ∗ ⌜False → GdOK X Tp (dM1_10 L k).view.set g⌝) := by
  rw [dM1_10_set]; exact piece_of d L X Tp _ f
theorem dM1_10_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_10 L k).view.loc (V d (cV L) (jV L)) ↦[(dM1_10 L k).view.set]{fullShare} g) ∗ ⌜True → GdOK X Tp (dM1_10 L k).view.set g⌝) : sProp 𝕄)
      ⊢ iprop(∃ g : Buf (Elt F) (oLoc d), ⌜GdOK X Tp (slRect L k 1 10).set g⌝ ∗ oLoc d ↦[(slRect L k 1 10).set]{fullShare} g) := by
  rw [dM1_10_set]; exact piece_to d L X Tp _
theorem dM1_11_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 11).set]{fullShare} f : sProp 𝕄)
      ⊢ iprop(∃ g, ((dM1_11 L k).view.loc (V d (cV L) (jV L)) ↦[(dM1_11 L k).view.set]{fullShare} g) ∗ ⌜False → GdOK X Tp (dM1_11 L k).view.set g⌝) := by
  rw [dM1_11_set]; exact piece_of d L X Tp _ f
theorem dM1_11_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_11 L k).view.loc (V d (cV L) (jV L)) ↦[(dM1_11 L k).view.set]{fullShare} g) ∗ ⌜True → GdOK X Tp (dM1_11 L k).view.set g⌝) : sProp 𝕄)
      ⊢ iprop(∃ g : Buf (Elt F) (oLoc d), ⌜GdOK X Tp (slRect L k 1 11).set g⌝ ∗ oLoc d ↦[(slRect L k 1 11).set]{fullShare} g) := by
  rw [dM1_11_set]; exact piece_to d L X Tp _
theorem dM1_12_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 12).set]{fullShare} f : sProp 𝕄)
      ⊢ iprop(∃ g, ((dM1_12 L k).view.loc (V d (cV L) (jV L)) ↦[(dM1_12 L k).view.set]{fullShare} g) ∗ ⌜False → GdOK X Tp (dM1_12 L k).view.set g⌝) := by
  rw [dM1_12_set]; exact piece_of d L X Tp _ f
theorem dM1_12_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_12 L k).view.loc (V d (cV L) (jV L)) ↦[(dM1_12 L k).view.set]{fullShare} g) ∗ ⌜True → GdOK X Tp (dM1_12 L k).view.set g⌝) : sProp 𝕄)
      ⊢ iprop(∃ g : Buf (Elt F) (oLoc d), ⌜GdOK X Tp (slRect L k 1 12).set g⌝ ∗ oLoc d ↦[(slRect L k 1 12).set]{fullShare} g) := by
  rw [dM1_12_set]; exact piece_to d L X Tp _
theorem dM1_13_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 13).set]{fullShare} f : sProp 𝕄)
      ⊢ iprop(∃ g, ((dM1_13 L k).view.loc (V d (cV L) (jV L)) ↦[(dM1_13 L k).view.set]{fullShare} g) ∗ ⌜False → GdOK X Tp (dM1_13 L k).view.set g⌝) := by
  rw [dM1_13_set]; exact piece_of d L X Tp _ f
theorem dM1_13_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_13 L k).view.loc (V d (cV L) (jV L)) ↦[(dM1_13 L k).view.set]{fullShare} g) ∗ ⌜True → GdOK X Tp (dM1_13 L k).view.set g⌝) : sProp 𝕄)
      ⊢ iprop(∃ g : Buf (Elt F) (oLoc d), ⌜GdOK X Tp (slRect L k 1 13).set g⌝ ∗ oLoc d ↦[(slRect L k 1 13).set]{fullShare} g) := by
  rw [dM1_13_set]; exact piece_to d L X Tp _
theorem dM1_14_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 14).set]{fullShare} f : sProp 𝕄)
      ⊢ iprop(∃ g, ((dM1_14 L k).view.loc (V d (cV L) (jV L)) ↦[(dM1_14 L k).view.set]{fullShare} g) ∗ ⌜False → GdOK X Tp (dM1_14 L k).view.set g⌝) := by
  rw [dM1_14_set]; exact piece_of d L X Tp _ f
theorem dM1_14_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_14 L k).view.loc (V d (cV L) (jV L)) ↦[(dM1_14 L k).view.set]{fullShare} g) ∗ ⌜True → GdOK X Tp (dM1_14 L k).view.set g⌝) : sProp 𝕄)
      ⊢ iprop(∃ g : Buf (Elt F) (oLoc d), ⌜GdOK X Tp (slRect L k 1 14).set g⌝ ∗ oLoc d ↦[(slRect L k 1 14).set]{fullShare} g) := by
  rw [dM1_14_set]; exact piece_to d L X Tp _
theorem dM1_15_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (oLoc d ↦[(slRect L k 1 15).set]{fullShare} f : sProp 𝕄)
      ⊢ iprop(∃ g, ((dM1_15 L k).view.loc (V d (cV L) (jV L)) ↦[(dM1_15 L k).view.set]{fullShare} g) ∗ ⌜False → GdOK X Tp (dM1_15 L k).view.set g⌝) := by
  rw [dM1_15_set]; exact piece_of d L X Tp _ f
theorem dM1_15_to (d : Dev nD) (L : grid0.Coords) (X : Buf (Elt F) ((V d (cV L) (jV L)).loc main_v1_scv)) (Tp : Buf (Elt F) ((V d (cV L) (jV L)).loc main_v2_scv))
    (k : Fin k0_t1_loop.trips) :
    (iprop(∃ g, ((dM1_15 L k).view.loc (V d (cV L) (jV L)) ↦[(dM1_15 L k).view.set]{fullShare} g) ∗ ⌜True → GdOK X Tp (dM1_15 L k).view.set g⌝) : sProp 𝕄)
      ⊢ iprop(∃ g : Buf (Elt F) (oLoc d), ⌜GdOK X Tp (slRect L k 1 15).set g⌝ ∗ oLoc d ↦[(slRect L k 1 15).set]{fullShare} g) := by
  rw [dM1_15_set]; exact piece_to d L X Tp _

/-- The sixteen pieces of chunk 0 of trip k, held at one contents, are what the trip's first chunk is handed (nothing yet
    claimed of their values). -/
theorem SlA_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (bigSep Finset.univ fun t : Fin 16 => (oLoc d ↦[(slRect L k 0 t).set]{fullShare} f : sProp 𝕄)) ⊢ SlA d L X Tp False k := by
  rw [bigSep_fin16]
  unfold SlA
  exact BI.sep_mono (dM0_0_of d L X Tp k f) (BI.sep_mono (dM0_1_of d L X Tp k f) (BI.sep_mono (dM0_2_of d L X Tp k f) (BI.sep_mono (dM0_3_of d L X Tp k f) (BI.sep_mono (dM0_4_of d L X Tp k f) (BI.sep_mono (dM0_5_of d L X Tp k f) (BI.sep_mono (dM0_6_of d L X Tp k f) (BI.sep_mono (dM0_7_of d L X Tp k f) (BI.sep_mono (dM0_8_of d L X Tp k f) (BI.sep_mono (dM0_9_of d L X Tp k f) (BI.sep_mono (dM0_10_of d L X Tp k f) (BI.sep_mono (dM0_11_of d L X Tp k f) (BI.sep_mono (dM0_12_of d L X Tp k f) (BI.sep_mono (dM0_13_of d L X Tp k f) (BI.sep_mono (dM0_14_of d L X Tp k f) (dM0_15_of d L X Tp k f)))))))))))))))

/-- The sixteen pieces of chunk 0 of trip k, each right on its rectangle, read over the result array's own location. -/
theorem SlA_to (d : Dev nD) (L : grid0.Coords) (X : Buf (Elt F) ((V d (cV L) (jV L)).loc main_v1_scv)) (Tp : Buf (Elt F) ((V d (cV L) (jV L)).loc main_v2_scv))
    (k : Fin k0_t1_loop.trips) :
    SlA d L X Tp True k ⊢ bigSep Finset.univ fun t : Fin 16 =>
      (iprop(∃ g : Buf (Elt F) (oLoc d), ⌜GdOK X Tp (slRect L k 0 t).set g⌝ ∗ oLoc d ↦[(slRect L k 0 t).set]{fullShare} g) : sProp 𝕄) := by
  rw [bigSep_fin16]
  unfold SlA
  exact BI.sep_mono (dM0_0_to d L X Tp k) (BI.sep_mono (dM0_1_to d L X Tp k) (BI.sep_mono (dM0_2_to d L X Tp k) (BI.sep_mono (dM0_3_to d L X Tp k) (BI.sep_mono (dM0_4_to d L X Tp k) (BI.sep_mono (dM0_5_to d L X Tp k) (BI.sep_mono (dM0_6_to d L X Tp k) (BI.sep_mono (dM0_7_to d L X Tp k) (BI.sep_mono (dM0_8_to d L X Tp k) (BI.sep_mono (dM0_9_to d L X Tp k) (BI.sep_mono (dM0_10_to d L X Tp k) (BI.sep_mono (dM0_11_to d L X Tp k) (BI.sep_mono (dM0_12_to d L X Tp k) (BI.sep_mono (dM0_13_to d L X Tp k) (BI.sep_mono (dM0_14_to d L X Tp k) (dM0_15_to d L X Tp k)))))))))))))))

/-- The sixteen pieces of chunk 1 of trip k, held at one contents, are what the trip's second chunk is handed (nothing yet
    claimed of their values). -/
theorem SlB_of (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) (oLoc d)) :
    (bigSep Finset.univ fun t : Fin 16 => (oLoc d ↦[(slRect L k 1 t).set]{fullShare} f : sProp 𝕄)) ⊢ SlB d L X Tp False k := by
  rw [bigSep_fin16]
  unfold SlB
  exact BI.sep_mono (dM1_0_of d L X Tp k f) (BI.sep_mono (dM1_1_of d L X Tp k f) (BI.sep_mono (dM1_2_of d L X Tp k f) (BI.sep_mono (dM1_3_of d L X Tp k f) (BI.sep_mono (dM1_4_of d L X Tp k f) (BI.sep_mono (dM1_5_of d L X Tp k f) (BI.sep_mono (dM1_6_of d L X Tp k f) (BI.sep_mono (dM1_7_of d L X Tp k f) (BI.sep_mono (dM1_8_of d L X Tp k f) (BI.sep_mono (dM1_9_of d L X Tp k f) (BI.sep_mono (dM1_10_of d L X Tp k f) (BI.sep_mono (dM1_11_of d L X Tp k f) (BI.sep_mono (dM1_12_of d L X Tp k f) (BI.sep_mono (dM1_13_of d L X Tp k f) (BI.sep_mono (dM1_14_of d L X Tp k f) (dM1_15_of d L X Tp k f)))))))))))))))

/-- The sixteen pieces of chunk 1 of trip k, each right on its rectangle, read over the result array's own location. -/
theorem SlB_to (d : Dev nD) (L : grid0.Coords) (X : Buf (Elt F) ((V d (cV L) (jV L)).loc main_v1_scv)) (Tp : Buf (Elt F) ((V d (cV L) (jV L)).loc main_v2_scv))
    (k : Fin k0_t1_loop.trips) :
    SlB d L X Tp True k ⊢ bigSep Finset.univ fun t : Fin 16 =>
      (iprop(∃ g : Buf (Elt F) (oLoc d), ⌜GdOK X Tp (slRect L k 1 t).set g⌝ ∗ oLoc d ↦[(slRect L k 1 t).set]{fullShare} g) : sProp 𝕄) := by
  rw [bigSep_fin16]
  unfold SlB
  exact BI.sep_mono (dM1_0_to d L X Tp k) (BI.sep_mono (dM1_1_to d L X Tp k) (BI.sep_mono (dM1_2_to d L X Tp k) (BI.sep_mono (dM1_3_to d L X Tp k) (BI.sep_mono (dM1_4_to d L X Tp k) (BI.sep_mono (dM1_5_to d L X Tp k) (BI.sep_mono (dM1_6_to d L X Tp k) (BI.sep_mono (dM1_7_to d L X Tp k) (BI.sep_mono (dM1_8_to d L X Tp k) (BI.sep_mono (dM1_9_to d L X Tp k) (BI.sep_mono (dM1_10_to d L X Tp k) (BI.sep_mono (dM1_11_to d L X Tp k) (BI.sep_mono (dM1_12_to d L X Tp k) (BI.sep_mono (dM1_13_to d L X Tp k) (BI.sep_mono (dM1_14_to d L X Tp k) (dM1_15_to d L X Tp k)))))))))))))))

/-! ## The tile's columns as its fifty trips' pieces -/

omit [FloatOps F] in
theorem bigSep_triples (Φ : Fin k0_t1_loop.trips × Fin 2 × Fin 16 → sProp 𝕄) :
    bigSep Finset.univ Φ = bigSep Finset.univ fun k : Fin k0_t1_loop.trips => bigSep Finset.univ fun b : Fin 2 => bigSep Finset.univ fun t : Fin 16 => Φ (k, b, t) := by
  rw [← Finset.univ_product_univ, Idealize.ShloMosaic.SparseCore.bigSep_product]
  refine bigSep_congr fun k _ => ?_
  rw [← Finset.univ_product_univ, Idealize.ShloMosaic.SparseCore.bigSep_product]

/-- The tile's columns of the result, held at one contents, are what its fifty trips' chunks are handed: the pieces
    are disjoint and cover the columns. -/
theorem region_split (d : Dev nD) (L : grid0.Coords) (X : Buf (Elt F) ((V d (cV L) (jV L)).loc main_v1_scv)) (Tp : Buf (Elt F) ((V d (cV L) (jV L)).loc main_v2_scv))
    (f : Buf (Elt F) (oLoc d)) :
    (oLoc d ↦[colsSet (widL L)]{fullShare} f : sProp 𝕄)
      ⊢ bigSep Finset.univ (fun k : Fin k0_t1_loop.trips => iprop(SlA d L X Tp False k ∗ SlB d L X Tp False k)) := by
  rw [← sl_cover L, pointsTo_biUnion Finset.univ (ℓ := oLoc d) (fun x : Fin k0_t1_loop.trips × Fin 2 × Fin 16 => (slRect L x.1 x.2.1 x.2.2).set)
    (fun x _ y _ h => sl_disj L x y h), bigSep_triples]
  refine bigSep_mono fun k _ => ?_
  rw [bigSep_univ_two]
  exact BI.sep_mono (SlA_of d L X Tp k f) (SlB_of d L X Tp k f)

/-- The pieces of all the trips, each right on its own rectangle, are the tile's columns at one contents that is right
    on all of them: one function agrees with each piece's on its rectangle, and the rectangles cover the columns. -/
theorem region_join (d : Dev nD) (L : grid0.Coords) (X : Buf (Elt F) ((V d (cV L) (jV L)).loc main_v1_scv)) (Tp : Buf (Elt F) ((V d (cV L) (jV L)).loc main_v2_scv)) :
    bigSep Finset.univ (fun k : Fin k0_t1_loop.trips => iprop(SlA d L X Tp True k ∗ SlB d L X Tp True k))
      ⊢ (iprop(∃ f, ⌜OutOK d X Tp (widL L) f⌝ ∗ oLoc d ↦[colsSet (widL L)]{fullShare} f) : sProp 𝕄) := by
  have h1 : bigSep Finset.univ (fun k : Fin k0_t1_loop.trips => iprop(SlA d L X Tp True k ∗ SlB d L X Tp True k))
      ⊢ bigSep Finset.univ (fun x : Fin k0_t1_loop.trips × Fin 2 × Fin 16 =>
          (iprop(∃ g : Buf (Elt F) (oLoc d), ⌜GdOK X Tp (slRect L x.1 x.2.1 x.2.2).set g⌝ ∗ oLoc d ↦[(slRect L x.1 x.2.1 x.2.2).set]{fullShare} g) : sProp 𝕄)) := by
    rw [bigSep_triples]
    refine bigSep_mono fun k _ => ?_
    rw [bigSep_univ_two]
    exact BI.sep_mono (SlA_to d L X Tp k) (SlB_to d L X Tp k)
  refine h1.trans ?_
  refine (bigSep_exists_pi Finset.univ (fun (x : Fin k0_t1_loop.trips × Fin 2 × Fin 16) (g : Buf (Elt F) (oLoc d)) =>
    iprop(⌜GdOK X Tp (slRect L x.1 x.2.1 x.2.2).set g⌝ ∗ oLoc d ↦[(slRect L x.1 x.2.1 x.2.2).set]{fullShare} g))).trans ?_
  iintro ⟨%gs, H⟩
  ihave H2 := (bigSep_pure_sep Finset.univ (fun x : Fin k0_t1_loop.trips × Fin 2 × Fin 16 => GdOK X Tp (slRect L x.1 x.2.1 x.2.2).set (gs x))
    (fun x => (oLoc d ↦[(slRect L x.1 x.2.1 x.2.2).set]{fullShare} gs x : sProp 𝕄))) $$ H
  icases H2 with ⟨%hOK, H3⟩
  ihave H' := (pointsTo_biUnion_join Finset.univ (fun x : Fin k0_t1_loop.trips × Fin 2 × Fin 16 => (slRect L x.1 x.2.1 x.2.2).set) gs
    (gs (⟨0, by rw [trips1]; omega⟩, 0, 0)) (fun x _ y _ h => sl_disj L x y h)) $$ H3
  icases H' with ⟨%g, %hg, Hg⟩
  rw [sl_cover]
  iexists g
  isplitr
  · ipureintro
    intro p hp
    obtain ⟨x, -, hx⟩ := Finset.mem_biUnion.mp ((sl_cover L).symm ▸ hp)
    rw [hg x (Finset.mem_univ _) p hx]
    exact hOK x (Finset.mem_univ _) p hx
  iexact Hg

/-! ## A fetched index list -/

omit [FloatOps F] in
/-- The 256 words copied from the flattened indices at a chunk's offset are the chunk's indices. -/
theorem idx_ok_write0 (d : Dev nD) (L : grid0.Coords) (X : Buf (Elt F) ((V d (cV L) (jV L)).loc main_v1_scv)) (k : Fin k0_t1_loop.trips) (b : Fin 2)
    (g : Buf (Elt F) ((V d (cV L) (jV L)).loc cc0_scratch0)) (off : Fin 1 → Nat) (hoff : ∀ a, off a + S256.size a ≤ S819200.size a) (he : off = ![xoff L k b]) :
    IdxOK X L k b (View.write (Elt F) (i0).view g (ReadAs.same.apply (View.read (Elt F) ((xW).slice (Rect.unit (s := S819200) off S256.size hoff) (fun _ => rfl)).view X)) Finset.univ) := by
  subst he
  intro j
  rw [View.write_whole_univ]
  have key : ∀ y, (ReadAs.same.apply (View.read (Elt F) ((xW).slice (Rect.unit (s := S819200) ![xoff L k b] S256.size hoff) (fun _ => rfl)).view X) y)
      = X (((xW).slice (Rect.unit (s := S819200) ![xoff L k b] S256.size hoff) (fun _ => rfl)).view.emb y) := fun y => (View.read_apply _ _).trans (cast_eq _ _)
  rw [key]
  refine congrArg X (funext fun a => ?_)
  match a with
  | ⟨0, _⟩ => exact Fin.ext (show xoff L k b + 1 * j.val = xoff L k b + j.val by omega)
  | ⟨n + 1, hn⟩ => exact absurd hn (show ¬ n + 1 < 1 by omega)
omit [FloatOps F] in
theorem idx_ok_write1 (d : Dev nD) (L : grid0.Coords) (X : Buf (Elt F) ((V d (cV L) (jV L)).loc main_v1_scv)) (k : Fin k0_t1_loop.trips) (b : Fin 2)
    (g : Buf (Elt F) ((V d (cV L) (jV L)).loc cc0_scratch1)) (off : Fin 1 → Nat) (hoff : ∀ a, off a + S256.size a ≤ S819200.size a) (he : off = ![xoff L k b]) :
    IdxOK X L k b (View.write (Elt F) (i1).view g (ReadAs.same.apply (View.read (Elt F) ((xW).slice (Rect.unit (s := S819200) off S256.size hoff) (fun _ => rfl)).view X)) Finset.univ) := by
  subst he
  intro j
  rw [View.write_whole_univ]
  have key : ∀ y, (ReadAs.same.apply (View.read (Elt F) ((xW).slice (Rect.unit (s := S819200) ![xoff L k b] S256.size hoff) (fun _ => rfl)).view X) y)
      = X (((xW).slice (Rect.unit (s := S819200) ![xoff L k b] S256.size hoff) (fun _ => rfl)).view.emb y) := fun y => (View.read_apply _ _).trans (cast_eq _ _)
  rw [key]
  refine congrArg X (funext fun a => ?_)
  match a with
  | ⟨0, _⟩ => exact Fin.ext (show xoff L k b + 1 * j.val = xoff L k b + j.val by omega)
  | ⟨n + 1, hn⟩ => exact absurd hn (show ¬ n + 1 < 1 by omega)

/-! ## A piece copied out of the staging scratch -/

omit [FloatOps F] in
theorem ix2_congr {n0 n1 : ℕ} {a a' : Fin n0} {c c' : Fin n1} (ha : a = a') (hc : c = c') : ix2 a c = ix2 a' c' := by
  subst ha hc; rfl

/-- The table entry the specification reads depends on the index position and the column only as numbers. -/
theorem spec_congr (X : IVec S819200 32) (Tp : Vec F S1000000x128 .f32) {n1 n2 : ℕ} (h1 : n1 < 819200) (h2 : n2 < 819200)
    {c1 c2 : ℕ} (hc1 : c1 < 128) (hc2 : c2 < 128) (hn : n1 = n2) (hc : c1 = c2) :
    Tp (ix2 (⟨(X (ix1 (⟨n1, h1⟩ : Fin 819200))).toNat % 1000000, Nat.mod_lt _ (by decide)⟩ : Fin 1000000) (⟨c1, hc1⟩ : Fin 128))
      = Tp (ix2 (⟨(X (ix1 (⟨n2, h2⟩ : Fin 819200))).toNat % 1000000, Nat.mod_lt _ (by decide)⟩ : Fin 1000000) (⟨c2, hc2⟩ : Fin 128)) := by
  subst hn hc; rfl

/-- Piece t of chunk (k, b), copied out of rows 8 t … 8 t + 7 of a staging scratch that holds the chunk's rows transposed
    and scaled, holds the specified result on its rectangle: at local position (y0, y1) it sits at result position
    (k, 8 (t / 2) + y0, first column + 256 b + 128 (t mod 2) + y1) and reads scratch position (8 t + y0, y1), whose
    source is row 128 (t mod 2) + y1, column 8 (t / 2) + y0 of the chunk. -/
theorem gd_gen (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (t : Fin 16)
    (off : Fin 3 → ℕ) (inb : ∀ a, off a + S1x8x128.size a ≤ S50x64x16384.size a)
    (hoff : off = ![k.val, 8 * (t.val / 2), wbL L + 256 * b.val + 128 * (t.val % 2)])
    (offS : Fin 2 → ℕ) (inbS : ∀ a, offS a + S8x128.size a ≤ S128x128.size a) (hoffS : offS = ![8 * t.val, 0])
    (f : Buf (Elt F) ((V d (cV L) (jV L)).loc cc0_scratch4)) (h : TbOK X Tp L k b f)
    (g0 : Buf (Elt F) ((((oW).slice (Rect.unit (s := S50x64x16384) off S1x8x128.size inb) (fun _ => rfl)).squeeze S8x128 squeezes_S1x8x128_S8x128).view.loc (V d (cV L) (jV L)))) :
    GdOK X Tp (((oW).slice (Rect.unit (s := S50x64x16384) off S1x8x128.size inb) (fun _ => rfl)).squeeze S8x128 squeezes_S1x8x128_S8x128).view.set
      ((((oW).slice (Rect.unit (s := S50x64x16384) off S1x8x128.size inb) (fun _ => rfl)).squeeze S8x128 squeezes_S1x8x128_S8x128).view.writes (Elt F) g0 [⟨Rect.whole S8x128, ReadAs.same.apply (((tb).slice (Rect.unit (s := S128x128) offS S8x128.size inbS) (fun _ => rfl)).view.read (Elt F) f)⟩]) := by
  subst hoff hoffS
  obtain ⟨R, hR, rfl⟩ := h
  intro p hp
  obtain ⟨y, -, rfl⟩ := Finset.mem_map.mp hp
  obtain ⟨y0, y1, rfl⟩ : ∃ (y0 : Fin 8) (y1 : Fin 128), y = ix2 y0 y1 := ⟨y 0, y 1, eq_ix2 y⟩
  have ht := t.isLt; have hb := b.isLt; have hL := L_bounds L
  have hk : k.val < 50 := by have h1 := k.isLt; have h2 := trips1; omega
  -- the written value at the piece's element is the payload there, which reads the scratch block
  have h1 := View.read_writes_cons_emb (((oW).slice (Rect.unit (s := S50x64x16384) ![k.val, 8 * (t.val / 2), wbL L + 256 * b.val + 128 * (t.val % 2)] S1x8x128.size inb) (fun _ => rfl)).squeeze S8x128 squeezes_S1x8x128_S8x128).view g0 (Rect.whole S8x128)
    (ReadAs.same.apply (((tb).slice (Rect.unit (s := S128x128) ![8 * t.val, 0] S8x128.size inbS) (fun _ => rfl)).view.read (Elt F) (Cert.Proof.KWB.T8 R))) [] (ix2 y0 y1)
  rw [Rect.emb_whole_apply, View.read_apply, cast_eq] at h1
  refine h1.trans ?_
  refine ((View.read_apply _ _).trans (cast_eq _ _)).trans ?_
  -- where the element sits in the result
  have hre : Shape.reshapeEquiv squeezes_S1x8x128_S8x128.numel_eq (ix2 y0 y1) = (ix3 (0 : Fin 1) y0 y1 : S1x8x128.Idx) :=
    Shape.reshapeEquiv_eq_of_rowMajor _ (by
      rw [Shape.rowMajor_val_three, Shape.rowMajor_val_two]
      show (0 * 8 + y0.val) * 128 + y1.val = y0.val * 128 + y1.val
      omega)
  have hp0 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 0).val = k.val := by
    show k.val + 1 * ((Shape.reshapeEquiv squeezes_S1x8x128_S8x128.numel_eq (ix2 y0 y1)) 0).val = k.val
    rw [hre]; show k.val + 1 * 0 = k.val; omega
  have hp1 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 1).val = 8 * (t.val / 2) + y0.val := by
    show 8 * (t.val / 2) + 1 * ((Shape.reshapeEquiv squeezes_S1x8x128_S8x128.numel_eq (ix2 y0 y1)) 1).val = _
    rw [hre]; show 8 * (t.val / 2) + 1 * y0.val = _; omega
  have hp2 : ((((oW).slice (Rect.unit (s := S50x64x16384) ![k.val, 8 * (t.val / 2), wbL L + 256 * b.val + 128 * (t.val % 2)] S1x8x128.size inb) (fun _ => rfl)).squeeze S8x128 squeezes_S1x8x128_S8x128).view.emb (ix2 y0 y1) 2).val = wbL L + 256 * b.val + 128 * (t.val % 2) + y1.val := by
    show wbL L + 256 * b.val + 128 * (t.val % 2) + 1 * ((Shape.reshapeEquiv squeezes_S1x8x128_S8x128.numel_eq (ix2 y0 y1)) 2).val = _
    rw [hre]; show wbL L + 256 * b.val + 128 * (t.val % 2) + 1 * y1.val = _; omega
  -- the scratch position read, and its source in the chunk
  have hsrc : Cert.Proof.KWB.src (((tb).slice (Rect.unit (s := S128x128) ![8 * t.val, 0] S8x128.size inbS) (fun _ => rfl)).view.emb (ix2 y0 y1))
      = ix2 (⟨128 * (t.val % 2) + y1.val, by omega⟩ : Fin 256) (⟨8 * (t.val / 2) + y0.val, by omega⟩ : Fin 128) := by
    unfold Cert.Proof.KWB.src
    refine ix2_congr (Fin.ext ?_) (Fin.ext ?_)
    · show 128 * (((8 * t.val + 1 * y0.val) / 8) % 2) + (0 + 1 * y1.val) = 128 * (t.val % 2) + y1.val
      omega
    · show 8 * ((8 * t.val + 1 * y0.val) / 16) + (8 * t.val + 1 * y0.val) % 8 = 8 * (t.val / 2) + y0.val
      omega
  show FloatOps.mulf (R (Cert.Proof.KWB.src (((tb).slice (Rect.unit (s := S128x128) ![8 * t.val, 0] S8x128.size inbS) (fun _ => rfl)).view.emb (ix2 y0 y1)))) (Scalar.ofBits .f32 0x41000000#32) = _
  rw [hsrc, hR]
  refine congrArg (fun a => FloatOps.mulf a (FloatOps.ofBits .f32 0x41000000#32)) (spec_congr X Tp _ _ _ _ ?_ ?_)
  · show xoff L k b + (128 * (t.val % 2) + y1.val) = _
    rw [hp0, hp2]; unfold xoff; omega
  · rw [hp1]

/-! The thirty-two pieces, each an instance of the general lemma at its own offsets. -/
theorem gd_of_tb0_0 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_0 L k).view.loc (V d (cV L) (jV L)))) :
    GdOK X Tp (dM0_0 L k).view.set ((dM0_0 L k).view.writes (Elt F) g0 [⟨Rect.whole S8x128, ReadAs.same.apply ((sM_0).view.read (Elt F) f)⟩]) :=
  gd_gen d L X Tp k 0 0 _ _ (off12_eq L k 0 0) _ _ rfl f h g0
theorem gd_of_tb0_1 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_1 L k).view.loc (V d (cV L) (jV L)))) :
    GdOK X Tp (dM0_1 L k).view.set ((dM0_1 L k).view.writes (Elt F) g0 [⟨Rect.whole S8x128, ReadAs.same.apply ((sM_1).view.read (Elt F) f)⟩]) :=
  gd_gen d L X Tp k 0 1 _ _ (off12_eq L k 0 1) _ _ rfl f h g0
theorem gd_of_tb0_2 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_2 L k).view.loc (V d (cV L) (jV L)))) :
    GdOK X Tp (dM0_2 L k).view.set ((dM0_2 L k).view.writes (Elt F) g0 [⟨Rect.whole S8x128, ReadAs.same.apply ((sM_2).view.read (Elt F) f)⟩]) :=
  gd_gen d L X Tp k 0 2 _ _ (off13_eq L k 0 0) _ _ rfl f h g0
theorem gd_of_tb0_3 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_3 L k).view.loc (V d (cV L) (jV L)))) :
    GdOK X Tp (dM0_3 L k).view.set ((dM0_3 L k).view.writes (Elt F) g0 [⟨Rect.whole S8x128, ReadAs.same.apply ((sM_3).view.read (Elt F) f)⟩]) :=
  gd_gen d L X Tp k 0 3 _ _ (off13_eq L k 0 1) _ _ rfl f h g0
theorem gd_of_tb0_4 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_4 L k).view.loc (V d (cV L) (jV L)))) :
    GdOK X Tp (dM0_4 L k).view.set ((dM0_4 L k).view.writes (Elt F) g0 [⟨Rect.whole S8x128, ReadAs.same.apply ((sM_4).view.read (Elt F) f)⟩]) :=
  gd_gen d L X Tp k 0 4 _ _ (off14_eq L k 0 0) _ _ rfl f h g0
theorem gd_of_tb0_5 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_5 L k).view.loc (V d (cV L) (jV L)))) :
    GdOK X Tp (dM0_5 L k).view.set ((dM0_5 L k).view.writes (Elt F) g0 [⟨Rect.whole S8x128, ReadAs.same.apply ((sM_5).view.read (Elt F) f)⟩]) :=
  gd_gen d L X Tp k 0 5 _ _ (off14_eq L k 0 1) _ _ rfl f h g0
theorem gd_of_tb0_6 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_6 L k).view.loc (V d (cV L) (jV L)))) :
    GdOK X Tp (dM0_6 L k).view.set ((dM0_6 L k).view.writes (Elt F) g0 [⟨Rect.whole S8x128, ReadAs.same.apply ((sM_6).view.read (Elt F) f)⟩]) :=
  gd_gen d L X Tp k 0 6 _ _ (off15_eq L k 0 0) _ _ rfl f h g0
theorem gd_of_tb0_7 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_7 L k).view.loc (V d (cV L) (jV L)))) :
    GdOK X Tp (dM0_7 L k).view.set ((dM0_7 L k).view.writes (Elt F) g0 [⟨Rect.whole S8x128, ReadAs.same.apply ((sM_7).view.read (Elt F) f)⟩]) :=
  gd_gen d L X Tp k 0 7 _ _ (off15_eq L k 0 1) _ _ rfl f h g0
theorem gd_of_tb0_8 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_8 L k).view.loc (V d (cV L) (jV L)))) :
    GdOK X Tp (dM0_8 L k).view.set ((dM0_8 L k).view.writes (Elt F) g0 [⟨Rect.whole S8x128, ReadAs.same.apply ((sM_8).view.read (Elt F) f)⟩]) :=
  gd_gen d L X Tp k 0 8 _ _ (off16_eq L k 0 0) _ _ rfl f h g0
theorem gd_of_tb0_9 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_9 L k).view.loc (V d (cV L) (jV L)))) :
    GdOK X Tp (dM0_9 L k).view.set ((dM0_9 L k).view.writes (Elt F) g0 [⟨Rect.whole S8x128, ReadAs.same.apply ((sM_9).view.read (Elt F) f)⟩]) :=
  gd_gen d L X Tp k 0 9 _ _ (off16_eq L k 0 1) _ _ rfl f h g0
theorem gd_of_tb0_10 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_10 L k).view.loc (V d (cV L) (jV L)))) :
    GdOK X Tp (dM0_10 L k).view.set ((dM0_10 L k).view.writes (Elt F) g0 [⟨Rect.whole S8x128, ReadAs.same.apply ((sM_10).view.read (Elt F) f)⟩]) :=
  gd_gen d L X Tp k 0 10 _ _ (off17_eq L k 0 0) _ _ rfl f h g0
theorem gd_of_tb0_11 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_11 L k).view.loc (V d (cV L) (jV L)))) :
    GdOK X Tp (dM0_11 L k).view.set ((dM0_11 L k).view.writes (Elt F) g0 [⟨Rect.whole S8x128, ReadAs.same.apply ((sM_11).view.read (Elt F) f)⟩]) :=
  gd_gen d L X Tp k 0 11 _ _ (off17_eq L k 0 1) _ _ rfl f h g0
theorem gd_of_tb0_12 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_12 L k).view.loc (V d (cV L) (jV L)))) :
    GdOK X Tp (dM0_12 L k).view.set ((dM0_12 L k).view.writes (Elt F) g0 [⟨Rect.whole S8x128, ReadAs.same.apply ((sM_12).view.read (Elt F) f)⟩]) :=
  gd_gen d L X Tp k 0 12 _ _ (off18_eq L k 0 0) _ _ rfl f h g0
theorem gd_of_tb0_13 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_13 L k).view.loc (V d (cV L) (jV L)))) :
    GdOK X Tp (dM0_13 L k).view.set ((dM0_13 L k).view.writes (Elt F) g0 [⟨Rect.whole S8x128, ReadAs.same.apply ((sM_13).view.read (Elt F) f)⟩]) :=
  gd_gen d L X Tp k 0 13 _ _ (off18_eq L k 0 1) _ _ rfl f h g0
theorem gd_of_tb0_14 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_14 L k).view.loc (V d (cV L) (jV L)))) :
    GdOK X Tp (dM0_14 L k).view.set ((dM0_14 L k).view.writes (Elt F) g0 [⟨Rect.whole S8x128, ReadAs.same.apply ((sM_14).view.read (Elt F) f)⟩]) :=
  gd_gen d L X Tp k 0 14 _ _ (off19_eq L k 0 0) _ _ rfl f h g0
theorem gd_of_tb0_15 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 0 f) (g0 : Buf (Elt F) ((dM0_15 L k).view.loc (V d (cV L) (jV L)))) :
    GdOK X Tp (dM0_15 L k).view.set ((dM0_15 L k).view.writes (Elt F) g0 [⟨Rect.whole S8x128, ReadAs.same.apply ((sM_15).view.read (Elt F) f)⟩]) :=
  gd_gen d L X Tp k 0 15 _ _ (off19_eq L k 0 1) _ _ rfl f h g0
theorem gd_of_tb1_0 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_0 L k).view.loc (V d (cV L) (jV L)))) :
    GdOK X Tp (dM1_0 L k).view.set ((dM1_0 L k).view.writes (Elt F) g0 [⟨Rect.whole S8x128, ReadAs.same.apply ((sM_0).view.read (Elt F) f)⟩]) :=
  gd_gen d L X Tp k 1 0 _ _ (off12_eq L k 1 0) _ _ rfl f h g0
theorem gd_of_tb1_1 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_1 L k).view.loc (V d (cV L) (jV L)))) :
    GdOK X Tp (dM1_1 L k).view.set ((dM1_1 L k).view.writes (Elt F) g0 [⟨Rect.whole S8x128, ReadAs.same.apply ((sM_1).view.read (Elt F) f)⟩]) :=
  gd_gen d L X Tp k 1 1 _ _ (off12_eq L k 1 1) _ _ rfl f h g0
theorem gd_of_tb1_2 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_2 L k).view.loc (V d (cV L) (jV L)))) :
    GdOK X Tp (dM1_2 L k).view.set ((dM1_2 L k).view.writes (Elt F) g0 [⟨Rect.whole S8x128, ReadAs.same.apply ((sM_2).view.read (Elt F) f)⟩]) :=
  gd_gen d L X Tp k 1 2 _ _ (off13_eq L k 1 0) _ _ rfl f h g0
theorem gd_of_tb1_3 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_3 L k).view.loc (V d (cV L) (jV L)))) :
    GdOK X Tp (dM1_3 L k).view.set ((dM1_3 L k).view.writes (Elt F) g0 [⟨Rect.whole S8x128, ReadAs.same.apply ((sM_3).view.read (Elt F) f)⟩]) :=
  gd_gen d L X Tp k 1 3 _ _ (off13_eq L k 1 1) _ _ rfl f h g0
theorem gd_of_tb1_4 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_4 L k).view.loc (V d (cV L) (jV L)))) :
    GdOK X Tp (dM1_4 L k).view.set ((dM1_4 L k).view.writes (Elt F) g0 [⟨Rect.whole S8x128, ReadAs.same.apply ((sM_4).view.read (Elt F) f)⟩]) :=
  gd_gen d L X Tp k 1 4 _ _ (off14_eq L k 1 0) _ _ rfl f h g0
theorem gd_of_tb1_5 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_5 L k).view.loc (V d (cV L) (jV L)))) :
    GdOK X Tp (dM1_5 L k).view.set ((dM1_5 L k).view.writes (Elt F) g0 [⟨Rect.whole S8x128, ReadAs.same.apply ((sM_5).view.read (Elt F) f)⟩]) :=
  gd_gen d L X Tp k 1 5 _ _ (off14_eq L k 1 1) _ _ rfl f h g0
theorem gd_of_tb1_6 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_6 L k).view.loc (V d (cV L) (jV L)))) :
    GdOK X Tp (dM1_6 L k).view.set ((dM1_6 L k).view.writes (Elt F) g0 [⟨Rect.whole S8x128, ReadAs.same.apply ((sM_6).view.read (Elt F) f)⟩]) :=
  gd_gen d L X Tp k 1 6 _ _ (off15_eq L k 1 0) _ _ rfl f h g0
theorem gd_of_tb1_7 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_7 L k).view.loc (V d (cV L) (jV L)))) :
    GdOK X Tp (dM1_7 L k).view.set ((dM1_7 L k).view.writes (Elt F) g0 [⟨Rect.whole S8x128, ReadAs.same.apply ((sM_7).view.read (Elt F) f)⟩]) :=
  gd_gen d L X Tp k 1 7 _ _ (off15_eq L k 1 1) _ _ rfl f h g0
theorem gd_of_tb1_8 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_8 L k).view.loc (V d (cV L) (jV L)))) :
    GdOK X Tp (dM1_8 L k).view.set ((dM1_8 L k).view.writes (Elt F) g0 [⟨Rect.whole S8x128, ReadAs.same.apply ((sM_8).view.read (Elt F) f)⟩]) :=
  gd_gen d L X Tp k 1 8 _ _ (off16_eq L k 1 0) _ _ rfl f h g0
theorem gd_of_tb1_9 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_9 L k).view.loc (V d (cV L) (jV L)))) :
    GdOK X Tp (dM1_9 L k).view.set ((dM1_9 L k).view.writes (Elt F) g0 [⟨Rect.whole S8x128, ReadAs.same.apply ((sM_9).view.read (Elt F) f)⟩]) :=
  gd_gen d L X Tp k 1 9 _ _ (off16_eq L k 1 1) _ _ rfl f h g0
theorem gd_of_tb1_10 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_10 L k).view.loc (V d (cV L) (jV L)))) :
    GdOK X Tp (dM1_10 L k).view.set ((dM1_10 L k).view.writes (Elt F) g0 [⟨Rect.whole S8x128, ReadAs.same.apply ((sM_10).view.read (Elt F) f)⟩]) :=
  gd_gen d L X Tp k 1 10 _ _ (off17_eq L k 1 0) _ _ rfl f h g0
theorem gd_of_tb1_11 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_11 L k).view.loc (V d (cV L) (jV L)))) :
    GdOK X Tp (dM1_11 L k).view.set ((dM1_11 L k).view.writes (Elt F) g0 [⟨Rect.whole S8x128, ReadAs.same.apply ((sM_11).view.read (Elt F) f)⟩]) :=
  gd_gen d L X Tp k 1 11 _ _ (off17_eq L k 1 1) _ _ rfl f h g0
theorem gd_of_tb1_12 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_12 L k).view.loc (V d (cV L) (jV L)))) :
    GdOK X Tp (dM1_12 L k).view.set ((dM1_12 L k).view.writes (Elt F) g0 [⟨Rect.whole S8x128, ReadAs.same.apply ((sM_12).view.read (Elt F) f)⟩]) :=
  gd_gen d L X Tp k 1 12 _ _ (off18_eq L k 1 0) _ _ rfl f h g0
theorem gd_of_tb1_13 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_13 L k).view.loc (V d (cV L) (jV L)))) :
    GdOK X Tp (dM1_13 L k).view.set ((dM1_13 L k).view.writes (Elt F) g0 [⟨Rect.whole S8x128, ReadAs.same.apply ((sM_13).view.read (Elt F) f)⟩]) :=
  gd_gen d L X Tp k 1 13 _ _ (off18_eq L k 1 1) _ _ rfl f h g0
theorem gd_of_tb1_14 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_14 L k).view.loc (V d (cV L) (jV L)))) :
    GdOK X Tp (dM1_14 L k).view.set ((dM1_14 L k).view.writes (Elt F) g0 [⟨Rect.whole S8x128, ReadAs.same.apply ((sM_14).view.read (Elt F) f)⟩]) :=
  gd_gen d L X Tp k 1 14 _ _ (off19_eq L k 1 0) _ _ rfl f h g0
theorem gd_of_tb1_15 (d : Dev nD) (L : grid0.Coords) (X : Buf (Elt F) ((V d (cV L) (jV L)).loc main_v1_scv)) (Tp : Buf (Elt F) ((V d (cV L) (jV L)).loc main_v2_scv))
    (k : Fin k0_t1_loop.trips) (f : Buf (Elt F) ((V d (cV L) (jV L)).loc cc0_scratch4)) (h : TbOK X Tp L k 1 f) (g0 : Buf (Elt F) ((dM1_15 L k).view.loc (V d (cV L) (jV L)))) :
    GdOK X Tp (dM1_15 L k).view.set ((dM1_15 L k).view.writes (Elt F) g0 [⟨Rect.whole S8x128, ReadAs.same.apply ((sM_15).view.read (Elt F) f)⟩]) :=
  gd_gen d L X Tp k 1 15 _ _ (off19_eq L k 1 1) _ _ rfl f h g0

/-- The gathered rows: each row of the buffer is the padded table's row its index names. -/
theorem rows_ok_gather0 (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (I : Buf (Elt F) ((V d (cV L) (jV L)).loc cc0_scratch0)) (hI : IdxOK X L k b I)
    (g : Buf (Elt F) ((V d (cV L) (jV L)).loc cc0_scratch2)) (pf) (hin : ∀ j, ((i0).view.read (Elt F) I j).toNat < N1M) :
    RowsOK X Tp L k b ((r0).view.writes (Elt F) g [⟨Rect.whole _, SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i0).view I) pf hin)⟩]) := by
  intro r c
  have h1 := View.read_writes_cons_emb (r0).view g (Rect.whole S256x128)
    (SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i0).view I) pf hin)) [] (ix2 r c)
  have e := Rect.emb_whole_apply S256x128 (ix2 r c)
  rw [e] at h1
  simp only [Memref.view_whole, View.read_whole] at h1
  refine h1.trans ?_
  unfold SparseCore.gatherPayload
  refine ((View.read_apply _ _).trans (cast_eq _ _)).trans ?_
  have hrow : S256.rowMajor.symm (r.cast pf.symm) = ix1 r := (Equiv.symm_apply_eq _).2 (Fin.ext (by rw [Shape.rowMajor_val_one]; rfl))
  have hI' : (I (ix1 r)).toNat < 1000000 := hin (ix1 r)
  refine congrArg Tp (funext fun a => Fin.ext ?_)
  match a with
  | ⟨0, _⟩ =>
    show 0 + 1 * (gathers_S1000000x128_S256x128.idx (SparseCore.rows (View.read (Elt F) (i0).view I) pf hin) (ix2 r c) gathers_S1000000x128_S256x128.axis).val
      = (X (ix1 (⟨xoff L k b + r.val, xoff_lt L k b r⟩ : Fin 819200))).toNat % 1000000
    rw [Shape.Gathers.idx_axis]
    show 0 + 1 * (I (S256.rowMajor.symm (r.cast pf.symm))).toNat = _
    rw [hrow, ← hI r, Nat.mod_eq_of_lt hI']; omega
  | ⟨1, _⟩ =>
    show 0 + 1 * (gathers_S1000000x128_S256x128.idx (SparseCore.rows (View.read (Elt F) (i0).view I) pf hin) (ix2 r c) ⟨1, by decide⟩).val = c.val
    rw [Shape.Gathers.idx_of_ne _ _ _ _ (by decide)]
    show 0 + 1 * c.val = c.val
    omega

/-- The gathered rows: each row of the buffer is the padded table's row its index names. -/
theorem rows_ok_gather1 (d : Dev nD) (L : grid0.Coords) (X : Buf (Elt F) ((V d (cV L) (jV L)).loc main_v1_scv)) (Tp : Buf (Elt F) ((V d (cV L) (jV L)).loc main_v2_scv))
    (k : Fin k0_t1_loop.trips) (b : Fin 2) (I : Buf (Elt F) ((V d (cV L) (jV L)).loc cc0_scratch1)) (hI : IdxOK X L k b I)
    (g : Buf (Elt F) ((V d (cV L) (jV L)).loc cc0_scratch3)) (pf) (hin : ∀ j, ((i1).view.read (Elt F) I j).toNat < N1M) :
    RowsOK X Tp L k b ((r1).view.writes (Elt F) g [⟨Rect.whole _, SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i1).view I) pf hin)⟩]) := by
  intro r c
  have h1 := View.read_writes_cons_emb (r1).view g (Rect.whole S256x128)
    (SparseCore.gatherPayload gathers_S1000000x128_S256x128
      (View.read (Elt F) ((tW).slice (Rect.unit (s := S1000000x128) ![0, 0] S1000000x128.size inb_S1000000x128_S1000000x128_0_0) (fun _ => rfl)).view Tp)
      (SparseCore.rows (View.read (Elt F) (i1).view I) pf hin)) [] (ix2 r c)
  have e := Rect.emb_whole_apply S256x128 (ix2 r c)
  rw [e] at h1
  simp only [Memref.view_whole, View.read_whole] at h1
  refine h1.trans ?_
  unfold SparseCore.gatherPayload
  refine ((View.read_apply _ _).trans (cast_eq _ _)).trans ?_
  have hrow : S256.rowMajor.symm (r.cast pf.symm) = ix1 r := (Equiv.symm_apply_eq _).2 (Fin.ext (by rw [Shape.rowMajor_val_one]; rfl))
  have hI' : (I (ix1 r)).toNat < 1000000 := hin (ix1 r)
  refine congrArg Tp (funext fun a => Fin.ext ?_)
  match a with
  | ⟨0, _⟩ =>
    show 0 + 1 * (gathers_S1000000x128_S256x128.idx (SparseCore.rows (View.read (Elt F) (i1).view I) pf hin) (ix2 r c) gathers_S1000000x128_S256x128.axis).val
      = (X (ix1 (⟨xoff L k b + r.val, xoff_lt L k b r⟩ : Fin 819200))).toNat % 1000000
    rw [Shape.Gathers.idx_axis]
    show 0 + 1 * (I (S256.rowMajor.symm (r.cast pf.symm))).toNat = _
    rw [hrow, ← hI r, Nat.mod_eq_of_lt hI']; omega
  | ⟨1, _⟩ =>
    show 0 + 1 * (gathers_S1000000x128_S256x128.idx (SparseCore.rows (View.read (Elt F) (i1).view I) pf hin) (ix2 r c) ⟨1, by decide⟩).val = c.val
    rw [Shape.Gathers.idx_of_ne _ _ _ _ (by decide)]
    show 0 + 1 * c.val = c.val
    omega

end Cert.Proof.KB
end
-- ==== Proof.KTripFB.lean ====
import proofs.«206429_g47863115546636_cont_8to1c4_619_32_alg».proof.Proof.KTileB

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KB Cert.Proof.KWB

variable {F : FTy → Type}
local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

variable [FloatOps F]

set_option maxHeartbeats 0 in
theorem tripF (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : k0_cond2 k = 1#1) (h3 : ¬ k0_cond3 k = 1#1) (h4 : k0_cond4 k = 1#1) (h5 : k0_cond5 k = 1#1) (h6 : k0_cond6 k = 1#1) :
    iprop(coreFly d L O W q X Tp k.val ∗ tbIdle d L ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k ∗ SlA d L X Tp True k) : sProp 𝕄) := by
  unfold coreFly flyI1 flyG0 tbIdle SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨⟨%f, Htb⟩, Hs7⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec

  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  unfold batchB
  isplitl [Hmw HX3 Hs9 HX4 Hs5 HT0 HT1 Hr1 Hs6 Hs8 HO]
  · isplitl [Hmw]; · iexact Hmw
    isplitl [HX3]; · iexact HX3
    isplitl [Hs9 HX4]
    · iexists _, _
      isplitl [Hs9]; · iexact Hs9
      isplitl [HX4]; · iexact HX4
      ipureintro
      exact ⟨hin_i1 (F := F) d L X hX _ _ _, idx_ok_write1 d L X (kOf (k.val + 1)) 1 _ _ _ (off21_eq L k h5)⟩
    isplitl [Hs5 HT0]
    · iexists _, _, _
      isplitl [Hs5]; · iexact Hs5
      isplitl [HT0]; · iexact HT0
      ipureintro
      exact rows_ok_gather0 d L X Tp (kOf (k.val + 1)) 0 _ (idx_ok_write0 d L X (kOf (k.val + 1)) 0 _ _ _ (off3_eq L k h2)) _ _ _
    isplitl [HT1]; · iexact HT1
    isplitl [Hr1]; · iexists _; iexact Hr1
    isplitl [Hs6]; · iexact Hs6
    isplitl [Hs8]; · iexact Hs8
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.KB
end
-- ==== Proof.KTripMB.lean ====
import proofs.«206429_g47863115546636_cont_8to1c4_619_32_alg».proof.Proof.KTileB

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KB Cert.Proof.KWB

variable {F : FTy → Type}
local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

variable [FloatOps F]

set_option maxHeartbeats 0 in
theorem tripM (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : k0_cond2 k = 1#1) (h3 : k0_cond3 k = 1#1) (h4 : k0_cond4 k = 1#1) (h5 : k0_cond5 k = 1#1) (h6 : k0_cond6 k = 1#1) :
    iprop(coreFly d L O W q X Tp k.val ∗ batchB d L X Tp kp ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k ∗ SlB d L X Tp True kp ∗ SlA d L X Tp True k) : sProp 𝕄) := by
  unfold coreFly flyI1 flyG0 batchB SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨%f, %ga0, %ga1, %ga2, %ga3, %ga4, %ga5, %ga6, %ga7, %ga8, %ga9, %ga10, %ga11, %ga12, %ga13, %ga14, %ga15, Hs7, %hTb⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  isplitl [Hmw HX3 Hs9 HX4 Hs5 HT0 HT1 Hr1 Hs6 Hs8 HO]
  · isplitl [Hmw]; · iexact Hmw
    isplitl [HX3]; · iexact HX3
    isplitl [Hs9 HX4]
    · iexists _, _
      isplitl [Hs9]; · iexact Hs9
      isplitl [HX4]; · iexact HX4
      ipureintro
      exact ⟨hin_i1 (F := F) d L X hX _ _ _, idx_ok_write1 d L X (kOf (k.val + 1)) 1 _ _ _ (off21_eq L k h5)⟩
    isplitl [Hs5 HT0]
    · iexists _, _, _
      isplitl [Hs5]; · iexact Hs5
      isplitl [HT0]; · iexact HT0
      ipureintro
      exact rows_ok_gather0 d L X Tp (kOf (k.val + 1)) 0 _ (idx_ok_write0 d L X (kOf (k.val + 1)) 0 _ _ _ (off3_eq L k h2)) _ _ _
    isplitl [HT1]; · iexact HT1
    isplitl [Hr1]; · iexists _; iexact Hr1
    isplitl [Hs6]; · iexact Hs6
    isplitl [Hs8]; · iexact Hs8
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15]
  ·
    isplitl [Hs7_dst0]
    · iexists _; isplitl [Hs7_dst0]; · iexact Hs7_dst0
      ipureintro; exact fun _ => gd_of_tb1_0 d L X Tp kp _ hTb _
    isplitl [Hs7_dst1]
    · iexists _; isplitl [Hs7_dst1]; · iexact Hs7_dst1
      ipureintro; exact fun _ => gd_of_tb1_1 d L X Tp kp _ hTb _
    isplitl [Hs7_dst2]
    · iexists _; isplitl [Hs7_dst2]; · iexact Hs7_dst2
      ipureintro; exact fun _ => gd_of_tb1_2 d L X Tp kp _ hTb _
    isplitl [Hs7_dst3]
    · iexists _; isplitl [Hs7_dst3]; · iexact Hs7_dst3
      ipureintro; exact fun _ => gd_of_tb1_3 d L X Tp kp _ hTb _
    isplitl [Hs7_dst4]
    · iexists _; isplitl [Hs7_dst4]; · iexact Hs7_dst4
      ipureintro; exact fun _ => gd_of_tb1_4 d L X Tp kp _ hTb _
    isplitl [Hs7_dst5]
    · iexists _; isplitl [Hs7_dst5]; · iexact Hs7_dst5
      ipureintro; exact fun _ => gd_of_tb1_5 d L X Tp kp _ hTb _
    isplitl [Hs7_dst6]
    · iexists _; isplitl [Hs7_dst6]; · iexact Hs7_dst6
      ipureintro; exact fun _ => gd_of_tb1_6 d L X Tp kp _ hTb _
    isplitl [Hs7_dst7]
    · iexists _; isplitl [Hs7_dst7]; · iexact Hs7_dst7
      ipureintro; exact fun _ => gd_of_tb1_7 d L X Tp kp _ hTb _
    isplitl [Hs7_dst8]
    · iexists _; isplitl [Hs7_dst8]; · iexact Hs7_dst8
      ipureintro; exact fun _ => gd_of_tb1_8 d L X Tp kp _ hTb _
    isplitl [Hs7_dst9]
    · iexists _; isplitl [Hs7_dst9]; · iexact Hs7_dst9
      ipureintro; exact fun _ => gd_of_tb1_9 d L X Tp kp _ hTb _
    isplitl [Hs7_dst10]
    · iexists _; isplitl [Hs7_dst10]; · iexact Hs7_dst10
      ipureintro; exact fun _ => gd_of_tb1_10 d L X Tp kp _ hTb _
    isplitl [Hs7_dst11]
    · iexists _; isplitl [Hs7_dst11]; · iexact Hs7_dst11
      ipureintro; exact fun _ => gd_of_tb1_11 d L X Tp kp _ hTb _
    isplitl [Hs7_dst12]
    · iexists _; isplitl [Hs7_dst12]; · iexact Hs7_dst12
      ipureintro; exact fun _ => gd_of_tb1_12 d L X Tp kp _ hTb _
    isplitl [Hs7_dst13]
    · iexists _; isplitl [Hs7_dst13]; · iexact Hs7_dst13
      ipureintro; exact fun _ => gd_of_tb1_13 d L X Tp kp _ hTb _
    isplitl [Hs7_dst14]
    · iexists _; isplitl [Hs7_dst14]; · iexact Hs7_dst14
      ipureintro; exact fun _ => gd_of_tb1_14 d L X Tp kp _ hTb _
    iexists _; isplitl [Hs7_dst15]; · iexact Hs7_dst15
    ipureintro; exact fun _ => gd_of_tb1_15 d L X Tp kp _ hTb _
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.KB
end
-- ==== Proof.KTripLB.lean ====
import proofs.«206429_g47863115546636_cont_8to1c4_619_32_alg».proof.Proof.KTileB

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KB Cert.Proof.KWB

variable {F : FTy → Type}
local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

variable [FloatOps F]

set_option maxHeartbeats 0 in
theorem tripL (d : Dev nD) (L : grid0.Coords) (O : CellTallies nD τ sig (HIx 1)) (W : Waits sig (HIx 1)) (q : PosShare TreeShare)
    (X : Buf (Elt F) ((V d (cV L) (jV L)).loc main_v1_scv)) (Tp : Buf (Elt F) ((V d (cV L) (jV L)).loc main_v2_scv)) (hX : ∀ j, (X j).toNat < 1000000)
    (hI2 : Inner2 (F := F) d L) (hI3 : Inner3 (F := F) d L)
    (k kp : Fin k0_t1_loop.trips) (h1 : k0_cond1 k = 1#1) (h2 : ¬ k0_cond2 k = 1#1) (h3 : k0_cond3 k = 1#1) (h4 : ¬ k0_cond4 k = 1#1) (h5 : ¬ k0_cond5 k = 1#1) (h6 : k0_cond6 k = 1#1) :
    iprop(coreFly d L O W q X Tp k.val ∗ batchB d L X Tp kp ∗ SlA d L X Tp False k ∗ SlB d L X Tp False k)
      ⊢ (wp frame (wpE (defs₀ (F := F)) 𝒱₀ (V d (cV L) (jV L)) none) Set.univ
          (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreIdle d L O W q X Tp ∗ batchB d L X Tp k ∗ SlB d L X Tp True kp ∗ SlA d L X Tp True k) : sProp 𝕄) := by
  unfold coreFly flyI1 flyG0 batchB SlA SlB owesPart
  iintro ⟨⟨Hmw, HX3, ⟨%SX, %I1, Hs9, HX4, %hI1⟩, ⟨%ST, %G0, %I0, Hs5, HT0, %hG0⟩, HT1, ⟨%g1, Hr1⟩, Hs6, Hs8, ⟨%W', HO, %hW'⟩⟩, ⟨%f, %ga0, %ga1, %ga2, %ga3, %ga4, %ga5, %ga6, %ga7, %ga8, %ga9, %ga10, %ga11, %ga12, %ga13, %ga14, %ga15, Hs7, %hTb⟩,
    ⟨⟨%a0, HA0, -⟩, ⟨%a1, HA1, -⟩, ⟨%a2, HA2, -⟩, ⟨%a3, HA3, -⟩, ⟨%a4, HA4, -⟩, ⟨%a5, HA5, -⟩, ⟨%a6, HA6, -⟩, ⟨%a7, HA7, -⟩, ⟨%a8, HA8, -⟩, ⟨%a9, HA9, -⟩, ⟨%a10, HA10, -⟩, ⟨%a11, HA11, -⟩, ⟨%a12, HA12, -⟩, ⟨%a13, HA13, -⟩, ⟨%a14, HA14, -⟩, ⟨%a15, HA15, -⟩⟩, ⟨⟨%b0, HB0, -⟩, ⟨%b1, HB1, -⟩, ⟨%b2, HB2, -⟩, ⟨%b3, HB3, -⟩, ⟨%b4, HB4, -⟩, ⟨%b5, HB5, -⟩, ⟨%b6, HB6, -⟩, ⟨%b7, HB7, -⟩, ⟨%b8, HB8, -⟩, ⟨%b9, HB9, -⟩, ⟨%b10, HB10, -⟩, ⟨%b11, HB11, -⟩, ⟨%b12, HB12, -⟩, ⟨%b13, HB13, -⟩, ⟨%b14, HB14, -⟩, ⟨%b15, HB15, -⟩⟩⟩
  have hb : Transfers.BatchOf (V d (cV L) (jV L)) (SemLoc.dma cc0_scratch7.sem) 16 := trivial
  have hinA := hin_i0 (F := F) d L X hX
  have hin1 := hI1.1
  have hkk : kOf k.val = k := Fin.ext (Nat.mod_eq_of_lt (by have h := k.isLt; have h' := trips1; omega))
  have hG0k : RowsOK X Tp L k 0 G0 := hkk ▸ hG0
  have hI1k : IdxOK X L k 1 I1 := hkk ▸ hI1.2
  sl_unfold [k0_t1_body]
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_for (invR0 d L G0) $$ [Hs5_dst Htb]
  case region =>
    intro g acc
    unfold invR0
    iintro ⟨HR, %ff, %hD, HT⟩
    iapply (hI2 k _ _ g G0 ff hD) $$ [HR HT]
    isplitl [HR]; · iexact HR
    iexact HT
  · unfold invR0
    isplitl [Hs5_dst]; · iexact Hs5_dst
    iexists _; isplitr
    rotate_left
    · iexact Htb
    · ipureintro; exact done_zero _ _
  iintro %_ HI
  unfold invR0
  icases HI with ⟨Hs5_dst, %f2, %hD, Htb⟩
  have hf2 : f2 = T8 G0 := done_all (show Done 16 G0 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  ihave Htb := (Entails.of_eq (tb_blocks (F := F) d L _).symm) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  ihave Hx := (pts_ex_eq (F := F) _) $$ Hr1
  icases Hx with ⟨%R1, Hr1, %hR1⟩
  have hRows1 : RowsOK X Tp L k 1 R1 := hR1 ▸ rows_ok_gather1 d L X Tp k 1 I1 hI1k _ _ hin1
  sl_for (invR1 d L R1) $$ [Hr1 Htb]
  case region =>
    intro g acc
    unfold invR1
    iintro ⟨HR, %ff, %hD, HT⟩
    iapply (hI3 k _ _ _ _ _ _ g R1 ff hD) $$ [HR HT]
    isplitl [HR]; · iexact HR
    iexact HT
  · unfold invR1
    isplitl [Hr1]; · iexact Hr1
    iexists _; isplitr
    rotate_left
    · iexact Htb
    · ipureintro; exact done_zero _ _
  iintro %_ HI
  unfold invR1
  icases HI with ⟨Hr1, %f2, %hD, Htb⟩
  have hf2 : f2 = T8 R1 := done_all (show Done 16 R1 f2 from hD)
  subst hf2
  ihave Hblk := (Entails.of_eq (tb_blocks (F := F) d L _)) $$ Htb
  icases Hblk with ⟨HS0, HS1, HS2, HS3, HS4, HS5, HS6, HS7, HS8, HS9, HS10, HS11, HS12, HS13, HS14, HS15⟩
  sl_exec
  sl_step
  unfold coreIdle owesPart
  isplitl [Hmw HX3 HX4 HT0 HT1 Hs5_dst Hr1 Hs5_dst_and Hs9_dst Hs5 Hs6 Hs8 Hs9 HO]
  · isplitl [Hmw]; · iexact Hmw
    isplitl [HX3]; · iexact HX3
    isplitl [HX4]; · iexact HX4
    isplitl [HT0]; · iexact HT0
    isplitl [HT1]; · iexact HT1
    isplitl [Hs5_dst]; · iexists _; iexact Hs5_dst
    isplitl [Hr1]; · iexists _; iexact Hr1
    isplitl [Hs5_dst_and]; · iexists _; iexact Hs5_dst_and
    isplitl [Hs9_dst]; · iexists _; iexact Hs9_dst
    isplitl [Hs5]; · iexact Hs5
    isplitl [Hs6]; · iexact Hs6
    isplitl [Hs8]; · iexact Hs8
    isplitl [Hs9]; · iexact Hs9
    iexists _; isplitl [HO]; · iexact HO
    ipureintro; repeat (first | exact hW' | apply okW_insert)
  isplitl [Hs7]
  · iexists _, _, _, _, _, _, _, _, _, _, _, _, _, _, _, _, _; isplitl [Hs7]; · iexact Hs7
    ipureintro; exact ⟨R1, hRows1, rfl⟩
  isplitl [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15]
  ·
    isplitl [Hs7_dst0]
    · iexists _; isplitl [Hs7_dst0]; · iexact Hs7_dst0
      ipureintro; exact fun _ => gd_of_tb1_0 d L X Tp kp _ hTb _
    isplitl [Hs7_dst1]
    · iexists _; isplitl [Hs7_dst1]; · iexact Hs7_dst1
      ipureintro; exact fun _ => gd_of_tb1_1 d L X Tp kp _ hTb _
    isplitl [Hs7_dst2]
    · iexists _; isplitl [Hs7_dst2]; · iexact Hs7_dst2
      ipureintro; exact fun _ => gd_of_tb1_2 d L X Tp kp _ hTb _
    isplitl [Hs7_dst3]
    · iexists _; isplitl [Hs7_dst3]; · iexact Hs7_dst3
      ipureintro; exact fun _ => gd_of_tb1_3 d L X Tp kp _ hTb _
    isplitl [Hs7_dst4]
    · iexists _; isplitl [Hs7_dst4]; · iexact Hs7_dst4
      ipureintro; exact fun _ => gd_of_tb1_4 d L X Tp kp _ hTb _
    isplitl [Hs7_dst5]
    · iexists _; isplitl [Hs7_dst5]; · iexact Hs7_dst5
      ipureintro; exact fun _ => gd_of_tb1_5 d L X Tp kp _ hTb _
    isplitl [Hs7_dst6]
    · iexists _; isplitl [Hs7_dst6]; · iexact Hs7_dst6
      ipureintro; exact fun _ => gd_of_tb1_6 d L X Tp kp _ hTb _
    isplitl [Hs7_dst7]
    · iexists _; isplitl [Hs7_dst7]; · iexact Hs7_dst7
      ipureintro; exact fun _ => gd_of_tb1_7 d L X Tp kp _ hTb _
    isplitl [Hs7_dst8]
    · iexists _; isplitl [Hs7_dst8]; · iexact Hs7_dst8
      ipureintro; exact fun _ => gd_of_tb1_8 d L X Tp kp _ hTb _
    isplitl [Hs7_dst9]
    · iexists _; isplitl [Hs7_dst9]; · iexact Hs7_dst9
      ipureintro; exact fun _ => gd_of_tb1_9 d L X Tp kp _ hTb _
    isplitl [Hs7_dst10]
    · iexists _; isplitl [Hs7_dst10]; · iexact Hs7_dst10
      ipureintro; exact fun _ => gd_of_tb1_10 d L X Tp kp _ hTb _
    isplitl [Hs7_dst11]
    · iexists _; isplitl [Hs7_dst11]; · iexact Hs7_dst11
      ipureintro; exact fun _ => gd_of_tb1_11 d L X Tp kp _ hTb _
    isplitl [Hs7_dst12]
    · iexists _; isplitl [Hs7_dst12]; · iexact Hs7_dst12
      ipureintro; exact fun _ => gd_of_tb1_12 d L X Tp kp _ hTb _
    isplitl [Hs7_dst13]
    · iexists _; isplitl [Hs7_dst13]; · iexact Hs7_dst13
      ipureintro; exact fun _ => gd_of_tb1_13 d L X Tp kp _ hTb _
    isplitl [Hs7_dst14]
    · iexists _; isplitl [Hs7_dst14]; · iexact Hs7_dst14
      ipureintro; exact fun _ => gd_of_tb1_14 d L X Tp kp _ hTb _
    iexists _; isplitl [Hs7_dst15]; · iexact Hs7_dst15
    ipureintro; exact fun _ => gd_of_tb1_15 d L X Tp kp _ hTb _
  isplitl [HA0]
  · iexists _; isplitl [HA0]; · iexact HA0
    ipureintro; exact fun _ => gd_of_tb0_0 d L X Tp k _ ⟨G0, hG0k, rfl⟩ _
  isplitl [HA1]
  · iexists _; isplitl [HA1]; · iexact HA1
    ipureintro; exact fun _ => gd_of_tb0_1 d L X Tp k _ ⟨G0, hG0k, rfl⟩ _
  isplitl [HA2]
  · iexists _; isplitl [HA2]; · iexact HA2
    ipureintro; exact fun _ => gd_of_tb0_2 d L X Tp k _ ⟨G0, hG0k, rfl⟩ _
  isplitl [HA3]
  · iexists _; isplitl [HA3]; · iexact HA3
    ipureintro; exact fun _ => gd_of_tb0_3 d L X Tp k _ ⟨G0, hG0k, rfl⟩ _
  isplitl [HA4]
  · iexists _; isplitl [HA4]; · iexact HA4
    ipureintro; exact fun _ => gd_of_tb0_4 d L X Tp k _ ⟨G0, hG0k, rfl⟩ _
  isplitl [HA5]
  · iexists _; isplitl [HA5]; · iexact HA5
    ipureintro; exact fun _ => gd_of_tb0_5 d L X Tp k _ ⟨G0, hG0k, rfl⟩ _
  isplitl [HA6]
  · iexists _; isplitl [HA6]; · iexact HA6
    ipureintro; exact fun _ => gd_of_tb0_6 d L X Tp k _ ⟨G0, hG0k, rfl⟩ _
  isplitl [HA7]
  · iexists _; isplitl [HA7]; · iexact HA7
    ipureintro; exact fun _ => gd_of_tb0_7 d L X Tp k _ ⟨G0, hG0k, rfl⟩ _
  isplitl [HA8]
  · iexists _; isplitl [HA8]; · iexact HA8
    ipureintro; exact fun _ => gd_of_tb0_8 d L X Tp k _ ⟨G0, hG0k, rfl⟩ _
  isplitl [HA9]
  · iexists _; isplitl [HA9]; · iexact HA9
    ipureintro; exact fun _ => gd_of_tb0_9 d L X Tp k _ ⟨G0, hG0k, rfl⟩ _
  isplitl [HA10]
  · iexists _; isplitl [HA10]; · iexact HA10
    ipureintro; exact fun _ => gd_of_tb0_10 d L X Tp k _ ⟨G0, hG0k, rfl⟩ _
  isplitl [HA11]
  · iexists _; isplitl [HA11]; · iexact HA11
    ipureintro; exact fun _ => gd_of_tb0_11 d L X Tp k _ ⟨G0, hG0k, rfl⟩ _
  isplitl [HA12]
  · iexists _; isplitl [HA12]; · iexact HA12
    ipureintro; exact fun _ => gd_of_tb0_12 d L X Tp k _ ⟨G0, hG0k, rfl⟩ _
  isplitl [HA13]
  · iexists _; isplitl [HA13]; · iexact HA13
    ipureintro; exact fun _ => gd_of_tb0_13 d L X Tp k _ ⟨G0, hG0k, rfl⟩ _
  isplitl [HA14]
  · iexists _; isplitl [HA14]; · iexact HA14
    ipureintro; exact fun _ => gd_of_tb0_14 d L X Tp k _ ⟨G0, hG0k, rfl⟩ _
  iexists _; isplitl [HA15]; · iexact HA15
  ipureintro; exact fun _ => gd_of_tb0_15 d L X Tp k _ ⟨G0, hG0k, rfl⟩ _

end Cert.Proof.KB
end
-- ==== Proof.KChkB.lean ====
/-
  The 256 in-range conditions of the two transposition loops hold at the constant index words:
  for every trip g and every lane, the row and column words of each indexed load lie inside the
  256 x 128 row buffer and those of each indexed store inside the 128 x 128 scratch. Each is a finite
  statement over 16 trips, 16 lanes and 2 axes, checked by evaluation.
  J2 g and J3 g are the word floor(g / 8) as the loops compute it (signed floor division by 8).
-/
import proofs.«206429_g47863115546636_cont_8to1c4_619_32_alg».proof.Proof.KWordsB

-- one statement at a time: each is checked by evaluation, and many at once hold much memory
set_option Elab.async false

noncomputable section

namespace Cert.Proof.KWB

open Idealize.ShloMosaic Idealize.SL.Sem Idealize.ShloMosaic.ValueIdx
open Cert.Kernel Cert.Kernel.Gen

/-- floor(g / 8) as the first loop computes it from its trip variable. -/
def J2 (g : Fin k0_t2_loop.trips) : BitVec 32 :=
  let arg16 : BitVec 32 := Scf.iv 0#32 1#32 g
  let v555 : BitVec 32 := Scalar.muli arg16 1#32
  let v556 : BitVec 32 := Scalar.addi 0#32 v555
  let v558 : BitVec 32 := Scalar.divsi v556 8#32
  let v559 : BitVec 1 := Scalar.cmpi .sgt v556 0#32
  let v560 : BitVec 32 := Scalar.extui v559
  let v561 : BitVec 1 := Scalar.cmpi .slt v556 0#32
  let v562 : BitVec 32 := Scalar.extui v561
  let v563 : BitVec 32 := Scalar.subi v560 v562
  let v564 : BitVec 1 := Scalar.cmpi .sgt 8#32 0#32
  let v565 : BitVec 32 := Scalar.extui v564
  let v566 : BitVec 1 := Scalar.cmpi .slt 8#32 0#32
  let v567 : BitVec 32 := Scalar.extui v566
  let v568 : BitVec 32 := Scalar.subi v565 v567
  let v569 : BitVec 1 := Scalar.cmpi .ne v563 v568
  let v570 : BitVec 32 := Scalar.remsi v556 8#32
  let v571 : BitVec 1 := Scalar.cmpi .ne v570 0#32
  let v572 : BitVec 1 := Scalar.andi v569 v571
  let v573 : BitVec 32 := Scalar.subi v558 1#32
  let v574 : BitVec 32 := Scalar.select v572 v573 v558
  v574

/-- floor(g / 8) as the second loop computes it from its trip variable. -/
def J3 (g : Fin k0_t3_loop.trips) : BitVec 32 :=
  let arg16 : BitVec 32 := Scf.iv 0#32 1#32 g
  let v555 : BitVec 32 := Scalar.muli arg16 1#32
  let v556 : BitVec 32 := Scalar.addi 0#32 v555
  let v558 : BitVec 32 := Scalar.divsi v556 8#32
  let v559 : BitVec 1 := Scalar.cmpi .sgt v556 0#32
  let v560 : BitVec 32 := Scalar.extui v559
  let v561 : BitVec 1 := Scalar.cmpi .slt v556 0#32
  let v562 : BitVec 32 := Scalar.extui v561
  let v563 : BitVec 32 := Scalar.subi v560 v562
  let v564 : BitVec 1 := Scalar.cmpi .sgt 8#32 0#32
  let v565 : BitVec 32 := Scalar.extui v564
  let v566 : BitVec 1 := Scalar.cmpi .slt 8#32 0#32
  let v567 : BitVec 32 := Scalar.extui v566
  let v568 : BitVec 32 := Scalar.subi v565 v567
  let v569 : BitVec 1 := Scalar.cmpi .ne v563 v568
  let v570 : BitVec 32 := Scalar.remsi v556 8#32
  let v571 : BitVec 1 := Scalar.cmpi .ne v570 0#32
  let v572 : BitVec 1 := Scalar.andi v569 v571
  let v573 : BitVec 32 := Scalar.subi v558 1#32
  let v574 : BitVec 32 := Scalar.select v572 v573 v558
  v574

theorem chk1 (g : Fin k0_t2_loop.trips) : k0_chk1 (k0_pay1 W3 0#32 1#32 g) (k0_pay3 W7) := by
  unfold k0_chk1; revert g; decide +kernel

theorem chk2 (g : Fin k0_t2_loop.trips) : k0_chk2 (k0_pay2 W3 0#32 1#32 g) (k0_pay4 W70 0#32 1#32 g) := by
  unfold k0_chk2; revert g; decide +kernel

theorem chk3 (g : Fin k0_t2_loop.trips) : k0_chk3 (k0_pay1 W3 0#32 1#32 g) (k0_pay6 W11) := by
  unfold k0_chk3; revert g; decide +kernel

theorem chk4 (g : Fin k0_t2_loop.trips) : k0_chk4 (k0_pay2 W3 0#32 1#32 g) (k0_pay7 W73 (J2 g) 8#32) := by
  unfold k0_chk4; revert g; decide +kernel

theorem chk5 (g : Fin k0_t2_loop.trips) : k0_chk5 (k0_pay1 W3 0#32 1#32 g) (k0_pay9 W15) := by
  unfold k0_chk5; revert g; decide +kernel

theorem chk6 (g : Fin k0_t2_loop.trips) : k0_chk6 (k0_pay2 W3 0#32 1#32 g) (k0_pay10 W76 (J2 g)) := by
  unfold k0_chk6; revert g; decide +kernel

theorem chk7 (g : Fin k0_t2_loop.trips) : k0_chk7 (k0_pay1 W3 0#32 1#32 g) (k0_pay12 W19) := by
  unfold k0_chk7; revert g; decide +kernel

theorem chk8 (g : Fin k0_t2_loop.trips) : k0_chk8 (k0_pay2 W3 0#32 1#32 g) (k0_pay13 W79 (J2 g)) := by
  unfold k0_chk8; revert g; decide +kernel

theorem chk9 (g : Fin k0_t2_loop.trips) : k0_chk9 (k0_pay1 W3 0#32 1#32 g) (k0_pay15 W23) := by
  unfold k0_chk9; revert g; decide +kernel

theorem chk10 (g : Fin k0_t2_loop.trips) : k0_chk10 (k0_pay2 W3 0#32 1#32 g) (k0_pay16 W82 (J2 g)) := by
  unfold k0_chk10; revert g; decide +kernel

theorem chk11 (g : Fin k0_t2_loop.trips) : k0_chk11 (k0_pay1 W3 0#32 1#32 g) (addi W27 k0_pay18) := by
  unfold k0_chk11; revert g; decide +kernel

theorem chk12 (g : Fin k0_t2_loop.trips) : k0_chk12 (k0_pay2 W3 0#32 1#32 g) (k0_pay19 W85 (J2 g)) := by
  unfold k0_chk12; revert g; decide +kernel

theorem chk13 (g : Fin k0_t2_loop.trips) : k0_chk13 (k0_pay1 W3 0#32 1#32 g) (k0_pay21 W31) := by
  unfold k0_chk13; revert g; decide +kernel

theorem chk14 (g : Fin k0_t2_loop.trips) : k0_chk14 (k0_pay2 W3 0#32 1#32 g) (k0_pay22 W88 (J2 g)) := by
  unfold k0_chk14; revert g; decide +kernel

theorem chk15 (g : Fin k0_t2_loop.trips) : k0_chk15 (k0_pay1 W3 0#32 1#32 g) (k0_pay24 W35) := by
  unfold k0_chk15; revert g; decide +kernel

theorem chk16 (g : Fin k0_t2_loop.trips) : k0_chk16 (k0_pay2 W3 0#32 1#32 g) (k0_pay25 W91 (J2 g)) := by
  unfold k0_chk16; revert g; decide +kernel

theorem chk17 (g : Fin k0_t2_loop.trips) : k0_chk17 (k0_pay1 W3 0#32 1#32 g) (k0_pay27 W39) := by
  unfold k0_chk17; revert g; decide +kernel

theorem chk18 (g : Fin k0_t2_loop.trips) : k0_chk18 (k0_pay2 W3 0#32 1#32 g) (k0_pay28 W94 (J2 g)) := by
  unfold k0_chk18; revert g; decide +kernel

theorem chk19 (g : Fin k0_t2_loop.trips) : k0_chk19 (k0_pay1 W3 0#32 1#32 g) (k0_pay31 W43) := by
  unfold k0_chk19; revert g; decide +kernel

theorem chk20 (g : Fin k0_t2_loop.trips) : k0_chk20 (k0_pay2 W3 0#32 1#32 g) (k0_pay32 W97 (J2 g)) := by
  unfold k0_chk20; revert g; decide +kernel

theorem chk21 (g : Fin k0_t2_loop.trips) : k0_chk21 (k0_pay1 W3 0#32 1#32 g) (k0_pay34 W47) := by
  unfold k0_chk21; revert g; decide +kernel

theorem chk22 (g : Fin k0_t2_loop.trips) : k0_chk22 (k0_pay2 W3 0#32 1#32 g) (k0_pay35 W100 (J2 g)) := by
  unfold k0_chk22; revert g; decide +kernel

theorem chk23 (g : Fin k0_t2_loop.trips) : k0_chk23 (k0_pay1 W3 0#32 1#32 g) (k0_pay37 W51) := by
  unfold k0_chk23; revert g; decide +kernel

theorem chk24 (g : Fin k0_t2_loop.trips) : k0_chk24 (k0_pay2 W3 0#32 1#32 g) (k0_pay38 W103 (J2 g)) := by
  unfold k0_chk24; revert g; decide +kernel

theorem chk25 (g : Fin k0_t2_loop.trips) : k0_chk25 (k0_pay1 W3 0#32 1#32 g) (k0_pay40 W55) := by
  unfold k0_chk25; revert g; decide +kernel

theorem chk26 (g : Fin k0_t2_loop.trips) : k0_chk26 (k0_pay2 W3 0#32 1#32 g) (addi W106 (k0_pay41 (J2 g))) := by
  unfold k0_chk26; revert g; decide +kernel

theorem chk27 (g : Fin k0_t2_loop.trips) : k0_chk27 (k0_pay1 W3 0#32 1#32 g) (k0_pay43 W59) := by
  unfold k0_chk27; revert g; decide +kernel

theorem chk28 (g : Fin k0_t2_loop.trips) : k0_chk28 (k0_pay2 W3 0#32 1#32 g) (k0_pay44 W109 (J2 g)) := by
  unfold k0_chk28; revert g; decide +kernel

theorem chk29 (g : Fin k0_t2_loop.trips) : k0_chk29 (k0_pay1 W3 0#32 1#32 g) (k0_pay46 W63) := by
  unfold k0_chk29; revert g; decide +kernel

theorem chk30 (g : Fin k0_t2_loop.trips) : k0_chk30 (k0_pay2 W3 0#32 1#32 g) (k0_pay47 W112 (J2 g)) := by
  unfold k0_chk30; revert g; decide +kernel

theorem chk31 (g : Fin k0_t2_loop.trips) : k0_chk31 (k0_pay1 W3 0#32 1#32 g) (k0_pay49 W67) := by
  unfold k0_chk31; revert g; decide +kernel

theorem chk32 (g : Fin k0_t2_loop.trips) : k0_chk32 (k0_pay2 W3 0#32 1#32 g) (k0_pay50 W115 (J2 g)) := by
  unfold k0_chk32; revert g; decide +kernel

theorem chk33 (g : Fin k0_t2_loop.trips) : k0_chk33 (k0_pay1 W3 0#32 1#32 g) (k0_pay52 W7) := by
  unfold k0_chk33; revert g; decide +kernel

theorem chk34 (g : Fin k0_t2_loop.trips) : k0_chk34 (k0_pay2 W3 0#32 1#32 g) (k0_pay53 W70 (J2 g) 8#32) := by
  unfold k0_chk34; revert g; decide +kernel

theorem chk35 (g : Fin k0_t2_loop.trips) : k0_chk35 (k0_pay1 W3 0#32 1#32 g) (k0_pay55 W11) := by
  unfold k0_chk35; revert g; decide +kernel

theorem chk36 (g : Fin k0_t2_loop.trips) : k0_chk36 (k0_pay2 W3 0#32 1#32 g) (k0_pay56 W73 (J2 g)) := by
  unfold k0_chk36; revert g; decide +kernel

theorem chk37 (g : Fin k0_t2_loop.trips) : k0_chk37 (k0_pay1 W3 0#32 1#32 g) (k0_pay58 W15) := by
  unfold k0_chk37; revert g; decide +kernel

theorem chk38 (g : Fin k0_t2_loop.trips) : k0_chk38 (k0_pay2 W3 0#32 1#32 g) (k0_pay59 W76 (J2 g)) := by
  unfold k0_chk38; revert g; decide +kernel

theorem chk39 (g : Fin k0_t2_loop.trips) : k0_chk39 (k0_pay1 W3 0#32 1#32 g) (k0_pay61 W19) := by
  unfold k0_chk39; revert g; decide +kernel

theorem chk40 (g : Fin k0_t2_loop.trips) : k0_chk40 (k0_pay2 W3 0#32 1#32 g) (k0_pay62 W79 (J2 g)) := by
  unfold k0_chk40; revert g; decide +kernel

theorem chk41 (g : Fin k0_t2_loop.trips) : k0_chk41 (k0_pay1 W3 0#32 1#32 g) (addi W23 k0_pay64) := by
  unfold k0_chk41; revert g; decide +kernel

theorem chk42 (g : Fin k0_t2_loop.trips) : k0_chk42 (k0_pay2 W3 0#32 1#32 g) (k0_pay65 W82 (J2 g)) := by
  unfold k0_chk42; revert g; decide +kernel

theorem chk43 (g : Fin k0_t2_loop.trips) : k0_chk43 (k0_pay1 W3 0#32 1#32 g) (k0_pay67 W27) := by
  unfold k0_chk43; revert g; decide +kernel

theorem chk44 (g : Fin k0_t2_loop.trips) : k0_chk44 (k0_pay2 W3 0#32 1#32 g) (k0_pay68 W85 (J2 g)) := by
  unfold k0_chk44; revert g; decide +kernel

theorem chk45 (g : Fin k0_t2_loop.trips) : k0_chk45 (k0_pay1 W3 0#32 1#32 g) (k0_pay70 W31) := by
  unfold k0_chk45; revert g; decide +kernel

theorem chk46 (g : Fin k0_t2_loop.trips) : k0_chk46 (k0_pay2 W3 0#32 1#32 g) (k0_pay71 W88 (J2 g)) := by
  unfold k0_chk46; revert g; decide +kernel

theorem chk47 (g : Fin k0_t2_loop.trips) : k0_chk47 (k0_pay1 W3 0#32 1#32 g) (k0_pay73 W35) := by
  unfold k0_chk47; revert g; decide +kernel

theorem chk48 (g : Fin k0_t2_loop.trips) : k0_chk48 (k0_pay2 W3 0#32 1#32 g) (k0_pay74 W91 (J2 g)) := by
  unfold k0_chk48; revert g; decide +kernel

theorem chk49 (g : Fin k0_t2_loop.trips) : k0_chk49 (k0_pay1 W3 0#32 1#32 g) (k0_pay77 W39) := by
  unfold k0_chk49; revert g; decide +kernel

theorem chk50 (g : Fin k0_t2_loop.trips) : k0_chk50 (k0_pay2 W3 0#32 1#32 g) (k0_pay78 W94 (J2 g)) := by
  unfold k0_chk50; revert g; decide +kernel

theorem chk51 (g : Fin k0_t2_loop.trips) : k0_chk51 (k0_pay1 W3 0#32 1#32 g) (k0_pay80 W43) := by
  unfold k0_chk51; revert g; decide +kernel

theorem chk52 (g : Fin k0_t2_loop.trips) : k0_chk52 (k0_pay2 W3 0#32 1#32 g) (k0_pay81 W97 (J2 g)) := by
  unfold k0_chk52; revert g; decide +kernel

theorem chk53 (g : Fin k0_t2_loop.trips) : k0_chk53 (k0_pay1 W3 0#32 1#32 g) (k0_pay83 W47) := by
  unfold k0_chk53; revert g; decide +kernel

theorem chk54 (g : Fin k0_t2_loop.trips) : k0_chk54 (k0_pay2 W3 0#32 1#32 g) (k0_pay84 W100 (J2 g)) := by
  unfold k0_chk54; revert g; decide +kernel

theorem chk55 (g : Fin k0_t2_loop.trips) : k0_chk55 (k0_pay1 W3 0#32 1#32 g) (k0_pay86 W51) := by
  unfold k0_chk55; revert g; decide +kernel

theorem chk56 (g : Fin k0_t2_loop.trips) : k0_chk56 (k0_pay2 W3 0#32 1#32 g) (addi W103 (k0_pay87 (J2 g))) := by
  unfold k0_chk56; revert g; decide +kernel

theorem chk57 (g : Fin k0_t2_loop.trips) : k0_chk57 (k0_pay1 W3 0#32 1#32 g) (k0_pay89 W55) := by
  unfold k0_chk57; revert g; decide +kernel

theorem chk58 (g : Fin k0_t2_loop.trips) : k0_chk58 (k0_pay2 W3 0#32 1#32 g) (k0_pay90 W106 (J2 g)) := by
  unfold k0_chk58; revert g; decide +kernel

theorem chk59 (g : Fin k0_t2_loop.trips) : k0_chk59 (k0_pay1 W3 0#32 1#32 g) (k0_pay92 W59) := by
  unfold k0_chk59; revert g; decide +kernel

theorem chk60 (g : Fin k0_t2_loop.trips) : k0_chk60 (k0_pay2 W3 0#32 1#32 g) (k0_pay93 W109 (J2 g)) := by
  unfold k0_chk60; revert g; decide +kernel

theorem chk61 (g : Fin k0_t2_loop.trips) : k0_chk61 (k0_pay1 W3 0#32 1#32 g) (k0_pay95 W63) := by
  unfold k0_chk61; revert g; decide +kernel

theorem chk62 (g : Fin k0_t2_loop.trips) : k0_chk62 (k0_pay2 W3 0#32 1#32 g) (k0_pay96 W112 (J2 g)) := by
  unfold k0_chk62; revert g; decide +kernel

theorem chk63 (g : Fin k0_t2_loop.trips) : k0_chk63 (k0_pay1 W3 0#32 1#32 g) (k0_pay98 W67) := by
  unfold k0_chk63; revert g; decide +kernel

theorem chk64 (g : Fin k0_t2_loop.trips) : k0_chk64 (k0_pay2 W3 0#32 1#32 g) (k0_pay99 W115 (J2 g) 8#32) := by
  unfold k0_chk64; revert g; decide +kernel

theorem chk65 (g : Fin k0_t2_loop.trips) : k0_chk65 (k0_pay1 W3 0#32 1#32 g) (k0_pay101 W7) := by
  unfold k0_chk65; revert g; decide +kernel

theorem chk66 (g : Fin k0_t2_loop.trips) : k0_chk66 (k0_pay2 W3 0#32 1#32 g) (k0_pay102 W70 (J2 g)) := by
  unfold k0_chk66; revert g; decide +kernel

theorem chk67 (g : Fin k0_t2_loop.trips) : k0_chk67 (k0_pay1 W3 0#32 1#32 g) (k0_pay104 W11) := by
  unfold k0_chk67; revert g; decide +kernel

theorem chk68 (g : Fin k0_t2_loop.trips) : k0_chk68 (k0_pay2 W3 0#32 1#32 g) (k0_pay105 W73 (J2 g)) := by
  unfold k0_chk68; revert g; decide +kernel

theorem chk69 (g : Fin k0_t2_loop.trips) : k0_chk69 (k0_pay1 W3 0#32 1#32 g) (k0_pay107 W15) := by
  unfold k0_chk69; revert g; decide +kernel

theorem chk70 (g : Fin k0_t2_loop.trips) : k0_chk70 (k0_pay2 W3 0#32 1#32 g) (k0_pay108 W76 (J2 g)) := by
  unfold k0_chk70; revert g; decide +kernel

theorem chk71 (g : Fin k0_t2_loop.trips) : k0_chk71 (k0_pay1 W3 0#32 1#32 g) (addi W19 k0_pay110) := by
  unfold k0_chk71; revert g; decide +kernel

theorem chk72 (g : Fin k0_t2_loop.trips) : k0_chk72 (k0_pay2 W3 0#32 1#32 g) (k0_pay111 W79 (J2 g)) := by
  unfold k0_chk72; revert g; decide +kernel

theorem chk73 (g : Fin k0_t2_loop.trips) : k0_chk73 (k0_pay1 W3 0#32 1#32 g) (k0_pay113 W23) := by
  unfold k0_chk73; revert g; decide +kernel

theorem chk74 (g : Fin k0_t2_loop.trips) : k0_chk74 (k0_pay2 W3 0#32 1#32 g) (k0_pay114 W82 (J2 g)) := by
  unfold k0_chk74; revert g; decide +kernel

theorem chk75 (g : Fin k0_t2_loop.trips) : k0_chk75 (k0_pay1 W3 0#32 1#32 g) (k0_pay116 W27) := by
  unfold k0_chk75; revert g; decide +kernel

theorem chk76 (g : Fin k0_t2_loop.trips) : k0_chk76 (k0_pay2 W3 0#32 1#32 g) (k0_pay117 W85 (J2 g)) := by
  unfold k0_chk76; revert g; decide +kernel

theorem chk77 (g : Fin k0_t2_loop.trips) : k0_chk77 (k0_pay1 W3 0#32 1#32 g) (k0_pay119 W31) := by
  unfold k0_chk77; revert g; decide +kernel

theorem chk78 (g : Fin k0_t2_loop.trips) : k0_chk78 (k0_pay2 W3 0#32 1#32 g) (k0_pay120 W88 (J2 g)) := by
  unfold k0_chk78; revert g; decide +kernel

theorem chk79 (g : Fin k0_t2_loop.trips) : k0_chk79 (k0_pay1 W3 0#32 1#32 g) (k0_pay123 W35) := by
  unfold k0_chk79; revert g; decide +kernel

theorem chk80 (g : Fin k0_t2_loop.trips) : k0_chk80 (k0_pay2 W3 0#32 1#32 g) (k0_pay124 W91 (J2 g)) := by
  unfold k0_chk80; revert g; decide +kernel

theorem chk81 (g : Fin k0_t2_loop.trips) : k0_chk81 (k0_pay1 W3 0#32 1#32 g) (k0_pay126 W39) := by
  unfold k0_chk81; revert g; decide +kernel

theorem chk82 (g : Fin k0_t2_loop.trips) : k0_chk82 (k0_pay2 W3 0#32 1#32 g) (k0_pay127 W94 (J2 g)) := by
  unfold k0_chk82; revert g; decide +kernel

theorem chk83 (g : Fin k0_t2_loop.trips) : k0_chk83 (k0_pay1 W3 0#32 1#32 g) (k0_pay129 W43) := by
  unfold k0_chk83; revert g; decide +kernel

theorem chk84 (g : Fin k0_t2_loop.trips) : k0_chk84 (k0_pay2 W3 0#32 1#32 g) (k0_pay130 W97 (J2 g)) := by
  unfold k0_chk84; revert g; decide +kernel

theorem chk85 (g : Fin k0_t2_loop.trips) : k0_chk85 (k0_pay1 W3 0#32 1#32 g) (k0_pay132 W47) := by
  unfold k0_chk85; revert g; decide +kernel

theorem chk86 (g : Fin k0_t2_loop.trips) : k0_chk86 (k0_pay2 W3 0#32 1#32 g) (addi W100 (k0_pay133 (J2 g))) := by
  unfold k0_chk86; revert g; decide +kernel

theorem chk87 (g : Fin k0_t2_loop.trips) : k0_chk87 (k0_pay1 W3 0#32 1#32 g) (k0_pay135 W51) := by
  unfold k0_chk87; revert g; decide +kernel

theorem chk88 (g : Fin k0_t2_loop.trips) : k0_chk88 (k0_pay2 W3 0#32 1#32 g) (k0_pay136 W103 (J2 g)) := by
  unfold k0_chk88; revert g; decide +kernel

theorem chk89 (g : Fin k0_t2_loop.trips) : k0_chk89 (k0_pay1 W3 0#32 1#32 g) (k0_pay138 W55) := by
  unfold k0_chk89; revert g; decide +kernel

theorem chk90 (g : Fin k0_t2_loop.trips) : k0_chk90 (k0_pay2 W3 0#32 1#32 g) (k0_pay139 W106 (J2 g)) := by
  unfold k0_chk90; revert g; decide +kernel

theorem chk91 (g : Fin k0_t2_loop.trips) : k0_chk91 (k0_pay1 W3 0#32 1#32 g) (k0_pay141 W59) := by
  unfold k0_chk91; revert g; decide +kernel

theorem chk92 (g : Fin k0_t2_loop.trips) : k0_chk92 (k0_pay2 W3 0#32 1#32 g) (k0_pay142 W109 (J2 g)) := by
  unfold k0_chk92; revert g; decide +kernel

theorem chk93 (g : Fin k0_t2_loop.trips) : k0_chk93 (k0_pay1 W3 0#32 1#32 g) (k0_pay144 W63) := by
  unfold k0_chk93; revert g; decide +kernel

theorem chk94 (g : Fin k0_t2_loop.trips) : k0_chk94 (k0_pay2 W3 0#32 1#32 g) (k0_pay145 W112 (J2 g) 8#32) := by
  unfold k0_chk94; revert g; decide +kernel

theorem chk95 (g : Fin k0_t2_loop.trips) : k0_chk95 (k0_pay1 W3 0#32 1#32 g) (k0_pay147 W67) := by
  unfold k0_chk95; revert g; decide +kernel

theorem chk96 (g : Fin k0_t2_loop.trips) : k0_chk96 (k0_pay2 W3 0#32 1#32 g) (k0_pay148 W115 (J2 g)) := by
  unfold k0_chk96; revert g; decide +kernel

theorem chk97 (g : Fin k0_t2_loop.trips) : k0_chk97 (k0_pay1 W3 0#32 1#32 g) (k0_pay150 W7) := by
  unfold k0_chk97; revert g; decide +kernel

theorem chk98 (g : Fin k0_t2_loop.trips) : k0_chk98 (k0_pay2 W3 0#32 1#32 g) (k0_pay151 W70 (J2 g)) := by
  unfold k0_chk98; revert g; decide +kernel

theorem chk99 (g : Fin k0_t2_loop.trips) : k0_chk99 (k0_pay1 W3 0#32 1#32 g) (k0_pay153 W11) := by
  unfold k0_chk99; revert g; decide +kernel

theorem chk100 (g : Fin k0_t2_loop.trips) : k0_chk100 (k0_pay2 W3 0#32 1#32 g) (k0_pay154 W73 (J2 g)) := by
  unfold k0_chk100; revert g; decide +kernel

theorem chk101 (g : Fin k0_t2_loop.trips) : k0_chk101 (k0_pay1 W3 0#32 1#32 g) (addi W15 k0_pay156) := by
  unfold k0_chk101; revert g; decide +kernel

theorem chk102 (g : Fin k0_t2_loop.trips) : k0_chk102 (k0_pay2 W3 0#32 1#32 g) (k0_pay157 W76 (J2 g)) := by
  unfold k0_chk102; revert g; decide +kernel

theorem chk103 (g : Fin k0_t2_loop.trips) : k0_chk103 (k0_pay1 W3 0#32 1#32 g) (k0_pay159 W19) := by
  unfold k0_chk103; revert g; decide +kernel

theorem chk104 (g : Fin k0_t2_loop.trips) : k0_chk104 (k0_pay2 W3 0#32 1#32 g) (k0_pay160 W79 (J2 g)) := by
  unfold k0_chk104; revert g; decide +kernel

theorem chk105 (g : Fin k0_t2_loop.trips) : k0_chk105 (k0_pay1 W3 0#32 1#32 g) (k0_pay162 W23) := by
  unfold k0_chk105; revert g; decide +kernel

theorem chk106 (g : Fin k0_t2_loop.trips) : k0_chk106 (k0_pay2 W3 0#32 1#32 g) (k0_pay163 W82 (J2 g)) := by
  unfold k0_chk106; revert g; decide +kernel

theorem chk107 (g : Fin k0_t2_loop.trips) : k0_chk107 (k0_pay1 W3 0#32 1#32 g) (k0_pay165 W27) := by
  unfold k0_chk107; revert g; decide +kernel

theorem chk108 (g : Fin k0_t2_loop.trips) : k0_chk108 (k0_pay2 W3 0#32 1#32 g) (k0_pay166 W85 (J2 g)) := by
  unfold k0_chk108; revert g; decide +kernel

theorem chk109 (g : Fin k0_t2_loop.trips) : k0_chk109 (k0_pay1 W3 0#32 1#32 g) (k0_pay169 W31) := by
  unfold k0_chk109; revert g; decide +kernel

theorem chk110 (g : Fin k0_t2_loop.trips) : k0_chk110 (k0_pay2 W3 0#32 1#32 g) (k0_pay170 W88 (J2 g)) := by
  unfold k0_chk110; revert g; decide +kernel

theorem chk111 (g : Fin k0_t2_loop.trips) : k0_chk111 (k0_pay1 W3 0#32 1#32 g) (k0_pay172 W35) := by
  unfold k0_chk111; revert g; decide +kernel

theorem chk112 (g : Fin k0_t2_loop.trips) : k0_chk112 (k0_pay2 W3 0#32 1#32 g) (k0_pay173 W91 (J2 g)) := by
  unfold k0_chk112; revert g; decide +kernel

theorem chk113 (g : Fin k0_t2_loop.trips) : k0_chk113 (k0_pay1 W3 0#32 1#32 g) (k0_pay175 W39) := by
  unfold k0_chk113; revert g; decide +kernel

theorem chk114 (g : Fin k0_t2_loop.trips) : k0_chk114 (k0_pay2 W3 0#32 1#32 g) (k0_pay176 W94 (J2 g)) := by
  unfold k0_chk114; revert g; decide +kernel

theorem chk115 (g : Fin k0_t2_loop.trips) : k0_chk115 (k0_pay1 W3 0#32 1#32 g) (k0_pay178 W43) := by
  unfold k0_chk115; revert g; decide +kernel

theorem chk116 (g : Fin k0_t2_loop.trips) : k0_chk116 (k0_pay2 W3 0#32 1#32 g) (addi W97 (k0_pay179 (J2 g))) := by
  unfold k0_chk116; revert g; decide +kernel

theorem chk117 (g : Fin k0_t2_loop.trips) : k0_chk117 (k0_pay1 W3 0#32 1#32 g) (k0_pay181 W47) := by
  unfold k0_chk117; revert g; decide +kernel

theorem chk118 (g : Fin k0_t2_loop.trips) : k0_chk118 (k0_pay2 W3 0#32 1#32 g) (k0_pay182 W100 (J2 g)) := by
  unfold k0_chk118; revert g; decide +kernel

theorem chk119 (g : Fin k0_t2_loop.trips) : k0_chk119 (k0_pay1 W3 0#32 1#32 g) (k0_pay184 W51) := by
  unfold k0_chk119; revert g; decide +kernel

theorem chk120 (g : Fin k0_t2_loop.trips) : k0_chk120 (k0_pay2 W3 0#32 1#32 g) (k0_pay185 W103 (J2 g)) := by
  unfold k0_chk120; revert g; decide +kernel

theorem chk121 (g : Fin k0_t2_loop.trips) : k0_chk121 (k0_pay1 W3 0#32 1#32 g) (k0_pay187 W55) := by
  unfold k0_chk121; revert g; decide +kernel

theorem chk122 (g : Fin k0_t2_loop.trips) : k0_chk122 (k0_pay2 W3 0#32 1#32 g) (k0_pay188 W106 (J2 g)) := by
  unfold k0_chk122; revert g; decide +kernel

theorem chk123 (g : Fin k0_t2_loop.trips) : k0_chk123 (k0_pay1 W3 0#32 1#32 g) (k0_pay190 W59) := by
  unfold k0_chk123; revert g; decide +kernel

theorem chk124 (g : Fin k0_t2_loop.trips) : k0_chk124 (k0_pay2 W3 0#32 1#32 g) (k0_pay381 W109 (J2 g) 8#32) := by
  unfold k0_chk124; revert g; decide +kernel

theorem chk125 (g : Fin k0_t2_loop.trips) : k0_chk125 (k0_pay1 W3 0#32 1#32 g) (k0_pay383 W63) := by
  unfold k0_chk125; revert g; decide +kernel

theorem chk126 (g : Fin k0_t2_loop.trips) : k0_chk126 (k0_pay2 W3 0#32 1#32 g) (k0_pay384 W112 (J2 g)) := by
  unfold k0_chk126; revert g; decide +kernel

theorem chk127 (g : Fin k0_t2_loop.trips) : k0_chk127 (k0_pay1 W3 0#32 1#32 g) (k0_pay386 W67) := by
  unfold k0_chk127; revert g; decide +kernel

theorem chk128 (g : Fin k0_t2_loop.trips) : k0_chk128 (k0_pay2 W3 0#32 1#32 g) (k0_pay387 W115 (J2 g)) := by
  unfold k0_chk128; revert g; decide +kernel

theorem chk129 (g : Fin k0_t3_loop.trips) : k0_chk129 (k0_pay191 W3 0#32 1#32 g) (k0_pay193 W7) := by
  unfold k0_chk129; revert g; decide +kernel

theorem chk130 (g : Fin k0_t3_loop.trips) : k0_chk130 (k0_pay192 W3 0#32 1#32 g) (k0_pay194 W70 0#32 1#32 g) := by
  unfold k0_chk130; revert g; decide +kernel

theorem chk131 (g : Fin k0_t3_loop.trips) : k0_chk131 (k0_pay191 W3 0#32 1#32 g) (k0_pay196 W11) := by
  unfold k0_chk131; revert g; decide +kernel

theorem chk132 (g : Fin k0_t3_loop.trips) : k0_chk132 (k0_pay192 W3 0#32 1#32 g) (k0_pay197 W73 (J3 g) 8#32) := by
  unfold k0_chk132; revert g; decide +kernel

theorem chk133 (g : Fin k0_t3_loop.trips) : k0_chk133 (k0_pay191 W3 0#32 1#32 g) (k0_pay199 W15) := by
  unfold k0_chk133; revert g; decide +kernel

theorem chk134 (g : Fin k0_t3_loop.trips) : k0_chk134 (k0_pay192 W3 0#32 1#32 g) (k0_pay200 W76 (J3 g)) := by
  unfold k0_chk134; revert g; decide +kernel

theorem chk135 (g : Fin k0_t3_loop.trips) : k0_chk135 (k0_pay191 W3 0#32 1#32 g) (k0_pay202 W19) := by
  unfold k0_chk135; revert g; decide +kernel

theorem chk136 (g : Fin k0_t3_loop.trips) : k0_chk136 (k0_pay192 W3 0#32 1#32 g) (k0_pay203 W79 (J3 g)) := by
  unfold k0_chk136; revert g; decide +kernel

theorem chk137 (g : Fin k0_t3_loop.trips) : k0_chk137 (k0_pay191 W3 0#32 1#32 g) (k0_pay205 W23) := by
  unfold k0_chk137; revert g; decide +kernel

theorem chk138 (g : Fin k0_t3_loop.trips) : k0_chk138 (k0_pay192 W3 0#32 1#32 g) (k0_pay206 W82 (J3 g)) := by
  unfold k0_chk138; revert g; decide +kernel

theorem chk139 (g : Fin k0_t3_loop.trips) : k0_chk139 (k0_pay191 W3 0#32 1#32 g) (addi W27 k0_pay208) := by
  unfold k0_chk139; revert g; decide +kernel

theorem chk140 (g : Fin k0_t3_loop.trips) : k0_chk140 (k0_pay192 W3 0#32 1#32 g) (k0_pay209 W85 (J3 g)) := by
  unfold k0_chk140; revert g; decide +kernel

theorem chk141 (g : Fin k0_t3_loop.trips) : k0_chk141 (k0_pay191 W3 0#32 1#32 g) (k0_pay211 W31) := by
  unfold k0_chk141; revert g; decide +kernel

theorem chk142 (g : Fin k0_t3_loop.trips) : k0_chk142 (k0_pay192 W3 0#32 1#32 g) (k0_pay212 W88 (J3 g)) := by
  unfold k0_chk142; revert g; decide +kernel

theorem chk143 (g : Fin k0_t3_loop.trips) : k0_chk143 (k0_pay191 W3 0#32 1#32 g) (k0_pay214 W35) := by
  unfold k0_chk143; revert g; decide +kernel

theorem chk144 (g : Fin k0_t3_loop.trips) : k0_chk144 (k0_pay192 W3 0#32 1#32 g) (k0_pay215 W91 (J3 g)) := by
  unfold k0_chk144; revert g; decide +kernel

theorem chk145 (g : Fin k0_t3_loop.trips) : k0_chk145 (k0_pay191 W3 0#32 1#32 g) (k0_pay217 W39) := by
  unfold k0_chk145; revert g; decide +kernel

theorem chk146 (g : Fin k0_t3_loop.trips) : k0_chk146 (k0_pay192 W3 0#32 1#32 g) (k0_pay218 W94 (J3 g)) := by
  unfold k0_chk146; revert g; decide +kernel

theorem chk147 (g : Fin k0_t3_loop.trips) : k0_chk147 (k0_pay191 W3 0#32 1#32 g) (k0_pay221 W43) := by
  unfold k0_chk147; revert g; decide +kernel

theorem chk148 (g : Fin k0_t3_loop.trips) : k0_chk148 (k0_pay192 W3 0#32 1#32 g) (k0_pay222 W97 (J3 g)) := by
  unfold k0_chk148; revert g; decide +kernel

theorem chk149 (g : Fin k0_t3_loop.trips) : k0_chk149 (k0_pay191 W3 0#32 1#32 g) (k0_pay224 W47) := by
  unfold k0_chk149; revert g; decide +kernel

theorem chk150 (g : Fin k0_t3_loop.trips) : k0_chk150 (k0_pay192 W3 0#32 1#32 g) (k0_pay225 W100 (J3 g)) := by
  unfold k0_chk150; revert g; decide +kernel

theorem chk151 (g : Fin k0_t3_loop.trips) : k0_chk151 (k0_pay191 W3 0#32 1#32 g) (k0_pay227 W51) := by
  unfold k0_chk151; revert g; decide +kernel

theorem chk152 (g : Fin k0_t3_loop.trips) : k0_chk152 (k0_pay192 W3 0#32 1#32 g) (k0_pay228 W103 (J3 g)) := by
  unfold k0_chk152; revert g; decide +kernel

theorem chk153 (g : Fin k0_t3_loop.trips) : k0_chk153 (k0_pay191 W3 0#32 1#32 g) (k0_pay230 W55) := by
  unfold k0_chk153; revert g; decide +kernel

theorem chk154 (g : Fin k0_t3_loop.trips) : k0_chk154 (k0_pay192 W3 0#32 1#32 g) (addi W106 (k0_pay231 (J3 g))) := by
  unfold k0_chk154; revert g; decide +kernel

theorem chk155 (g : Fin k0_t3_loop.trips) : k0_chk155 (k0_pay191 W3 0#32 1#32 g) (k0_pay233 W59) := by
  unfold k0_chk155; revert g; decide +kernel

theorem chk156 (g : Fin k0_t3_loop.trips) : k0_chk156 (k0_pay192 W3 0#32 1#32 g) (k0_pay234 W109 (J3 g)) := by
  unfold k0_chk156; revert g; decide +kernel

theorem chk157 (g : Fin k0_t3_loop.trips) : k0_chk157 (k0_pay191 W3 0#32 1#32 g) (k0_pay236 W63) := by
  unfold k0_chk157; revert g; decide +kernel

theorem chk158 (g : Fin k0_t3_loop.trips) : k0_chk158 (k0_pay192 W3 0#32 1#32 g) (k0_pay237 W112 (J3 g)) := by
  unfold k0_chk158; revert g; decide +kernel

theorem chk159 (g : Fin k0_t3_loop.trips) : k0_chk159 (k0_pay191 W3 0#32 1#32 g) (k0_pay239 W67) := by
  unfold k0_chk159; revert g; decide +kernel

theorem chk160 (g : Fin k0_t3_loop.trips) : k0_chk160 (k0_pay192 W3 0#32 1#32 g) (k0_pay240 W115 (J3 g)) := by
  unfold k0_chk160; revert g; decide +kernel

theorem chk161 (g : Fin k0_t3_loop.trips) : k0_chk161 (k0_pay191 W3 0#32 1#32 g) (k0_pay242 W7) := by
  unfold k0_chk161; revert g; decide +kernel

theorem chk162 (g : Fin k0_t3_loop.trips) : k0_chk162 (k0_pay192 W3 0#32 1#32 g) (k0_pay243 W70 (J3 g) 8#32) := by
  unfold k0_chk162; revert g; decide +kernel

theorem chk163 (g : Fin k0_t3_loop.trips) : k0_chk163 (k0_pay191 W3 0#32 1#32 g) (k0_pay245 W11) := by
  unfold k0_chk163; revert g; decide +kernel

theorem chk164 (g : Fin k0_t3_loop.trips) : k0_chk164 (k0_pay192 W3 0#32 1#32 g) (k0_pay246 W73 (J3 g)) := by
  unfold k0_chk164; revert g; decide +kernel

theorem chk165 (g : Fin k0_t3_loop.trips) : k0_chk165 (k0_pay191 W3 0#32 1#32 g) (k0_pay248 W15) := by
  unfold k0_chk165; revert g; decide +kernel

theorem chk166 (g : Fin k0_t3_loop.trips) : k0_chk166 (k0_pay192 W3 0#32 1#32 g) (k0_pay249 W76 (J3 g)) := by
  unfold k0_chk166; revert g; decide +kernel

theorem chk167 (g : Fin k0_t3_loop.trips) : k0_chk167 (k0_pay191 W3 0#32 1#32 g) (k0_pay251 W19) := by
  unfold k0_chk167; revert g; decide +kernel

theorem chk168 (g : Fin k0_t3_loop.trips) : k0_chk168 (k0_pay192 W3 0#32 1#32 g) (k0_pay252 W79 (J3 g)) := by
  unfold k0_chk168; revert g; decide +kernel

theorem chk169 (g : Fin k0_t3_loop.trips) : k0_chk169 (k0_pay191 W3 0#32 1#32 g) (addi W23 k0_pay254) := by
  unfold k0_chk169; revert g; decide +kernel

theorem chk170 (g : Fin k0_t3_loop.trips) : k0_chk170 (k0_pay192 W3 0#32 1#32 g) (k0_pay255 W82 (J3 g)) := by
  unfold k0_chk170; revert g; decide +kernel

theorem chk171 (g : Fin k0_t3_loop.trips) : k0_chk171 (k0_pay191 W3 0#32 1#32 g) (k0_pay257 W27) := by
  unfold k0_chk171; revert g; decide +kernel

theorem chk172 (g : Fin k0_t3_loop.trips) : k0_chk172 (k0_pay192 W3 0#32 1#32 g) (k0_pay258 W85 (J3 g)) := by
  unfold k0_chk172; revert g; decide +kernel

theorem chk173 (g : Fin k0_t3_loop.trips) : k0_chk173 (k0_pay191 W3 0#32 1#32 g) (k0_pay260 W31) := by
  unfold k0_chk173; revert g; decide +kernel

theorem chk174 (g : Fin k0_t3_loop.trips) : k0_chk174 (k0_pay192 W3 0#32 1#32 g) (k0_pay261 W88 (J3 g)) := by
  unfold k0_chk174; revert g; decide +kernel

theorem chk175 (g : Fin k0_t3_loop.trips) : k0_chk175 (k0_pay191 W3 0#32 1#32 g) (k0_pay263 W35) := by
  unfold k0_chk175; revert g; decide +kernel

theorem chk176 (g : Fin k0_t3_loop.trips) : k0_chk176 (k0_pay192 W3 0#32 1#32 g) (k0_pay264 W91 (J3 g)) := by
  unfold k0_chk176; revert g; decide +kernel

theorem chk177 (g : Fin k0_t3_loop.trips) : k0_chk177 (k0_pay191 W3 0#32 1#32 g) (k0_pay267 W39) := by
  unfold k0_chk177; revert g; decide +kernel

theorem chk178 (g : Fin k0_t3_loop.trips) : k0_chk178 (k0_pay192 W3 0#32 1#32 g) (k0_pay268 W94 (J3 g)) := by
  unfold k0_chk178; revert g; decide +kernel

theorem chk179 (g : Fin k0_t3_loop.trips) : k0_chk179 (k0_pay191 W3 0#32 1#32 g) (k0_pay270 W43) := by
  unfold k0_chk179; revert g; decide +kernel

theorem chk180 (g : Fin k0_t3_loop.trips) : k0_chk180 (k0_pay192 W3 0#32 1#32 g) (k0_pay271 W97 (J3 g)) := by
  unfold k0_chk180; revert g; decide +kernel

theorem chk181 (g : Fin k0_t3_loop.trips) : k0_chk181 (k0_pay191 W3 0#32 1#32 g) (k0_pay273 W47) := by
  unfold k0_chk181; revert g; decide +kernel

theorem chk182 (g : Fin k0_t3_loop.trips) : k0_chk182 (k0_pay192 W3 0#32 1#32 g) (k0_pay274 W100 (J3 g)) := by
  unfold k0_chk182; revert g; decide +kernel

theorem chk183 (g : Fin k0_t3_loop.trips) : k0_chk183 (k0_pay191 W3 0#32 1#32 g) (k0_pay276 W51) := by
  unfold k0_chk183; revert g; decide +kernel

theorem chk184 (g : Fin k0_t3_loop.trips) : k0_chk184 (k0_pay192 W3 0#32 1#32 g) (addi W103 (k0_pay277 (J3 g))) := by
  unfold k0_chk184; revert g; decide +kernel

theorem chk185 (g : Fin k0_t3_loop.trips) : k0_chk185 (k0_pay191 W3 0#32 1#32 g) (k0_pay279 W55) := by
  unfold k0_chk185; revert g; decide +kernel

theorem chk186 (g : Fin k0_t3_loop.trips) : k0_chk186 (k0_pay192 W3 0#32 1#32 g) (k0_pay280 W106 (J3 g)) := by
  unfold k0_chk186; revert g; decide +kernel

theorem chk187 (g : Fin k0_t3_loop.trips) : k0_chk187 (k0_pay191 W3 0#32 1#32 g) (k0_pay282 W59) := by
  unfold k0_chk187; revert g; decide +kernel

theorem chk188 (g : Fin k0_t3_loop.trips) : k0_chk188 (k0_pay192 W3 0#32 1#32 g) (k0_pay283 W109 (J3 g)) := by
  unfold k0_chk188; revert g; decide +kernel

theorem chk189 (g : Fin k0_t3_loop.trips) : k0_chk189 (k0_pay191 W3 0#32 1#32 g) (k0_pay285 W63) := by
  unfold k0_chk189; revert g; decide +kernel

theorem chk190 (g : Fin k0_t3_loop.trips) : k0_chk190 (k0_pay192 W3 0#32 1#32 g) (k0_pay286 W112 (J3 g)) := by
  unfold k0_chk190; revert g; decide +kernel

theorem chk191 (g : Fin k0_t3_loop.trips) : k0_chk191 (k0_pay191 W3 0#32 1#32 g) (k0_pay288 W67) := by
  unfold k0_chk191; revert g; decide +kernel

theorem chk192 (g : Fin k0_t3_loop.trips) : k0_chk192 (k0_pay192 W3 0#32 1#32 g) (k0_pay289 W115 (J3 g) 8#32) := by
  unfold k0_chk192; revert g; decide +kernel

theorem chk193 (g : Fin k0_t3_loop.trips) : k0_chk193 (k0_pay191 W3 0#32 1#32 g) (k0_pay291 W7) := by
  unfold k0_chk193; revert g; decide +kernel

theorem chk194 (g : Fin k0_t3_loop.trips) : k0_chk194 (k0_pay192 W3 0#32 1#32 g) (k0_pay292 W70 (J3 g)) := by
  unfold k0_chk194; revert g; decide +kernel

theorem chk195 (g : Fin k0_t3_loop.trips) : k0_chk195 (k0_pay191 W3 0#32 1#32 g) (k0_pay294 W11) := by
  unfold k0_chk195; revert g; decide +kernel

theorem chk196 (g : Fin k0_t3_loop.trips) : k0_chk196 (k0_pay192 W3 0#32 1#32 g) (k0_pay295 W73 (J3 g)) := by
  unfold k0_chk196; revert g; decide +kernel

theorem chk197 (g : Fin k0_t3_loop.trips) : k0_chk197 (k0_pay191 W3 0#32 1#32 g) (k0_pay297 W15) := by
  unfold k0_chk197; revert g; decide +kernel

theorem chk198 (g : Fin k0_t3_loop.trips) : k0_chk198 (k0_pay192 W3 0#32 1#32 g) (k0_pay298 W76 (J3 g)) := by
  unfold k0_chk198; revert g; decide +kernel

theorem chk199 (g : Fin k0_t3_loop.trips) : k0_chk199 (k0_pay191 W3 0#32 1#32 g) (addi W19 k0_pay300) := by
  unfold k0_chk199; revert g; decide +kernel

theorem chk200 (g : Fin k0_t3_loop.trips) : k0_chk200 (k0_pay192 W3 0#32 1#32 g) (k0_pay301 W79 (J3 g)) := by
  unfold k0_chk200; revert g; decide +kernel

theorem chk201 (g : Fin k0_t3_loop.trips) : k0_chk201 (k0_pay191 W3 0#32 1#32 g) (k0_pay303 W23) := by
  unfold k0_chk201; revert g; decide +kernel

theorem chk202 (g : Fin k0_t3_loop.trips) : k0_chk202 (k0_pay192 W3 0#32 1#32 g) (k0_pay304 W82 (J3 g)) := by
  unfold k0_chk202; revert g; decide +kernel

theorem chk203 (g : Fin k0_t3_loop.trips) : k0_chk203 (k0_pay191 W3 0#32 1#32 g) (k0_pay306 W27) := by
  unfold k0_chk203; revert g; decide +kernel

theorem chk204 (g : Fin k0_t3_loop.trips) : k0_chk204 (k0_pay192 W3 0#32 1#32 g) (k0_pay307 W85 (J3 g)) := by
  unfold k0_chk204; revert g; decide +kernel

theorem chk205 (g : Fin k0_t3_loop.trips) : k0_chk205 (k0_pay191 W3 0#32 1#32 g) (k0_pay309 W31) := by
  unfold k0_chk205; revert g; decide +kernel

theorem chk206 (g : Fin k0_t3_loop.trips) : k0_chk206 (k0_pay192 W3 0#32 1#32 g) (k0_pay310 W88 (J3 g)) := by
  unfold k0_chk206; revert g; decide +kernel

theorem chk207 (g : Fin k0_t3_loop.trips) : k0_chk207 (k0_pay191 W3 0#32 1#32 g) (k0_pay313 W35) := by
  unfold k0_chk207; revert g; decide +kernel

theorem chk208 (g : Fin k0_t3_loop.trips) : k0_chk208 (k0_pay192 W3 0#32 1#32 g) (k0_pay314 W91 (J3 g)) := by
  unfold k0_chk208; revert g; decide +kernel

theorem chk209 (g : Fin k0_t3_loop.trips) : k0_chk209 (k0_pay191 W3 0#32 1#32 g) (k0_pay316 W39) := by
  unfold k0_chk209; revert g; decide +kernel

theorem chk210 (g : Fin k0_t3_loop.trips) : k0_chk210 (k0_pay192 W3 0#32 1#32 g) (k0_pay317 W94 (J3 g)) := by
  unfold k0_chk210; revert g; decide +kernel

theorem chk211 (g : Fin k0_t3_loop.trips) : k0_chk211 (k0_pay191 W3 0#32 1#32 g) (k0_pay319 W43) := by
  unfold k0_chk211; revert g; decide +kernel

theorem chk212 (g : Fin k0_t3_loop.trips) : k0_chk212 (k0_pay192 W3 0#32 1#32 g) (k0_pay320 W97 (J3 g)) := by
  unfold k0_chk212; revert g; decide +kernel

theorem chk213 (g : Fin k0_t3_loop.trips) : k0_chk213 (k0_pay191 W3 0#32 1#32 g) (k0_pay322 W47) := by
  unfold k0_chk213; revert g; decide +kernel

theorem chk214 (g : Fin k0_t3_loop.trips) : k0_chk214 (k0_pay192 W3 0#32 1#32 g) (addi W100 (k0_pay323 (J3 g))) := by
  unfold k0_chk214; revert g; decide +kernel

theorem chk215 (g : Fin k0_t3_loop.trips) : k0_chk215 (k0_pay191 W3 0#32 1#32 g) (k0_pay325 W51) := by
  unfold k0_chk215; revert g; decide +kernel

theorem chk216 (g : Fin k0_t3_loop.trips) : k0_chk216 (k0_pay192 W3 0#32 1#32 g) (k0_pay326 W103 (J3 g)) := by
  unfold k0_chk216; revert g; decide +kernel

theorem chk217 (g : Fin k0_t3_loop.trips) : k0_chk217 (k0_pay191 W3 0#32 1#32 g) (k0_pay328 W55) := by
  unfold k0_chk217; revert g; decide +kernel

theorem chk218 (g : Fin k0_t3_loop.trips) : k0_chk218 (k0_pay192 W3 0#32 1#32 g) (k0_pay329 W106 (J3 g)) := by
  unfold k0_chk218; revert g; decide +kernel

theorem chk219 (g : Fin k0_t3_loop.trips) : k0_chk219 (k0_pay191 W3 0#32 1#32 g) (k0_pay331 W59) := by
  unfold k0_chk219; revert g; decide +kernel

theorem chk220 (g : Fin k0_t3_loop.trips) : k0_chk220 (k0_pay192 W3 0#32 1#32 g) (k0_pay332 W109 (J3 g)) := by
  unfold k0_chk220; revert g; decide +kernel

theorem chk221 (g : Fin k0_t3_loop.trips) : k0_chk221 (k0_pay191 W3 0#32 1#32 g) (k0_pay334 W63) := by
  unfold k0_chk221; revert g; decide +kernel

theorem chk222 (g : Fin k0_t3_loop.trips) : k0_chk222 (k0_pay192 W3 0#32 1#32 g) (k0_pay335 W112 (J3 g) 8#32) := by
  unfold k0_chk222; revert g; decide +kernel

theorem chk223 (g : Fin k0_t3_loop.trips) : k0_chk223 (k0_pay191 W3 0#32 1#32 g) (k0_pay337 W67) := by
  unfold k0_chk223; revert g; decide +kernel

theorem chk224 (g : Fin k0_t3_loop.trips) : k0_chk224 (k0_pay192 W3 0#32 1#32 g) (k0_pay338 W115 (J3 g)) := by
  unfold k0_chk224; revert g; decide +kernel

theorem chk225 (g : Fin k0_t3_loop.trips) : k0_chk225 (k0_pay191 W3 0#32 1#32 g) (k0_pay340 W7) := by
  unfold k0_chk225; revert g; decide +kernel

theorem chk226 (g : Fin k0_t3_loop.trips) : k0_chk226 (k0_pay192 W3 0#32 1#32 g) (k0_pay341 W70 (J3 g)) := by
  unfold k0_chk226; revert g; decide +kernel

theorem chk227 (g : Fin k0_t3_loop.trips) : k0_chk227 (k0_pay191 W3 0#32 1#32 g) (k0_pay343 W11) := by
  unfold k0_chk227; revert g; decide +kernel

theorem chk228 (g : Fin k0_t3_loop.trips) : k0_chk228 (k0_pay192 W3 0#32 1#32 g) (k0_pay344 W73 (J3 g)) := by
  unfold k0_chk228; revert g; decide +kernel

theorem chk229 (g : Fin k0_t3_loop.trips) : k0_chk229 (k0_pay191 W3 0#32 1#32 g) (addi W15 k0_pay346) := by
  unfold k0_chk229; revert g; decide +kernel

theorem chk230 (g : Fin k0_t3_loop.trips) : k0_chk230 (k0_pay192 W3 0#32 1#32 g) (k0_pay347 W76 (J3 g)) := by
  unfold k0_chk230; revert g; decide +kernel

theorem chk231 (g : Fin k0_t3_loop.trips) : k0_chk231 (k0_pay191 W3 0#32 1#32 g) (k0_pay349 W19) := by
  unfold k0_chk231; revert g; decide +kernel

theorem chk232 (g : Fin k0_t3_loop.trips) : k0_chk232 (k0_pay192 W3 0#32 1#32 g) (k0_pay350 W79 (J3 g)) := by
  unfold k0_chk232; revert g; decide +kernel

theorem chk233 (g : Fin k0_t3_loop.trips) : k0_chk233 (k0_pay191 W3 0#32 1#32 g) (k0_pay352 W23) := by
  unfold k0_chk233; revert g; decide +kernel

theorem chk234 (g : Fin k0_t3_loop.trips) : k0_chk234 (k0_pay192 W3 0#32 1#32 g) (k0_pay353 W82 (J3 g)) := by
  unfold k0_chk234; revert g; decide +kernel

theorem chk235 (g : Fin k0_t3_loop.trips) : k0_chk235 (k0_pay191 W3 0#32 1#32 g) (k0_pay355 W27) := by
  unfold k0_chk235; revert g; decide +kernel

theorem chk236 (g : Fin k0_t3_loop.trips) : k0_chk236 (k0_pay192 W3 0#32 1#32 g) (k0_pay356 W85 (J3 g)) := by
  unfold k0_chk236; revert g; decide +kernel

theorem chk237 (g : Fin k0_t3_loop.trips) : k0_chk237 (k0_pay191 W3 0#32 1#32 g) (k0_pay359 W31) := by
  unfold k0_chk237; revert g; decide +kernel

theorem chk238 (g : Fin k0_t3_loop.trips) : k0_chk238 (k0_pay192 W3 0#32 1#32 g) (k0_pay360 W88 (J3 g)) := by
  unfold k0_chk238; revert g; decide +kernel

theorem chk239 (g : Fin k0_t3_loop.trips) : k0_chk239 (k0_pay191 W3 0#32 1#32 g) (k0_pay362 W35) := by
  unfold k0_chk239; revert g; decide +kernel

theorem chk240 (g : Fin k0_t3_loop.trips) : k0_chk240 (k0_pay192 W3 0#32 1#32 g) (k0_pay363 W91 (J3 g)) := by
  unfold k0_chk240; revert g; decide +kernel

theorem chk241 (g : Fin k0_t3_loop.trips) : k0_chk241 (k0_pay191 W3 0#32 1#32 g) (k0_pay365 W39) := by
  unfold k0_chk241; revert g; decide +kernel

theorem chk242 (g : Fin k0_t3_loop.trips) : k0_chk242 (k0_pay192 W3 0#32 1#32 g) (k0_pay366 W94 (J3 g)) := by
  unfold k0_chk242; revert g; decide +kernel

theorem chk243 (g : Fin k0_t3_loop.trips) : k0_chk243 (k0_pay191 W3 0#32 1#32 g) (k0_pay368 W43) := by
  unfold k0_chk243; revert g; decide +kernel

theorem chk244 (g : Fin k0_t3_loop.trips) : k0_chk244 (k0_pay192 W3 0#32 1#32 g) (addi W97 (k0_pay369 (J3 g))) := by
  unfold k0_chk244; revert g; decide +kernel

theorem chk245 (g : Fin k0_t3_loop.trips) : k0_chk245 (k0_pay191 W3 0#32 1#32 g) (k0_pay371 W47) := by
  unfold k0_chk245; revert g; decide +kernel

theorem chk246 (g : Fin k0_t3_loop.trips) : k0_chk246 (k0_pay192 W3 0#32 1#32 g) (k0_pay372 W100 (J3 g)) := by
  unfold k0_chk246; revert g; decide +kernel

theorem chk247 (g : Fin k0_t3_loop.trips) : k0_chk247 (k0_pay191 W3 0#32 1#32 g) (k0_pay374 W51) := by
  unfold k0_chk247; revert g; decide +kernel

theorem chk248 (g : Fin k0_t3_loop.trips) : k0_chk248 (k0_pay192 W3 0#32 1#32 g) (k0_pay375 W103 (J3 g)) := by
  unfold k0_chk248; revert g; decide +kernel

theorem chk249 (g : Fin k0_t3_loop.trips) : k0_chk249 (k0_pay191 W3 0#32 1#32 g) (k0_pay377 W55) := by
  unfold k0_chk249; revert g; decide +kernel

theorem chk250 (g : Fin k0_t3_loop.trips) : k0_chk250 (k0_pay192 W3 0#32 1#32 g) (k0_pay378 W106 (J3 g)) := by
  unfold k0_chk250; revert g; decide +kernel

theorem chk251 (g : Fin k0_t3_loop.trips) : k0_chk251 (k0_pay191 W3 0#32 1#32 g) (k0_pay380 W59) := by
  unfold k0_chk251; revert g; decide +kernel

theorem chk252 (g : Fin k0_t3_loop.trips) : k0_chk252 (k0_pay192 W3 0#32 1#32 g) (k0_pay389 W109 (J3 g) 8#32) := by
  unfold k0_chk252; revert g; decide +kernel

theorem chk253 (g : Fin k0_t3_loop.trips) : k0_chk253 (k0_pay191 W3 0#32 1#32 g) (k0_pay391 W63) := by
  unfold k0_chk253; revert g; decide +kernel

theorem chk254 (g : Fin k0_t3_loop.trips) : k0_chk254 (k0_pay192 W3 0#32 1#32 g) (k0_pay392 W112 (J3 g)) := by
  unfold k0_chk254; revert g; decide +kernel

theorem chk255 (g : Fin k0_t3_loop.trips) : k0_chk255 (k0_pay191 W3 0#32 1#32 g) (k0_pay394 W67) := by
  unfold k0_chk255; revert g; decide +kernel

theorem chk256 (g : Fin k0_t3_loop.trips) : k0_chk256 (k0_pay192 W3 0#32 1#32 g) (k0_pay395 W115 (J3 g)) := by
  unfold k0_chk256; revert g; decide +kernel

end Cert.Proof.KWB

end

namespace Cert.Proof.KWB

open Lean Elab Tactic Meta in
/-- Closes a decidable goal whose free variables range over finite types (a trip number, a lane) by
    evaluation: the statement is proved for every value of those variables at once and then applied. -/
elab "fin_decide" : tactic => withMainContext do
  let gs ← getGoals
  let goal ← getMainGoal
  let tgt ← instantiateMVars (← goal.getType)
  let st := collectFVars {} tgt
  let lctx ← getLCtx
  let fvs : Array Expr := lctx.foldl (init := #[]) fun acc d =>
    if st.fvarSet.contains d.fvarId then acc.push d.toExpr else acc
  let closed ← mkForallFVars fvs tgt
  let m ← mkFreshExprSyntheticOpaqueMVar closed
  setGoals [m.mvarId!]
  evalTactic (← `(tactic| decide +kernel))
  let rest ← getUnsolvedGoals
  unless rest.isEmpty do throwError "fin_decide: evaluation left goals"
  goal.assign (mkAppN m fvs)
  setGoals gs.tail

open Lean Elab Tactic Meta in
/-- Closes a goal that is one of the 256 in-range conditions, whatever names its index words are spelt
    through, by evaluation over the trips. -/
elab "chk_disch" : tactic => withMainContext do
  let tgt ← instantiateMVars (← getMainTarget)
  let some c := tgt.consumeMData.getAppFn.constName? | throwError "chk_disch: the goal's head is not a constant"
  let .str _ s := c | throwError "chk_disch: unexpected head {c}"
  unless s.startsWith "k0_chk" do throwError "chk_disch: the goal's head {c} is not an in-range condition"
  evalTactic (← `(tactic| fin_decide))

end Cert.Proof.KWB
-- ==== Proof.KInnerB.lean ====
/-
  One trip of each of the two transposition loops, run: holding the gathered chunk R (256 x 128) and the
  128 x 128 scratch f, with the scratch already holding the transposed value T8 R at every position of the trips
  before g (Done g R f), trip g's 64 (indexed load, indexed store) pairs leave the chunk as it was and a scratch f'
  with Done (g + 1) R f'. The run leaves the scratch as 64 whole-buffer pieces, each the indexed store of the one
  before; the general one-pair lemma is applied to each, its closed forms of the row and column words checked by
  evaluation over the 16 trips and 16 lanes.
-/
import proofs.«206429_g47863115546636_cont_8to1c4_619_32_alg».proof.Proof.KDefsB
import proofs.«206429_g47863115546636_cont_8to1c4_619_32_alg».proof.Proof.KChkB
import proofs.«206429_g47863115546636_cont_8to1c4_619_32_alg».proof.Proof.KMathB

-- one statement at a time: each run holds much memory
set_option Elab.async false

noncomputable section

namespace Cert.Proof.KIB
open Cert.Kernel Cert.Kernel.Gen
open Cert.Proof.KB Cert.Proof.KWB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

variable [FloatOps F]

/-! ### The scratch as the run leaves it: whole-buffer pieces -/

/-- A whole-buffer write on top of any earlier writes leaves its payload. -/
theorem writes_whole_cons {κ : Kind} (Val : EltTy → Type) (b : Ref sig κ) (f w : b.ty.Contents Val)
    (L : List (View.Piece Val b.ty.shape _)) :
    (Memref.whole b : Memref sig κ _ _ _).view.writes Val f (⟨Rect.whole _, w⟩ :: L) = w :=
  Memref.write_access_whole_univ Val b _ w

theorem done_congrR {g : ℕ} {R R' : Vec F S256x128 .f32} {f : Vec F S128x128 .f32} (h : R' = R) :
    Done g R' f → Done g R f := h ▸ id

theorem done_congrR' {g : ℕ} {R R' : Vec F S256x128 .f32} {f : Vec F S128x128 .f32} (h : R' = R) :
    Done g R f → Done g R' f := h ▸ id

/-- After the 64 pairs of trip g the scratch, a whole-buffer piece on top of the earlier ones, holds the
    transposed value at every position of the trips up to g. -/
theorem done_of_writes {g : ℕ} {R : Vec F S256x128 .f32} (f : cc0_scratch4.ty.Contents (Elt F))
    (X : cc0_scratch4.ty.Contents (Elt F)) (L : List (View.Piece (Elt F) cc0_scratch4.ty.shape _))
    (hD : Done g R f) (hM : Mid g 64 R f X) :
    Done (g + 1) R ((Memref.whole cc0_scratch4 : Memref sig _ _ _ _).view.writes (Elt F) f (⟨Rect.whole _, X⟩ :: L)) := by
  rw [writes_whole_cons]
  exact done_step hD hM

/-- The scratch before the first pair, read whole. -/
theorem mid_base (g : ℕ) (R : Vec F S256x128 .f32) (f : cc0_scratch4.ty.Contents (Elt F)) :
    Mid g 0 R f (View.readAt (Elt F) (Memref.whole cc0_scratch4 : Memref sig _ _ _ _).view (LoadRect.whole _) f) := by
  rw [Memref.readAt_whole]
  exact mid0 g R f

/-- The scratch read whole after a whole-buffer piece is that piece's payload. -/
theorem mid_of_readAt {g n : ℕ} {R : Vec F S256x128 .f32} (f f0 : cc0_scratch4.ty.Contents (Elt F))
    (X : cc0_scratch4.ty.Contents (Elt F)) (L : List (View.Piece (Elt F) cc0_scratch4.ty.shape _))
    (hM : Mid g n R f0 X) :
    Mid g n R f0 (View.readAt (Elt F) (Memref.whole cc0_scratch4 : Memref sig _ _ _ _).view (LoadRect.whole _)
      ((Memref.whole cc0_scratch4 : Memref sig _ _ _ _).view.writes (Elt F) f (⟨Rect.whole _, X⟩ :: L))) := by
  rw [Memref.readAt_whole, writes_whole_cons]
  exact hM

theorem trips2 : k0_t2_loop.trips = 16 := by decide
theorem trips3 : k0_t3_loop.trips = 16 := by decide

set_option maxHeartbeats 0 in
theorem inner2_trip (d : Dev nD) (L : grid0.Coords) (v2 : BitVec 32) (k : Fin k0_t1_loop.trips) (v245 v275 : BitVec 32)
    (g : Fin k0_t2_loop.trips)
    (R : Buf (Elt F) ((V d (cV L) (jV L)).loc cc0_scratch2)) (f : Buf (Elt F) ((V d (cV L) (jV L)).loc cc0_scratch4))
    (hD : Done g.val R f) :
    iprop(((r0).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ
          (k0_t2_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 v2 W3 W7 W11 W15 W19 W23 W27 W31 W35 W39 W43 W47 W51 W55 W59 W63 W67 W70 W73 W76 W79 W82 W85 W88 W91 W94 W97 W100 W103 W106 W109 W112 W115 k v245 v275 g ())
          fun _ => iprop(((r0).view.loc (V d (cV L) (jV L)) ↦{fullShare} R)
            ∗ ∃ f', ⌜Done (g.val + 1) R f'⌝ ∗ ((tb).view.loc (V d (cV L) (jV L)) ↦{fullShare} f')) : sProp 𝕄) := by
  have hg : g.val < 16 := Nat.lt_of_lt_of_eq g.isLt trips2
  unfold k0_t2_body
  iintro ⟨HR, HT⟩
  sl_exec (disch := chk_disch)
  repeat (sl_idx (V d (cV L) (jV L)); sl_exec (disch := chk_disch))
  sl_step
  isplitl [HR]; · iexact HR
  iexists _
  isplitr [HT]
  rotate_left
  · iexact HT
  · ipureintro
    refine done_congrR (Memref.readAt_whole (Elt F) cc0_scratch2 R) ?_
    refine done_of_writes f _ _ (done_congrR' (Memref.readAt_whole (Elt F) cc0_scratch2 R) hD) ?_
    iterate 63
      (refine mid_step _ _ hg (by decide) _ _ _ _ _ _ _ (by fin_decide) (by fin_decide) (by fin_decide) (by fin_decide) _ _ (fun _ => rfl) _ ?_
       refine mid_of_readAt _ _ _ _ ?_)
    refine mid_step _ _ hg (by decide) _ _ _ _ _ _ _ (by fin_decide) (by fin_decide) (by fin_decide) (by fin_decide) _ _ (fun _ => rfl) _ ?_
    exact mid_base _ _ _

set_option maxHeartbeats 0 in
theorem inner3_trip (d : Dev nD) (L : grid0.Coords) (v2 : BitVec 32) (k : Fin k0_t1_loop.trips) (v400 v401 v420 v421 : BitVec 32) (v422 v423 : BitVec 1)
    (g : Fin k0_t3_loop.trips)
    (R : Buf (Elt F) ((V d (cV L) (jV L)).loc cc0_scratch3)) (f : Buf (Elt F) ((V d (cV L) (jV L)).loc cc0_scratch4))
    (hD : Done g.val R f) :
    iprop(((r1).view.loc (V d (cV L) (jV L)) ↦{fullShare} R) ∗ ((tb).view.loc (V d (cV L) (jV L)) ↦{fullShare} f))
      ⊢ (wp frame (wpE (defs₀ (F := F)) 𝒱₀ (V d (cV L) (jV L)) none) Set.univ
          (k0_t3_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 v2 W3 W7 W11 W15 W19 W23 W27 W31 W35 W39 W43 W47 W51 W55 W59 W63 W67 W70 W73 W76 W79 W82 W85 W88 W91 W94 W97 W100 W103 W106 W109 W112 W115 k v400 v401 v420 v421 v422 v423 g ())
          fun _ => iprop(((r1).view.loc (V d (cV L) (jV L)) ↦{fullShare} R)
            ∗ ∃ f', ⌜Done (g.val + 1) R f'⌝ ∗ ((tb).view.loc (V d (cV L) (jV L)) ↦{fullShare} f')) : sProp 𝕄) := by
  have hg : g.val < 16 := Nat.lt_of_lt_of_eq g.isLt trips3
  unfold k0_t3_body
  iintro ⟨HR, HT⟩
  sl_exec (disch := chk_disch)
  repeat (sl_idx (V d (cV L) (jV L)); sl_exec (disch := chk_disch))
  sl_step
  isplitl [HR]; · iexact HR
  iexists _
  isplitr [HT]
  rotate_left
  · iexact HT
  · ipureintro
    refine done_congrR (Memref.readAt_whole (Elt F) cc0_scratch3 R) ?_
    refine done_of_writes f _ _ (done_congrR' (Memref.readAt_whole (Elt F) cc0_scratch3 R) hD) ?_
    iterate 63
      (refine mid_step _ _ hg (by decide) _ _ _ _ _ _ _ (by fin_decide) (by fin_decide) (by fin_decide) (by fin_decide) _ _ (fun _ => rfl) _ ?_
       refine mid_of_readAt _ _ _ _ ?_)
    refine mid_step _ _ hg (by decide) _ _ _ _ _ _ _ (by fin_decide) (by fin_decide) (by fin_decide) (by fin_decide) _ _ (fun _ => rfl) _ ?_
    exact mid_base _ _ _

end Cert.Proof.KIB
end
-- ==== Proof.KBodyB.lean ====
import proofs.«206429_g47863115546636_cont_8to1c4_619_32_alg».proof.Proof.KTripFB
import proofs.«206429_g47863115546636_cont_8to1c4_619_32_alg».proof.Proof.KTripMB
import proofs.«206429_g47863115546636_cont_8to1c4_619_32_alg».proof.Proof.KTripLB
import proofs.«206429_g47863115546636_cont_8to1c4_619_32_alg».proof.Proof.KTileB
import proofs.«206429_g47863115546636_cont_8to1c4_619_32_alg».proof.Proof.KInnerB

noncomputable section

namespace Cert.Proof.KB
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.KB Cert.Proof.KWB

variable {F : FTy → Type}
local notation "𝕄" => MT nD τ sig (HIx 1) (Elt F) ℕ UU ℕ
local notation "xW" => (Memref.whole Cert.Kernel.main_v1_scv : Memref Cert.Kernel.sig Kind.scVector Space.hbm Cert.Kernel.S819200 EltTy.i32)
local notation "tW" => (Memref.whole Cert.Kernel.main_v2_scv : Memref Cert.Kernel.sig Kind.scVector Space.hbm Cert.Kernel.S1000000x128 EltTy.f32)
local notation "oW" => (Memref.whole Cert.Kernel.main_v3_scv : Memref Cert.Kernel.sig Kind.scVector Space.hbm Cert.Kernel.S50x64x16384 EltTy.f32)
local notation "i0" => (Memref.whole Cert.Kernel.cc0_scratch0 : Memref Cert.Kernel.sig Kind.scVector Space.vmem Cert.Kernel.S256 EltTy.i32)
local notation "i1" => (Memref.whole Cert.Kernel.cc0_scratch1 : Memref Cert.Kernel.sig Kind.scVector Space.vmem Cert.Kernel.S256 EltTy.i32)
local notation "r0" => (Memref.whole Cert.Kernel.cc0_scratch2 : Memref Cert.Kernel.sig Kind.scVector Space.vmem Cert.Kernel.S256x128 EltTy.f32)
local notation "r1" => (Memref.whole Cert.Kernel.cc0_scratch3 : Memref Cert.Kernel.sig Kind.scVector Space.vmem Cert.Kernel.S256x128 EltTy.f32)
local notation "tb" => (Memref.whole Cert.Kernel.cc0_scratch4 : Memref Cert.Kernel.sig Kind.scVector Space.vmem Cert.Kernel.S128x128 EltTy.f32)

/-! A tile's whole task: the first index fetch and row gather, the fifty trips of the chunk loop by their invariant, the
    last chunk's copies drained; the tile's columns of the result come back holding the scaled table rows. -/
variable [FloatOps F]

omit [FloatOps F] in
theorem ownSems0_V5 (d : Dev nD) (L : grid0.Coords) :
    (ownSems0 (V d (cV L) (jV L)) : sProp 𝕄)
      = iprop(semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
          ∗ bigSep ((((((ownCells (V d (cV L) (jV L))).erase ((V d (cV L) (jV L)), SemLoc.dma cc0_scratch5.sem)).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)) fun g => semVal g 0) := by
  unfold SparseCore.Cfg.ownSems0
  rw [SparseCore.bigSep_erase' ((mem_ownCells (g := ((V d (cV L) (jV L)), SemLoc.dma cc0_scratch5.sem))).mpr ⟨rfl, by show (SemLoc.dma cc0_scratch5.sem : SemLoc sig).isScoped .scVector = true; decide⟩),
    SparseCore.bigSep_erase' (Finset.mem_erase.mpr ⟨(fun e => absurd (congrArg Prod.snd e) (show (SemLoc.dma cc0_scratch6.sem : SemLoc sig) ≠ SemLoc.dma cc0_scratch5.sem by decide)), (mem_ownCells (g := ((V d (cV L) (jV L)), SemLoc.dma cc0_scratch6.sem))).mpr ⟨rfl, by show (SemLoc.dma cc0_scratch6.sem : SemLoc sig).isScoped .scVector = true; decide⟩⟩),
    SparseCore.bigSep_erase' (Finset.mem_erase.mpr ⟨(fun e => absurd (congrArg Prod.snd e) (show (SemLoc.dma cc0_scratch7.sem : SemLoc sig) ≠ SemLoc.dma cc0_scratch6.sem by decide)), Finset.mem_erase.mpr ⟨(fun e => absurd (congrArg Prod.snd e) (show (SemLoc.dma cc0_scratch7.sem : SemLoc sig) ≠ SemLoc.dma cc0_scratch5.sem by decide)), (mem_ownCells (g := ((V d (cV L) (jV L)), SemLoc.dma cc0_scratch7.sem))).mpr ⟨rfl, by show (SemLoc.dma cc0_scratch7.sem : SemLoc sig).isScoped .scVector = true; decide⟩⟩⟩),
    SparseCore.bigSep_erase' (Finset.mem_erase.mpr ⟨(fun e => absurd (congrArg Prod.snd e) (show (SemLoc.dma cc0_scratch8.sem : SemLoc sig) ≠ SemLoc.dma cc0_scratch7.sem by decide)), Finset.mem_erase.mpr ⟨(fun e => absurd (congrArg Prod.snd e) (show (SemLoc.dma cc0_scratch8.sem : SemLoc sig) ≠ SemLoc.dma cc0_scratch6.sem by decide)), Finset.mem_erase.mpr ⟨(fun e => absurd (congrArg Prod.snd e) (show (SemLoc.dma cc0_scratch8.sem : SemLoc sig) ≠ SemLoc.dma cc0_scratch5.sem by decide)), (mem_ownCells (g := ((V d (cV L) (jV L)), SemLoc.dma cc0_scratch8.sem))).mpr ⟨rfl, by show (SemLoc.dma cc0_scratch8.sem : SemLoc sig).isScoped .scVector = true; decide⟩⟩⟩⟩),
    SparseCore.bigSep_erase' (Finset.mem_erase.mpr ⟨(fun e => absurd (congrArg Prod.snd e) (show (SemLoc.dma cc0_scratch9.sem : SemLoc sig) ≠ SemLoc.dma cc0_scratch8.sem by decide)), Finset.mem_erase.mpr ⟨(fun e => absurd (congrArg Prod.snd e) (show (SemLoc.dma cc0_scratch9.sem : SemLoc sig) ≠ SemLoc.dma cc0_scratch7.sem by decide)), Finset.mem_erase.mpr ⟨(fun e => absurd (congrArg Prod.snd e) (show (SemLoc.dma cc0_scratch9.sem : SemLoc sig) ≠ SemLoc.dma cc0_scratch6.sem by decide)), Finset.mem_erase.mpr ⟨(fun e => absurd (congrArg Prod.snd e) (show (SemLoc.dma cc0_scratch9.sem : SemLoc sig) ≠ SemLoc.dma cc0_scratch5.sem by decide)), (mem_ownCells (g := ((V d (cV L) (jV L)), SemLoc.dma cc0_scratch9.sem))).mpr ⟨rfl, by show (SemLoc.dma cc0_scratch9.sem : SemLoc sig).isScoped .scVector = true; decide⟩⟩⟩⟩⟩)]

omit [FloatOps F] in
theorem ownBufs_V5 (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := (Proc.scVector (cV L) (jV L)).devRef cc0_scratch4) rfl⟩⟩⟩⟩)]

theorem cond1_all : ∀ k : Fin k0_t1_loop.trips, k0_cond1 k = 1#1 := by decide
theorem cond6_all : ∀ k : Fin k0_t1_loop.trips, k0_cond6 k = 1#1 := by decide
theorem cond2_iff : ∀ k : Fin k0_t1_loop.trips, k0_cond2 k = 1#1 ↔ k.val < 49 := by decide
theorem cond3_iff : ∀ k : Fin k0_t1_loop.trips, k0_cond3 k = 1#1 ↔ 0 < k.val := by decide
theorem cond4_iff : ∀ k : Fin k0_t1_loop.trips, k0_cond4 k = 1#1 ↔ k.val < 49 := by decide
theorem cond5_iff : ∀ k : Fin k0_t1_loop.trips, k0_cond5 k = 1#1 ↔ k.val < 49 := by decide

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  repeat rw [SparseCore.bigSep_insert' (by decide)]
  rw [bigSep_singleton]

/-- The trip before trip `n` (any trip at `n = 0`, where it is not used). -/
def kpred (n : ℕ) : Fin k0_t1_loop.trips := ⟨(n - 1) % 50, by rw [trips1]; exact Nat.mod_lt _ (by decide)⟩
/-- The trips whose second chunk's pieces the tile holds before trip `n`: all but the one on its way out. -/
def setB (n : ℕ) : Finset (Fin k0_t1_loop.trips) := Finset.univ.filter fun k' => k'.val + 1 ≠ n

section Body
variable (d : Dev nD) (L : grid0.Coords) (O : CellTallies nD τ sig (HIx 1)) (W : Waits sig (HIx 1)) (q : PosShare TreeShare)
variable (X : Buf (Elt F) ((V d (cV L) (jV L)).loc main_v1_scv)) (Tp : Buf (Elt F) ((V d (cV L) (jV L)).loc main_v2_scv))

def inv (n : ℕ) (_ : PUnit) : sProp 𝕄 :=
  iprop((if n < 50 then coreFly d L O W q X Tp n else coreIdle d L O W q X Tp)
    ∗ (if n = 0 then tbIdle d L else batchB d L X Tp (kpred n))
    ∗ bigSep Finset.univ (fun k' : Fin k0_t1_loop.trips => SlA d L X Tp (k'.val < n) k')
    ∗ bigSep (setB n) (fun k' : Fin k0_t1_loop.trips => SlB d L X Tp (k'.val + 1 < n) k'))

theorem SlA_mono {ok ok' : Prop} (h : ok' → ok) (k : Fin k0_t1_loop.trips) : SlA d L X Tp ok k ⊢ SlA d L X Tp ok' k := by
  unfold SlA
  iintro ⟨⟨%g0, H0, %p0⟩, ⟨%g1, H1, %p1⟩, ⟨%g2, H2, %p2⟩, ⟨%g3, H3, %p3⟩, ⟨%g4, H4, %p4⟩, ⟨%g5, H5, %p5⟩, ⟨%g6, H6, %p6⟩, ⟨%g7, H7, %p7⟩, ⟨%g8, H8, %p8⟩, ⟨%g9, H9, %p9⟩, ⟨%g10, H10, %p10⟩, ⟨%g11, H11, %p11⟩, ⟨%g12, H12, %p12⟩, ⟨%g13, H13, %p13⟩, ⟨%g14, H14, %p14⟩, ⟨%g15, H15, %p15⟩⟩
  isplitl [H0]
  · iexists g0; isplitl [H0]; · iexact H0
    ipureintro; exact fun h' => p0 (h h')
  isplitl [H1]
  · iexists g1; isplitl [H1]; · iexact H1
    ipureintro; exact fun h' => p1 (h h')
  isplitl [H2]
  · iexists g2; isplitl [H2]; · iexact H2
    ipureintro; exact fun h' => p2 (h h')
  isplitl [H3]
  · iexists g3; isplitl [H3]; · iexact H3
    ipureintro; exact fun h' => p3 (h h')
  isplitl [H4]
  · iexists g4; isplitl [H4]; · iexact H4
    ipureintro; exact fun h' => p4 (h h')
  isplitl [H5]
  · iexists g5; isplitl [H5]; · iexact H5
    ipureintro; exact fun h' => p5 (h h')
  isplitl [H6]
  · iexists g6; isplitl [H6]; · iexact H6
    ipureintro; exact fun h' => p6 (h h')
  isplitl [H7]
  · iexists g7; isplitl [H7]; · iexact H7
    ipureintro; exact fun h' => p7 (h h')
  isplitl [H8]
  · iexists g8; isplitl [H8]; · iexact H8
    ipureintro; exact fun h' => p8 (h h')
  isplitl [H9]
  · iexists g9; isplitl [H9]; · iexact H9
    ipureintro; exact fun h' => p9 (h h')
  isplitl [H10]
  · iexists g10; isplitl [H10]; · iexact H10
    ipureintro; exact fun h' => p10 (h h')
  isplitl [H11]
  · iexists g11; isplitl [H11]; · iexact H11
    ipureintro; exact fun h' => p11 (h h')
  isplitl [H12]
  · iexists g12; isplitl [H12]; · iexact H12
    ipureintro; exact fun h' => p12 (h h')
  isplitl [H13]
  · iexists g13; isplitl [H13]; · iexact H13
    ipureintro; exact fun h' => p13 (h h')
  isplitl [H14]
  · iexists g14; isplitl [H14]; · iexact H14
    ipureintro; exact fun h' => p14 (h h')
  iexists g15; isplitl [H15]; · iexact H15
  ipureintro; exact fun h' => p15 (h h')
theorem SlB_mono {ok ok' : Prop} (h : ok' → ok) (k : Fin k0_t1_loop.trips) : SlB d L X Tp ok k ⊢ SlB d L X Tp ok' k := by
  unfold SlB
  iintro ⟨⟨%g0, H0, %p0⟩, ⟨%g1, H1, %p1⟩, ⟨%g2, H2, %p2⟩, ⟨%g3, H3, %p3⟩, ⟨%g4, H4, %p4⟩, ⟨%g5, H5, %p5⟩, ⟨%g6, H6, %p6⟩, ⟨%g7, H7, %p7⟩, ⟨%g8, H8, %p8⟩, ⟨%g9, H9, %p9⟩, ⟨%g10, H10, %p10⟩, ⟨%g11, H11, %p11⟩, ⟨%g12, H12, %p12⟩, ⟨%g13, H13, %p13⟩, ⟨%g14, H14, %p14⟩, ⟨%g15, H15, %p15⟩⟩
  isplitl [H0]
  · iexists g0; isplitl [H0]; · iexact H0
    ipureintro; exact fun h' => p0 (h h')
  isplitl [H1]
  · iexists g1; isplitl [H1]; · iexact H1
    ipureintro; exact fun h' => p1 (h h')
  isplitl [H2]
  · iexists g2; isplitl [H2]; · iexact H2
    ipureintro; exact fun h' => p2 (h h')
  isplitl [H3]
  · iexists g3; isplitl [H3]; · iexact H3
    ipureintro; exact fun h' => p3 (h h')
  isplitl [H4]
  · iexists g4; isplitl [H4]; · iexact H4
    ipureintro; exact fun h' => p4 (h h')
  isplitl [H5]
  · iexists g5; isplitl [H5]; · iexact H5
    ipureintro; exact fun h' => p5 (h h')
  isplitl [H6]
  · iexists g6; isplitl [H6]; · iexact H6
    ipureintro; exact fun h' => p6 (h h')
  isplitl [H7]
  · iexists g7; isplitl [H7]; · iexact H7
    ipureintro; exact fun h' => p7 (h h')
  isplitl [H8]
  · iexists g8; isplitl [H8]; · iexact H8
    ipureintro; exact fun h' => p8 (h h')
  isplitl [H9]
  · iexists g9; isplitl [H9]; · iexact H9
    ipureintro; exact fun h' => p9 (h h')
  isplitl [H10]
  · iexists g10; isplitl [H10]; · iexact H10
    ipureintro; exact fun h' => p10 (h h')
  isplitl [H11]
  · iexists g11; isplitl [H11]; · iexact H11
    ipureintro; exact fun h' => p11 (h h')
  isplitl [H12]
  · iexists g12; isplitl [H12]; · iexact H12
    ipureintro; exact fun h' => p12 (h h')
  isplitl [H13]
  · iexists g13; isplitl [H13]; · iexact H13
    ipureintro; exact fun h' => p13 (h h')
  isplitl [H14]
  · iexists g14; isplitl [H14]; · iexact H14
    ipureintro; exact fun h' => p14 (h h')
  iexists g15; isplitl [H15]; · iexact H15
  ipureintro; exact fun h' => p15 (h h')

omit [FloatOps F] in
theorem mem_setB_self (k : Fin k0_t1_loop.trips) : k ∈ setB k.val := by simp [setB]

theorem slA_advance (k : Fin k0_t1_loop.trips) :
    iprop(SlA d L X Tp True k ∗ bigSep (Finset.univ.erase k) (fun k' : Fin k0_t1_loop.trips => SlA d L X Tp (k'.val < k.val) k'))
      ⊢ bigSep Finset.univ (fun k' : Fin k0_t1_loop.trips => SlA d L X Tp (k'.val < k.val + 1) k') := by
  rw [SparseCore.bigSep_erase' (Finset.mem_univ k) (Φ := fun k' : Fin k0_t1_loop.trips => SlA d L X Tp (k'.val < k.val + 1) k')]
  iintro ⟨Hk, Hr⟩
  isplitl [Hk]
  · iapply (SlA_mono d L X Tp (fun _ => trivial) k); iexact Hk
  · iapply (SparseCore.ent (bigSep_mono (s := Finset.univ.erase k) (fun k' hk' => SlA_mono d L X Tp (ok := k'.val < k.val) (ok' := k'.val < k.val + 1)
      (fun h => by have := Fin.val_ne_of_ne (Finset.ne_of_mem_erase hk'); omega) k'))); iexact Hr

theorem slB_advance (k kp : Fin k0_t1_loop.trips) (h : kp.val + 1 = k.val) :
    iprop(SlB d L X Tp True kp ∗ bigSep ((setB k.val).erase k) (fun k' : Fin k0_t1_loop.trips => SlB d L X Tp (k'.val + 1 < k.val) k'))
      ⊢ bigSep (setB (k.val + 1)) (fun k' : Fin k0_t1_loop.trips => SlB d L X Tp (k'.val + 1 < k.val + 1) k') := by
  have hset : setB (k.val + 1) = insert kp ((setB k.val).erase k) := by
    ext x
    simp only [setB, Finset.mem_filter, Finset.mem_univ, true_and, Finset.mem_insert, Finset.mem_erase, ne_eq]
    constructor
    · intro hx
      by_cases e : x = kp
      · exact .inl e
      · exact .inr ⟨fun e' => hx (by rw [e']), fun e' => e (Fin.ext (by omega))⟩
    · rintro (rfl | ⟨h1, h2⟩)
      · omega
      · intro e; exact h1 (Fin.ext (by omega))
  have hnot : kp ∉ (setB k.val).erase k := by
    simp only [setB, Finset.mem_erase, Finset.mem_filter, Finset.mem_univ, true_and, ne_eq, not_and, not_not]
    intro _; exact h
  rw [hset, SparseCore.bigSep_insert' hnot]
  iintro ⟨Hk, Hr⟩
  isplitl [Hk]
  · iapply (SlB_mono d L X Tp (fun _ => trivial) kp); iexact Hk
  · iapply (SparseCore.ent (bigSep_mono (s := (setB k.val).erase k) (fun k' hk' => SlB_mono d L X Tp (ok := k'.val + 1 < k.val) (ok' := k'.val + 1 < k.val + 1)
      (fun h' => by
        have h1 := (Finset.mem_filter.mp (Finset.mem_of_mem_erase hk')).2
        omega) k'))); iexact Hr

theorem slB_advance0 (k : Fin k0_t1_loop.trips) (h0 : k.val = 0) :
    bigSep ((setB k.val).erase k) (fun k' : Fin k0_t1_loop.trips => SlB d L X Tp (k'.val + 1 < k.val) k')
      ⊢ bigSep (setB (k.val + 1)) (fun k' : Fin k0_t1_loop.trips => SlB d L X Tp (k'.val + 1 < k.val + 1) k') := by
  have hset : setB (k.val + 1) = (setB k.val).erase k := by
    ext x
    simp only [setB, Finset.mem_filter, Finset.mem_univ, true_and, Finset.mem_erase, ne_eq]
    constructor
    · intro hx; exact ⟨fun e => hx (by rw [e]), by omega⟩
    · rintro ⟨h1, _⟩ e; exact h1 (Fin.ext (by omega))
  rw [hset]
  exact bigSep_mono (fun k' _ => SlB_mono d L X Tp (fun h' => by omega) k')

omit [FloatOps F] in
theorem off1_eq0 : k0_off1 L 0#32 = ![xoff L (kOf 0) 0] := by
  have e := k0_off1_eq L 0
  have e' : k0_off1 L 0#32 = ![1024 * (L 1).val + 512 * (L 0).val + 256 * 0] := e
  rw [e']; unfold xoff wbL kOf; simp
omit [FloatOps F] in
theorem off1_eq1 : k0_off1 L 256#32 = ![xoff L (kOf 0) 1] := by
  have e := k0_off1_eq L 1
  have e' : k0_off1 L 256#32 = ![1024 * (L 1).val + 512 * (L 0).val + 256 * 1] := e
  rw [e']; unfold xoff wbL kOf; simp

set_option maxHeartbeats 0 in
theorem tripStepF (hX : ∀ j, (X j).toNat < 1000000) (hI2 : Inner2 (F := F) d L) (hI3 : Inner3 (F := F) d L)
    (k : Fin k0_t1_loop.trips) (h0 : k.val = 0) :
    iprop(coreFly d L O W q X Tp k.val ∗ tbIdle d L
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripF d L O W q X Tp hX hI2 hI3 k k (cond1_all k) ((cond2_iff k).mpr (by omega)) (fun h => by have := (cond3_iff k).mp h; omega) ((cond4_iff k).mpr (by omega)) ((cond5_iff k).mpr (by omega)) (cond6_all k))
    isplitl [Hc]; · iexact Hc
    isplitl [Hb]; · iexact Hb
    isplitl [HAk]; · iexact HAk
    iexact HBk
  · iintro %a ⟨Hc, Hb, HAk⟩
    isplitl [Hc]; · iexact Hc
    isplitl [Hb]; · iexact Hb
    isplitl [HAk HAr]
    · iapply (slA_advance d L X Tp k); isplitl [HAk]; · iexact HAk
      iexact HAr
    · iapply (slB_advance0 d L X Tp k h0); iexact HBr

set_option maxHeartbeats 0 in
theorem tripStepM (hX : ∀ j, (X j).toNat < 1000000) (hI2 : Inner2 (F := F) d L) (hI3 : Inner3 (F := F) d L)
    (k : Fin k0_t1_loop.trips) (hpos : 0 < k.val) (h49 : k.val < 49) (hkp1 : (kpred k.val).val + 1 = k.val) :
    iprop(coreFly d L O W q X Tp k.val ∗ batchB d L X Tp (kpred k.val)
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreFly d L O W q X Tp (k.val + 1) ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripM d L O W q X Tp hX hI2 hI3 k (kpred k.val) (cond1_all k) ((cond2_iff k).mpr (by omega)) ((cond3_iff k).mpr (by omega)) ((cond4_iff k).mpr (by omega)) ((cond5_iff k).mpr (by omega)) (cond6_all k))
    isplitl [Hc]; · iexact Hc
    isplitl [Hb]; · iexact Hb
    isplitl [HAk]; · iexact HAk
    iexact HBk
  · iintro %a ⟨Hc, Hb, HBp, HAk⟩
    isplitl [Hc]; · iexact Hc
    isplitl [Hb]; · iexact Hb
    isplitl [HAk HAr]
    · iapply (slA_advance d L X Tp k); isplitl [HAk]; · iexact HAk
      iexact HAr
    · iapply (slB_advance d L X Tp k (kpred k.val) hkp1); isplitl [HBp]; · iexact HBp
      iexact HBr

set_option maxHeartbeats 0 in
theorem tripStepL (hX : ∀ j, (X j).toNat < 1000000) (hI2 : Inner2 (F := F) d L) (hI3 : Inner3 (F := F) d L)
    (k : Fin k0_t1_loop.trips) (hpos : 0 < k.val) (h49 : k.val = 49) (hkp1 : (kpred k.val).val + 1 = k.val) :
    iprop(coreFly d L O W q X Tp k.val ∗ batchB d L X Tp (kpred k.val)
        ∗ bigSep Finset.univ (fun k' : Fin k0_t1_loop.trips => SlA d L X Tp (k'.val < k.val) k')
        ∗ bigSep (setB k.val) (fun k' : Fin k0_t1_loop.trips => SlB d L X Tp (k'.val + 1 < k.val) k'))
      ⊢ (wp frame (wpE (defs₀ (F := F)) 𝒱₀ (V d (cV L) (jV L)) none) Set.univ (k0_t1_body L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9 (w2 L) W3 W7 W11 W15 W19 W23 W27 W31 W35 W39 W43 W47 W51 W55 W59 W63 W67 W70 W73 W76 W79 W82 W85 W88 W91 W94 W97 W100 W103 W106 W109 W112 W115 k ())
          fun _ => iprop(coreIdle d L O W q X Tp ∗ batchB d L X Tp k
        ∗ bigSep Finset.univ (fun k' : Fin k0_t1_loop.trips => SlA d L X Tp (k'.val < k.val + 1) k')
        ∗ bigSep (setB (k.val + 1)) (fun k' : Fin k0_t1_loop.trips => SlB d L X Tp (k'.val + 1 < k.val + 1) k')) : sProp 𝕄) := by
  have hk : k.val < 50 := by have h1 := k.isLt; have h2 := trips1; omega
  iintro ⟨Hc, Hb, HSA, HSB⟩
  ihave HA' := (Entails.of_eq (SparseCore.bigSep_erase' (Finset.mem_univ k))) $$ HSA
  icases HA' with ⟨HAk, HAr⟩
  ihave HB' := (Entails.of_eq (SparseCore.bigSep_erase' (mem_setB_self k))) $$ HSB
  icases HB' with ⟨HBk, HBr⟩
  ihave HAk := (SlA_mono d L X Tp (ok := k.val < k.val) (ok' := False) (fun h => h.elim) k) $$ HAk
  ihave HBk := (SlB_mono d L X Tp (ok := k.val + 1 < k.val) (ok' := False) (fun h => h.elim) k) $$ HBk
  iapply (wp_wand_r frame _ _)
  isplitl [Hc Hb HAk HBk]
  · iapply (tripL d L O W q X Tp hX hI2 hI3 k (kpred k.val) (cond1_all k) (fun h => by have := (cond2_iff k).mp h; omega) ((cond3_iff k).mpr (by omega)) (fun h => by have := (cond4_iff k).mp h; omega) (fun h => by have := (cond5_iff k).mp h; omega) (cond6_all k))
    isplitl [Hc]; · iexact Hc
    isplitl [Hb]; · iexact Hb
    isplitl [HAk]; · iexact HAk
    iexact HBk
  · iintro %a ⟨Hc, Hb, HBp, HAk⟩
    isplitl [Hc]; · iexact Hc
    isplitl [Hb]; · iexact Hb
    isplitl [HAk HAr]
    · iapply (slA_advance d L X Tp k); isplitl [HAk]; · iexact HAk
      iexact HAr
    · iapply (slB_advance d L X Tp k (kpred k.val) hkp1); isplitl [HBp]; · iexact HBp
      iexact HBr

omit [FloatOps F] in
theorem pts_X (q : PosShare TreeShare) (f : Buf (Elt F) (xLoc d)) :
    (((xW).view.loc (V d (cV L) (jV L)) ↦{q} f : sProp 𝕄)) = (xLoc d ↦{q} f : sProp 𝕄) := by
  simp only [Memref.view_whole, View.set_whole]
omit [FloatOps F] in
theorem pts_T (q : PosShare TreeShare) (f : Buf (Elt F) (tLoc d)) :
    (((tW).view.loc (V d (cV L) (jV L)) ↦{q} f : sProp 𝕄)) = (tLoc d ↦{q} f : sProp 𝕄) := by
  simp only [Memref.view_whole, View.set_whole]

omit [FloatOps F] in
theorem pts_b0 (f : Buf (Elt F) ((V d (cV L) (jV L)).loc cc0_scratch0)) :
    ((((i0).view.loc (V d (cV L) (jV L)) ↦{fullShare} f : sProp 𝕄))) = ((V d (cV L) (jV L)).loc cc0_scratch0 ↦{fullShare} f : sProp 𝕄) := rfl
omit [FloatOps F] in
theorem pts_b1 (f : Buf (Elt F) ((V d (cV L) (jV L)).loc cc0_scratch1)) :
    ((((i1).view.loc (V d (cV L) (jV L)) ↦{fullShare} f : sProp 𝕄))) = ((V d (cV L) (jV L)).loc cc0_scratch1 ↦{fullShare} f : sProp 𝕄) := rfl
omit [FloatOps F] in
theorem pts_b2 (f : Buf (Elt F) ((V d (cV L) (jV L)).loc cc0_scratch2)) :
    ((((r0).view.loc (V d (cV L) (jV L)) ↦{fullShare} f : sProp 𝕄))) = ((V d (cV L) (jV L)).loc cc0_scratch2 ↦{fullShare} f : sProp 𝕄) := rfl
omit [FloatOps F] in
theorem pts_b3 (f : Buf (Elt F) ((V d (cV L) (jV L)).loc cc0_scratch3)) :
    ((((r1).view.loc (V d (cV L) (jV L)) ↦{fullShare} f : sProp 𝕄))) = ((V d (cV L) (jV L)).loc cc0_scratch3 ↦{fullShare} f : sProp 𝕄) := rfl
omit [FloatOps F] in
theorem pts_b4 (f : Buf (Elt F) ((V d (cV L) (jV L)).loc cc0_scratch4)) :
    ((((tb).view.loc (V d (cV L) (jV L)) ↦{fullShare} f : sProp 𝕄))) = ((V d (cV L) (jV L)).loc cc0_scratch4 ↦{fullShare} f : sProp 𝕄) := rfl

theorem out_final (f : Buf (Elt F) ((V d (cV L) (jV L)).loc cc0_scratch4)) (hTb : TbOK X Tp L (kpred k0_t1_loop.trips) 1 f)
    (g0 : Buf (Elt F) ((dM1_0 L (kpred k0_t1_loop.trips)).view.loc (V d (cV L) (jV L)))) (g1 : Buf (Elt F) ((dM1_1 L (kpred k0_t1_loop.trips)).view.loc (V d (cV L) (jV L)))) (g2 : Buf (Elt F) ((dM1_2 L (kpred k0_t1_loop.trips)).view.loc (V d (cV L) (jV L)))) (g3 : Buf (Elt F) ((dM1_3 L (kpred k0_t1_loop.trips)).view.loc (V d (cV L) (jV L)))) (g4 : Buf (Elt F) ((dM1_4 L (kpred k0_t1_loop.trips)).view.loc (V d (cV L) (jV L)))) (g5 : Buf (Elt F) ((dM1_5 L (kpred k0_t1_loop.trips)).view.loc (V d (cV L) (jV L)))) (g6 : Buf (Elt F) ((dM1_6 L (kpred k0_t1_loop.trips)).view.loc (V d (cV L) (jV L)))) (g7 : Buf (Elt F) ((dM1_7 L (kpred k0_t1_loop.trips)).view.loc (V d (cV L) (jV L)))) (g8 : Buf (Elt F) ((dM1_8 L (kpred k0_t1_loop.trips)).view.loc (V d (cV L) (jV L)))) (g9 : Buf (Elt F) ((dM1_9 L (kpred k0_t1_loop.trips)).view.loc (V d (cV L) (jV L)))) (g10 : Buf (Elt F) ((dM1_10 L (kpred k0_t1_loop.trips)).view.loc (V d (cV L) (jV L)))) (g11 : Buf (Elt F) ((dM1_11 L (kpred k0_t1_loop.trips)).view.loc (V d (cV L) (jV L)))) (g12 : Buf (Elt F) ((dM1_12 L (kpred k0_t1_loop.trips)).view.loc (V d (cV L) (jV L)))) (g13 : Buf (Elt F) ((dM1_13 L (kpred k0_t1_loop.trips)).view.loc (V d (cV L) (jV L)))) (g14 : Buf (Elt F) ((dM1_14 L (kpred k0_t1_loop.trips)).view.loc (V d (cV L) (jV L)))) (g15 : Buf (Elt F) ((dM1_15 L (kpred k0_t1_loop.trips)).view.loc (V d (cV L) (jV L)))) :
    iprop(((dM1_0 L (kpred k0_t1_loop.trips)).view.loc (V d (cV L) (jV L)) ↦[(dM1_0 L (kpred k0_t1_loop.trips)).view.set]{fullShare} (dM1_0 L (kpred k0_t1_loop.trips)).view.writes (Elt F) g0 [⟨Rect.whole S8x128, ReadAs.same.apply ((sM_0).view.read (Elt F) f)⟩])
        ∗ ((dM1_1 L (kpred k0_t1_loop.trips)).view.loc (V d (cV L) (jV L)) ↦[(dM1_1 L (kpred k0_t1_loop.trips)).view.set]{fullShare} (dM1_1 L (kpred k0_t1_loop.trips)).view.writes (Elt F) g1 [⟨Rect.whole S8x128, ReadAs.same.apply ((sM_1).view.read (Elt F) f)⟩])
        ∗ ((dM1_2 L (kpred k0_t1_loop.trips)).view.loc (V d (cV L) (jV L)) ↦[(dM1_2 L (kpred k0_t1_loop.trips)).view.set]{fullShare} (dM1_2 L (kpred k0_t1_loop.trips)).view.writes (Elt F) g2 [⟨Rect.whole S8x128, ReadAs.same.apply ((sM_2).view.read (Elt F) f)⟩])
        ∗ ((dM1_3 L (kpred k0_t1_loop.trips)).view.loc (V d (cV L) (jV L)) ↦[(dM1_3 L (kpred k0_t1_loop.trips)).view.set]{fullShare} (dM1_3 L (kpred k0_t1_loop.trips)).view.writes (Elt F) g3 [⟨Rect.whole S8x128, ReadAs.same.apply ((sM_3).view.read (Elt F) f)⟩])
        ∗ ((dM1_4 L (kpred k0_t1_loop.trips)).view.loc (V d (cV L) (jV L)) ↦[(dM1_4 L (kpred k0_t1_loop.trips)).view.set]{fullShare} (dM1_4 L (kpred k0_t1_loop.trips)).view.writes (Elt F) g4 [⟨Rect.whole S8x128, ReadAs.same.apply ((sM_4).view.read (Elt F) f)⟩])
        ∗ ((dM1_5 L (kpred k0_t1_loop.trips)).view.loc (V d (cV L) (jV L)) ↦[(dM1_5 L (kpred k0_t1_loop.trips)).view.set]{fullShare} (dM1_5 L (kpred k0_t1_loop.trips)).view.writes (Elt F) g5 [⟨Rect.whole S8x128, ReadAs.same.apply ((sM_5).view.read (Elt F) f)⟩])
        ∗ ((dM1_6 L (kpred k0_t1_loop.trips)).view.loc (V d (cV L) (jV L)) ↦[(dM1_6 L (kpred k0_t1_loop.trips)).view.set]{fullShare} (dM1_6 L (kpred k0_t1_loop.trips)).view.writes (Elt F) g6 [⟨Rect.whole S8x128, ReadAs.same.apply ((sM_6).view.read (Elt F) f)⟩])
        ∗ ((dM1_7 L (kpred k0_t1_loop.trips)).view.loc (V d (cV L) (jV L)) ↦[(dM1_7 L (kpred k0_t1_loop.trips)).view.set]{fullShare} (dM1_7 L (kpred k0_t1_loop.trips)).view.writes (Elt F) g7 [⟨Rect.whole S8x128, ReadAs.same.apply ((sM_7).view.read (Elt F) f)⟩])
        ∗ ((dM1_8 L (kpred k0_t1_loop.trips)).view.loc (V d (cV L) (jV L)) ↦[(dM1_8 L (kpred k0_t1_loop.trips)).view.set]{fullShare} (dM1_8 L (kpred k0_t1_loop.trips)).view.writes (Elt F) g8 [⟨Rect.whole S8x128, ReadAs.same.apply ((sM_8).view.read (Elt F) f)⟩])
        ∗ ((dM1_9 L (kpred k0_t1_loop.trips)).view.loc (V d (cV L) (jV L)) ↦[(dM1_9 L (kpred k0_t1_loop.trips)).view.set]{fullShare} (dM1_9 L (kpred k0_t1_loop.trips)).view.writes (Elt F) g9 [⟨Rect.whole S8x128, ReadAs.same.apply ((sM_9).view.read (Elt F) f)⟩])
        ∗ ((dM1_10 L (kpred k0_t1_loop.trips)).view.loc (V d (cV L) (jV L)) ↦[(dM1_10 L (kpred k0_t1_loop.trips)).view.set]{fullShare} (dM1_10 L (kpred k0_t1_loop.trips)).view.writes (Elt F) g10 [⟨Rect.whole S8x128, ReadAs.same.apply ((sM_10).view.read (Elt F) f)⟩])
        ∗ ((dM1_11 L (kpred k0_t1_loop.trips)).view.loc (V d (cV L) (jV L)) ↦[(dM1_11 L (kpred k0_t1_loop.trips)).view.set]{fullShare} (dM1_11 L (kpred k0_t1_loop.trips)).view.writes (Elt F) g11 [⟨Rect.whole S8x128, ReadAs.same.apply ((sM_11).view.read (Elt F) f)⟩])
        ∗ ((dM1_12 L (kpred k0_t1_loop.trips)).view.loc (V d (cV L) (jV L)) ↦[(dM1_12 L (kpred k0_t1_loop.trips)).view.set]{fullShare} (dM1_12 L (kpred k0_t1_loop.trips)).view.writes (Elt F) g12 [⟨Rect.whole S8x128, ReadAs.same.apply ((sM_12).view.read (Elt F) f)⟩])
        ∗ ((dM1_13 L (kpred k0_t1_loop.trips)).view.loc (V d (cV L) (jV L)) ↦[(dM1_13 L (kpred k0_t1_loop.trips)).view.set]{fullShare} (dM1_13 L (kpred k0_t1_loop.trips)).view.writes (Elt F) g13 [⟨Rect.whole S8x128, ReadAs.same.apply ((sM_13).view.read (Elt F) f)⟩])
        ∗ ((dM1_14 L (kpred k0_t1_loop.trips)).view.loc (V d (cV L) (jV L)) ↦[(dM1_14 L (kpred k0_t1_loop.trips)).view.set]{fullShare} (dM1_14 L (kpred k0_t1_loop.trips)).view.writes (Elt F) g14 [⟨Rect.whole S8x128, ReadAs.same.apply ((sM_14).view.read (Elt F) f)⟩])
        ∗ ((dM1_15 L (kpred k0_t1_loop.trips)).view.loc (V d (cV L) (jV L)) ↦[(dM1_15 L (kpred k0_t1_loop.trips)).view.set]{fullShare} (dM1_15 L (kpred k0_t1_loop.trips)).view.writes (Elt F) g15 [⟨Rect.whole S8x128, ReadAs.same.apply ((sM_15).view.read (Elt F) f)⟩])
        ∗ bigSep Finset.univ (fun k' : Fin k0_t1_loop.trips => SlA d L X Tp (k'.val < k0_t1_loop.trips) k')
        ∗ bigSep (setB k0_t1_loop.trips) (fun k' : Fin k0_t1_loop.trips => SlB d L X Tp (k'.val + 1 < k0_t1_loop.trips) k'))
      ⊢ (iprop(∃ fo, ⌜OutOK d X Tp (widL L) fo⌝ ∗ oLoc d ↦[colsSet (widL L)]{fullShare} fo) : sProp 𝕄) := by
  iintro ⟨H0, H1, H2, H3, H4, H5, H6, H7, H8, H9, H10, H11, H12, H13, H14, H15, HSA, HSB⟩
  iapply (region_join d L X Tp)
  rw [bigSep_sep']
  isplitl [HSA]
  · iapply (SparseCore.ent (bigSep_mono (s := Finset.univ) (fun k' _ => SlA_mono d L X Tp (ok := k'.val < k0_t1_loop.trips) (ok' := True) (fun _ => k'.isLt) k'))); iexact HSA
  · rw [SparseCore.bigSep_erase' (Finset.mem_univ (kpred k0_t1_loop.trips)) (Φ := fun k' : Fin k0_t1_loop.trips => SlB d L X Tp True k')]
    isplitl [H0 H1 H2 H3 H4 H5 H6 H7 H8 H9 H10 H11 H12 H13 H14 H15]
    · unfold SlB
      isplitl [H0]
      · iexists _; isplitl [H0]; · iexact H0
        ipureintro; exact fun _ => gd_of_tb1_0 d L X Tp (kpred k0_t1_loop.trips) _ hTb _
      isplitl [H1]
      · iexists _; isplitl [H1]; · iexact H1
        ipureintro; exact fun _ => gd_of_tb1_1 d L X Tp (kpred k0_t1_loop.trips) _ hTb _
      isplitl [H2]
      · iexists _; isplitl [H2]; · iexact H2
        ipureintro; exact fun _ => gd_of_tb1_2 d L X Tp (kpred k0_t1_loop.trips) _ hTb _
      isplitl [H3]
      · iexists _; isplitl [H3]; · iexact H3
        ipureintro; exact fun _ => gd_of_tb1_3 d L X Tp (kpred k0_t1_loop.trips) _ hTb _
      isplitl [H4]
      · iexists _; isplitl [H4]; · iexact H4
        ipureintro; exact fun _ => gd_of_tb1_4 d L X Tp (kpred k0_t1_loop.trips) _ hTb _
      isplitl [H5]
      · iexists _; isplitl [H5]; · iexact H5
        ipureintro; exact fun _ => gd_of_tb1_5 d L X Tp (kpred k0_t1_loop.trips) _ hTb _
      isplitl [H6]
      · iexists _; isplitl [H6]; · iexact H6
        ipureintro; exact fun _ => gd_of_tb1_6 d L X Tp (kpred k0_t1_loop.trips) _ hTb _
      isplitl [H7]
      · iexists _; isplitl [H7]; · iexact H7
        ipureintro; exact fun _ => gd_of_tb1_7 d L X Tp (kpred k0_t1_loop.trips) _ hTb _
      isplitl [H8]
      · iexists _; isplitl [H8]; · iexact H8
        ipureintro; exact fun _ => gd_of_tb1_8 d L X Tp (kpred k0_t1_loop.trips) _ hTb _
      isplitl [H9]
      · iexists _; isplitl [H9]; · iexact H9
        ipureintro; exact fun _ => gd_of_tb1_9 d L X Tp (kpred k0_t1_loop.trips) _ hTb _
      isplitl [H10]
      · iexists _; isplitl [H10]; · iexact H10
        ipureintro; exact fun _ => gd_of_tb1_10 d L X Tp (kpred k0_t1_loop.trips) _ hTb _
      isplitl [H11]
      · iexists _; isplitl [H11]; · iexact H11
        ipureintro; exact fun _ => gd_of_tb1_11 d L X Tp (kpred k0_t1_loop.trips) _ hTb _
      isplitl [H12]
      · iexists _; isplitl [H12]; · iexact H12
        ipureintro; exact fun _ => gd_of_tb1_12 d L X Tp (kpred k0_t1_loop.trips) _ hTb _
      isplitl [H13]
      · iexists _; isplitl [H13]; · iexact H13
        ipureintro; exact fun _ => gd_of_tb1_13 d L X Tp (kpred k0_t1_loop.trips) _ hTb _
      isplitl [H14]
      · iexists _; isplitl [H14]; · iexact H14
        ipureintro; exact fun _ => gd_of_tb1_14 d L X Tp (kpred k0_t1_loop.trips) _ hTb _
      iexists _; isplitl [H15]; · iexact H15
      ipureintro; exact fun _ => gd_of_tb1_15 d L X Tp (kpred k0_t1_loop.trips) _ hTb _
    · have hset : (Finset.univ : Finset (Fin k0_t1_loop.trips)).erase (kpred k0_t1_loop.trips) = setB k0_t1_loop.trips := by decide
      rw [hset]
      iapply (SparseCore.ent (bigSep_mono (s := setB k0_t1_loop.trips) (fun k' hk' => SlB_mono d L X Tp (ok := k'.val + 1 < k0_t1_loop.trips) (ok' := True)
        (fun _ => by have h1 := (Finset.mem_filter.mp hk').2; have h2 := k'.isLt; omega) k'))); iexact HSB

set_option maxHeartbeats 0 in
/-- The task on vector subcore `L` of device `d`. -/
theorem tile_body (hF : (K (F := F)).Facts) (hX : ∀ j, (X j).toNat < 1000000) (hI2 : Inner2 (F := F) d L) (hI3 : Inner3 (F := F) d L)
    (fod : Buf (Elt F) (oLoc d)) (hO : ∀ g, O g none = 0) :
    iprop(levAts (K (F := F)).L (K (F := F)).lev ∗ emp
        ∗ ((xLoc d ↦{q} X) ∗ (tLoc d ↦{q} Tp) ∗ (oLoc d ↦[colsSet (widL L)]{fullShare} fod))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (cc0_k L xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9)
          fun _ => iprop(((xLoc d ↦{q} X) ∗ (tLoc d ↦{q} Tp) ∗ ∃ f, ⌜OutOK d X Tp (widL L) f⌝ ∗ oLoc d ↦[colsSet (widL L)]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V5, ownBufs_V5]
  iintro ⟨#Hlv, -, ⟨HX, HT, HOut⟩, ⟨⟨%f0, Hi0⟩, ⟨%f1, Hi1⟩, ⟨%g0, Hr0⟩, ⟨%g1, Hr1⟩, ⟨%ft, Htb⟩, Hbufs⟩, ⟨Hs5, Hs6, Hs7, Hs8, Hs9, Hsems⟩, HO⟩
  ihave Hi0 := (Entails.of_eq (pts_b0 (F := F) d L _).symm) $$ Hi0
  ihave Hi1 := (Entails.of_eq (pts_b1 (F := F) d L _).symm) $$ Hi1
  ihave Hr0 := (Entails.of_eq (pts_b2 (F := F) d L _).symm) $$ Hr0
  ihave Hr1 := (Entails.of_eq (pts_b3 (F := F) d L _).symm) $$ Hr1
  ihave Htb := (Entails.of_eq (pts_b4 (F := F) d L _).symm) $$ Htb
  ihave Hmw := ((K (F := F)).mayWaits_none (thr := (V d (cV L) (jV L))) hO) $$ Hlv
  ihave HX := (Entails.of_eq (pts_X (F := F) d L q X).symm) $$ HX
  ihave HT := (Entails.of_eq (pts_T (F := F) d L q Tp).symm) $$ HT
  ihave HXs := (Transfers.pointsTo_toks_split q 5) $$ HX
  icases HXs with ⟨HXd, HXt⟩
  ihave HXt := (Entails.of_eq (bigSep_fin5 (F := F) _)) $$ HXt
  icases HXt with ⟨HX0, HX1, HX2, HX3, HX4⟩
  ihave HTs := (Transfers.pointsTo_toks_split q 5) $$ HT
  icases HTs with ⟨HTd, HTt⟩
  ihave HTt := (Entails.of_eq (bigSep_fin5 (F := F) _)) $$ HTt
  icases HTt with ⟨HT0, HT1, HT2, HT3, HT4⟩
  ihave HSl := (region_split d L X Tp fod) $$ HOut
  ihave HSl := (Entails.of_eq (bigSep_sep' _ _ _)) $$ HSl
  icases HSl with ⟨HSA, HSB⟩
  have hinA := hin_i0 (F := F) d L X hX
  have hb : Transfers.BatchOf (V d (cV L) (jV L)) (SemLoc.dma cc0_scratch7.sem) 16 := trivial
  sl_unfold [cc0_k]
  sl_exec
  sl_for (inv d L O W q X Tp) $$ [Hmw HX3 Hs9 HX4 Hs5 HT0 HT1 Hr1 Hs6 Hs8 HO Htb Hs7 HSA HSB]
  case region =>
    intro k acc
    have hk : k.val < 50 := lt_of_lt_of_eq k.isLt trips1
    unfold inv
    rw [if_pos hk]
    rcases Nat.eq_zero_or_pos k.val with h0 | hpos
    · rw [if_pos h0, if_pos (by omega : k.val + 1 < 50), if_neg (by omega : ¬ k.val + 1 = 0)]
      have hkp : kpred (k.val + 1) = k := Fin.ext (by simp only [kpred, Nat.add_sub_cancel]; exact Nat.mod_eq_of_lt hk)
      rw [hkp]
      exact tripStepF d L O W q X Tp hX hI2 hI3 k h0
    · have hkp : kpred (k.val + 1) = k := Fin.ext (by simp only [kpred, Nat.add_sub_cancel]; exact Nat.mod_eq_of_lt hk)
      have hkp1 : (kpred k.val).val + 1 = k.val := by simp only [kpred]; rw [Nat.mod_eq_of_lt (by omega)]; omega
      rw [if_neg (by omega : ¬ k.val = 0), if_neg (by omega : ¬ k.val + 1 = 0), hkp]
      rcases Nat.lt_or_ge k.val 49 with h49 | h49
      · rw [if_pos (by omega : k.val + 1 < 50)]
        exact tripStepM d L O W q X Tp hX hI2 hI3 k hpos h49 hkp1
      · rw [if_neg (by omega : ¬ k.val + 1 < 50)]
        exact tripStepL d L O W q X Tp hX hI2 hI3 k hpos (by omega) hkp1
  · unfold inv
    rw [if_pos (by decide : 0 < 50), if_pos rfl]
    unfold coreFly flyI1 flyG0 tbIdle owesPart
    isplitl [Hmw HX3 Hs9 HX4 Hs5 HT0 HT1 Hr1 Hs6 Hs8 HO]
    · isplitl [Hmw]; · iexact Hmw
      isplitl [HX3]; · iexact HX3
      isplitl [Hs9 HX4]
      · iexists _, _
        isplitl [Hs9]; · iexact Hs9
        isplitl [HX4]; · iexact HX4
        ipureintro
        exact ⟨hin_i1 (F := F) d L X hX _ _ _, idx_ok_write1 d L X (kOf 0) 1 _ _ _ (off1_eq1 L)⟩
      isplitl [Hs5 HT0]
      · iexists _, _, _
        isplitl [Hs5]; · iexact Hs5
        isplitl [HT0]; · iexact HT0
        ipureintro
        exact rows_ok_gather0 d L X Tp (kOf 0) 0 _ (idx_ok_write0 d L X (kOf 0) 0 _ _ _ (off1_eq0 L)) _ _ _
      isplitl [HT1]; · iexact HT1
      isplitl [Hr1]; · iexists _; iexact Hr1
      isplitl [Hs6]; · iexact Hs6
      isplitl [Hs8]; · iexact Hs8
      iexists _; isplitl [HO]; · iexact HO
      ipureintro; repeat (first | exact (fun p hp => Or.inl hp) | apply okW_insert)
    isplitl [Htb Hs7]
    · isplitl [Htb]; · iexists _; iexact Htb
      iexact Hs7
    isplitl [HSA]
    · iapply (SparseCore.ent (bigSep_mono (s := Finset.univ) (fun k' _ => SlA_mono d L X Tp (ok := False) (ok' := k'.val < 0) (fun h => by omega) k'))); iexact HSA
    · rw [show setB 0 = Finset.univ from by ext x; simp [setB]]
      iapply (SparseCore.ent (bigSep_mono (s := Finset.univ) (fun k' _ => SlB_mono d L X Tp (ok := False) (ok' := k'.val + 1 < 0) (fun h => by omega) k'))); iexact HSB
  iintro %_ HI
  unfold inv
  rw [if_neg (by decide : ¬ k0_t1_loop.trips < 50), if_neg (by decide : ¬ k0_t1_loop.trips = 0)]
  unfold coreIdle batchB owesPart
  icases HI with ⟨⟨Hmw, HX3, HX4, HT0, HT1, ⟨%g0', Hr0⟩, ⟨%g1', Hr1⟩, ⟨%f0', Hi0⟩, ⟨%f1', Hi1⟩, Hs5, Hs6, Hs8, Hs9, ⟨%W', HO, %hW'⟩⟩,
    ⟨%f, %ga0, %ga1, %ga2, %ga3, %ga4, %ga5, %ga6, %ga7, %ga8, %ga9, %ga10, %ga11, %ga12, %ga13, %ga14, %ga15, Hs7, %hTb⟩, HSA, HSB⟩
  sl_exec
  ihave Htb := (Entails.of_eq (tb_blocks (F := F) d L _).symm) $$ [Hs7_src0 Hs7_src1 Hs7_src2 Hs7_src3 Hs7_src4 Hs7_src5 Hs7_src6 Hs7_src7 Hs7_src8 Hs7_src9 Hs7_src10 Hs7_src11 Hs7_src12 Hs7_src13 Hs7_src14 Hs7_src15]
  · isplitl [Hs7_src0]; · iexact Hs7_src0
    isplitl [Hs7_src1]; · iexact Hs7_src1
    isplitl [Hs7_src2]; · iexact Hs7_src2
    isplitl [Hs7_src3]; · iexact Hs7_src3
    isplitl [Hs7_src4]; · iexact Hs7_src4
    isplitl [Hs7_src5]; · iexact Hs7_src5
    isplitl [Hs7_src6]; · iexact Hs7_src6
    isplitl [Hs7_src7]; · iexact Hs7_src7
    isplitl [Hs7_src8]; · iexact Hs7_src8
    isplitl [Hs7_src9]; · iexact Hs7_src9
    isplitl [Hs7_src10]; · iexact Hs7_src10
    isplitl [Hs7_src11]; · iexact Hs7_src11
    isplitl [Hs7_src12]; · iexact Hs7_src12
    isplitl [Hs7_src13]; · iexact Hs7_src13
    isplitl [Hs7_src14]; · iexact Hs7_src14
    iexact Hs7_src15
  sl_step
  ihave Hi0 := (Entails.of_eq (pts_b0 (F := F) d L _)) $$ Hi0
  ihave Hi1 := (Entails.of_eq (pts_b1 (F := F) d L _)) $$ Hi1
  ihave Hr0 := (Entails.of_eq (pts_b2 (F := F) d L _)) $$ Hr0
  ihave Hr1 := (Entails.of_eq (pts_b3 (F := F) d L _)) $$ Hr1
  ihave Htb := (Entails.of_eq (pts_b4 (F := F) d L _)) $$ Htb
  ihave HXt := (Entails.of_eq (bigSep_fin5 (F := F) (fun i : Fin 5 => (((xW).view.loc (V d (cV L) (jV L)) ↦{Transfers.shareTok q 5 i} X : sProp 𝕄)))).symm) $$ [HX0 HX1 HX2 HX3 HX4]
  · isplitl [HX0]; · iexact HX0
    isplitl [HX1]; · iexact HX1
    isplitl [HX2]; · iexact HX2
    isplitl [HX3]; · iexact HX3
    iexact HX4
  ihave HX := (Transfers.pointsTo_toks_join q 5) $$ [HXd HXt]
  · isplitl [HXd]; · iexact HXd
    iexact HXt
  ihave HX := (Entails.of_eq (pts_X (F := F) d L q X)) $$ HX
  ihave HTt := (Entails.of_eq (bigSep_fin5 (F := F) (fun i : Fin 5 => (((tW).view.loc (V d (cV L) (jV L)) ↦{Transfers.shareTok q 5 i} Tp : sProp 𝕄)))).symm) $$ [HT0 HT1 HT2 HT3 HT4]
  · isplitl [HT0]; · iexact HT0
    isplitl [HT1]; · iexact HT1
    isplitl [HT2]; · iexact HT2
    isplitl [HT3]; · iexact HT3
    iexact HT4
  ihave HT := (Transfers.pointsTo_toks_join q 5) $$ [HTd HTt]
  · isplitl [HTd]; · iexact HTd
    iexact HTt
  ihave HT := (Entails.of_eq (pts_T (F := F) d L q Tp)) $$ HT
  ihave HOutF := (out_final d L X Tp f hTb _ _ _ _ _ _ _ _ _ _ _ _ _ _ _ _) $$ [Hs7_dst0 Hs7_dst1 Hs7_dst2 Hs7_dst3 Hs7_dst4 Hs7_dst5 Hs7_dst6 Hs7_dst7 Hs7_dst8 Hs7_dst9 Hs7_dst10 Hs7_dst11 Hs7_dst12 Hs7_dst13 Hs7_dst14 Hs7_dst15 HSA HSB]
  · isplitl [Hs7_dst0]; · iexact Hs7_dst0
    isplitl [Hs7_dst1]; · iexact Hs7_dst1
    isplitl [Hs7_dst2]; · iexact Hs7_dst2
    isplitl [Hs7_dst3]; · iexact Hs7_dst3
    isplitl [Hs7_dst4]; · iexact Hs7_dst4
    isplitl [Hs7_dst5]; · iexact Hs7_dst5
    isplitl [Hs7_dst6]; · iexact Hs7_dst6
    isplitl [Hs7_dst7]; · iexact Hs7_dst7
    isplitl [Hs7_dst8]; · iexact Hs7_dst8
    isplitl [Hs7_dst9]; · iexact Hs7_dst9
    isplitl [Hs7_dst10]; · iexact Hs7_dst10
    isplitl [Hs7_dst11]; · iexact Hs7_dst11
    isplitl [Hs7_dst12]; · iexact Hs7_dst12
    isplitl [Hs7_dst13]; · iexact Hs7_dst13
    isplitl [Hs7_dst14]; · iexact Hs7_dst14
    isplitl [Hs7_dst15]; · iexact Hs7_dst15
    isplitl [HSA]; · iexact HSA
    iexact HSB
  isplitl [HX HT HOutF]
  · isplitl [HX]; · iexact HX
    isplitl [HT]; · iexact HT
    iexact HOutF
  isplitl [Hi0 Hi1 Hr0 Hr1 Htb Hbufs]
  · isplitl [Hi0]; · iexists _; iexact Hi0
    isplitl [Hi1]; · iexists _; iexact Hi1
    isplitl [Hr0]; · iexists _; iexact Hr0
    isplitl [Hr1]; · iexists _; iexact Hr1
    isplitl [Htb]; · iexists _; iexact Htb
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro; repeat (first | exact hW' | apply okW_insert)

end Body

/-! ## The tile's obligation of the launch -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (F := F) (coordsV c s) xW (Memref.isWhole_whole _) tW (Memref.isWhole_whole _) oW (Memref.isWhole_whole _) i0 (Memref.isWhole_whole _) i1 (Memref.isWhole_whole _) r0 (Memref.isWhole_whole _) r1 (Memref.isWhole_whole _) tb (Memref.isWhole_whole _) cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (Xv : (d : Dev nD) → Buf (Elt F) (xLoc d)) (Tv : (d : Dev nD) → Buf (Elt F) (tLoc d))
    (fo : (d : Dev nD) → Buf (Elt F) (oLoc d)) (hX : ∀ d j, (Xv d j).toNat < 1000000) :
    (K (F := F)).TileObl (D (F := F)) 𝒱 (P Xv Tv fo) v₀ 0 := by
  intro d c i O W hO _ _
  simp only [show (P Xv Tv fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) O W (qT (Fin.cast nCore_zero c) (Fin.cast nSub_zero i)) (Xv d) (Tv d) hF (hX d)
    (fun k v245 v275 g R f hD => Cert.Proof.KIB.inner2_trip d _ (w2 _) k v245 v275 g R f hD)
    (fun k v400 v401 v420 v421 v422 v423 g R f hD => Cert.Proof.KIB.inner3_trip d _ (w2 _) k v400 v401 v420 v421 v422 v423 g R f hD)
    (fo d) hO).trans (wp_mono frame _ _ fun _ => obl_post)

end Cert.Proof.KB
end
-- ==== Proof.lean ====
/- The proof of `Cert.Claim`: the word-level kernel and its idealization both run to completion leaving their arguments
   as they found them; so does the reference; nothing is to be preserved between the two kernels; and at the reals the
   kernel's result is the reference's. The kernel scales each looked-up table row by eight after transposing it through a
   staging scratch; the reference scales the looked-up array: the two agree entry by entry, by commutativity of the product. -/
import proofs.«206429_g47863115546636_cont_8to1c4_619_32_alg».proof.Defs
import proofs.«206429_g47863115546636_cont_8to1c4_619_32_alg».proof.Proof.Gen.Kernel
import proofs.«206429_g47863115546636_cont_8to1c4_619_32_alg».proof.Proof.Gen.Kernel.Skeleton
import proofs.«206429_g47863115546636_cont_8to1c4_619_32_alg».proof.Proof.Gen.KernelIdeal
import proofs.«206429_g47863115546636_cont_8to1c4_619_32_alg».proof.Proof.Gen.KernelIdeal.Skeleton
import proofs.«206429_g47863115546636_cont_8to1c4_619_32_alg».proof.Proof.Gen.ReferenceIdeal
import proofs.«206429_g47863115546636_cont_8to1c4_619_32_alg».proof.Proof.Gen.Pre_input_domain
import proofs.«206429_g47863115546636_cont_8to1c4_619_32_alg».proof.Proof.RefRun
import proofs.«206429_g47863115546636_cont_8to1c4_619_32_alg».proof.Proof.KLaunch
import proofs.«206429_g47863115546636_cont_8to1c4_619_32_alg».proof.Proof.KBody
import proofs.«206429_g47863115546636_cont_8to1c4_619_32_alg».proof.Proof.KLaunchB
import proofs.«206429_g47863115546636_cont_8to1c4_619_32_alg».proof.Proof.KBodyB
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts,
  fun m ρ hpre => Cert.Proof.KB.frame_gen (F := Bits) m ρ hpre
    (fun hX => Cert.Proof.KB.tileObl Cert.Proof.KB.facts _ _ _ hX),
  Cert.Proof.K.frame_k (fun _ hX => Cert.Proof.K.tileObl Cert.Proof.K.facts _ _ _ hX),
  Cert.Proof.Ref.frame_ri,
  trivial,
  Cert.Proof.K.algebraic_k (fun _ hX => Cert.Proof.K.tileObl Cert.Proof.K.facts _ _ _ hX)⟩

end Cert.Proof

end
